-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v389)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v389) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v419) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S2000x64 : Shape := ⟨2, ![2000, 64]⟩
abbrev S5000x64 : Shape := ⟨2, ![5000, 64]⟩
abbrev S2x6x64x64 : Shape := ⟨4, ![2, 6, 64, 64]⟩
abbrev S2x6x64 : Shape := ⟨3, ![2, 6, 64]⟩
abbrev S128x64 : Shape := ⟨2, ![128, 64]⟩
abbrev S64 : Shape := ⟨1, ![64]⟩
abbrev S64x4 : Shape := ⟨2, ![64, 4]⟩
abbrev S4 : Shape := ⟨1, ![4]⟩
abbrev S2000000 : Shape := ⟨1, ![2000000]⟩
abbrev S100000 : Shape := ⟨1, ![100000]⟩
abbrev S200000 : Shape := ⟨1, ![200000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S2000x64 : S_.BroadcastsInDim S2000x64 (![] : Fin 0 → Fin S2000x64.rank)
  reducesTo_S2000x64_S_d0_1 : S2000x64.ReducesTo [0, 1] S_
  bcast_S_S5000x64 : S_.BroadcastsInDim S5000x64 (![] : Fin 0 → Fin S5000x64.rank)
  reducesTo_S5000x64_S_d0_1 : S5000x64.ReducesTo [0, 1] S_
  bcast_S_S2x6x64x64 : S_.BroadcastsInDim S2x6x64x64 (![] : Fin 0 → Fin S2x6x64x64.rank)
  reducesTo_S2x6x64x64_S_d0_1_2_3 : S2x6x64x64.ReducesTo [0, 1, 2, 3] S_
  bcast_S_S2x6x64 : S_.BroadcastsInDim S2x6x64 (![] : Fin 0 → Fin S2x6x64.rank)
  reducesTo_S2x6x64_S_d0_1_2 : S2x6x64.ReducesTo [0, 1, 2] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x4 : S_.BroadcastsInDim S64x4 (![] : Fin 0 → Fin S64x4.rank)
  reducesTo_S64x4_S_d0_1 : S64x4.ReducesTo [0, 1] S_
  bcast_S_S4 : S_.BroadcastsInDim S4 (![] : Fin 0 → Fin S4.rank)
  reducesTo_S4_S_d0 : S4.ReducesTo [0] S_

variable [Facts]

def fn_part3 {F : FTy → Type} [FloatOps F] (main_v48 : IVec S_ 1) (main_v49 : FVec F S4 .f32) (main_v50 : FVec F S4 .f32) : IVec S_ 1 :=
  let main_v51 : IVec S4 1 := cmpf .olt main_v49 main_v50
  let main_c_19 : IVec S_ 1 := constantI S_ 1 1#1
  let main_v52 : IVec S_ 1 := (fun x v => Host.reduce IntOp.andi x v reducesTo_S4_S_d0 h_S_) main_v51 main_c_19
  let main_v53 : IVec S_ 1 := andi main_v48 main_v52
  main_v53

def fn_part2 {F : FTy → Type} [FloatOps F] (main_arg7 : FVec F S128x64 .f32) (main_arg8 : FVec F S64 .f32) (main_arg9 : FVec F S64x4 .f32) (main_arg10 : FVec F S4 .f32) (main_v33 : IVec S_ 1) : IVec S_ 1 :=
  let main_v34 : FVec F S128x64 .f32 := Host.absf main_arg7
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x4 .f32 := Host.absf main_arg9
  let main_cst_16 : FVec F S_ .f32 := constant S_ .f32 0x7F800000#32
  let main_v45 : FVec F S64x4 .f32 := broadcastInDim S64x4 ![] bcast_S_S64x4 main_cst_16
  let main_v46 : IVec S64x4 1 := cmpf .olt main_v44 main_v45
  let main_c_17 : IVec S_ 1 := constantI S_ 1 1#1
  let main_v47 : IVec S_ 1 := (fun x v => Host.reduce IntOp.andi x v reducesTo_S64x4_S_d0_1 h_S_) main_v46 main_c_17
  let main_v48 : IVec S_ 1 := andi main_v43 main_v47
  let main_v49 : FVec F S4 .f32 := Host.absf main_arg10
  let main_cst_18 : FVec F S_ .f32 := constant S_ .f32 0x7F800000#32
  let main_v50 : FVec F S4 .f32 := broadcastInDim S4 ![] bcast_S_S4 main_cst_18
  fn_part3 (F := F) main_v48 main_v49 main_v50

def fn_part1 {F : FTy → Type} [FloatOps F] (main_arg4 : FVec F S2x6x64x64 .f32) (main_arg5 : FVec F S2x6x64 .f32) (main_arg6 : FVec F S2x6x64x64 .f32) (main_arg7 : FVec F S128x64 .f32) (main_arg8 : FVec F S64 .f32) (main_arg9 : FVec F S64x4 .f32) (main_arg10 : FVec F S4 .f32) (main_v13 : IVec S_ 1) (main_v16 : IVec S5000x64 1) : IVec S_ 1 :=
  let main_c_5 : IVec S_ 1 := constantI S_ 1 1#1
  let main_v17 : IVec S_ 1 := (fun x v => Host.reduce IntOp.andi x v reducesTo_S5000x64_S_d0_1 h_S_) main_v16 main_c_5
  let main_v18 : IVec S_ 1 := andi main_v13 main_v17
  let main_v19 : FVec F S2x6x64x64 .f32 := Host.absf main_arg4
  let main_cst_6 : FVec F S_ .f32 := constant S_ .f32 0x7F800000#32
  let main_v20 : FVec F S2x6x64x64 .f32 := broadcastInDim S2x6x64x64 ![] bcast_S_S2x6x64x64 main_cst_6
  let main_v21 : IVec S2x6x64x64 1 := cmpf .olt main_v19 main_v20
  let main_c_7 : IVec S_ 1 := constantI S_ 1 1#1
  let main_v22 : IVec S_ 1 := (fun x v => Host.reduce IntOp.andi x v reducesTo_S2x6x64x64_S_d0_1_2_3 h_S_) main_v21 main_c_7
  let main_v23 : IVec S_ 1 := andi main_v18 main_v22
  let main_v24 : FVec F S2x6x64 .f32 := Host.absf main_arg5
  let main_cst_8 : FVec F S_ .f32 := constant S_ .f32 0x7F800000#32
  let main_v25 : FVec F S2x6x64 .f32 := broadcastInDim S2x6x64 ![] bcast_S_S2x6x64 main_cst_8
  let main_v26 : IVec S2x6x64 1 := cmpf .olt main_v24 main_v25
  let main_c_9 : IVec S_ 1 := constantI S_ 1 1#1
  let main_v27 : IVec S_ 1 := (fun x v => Host.reduce IntOp.andi x v reducesTo_S2x6x64_S_d0_1_2 h_S_) main_v26 main_c_9
  let main_v28 : IVec S_ 1 := andi main_v23 main_v27
  let main_v29 : FVec F S2x6x64x64 .f32 := Host.absf main_arg6
  let main_cst_10 : FVec F S_ .f32 := constant S_ .f32 0x7F800000#32
  let main_v30 : FVec F S2x6x64x64 .f32 := broadcastInDim S2x6x64x64 ![] bcast_S_S2x6x64x64 main_cst_10
  let main_v31 : IVec S2x6x64x64 1 := cmpf .olt main_v29 main_v30
  let main_c_11 : IVec S_ 1 := constantI S_ 1 1#1
  let main_v32 : IVec S_ 1 := (fun x v => Host.reduce IntOp.andi x v reducesTo_S2x6x64x64_S_d0_1_2_3 h_S_) main_v31 main_c_11
  let main_v33 : IVec S_ 1 := andi main_v28 main_v32
  fn_part2 (F := F) main_arg7 main_arg8 main_arg9 main_arg10 main_v33

def fn {F : FTy → Type} [FloatOps F] (main_arg0 : FVec F S100000x64 .f32) (main_arg1 : FVec F S50000x64 .f32) (main_arg2 : FVec F S2000x64 .f32) (main_arg3 : FVec F S5000x64 .f32) (main_arg4 : FVec F S2x6x64x64 .f32) (main_arg5 : FVec F S2x6x64 .f32) (main_arg6 : FVec F S2x6x64x64 .f32) (main_arg7 : FVec F S128x64 .f32) (main_arg8 : FVec F S64 .f32) (main_arg9 : FVec F S64x4 .f32) (main_arg10 : FVec F S4 .f32) (main_arg11 : IVec S2000000 32) (main_arg12 : IVec S2000000 32) (main_arg13 : IVec S2000000 32) (main_arg14 : IVec S2000000 32) (main_arg15 : IVec S100000 32) (main_arg16 : IVec S100000 32) (main_arg17 : IVec S100000 32) (main_arg18 : IVec S100000 32) (main_arg19 : IVec S200000 32) (main_arg20 : IVec S200000 32) (main_arg21 : IVec S200000 32) (main_arg22 : IVec S200000 32) (main_arg23 : IVec S100000 32) (main_arg24 : IVec S100000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S2000x64 .f32 := Host.absf main_arg2
  let main_cst_2 : FVec F S_ .f32 := constant S_ .f32 0x7F800000#32
  let main_v10 : FVec F S2000x64 .f32 := broadcastInDim S2000x64 ![] bcast_S_S2000x64 main_cst_2
  let main_v11 : IVec S2000x64 1 := cmpf .olt main_v9 main_v10
  let main_c_3 : IVec S_ 1 := constantI S_ 1 1#1
  let main_v12 : IVec S_ 1 := (fun x v => Host.reduce IntOp.andi x v reducesTo_S2000x64_S_d0_1 h_S_) main_v11 main_c_3
  let main_v13 : IVec S_ 1 := andi main_v8 main_v12
  let main_v14 : FVec F S5000x64 .f32 := Host.absf main_arg3
  let main_cst_4 : FVec F S_ .f32 := constant S_ .f32 0x7F800000#32
  let main_v15 : FVec F S5000x64 .f32 := broadcastInDim S5000x64 ![] bcast_S_S5000x64 main_cst_4
  let main_v16 : IVec S5000x64 1 := cmpf .olt main_v14 main_v15
  fn_part1 (F := F) main_arg4 main_arg5 main_arg6 main_arg7 main_arg8 main_arg9 main_arg10 main_v13 main_v16
-- ==== Kernel.lean ====
abbrev S100000x64 : Shape := ⟨2, ![100000, 64]⟩
abbrev S50000x64 : Shape := ⟨2, ![50000, 64]⟩
abbrev S2000x64 : Shape := ⟨2, ![2000, 64]⟩
abbrev S5000x64 : Shape := ⟨2, ![5000, 64]⟩
abbrev S2x6x64x64 : Shape := ⟨4, ![2, 6, 64, 64]⟩
abbrev S2x6x64 : Shape := ⟨3, ![2, 6, 64]⟩
abbrev S128x64 : Shape := ⟨2, ![128, 64]⟩
abbrev S64 : Shape := ⟨1, ![64]⟩
abbrev S64x4 : Shape := ⟨2, ![64, 4]⟩
abbrev S4 : Shape := ⟨1, ![4]⟩
abbrev S2000000 : Shape := ⟨1, ![2000000]⟩
abbrev S100000 : Shape := ⟨1, ![100000]⟩
abbrev S200000 : Shape := ⟨1, ![200000]⟩
abbrev S_ : Shape := ⟨0, ![]⟩
abbrev S2000000x1 : Shape := ⟨2, ![2000000, 1]⟩
abbrev S2000000x64 : Shape := ⟨2, ![2000000, 64]⟩
abbrev S100000x1 : Shape := ⟨2, ![100000, 1]⟩
abbrev S50000 : Shape := ⟨1, ![50000]⟩
abbrev S50000x1 : Shape := ⟨2, ![50000, 1]⟩
abbrev S2000 : Shape := ⟨1, ![2000]⟩
abbrev S2000x1 : Shape := ⟨2, ![2000, 1]⟩
abbrev S200000x1 : Shape := ⟨2, ![200000, 1]⟩
abbrev S200000x64 : Shape := ⟨2, ![200000, 64]⟩
abbrev S5000 : Shape := ⟨1, ![5000]⟩
abbrev S5000x1 : Shape := ⟨2, ![5000, 1]⟩
abbrev S100000x192 : Shape := ⟨2, ![100000, 192]⟩
abbrev S1x1x64x64 : Shape := ⟨4, ![1, 1, 64, 64]⟩
abbrev S64x64 : Shape := ⟨2, ![64, 64]⟩
abbrev S192x64 : Shape := ⟨2, ![192, 64]⟩
abbrev S1x1x64 : Shape := ⟨3, ![1, 1, 64]⟩
abbrev S1x64 : Shape := ⟨2, ![1, 64]⟩
abbrev S2000x192 : Shape := ⟨2, ![2000, 192]⟩
abbrev S50000x192 : Shape := ⟨2, ![50000, 192]⟩
abbrev S2000x128 : Shape := ⟨2, ![2000, 128]⟩
abbrev S5000x128 : Shape := ⟨2, ![5000, 128]⟩
abbrev S1000x128 : Shape := ⟨2, ![1000, 128]⟩
abbrev S1000x64 : Shape := ⟨2, ![1000, 64]⟩
abbrev S100000x128 : Shape := ⟨2, ![100000, 128]⟩
abbrev S1x4 : Shape := ⟨2, ![1, 4]⟩
abbrev S100000x4 : Shape := ⟨2, ![100000, 4]⟩
abbrev S2000x4 : Shape := ⟨2, ![2000, 4]⟩

abbrev nBuf : Space → Nat
  | .hbm => 507
  | .vmem => 52
  | .smem => 0
  | _ => 0

abbrev hbmTy0_0 (i : Nat) : BufTy := match i % 128 with
  | 0 => ⟨S100000x64, .f32⟩
  | 1 => ⟨S50000x64, .f32⟩
  | 2 => ⟨S2000x64, .f32⟩
  | 3 => ⟨S5000x64, .f32⟩
  | 4 => ⟨S2x6x64x64, .f32⟩
  | 5 => ⟨S2x6x64, .f32⟩
  | 6 => ⟨S2x6x64x64, .f32⟩
  | 7 => ⟨S128x64, .f32⟩
  | 8 => ⟨S64, .f32⟩
  | 9 => ⟨S64x4, .f32⟩
  | 10 => ⟨S4, .f32⟩
  | 11 => ⟨S2000000, .i32⟩
  | 12 => ⟨S2000000, .i32⟩
  | 13 => ⟨S2000000, .i32⟩
  | 14 => ⟨S2000000, .i32⟩
  | 15 => ⟨S100000, .i32⟩
  | 16 => ⟨S100000, .i32⟩
  | 17 => ⟨S100000, .i32⟩
  | 18 => ⟨S100000, .i32⟩
  | 19 => ⟨S200000, .i32⟩
  | 20 => ⟨S200000, .i32⟩
  | 21 => ⟨S200000, .i32⟩
  | 22 => ⟨S200000, .i32⟩
  | 23 => ⟨S100000, .i32⟩
  | 24 => ⟨S100000, .i32⟩
  | 25 => ⟨S_, .i32⟩
  | 26 => ⟨S2000000, .i32⟩
  | 27 => ⟨S2000000, .i1⟩
  | 28 => ⟨S_, .i32⟩
  | 29 => ⟨S2000000, .i32⟩
  | 30 => ⟨S2000000, .i32⟩
  | 31 => ⟨S2000000, .i32⟩
  | 32 => ⟨S2000000x1, .i32⟩
  | 33 => ⟨S2000000x64, .f32⟩
  | 34 => ⟨S_, .f32⟩
  | 35 => ⟨S100000x64, .f32⟩
  | 36 => ⟨S2000000x1, .i32⟩
  | 37 => ⟨S100000x64, .f32⟩
  | 38 => ⟨S_, .f32⟩
  | 39 => ⟨S2000000, .f32⟩
  | 40 => ⟨S_, .f32⟩
  | 41 => ⟨S100000, .f32⟩
  | 42 => ⟨S2000000x1, .i32⟩
  | 43 => ⟨S100000, .f32⟩
  | 44 => ⟨S_, .f32⟩
  | 45 => ⟨S100000, .f32⟩
  | 46 => ⟨S100000, .f32⟩
  | 47 => ⟨S100000x1, .f32⟩
  | 48 => ⟨S100000x64, .f32⟩
  | 49 => ⟨S100000x64, .f32⟩
  | 50 => ⟨S_, .i32⟩
  | 51 => ⟨S2000000, .i32⟩
  | 52 => ⟨S2000000, .i1⟩
  | 53 => ⟨S_, .i32⟩
  | 54 => ⟨S2000000, .i32⟩
  | 55 => ⟨S2000000, .i32⟩
  | 56 => ⟨S2000000, .i32⟩
  | 57 => ⟨S2000000x1, .i32⟩
  | 58 => ⟨S2000000x64, .f32⟩
  | 59 => ⟨S_, .f32⟩
  | 60 => ⟨S50000x64, .f32⟩
  | 61 => ⟨S2000000x1, .i32⟩
  | 62 => ⟨S50000x64, .f32⟩
  | 63 => ⟨S_, .f32⟩
  | 64 => ⟨S2000000, .f32⟩
  | 65 => ⟨S_, .f32⟩
  | 66 => ⟨S50000, .f32⟩
  | 67 => ⟨S2000000x1, .i32⟩
  | 68 => ⟨S50000, .f32⟩
  | 69 => ⟨S_, .f32⟩
  | 70 => ⟨S50000, .f32⟩
  | 71 => ⟨S50000, .f32⟩
  | 72 => ⟨S50000x1, .f32⟩
  | 73 => ⟨S50000x64, .f32⟩
  | 74 => ⟨S50000x64, .f32⟩
  | 75 => ⟨S_, .i32⟩
  | 76 => ⟨S100000, .i32⟩
  | 77 => ⟨S100000, .i1⟩
  | 78 => ⟨S_, .i32⟩
  | 79 => ⟨S100000, .i32⟩
  | 80 => ⟨S100000, .i32⟩
  | 81 => ⟨S100000, .i32⟩
  | 82 => ⟨S100000x1, .i32⟩
  | 83 => ⟨S100000x64, .f32⟩
  | 84 => ⟨S_, .f32⟩
  | 85 => ⟨S2000x64, .f32⟩
  | 86 => ⟨S100000x1, .i32⟩
  | 87 => ⟨S2000x64, .f32⟩
  | 88 => ⟨S_, .f32⟩
  | 89 => ⟨S100000, .f32⟩
  | 90 => ⟨S_, .f32⟩
  | 91 => ⟨S2000, .f32⟩
  | 92 => ⟨S100000x1, .i32⟩
  | 93 => ⟨S2000, .f32⟩
  | 94 => ⟨S_, .f32⟩
  | 95 => ⟨S2000, .f32⟩
  | 96 => ⟨S2000, .f32⟩
  | 97 => ⟨S2000x1, .f32⟩
  | 98 => ⟨S2000x64, .f32⟩
  | 99 => ⟨S2000x64, .f32⟩
  | 100 => ⟨S_, .i32⟩
  | 101 => ⟨S100000, .i32⟩
  | 102 => ⟨S100000, .i1⟩
  | 103 => ⟨S_, .i32⟩
  | 104 => ⟨S100000, .i32⟩
  | 105 => ⟨S100000, .i32⟩
  | 106 => ⟨S100000, .i32⟩
  | 107 => ⟨S100000x1, .i32⟩
  | 108 => ⟨S100000x64, .f32⟩
  | 109 => ⟨S_, .f32⟩
  | 110 => ⟨S50000x64, .f32⟩
  | 111 => ⟨S100000x1, .i32⟩
  | 112 => ⟨S50000x64, .f32⟩
  | 113 => ⟨S_, .f32⟩
  | 114 => ⟨S100000, .f32⟩
  | 115 => ⟨S_, .f32⟩
  | 116 => ⟨S50000, .f32⟩
  | 117 => ⟨S100000x1, .i32⟩
  | 118 => ⟨S50000, .f32⟩
  | 119 => ⟨S_, .f32⟩
  | 120 => ⟨S50000, .f32⟩
  | 121 => ⟨S50000, .f32⟩
  | 122 => ⟨S50000x1, .f32⟩
  | 123 => ⟨S50000x64, .f32⟩
  | 124 => ⟨S50000x64, .f32⟩
  | 125 => ⟨S_, .i32⟩
  | 126 => ⟨S200000, .i32⟩
  | 127 => ⟨S200000, .i1⟩
  | _ => ⟨S100000x64, .f32⟩

abbrev hbmTy0_1 (i : Nat) : BufTy := match i % 128 with
  | 0 => ⟨S_, .i32⟩
  | 1 => ⟨S200000, .i32⟩
  | 2 => ⟨S200000, .i32⟩
  | 3 => ⟨S200000, .i32⟩
  | 4 => ⟨S200000x1, .i32⟩
  | 5 => ⟨S200000x64, .f32⟩
  | 6 => ⟨S_, .f32⟩
  | 7 => ⟨S5000x64, .f32⟩
  | 8 => ⟨S200000x1, .i32⟩
  | 9 => ⟨S5000x64, .f32⟩
  | 10 => ⟨S_, .f32⟩
  | 11 => ⟨S200000, .f32⟩
  | 12 => ⟨S_, .f32⟩
  | 13 => ⟨S5000, .f32⟩
  | 14 => ⟨S200000x1, .i32⟩
  | 15 => ⟨S5000, .f32⟩
  | 16 => ⟨S_, .f32⟩
  | 17 => ⟨S5000, .f32⟩
  | 18 => ⟨S5000, .f32⟩
  | 19 => ⟨S5000x1, .f32⟩
  | 20 => ⟨S5000x64, .f32⟩
  | 21 => ⟨S5000x64, .f32⟩
  | 22 => ⟨S_, .i32⟩
  | 23 => ⟨S200000, .i32⟩
  | 24 => ⟨S200000, .i1⟩
  | 25 => ⟨S_, .i32⟩
  | 26 => ⟨S200000, .i32⟩
  | 27 => ⟨S200000, .i32⟩
  | 28 => ⟨S200000, .i32⟩
  | 29 => ⟨S200000x1, .i32⟩
  | 30 => ⟨S200000x64, .f32⟩
  | 31 => ⟨S_, .f32⟩
  | 32 => ⟨S100000x64, .f32⟩
  | 33 => ⟨S200000x1, .i32⟩
  | 34 => ⟨S100000x64, .f32⟩
  | 35 => ⟨S_, .f32⟩
  | 36 => ⟨S200000, .f32⟩
  | 37 => ⟨S_, .f32⟩
  | 38 => ⟨S100000, .f32⟩
  | 39 => ⟨S200000x1, .i32⟩
  | 40 => ⟨S100000, .f32⟩
  | 41 => ⟨S_, .f32⟩
  | 42 => ⟨S100000, .f32⟩
  | 43 => ⟨S100000, .f32⟩
  | 44 => ⟨S100000x1, .f32⟩
  | 45 => ⟨S100000x64, .f32⟩
  | 46 => ⟨S100000x64, .f32⟩
  | 47 => ⟨S100000x192, .f32⟩
  | 48 => ⟨S1x1x64x64, .f32⟩
  | 49 => ⟨S64x64, .f32⟩
  | 50 => ⟨S1x1x64x64, .f32⟩
  | 51 => ⟨S64x64, .f32⟩
  | 52 => ⟨S1x1x64x64, .f32⟩
  | 53 => ⟨S64x64, .f32⟩
  | 54 => ⟨S_, .f32⟩
  | 55 => ⟨S64x64, .f32⟩
  | 56 => ⟨S64x64, .f32⟩
  | 57 => ⟨S1x1x64x64, .f32⟩
  | 58 => ⟨S64x64, .f32⟩
  | 59 => ⟨S64x64, .f32⟩
  | 60 => ⟨S192x64, .f32⟩
  | 61 => ⟨S1x1x64, .f32⟩
  | 62 => ⟨S64, .f32⟩
  | 63 => ⟨S_, .f32⟩
  | 64 => ⟨S64, .f32⟩
  | 65 => ⟨S64, .f32⟩
  | 66 => ⟨S1x1x64, .f32⟩
  | 67 => ⟨S64, .f32⟩
  | 68 => ⟨S64, .f32⟩
  | 69 => ⟨S1x64, .f32⟩
  | 70 => ⟨S100000x64, .f32⟩
  | 71 => ⟨S50000x192, .f32⟩
  | 72 => ⟨S1x1x64x64, .f32⟩
  | 73 => ⟨S64x64, .f32⟩
  | 74 => ⟨S1x1x64x64, .f32⟩
  | 75 => ⟨S64x64, .f32⟩
  | 76 => ⟨S1x1x64x64, .f32⟩
  | 77 => ⟨S64x64, .f32⟩
  | 78 => ⟨S_, .f32⟩
  | 79 => ⟨S64x64, .f32⟩
  | 80 => ⟨S64x64, .f32⟩
  | 81 => ⟨S1x1x64x64, .f32⟩
  | 82 => ⟨S64x64, .f32⟩
  | 83 => ⟨S64x64, .f32⟩
  | 84 => ⟨S192x64, .f32⟩
  | 85 => ⟨S1x1x64, .f32⟩
  | 86 => ⟨S64, .f32⟩
  | 87 => ⟨S_, .f32⟩
  | 88 => ⟨S64, .f32⟩
  | 89 => ⟨S64, .f32⟩
  | 90 => ⟨S1x1x64, .f32⟩
  | 91 => ⟨S64, .f32⟩
  | 92 => ⟨S64, .f32⟩
  | 93 => ⟨S1x64, .f32⟩
  | 94 => ⟨S50000x64, .f32⟩
  | 95 => ⟨S2000x128, .f32⟩
  | 96 => ⟨S1x1x64x64, .f32⟩
  | 97 => ⟨S64x64, .f32⟩
  | 98 => ⟨S1x1x64x64, .f32⟩
  | 99 => ⟨S64x64, .f32⟩
  | 100 => ⟨S_, .f32⟩
  | 101 => ⟨S64x64, .f32⟩
  | 102 => ⟨S64x64, .f32⟩
  | 103 => ⟨S128x64, .f32⟩
  | 104 => ⟨S1x1x64, .f32⟩
  | 105 => ⟨S64, .f32⟩
  | 106 => ⟨S_, .f32⟩
  | 107 => ⟨S64, .f32⟩
  | 108 => ⟨S64, .f32⟩
  | 109 => ⟨S1x64, .f32⟩
  | 110 => ⟨S2000x64, .f32⟩
  | 111 => ⟨S5000x128, .f32⟩
  | 112 => ⟨S1x1x64x64, .f32⟩
  | 113 => ⟨S64x64, .f32⟩
  | 114 => ⟨S1x1x64x64, .f32⟩
  | 115 => ⟨S64x64, .f32⟩
  | 116 => ⟨S_, .f32⟩
  | 117 => ⟨S64x64, .f32⟩
  | 118 => ⟨S64x64, .f32⟩
  | 119 => ⟨S128x64, .f32⟩
  | 120 => ⟨S1x1x64, .f32⟩
  | 121 => ⟨S64, .f32⟩
  | 122 => ⟨S_, .f32⟩
  | 123 => ⟨S64, .f32⟩
  | 124 => ⟨S64, .f32⟩
  | 125 => ⟨S1x64, .f32⟩
  | 126 => ⟨S5000x64, .f32⟩
  | 127 => ⟨S_, .i32⟩
  | _ => ⟨S100000x64, .f32⟩

abbrev hbmTy0_2 (i : Nat) : BufTy := match i % 128 with
  | 0 => ⟨S2000000, .i32⟩
  | 1 => ⟨S2000000, .i1⟩
  | 2 => ⟨S_, .i32⟩
  | 3 => ⟨S2000000, .i32⟩
  | 4 => ⟨S2000000, .i32⟩
  | 5 => ⟨S2000000, .i32⟩
  | 6 => ⟨S2000000x1, .i32⟩
  | 7 => ⟨S2000000x64, .f32⟩
  | 8 => ⟨S_, .f32⟩
  | 9 => ⟨S100000x64, .f32⟩
  | 10 => ⟨S2000000x1, .i32⟩
  | 11 => ⟨S100000x64, .f32⟩
  | 12 => ⟨S_, .f32⟩
  | 13 => ⟨S2000000, .f32⟩
  | 14 => ⟨S_, .f32⟩
  | 15 => ⟨S100000, .f32⟩
  | 16 => ⟨S2000000x1, .i32⟩
  | 17 => ⟨S100000, .f32⟩
  | 18 => ⟨S_, .f32⟩
  | 19 => ⟨S100000, .f32⟩
  | 20 => ⟨S100000, .f32⟩
  | 21 => ⟨S100000x1, .f32⟩
  | 22 => ⟨S100000x64, .f32⟩
  | 23 => ⟨S100000x64, .f32⟩
  | 24 => ⟨S_, .i32⟩
  | 25 => ⟨S2000000, .i32⟩
  | 26 => ⟨S2000000, .i1⟩
  | 27 => ⟨S_, .i32⟩
  | 28 => ⟨S2000000, .i32⟩
  | 29 => ⟨S2000000, .i32⟩
  | 30 => ⟨S2000000, .i32⟩
  | 31 => ⟨S2000000x1, .i32⟩
  | 32 => ⟨S2000000x64, .f32⟩
  | 33 => ⟨S_, .f32⟩
  | 34 => ⟨S50000x64, .f32⟩
  | 35 => ⟨S2000000x1, .i32⟩
  | 36 => ⟨S50000x64, .f32⟩
  | 37 => ⟨S_, .f32⟩
  | 38 => ⟨S2000000, .f32⟩
  | 39 => ⟨S_, .f32⟩
  | 40 => ⟨S50000, .f32⟩
  | 41 => ⟨S2000000x1, .i32⟩
  | 42 => ⟨S50000, .f32⟩
  | 43 => ⟨S_, .f32⟩
  | 44 => ⟨S50000, .f32⟩
  | 45 => ⟨S50000, .f32⟩
  | 46 => ⟨S50000x1, .f32⟩
  | 47 => ⟨S50000x64, .f32⟩
  | 48 => ⟨S50000x64, .f32⟩
  | 49 => ⟨S_, .i32⟩
  | 50 => ⟨S100000, .i32⟩
  | 51 => ⟨S100000, .i1⟩
  | 52 => ⟨S_, .i32⟩
  | 53 => ⟨S100000, .i32⟩
  | 54 => ⟨S100000, .i32⟩
  | 55 => ⟨S100000, .i32⟩
  | 56 => ⟨S100000x1, .i32⟩
  | 57 => ⟨S100000x64, .f32⟩
  | 58 => ⟨S_, .f32⟩
  | 59 => ⟨S2000x64, .f32⟩
  | 60 => ⟨S100000x1, .i32⟩
  | 61 => ⟨S2000x64, .f32⟩
  | 62 => ⟨S_, .f32⟩
  | 63 => ⟨S100000, .f32⟩
  | 64 => ⟨S_, .f32⟩
  | 65 => ⟨S2000, .f32⟩
  | 66 => ⟨S100000x1, .i32⟩
  | 67 => ⟨S2000, .f32⟩
  | 68 => ⟨S_, .f32⟩
  | 69 => ⟨S2000, .f32⟩
  | 70 => ⟨S2000, .f32⟩
  | 71 => ⟨S2000x1, .f32⟩
  | 72 => ⟨S2000x64, .f32⟩
  | 73 => ⟨S2000x64, .f32⟩
  | 74 => ⟨S_, .i32⟩
  | 75 => ⟨S100000, .i32⟩
  | 76 => ⟨S100000, .i1⟩
  | 77 => ⟨S_, .i32⟩
  | 78 => ⟨S100000, .i32⟩
  | 79 => ⟨S100000, .i32⟩
  | 80 => ⟨S100000, .i32⟩
  | 81 => ⟨S100000x1, .i32⟩
  | 82 => ⟨S100000x64, .f32⟩
  | 83 => ⟨S_, .f32⟩
  | 84 => ⟨S50000x64, .f32⟩
  | 85 => ⟨S100000x1, .i32⟩
  | 86 => ⟨S50000x64, .f32⟩
  | 87 => ⟨S_, .f32⟩
  | 88 => ⟨S100000, .f32⟩
  | 89 => ⟨S_, .f32⟩
  | 90 => ⟨S50000, .f32⟩
  | 91 => ⟨S100000x1, .i32⟩
  | 92 => ⟨S50000, .f32⟩
  | 93 => ⟨S_, .f32⟩
  | 94 => ⟨S50000, .f32⟩
  | 95 => ⟨S50000, .f32⟩
  | 96 => ⟨S50000x1, .f32⟩
  | 97 => ⟨S50000x64, .f32⟩
  | 98 => ⟨S50000x64, .f32⟩
  | 99 => ⟨S_, .i32⟩
  | 100 => ⟨S200000, .i32⟩
  | 101 => ⟨S200000, .i1⟩
  | 102 => ⟨S_, .i32⟩
  | 103 => ⟨S200000, .i32⟩
  | 104 => ⟨S200000, .i32⟩
  | 105 => ⟨S200000, .i32⟩
  | 106 => ⟨S200000x1, .i32⟩
  | 107 => ⟨S200000x64, .f32⟩
  | 108 => ⟨S_, .f32⟩
  | 109 => ⟨S5000x64, .f32⟩
  | 110 => ⟨S200000x1, .i32⟩
  | 111 => ⟨S5000x64, .f32⟩
  | 112 => ⟨S_, .f32⟩
  | 113 => ⟨S200000, .f32⟩
  | 114 => ⟨S_, .f32⟩
  | 115 => ⟨S5000, .f32⟩
  | 116 => ⟨S200000x1, .i32⟩
  | 117 => ⟨S5000, .f32⟩
  | 118 => ⟨S_, .f32⟩
  | 119 => ⟨S5000, .f32⟩
  | 120 => ⟨S5000, .f32⟩
  | 121 => ⟨S5000x1, .f32⟩
  | 122 => ⟨S5000x64, .f32⟩
  | 123 => ⟨S5000x64, .f32⟩
  | 124 => ⟨S_, .i32⟩
  | 125 => ⟨S200000, .i32⟩
  | 126 => ⟨S200000, .i1⟩
  | 127 => ⟨S_, .i32⟩
  | _ => ⟨S100000x64, .f32⟩

abbrev hbmTy0_3 (i : Nat) : BufTy := match i % 128 with
  | 0 => ⟨S200000, .i32⟩
  | 1 => ⟨S200000, .i32⟩
  | 2 => ⟨S200000, .i32⟩
  | 3 => ⟨S200000x1, .i32⟩
  | 4 => ⟨S200000x64, .f32⟩
  | 5 => ⟨S_, .f32⟩
  | 6 => ⟨S100000x64, .f32⟩
  | 7 => ⟨S200000x1, .i32⟩
  | 8 => ⟨S100000x64, .f32⟩
  | 9 => ⟨S_, .f32⟩
  | 10 => ⟨S200000, .f32⟩
  | 11 => ⟨S_, .f32⟩
  | 12 => ⟨S100000, .f32⟩
  | 13 => ⟨S200000x1, .i32⟩
  | 14 => ⟨S100000, .f32⟩
  | 15 => ⟨S_, .f32⟩
  | 16 => ⟨S100000, .f32⟩
  | 17 => ⟨S100000, .f32⟩
  | 18 => ⟨S100000x1, .f32⟩
  | 19 => ⟨S100000x64, .f32⟩
  | 20 => ⟨S100000x64, .f32⟩
  | 21 => ⟨S100000x192, .f32⟩
  | 22 => ⟨S1x1x64x64, .f32⟩
  | 23 => ⟨S64x64, .f32⟩
  | 24 => ⟨S1x1x64x64, .f32⟩
  | 25 => ⟨S64x64, .f32⟩
  | 26 => ⟨S1x1x64x64, .f32⟩
  | 27 => ⟨S64x64, .f32⟩
  | 28 => ⟨S_, .f32⟩
  | 29 => ⟨S64x64, .f32⟩
  | 30 => ⟨S64x64, .f32⟩
  | 31 => ⟨S1x1x64x64, .f32⟩
  | 32 => ⟨S64x64, .f32⟩
  | 33 => ⟨S64x64, .f32⟩
  | 34 => ⟨S192x64, .f32⟩
  | 35 => ⟨S1x1x64, .f32⟩
  | 36 => ⟨S64, .f32⟩
  | 37 => ⟨S_, .f32⟩
  | 38 => ⟨S64, .f32⟩
  | 39 => ⟨S64, .f32⟩
  | 40 => ⟨S1x1x64, .f32⟩
  | 41 => ⟨S64, .f32⟩
  | 42 => ⟨S64, .f32⟩
  | 43 => ⟨S1x64, .f32⟩
  | 44 => ⟨S100000x64, .f32⟩
  | 45 => ⟨S50000x192, .f32⟩
  | 46 => ⟨S1x1x64x64, .f32⟩
  | 47 => ⟨S64x64, .f32⟩
  | 48 => ⟨S1x1x64x64, .f32⟩
  | 49 => ⟨S64x64, .f32⟩
  | 50 => ⟨S1x1x64x64, .f32⟩
  | 51 => ⟨S64x64, .f32⟩
  | 52 => ⟨S_, .f32⟩
  | 53 => ⟨S64x64, .f32⟩
  | 54 => ⟨S64x64, .f32⟩
  | 55 => ⟨S1x1x64x64, .f32⟩
  | 56 => ⟨S64x64, .f32⟩
  | 57 => ⟨S64x64, .f32⟩
  | 58 => ⟨S192x64, .f32⟩
  | 59 => ⟨S1x1x64, .f32⟩
  | 60 => ⟨S64, .f32⟩
  | 61 => ⟨S_, .f32⟩
  | 62 => ⟨S64, .f32⟩
  | 63 => ⟨S64, .f32⟩
  | 64 => ⟨S1x1x64, .f32⟩
  | 65 => ⟨S64, .f32⟩
  | 66 => ⟨S64, .f32⟩
  | 67 => ⟨S1x64, .f32⟩
  | 68 => ⟨S50000x64, .f32⟩
  | 69 => ⟨S2000x128, .f32⟩
  | 70 => ⟨S1x1x64x64, .f32⟩
  | 71 => ⟨S64x64, .f32⟩
  | 72 => ⟨S1x1x64x64, .f32⟩
  | 73 => ⟨S64x64, .f32⟩
  | 74 => ⟨S_, .f32⟩
  | 75 => ⟨S64x64, .f32⟩
  | 76 => ⟨S64x64, .f32⟩
  | 77 => ⟨S128x64, .f32⟩
  | 78 => ⟨S1x1x64, .f32⟩
  | 79 => ⟨S64, .f32⟩
  | 80 => ⟨S_, .f32⟩
  | 81 => ⟨S64, .f32⟩
  | 82 => ⟨S64, .f32⟩
  | 83 => ⟨S1x64, .f32⟩
  | 84 => ⟨S2000x64, .f32⟩
  | 85 => ⟨S5000x128, .f32⟩
  | 86 => ⟨S1x1x64x64, .f32⟩
  | 87 => ⟨S64x64, .f32⟩
  | 88 => ⟨S1x1x64x64, .f32⟩
  | 89 => ⟨S64x64, .f32⟩
  | 90 => ⟨S_, .f32⟩
  | 91 => ⟨S64x64, .f32⟩
  | 92 => ⟨S64x64, .f32⟩
  | 93 => ⟨S128x64, .f32⟩
  | 94 => ⟨S1x1x64, .f32⟩
  | 95 => ⟨S64, .f32⟩
  | 96 => ⟨S_, .f32⟩
  | 97 => ⟨S64, .f32⟩
  | 98 => ⟨S64, .f32⟩
  | 99 => ⟨S1x64, .f32⟩
  | 100 => ⟨S5000x64, .f32⟩
  | 101 => ⟨S_, .i32⟩
  | 102 => ⟨S100000, .i32⟩
  | 103 => ⟨S100000, .i1⟩
  | 104 => ⟨S_, .i32⟩
  | 105 => ⟨S100000, .i32⟩
  | 106 => ⟨S100000, .i32⟩
  | 107 => ⟨S100000, .i32⟩
  | 108 => ⟨S100000x1, .i32⟩
  | 109 => ⟨S100000x64, .f32⟩
  | 110 => ⟨S_, .i32⟩
  | 111 => ⟨S100000, .i32⟩
  | 112 => ⟨S100000, .i1⟩
  | 113 => ⟨S_, .i32⟩
  | 114 => ⟨S100000, .i32⟩
  | 115 => ⟨S100000, .i32⟩
  | 116 => ⟨S100000, .i32⟩
  | 117 => ⟨S100000x1, .i32⟩
  | 118 => ⟨S100000x64, .f32⟩
  | 119 => ⟨S100000x128, .f32⟩
  | 120 => ⟨S1x64, .f32⟩
  | 121 => ⟨S1x4, .f32⟩
  | 122 => ⟨S100000x4, .f32⟩
  | _ => ⟨S100000x64, .f32⟩

abbrev hbmTy (i : Nat) : BufTy := match i / 128 with
  | 0 => hbmTy0_0 i
  | 1 => hbmTy0_1 i
  | 2 => hbmTy0_2 i
  | 3 => hbmTy0_3 i
  | _ => ⟨S100000x64, .f32⟩

abbrev bufTy : (tb : Table) → Fin (tcTables nBuf tb) → BufTy
  | .hbm, ⟨i, _⟩ => hbmTy i
  | .local _ .vmem, ⟨0, _⟩ => ⟨S2000x192, .f32⟩
  | .local _ .vmem, ⟨1, _⟩ => ⟨S2000x192, .f32⟩
  | .local _ .vmem, ⟨2, _⟩ => ⟨S192x64, .f32⟩
  | .local _ .vmem, ⟨3, _⟩ => ⟨S1x64, .f32⟩
  | .local _ .vmem, ⟨4, _⟩ => ⟨S2000x64, .f32⟩
  | .local _ .vmem, ⟨5, _⟩ => ⟨S2000x64, .f32⟩
  | .local _ .vmem, ⟨6, _⟩ => ⟨S2000x192, .f32⟩
  | .local _ .vmem, ⟨7, _⟩ => ⟨S2000x192, .f32⟩
  | .local _ .vmem, ⟨8, _⟩ => ⟨S192x64, .f32⟩
  | .local _ .vmem, ⟨9, _⟩ => ⟨S1x64, .f32⟩
  | .local _ .vmem, ⟨10, _⟩ => ⟨S2000x64, .f32⟩
  | .local _ .vmem, ⟨11, _⟩ => ⟨S2000x64, .f32⟩
  | .local _ .vmem, ⟨12, _⟩ => ⟨S2000x128, .f32⟩
  | .local _ .vmem, ⟨13, _⟩ => ⟨S128x64, .f32⟩
  | .local _ .vmem, ⟨14, _⟩ => ⟨S1x64, .f32⟩
  | .local _ .vmem, ⟨15, _⟩ => ⟨S2000x64, .f32⟩
  | .local _ .vmem, ⟨16, _⟩ => ⟨S1000x128, .f32⟩
  | .local _ .vmem, ⟨17, _⟩ => ⟨S1000x128, .f32⟩
  | .local _ .vmem, ⟨18, _⟩ => ⟨S128x64, .f32⟩
  | .local _ .vmem, ⟨19, _⟩ => ⟨S1x64, .f32⟩
  | .local _ .vmem, ⟨20, _⟩ => ⟨S1000x64, .f32⟩
  | .local _ .vmem, ⟨21, _⟩ => ⟨S1000x64, .f32⟩
  | .local _ .vmem, ⟨22, _⟩ => ⟨S2000x192, .f32⟩
  | .local _ .vmem, ⟨23, _⟩ => ⟨S2000x192, .f32⟩
  | .local _ .vmem, ⟨24, _⟩ => ⟨S192x64, .f32⟩
  | .local _ .vmem, ⟨25, _⟩ => ⟨S1x64, .f32⟩
  | .local _ .vmem, ⟨26, _⟩ => ⟨S2000x64, .f32⟩
  | .local _ .vmem, ⟨27, _⟩ => ⟨S2000x64, .f32⟩
  | .local _ .vmem, ⟨28, _⟩ => ⟨S2000x192, .f32⟩
  | .local _ .vmem, ⟨29, _⟩ => ⟨S2000x192, .f32⟩
  | .local _ .vmem, ⟨30, _⟩ => ⟨S192x64, .f32⟩
  | .local _ .vmem, ⟨31, _⟩ => ⟨S1x64, .f32⟩
  | .local _ .vmem, ⟨32, _⟩ => ⟨S2000x64, .f32⟩
  | .local _ .vmem, ⟨33, _⟩ => ⟨S2000x64, .f32⟩
  | .local _ .vmem, ⟨34, _⟩ => ⟨S2000x128, .f32⟩
  | .local _ .vmem, ⟨35, _⟩ => ⟨S128x64, .f32⟩
  | .local _ .vmem, ⟨36, _⟩ => ⟨S1x64, .f32⟩
  | .local _ .vmem, ⟨37, _⟩ => ⟨S2000x64, .f32⟩
  | .local _ .vmem, ⟨38, _⟩ => ⟨S1000x128, .f32⟩
  | .local _ .vmem, ⟨39, _⟩ => ⟨S1000x128, .f32⟩
  | .local _ .vmem, ⟨40, _⟩ => ⟨S128x64, .f32⟩
  | .local _ .vmem, ⟨41, _⟩ => ⟨S1x64, .f32⟩
  | .local _ .vmem, ⟨42, _⟩ => ⟨S1000x64, .f32⟩
  | .local _ .vmem, ⟨43, _⟩ => ⟨S1000x64, .f32⟩
  | .local _ .vmem, ⟨44, _⟩ => ⟨S2000x128, .f32⟩
  | .local _ .vmem, ⟨45, _⟩ => ⟨S2000x128, .f32⟩
  | .local _ .vmem, ⟨46, _⟩ => ⟨S128x64, .f32⟩
  | .local _ .vmem, ⟨47, _⟩ => ⟨S1x64, .f32⟩
  | .local _ .vmem, ⟨48, _⟩ => ⟨S64x4, .f32⟩
  | .local _ .vmem, ⟨49, _⟩ => ⟨S1x4, .f32⟩
  | .local _ .vmem, ⟨50, _⟩ => ⟨S2000x4, .f32⟩
  | .local _ .vmem, ⟨51, _⟩ => ⟨S2000x4, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_c : Ref sig .tc := ⟨.hbm, 25, rfl⟩
abbrev main_v0 : Ref sig .tc := ⟨.hbm, 26, rfl⟩
abbrev main_v1 : Ref sig .tc := ⟨.hbm, 27, rfl⟩
abbrev main_c_0 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_cst : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_cst_1 : Ref sig .tc := ⟨.hbm, 38, rfl⟩
abbrev main_v10 : Ref sig .tc := ⟨.hbm, 39, rfl⟩
abbrev main_cst_2 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_cst_3 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_c_4 : Ref sig .tc := ⟨.hbm, 50, rfl⟩
abbrev main_v19 : Ref sig .tc := ⟨.hbm, 51, rfl⟩
abbrev main_v20 : Ref sig .tc := ⟨.hbm, 52, rfl⟩
abbrev main_c_5 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_cst_6 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_cst_7 : Ref sig .tc := ⟨.hbm, 63, rfl⟩
abbrev main_v29 : Ref sig .tc := ⟨.hbm, 64, rfl⟩
abbrev main_cst_8 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_cst_9 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_c_10 : Ref sig .tc := ⟨.hbm, 75, rfl⟩
abbrev main_v38 : Ref sig .tc := ⟨.hbm, 76, rfl⟩
abbrev main_v39 : Ref sig .tc := ⟨.hbm, 77, rfl⟩
abbrev main_c_11 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_cst_12 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_cst_13 : Ref sig .tc := ⟨.hbm, 88, rfl⟩
abbrev main_v48 : Ref sig .tc := ⟨.hbm, 89, rfl⟩
abbrev main_cst_14 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_cst_15 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_c_16 : Ref sig .tc := ⟨.hbm, 100, rfl⟩
abbrev main_v57 : Ref sig .tc := ⟨.hbm, 101, rfl⟩
abbrev main_v58 : Ref sig .tc := ⟨.hbm, 102, rfl⟩
abbrev main_c_17 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_cst_18 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_cst_19 : Ref sig .tc := ⟨.hbm, 113, rfl⟩
abbrev main_v67 : Ref sig .tc := ⟨.hbm, 114, rfl⟩
abbrev main_cst_20 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_cst_21 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_c_22 : Ref sig .tc := ⟨.hbm, 125, rfl⟩
abbrev main_v76 : Ref sig .tc := ⟨.hbm, 126, rfl⟩
abbrev main_v77 : Ref sig .tc := ⟨.hbm, 127, rfl⟩
abbrev main_c_23 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_cst_24 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_cst_25 : Ref sig .tc := ⟨.hbm, 138, rfl⟩
abbrev main_v86 : Ref sig .tc := ⟨.hbm, 139, rfl⟩
abbrev main_cst_26 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_cst_27 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_c_28 : Ref sig .tc := ⟨.hbm, 150, rfl⟩
abbrev main_v95 : Ref sig .tc := ⟨.hbm, 151, rfl⟩
abbrev main_v96 : Ref sig .tc := ⟨.hbm, 152, rfl⟩
abbrev main_c_29 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_cst_30 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_cst_31 : Ref sig .tc := ⟨.hbm, 163, rfl⟩
abbrev main_v105 : Ref sig .tc := ⟨.hbm, 164, rfl⟩
abbrev main_cst_32 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_cst_33 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_cst_34 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_cst_35 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_v132 : Ref sig .tc := ⟨.hbm, 195, rfl⟩
abbrev main_v133 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩
abbrev main_v141 : Ref sig .tc := ⟨.hbm, 204, rfl⟩
abbrev main_v142 : Ref sig .tc := ⟨.hbm, 205, rfl⟩
abbrev main_cst_36 : Ref sig .tc := ⟨.hbm, 206, rfl⟩
abbrev main_v143 : Ref sig .tc := ⟨.hbm, 207, rfl⟩
abbrev main_v144 : Ref sig .tc := ⟨.hbm, 208, rfl⟩
abbrev main_v145 : Ref sig .tc := ⟨.hbm, 209, rfl⟩
abbrev main_v146 : Ref sig .tc := ⟨.hbm, 210, rfl⟩
abbrev main_v147 : Ref sig .tc := ⟨.hbm, 211, rfl⟩
abbrev main_v148 : Ref sig .tc := ⟨.hbm, 212, rfl⟩
abbrev main_v149 : Ref sig .tc := ⟨.hbm, 213, rfl⟩
abbrev main_v150 : Ref sig .tc := ⟨.hbm, 214, rfl⟩
abbrev main_cst_37 : Ref sig .tc := ⟨.hbm, 215, rfl⟩
abbrev main_v151 : Ref sig .tc := ⟨.hbm, 216, rfl⟩
abbrev main_v152 : Ref sig .tc := ⟨.hbm, 217, rfl⟩
abbrev main_v153 : Ref sig .tc := ⟨.hbm, 218, rfl⟩
abbrev main_v154 : Ref sig .tc := ⟨.hbm, 219, rfl⟩
abbrev main_v155 : Ref sig .tc := ⟨.hbm, 220, rfl⟩
abbrev main_v156 : Ref sig .tc := ⟨.hbm, 221, rfl⟩
abbrev main_v157 : Ref sig .tc := ⟨.hbm, 222, rfl⟩
abbrev main_v158 : Ref sig .tc := ⟨.hbm, 223, rfl⟩
abbrev main_v159 : Ref sig .tc := ⟨.hbm, 224, rfl⟩
abbrev main_v160 : Ref sig .tc := ⟨.hbm, 225, rfl⟩
abbrev main_v161 : Ref sig .tc := ⟨.hbm, 226, rfl⟩
abbrev main_v162 : Ref sig .tc := ⟨.hbm, 227, rfl⟩
abbrev main_cst_38 : Ref sig .tc := ⟨.hbm, 228, rfl⟩
abbrev main_v163 : Ref sig .tc := ⟨.hbm, 229, rfl⟩
abbrev main_v164 : Ref sig .tc := ⟨.hbm, 230, rfl⟩
abbrev main_v165 : Ref sig .tc := ⟨.hbm, 231, rfl⟩
abbrev main_v166 : Ref sig .tc := ⟨.hbm, 232, rfl⟩
abbrev main_v167 : Ref sig .tc := ⟨.hbm, 233, rfl⟩
abbrev main_cst_39 : Ref sig .tc := ⟨.hbm, 234, rfl⟩
abbrev main_v168 : Ref sig .tc := ⟨.hbm, 235, rfl⟩
abbrev main_v169 : Ref sig .tc := ⟨.hbm, 236, rfl⟩
abbrev main_v170 : Ref sig .tc := ⟨.hbm, 237, rfl⟩
abbrev main_v171 : Ref sig .tc := ⟨.hbm, 238, rfl⟩
abbrev main_v172 : Ref sig .tc := ⟨.hbm, 239, rfl⟩
abbrev main_v173 : Ref sig .tc := ⟨.hbm, 240, rfl⟩
abbrev main_v174 : Ref sig .tc := ⟨.hbm, 241, rfl⟩
abbrev main_v175 : Ref sig .tc := ⟨.hbm, 242, rfl⟩
abbrev main_v176 : Ref sig .tc := ⟨.hbm, 243, rfl⟩
abbrev main_cst_40 : Ref sig .tc := ⟨.hbm, 244, rfl⟩
abbrev main_v177 : Ref sig .tc := ⟨.hbm, 245, rfl⟩
abbrev main_v178 : Ref sig .tc := ⟨.hbm, 246, rfl⟩
abbrev main_v179 : Ref sig .tc := ⟨.hbm, 247, rfl⟩
abbrev main_v180 : Ref sig .tc := ⟨.hbm, 248, rfl⟩
abbrev main_v181 : Ref sig .tc := ⟨.hbm, 249, rfl⟩
abbrev main_cst_41 : Ref sig .tc := ⟨.hbm, 250, rfl⟩
abbrev main_v182 : Ref sig .tc := ⟨.hbm, 251, rfl⟩
abbrev main_v183 : Ref sig .tc := ⟨.hbm, 252, rfl⟩
abbrev main_v184 : Ref sig .tc := ⟨.hbm, 253, rfl⟩
abbrev main_v185 : Ref sig .tc := ⟨.hbm, 254, rfl⟩
abbrev main_c_42 : Ref sig .tc := ⟨.hbm, 255, rfl⟩
abbrev main_v186 : Ref sig .tc := ⟨.hbm, 256, rfl⟩
abbrev main_v187 : Ref sig .tc := ⟨.hbm, 257, rfl⟩
abbrev main_c_43 : Ref sig .tc := ⟨.hbm, 258, rfl⟩
abbrev main_v188 : Ref sig .tc := ⟨.hbm, 259, rfl⟩
abbrev main_v189 : Ref sig .tc := ⟨.hbm, 260, rfl⟩
abbrev main_v190 : Ref sig .tc := ⟨.hbm, 261, rfl⟩
abbrev main_v191 : Ref sig .tc := ⟨.hbm, 262, rfl⟩
abbrev main_v192 : Ref sig .tc := ⟨.hbm, 263, rfl⟩
abbrev main_cst_44 : Ref sig .tc := ⟨.hbm, 264, rfl⟩
abbrev main_v193 : Ref sig .tc := ⟨.hbm, 265, rfl⟩
abbrev main_v194 : Ref sig .tc := ⟨.hbm, 266, rfl⟩
abbrev main_v195 : Ref sig .tc := ⟨.hbm, 267, rfl⟩
abbrev main_cst_45 : Ref sig .tc := ⟨.hbm, 268, rfl⟩
abbrev main_v196 : Ref sig .tc := ⟨.hbm, 269, rfl⟩
abbrev main_cst_46 : Ref sig .tc := ⟨.hbm, 270, rfl⟩
abbrev main_v197 : Ref sig .tc := ⟨.hbm, 271, rfl⟩
abbrev main_v198 : Ref sig .tc := ⟨.hbm, 272, rfl⟩
abbrev main_v199 : Ref sig .tc := ⟨.hbm, 273, rfl⟩
abbrev main_cst_47 : Ref sig .tc := ⟨.hbm, 274, rfl⟩
abbrev main_v200 : Ref sig .tc := ⟨.hbm, 275, rfl⟩
abbrev main_v201 : Ref sig .tc := ⟨.hbm, 276, rfl⟩
abbrev main_v202 : Ref sig .tc := ⟨.hbm, 277, rfl⟩
abbrev main_v203 : Ref sig .tc := ⟨.hbm, 278, rfl⟩
abbrev main_v204 : Ref sig .tc := ⟨.hbm, 279, rfl⟩
abbrev main_c_48 : Ref sig .tc := ⟨.hbm, 280, rfl⟩
abbrev main_v205 : Ref sig .tc := ⟨.hbm, 281, rfl⟩
abbrev main_v206 : Ref sig .tc := ⟨.hbm, 282, rfl⟩
abbrev main_c_49 : Ref sig .tc := ⟨.hbm, 283, rfl⟩
abbrev main_v207 : Ref sig .tc := ⟨.hbm, 284, rfl⟩
abbrev main_v208 : Ref sig .tc := ⟨.hbm, 285, rfl⟩
abbrev main_v209 : Ref sig .tc := ⟨.hbm, 286, rfl⟩
abbrev main_v210 : Ref sig .tc := ⟨.hbm, 287, rfl⟩
abbrev main_v211 : Ref sig .tc := ⟨.hbm, 288, rfl⟩
abbrev main_cst_50 : Ref sig .tc := ⟨.hbm, 289, rfl⟩
abbrev main_v212 : Ref sig .tc := ⟨.hbm, 290, rfl⟩
abbrev main_v213 : Ref sig .tc := ⟨.hbm, 291, rfl⟩
abbrev main_v214 : Ref sig .tc := ⟨.hbm, 292, rfl⟩
abbrev main_cst_51 : Ref sig .tc := ⟨.hbm, 293, rfl⟩
abbrev main_v215 : Ref sig .tc := ⟨.hbm, 294, rfl⟩
abbrev main_cst_52 : Ref sig .tc := ⟨.hbm, 295, rfl⟩
abbrev main_v216 : Ref sig .tc := ⟨.hbm, 296, rfl⟩
abbrev main_v217 : Ref sig .tc := ⟨.hbm, 297, rfl⟩
abbrev main_v218 : Ref sig .tc := ⟨.hbm, 298, rfl⟩
abbrev main_cst_53 : Ref sig .tc := ⟨.hbm, 299, rfl⟩
abbrev main_v219 : Ref sig .tc := ⟨.hbm, 300, rfl⟩
abbrev main_v220 : Ref sig .tc := ⟨.hbm, 301, rfl⟩
abbrev main_v221 : Ref sig .tc := ⟨.hbm, 302, rfl⟩
abbrev main_v222 : Ref sig .tc := ⟨.hbm, 303, rfl⟩
abbrev main_v223 : Ref sig .tc := ⟨.hbm, 304, rfl⟩
abbrev main_c_54 : Ref sig .tc := ⟨.hbm, 305, rfl⟩
abbrev main_v224 : Ref sig .tc := ⟨.hbm, 306, rfl⟩
abbrev main_v225 : Ref sig .tc := ⟨.hbm, 307, rfl⟩
abbrev main_c_55 : Ref sig .tc := ⟨.hbm, 308, rfl⟩
abbrev main_v226 : Ref sig .tc := ⟨.hbm, 309, rfl⟩
abbrev main_v227 : Ref sig .tc := ⟨.hbm, 310, rfl⟩
abbrev main_v228 : Ref sig .tc := ⟨.hbm, 311, rfl⟩
abbrev main_v229 : Ref sig .tc := ⟨.hbm, 312, rfl⟩
abbrev main_v230 : Ref sig .tc := ⟨.hbm, 313, rfl⟩
abbrev main_cst_56 : Ref sig .tc := ⟨.hbm, 314, rfl⟩
abbrev main_v231 : Ref sig .tc := ⟨.hbm, 315, rfl⟩
abbrev main_v232 : Ref sig .tc := ⟨.hbm, 316, rfl⟩
abbrev main_v233 : Ref sig .tc := ⟨.hbm, 317, rfl⟩
abbrev main_cst_57 : Ref sig .tc := ⟨.hbm, 318, rfl⟩
abbrev main_v234 : Ref sig .tc := ⟨.hbm, 319, rfl⟩
abbrev main_cst_58 : Ref sig .tc := ⟨.hbm, 320, rfl⟩
abbrev main_v235 : Ref sig .tc := ⟨.hbm, 321, rfl⟩
abbrev main_v236 : Ref sig .tc := ⟨.hbm, 322, rfl⟩
abbrev main_v237 : Ref sig .tc := ⟨.hbm, 323, rfl⟩
abbrev main_cst_59 : Ref sig .tc := ⟨.hbm, 324, rfl⟩
abbrev main_v238 : Ref sig .tc := ⟨.hbm, 325, rfl⟩
abbrev main_v239 : Ref sig .tc := ⟨.hbm, 326, rfl⟩
abbrev main_v240 : Ref sig .tc := ⟨.hbm, 327, rfl⟩
abbrev main_v241 : Ref sig .tc := ⟨.hbm, 328, rfl⟩
abbrev main_v242 : Ref sig .tc := ⟨.hbm, 329, rfl⟩
abbrev main_c_60 : Ref sig .tc := ⟨.hbm, 330, rfl⟩
abbrev main_v243 : Ref sig .tc := ⟨.hbm, 331, rfl⟩
abbrev main_v244 : Ref sig .tc := ⟨.hbm, 332, rfl⟩
abbrev main_c_61 : Ref sig .tc := ⟨.hbm, 333, rfl⟩
abbrev main_v245 : Ref sig .tc := ⟨.hbm, 334, rfl⟩
abbrev main_v246 : Ref sig .tc := ⟨.hbm, 335, rfl⟩
abbrev main_v247 : Ref sig .tc := ⟨.hbm, 336, rfl⟩
abbrev main_v248 : Ref sig .tc := ⟨.hbm, 337, rfl⟩
abbrev main_v249 : Ref sig .tc := ⟨.hbm, 338, rfl⟩
abbrev main_cst_62 : Ref sig .tc := ⟨.hbm, 339, rfl⟩
abbrev main_v250 : Ref sig .tc := ⟨.hbm, 340, rfl⟩
abbrev main_v251 : Ref sig .tc := ⟨.hbm, 341, rfl⟩
abbrev main_v252 : Ref sig .tc := ⟨.hbm, 342, rfl⟩
abbrev main_cst_63 : Ref sig .tc := ⟨.hbm, 343, rfl⟩
abbrev main_v253 : Ref sig .tc := ⟨.hbm, 344, rfl⟩
abbrev main_cst_64 : Ref sig .tc := ⟨.hbm, 345, rfl⟩
abbrev main_v254 : Ref sig .tc := ⟨.hbm, 346, rfl⟩
abbrev main_v255 : Ref sig .tc := ⟨.hbm, 347, rfl⟩
abbrev main_v256 : Ref sig .tc := ⟨.hbm, 348, rfl⟩
abbrev main_cst_65 : Ref sig .tc := ⟨.hbm, 349, rfl⟩
abbrev main_v257 : Ref sig .tc := ⟨.hbm, 350, rfl⟩
abbrev main_v258 : Ref sig .tc := ⟨.hbm, 351, rfl⟩
abbrev main_v259 : Ref sig .tc := ⟨.hbm, 352, rfl⟩
abbrev main_v260 : Ref sig .tc := ⟨.hbm, 353, rfl⟩
abbrev main_v261 : Ref sig .tc := ⟨.hbm, 354, rfl⟩
abbrev main_c_66 : Ref sig .tc := ⟨.hbm, 355, rfl⟩
abbrev main_v262 : Ref sig .tc := ⟨.hbm, 356, rfl⟩
abbrev main_v263 : Ref sig .tc := ⟨.hbm, 357, rfl⟩
abbrev main_c_67 : Ref sig .tc := ⟨.hbm, 358, rfl⟩
abbrev main_v264 : Ref sig .tc := ⟨.hbm, 359, rfl⟩
abbrev main_v265 : Ref sig .tc := ⟨.hbm, 360, rfl⟩
abbrev main_v266 : Ref sig .tc := ⟨.hbm, 361, rfl⟩
abbrev main_v267 : Ref sig .tc := ⟨.hbm, 362, rfl⟩
abbrev main_v268 : Ref sig .tc := ⟨.hbm, 363, rfl⟩
abbrev main_cst_68 : Ref sig .tc := ⟨.hbm, 364, rfl⟩
abbrev main_v269 : Ref sig .tc := ⟨.hbm, 365, rfl⟩
abbrev main_v270 : Ref sig .tc := ⟨.hbm, 366, rfl⟩
abbrev main_v271 : Ref sig .tc := ⟨.hbm, 367, rfl⟩
abbrev main_cst_69 : Ref sig .tc := ⟨.hbm, 368, rfl⟩
abbrev main_v272 : Ref sig .tc := ⟨.hbm, 369, rfl⟩
abbrev main_cst_70 : Ref sig .tc := ⟨.hbm, 370, rfl⟩
abbrev main_v273 : Ref sig .tc := ⟨.hbm, 371, rfl⟩
abbrev main_v274 : Ref sig .tc := ⟨.hbm, 372, rfl⟩
abbrev main_v275 : Ref sig .tc := ⟨.hbm, 373, rfl⟩
abbrev main_cst_71 : Ref sig .tc := ⟨.hbm, 374, rfl⟩
abbrev main_v276 : Ref sig .tc := ⟨.hbm, 375, rfl⟩
abbrev main_v277 : Ref sig .tc := ⟨.hbm, 376, rfl⟩
abbrev main_v278 : Ref sig .tc := ⟨.hbm, 377, rfl⟩
abbrev main_v279 : Ref sig .tc := ⟨.hbm, 378, rfl⟩
abbrev main_v280 : Ref sig .tc := ⟨.hbm, 379, rfl⟩
abbrev main_c_72 : Ref sig .tc := ⟨.hbm, 380, rfl⟩
abbrev main_v281 : Ref sig .tc := ⟨.hbm, 381, rfl⟩
abbrev main_v282 : Ref sig .tc := ⟨.hbm, 382, rfl⟩
abbrev main_c_73 : Ref sig .tc := ⟨.hbm, 383, rfl⟩
abbrev main_v283 : Ref sig .tc := ⟨.hbm, 384, rfl⟩
abbrev main_v284 : Ref sig .tc := ⟨.hbm, 385, rfl⟩
abbrev main_v285 : Ref sig .tc := ⟨.hbm, 386, rfl⟩
abbrev main_v286 : Ref sig .tc := ⟨.hbm, 387, rfl⟩
abbrev main_v287 : Ref sig .tc := ⟨.hbm, 388, rfl⟩
abbrev main_cst_74 : Ref sig .tc := ⟨.hbm, 389, rfl⟩
abbrev main_v288 : Ref sig .tc := ⟨.hbm, 390, rfl⟩
abbrev main_v289 : Ref sig .tc := ⟨.hbm, 391, rfl⟩
abbrev main_v290 : Ref sig .tc := ⟨.hbm, 392, rfl⟩
abbrev main_cst_75 : Ref sig .tc := ⟨.hbm, 393, rfl⟩
abbrev main_v291 : Ref sig .tc := ⟨.hbm, 394, rfl⟩
abbrev main_cst_76 : Ref sig .tc := ⟨.hbm, 395, rfl⟩
abbrev main_v292 : Ref sig .tc := ⟨.hbm, 396, rfl⟩
abbrev main_v293 : Ref sig .tc := ⟨.hbm, 397, rfl⟩
abbrev main_v294 : Ref sig .tc := ⟨.hbm, 398, rfl⟩
abbrev main_cst_77 : Ref sig .tc := ⟨.hbm, 399, rfl⟩
abbrev main_v295 : Ref sig .tc := ⟨.hbm, 400, rfl⟩
abbrev main_v296 : Ref sig .tc := ⟨.hbm, 401, rfl⟩
abbrev main_v297 : Ref sig .tc := ⟨.hbm, 402, rfl⟩
abbrev main_v298 : Ref sig .tc := ⟨.hbm, 403, rfl⟩
abbrev main_v299 : Ref sig .tc := ⟨.hbm, 404, rfl⟩
abbrev main_v300 : Ref sig .tc := ⟨.hbm, 405, rfl⟩
abbrev main_v301 : Ref sig .tc := ⟨.hbm, 406, rfl⟩
abbrev main_v302 : Ref sig .tc := ⟨.hbm, 407, rfl⟩
abbrev main_v303 : Ref sig .tc := ⟨.hbm, 408, rfl⟩
abbrev main_v304 : Ref sig .tc := ⟨.hbm, 409, rfl⟩
abbrev main_v305 : Ref sig .tc := ⟨.hbm, 410, rfl⟩
abbrev main_v306 : Ref sig .tc := ⟨.hbm, 411, rfl⟩
abbrev main_cst_78 : Ref sig .tc := ⟨.hbm, 412, rfl⟩
abbrev main_v307 : Ref sig .tc := ⟨.hbm, 413, rfl⟩
abbrev main_v308 : Ref sig .tc := ⟨.hbm, 414, rfl⟩
abbrev main_v309 : Ref sig .tc := ⟨.hbm, 415, rfl⟩
abbrev main_v310 : Ref sig .tc := ⟨.hbm, 416, rfl⟩
abbrev main_v311 : Ref sig .tc := ⟨.hbm, 417, rfl⟩
abbrev main_v312 : Ref sig .tc := ⟨.hbm, 418, rfl⟩
abbrev main_v313 : Ref sig .tc := ⟨.hbm, 419, rfl⟩
abbrev main_v314 : Ref sig .tc := ⟨.hbm, 420, rfl⟩
abbrev main_cst_79 : Ref sig .tc := ⟨.hbm, 421, rfl⟩
abbrev main_v315 : Ref sig .tc := ⟨.hbm, 422, rfl⟩
abbrev main_v316 : Ref sig .tc := ⟨.hbm, 423, rfl⟩
abbrev main_v317 : Ref sig .tc := ⟨.hbm, 424, rfl⟩
abbrev main_v318 : Ref sig .tc := ⟨.hbm, 425, rfl⟩
abbrev main_v319 : Ref sig .tc := ⟨.hbm, 426, rfl⟩
abbrev main_v320 : Ref sig .tc := ⟨.hbm, 427, rfl⟩
abbrev main_v321 : Ref sig .tc := ⟨.hbm, 428, rfl⟩
abbrev main_v322 : Ref sig .tc := ⟨.hbm, 429, rfl⟩
abbrev main_v323 : Ref sig .tc := ⟨.hbm, 430, rfl⟩
abbrev main_v324 : Ref sig .tc := ⟨.hbm, 431, rfl⟩
abbrev main_v325 : Ref sig .tc := ⟨.hbm, 432, rfl⟩
abbrev main_v326 : Ref sig .tc := ⟨.hbm, 433, rfl⟩
abbrev main_v327 : Ref sig .tc := ⟨.hbm, 434, rfl⟩
abbrev main_v328 : Ref sig .tc := ⟨.hbm, 435, rfl⟩
abbrev main_cst_80 : Ref sig .tc := ⟨.hbm, 436, rfl⟩
abbrev main_v329 : Ref sig .tc := ⟨.hbm, 437, rfl⟩
abbrev main_v330 : Ref sig .tc := ⟨.hbm, 438, rfl⟩
abbrev main_v331 : Ref sig .tc := ⟨.hbm, 439, rfl⟩
abbrev main_v332 : Ref sig .tc := ⟨.hbm, 440, rfl⟩
abbrev main_v333 : Ref sig .tc := ⟨.hbm, 441, rfl⟩
abbrev main_v334 : Ref sig .tc := ⟨.hbm, 442, rfl⟩
abbrev main_v335 : Ref sig .tc := ⟨.hbm, 443, rfl⟩
abbrev main_v336 : Ref sig .tc := ⟨.hbm, 444, rfl⟩
abbrev main_cst_81 : Ref sig .tc := ⟨.hbm, 445, rfl⟩
abbrev main_v337 : Ref sig .tc := ⟨.hbm, 446, rfl⟩
abbrev main_v338 : Ref sig .tc := ⟨.hbm, 447, rfl⟩
abbrev main_v339 : Ref sig .tc := ⟨.hbm, 448, rfl⟩
abbrev main_v340 : Ref sig .tc := ⟨.hbm, 449, rfl⟩
abbrev main_v341 : Ref sig .tc := ⟨.hbm, 450, rfl⟩
abbrev main_v342 : Ref sig .tc := ⟨.hbm, 451, rfl⟩
abbrev main_v343 : Ref sig .tc := ⟨.hbm, 452, rfl⟩
abbrev main_v344 : Ref sig .tc := ⟨.hbm, 453, rfl⟩
abbrev main_v345 : Ref sig .tc := ⟨.hbm, 454, rfl⟩
abbrev main_v346 : Ref sig .tc := ⟨.hbm, 455, rfl⟩
abbrev main_v347 : Ref sig .tc := ⟨.hbm, 456, rfl⟩
abbrev main_v348 : Ref sig .tc := ⟨.hbm, 457, rfl⟩
abbrev main_cst_82 : Ref sig .tc := ⟨.hbm, 458, rfl⟩
abbrev main_v349 : Ref sig .tc := ⟨.hbm, 459, rfl⟩
abbrev main_v350 : Ref sig .tc := ⟨.hbm, 460, rfl⟩
abbrev main_v351 : Ref sig .tc := ⟨.hbm, 461, rfl⟩
abbrev main_v352 : Ref sig .tc := ⟨.hbm, 462, rfl⟩
abbrev main_v353 : Ref sig .tc := ⟨.hbm, 463, rfl⟩
abbrev main_cst_83 : Ref sig .tc := ⟨.hbm, 464, rfl⟩
abbrev main_v354 : Ref sig .tc := ⟨.hbm, 465, rfl⟩
abbrev main_v355 : Ref sig .tc := ⟨.hbm, 466, rfl⟩
abbrev main_v356 : Ref sig .tc := ⟨.hbm, 467, rfl⟩
abbrev main_v357 : Ref sig .tc := ⟨.hbm, 468, rfl⟩
abbrev main_v358 : Ref sig .tc := ⟨.hbm, 469, rfl⟩
abbrev main_v359 : Ref sig .tc := ⟨.hbm, 470, rfl⟩
abbrev main_v360 : Ref sig .tc := ⟨.hbm, 471, rfl⟩
abbrev main_v361 : Ref sig .tc := ⟨.hbm, 472, rfl⟩
abbrev main_v362 : Ref sig .tc := ⟨.hbm, 473, rfl⟩
abbrev main_cst_84 : Ref sig .tc := ⟨.hbm, 474, rfl⟩
abbrev main_v363 : Ref sig .tc := ⟨.hbm, 475, rfl⟩
abbrev main_v364 : Ref sig .tc := ⟨.hbm, 476, rfl⟩
abbrev main_v365 : Ref sig .tc := ⟨.hbm, 477, rfl⟩
abbrev main_v366 : Ref sig .tc := ⟨.hbm, 478, rfl⟩
abbrev main_v367 : Ref sig .tc := ⟨.hbm, 479, rfl⟩
abbrev main_cst_85 : Ref sig .tc := ⟨.hbm, 480, rfl⟩
abbrev main_v368 : Ref sig .tc := ⟨.hbm, 481, rfl⟩
abbrev main_v369 : Ref sig .tc := ⟨.hbm, 482, rfl⟩
abbrev main_v370 : Ref sig .tc := ⟨.hbm, 483, rfl⟩
abbrev main_v371 : Ref sig .tc := ⟨.hbm, 484, rfl⟩
abbrev main_c_86 : Ref sig .tc := ⟨.hbm, 485, rfl⟩
abbrev main_v372 : Ref sig .tc := ⟨.hbm, 486, rfl⟩
abbrev main_v373 : Ref sig .tc := ⟨.hbm, 487, rfl⟩
abbrev main_c_87 : Ref sig .tc := ⟨.hbm, 488, rfl⟩
abbrev main_v374 : Ref sig .tc := ⟨.hbm, 489, rfl⟩
abbrev main_v375 : Ref sig .tc := ⟨.hbm, 490, rfl⟩
abbrev main_v376 : Ref sig .tc := ⟨.hbm, 491, rfl⟩
abbrev main_v377 : Ref sig .tc := ⟨.hbm, 492, rfl⟩
abbrev main_v378 : Ref sig .tc := ⟨.hbm, 493, rfl⟩
abbrev main_c_88 : Ref sig .tc := ⟨.hbm, 494, rfl⟩
abbrev main_v379 : Ref sig .tc := ⟨.hbm, 495, rfl⟩
abbrev main_v380 : Ref sig .tc := ⟨.hbm, 496, rfl⟩
abbrev main_c_89 : Ref sig .tc := ⟨.hbm, 497, rfl⟩
abbrev main_v381 : Ref sig .tc := ⟨.hbm, 498, rfl⟩
abbrev main_v382 : Ref sig .tc := ⟨.hbm, 499, rfl⟩
abbrev main_v383 : Ref sig .tc := ⟨.hbm, 500, rfl⟩
abbrev main_v384 : Ref sig .tc := ⟨.hbm, 501, rfl⟩
abbrev main_v385 : Ref sig .tc := ⟨.hbm, 502, rfl⟩
abbrev main_v386 : Ref sig .tc := ⟨.hbm, 503, rfl⟩
abbrev main_v387 : Ref sig .tc := ⟨.hbm, 504, rfl⟩
abbrev main_v388 : Ref sig .tc := ⟨.hbm, 505, rfl⟩
abbrev main_v389 : Ref sig .tc := ⟨.hbm, 506, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg3_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg3_0 : Ref sig .tc := ⟨.vmem, 26, rfl⟩
abbrev cc4_stg3_1 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg2_0 : Ref sig .tc := ⟨.vmem, 31, rfl⟩
abbrev cc5_stg3_0 : Ref sig .tc := ⟨.vmem, 32, rfl⟩
abbrev cc5_stg3_1 : Ref sig .tc := ⟨.vmem, 33, rfl⟩
abbrev cc6_stg0_0 : Ref sig .tc := ⟨.vmem, 34, rfl⟩
abbrev cc6_stg1_0 : Ref sig .tc := ⟨.vmem, 35, rfl⟩
abbrev cc6_stg2_0 : Ref sig .tc := ⟨.vmem, 36, rfl⟩
abbrev cc6_stg3_0 : Ref sig .tc := ⟨.vmem, 37, rfl⟩
abbrev cc7_stg0_0 : Ref sig .tc := ⟨.vmem, 38, rfl⟩
abbrev cc7_stg0_1 : Ref sig .tc := ⟨.vmem, 39, rfl⟩
abbrev cc7_stg1_0 : Ref sig .tc := ⟨.vmem, 40, rfl⟩
abbrev cc7_stg2_0 : Ref sig .tc := ⟨.vmem, 41, rfl⟩
abbrev cc7_stg3_0 : Ref sig .tc := ⟨.vmem, 42, rfl⟩
abbrev cc7_stg3_1 : Ref sig .tc := ⟨.vmem, 43, rfl⟩
abbrev cc8_stg0_0 : Ref sig .tc := ⟨.vmem, 44, rfl⟩
abbrev cc8_stg0_1 : Ref sig .tc := ⟨.vmem, 45, rfl⟩
abbrev cc8_stg1_0 : Ref sig .tc := ⟨.vmem, 46, rfl⟩
abbrev cc8_stg2_0 : Ref sig .tc := ⟨.vmem, 47, rfl⟩
abbrev cc8_stg3_0 : Ref sig .tc := ⟨.vmem, 48, rfl⟩
abbrev cc8_stg4_0 : Ref sig .tc := ⟨.vmem, 49, rfl⟩
abbrev cc8_stg5_0 : Ref sig .tc := ⟨.vmem, 50, rfl⟩
abbrev cc8_stg5_1 : Ref sig .tc := ⟨.vmem, 51, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem1_0 : DmaSem sig := 13
abbrev cc2_sem2_0 : DmaSem sig := 14
abbrev cc2_sem3_0 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem3_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem3_0 : DmaSem sig := 26
abbrev cc4_sem3_1 : DmaSem sig := 27
abbrev cc5_sem0_0 : DmaSem sig := 28
abbrev cc5_sem0_1 : DmaSem sig := 29
abbrev cc5_sem1_0 : DmaSem sig := 30
abbrev cc5_sem2_0 : DmaSem sig := 31
abbrev cc5_sem3_0 : DmaSem sig := 32
abbrev cc5_sem3_1 : DmaSem sig := 33
abbrev cc6_sem0_0 : DmaSem sig := 34
abbrev cc6_sem1_0 : DmaSem sig := 35
abbrev cc6_sem2_0 : DmaSem sig := 36
abbrev cc6_sem3_0 : DmaSem sig := 37
abbrev cc7_sem0_0 : DmaSem sig := 38
abbrev cc7_sem0_1 : DmaSem sig := 39
abbrev cc7_sem1_0 : DmaSem sig := 40
abbrev cc7_sem2_0 : DmaSem sig := 41
abbrev cc7_sem3_0 : DmaSem sig := 42
abbrev cc7_sem3_1 : DmaSem sig := 43
abbrev cc8_sem0_0 : DmaSem sig := 44
abbrev cc8_sem0_1 : DmaSem sig := 45
abbrev cc8_sem1_0 : DmaSem sig := 46
abbrev cc8_sem2_0 : DmaSem sig := 47
abbrev cc8_sem3_0 : DmaSem sig := 48
abbrev cc8_sem4_0 : DmaSem sig := 49
abbrev cc8_sem5_0 : DmaSem sig := 50
abbrev cc8_sem5_1 : DmaSem sig := 51

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S192x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S192x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S2000x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S2000x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x192 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S192x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x192 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S192x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 1 → Memref sig .tc .vmem S2000x128 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S2000x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![true]

abbrev grid7 : Pipeline.Grid := ⟨1, ![5], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S1000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S1000x64 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![50], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S128x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S64x4 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x4 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S2000x4 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S_S2000x64 : S_.BroadcastsInDim S2000x64 (![] : Fin 0 → Fin S2000x64.rank)
  bcast_S_S2000 : S_.BroadcastsInDim S2000 (![] : Fin 0 → Fin S2000.rank)
  bcast_S2000_S2000x1_0 : S2000.BroadcastsInDim S2000x1 (![0] : Fin 1 → Fin S2000x1.rank)
  bcast_S2000x1_S2000x64_0_1 : S2000x1.BroadcastsInDim S2000x64 (![0, 1] : Fin 2 → Fin S2000x64.rank)
  bcast_S_S200000 : S_.BroadcastsInDim S200000 (![] : Fin 0 → Fin S200000.rank)
  bcast_S200000_S200000x1_0 : S200000.BroadcastsInDim S200000x1 (![0] : Fin 1 → Fin S200000x1.rank)
  bcast_S_S5000x64 : S_.BroadcastsInDim S5000x64 (![] : Fin 0 → Fin S5000x64.rank)
  bcast_S_S5000 : S_.BroadcastsInDim S5000 (![] : Fin 0 → Fin S5000.rank)
  bcast_S5000_S5000x1_0 : S5000.BroadcastsInDim S5000x1 (![0] : Fin 1 → Fin S5000x1.rank)
  bcast_S5000x1_S5000x64_0_1 : S5000x1.BroadcastsInDim S5000x64 (![0, 1] : Fin 2 → Fin S5000x64.rank)
  concatenates_S100000x64_S100000x64_S100000x64_S100000x192_d1 : Shape.Concatenates [S100000x64, S100000x64, S100000x64] S100000x192 1
  slices_S2x6x64x64_S1x1x64x64_0_0_0_0 : S2x6x64x64.Slices ![0, 0, 0, 0] S1x1x64x64
  shapeCasts_S1x1x64x64_S64x64 : S1x1x64x64.ShapeCasts S64x64
  slices_S2x6x64x64_S1x1x64x64_0_5_0_0 : S2x6x64x64.Slices ![0, 5, 0, 0] S1x1x64x64
  bcast_S_S64x64 : S_.BroadcastsInDim S64x64 (![] : Fin 0 → Fin S64x64.rank)
  concatenates_S64x64_S64x64_S64x64_S192x64_d0 : Shape.Concatenates [S64x64, S64x64, S64x64] S192x64 0
  slices_S2x6x64_S1x1x64_0_0_0 : S2x6x64.Slices ![0, 0, 0] S1x1x64
  shapeCasts_S1x1x64_S64 : S1x1x64.ShapeCasts S64
  bcast_S_S64 : S_.BroadcastsInDim S64 (![] : Fin 0 → Fin S64.rank)
  slices_S2x6x64_S1x1x64_0_5_0 : S2x6x64.Slices ![0, 5, 0] S1x1x64
  shapeCasts_S64_S1x64 : S64.ShapeCasts S1x64
  inb_S2000x192_S2000x192_0_0 : ∀ a, (![0, 0] : Fin 2 → Nat) a + S2000x192.size a ≤ S2000x192.size a
  h_S2000x192 : 0 < S2000x192.numel
  shapeCasts_S2000x192_S2000x192 : S2000x192.ShapeCasts S2000x192
  bitsLt_bf16_f32 : FTy.bits .bf16 < FTy.bits .f32
  inb_S192x64_S192x64_0_0 : ∀ a, (![0, 0] : Fin 2 → Nat) a + S192x64.size a ≤ S192x64.size a
  h_S192x64 : 0 < S192x64.numel
  shapeCasts_S192x64_S192x64 : S192x64.ShapeCasts S192x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  concatenates_S50000x64_S50000x64_S50000x64_S50000x192_d1 : Shape.Concatenates [S50000x64, S50000x64, S50000x64] S50000x192 1
  slices_S2x6x64x64_S1x1x64x64_0_1_0_0 : S2x6x64x64.Slices ![0, 1, 0, 0] S1x1x64x64
  slices_S2x6x64x64_S1x1x64x64_0_3_0_0 : S2x6x64x64.Slices ![0, 3, 0, 0] S1x1x64x64
  slices_S2x6x64_S1x1x64_0_1_0 : S2x6x64.Slices ![0, 1, 0] S1x1x64
  slices_S2x6x64_S1x1x64_0_3_0 : S2x6x64.Slices ![0, 3, 0] S1x1x64
  concatenates_S2000x64_S2000x64_S2000x128_d1 : Shape.Concatenates [S2000x64, S2000x64] S2000x128 1
  slices_S2x6x64x64_S1x1x64x64_0_2_0_0 : S2x6x64x64.Slices ![0, 2, 0, 0] S1x1x64x64
  concatenates_S64x64_S64x64_S128x64_d0 : Shape.Concatenates [S64x64, S64x64] S128x64 0
  slices_S2x6x64_S1x1x64_0_2_0 : S2x6x64.Slices ![0, 2, 0] S1x1x64
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  concatenates_S5000x64_S5000x64_S5000x128_d1 : Shape.Concatenates [S5000x64, S5000x64] S5000x128 1
  slices_S2x6x64x64_S1x1x64x64_0_4_0_0 : S2x6x64x64.Slices ![0, 4, 0, 0] S1x1x64x64
  slices_S2x6x64_S1x1x64_0_4_0 : S2x6x64.Slices ![0, 4, 0] S1x1x64
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  broadcasts_S1x64_S1000x64 : S1x64.Broadcasts S1000x64
  inb_S1000x64_S1000x64_0_0 : ∀ a, (![0, 0] : Fin 2 → Nat) a + S1000x64.size a ≤ S1000x64.size a
  h_S1000x64 : 0 < S1000x64.numel
  slices_S2x6x64x64_S1x1x64x64_1_0_0_0 : S2x6x64x64.Slices ![1, 0, 0, 0] S1x1x64x64
  slices_S2x6x64x64_S1x1x64x64_1_5_0_0 : S2x6x64x64.Slices ![1, 5, 0, 0] S1x1x64x64
  slices_S2x6x64_S1x1x64_1_0_0 : S2x6x64.Slices ![1, 0, 0] S1x1x64
  slices_S2x6x64_S1x1x64_1_5_0 : S2x6x64.Slices ![1, 5, 0] S1x1x64
  slices_S2x6x64x64_S1x1x64x64_1_1_0_0 : S2x6x64x64.Slices ![1, 1, 0, 0] S1x1x64x64
  slices_S2x6x64x64_S1x1x64x64_1_3_0_0 : S2x6x64x64.Slices ![1, 3, 0, 0] S1x1x64x64
  slices_S2x6x64_S1x1x64_1_1_0 : S2x6x64.Slices ![1, 1, 0] S1x1x64
  slices_S2x6x64_S1x1x64_1_3_0 : S2x6x64.Slices ![1, 3, 0] S1x1x64
  slices_S2x6x64x64_S1x1x64x64_1_2_0_0 : S2x6x64x64.Slices ![1, 2, 0, 0] S1x1x64x64
  slices_S2x6x64_S1x1x64_1_2_0 : S2x6x64.Slices ![1, 2, 0] S1x1x64
  slices_S2x6x64x64_S1x1x64x64_1_4_0_0 : S2x6x64x64.Slices ![1, 4, 0, 0] S1x1x64x64
  slices_S2x6x64_S1x1x64_1_4_0 : S2x6x64.Slices ![1, 4, 0] S1x1x64
  concatenates_S100000x64_S100000x64_S100000x128_d1 : Shape.Concatenates [S100000x64, S100000x64] S100000x128 1
  shapeCasts_S4_S1x4 : S4.ShapeCasts S1x4
  inb_S64x4_S64x4_0_0 : ∀ a, (![0, 0] : Fin 2 → Nat) a + S64x4.size a ≤ S64x4.size a
  h_S64x4 : 0 < S64x4.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S2000x4 : S1x4.Broadcasts S2000x4
  inb_S2000x4_S2000x4_0_0 : ∀ a, (![0, 0] : Fin 2 → Nat) a + S2000x4.size a ≤ S2000x4.size a
  h_S2000x4 : 0 < S2000x4.numel
  gather_S50000x64_S2000000x1_S2000000x64_1_0_n_n_0_1_164_wf : GatherDims.WF S50000x64 S2000000x1 S2000000x64 [1] [0] [] [0] [] 1 ![1, 64]
  scatter_S100000x64_S2000000x1_S2000000x64_1_0_0_1_wf : ScatterDims.WF S100000x64 S2000000x1 S2000000x64 [1] [0] [0] 1
  scatter_S100000_S2000000x1_S2000000_n_0_0_1_wf : ScatterDims.WF S100000 S2000000x1 S2000000 [] [0] [0] 1
  gather_S100000x64_S2000000x1_S2000000x64_1_0_n_n_0_1_164_wf : GatherDims.WF S100000x64 S2000000x1 S2000000x64 [1] [0] [] [0] [] 1 ![1, 64]
  scatter_S50000x64_S2000000x1_S2000000x64_1_0_0_1_wf : ScatterDims.WF S50000x64 S2000000x1 S2000000x64 [1] [0] [0] 1
  scatter_S50000_S2000000x1_S2000000_n_0_0_1_wf : ScatterDims.WF S50000 S2000000x1 S2000000 [] [0] [0] 1
  gather_S50000x64_S100000x1_S100000x64_1_0_n_n_0_1_164_wf : GatherDims.WF S50000x64 S100000x1 S100000x64 [1] [0] [] [0] [] 1 ![1, 64]
  scatter_S2000x64_S100000x1_S100000x64_1_0_0_1_wf : ScatterDims.WF S2000x64 S100000x1 S100000x64 [1] [0] [0] 1
  scatter_S2000_S100000x1_S100000_n_0_0_1_wf : ScatterDims.WF S2000 S100000x1 S100000 [] [0] [0] 1
  gather_S2000x64_S100000x1_S100000x64_1_0_n_n_0_1_164_wf : GatherDims.WF S2000x64 S100000x1 S100000x64 [1] [0] [] [0] [] 1 ![1, 64]
  scatter_S50000x64_S100000x1_S100000x64_1_0_0_1_wf : ScatterDims.WF S50000x64 S100000x1 S100000x64 [1] [0] [0] 1
  scatter_S50000_S100000x1_S100000_n_0_0_1_wf : ScatterDims.WF S50000 S100000x1 S100000 [] [0] [0] 1
  gather_S100000x64_S200000x1_S200000x64_1_0_n_n_0_1_164_wf : GatherDims.WF S100000x64 S200000x1 S200000x64 [1] [0] [] [0] [] 1 ![1, 64]
  scatter_S5000x64_S200000x1_S200000x64_1_0_0_1_wf : ScatterDims.WF S5000x64 S200000x1 S200000x64 [1] [0] [0] 1
  scatter_S5000_S200000x1_S200000_n_0_0_1_wf : ScatterDims.WF S5000 S200000x1 S200000 [] [0] [0] 1
  gather_S5000x64_S200000x1_S200000x64_1_0_n_n_0_1_164_wf : GatherDims.WF S5000x64 S200000x1 S200000x64 [1] [0] [] [0] [] 1 ![1, 64]
  scatter_S100000x64_S200000x1_S200000x64_1_0_0_1_wf : ScatterDims.WF S100000x64 S200000x1 S200000x64 [1] [0] [0] 1
  scatter_S100000_S200000x1_S200000_n_0_0_1_wf : ScatterDims.WF S100000 S200000x1 S200000 [] [0] [0] 1
  dot_S2000x192_S192x64_S2000x64_1_0_0_1_n_n_wf : DotDims.WF S2000x192 S192x64 S2000x64 [1] [0] [0] [1] [] []
  dot_S2000x128_S128x64_S2000x64_1_0_0_1_n_n_wf : DotDims.WF S2000x128 S128x64 S2000x64 [1] [0] [0] [1] [] []
  dot_S1000x128_S128x64_S1000x64_1_0_0_1_n_n_wf : DotDims.WF S1000x128 S128x64 S1000x64 [1] [0] [0] [1] [] []
  gather_S100000x64_S100000x1_S100000x64_1_0_n_n_0_1_164_wf : GatherDims.WF S100000x64 S100000x1 S100000x64 [1] [0] [] [0] [] 1 ![1, 64]
  dot_S2000x64_S64x4_S2000x4_1_0_0_1_n_n_wf : DotDims.WF S2000x64 S64x4 S2000x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x192.size a ≤ S100000x192.size a
  hwx0_0 : ∀ i : grid0.Coords, EltTy.bits .f32 = 32 ∨ (Rect.block (s := S100000x192) S2000x192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S192x64.size a ≤ S192x64.size a
  hwx0_1 : ∀ i : grid0.Coords, EltTy.bits .f32 = 32 ∨ (Rect.block (s := S192x64) S192x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S100000x64.size a
  hwx0_3 : ∀ i : grid0.Coords, EltTy.bits .f32 = 32 ∨ (Rect.block (s := S100000x64) S2000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x192.size a ≤ S50000x192.size a
  hwx1_0 : ∀ i : grid1.Coords, EltTy.bits .f32 = 32 ∨ (Rect.block (s := S50000x192) S2000x192.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S192x64.size a ≤ S192x64.size a
  hwx1_1 : ∀ i : grid1.Coords, EltTy.bits .f32 = 32 ∨ (Rect.block (s := S192x64) S192x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S50000x64.size a
  hwx1_3 : ∀ i : grid1.Coords, EltTy.bits .f32 = 32 ∨ (Rect.block (s := S50000x64) S2000x64.size (cc1_transform_3 i) (hinb1_3 i)).WholeWords (EltTy.packing .f32)
  hrank2 : 0 < grid2.rank
  hstage2_0 : ∀ j, (stage2_0 j).IsWhole
  nbuf2_0 : grid2.bufCount reads2_0 false = 1
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S2000x128.size a
  hwx2_0 : ∀ i : grid2.Coords, EltTy.bits .f32 = 32 ∨ (Rect.block (s := S2000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 1
  hreads2_3 : ∀ i i' : grid2.Coords, (∀ a, reads2_3 a = true → i a = i' a) → cc2_transform_3 i = cc2_transform_3 i'
  hinb2_3 : ∀ (i : grid2.Coords) a, (cc2_transform_3 i a + 1) * S2000x64.size a ≤ S2000x64.size a
  hwx2_3 : ∀ i : grid2.Coords, EltTy.bits .f32 = 32 ∨ (Rect.block (s := S2000x64) S2000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x128.size a ≤ S5000x128.size a
  hwx3_0 : ∀ i : grid3.Coords, EltTy.bits .f32 = 32 ∨ (Rect.block (s := S5000x128) S1000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .f32 = 32 ∨ (Rect.block (s := S128x64) S128x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1000x64.size a ≤ S5000x64.size a
  hwx3_3 : ∀ i : grid3.Coords, EltTy.bits .f32 = 32 ∨ (Rect.block (s := S5000x64) S1000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x192.size a ≤ S100000x192.size a
  hwx4_0 : ∀ i : grid4.Coords, EltTy.bits .f32 = 32 ∨ (Rect.block (s := S100000x192) S2000x192.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S192x64.size a ≤ S192x64.size a
  hwx4_1 : ∀ i : grid4.Coords, EltTy.bits .f32 = 32 ∨ (Rect.block (s := S192x64) S192x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x64.size a ≤ S100000x64.size a
  hwx4_3 : ∀ i : grid4.Coords, EltTy.bits .f32 = 32 ∨ (Rect.block (s := S100000x64) S2000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x192.size a ≤ S50000x192.size a
  hwx5_0 : ∀ i : grid5.Coords, EltTy.bits .f32 = 32 ∨ (Rect.block (s := S50000x192) S2000x192.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S192x64.size a ≤ S192x64.size a
  hwx5_1 : ∀ i : grid5.Coords, EltTy.bits .f32 = 32 ∨ (Rect.block (s := S192x64) S192x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x64.size a ≤ S50000x64.size a
  hwx5_3 : ∀ i : grid5.Coords, EltTy.bits .f32 = 32 ∨ (Rect.block (s := S50000x64) S2000x64.size (cc5_transform_3 i) (hinb5_3 i)).WholeWords (EltTy.packing .f32)
  hrank6 : 0 < grid6.rank
  hstage6_0 : ∀ j, (stage6_0 j).IsWhole
  nbuf6_0 : grid6.bufCount reads6_0 false = 1
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S2000x128.size a
  hwx6_0 : ∀ i : grid6.Coords, EltTy.bits .f32 = 32 ∨ (Rect.block (s := S2000x128) S2000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 false = 1
  hreads6_3 : ∀ i i' : grid6.Coords, (∀ a, reads6_3 a = true → i a = i' a) → cc6_transform_3 i = cc6_transform_3 i'
  hinb6_3 : ∀ (i : grid6.Coords) a, (cc6_transform_3 i a + 1) * S2000x64.size a ≤ S2000x64.size a
  hwx6_3 : ∀ i : grid6.Coords, EltTy.bits .f32 = 32 ∨ (Rect.block (s := S2000x64) S2000x64.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1000x128.size a ≤ S5000x128.size a
  hwx7_0 : ∀ i : grid7.Coords, EltTy.bits .f32 = 32 ∨ (Rect.block (s := S5000x128) S1000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x64.size a ≤ S128x64.size a
  hwx7_1 : ∀ i : grid7.Coords, EltTy.bits .f32 = 32 ∨ (Rect.block (s := S128x64) S128x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S1000x64.size a ≤ S5000x64.size a
  hwx7_3 : ∀ i : grid7.Coords, EltTy.bits .f32 = 32 ∨ (Rect.block (s := S5000x64) S1000x64.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x128.size a ≤ S100000x128.size a
  hwx8_0 : ∀ i : grid8.Coords, EltTy.bits .f32 = 32 ∨ (Rect.block (s := S100000x128) S2000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x64.size a ≤ S128x64.size a
  hwx8_1 : ∀ i : grid8.Coords, EltTy.bits .f32 = 32 ∨ (Rect.block (s := S128x64) S128x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S64x4.size a ≤ S64x4.size a
  hwx8_3 : ∀ i : grid8.Coords, EltTy.bits .f32 = 32 ∨ (Rect.block (s := S64x4) S64x4.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x4.size a ≤ S1x4.size a
  hwx8_4 : ∀ i : grid8.Coords, EltTy.bits .f32 = 32 ∨ (Rect.block (s := S1x4) S1x4.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S2000x4.size a ≤ S100000x4.size a
  hwx8_5 : ∀ i : grid8.Coords, EltTy.bits .f32 = 32 ∨ (Rect.block (s := S100000x4) S2000x4.size (cc8_transform_5 i) (hinb8_5 i)).WholeWords (EltTy.packing .f32)

variable [Facts₀]

def gather_S50000x64_S2000000x1_S2000000x64_1_0_n_n_0_1_164 : GatherDims S50000x64 S2000000x1 S2000000x64 where
  offsetDims := [1]
  collapsedSliceDims := [0]
  operandBatchingDims := []
  startIndicesBatchingDims := []
  startIndexMap := [0]
  indexVectorDim := 1
  sliceSizes := ![1, 64]
  wf := gather_S50000x64_S2000000x1_S2000000x64_1_0_n_n_0_1_164_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf
def scatter_S100000_S2000000x1_S2000000_n_0_0_1 : ScatterDims S100000 S2000000x1 S2000000 where
  updateWindowDims := []
  insertedWindowDims := [0]
  scatterDimsToOperandDims := [0]
  indexVectorDim := 1
  wf := scatter_S100000_S2000000x1_S2000000_n_0_0_1_wf
def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def scatter_S50000x64_S2000000x1_S2000000x64_1_0_0_1 : ScatterDims S50000x64 S2000000x1 S2000000x64 where
  updateWindowDims := [1]
  insertedWindowDims := [0]
  scatterDimsToOperandDims := [0]
  indexVectorDim := 1
  wf := scatter_S50000x64_S2000000x1_S2000000x64_1_0_0_1_wf
def scatter_S50000_S2000000x1_S2000000_n_0_0_1 : ScatterDims S50000 S2000000x1 S2000000 where
  updateWindowDims := []
  insertedWindowDims := [0]
  scatterDimsToOperandDims := [0]
  indexVectorDim := 1
  wf := scatter_S50000_S2000000x1_S2000000_n_0_0_1_wf
def gather_S50000x64_S100000x1_S100000x64_1_0_n_n_0_1_164 : GatherDims S50000x64 S100000x1 S100000x64 where
  offsetDims := [1]
  collapsedSliceDims := [0]
  operandBatchingDims := []
  startIndicesBatchingDims := []
  startIndexMap := [0]
  indexVectorDim := 1
  sliceSizes := ![1, 64]
  wf := gather_S50000x64_S100000x1_S100000x64_1_0_n_n_0_1_164_wf
def scatter_S2000x64_S100000x1_S100000x64_1_0_0_1 : ScatterDims S2000x64 S100000x1 S100000x64 where
  updateWindowDims := [1]
  insertedWindowDims := [0]
  scatterDimsToOperandDims := [0]
  indexVectorDim := 1
  wf := scatter_S2000x64_S100000x1_S100000x64_1_0_0_1_wf
def scatter_S2000_S100000x1_S100000_n_0_0_1 : ScatterDims S2000 S100000x1 S100000 where
  updateWindowDims := []
  insertedWindowDims := [0]
  scatterDimsToOperandDims := [0]
  indexVectorDim := 1
  wf := scatter_S2000_S100000x1_S100000_n_0_0_1_wf
def gather_S2000x64_S100000x1_S100000x64_1_0_n_n_0_1_164 : GatherDims S2000x64 S100000x1 S100000x64 where
  offsetDims := [1]
  collapsedSliceDims := [0]
  operandBatchingDims := []
  startIndicesBatchingDims := []
  startIndexMap := [0]
  indexVectorDim := 1
  sliceSizes := ![1, 64]
  wf := gather_S2000x64_S100000x1_S100000x64_1_0_n_n_0_1_164_wf
def scatter_S50000x64_S100000x1_S100000x64_1_0_0_1 : ScatterDims S50000x64 S100000x1 S100000x64 where
  updateWindowDims := [1]
  insertedWindowDims := [0]
  scatterDimsToOperandDims := [0]
  indexVectorDim := 1
  wf := scatter_S50000x64_S100000x1_S100000x64_1_0_0_1_wf
def scatter_S50000_S100000x1_S100000_n_0_0_1 : ScatterDims S50000 S100000x1 S100000 where
  updateWindowDims := []
  insertedWindowDims := [0]
  scatterDimsToOperandDims := [0]
  indexVectorDim := 1
  wf := scatter_S50000_S100000x1_S100000_n_0_0_1_wf
def gather_S100000x64_S200000x1_S200000x64_1_0_n_n_0_1_164 : GatherDims S100000x64 S200000x1 S200000x64 where
  offsetDims := [1]
  collapsedSliceDims := [0]
  operandBatchingDims := []
  startIndicesBatchingDims := []
  startIndexMap := [0]
  indexVectorDim := 1
  sliceSizes := ![1, 64]
  wf := gather_S100000x64_S200000x1_S200000x64_1_0_n_n_0_1_164_wf
def scatter_S5000x64_S200000x1_S200000x64_1_0_0_1 : ScatterDims S5000x64 S200000x1 S200000x64 where
  updateWindowDims := [1]
  insertedWindowDims := [0]
  scatterDimsToOperandDims := [0]
  indexVectorDim := 1
  wf := scatter_S5000x64_S200000x1_S200000x64_1_0_0_1_wf
def scatter_S5000_S200000x1_S200000_n_0_0_1 : ScatterDims S5000 S200000x1 S200000 where
  updateWindowDims := []
  insertedWindowDims := [0]
  scatterDimsToOperandDims := [0]
  indexVectorDim := 1
  wf := scatter_S5000_S200000x1_S200000_n_0_0_1_wf
def gather_S5000x64_S200000x1_S200000x64_1_0_n_n_0_1_164 : GatherDims S5000x64 S200000x1 S200000x64 where
  offsetDims := [1]
  collapsedSliceDims := [0]
  operandBatchingDims := []
  startIndicesBatchingDims := []
  startIndexMap := [0]
  indexVectorDim := 1
  sliceSizes := ![1, 64]
  wf := gather_S5000x64_S200000x1_S200000x64_1_0_n_n_0_1_164_wf
def scatter_S100000x64_S200000x1_S200000x64_1_0_0_1 : ScatterDims S100000x64 S200000x1 S200000x64 where
  updateWindowDims := [1]
  insertedWindowDims := [0]
  scatterDimsToOperandDims := [0]
  indexVectorDim := 1
  wf := scatter_S100000x64_S200000x1_S200000x64_1_0_0_1_wf
def scatter_S100000_S200000x1_S200000_n_0_0_1 : ScatterDims S100000 S200000x1 S200000 where
  updateWindowDims := []
  insertedWindowDims := [0]
  scatterDimsToOperandDims := [0]
  indexVectorDim := 1
  wf := scatter_S100000_S200000x1_S200000_n_0_0_1_wf
def dot_S2000x192_S192x64_S2000x64_1_0_0_1_n_n : DotDims S2000x192 S192x64 S2000x64 where
  lhsContracting := [1]
  rhsContracting := [0]
  lhsNonContracting := [0]
  rhsNonContracting := [1]
  lhsBatch := []
  rhsBatch := []
  wf := dot_S2000x192_S192x64_S2000x64_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S1000x128_S128x64_S1000x64_1_0_0_1_n_n : DotDims S1000x128 S128x64 S1000x64 where
  lhsContracting := [1]
  rhsContracting := [0]
  lhsNonContracting := [0]
  rhsNonContracting := [1]
  lhsBatch := []
  rhsBatch := []
  wf := dot_S1000x128_S128x64_S1000x64_1_0_0_1_n_n_wf
def gather_S100000x64_S100000x1_S100000x64_1_0_n_n_0_1_164 : GatherDims S100000x64 S100000x1 S100000x64 where
  offsetDims := [1]
  collapsedSliceDims := [0]
  operandBatchingDims := []
  startIndicesBatchingDims := []
  startIndexMap := [0]
  indexVectorDim := 1
  sliceSizes := ![1, 64]
  wf := gather_S100000x64_S100000x1_S100000x64_1_0_n_n_0_1_164_wf
def dot_S2000x64_S64x4_S2000x4_1_0_0_1_n_n : DotDims S2000x64 S64x4 S2000x4 where
  lhsContracting := [1]
  rhsContracting := [0]
  lhsNonContracting := [0]
  rhsNonContracting := [1]
  lhsBatch := []
  rhsBatch := []
  wf := dot_S2000x64_S64x4_S2000x4_1_0_0_1_n_n_wf

abbrev win0_0 : Pipeline.Window sig grid0 :=
  Pipeline.Window.ofSpec (Memref.whole main_v114) S2000x192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v126) S192x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v134) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v135) S2000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v136) S2000x192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v148) S192x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v156) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v157) S2000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v158) S2000x128.size cc2_transform_0 reads2_0 false false 1 stage2_0 sem2_0
    hrank2 hreads2_0 hinb2_0 nbuf2_0 (Memref.isWhole_whole _) hwx2_0 hstage2_0

abbrev win2_1 : Pipeline.Window sig grid2 :=
  Pipeline.Window.ofSpec (Memref.whole main_v165) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v170) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v171) S2000x64.size cc2_transform_3 reads2_3 true false 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v172) S1000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v179) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v184) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v185) S1000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v300) S2000x192.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v312) S192x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v320) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v321) S2000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v322) S2000x192.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v334) S192x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v342) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v343) S2000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v344) S2000x128.size cc6_transform_0 reads6_0 false false 1 stage6_0 sem6_0
    hrank6 hreads6_0 hinb6_0 nbuf6_0 (Memref.isWhole_whole _) hwx6_0 hstage6_0

abbrev win6_1 : Pipeline.Window sig grid6 :=
  Pipeline.Window.ofSpec (Memref.whole main_v351) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v356) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v357) S2000x64.size cc6_transform_3 reads6_3 true false 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v358) S1000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v365) S128x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v370) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v371) S1000x64.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v386) S2000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg7) S128x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v387) S1x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_arg9) S64x4.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v388) S1x4.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v389) S2000x4.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

class Facts : Prop extends Facts₀ where

variable [Facts]
-- ==== ReferenceIdeal.lean ====
abbrev S100000x64 : Shape := ⟨2, ![100000, 64]⟩
abbrev S50000x64 : Shape := ⟨2, ![50000, 64]⟩
abbrev S2000x64 : Shape := ⟨2, ![2000, 64]⟩
abbrev S5000x64 : Shape := ⟨2, ![5000, 64]⟩
abbrev S2x6x64x64 : Shape := ⟨4, ![2, 6, 64, 64]⟩
abbrev S2x6x64 : Shape := ⟨3, ![2, 6, 64]⟩
abbrev S128x64 : Shape := ⟨2, ![128, 64]⟩
abbrev S64 : Shape := ⟨1, ![64]⟩
abbrev S64x4 : Shape := ⟨2, ![64, 4]⟩
abbrev S4 : Shape := ⟨1, ![4]⟩
abbrev S2000000 : Shape := ⟨1, ![2000000]⟩
abbrev S100000 : Shape := ⟨1, ![100000]⟩
abbrev S200000 : Shape := ⟨1, ![200000]⟩
abbrev S_ : Shape := ⟨0, ![]⟩
abbrev S1x1x64x64 : Shape := ⟨4, ![1, 1, 64, 64]⟩
abbrev S64x64 : Shape := ⟨2, ![64, 64]⟩
abbrev S1x1x64 : Shape := ⟨3, ![1, 1, 64]⟩
abbrev S2000000x1 : Shape := ⟨2, ![2000000, 1]⟩
abbrev S2000000x64 : Shape := ⟨2, ![2000000, 64]⟩
abbrev S100000x1 : Shape := ⟨2, ![100000, 1]⟩
abbrev S1x64 : Shape := ⟨2, ![1, 64]⟩
abbrev S50000 : Shape := ⟨1, ![50000]⟩
abbrev S50000x1 : Shape := ⟨2, ![50000, 1]⟩
abbrev S2000 : Shape := ⟨1, ![2000]⟩
abbrev S2000x1 : Shape := ⟨2, ![2000, 1]⟩
abbrev S200000x1 : Shape := ⟨2, ![200000, 1]⟩
abbrev S200000x64 : Shape := ⟨2, ![200000, 64]⟩
abbrev S5000 : Shape := ⟨1, ![5000]⟩
abbrev S5000x1 : Shape := ⟨2, ![5000, 1]⟩
abbrev S100000x128 : Shape := ⟨2, ![100000, 128]⟩
abbrev S100000x4 : Shape := ⟨2, ![100000, 4]⟩
abbrev S1x4 : Shape := ⟨2, ![1, 4]⟩

abbrev nBuf : Space → Nat
  | .hbm => 539
  | .vmem => 0
  | .smem => 0
  | _ => 0

abbrev hbmTy0_0 (i : Nat) : BufTy := match i % 128 with
  | 0 => ⟨S100000x64, .f32⟩
  | 1 => ⟨S50000x64, .f32⟩
  | 2 => ⟨S2000x64, .f32⟩
  | 3 => ⟨S5000x64, .f32⟩
  | 4 => ⟨S2x6x64x64, .f32⟩
  | 5 => ⟨S2x6x64, .f32⟩
  | 6 => ⟨S2x6x64x64, .f32⟩
  | 7 => ⟨S128x64, .f32⟩
  | 8 => ⟨S64, .f32⟩
  | 9 => ⟨S64x4, .f32⟩
  | 10 => ⟨S4, .f32⟩
  | 11 => ⟨S2000000, .i32⟩
  | 12 => ⟨S2000000, .i32⟩
  | 13 => ⟨S2000000, .i32⟩
  | 14 => ⟨S2000000, .i32⟩
  | 15 => ⟨S100000, .i32⟩
  | 16 => ⟨S100000, .i32⟩
  | 17 => ⟨S100000, .i32⟩
  | 18 => ⟨S100000, .i32⟩
  | 19 => ⟨S200000, .i32⟩
  | 20 => ⟨S200000, .i32⟩
  | 21 => ⟨S200000, .i32⟩
  | 22 => ⟨S200000, .i32⟩
  | 23 => ⟨S100000, .i32⟩
  | 24 => ⟨S100000, .i32⟩
  | 25 => ⟨S_, .f32⟩
  | 26 => ⟨S100000x64, .f32⟩
  | 27 => ⟨S_, .f32⟩
  | 28 => ⟨S50000x64, .f32⟩
  | 29 => ⟨S_, .f32⟩
  | 30 => ⟨S2000x64, .f32⟩
  | 31 => ⟨S_, .f32⟩
  | 32 => ⟨S5000x64, .f32⟩
  | 33 => ⟨S1x1x64x64, .f32⟩
  | 34 => ⟨S64x64, .f32⟩
  | 35 => ⟨S1x1x64, .f32⟩
  | 36 => ⟨S64, .f32⟩
  | 37 => ⟨S1x1x64x64, .f32⟩
  | 38 => ⟨S64x64, .f32⟩
  | 39 => ⟨S_, .i32⟩
  | 40 => ⟨S2000000, .i32⟩
  | 41 => ⟨S2000000, .i1⟩
  | 42 => ⟨S_, .i32⟩
  | 43 => ⟨S2000000, .i32⟩
  | 44 => ⟨S2000000, .i32⟩
  | 45 => ⟨S2000000, .i32⟩
  | 46 => ⟨S2000000x1, .i32⟩
  | 47 => ⟨S2000000x64, .f32⟩
  | 48 => ⟨S_, .f32⟩
  | 49 => ⟨S100000x64, .f32⟩
  | 50 => ⟨S2000000x1, .i32⟩
  | 51 => ⟨S100000x64, .f32⟩
  | 52 => ⟨S_, .f32⟩
  | 53 => ⟨S2000000, .f32⟩
  | 54 => ⟨S_, .f32⟩
  | 55 => ⟨S100000, .f32⟩
  | 56 => ⟨S2000000x1, .i32⟩
  | 57 => ⟨S100000, .f32⟩
  | 58 => ⟨S_, .f32⟩
  | 59 => ⟨S100000, .f32⟩
  | 60 => ⟨S100000, .f32⟩
  | 61 => ⟨S100000x1, .f32⟩
  | 62 => ⟨S100000x64, .f32⟩
  | 63 => ⟨S100000x64, .f32⟩
  | 64 => ⟨S100000x64, .f32⟩
  | 65 => ⟨S1x64, .f32⟩
  | 66 => ⟨S100000x64, .f32⟩
  | 67 => ⟨S100000x64, .f32⟩
  | 68 => ⟨S100000x64, .f32⟩
  | 69 => ⟨S100000x64, .f32⟩
  | 70 => ⟨S100000x64, .f32⟩
  | 71 => ⟨S1x1x64x64, .f32⟩
  | 72 => ⟨S64x64, .f32⟩
  | 73 => ⟨S1x1x64, .f32⟩
  | 74 => ⟨S64, .f32⟩
  | 75 => ⟨S1x1x64x64, .f32⟩
  | 76 => ⟨S64x64, .f32⟩
  | 77 => ⟨S_, .i32⟩
  | 78 => ⟨S2000000, .i32⟩
  | 79 => ⟨S2000000, .i1⟩
  | 80 => ⟨S_, .i32⟩
  | 81 => ⟨S2000000, .i32⟩
  | 82 => ⟨S2000000, .i32⟩
  | 83 => ⟨S2000000, .i32⟩
  | 84 => ⟨S2000000x1, .i32⟩
  | 85 => ⟨S2000000x64, .f32⟩
  | 86 => ⟨S_, .f32⟩
  | 87 => ⟨S50000x64, .f32⟩
  | 88 => ⟨S2000000x1, .i32⟩
  | 89 => ⟨S50000x64, .f32⟩
  | 90 => ⟨S_, .f32⟩
  | 91 => ⟨S2000000, .f32⟩
  | 92 => ⟨S_, .f32⟩
  | 93 => ⟨S50000, .f32⟩
  | 94 => ⟨S2000000x1, .i32⟩
  | 95 => ⟨S50000, .f32⟩
  | 96 => ⟨S_, .f32⟩
  | 97 => ⟨S50000, .f32⟩
  | 98 => ⟨S50000, .f32⟩
  | 99 => ⟨S50000x1, .f32⟩
  | 100 => ⟨S50000x64, .f32⟩
  | 101 => ⟨S50000x64, .f32⟩
  | 102 => ⟨S50000x64, .f32⟩
  | 103 => ⟨S1x64, .f32⟩
  | 104 => ⟨S50000x64, .f32⟩
  | 105 => ⟨S50000x64, .f32⟩
  | 106 => ⟨S50000x64, .f32⟩
  | 107 => ⟨S50000x64, .f32⟩
  | 108 => ⟨S50000x64, .f32⟩
  | 109 => ⟨S1x1x64x64, .f32⟩
  | 110 => ⟨S64x64, .f32⟩
  | 111 => ⟨S1x1x64, .f32⟩
  | 112 => ⟨S64, .f32⟩
  | 113 => ⟨S1x1x64x64, .f32⟩
  | 114 => ⟨S64x64, .f32⟩
  | 115 => ⟨S_, .i32⟩
  | 116 => ⟨S100000, .i32⟩
  | 117 => ⟨S100000, .i1⟩
  | 118 => ⟨S_, .i32⟩
  | 119 => ⟨S100000, .i32⟩
  | 120 => ⟨S100000, .i32⟩
  | 121 => ⟨S100000, .i32⟩
  | 122 => ⟨S100000x1, .i32⟩
  | 123 => ⟨S100000x64, .f32⟩
  | 124 => ⟨S_, .f32⟩
  | 125 => ⟨S2000x64, .f32⟩
  | 126 => ⟨S100000x1, .i32⟩
  | 127 => ⟨S2000x64, .f32⟩
  | _ => ⟨S100000x64, .f32⟩

abbrev hbmTy0_1 (i : Nat) : BufTy := match i % 128 with
  | 0 => ⟨S_, .f32⟩
  | 1 => ⟨S100000, .f32⟩
  | 2 => ⟨S_, .f32⟩
  | 3 => ⟨S2000, .f32⟩
  | 4 => ⟨S100000x1, .i32⟩
  | 5 => ⟨S2000, .f32⟩
  | 6 => ⟨S_, .f32⟩
  | 7 => ⟨S2000, .f32⟩
  | 8 => ⟨S2000, .f32⟩
  | 9 => ⟨S2000x1, .f32⟩
  | 10 => ⟨S2000x64, .f32⟩
  | 11 => ⟨S2000x64, .f32⟩
  | 12 => ⟨S2000x64, .f32⟩
  | 13 => ⟨S1x64, .f32⟩
  | 14 => ⟨S2000x64, .f32⟩
  | 15 => ⟨S2000x64, .f32⟩
  | 16 => ⟨S2000x64, .f32⟩
  | 17 => ⟨S2000x64, .f32⟩
  | 18 => ⟨S2000x64, .f32⟩
  | 19 => ⟨S1x1x64x64, .f32⟩
  | 20 => ⟨S64x64, .f32⟩
  | 21 => ⟨S1x1x64, .f32⟩
  | 22 => ⟨S64, .f32⟩
  | 23 => ⟨S1x1x64x64, .f32⟩
  | 24 => ⟨S64x64, .f32⟩
  | 25 => ⟨S_, .i32⟩
  | 26 => ⟨S100000, .i32⟩
  | 27 => ⟨S100000, .i1⟩
  | 28 => ⟨S_, .i32⟩
  | 29 => ⟨S100000, .i32⟩
  | 30 => ⟨S100000, .i32⟩
  | 31 => ⟨S100000, .i32⟩
  | 32 => ⟨S100000x1, .i32⟩
  | 33 => ⟨S100000x64, .f32⟩
  | 34 => ⟨S_, .f32⟩
  | 35 => ⟨S50000x64, .f32⟩
  | 36 => ⟨S100000x1, .i32⟩
  | 37 => ⟨S50000x64, .f32⟩
  | 38 => ⟨S_, .f32⟩
  | 39 => ⟨S100000, .f32⟩
  | 40 => ⟨S_, .f32⟩
  | 41 => ⟨S50000, .f32⟩
  | 42 => ⟨S100000x1, .i32⟩
  | 43 => ⟨S50000, .f32⟩
  | 44 => ⟨S_, .f32⟩
  | 45 => ⟨S50000, .f32⟩
  | 46 => ⟨S50000, .f32⟩
  | 47 => ⟨S50000x1, .f32⟩
  | 48 => ⟨S50000x64, .f32⟩
  | 49 => ⟨S50000x64, .f32⟩
  | 50 => ⟨S50000x64, .f32⟩
  | 51 => ⟨S1x64, .f32⟩
  | 52 => ⟨S50000x64, .f32⟩
  | 53 => ⟨S50000x64, .f32⟩
  | 54 => ⟨S50000x64, .f32⟩
  | 55 => ⟨S50000x64, .f32⟩
  | 56 => ⟨S50000x64, .f32⟩
  | 57 => ⟨S1x1x64x64, .f32⟩
  | 58 => ⟨S64x64, .f32⟩
  | 59 => ⟨S1x1x64, .f32⟩
  | 60 => ⟨S64, .f32⟩
  | 61 => ⟨S1x1x64x64, .f32⟩
  | 62 => ⟨S64x64, .f32⟩
  | 63 => ⟨S_, .i32⟩
  | 64 => ⟨S200000, .i32⟩
  | 65 => ⟨S200000, .i1⟩
  | 66 => ⟨S_, .i32⟩
  | 67 => ⟨S200000, .i32⟩
  | 68 => ⟨S200000, .i32⟩
  | 69 => ⟨S200000, .i32⟩
  | 70 => ⟨S200000x1, .i32⟩
  | 71 => ⟨S200000x64, .f32⟩
  | 72 => ⟨S_, .f32⟩
  | 73 => ⟨S5000x64, .f32⟩
  | 74 => ⟨S200000x1, .i32⟩
  | 75 => ⟨S5000x64, .f32⟩
  | 76 => ⟨S_, .f32⟩
  | 77 => ⟨S200000, .f32⟩
  | 78 => ⟨S_, .f32⟩
  | 79 => ⟨S5000, .f32⟩
  | 80 => ⟨S200000x1, .i32⟩
  | 81 => ⟨S5000, .f32⟩
  | 82 => ⟨S_, .f32⟩
  | 83 => ⟨S5000, .f32⟩
  | 84 => ⟨S5000, .f32⟩
  | 85 => ⟨S5000x1, .f32⟩
  | 86 => ⟨S5000x64, .f32⟩
  | 87 => ⟨S5000x64, .f32⟩
  | 88 => ⟨S5000x64, .f32⟩
  | 89 => ⟨S1x64, .f32⟩
  | 90 => ⟨S5000x64, .f32⟩
  | 91 => ⟨S5000x64, .f32⟩
  | 92 => ⟨S5000x64, .f32⟩
  | 93 => ⟨S5000x64, .f32⟩
  | 94 => ⟨S5000x64, .f32⟩
  | 95 => ⟨S1x1x64x64, .f32⟩
  | 96 => ⟨S64x64, .f32⟩
  | 97 => ⟨S1x1x64, .f32⟩
  | 98 => ⟨S64, .f32⟩
  | 99 => ⟨S1x1x64x64, .f32⟩
  | 100 => ⟨S64x64, .f32⟩
  | 101 => ⟨S_, .i32⟩
  | 102 => ⟨S200000, .i32⟩
  | 103 => ⟨S200000, .i1⟩
  | 104 => ⟨S_, .i32⟩
  | 105 => ⟨S200000, .i32⟩
  | 106 => ⟨S200000, .i32⟩
  | 107 => ⟨S200000, .i32⟩
  | 108 => ⟨S200000x1, .i32⟩
  | 109 => ⟨S200000x64, .f32⟩
  | 110 => ⟨S_, .f32⟩
  | 111 => ⟨S100000x64, .f32⟩
  | 112 => ⟨S200000x1, .i32⟩
  | 113 => ⟨S100000x64, .f32⟩
  | 114 => ⟨S_, .f32⟩
  | 115 => ⟨S200000, .f32⟩
  | 116 => ⟨S_, .f32⟩
  | 117 => ⟨S100000, .f32⟩
  | 118 => ⟨S200000x1, .i32⟩
  | 119 => ⟨S100000, .f32⟩
  | 120 => ⟨S_, .f32⟩
  | 121 => ⟨S100000, .f32⟩
  | 122 => ⟨S100000, .f32⟩
  | 123 => ⟨S100000x1, .f32⟩
  | 124 => ⟨S100000x64, .f32⟩
  | 125 => ⟨S100000x64, .f32⟩
  | 126 => ⟨S100000x64, .f32⟩
  | 127 => ⟨S1x64, .f32⟩
  | _ => ⟨S100000x64, .f32⟩

abbrev hbmTy0_2 (i : Nat) : BufTy := match i % 128 with
  | 0 => ⟨S100000x64, .f32⟩
  | 1 => ⟨S100000x64, .f32⟩
  | 2 => ⟨S100000x64, .f32⟩
  | 3 => ⟨S100000x64, .f32⟩
  | 4 => ⟨S100000x64, .f32⟩
  | 5 => ⟨S_, .f32⟩
  | 6 => ⟨S100000x64, .f32⟩
  | 7 => ⟨S100000x64, .f32⟩
  | 8 => ⟨S_, .f32⟩
  | 9 => ⟨S50000x64, .f32⟩
  | 10 => ⟨S50000x64, .f32⟩
  | 11 => ⟨S_, .f32⟩
  | 12 => ⟨S2000x64, .f32⟩
  | 13 => ⟨S2000x64, .f32⟩
  | 14 => ⟨S_, .f32⟩
  | 15 => ⟨S5000x64, .f32⟩
  | 16 => ⟨S5000x64, .f32⟩
  | 17 => ⟨S_, .f32⟩
  | 18 => ⟨S100000x64, .f32⟩
  | 19 => ⟨S_, .f32⟩
  | 20 => ⟨S50000x64, .f32⟩
  | 21 => ⟨S_, .f32⟩
  | 22 => ⟨S2000x64, .f32⟩
  | 23 => ⟨S_, .f32⟩
  | 24 => ⟨S5000x64, .f32⟩
  | 25 => ⟨S1x1x64x64, .f32⟩
  | 26 => ⟨S64x64, .f32⟩
  | 27 => ⟨S1x1x64, .f32⟩
  | 28 => ⟨S64, .f32⟩
  | 29 => ⟨S1x1x64x64, .f32⟩
  | 30 => ⟨S64x64, .f32⟩
  | 31 => ⟨S_, .i32⟩
  | 32 => ⟨S2000000, .i32⟩
  | 33 => ⟨S2000000, .i1⟩
  | 34 => ⟨S_, .i32⟩
  | 35 => ⟨S2000000, .i32⟩
  | 36 => ⟨S2000000, .i32⟩
  | 37 => ⟨S2000000, .i32⟩
  | 38 => ⟨S2000000x1, .i32⟩
  | 39 => ⟨S2000000x64, .f32⟩
  | 40 => ⟨S_, .f32⟩
  | 41 => ⟨S100000x64, .f32⟩
  | 42 => ⟨S2000000x1, .i32⟩
  | 43 => ⟨S100000x64, .f32⟩
  | 44 => ⟨S_, .f32⟩
  | 45 => ⟨S2000000, .f32⟩
  | 46 => ⟨S_, .f32⟩
  | 47 => ⟨S100000, .f32⟩
  | 48 => ⟨S2000000x1, .i32⟩
  | 49 => ⟨S100000, .f32⟩
  | 50 => ⟨S_, .f32⟩
  | 51 => ⟨S100000, .f32⟩
  | 52 => ⟨S100000, .f32⟩
  | 53 => ⟨S100000x1, .f32⟩
  | 54 => ⟨S100000x64, .f32⟩
  | 55 => ⟨S100000x64, .f32⟩
  | 56 => ⟨S100000x64, .f32⟩
  | 57 => ⟨S1x64, .f32⟩
  | 58 => ⟨S100000x64, .f32⟩
  | 59 => ⟨S100000x64, .f32⟩
  | 60 => ⟨S100000x64, .f32⟩
  | 61 => ⟨S100000x64, .f32⟩
  | 62 => ⟨S100000x64, .f32⟩
  | 63 => ⟨S1x1x64x64, .f32⟩
  | 64 => ⟨S64x64, .f32⟩
  | 65 => ⟨S1x1x64, .f32⟩
  | 66 => ⟨S64, .f32⟩
  | 67 => ⟨S1x1x64x64, .f32⟩
  | 68 => ⟨S64x64, .f32⟩
  | 69 => ⟨S_, .i32⟩
  | 70 => ⟨S2000000, .i32⟩
  | 71 => ⟨S2000000, .i1⟩
  | 72 => ⟨S_, .i32⟩
  | 73 => ⟨S2000000, .i32⟩
  | 74 => ⟨S2000000, .i32⟩
  | 75 => ⟨S2000000, .i32⟩
  | 76 => ⟨S2000000x1, .i32⟩
  | 77 => ⟨S2000000x64, .f32⟩
  | 78 => ⟨S_, .f32⟩
  | 79 => ⟨S50000x64, .f32⟩
  | 80 => ⟨S2000000x1, .i32⟩
  | 81 => ⟨S50000x64, .f32⟩
  | 82 => ⟨S_, .f32⟩
  | 83 => ⟨S2000000, .f32⟩
  | 84 => ⟨S_, .f32⟩
  | 85 => ⟨S50000, .f32⟩
  | 86 => ⟨S2000000x1, .i32⟩
  | 87 => ⟨S50000, .f32⟩
  | 88 => ⟨S_, .f32⟩
  | 89 => ⟨S50000, .f32⟩
  | 90 => ⟨S50000, .f32⟩
  | 91 => ⟨S50000x1, .f32⟩
  | 92 => ⟨S50000x64, .f32⟩
  | 93 => ⟨S50000x64, .f32⟩
  | 94 => ⟨S50000x64, .f32⟩
  | 95 => ⟨S1x64, .f32⟩
  | 96 => ⟨S50000x64, .f32⟩
  | 97 => ⟨S50000x64, .f32⟩
  | 98 => ⟨S50000x64, .f32⟩
  | 99 => ⟨S50000x64, .f32⟩
  | 100 => ⟨S50000x64, .f32⟩
  | 101 => ⟨S1x1x64x64, .f32⟩
  | 102 => ⟨S64x64, .f32⟩
  | 103 => ⟨S1x1x64, .f32⟩
  | 104 => ⟨S64, .f32⟩
  | 105 => ⟨S1x1x64x64, .f32⟩
  | 106 => ⟨S64x64, .f32⟩
  | 107 => ⟨S_, .i32⟩
  | 108 => ⟨S100000, .i32⟩
  | 109 => ⟨S100000, .i1⟩
  | 110 => ⟨S_, .i32⟩
  | 111 => ⟨S100000, .i32⟩
  | 112 => ⟨S100000, .i32⟩
  | 113 => ⟨S100000, .i32⟩
  | 114 => ⟨S100000x1, .i32⟩
  | 115 => ⟨S100000x64, .f32⟩
  | 116 => ⟨S_, .f32⟩
  | 117 => ⟨S2000x64, .f32⟩
  | 118 => ⟨S100000x1, .i32⟩
  | 119 => ⟨S2000x64, .f32⟩
  | 120 => ⟨S_, .f32⟩
  | 121 => ⟨S100000, .f32⟩
  | 122 => ⟨S_, .f32⟩
  | 123 => ⟨S2000, .f32⟩
  | 124 => ⟨S100000x1, .i32⟩
  | 125 => ⟨S2000, .f32⟩
  | 126 => ⟨S_, .f32⟩
  | 127 => ⟨S2000, .f32⟩
  | _ => ⟨S100000x64, .f32⟩

abbrev hbmTy0_3 (i : Nat) : BufTy := match i % 128 with
  | 0 => ⟨S2000, .f32⟩
  | 1 => ⟨S2000x1, .f32⟩
  | 2 => ⟨S2000x64, .f32⟩
  | 3 => ⟨S2000x64, .f32⟩
  | 4 => ⟨S2000x64, .f32⟩
  | 5 => ⟨S1x64, .f32⟩
  | 6 => ⟨S2000x64, .f32⟩
  | 7 => ⟨S2000x64, .f32⟩
  | 8 => ⟨S2000x64, .f32⟩
  | 9 => ⟨S2000x64, .f32⟩
  | 10 => ⟨S2000x64, .f32⟩
  | 11 => ⟨S1x1x64x64, .f32⟩
  | 12 => ⟨S64x64, .f32⟩
  | 13 => ⟨S1x1x64, .f32⟩
  | 14 => ⟨S64, .f32⟩
  | 15 => ⟨S1x1x64x64, .f32⟩
  | 16 => ⟨S64x64, .f32⟩
  | 17 => ⟨S_, .i32⟩
  | 18 => ⟨S100000, .i32⟩
  | 19 => ⟨S100000, .i1⟩
  | 20 => ⟨S_, .i32⟩
  | 21 => ⟨S100000, .i32⟩
  | 22 => ⟨S100000, .i32⟩
  | 23 => ⟨S100000, .i32⟩
  | 24 => ⟨S100000x1, .i32⟩
  | 25 => ⟨S100000x64, .f32⟩
  | 26 => ⟨S_, .f32⟩
  | 27 => ⟨S50000x64, .f32⟩
  | 28 => ⟨S100000x1, .i32⟩
  | 29 => ⟨S50000x64, .f32⟩
  | 30 => ⟨S_, .f32⟩
  | 31 => ⟨S100000, .f32⟩
  | 32 => ⟨S_, .f32⟩
  | 33 => ⟨S50000, .f32⟩
  | 34 => ⟨S100000x1, .i32⟩
  | 35 => ⟨S50000, .f32⟩
  | 36 => ⟨S_, .f32⟩
  | 37 => ⟨S50000, .f32⟩
  | 38 => ⟨S50000, .f32⟩
  | 39 => ⟨S50000x1, .f32⟩
  | 40 => ⟨S50000x64, .f32⟩
  | 41 => ⟨S50000x64, .f32⟩
  | 42 => ⟨S50000x64, .f32⟩
  | 43 => ⟨S1x64, .f32⟩
  | 44 => ⟨S50000x64, .f32⟩
  | 45 => ⟨S50000x64, .f32⟩
  | 46 => ⟨S50000x64, .f32⟩
  | 47 => ⟨S50000x64, .f32⟩
  | 48 => ⟨S50000x64, .f32⟩
  | 49 => ⟨S1x1x64x64, .f32⟩
  | 50 => ⟨S64x64, .f32⟩
  | 51 => ⟨S1x1x64, .f32⟩
  | 52 => ⟨S64, .f32⟩
  | 53 => ⟨S1x1x64x64, .f32⟩
  | 54 => ⟨S64x64, .f32⟩
  | 55 => ⟨S_, .i32⟩
  | 56 => ⟨S200000, .i32⟩
  | 57 => ⟨S200000, .i1⟩
  | 58 => ⟨S_, .i32⟩
  | 59 => ⟨S200000, .i32⟩
  | 60 => ⟨S200000, .i32⟩
  | 61 => ⟨S200000, .i32⟩
  | 62 => ⟨S200000x1, .i32⟩
  | 63 => ⟨S200000x64, .f32⟩
  | 64 => ⟨S_, .f32⟩
  | 65 => ⟨S5000x64, .f32⟩
  | 66 => ⟨S200000x1, .i32⟩
  | 67 => ⟨S5000x64, .f32⟩
  | 68 => ⟨S_, .f32⟩
  | 69 => ⟨S200000, .f32⟩
  | 70 => ⟨S_, .f32⟩
  | 71 => ⟨S5000, .f32⟩
  | 72 => ⟨S200000x1, .i32⟩
  | 73 => ⟨S5000, .f32⟩
  | 74 => ⟨S_, .f32⟩
  | 75 => ⟨S5000, .f32⟩
  | 76 => ⟨S5000, .f32⟩
  | 77 => ⟨S5000x1, .f32⟩
  | 78 => ⟨S5000x64, .f32⟩
  | 79 => ⟨S5000x64, .f32⟩
  | 80 => ⟨S5000x64, .f32⟩
  | 81 => ⟨S1x64, .f32⟩
  | 82 => ⟨S5000x64, .f32⟩
  | 83 => ⟨S5000x64, .f32⟩
  | 84 => ⟨S5000x64, .f32⟩
  | 85 => ⟨S5000x64, .f32⟩
  | 86 => ⟨S5000x64, .f32⟩
  | 87 => ⟨S1x1x64x64, .f32⟩
  | 88 => ⟨S64x64, .f32⟩
  | 89 => ⟨S1x1x64, .f32⟩
  | 90 => ⟨S64, .f32⟩
  | 91 => ⟨S1x1x64x64, .f32⟩
  | 92 => ⟨S64x64, .f32⟩
  | 93 => ⟨S_, .i32⟩
  | 94 => ⟨S200000, .i32⟩
  | 95 => ⟨S200000, .i1⟩
  | 96 => ⟨S_, .i32⟩
  | 97 => ⟨S200000, .i32⟩
  | 98 => ⟨S200000, .i32⟩
  | 99 => ⟨S200000, .i32⟩
  | 100 => ⟨S200000x1, .i32⟩
  | 101 => ⟨S200000x64, .f32⟩
  | 102 => ⟨S_, .f32⟩
  | 103 => ⟨S100000x64, .f32⟩
  | 104 => ⟨S200000x1, .i32⟩
  | 105 => ⟨S100000x64, .f32⟩
  | 106 => ⟨S_, .f32⟩
  | 107 => ⟨S200000, .f32⟩
  | 108 => ⟨S_, .f32⟩
  | 109 => ⟨S100000, .f32⟩
  | 110 => ⟨S200000x1, .i32⟩
  | 111 => ⟨S100000, .f32⟩
  | 112 => ⟨S_, .f32⟩
  | 113 => ⟨S100000, .f32⟩
  | 114 => ⟨S100000, .f32⟩
  | 115 => ⟨S100000x1, .f32⟩
  | 116 => ⟨S100000x64, .f32⟩
  | 117 => ⟨S100000x64, .f32⟩
  | 118 => ⟨S100000x64, .f32⟩
  | 119 => ⟨S1x64, .f32⟩
  | 120 => ⟨S100000x64, .f32⟩
  | 121 => ⟨S100000x64, .f32⟩
  | 122 => ⟨S100000x64, .f32⟩
  | 123 => ⟨S100000x64, .f32⟩
  | 124 => ⟨S100000x64, .f32⟩
  | 125 => ⟨S_, .i32⟩
  | 126 => ⟨S100000, .i32⟩
  | 127 => ⟨S100000, .i1⟩
  | _ => ⟨S100000x64, .f32⟩

abbrev hbmTy0_4 (i : Nat) : BufTy := match i % 128 with
  | 0 => ⟨S_, .i32⟩
  | 1 => ⟨S100000, .i32⟩
  | 2 => ⟨S100000, .i32⟩
  | 3 => ⟨S100000, .i32⟩
  | 4 => ⟨S100000x1, .i32⟩
  | 5 => ⟨S100000x64, .f32⟩
  | 6 => ⟨S_, .i32⟩
  | 7 => ⟨S100000, .i32⟩
  | 8 => ⟨S100000, .i1⟩
  | 9 => ⟨S_, .i32⟩
  | 10 => ⟨S100000, .i32⟩
  | 11 => ⟨S100000, .i32⟩
  | 12 => ⟨S100000, .i32⟩
  | 13 => ⟨S100000x1, .i32⟩
  | 14 => ⟨S100000x64, .f32⟩
  | 15 => ⟨S100000x128, .f32⟩
  | 16 => ⟨S100000x64, .f32⟩
  | 17 => ⟨S1x64, .f32⟩
  | 18 => ⟨S100000x64, .f32⟩
  | 19 => ⟨S100000x64, .f32⟩
  | 20 => ⟨S_, .f32⟩
  | 21 => ⟨S100000x64, .f32⟩
  | 22 => ⟨S100000x64, .f32⟩
  | 23 => ⟨S100000x4, .f32⟩
  | 24 => ⟨S1x4, .f32⟩
  | 25 => ⟨S100000x4, .f32⟩
  | 26 => ⟨S100000x4, .f32⟩
  | _ => ⟨S100000x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_cst : Ref sig .tc := ⟨.hbm, 25, rfl⟩
abbrev main_v0 : Ref sig .tc := ⟨.hbm, 26, rfl⟩
abbrev main_cst_0 : Ref sig .tc := ⟨.hbm, 27, rfl⟩
abbrev main_v1 : Ref sig .tc := ⟨.hbm, 28, rfl⟩
abbrev main_cst_1 : Ref sig .tc := ⟨.hbm, 29, rfl⟩
abbrev main_v2 : Ref sig .tc := ⟨.hbm, 30, rfl⟩
abbrev main_cst_2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_c : Ref sig .tc := ⟨.hbm, 39, rfl⟩
abbrev main_v10 : Ref sig .tc := ⟨.hbm, 40, rfl⟩
abbrev main_v11 : Ref sig .tc := ⟨.hbm, 41, rfl⟩
abbrev main_c_3 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_cst_4 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_cst_5 : Ref sig .tc := ⟨.hbm, 52, rfl⟩
abbrev main_v20 : Ref sig .tc := ⟨.hbm, 53, rfl⟩
abbrev main_cst_6 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_cst_7 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_c_8 : Ref sig .tc := ⟨.hbm, 77, rfl⟩
abbrev main_v42 : Ref sig .tc := ⟨.hbm, 78, rfl⟩
abbrev main_v43 : Ref sig .tc := ⟨.hbm, 79, rfl⟩
abbrev main_c_9 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_cst_10 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_cst_11 : Ref sig .tc := ⟨.hbm, 90, rfl⟩
abbrev main_v52 : Ref sig .tc := ⟨.hbm, 91, rfl⟩
abbrev main_cst_12 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_cst_13 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_c_14 : Ref sig .tc := ⟨.hbm, 115, rfl⟩
abbrev main_v74 : Ref sig .tc := ⟨.hbm, 116, rfl⟩
abbrev main_v75 : Ref sig .tc := ⟨.hbm, 117, rfl⟩
abbrev main_c_15 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_cst_16 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_cst_17 : Ref sig .tc := ⟨.hbm, 128, rfl⟩
abbrev main_v84 : Ref sig .tc := ⟨.hbm, 129, rfl⟩
abbrev main_cst_18 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_cst_19 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_c_20 : Ref sig .tc := ⟨.hbm, 153, rfl⟩
abbrev main_v106 : Ref sig .tc := ⟨.hbm, 154, rfl⟩
abbrev main_v107 : Ref sig .tc := ⟨.hbm, 155, rfl⟩
abbrev main_c_21 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_cst_22 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_cst_23 : Ref sig .tc := ⟨.hbm, 166, rfl⟩
abbrev main_v116 : Ref sig .tc := ⟨.hbm, 167, rfl⟩
abbrev main_cst_24 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_cst_25 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_c_26 : Ref sig .tc := ⟨.hbm, 191, rfl⟩
abbrev main_v138 : Ref sig .tc := ⟨.hbm, 192, rfl⟩
abbrev main_v139 : Ref sig .tc := ⟨.hbm, 193, rfl⟩
abbrev main_c_27 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_cst_28 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_cst_29 : Ref sig .tc := ⟨.hbm, 204, rfl⟩
abbrev main_v148 : Ref sig .tc := ⟨.hbm, 205, rfl⟩
abbrev main_cst_30 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_cst_31 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_v163 : Ref sig .tc := ⟨.hbm, 222, rfl⟩
abbrev main_v164 : Ref sig .tc := ⟨.hbm, 223, rfl⟩
abbrev main_v165 : Ref sig .tc := ⟨.hbm, 224, rfl⟩
abbrev main_v166 : Ref sig .tc := ⟨.hbm, 225, rfl⟩
abbrev main_v167 : Ref sig .tc := ⟨.hbm, 226, rfl⟩
abbrev main_v168 : Ref sig .tc := ⟨.hbm, 227, rfl⟩
abbrev main_v169 : Ref sig .tc := ⟨.hbm, 228, rfl⟩
abbrev main_c_32 : Ref sig .tc := ⟨.hbm, 229, rfl⟩
abbrev main_v170 : Ref sig .tc := ⟨.hbm, 230, rfl⟩
abbrev main_v171 : Ref sig .tc := ⟨.hbm, 231, rfl⟩
abbrev main_c_33 : Ref sig .tc := ⟨.hbm, 232, rfl⟩
abbrev main_v172 : Ref sig .tc := ⟨.hbm, 233, rfl⟩
abbrev main_v173 : Ref sig .tc := ⟨.hbm, 234, rfl⟩
abbrev main_v174 : Ref sig .tc := ⟨.hbm, 235, rfl⟩
abbrev main_v175 : Ref sig .tc := ⟨.hbm, 236, rfl⟩
abbrev main_v176 : Ref sig .tc := ⟨.hbm, 237, rfl⟩
abbrev main_cst_34 : Ref sig .tc := ⟨.hbm, 238, rfl⟩
abbrev main_v177 : Ref sig .tc := ⟨.hbm, 239, rfl⟩
abbrev main_v178 : Ref sig .tc := ⟨.hbm, 240, rfl⟩
abbrev main_v179 : Ref sig .tc := ⟨.hbm, 241, rfl⟩
abbrev main_cst_35 : Ref sig .tc := ⟨.hbm, 242, rfl⟩
abbrev main_v180 : Ref sig .tc := ⟨.hbm, 243, rfl⟩
abbrev main_cst_36 : Ref sig .tc := ⟨.hbm, 244, rfl⟩
abbrev main_v181 : Ref sig .tc := ⟨.hbm, 245, rfl⟩
abbrev main_v182 : Ref sig .tc := ⟨.hbm, 246, rfl⟩
abbrev main_v183 : Ref sig .tc := ⟨.hbm, 247, rfl⟩
abbrev main_cst_37 : Ref sig .tc := ⟨.hbm, 248, rfl⟩
abbrev main_v184 : Ref sig .tc := ⟨.hbm, 249, rfl⟩
abbrev main_v185 : Ref sig .tc := ⟨.hbm, 250, rfl⟩
abbrev main_v186 : Ref sig .tc := ⟨.hbm, 251, rfl⟩
abbrev main_v187 : Ref sig .tc := ⟨.hbm, 252, rfl⟩
abbrev main_v188 : Ref sig .tc := ⟨.hbm, 253, rfl⟩
abbrev main_v189 : Ref sig .tc := ⟨.hbm, 254, rfl⟩
abbrev main_v190 : Ref sig .tc := ⟨.hbm, 255, rfl⟩
abbrev main_v191 : Ref sig .tc := ⟨.hbm, 256, rfl⟩
abbrev main_v192 : Ref sig .tc := ⟨.hbm, 257, rfl⟩
abbrev main_v193 : Ref sig .tc := ⟨.hbm, 258, rfl⟩
abbrev main_v194 : Ref sig .tc := ⟨.hbm, 259, rfl⟩
abbrev main_v195 : Ref sig .tc := ⟨.hbm, 260, rfl⟩
abbrev main_call0_cst : Ref sig .tc := ⟨.hbm, 261, rfl⟩
abbrev main_call0_v0 : Ref sig .tc := ⟨.hbm, 262, rfl⟩
abbrev main_v196 : Ref sig .tc := ⟨.hbm, 263, rfl⟩
abbrev main_call1_cst : Ref sig .tc := ⟨.hbm, 264, rfl⟩
abbrev main_call1_v0 : Ref sig .tc := ⟨.hbm, 265, rfl⟩
abbrev main_v197 : Ref sig .tc := ⟨.hbm, 266, rfl⟩
abbrev main_call2_cst : Ref sig .tc := ⟨.hbm, 267, rfl⟩
abbrev main_call2_v0 : Ref sig .tc := ⟨.hbm, 268, rfl⟩
abbrev main_v198 : Ref sig .tc := ⟨.hbm, 269, rfl⟩
abbrev main_call3_cst : Ref sig .tc := ⟨.hbm, 270, rfl⟩
abbrev main_call3_v0 : Ref sig .tc := ⟨.hbm, 271, rfl⟩
abbrev main_v199 : Ref sig .tc := ⟨.hbm, 272, rfl⟩
abbrev main_cst_38 : Ref sig .tc := ⟨.hbm, 273, rfl⟩
abbrev main_v200 : Ref sig .tc := ⟨.hbm, 274, rfl⟩
abbrev main_cst_39 : Ref sig .tc := ⟨.hbm, 275, rfl⟩
abbrev main_v201 : Ref sig .tc := ⟨.hbm, 276, rfl⟩
abbrev main_cst_40 : Ref sig .tc := ⟨.hbm, 277, rfl⟩
abbrev main_v202 : Ref sig .tc := ⟨.hbm, 278, rfl⟩
abbrev main_cst_41 : Ref sig .tc := ⟨.hbm, 279, rfl⟩
abbrev main_v203 : Ref sig .tc := ⟨.hbm, 280, rfl⟩
abbrev main_v204 : Ref sig .tc := ⟨.hbm, 281, rfl⟩
abbrev main_v205 : Ref sig .tc := ⟨.hbm, 282, rfl⟩
abbrev main_v206 : Ref sig .tc := ⟨.hbm, 283, rfl⟩
abbrev main_v207 : Ref sig .tc := ⟨.hbm, 284, rfl⟩
abbrev main_v208 : Ref sig .tc := ⟨.hbm, 285, rfl⟩
abbrev main_v209 : Ref sig .tc := ⟨.hbm, 286, rfl⟩
abbrev main_c_42 : Ref sig .tc := ⟨.hbm, 287, rfl⟩
abbrev main_v210 : Ref sig .tc := ⟨.hbm, 288, rfl⟩
abbrev main_v211 : Ref sig .tc := ⟨.hbm, 289, rfl⟩
abbrev main_c_43 : Ref sig .tc := ⟨.hbm, 290, rfl⟩
abbrev main_v212 : Ref sig .tc := ⟨.hbm, 291, rfl⟩
abbrev main_v213 : Ref sig .tc := ⟨.hbm, 292, rfl⟩
abbrev main_v214 : Ref sig .tc := ⟨.hbm, 293, rfl⟩
abbrev main_v215 : Ref sig .tc := ⟨.hbm, 294, rfl⟩
abbrev main_v216 : Ref sig .tc := ⟨.hbm, 295, rfl⟩
abbrev main_cst_44 : Ref sig .tc := ⟨.hbm, 296, rfl⟩
abbrev main_v217 : Ref sig .tc := ⟨.hbm, 297, rfl⟩
abbrev main_v218 : Ref sig .tc := ⟨.hbm, 298, rfl⟩
abbrev main_v219 : Ref sig .tc := ⟨.hbm, 299, rfl⟩
abbrev main_cst_45 : Ref sig .tc := ⟨.hbm, 300, rfl⟩
abbrev main_v220 : Ref sig .tc := ⟨.hbm, 301, rfl⟩
abbrev main_cst_46 : Ref sig .tc := ⟨.hbm, 302, rfl⟩
abbrev main_v221 : Ref sig .tc := ⟨.hbm, 303, rfl⟩
abbrev main_v222 : Ref sig .tc := ⟨.hbm, 304, rfl⟩
abbrev main_v223 : Ref sig .tc := ⟨.hbm, 305, rfl⟩
abbrev main_cst_47 : Ref sig .tc := ⟨.hbm, 306, rfl⟩
abbrev main_v224 : Ref sig .tc := ⟨.hbm, 307, rfl⟩
abbrev main_v225 : Ref sig .tc := ⟨.hbm, 308, rfl⟩
abbrev main_v226 : Ref sig .tc := ⟨.hbm, 309, rfl⟩
abbrev main_v227 : Ref sig .tc := ⟨.hbm, 310, rfl⟩
abbrev main_v228 : Ref sig .tc := ⟨.hbm, 311, rfl⟩
abbrev main_v229 : Ref sig .tc := ⟨.hbm, 312, rfl⟩
abbrev main_v230 : Ref sig .tc := ⟨.hbm, 313, rfl⟩
abbrev main_v231 : Ref sig .tc := ⟨.hbm, 314, rfl⟩
abbrev main_v232 : Ref sig .tc := ⟨.hbm, 315, rfl⟩
abbrev main_v233 : Ref sig .tc := ⟨.hbm, 316, rfl⟩
abbrev main_v234 : Ref sig .tc := ⟨.hbm, 317, rfl⟩
abbrev main_v235 : Ref sig .tc := ⟨.hbm, 318, rfl⟩
abbrev main_v236 : Ref sig .tc := ⟨.hbm, 319, rfl⟩
abbrev main_v237 : Ref sig .tc := ⟨.hbm, 320, rfl⟩
abbrev main_v238 : Ref sig .tc := ⟨.hbm, 321, rfl⟩
abbrev main_v239 : Ref sig .tc := ⟨.hbm, 322, rfl⟩
abbrev main_v240 : Ref sig .tc := ⟨.hbm, 323, rfl⟩
abbrev main_v241 : Ref sig .tc := ⟨.hbm, 324, rfl⟩
abbrev main_c_48 : Ref sig .tc := ⟨.hbm, 325, rfl⟩
abbrev main_v242 : Ref sig .tc := ⟨.hbm, 326, rfl⟩
abbrev main_v243 : Ref sig .tc := ⟨.hbm, 327, rfl⟩
abbrev main_c_49 : Ref sig .tc := ⟨.hbm, 328, rfl⟩
abbrev main_v244 : Ref sig .tc := ⟨.hbm, 329, rfl⟩
abbrev main_v245 : Ref sig .tc := ⟨.hbm, 330, rfl⟩
abbrev main_v246 : Ref sig .tc := ⟨.hbm, 331, rfl⟩
abbrev main_v247 : Ref sig .tc := ⟨.hbm, 332, rfl⟩
abbrev main_v248 : Ref sig .tc := ⟨.hbm, 333, rfl⟩
abbrev main_cst_50 : Ref sig .tc := ⟨.hbm, 334, rfl⟩
abbrev main_v249 : Ref sig .tc := ⟨.hbm, 335, rfl⟩
abbrev main_v250 : Ref sig .tc := ⟨.hbm, 336, rfl⟩
abbrev main_v251 : Ref sig .tc := ⟨.hbm, 337, rfl⟩
abbrev main_cst_51 : Ref sig .tc := ⟨.hbm, 338, rfl⟩
abbrev main_v252 : Ref sig .tc := ⟨.hbm, 339, rfl⟩
abbrev main_cst_52 : Ref sig .tc := ⟨.hbm, 340, rfl⟩
abbrev main_v253 : Ref sig .tc := ⟨.hbm, 341, rfl⟩
abbrev main_v254 : Ref sig .tc := ⟨.hbm, 342, rfl⟩
abbrev main_v255 : Ref sig .tc := ⟨.hbm, 343, rfl⟩
abbrev main_cst_53 : Ref sig .tc := ⟨.hbm, 344, rfl⟩
abbrev main_v256 : Ref sig .tc := ⟨.hbm, 345, rfl⟩
abbrev main_v257 : Ref sig .tc := ⟨.hbm, 346, rfl⟩
abbrev main_v258 : Ref sig .tc := ⟨.hbm, 347, rfl⟩
abbrev main_v259 : Ref sig .tc := ⟨.hbm, 348, rfl⟩
abbrev main_v260 : Ref sig .tc := ⟨.hbm, 349, rfl⟩
abbrev main_v261 : Ref sig .tc := ⟨.hbm, 350, rfl⟩
abbrev main_v262 : Ref sig .tc := ⟨.hbm, 351, rfl⟩
abbrev main_v263 : Ref sig .tc := ⟨.hbm, 352, rfl⟩
abbrev main_v264 : Ref sig .tc := ⟨.hbm, 353, rfl⟩
abbrev main_v265 : Ref sig .tc := ⟨.hbm, 354, rfl⟩
abbrev main_v266 : Ref sig .tc := ⟨.hbm, 355, rfl⟩
abbrev main_v267 : Ref sig .tc := ⟨.hbm, 356, rfl⟩
abbrev main_v268 : Ref sig .tc := ⟨.hbm, 357, rfl⟩
abbrev main_v269 : Ref sig .tc := ⟨.hbm, 358, rfl⟩
abbrev main_v270 : Ref sig .tc := ⟨.hbm, 359, rfl⟩
abbrev main_v271 : Ref sig .tc := ⟨.hbm, 360, rfl⟩
abbrev main_v272 : Ref sig .tc := ⟨.hbm, 361, rfl⟩
abbrev main_v273 : Ref sig .tc := ⟨.hbm, 362, rfl⟩
abbrev main_c_54 : Ref sig .tc := ⟨.hbm, 363, rfl⟩
abbrev main_v274 : Ref sig .tc := ⟨.hbm, 364, rfl⟩
abbrev main_v275 : Ref sig .tc := ⟨.hbm, 365, rfl⟩
abbrev main_c_55 : Ref sig .tc := ⟨.hbm, 366, rfl⟩
abbrev main_v276 : Ref sig .tc := ⟨.hbm, 367, rfl⟩
abbrev main_v277 : Ref sig .tc := ⟨.hbm, 368, rfl⟩
abbrev main_v278 : Ref sig .tc := ⟨.hbm, 369, rfl⟩
abbrev main_v279 : Ref sig .tc := ⟨.hbm, 370, rfl⟩
abbrev main_v280 : Ref sig .tc := ⟨.hbm, 371, rfl⟩
abbrev main_cst_56 : Ref sig .tc := ⟨.hbm, 372, rfl⟩
abbrev main_v281 : Ref sig .tc := ⟨.hbm, 373, rfl⟩
abbrev main_v282 : Ref sig .tc := ⟨.hbm, 374, rfl⟩
abbrev main_v283 : Ref sig .tc := ⟨.hbm, 375, rfl⟩
abbrev main_cst_57 : Ref sig .tc := ⟨.hbm, 376, rfl⟩
abbrev main_v284 : Ref sig .tc := ⟨.hbm, 377, rfl⟩
abbrev main_cst_58 : Ref sig .tc := ⟨.hbm, 378, rfl⟩
abbrev main_v285 : Ref sig .tc := ⟨.hbm, 379, rfl⟩
abbrev main_v286 : Ref sig .tc := ⟨.hbm, 380, rfl⟩
abbrev main_v287 : Ref sig .tc := ⟨.hbm, 381, rfl⟩
abbrev main_cst_59 : Ref sig .tc := ⟨.hbm, 382, rfl⟩
abbrev main_v288 : Ref sig .tc := ⟨.hbm, 383, rfl⟩
abbrev main_v289 : Ref sig .tc := ⟨.hbm, 384, rfl⟩
abbrev main_v290 : Ref sig .tc := ⟨.hbm, 385, rfl⟩
abbrev main_v291 : Ref sig .tc := ⟨.hbm, 386, rfl⟩
abbrev main_v292 : Ref sig .tc := ⟨.hbm, 387, rfl⟩
abbrev main_v293 : Ref sig .tc := ⟨.hbm, 388, rfl⟩
abbrev main_v294 : Ref sig .tc := ⟨.hbm, 389, rfl⟩
abbrev main_v295 : Ref sig .tc := ⟨.hbm, 390, rfl⟩
abbrev main_v296 : Ref sig .tc := ⟨.hbm, 391, rfl⟩
abbrev main_v297 : Ref sig .tc := ⟨.hbm, 392, rfl⟩
abbrev main_v298 : Ref sig .tc := ⟨.hbm, 393, rfl⟩
abbrev main_v299 : Ref sig .tc := ⟨.hbm, 394, rfl⟩
abbrev main_v300 : Ref sig .tc := ⟨.hbm, 395, rfl⟩
abbrev main_v301 : Ref sig .tc := ⟨.hbm, 396, rfl⟩
abbrev main_v302 : Ref sig .tc := ⟨.hbm, 397, rfl⟩
abbrev main_v303 : Ref sig .tc := ⟨.hbm, 398, rfl⟩
abbrev main_v304 : Ref sig .tc := ⟨.hbm, 399, rfl⟩
abbrev main_v305 : Ref sig .tc := ⟨.hbm, 400, rfl⟩
abbrev main_c_60 : Ref sig .tc := ⟨.hbm, 401, rfl⟩
abbrev main_v306 : Ref sig .tc := ⟨.hbm, 402, rfl⟩
abbrev main_v307 : Ref sig .tc := ⟨.hbm, 403, rfl⟩
abbrev main_c_61 : Ref sig .tc := ⟨.hbm, 404, rfl⟩
abbrev main_v308 : Ref sig .tc := ⟨.hbm, 405, rfl⟩
abbrev main_v309 : Ref sig .tc := ⟨.hbm, 406, rfl⟩
abbrev main_v310 : Ref sig .tc := ⟨.hbm, 407, rfl⟩
abbrev main_v311 : Ref sig .tc := ⟨.hbm, 408, rfl⟩
abbrev main_v312 : Ref sig .tc := ⟨.hbm, 409, rfl⟩
abbrev main_cst_62 : Ref sig .tc := ⟨.hbm, 410, rfl⟩
abbrev main_v313 : Ref sig .tc := ⟨.hbm, 411, rfl⟩
abbrev main_v314 : Ref sig .tc := ⟨.hbm, 412, rfl⟩
abbrev main_v315 : Ref sig .tc := ⟨.hbm, 413, rfl⟩
abbrev main_cst_63 : Ref sig .tc := ⟨.hbm, 414, rfl⟩
abbrev main_v316 : Ref sig .tc := ⟨.hbm, 415, rfl⟩
abbrev main_cst_64 : Ref sig .tc := ⟨.hbm, 416, rfl⟩
abbrev main_v317 : Ref sig .tc := ⟨.hbm, 417, rfl⟩
abbrev main_v318 : Ref sig .tc := ⟨.hbm, 418, rfl⟩
abbrev main_v319 : Ref sig .tc := ⟨.hbm, 419, rfl⟩
abbrev main_cst_65 : Ref sig .tc := ⟨.hbm, 420, rfl⟩
abbrev main_v320 : Ref sig .tc := ⟨.hbm, 421, rfl⟩
abbrev main_v321 : Ref sig .tc := ⟨.hbm, 422, rfl⟩
abbrev main_v322 : Ref sig .tc := ⟨.hbm, 423, rfl⟩
abbrev main_v323 : Ref sig .tc := ⟨.hbm, 424, rfl⟩
abbrev main_v324 : Ref sig .tc := ⟨.hbm, 425, rfl⟩
abbrev main_v325 : Ref sig .tc := ⟨.hbm, 426, rfl⟩
abbrev main_v326 : Ref sig .tc := ⟨.hbm, 427, rfl⟩
abbrev main_v327 : Ref sig .tc := ⟨.hbm, 428, rfl⟩
abbrev main_v328 : Ref sig .tc := ⟨.hbm, 429, rfl⟩
abbrev main_v329 : Ref sig .tc := ⟨.hbm, 430, rfl⟩
abbrev main_v330 : Ref sig .tc := ⟨.hbm, 431, rfl⟩
abbrev main_v331 : Ref sig .tc := ⟨.hbm, 432, rfl⟩
abbrev main_v332 : Ref sig .tc := ⟨.hbm, 433, rfl⟩
abbrev main_v333 : Ref sig .tc := ⟨.hbm, 434, rfl⟩
abbrev main_v334 : Ref sig .tc := ⟨.hbm, 435, rfl⟩
abbrev main_v335 : Ref sig .tc := ⟨.hbm, 436, rfl⟩
abbrev main_v336 : Ref sig .tc := ⟨.hbm, 437, rfl⟩
abbrev main_v337 : Ref sig .tc := ⟨.hbm, 438, rfl⟩
abbrev main_c_66 : Ref sig .tc := ⟨.hbm, 439, rfl⟩
abbrev main_v338 : Ref sig .tc := ⟨.hbm, 440, rfl⟩
abbrev main_v339 : Ref sig .tc := ⟨.hbm, 441, rfl⟩
abbrev main_c_67 : Ref sig .tc := ⟨.hbm, 442, rfl⟩
abbrev main_v340 : Ref sig .tc := ⟨.hbm, 443, rfl⟩
abbrev main_v341 : Ref sig .tc := ⟨.hbm, 444, rfl⟩
abbrev main_v342 : Ref sig .tc := ⟨.hbm, 445, rfl⟩
abbrev main_v343 : Ref sig .tc := ⟨.hbm, 446, rfl⟩
abbrev main_v344 : Ref sig .tc := ⟨.hbm, 447, rfl⟩
abbrev main_cst_68 : Ref sig .tc := ⟨.hbm, 448, rfl⟩
abbrev main_v345 : Ref sig .tc := ⟨.hbm, 449, rfl⟩
abbrev main_v346 : Ref sig .tc := ⟨.hbm, 450, rfl⟩
abbrev main_v347 : Ref sig .tc := ⟨.hbm, 451, rfl⟩
abbrev main_cst_69 : Ref sig .tc := ⟨.hbm, 452, rfl⟩
abbrev main_v348 : Ref sig .tc := ⟨.hbm, 453, rfl⟩
abbrev main_cst_70 : Ref sig .tc := ⟨.hbm, 454, rfl⟩
abbrev main_v349 : Ref sig .tc := ⟨.hbm, 455, rfl⟩
abbrev main_v350 : Ref sig .tc := ⟨.hbm, 456, rfl⟩
abbrev main_v351 : Ref sig .tc := ⟨.hbm, 457, rfl⟩
abbrev main_cst_71 : Ref sig .tc := ⟨.hbm, 458, rfl⟩
abbrev main_v352 : Ref sig .tc := ⟨.hbm, 459, rfl⟩
abbrev main_v353 : Ref sig .tc := ⟨.hbm, 460, rfl⟩
abbrev main_v354 : Ref sig .tc := ⟨.hbm, 461, rfl⟩
abbrev main_v355 : Ref sig .tc := ⟨.hbm, 462, rfl⟩
abbrev main_v356 : Ref sig .tc := ⟨.hbm, 463, rfl⟩
abbrev main_v357 : Ref sig .tc := ⟨.hbm, 464, rfl⟩
abbrev main_v358 : Ref sig .tc := ⟨.hbm, 465, rfl⟩
abbrev main_v359 : Ref sig .tc := ⟨.hbm, 466, rfl⟩
abbrev main_v360 : Ref sig .tc := ⟨.hbm, 467, rfl⟩
abbrev main_v361 : Ref sig .tc := ⟨.hbm, 468, rfl⟩
abbrev main_v362 : Ref sig .tc := ⟨.hbm, 469, rfl⟩
abbrev main_v363 : Ref sig .tc := ⟨.hbm, 470, rfl⟩
abbrev main_v364 : Ref sig .tc := ⟨.hbm, 471, rfl⟩
abbrev main_v365 : Ref sig .tc := ⟨.hbm, 472, rfl⟩
abbrev main_v366 : Ref sig .tc := ⟨.hbm, 473, rfl⟩
abbrev main_v367 : Ref sig .tc := ⟨.hbm, 474, rfl⟩
abbrev main_v368 : Ref sig .tc := ⟨.hbm, 475, rfl⟩
abbrev main_v369 : Ref sig .tc := ⟨.hbm, 476, rfl⟩
abbrev main_c_72 : Ref sig .tc := ⟨.hbm, 477, rfl⟩
abbrev main_v370 : Ref sig .tc := ⟨.hbm, 478, rfl⟩
abbrev main_v371 : Ref sig .tc := ⟨.hbm, 479, rfl⟩
abbrev main_c_73 : Ref sig .tc := ⟨.hbm, 480, rfl⟩
abbrev main_v372 : Ref sig .tc := ⟨.hbm, 481, rfl⟩
abbrev main_v373 : Ref sig .tc := ⟨.hbm, 482, rfl⟩
abbrev main_v374 : Ref sig .tc := ⟨.hbm, 483, rfl⟩
abbrev main_v375 : Ref sig .tc := ⟨.hbm, 484, rfl⟩
abbrev main_v376 : Ref sig .tc := ⟨.hbm, 485, rfl⟩
abbrev main_cst_74 : Ref sig .tc := ⟨.hbm, 486, rfl⟩
abbrev main_v377 : Ref sig .tc := ⟨.hbm, 487, rfl⟩
abbrev main_v378 : Ref sig .tc := ⟨.hbm, 488, rfl⟩
abbrev main_v379 : Ref sig .tc := ⟨.hbm, 489, rfl⟩
abbrev main_cst_75 : Ref sig .tc := ⟨.hbm, 490, rfl⟩
abbrev main_v380 : Ref sig .tc := ⟨.hbm, 491, rfl⟩
abbrev main_cst_76 : Ref sig .tc := ⟨.hbm, 492, rfl⟩
abbrev main_v381 : Ref sig .tc := ⟨.hbm, 493, rfl⟩
abbrev main_v382 : Ref sig .tc := ⟨.hbm, 494, rfl⟩
abbrev main_v383 : Ref sig .tc := ⟨.hbm, 495, rfl⟩
abbrev main_cst_77 : Ref sig .tc := ⟨.hbm, 496, rfl⟩
abbrev main_v384 : Ref sig .tc := ⟨.hbm, 497, rfl⟩
abbrev main_v385 : Ref sig .tc := ⟨.hbm, 498, rfl⟩
abbrev main_v386 : Ref sig .tc := ⟨.hbm, 499, rfl⟩
abbrev main_v387 : Ref sig .tc := ⟨.hbm, 500, rfl⟩
abbrev main_v388 : Ref sig .tc := ⟨.hbm, 501, rfl⟩
abbrev main_v389 : Ref sig .tc := ⟨.hbm, 502, rfl⟩
abbrev main_v390 : Ref sig .tc := ⟨.hbm, 503, rfl⟩
abbrev main_v391 : Ref sig .tc := ⟨.hbm, 504, rfl⟩
abbrev main_v392 : Ref sig .tc := ⟨.hbm, 505, rfl⟩
abbrev main_v393 : Ref sig .tc := ⟨.hbm, 506, rfl⟩
abbrev main_v394 : Ref sig .tc := ⟨.hbm, 507, rfl⟩
abbrev main_v395 : Ref sig .tc := ⟨.hbm, 508, rfl⟩
abbrev main_c_78 : Ref sig .tc := ⟨.hbm, 509, rfl⟩
abbrev main_v396 : Ref sig .tc := ⟨.hbm, 510, rfl⟩
abbrev main_v397 : Ref sig .tc := ⟨.hbm, 511, rfl⟩
abbrev main_c_79 : Ref sig .tc := ⟨.hbm, 512, rfl⟩
abbrev main_v398 : Ref sig .tc := ⟨.hbm, 513, rfl⟩
abbrev main_v399 : Ref sig .tc := ⟨.hbm, 514, rfl⟩
abbrev main_v400 : Ref sig .tc := ⟨.hbm, 515, rfl⟩
abbrev main_v401 : Ref sig .tc := ⟨.hbm, 516, rfl⟩
abbrev main_v402 : Ref sig .tc := ⟨.hbm, 517, rfl⟩
abbrev main_c_80 : Ref sig .tc := ⟨.hbm, 518, rfl⟩
abbrev main_v403 : Ref sig .tc := ⟨.hbm, 519, rfl⟩
abbrev main_v404 : Ref sig .tc := ⟨.hbm, 520, rfl⟩
abbrev main_c_81 : Ref sig .tc := ⟨.hbm, 521, rfl⟩
abbrev main_v405 : Ref sig .tc := ⟨.hbm, 522, rfl⟩
abbrev main_v406 : Ref sig .tc := ⟨.hbm, 523, rfl⟩
abbrev main_v407 : Ref sig .tc := ⟨.hbm, 524, rfl⟩
abbrev main_v408 : Ref sig .tc := ⟨.hbm, 525, rfl⟩
abbrev main_v409 : Ref sig .tc := ⟨.hbm, 526, rfl⟩
abbrev main_v410 : Ref sig .tc := ⟨.hbm, 527, rfl⟩
abbrev main_v411 : Ref sig .tc := ⟨.hbm, 528, rfl⟩
abbrev main_v412 : Ref sig .tc := ⟨.hbm, 529, rfl⟩
abbrev main_v413 : Ref sig .tc := ⟨.hbm, 530, rfl⟩
abbrev main_v414 : Ref sig .tc := ⟨.hbm, 531, rfl⟩
abbrev main_call4_cst : Ref sig .tc := ⟨.hbm, 532, rfl⟩
abbrev main_call4_v0 : Ref sig .tc := ⟨.hbm, 533, rfl⟩
abbrev main_v415 : Ref sig .tc := ⟨.hbm, 534, rfl⟩
abbrev main_v416 : Ref sig .tc := ⟨.hbm, 535, rfl⟩
abbrev main_v417 : Ref sig .tc := ⟨.hbm, 536, rfl⟩
abbrev main_v418 : Ref sig .tc := ⟨.hbm, 537, rfl⟩
abbrev main_v419 : Ref sig .tc := ⟨.hbm, 538, rfl⟩

abbrev nD : Nat := 1
abbrev τ : Topo := Topo.v7x

variable {F : FTy → Type} [FloatOps F]

class Facts₀ : Prop where
  bcast_S_S100000x64 : S_.BroadcastsInDim S100000x64 (![] : Fin 0 → Fin S100000x64.rank)
  bcast_S_S50000x64 : S_.BroadcastsInDim S50000x64 (![] : Fin 0 → Fin S50000x64.rank)
  bcast_S_S2000x64 : S_.BroadcastsInDim S2000x64 (![] : Fin 0 → Fin S2000x64.rank)
  bcast_S_S5000x64 : S_.BroadcastsInDim S5000x64 (![] : Fin 0 → Fin S5000x64.rank)
  slices_S2x6x64x64_S1x1x64x64_0_0_0_0 : S2x6x64x64.Slices ![0, 0, 0, 0] S1x1x64x64
  shapeCasts_S1x1x64x64_S64x64 : S1x1x64x64.ShapeCasts S64x64
  slices_S2x6x64_S1x1x64_0_0_0 : S2x6x64.Slices ![0, 0, 0] S1x1x64
  shapeCasts_S1x1x64_S64 : S1x1x64.ShapeCasts S64
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x6x64x64_S1x1x64x64_0_1_0_0 : S2x6x64x64.Slices ![0, 1, 0, 0] S1x1x64x64
  slices_S2x6x64_S1x1x64_0_1_0 : S2x6x64.Slices ![0, 1, 0] S1x1x64
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S1x64_S50000x64_0_1 : S1x64.BroadcastsInDim S50000x64 (![0, 1] : Fin 2 → Fin S50000x64.rank)
  slices_S2x6x64x64_S1x1x64x64_0_2_0_0 : S2x6x64x64.Slices ![0, 2, 0, 0] S1x1x64x64
  slices_S2x6x64_S1x1x64_0_2_0 : S2x6x64.Slices ![0, 2, 0] S1x1x64
  bcast_S_S2000 : S_.BroadcastsInDim S2000 (![] : Fin 0 → Fin S2000.rank)
  bcast_S2000_S2000x1_0 : S2000.BroadcastsInDim S2000x1 (![0] : Fin 1 → Fin S2000x1.rank)
  bcast_S2000x1_S2000x64_0_1 : S2000x1.BroadcastsInDim S2000x64 (![0, 1] : Fin 2 → Fin S2000x64.rank)
  bcast_S1x64_S2000x64_0_1 : S1x64.BroadcastsInDim S2000x64 (![0, 1] : Fin 2 → Fin S2000x64.rank)
  slices_S2x6x64x64_S1x1x64x64_0_3_0_0 : S2x6x64x64.Slices ![0, 3, 0, 0] S1x1x64x64
  slices_S2x6x64_S1x1x64_0_3_0 : S2x6x64.Slices ![0, 3, 0] S1x1x64
  slices_S2x6x64x64_S1x1x64x64_0_4_0_0 : S2x6x64x64.Slices ![0, 4, 0, 0] S1x1x64x64
  slices_S2x6x64_S1x1x64_0_4_0 : S2x6x64.Slices ![0, 4, 0] S1x1x64
  bcast_S_S200000 : S_.BroadcastsInDim S200000 (![] : Fin 0 → Fin S200000.rank)
  bcast_S200000_S200000x1_0 : S200000.BroadcastsInDim S200000x1 (![0] : Fin 1 → Fin S200000x1.rank)
  bcast_S_S5000 : S_.BroadcastsInDim S5000 (![] : Fin 0 → Fin S5000.rank)
  bcast_S5000_S5000x1_0 : S5000.BroadcastsInDim S5000x1 (![0] : Fin 1 → Fin S5000x1.rank)
  bcast_S5000x1_S5000x64_0_1 : S5000x1.BroadcastsInDim S5000x64 (![0, 1] : Fin 2 → Fin S5000x64.rank)
  bcast_S1x64_S5000x64_0_1 : S1x64.BroadcastsInDim S5000x64 (![0, 1] : Fin 2 → Fin S5000x64.rank)
  slices_S2x6x64x64_S1x1x64x64_0_5_0_0 : S2x6x64x64.Slices ![0, 5, 0, 0] S1x1x64x64
  slices_S2x6x64_S1x1x64_0_5_0 : S2x6x64.Slices ![0, 5, 0] S1x1x64
  slices_S2x6x64x64_S1x1x64x64_1_0_0_0 : S2x6x64x64.Slices ![1, 0, 0, 0] S1x1x64x64
  slices_S2x6x64_S1x1x64_1_0_0 : S2x6x64.Slices ![1, 0, 0] S1x1x64
  slices_S2x6x64x64_S1x1x64x64_1_1_0_0 : S2x6x64x64.Slices ![1, 1, 0, 0] S1x1x64x64
  slices_S2x6x64_S1x1x64_1_1_0 : S2x6x64.Slices ![1, 1, 0] S1x1x64
  slices_S2x6x64x64_S1x1x64x64_1_2_0_0 : S2x6x64x64.Slices ![1, 2, 0, 0] S1x1x64x64
  slices_S2x6x64_S1x1x64_1_2_0 : S2x6x64.Slices ![1, 2, 0] S1x1x64
  slices_S2x6x64x64_S1x1x64x64_1_3_0_0 : S2x6x64x64.Slices ![1, 3, 0, 0] S1x1x64x64
  slices_S2x6x64_S1x1x64_1_3_0 : S2x6x64.Slices ![1, 3, 0] S1x1x64
  slices_S2x6x64x64_S1x1x64x64_1_4_0_0 : S2x6x64x64.Slices ![1, 4, 0, 0] S1x1x64x64
  slices_S2x6x64_S1x1x64_1_4_0 : S2x6x64.Slices ![1, 4, 0] S1x1x64
  slices_S2x6x64x64_S1x1x64x64_1_5_0_0 : S2x6x64x64.Slices ![1, 5, 0, 0] S1x1x64x64
  slices_S2x6x64_S1x1x64_1_5_0 : S2x6x64.Slices ![1, 5, 0] S1x1x64
  concatenates_S100000x64_S100000x64_S100000x128_d1 : Shape.Concatenates [S100000x64, S100000x64] S100000x128 1
  bcast_S4_S1x4_1 : S4.BroadcastsInDim S1x4 (![1] : Fin 1 → Fin S1x4.rank)
  bcast_S1x4_S100000x4_0_1 : S1x4.BroadcastsInDim S100000x4 (![0, 1] : Fin 2 → Fin S100000x4.rank)
  gather_S50000x64_S2000000x1_S2000000x64_1_0_n_n_0_1_164_wf : GatherDims.WF S50000x64 S2000000x1 S2000000x64 [1] [0] [] [0] [] 1 ![1, 64]
  scatter_S100000x64_S2000000x1_S2000000x64_1_0_0_1_wf : ScatterDims.WF S100000x64 S2000000x1 S2000000x64 [1] [0] [0] 1
  scatter_S100000_S2000000x1_S2000000_n_0_0_1_wf : ScatterDims.WF S100000 S2000000x1 S2000000 [] [0] [0] 1
  dot_S100000x64_S64x64_S100000x64_1_0_0_1_n_n_wf : DotDims.WF S100000x64 S64x64 S100000x64 [1] [0] [0] [1] [] []
  gather_S100000x64_S2000000x1_S2000000x64_1_0_n_n_0_1_164_wf : GatherDims.WF S100000x64 S2000000x1 S2000000x64 [1] [0] [] [0] [] 1 ![1, 64]
  scatter_S50000x64_S2000000x1_S2000000x64_1_0_0_1_wf : ScatterDims.WF S50000x64 S2000000x1 S2000000x64 [1] [0] [0] 1
  scatter_S50000_S2000000x1_S2000000_n_0_0_1_wf : ScatterDims.WF S50000 S2000000x1 S2000000 [] [0] [0] 1
  dot_S50000x64_S64x64_S50000x64_1_0_0_1_n_n_wf : DotDims.WF S50000x64 S64x64 S50000x64 [1] [0] [0] [1] [] []
  gather_S50000x64_S100000x1_S100000x64_1_0_n_n_0_1_164_wf : GatherDims.WF S50000x64 S100000x1 S100000x64 [1] [0] [] [0] [] 1 ![1, 64]
  scatter_S2000x64_S100000x1_S100000x64_1_0_0_1_wf : ScatterDims.WF S2000x64 S100000x1 S100000x64 [1] [0] [0] 1
  scatter_S2000_S100000x1_S100000_n_0_0_1_wf : ScatterDims.WF S2000 S100000x1 S100000 [] [0] [0] 1
  dot_S2000x64_S64x64_S2000x64_1_0_0_1_n_n_wf : DotDims.WF S2000x64 S64x64 S2000x64 [1] [0] [0] [1] [] []
  gather_S2000x64_S100000x1_S100000x64_1_0_n_n_0_1_164_wf : GatherDims.WF S2000x64 S100000x1 S100000x64 [1] [0] [] [0] [] 1 ![1, 64]
  scatter_S50000x64_S100000x1_S100000x64_1_0_0_1_wf : ScatterDims.WF S50000x64 S100000x1 S100000x64 [1] [0] [0] 1
  scatter_S50000_S100000x1_S100000_n_0_0_1_wf : ScatterDims.WF S50000 S100000x1 S100000 [] [0] [0] 1
  gather_S100000x64_S200000x1_S200000x64_1_0_n_n_0_1_164_wf : GatherDims.WF S100000x64 S200000x1 S200000x64 [1] [0] [] [0] [] 1 ![1, 64]
  scatter_S5000x64_S200000x1_S200000x64_1_0_0_1_wf : ScatterDims.WF S5000x64 S200000x1 S200000x64 [1] [0] [0] 1
  scatter_S5000_S200000x1_S200000_n_0_0_1_wf : ScatterDims.WF S5000 S200000x1 S200000 [] [0] [0] 1
  dot_S5000x64_S64x64_S5000x64_1_0_0_1_n_n_wf : DotDims.WF S5000x64 S64x64 S5000x64 [1] [0] [0] [1] [] []
  gather_S5000x64_S200000x1_S200000x64_1_0_n_n_0_1_164_wf : GatherDims.WF S5000x64 S200000x1 S200000x64 [1] [0] [] [0] [] 1 ![1, 64]
  scatter_S100000x64_S200000x1_S200000x64_1_0_0_1_wf : ScatterDims.WF S100000x64 S200000x1 S200000x64 [1] [0] [0] 1
  scatter_S100000_S200000x1_S200000_n_0_0_1_wf : ScatterDims.WF S100000 S200000x1 S200000 [] [0] [0] 1
  gather_S100000x64_S100000x1_S100000x64_1_0_n_n_0_1_164_wf : GatherDims.WF S100000x64 S100000x1 S100000x64 [1] [0] [] [0] [] 1 ![1, 64]
  dot_S100000x128_S128x64_S100000x64_1_0_0_1_n_n_wf : DotDims.WF S100000x128 S128x64 S100000x64 [1] [0] [0] [1] [] []
  dot_S100000x64_S64x4_S100000x4_1_0_0_1_n_n_wf : DotDims.WF S100000x64 S64x4 S100000x4 [1] [0] [0] [1] [] []

variable [Facts₀]

def gather_S50000x64_S2000000x1_S2000000x64_1_0_n_n_0_1_164 : GatherDims S50000x64 S2000000x1 S2000000x64 where
  offsetDims := [1]
  collapsedSliceDims := [0]
  operandBatchingDims := []
  startIndicesBatchingDims := []
  startIndexMap := [0]
  indexVectorDim := 1
  sliceSizes := ![1, 64]
  wf := gather_S50000x64_S2000000x1_S2000000x64_1_0_n_n_0_1_164_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf
def scatter_S100000_S2000000x1_S2000000_n_0_0_1 : ScatterDims S100000 S2000000x1 S2000000 where
  updateWindowDims := []
  insertedWindowDims := [0]
  scatterDimsToOperandDims := [0]
  indexVectorDim := 1
  wf := scatter_S100000_S2000000x1_S2000000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def scatter_S50000x64_S2000000x1_S2000000x64_1_0_0_1 : ScatterDims S50000x64 S2000000x1 S2000000x64 where
  updateWindowDims := [1]
  insertedWindowDims := [0]
  scatterDimsToOperandDims := [0]
  indexVectorDim := 1
  wf := scatter_S50000x64_S2000000x1_S2000000x64_1_0_0_1_wf
def scatter_S50000_S2000000x1_S2000000_n_0_0_1 : ScatterDims S50000 S2000000x1 S2000000 where
  updateWindowDims := []
  insertedWindowDims := [0]
  scatterDimsToOperandDims := [0]
  indexVectorDim := 1
  wf := scatter_S50000_S2000000x1_S2000000_n_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S100000x1_S100000x64_1_0_n_n_0_1_164 : GatherDims S50000x64 S100000x1 S100000x64 where
  offsetDims := [1]
  collapsedSliceDims := [0]
  operandBatchingDims := []
  startIndicesBatchingDims := []
  startIndexMap := [0]
  indexVectorDim := 1
  sliceSizes := ![1, 64]
  wf := gather_S50000x64_S100000x1_S100000x64_1_0_n_n_0_1_164_wf
def scatter_S2000x64_S100000x1_S100000x64_1_0_0_1 : ScatterDims S2000x64 S100000x1 S100000x64 where
  updateWindowDims := [1]
  insertedWindowDims := [0]
  scatterDimsToOperandDims := [0]
  indexVectorDim := 1
  wf := scatter_S2000x64_S100000x1_S100000x64_1_0_0_1_wf
def scatter_S2000_S100000x1_S100000_n_0_0_1 : ScatterDims S2000 S100000x1 S100000 where
  updateWindowDims := []
  insertedWindowDims := [0]
  scatterDimsToOperandDims := [0]
  indexVectorDim := 1
  wf := scatter_S2000_S100000x1_S100000_n_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def gather_S2000x64_S100000x1_S100000x64_1_0_n_n_0_1_164 : GatherDims S2000x64 S100000x1 S100000x64 where
  offsetDims := [1]
  collapsedSliceDims := [0]
  operandBatchingDims := []
  startIndicesBatchingDims := []
  startIndexMap := [0]
  indexVectorDim := 1
  sliceSizes := ![1, 64]
  wf := gather_S2000x64_S100000x1_S100000x64_1_0_n_n_0_1_164_wf
def scatter_S50000x64_S100000x1_S100000x64_1_0_0_1 : ScatterDims S50000x64 S100000x1 S100000x64 where
  updateWindowDims := [1]
  insertedWindowDims := [0]
  scatterDimsToOperandDims := [0]
  indexVectorDim := 1
  wf := scatter_S50000x64_S100000x1_S100000x64_1_0_0_1_wf
def scatter_S50000_S100000x1_S100000_n_0_0_1 : ScatterDims S50000 S100000x1 S100000 where
  updateWindowDims := []
  insertedWindowDims := [0]
  scatterDimsToOperandDims := [0]
  indexVectorDim := 1
  wf := scatter_S50000_S100000x1_S100000_n_0_0_1_wf
def gather_S100000x64_S200000x1_S200000x64_1_0_n_n_0_1_164 : GatherDims S100000x64 S200000x1 S200000x64 where
  offsetDims := [1]
  collapsedSliceDims := [0]
  operandBatchingDims := []
  startIndicesBatchingDims := []
  startIndexMap := [0]
  indexVectorDim := 1
  sliceSizes := ![1, 64]
  wf := gather_S100000x64_S200000x1_S200000x64_1_0_n_n_0_1_164_wf
def scatter_S5000x64_S200000x1_S200000x64_1_0_0_1 : ScatterDims S5000x64 S200000x1 S200000x64 where
  updateWindowDims := [1]
  insertedWindowDims := [0]
  scatterDimsToOperandDims := [0]
  indexVectorDim := 1
  wf := scatter_S5000x64_S200000x1_S200000x64_1_0_0_1_wf
def scatter_S5000_S200000x1_S200000_n_0_0_1 : ScatterDims S5000 S200000x1 S200000 where
  updateWindowDims := []
  insertedWindowDims := [0]
  scatterDimsToOperandDims := [0]
  indexVectorDim := 1
  wf := scatter_S5000_S200000x1_S200000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S5000x64_S200000x1_S200000x64_1_0_n_n_0_1_164 : GatherDims S5000x64 S200000x1 S200000x64 where
  offsetDims := [1]
  collapsedSliceDims := [0]
  operandBatchingDims := []
  startIndicesBatchingDims := []
  startIndexMap := [0]
  indexVectorDim := 1
  sliceSizes := ![1, 64]
  wf := gather_S5000x64_S200000x1_S200000x64_1_0_n_n_0_1_164_wf
def scatter_S100000x64_S200000x1_S200000x64_1_0_0_1 : ScatterDims S100000x64 S200000x1 S200000x64 where
  updateWindowDims := [1]
  insertedWindowDims := [0]
  scatterDimsToOperandDims := [0]
  indexVectorDim := 1
  wf := scatter_S100000x64_S200000x1_S200000x64_1_0_0_1_wf
def scatter_S100000_S200000x1_S200000_n_0_0_1 : ScatterDims S100000 S200000x1 S200000 where
  updateWindowDims := []
  insertedWindowDims := [0]
  scatterDimsToOperandDims := [0]
  indexVectorDim := 1
  wf := scatter_S100000_S200000x1_S200000_n_0_0_1_wf
def gather_S100000x64_S100000x1_S100000x64_1_0_n_n_0_1_164 : GatherDims S100000x64 S100000x1 S100000x64 where
  offsetDims := [1]
  collapsedSliceDims := [0]
  operandBatchingDims := []
  startIndicesBatchingDims := []
  startIndexMap := [0]
  indexVectorDim := 1
  sliceSizes := ![1, 64]
  wf := gather_S100000x64_S100000x1_S100000x64_1_0_n_n_0_1_164_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x4_S100000x4_1_0_0_1_n_n : DotDims S100000x64 S64x4 S100000x4 where
  lhsContracting := [1]
  rhsContracting := [0]
  lhsNonContracting := [0]
  rhsNonContracting := [1]
  lhsBatch := []
  rhsBatch := []
  wf := dot_S100000x64_S64x4_S100000x4_1_0_0_1_n_n_wf

class Facts : Prop extends Facts₀ where

variable [Facts]
-- ==== Proof.KB.Body0.lean ====
import proofs.«154750_j39152921870699_1_alg».proof.Proof.Gen.Kernel.Launch
import proofs.«154750_j39152921870699_1_alg».proof.Proof.Gen.Kernel.Skeleton
import proofs.«154750_j39152921870699_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 0: one dense layer on a tile of rows

The region walks over the rows of a matrix `X` in tiles of 2000 rows.  At every tile it multiplies the
tile `[2000, 192]` by the whole weight matrix `W : [192, 64]`, adds the bias row `b : [1, 64]` to every
row of the product, clamps below at zero, and writes the `[2000, 64]` result to the matching tile of the
output.  The weights and the bias are the same block at every tile; only the tile of `X` and the tile of the
output move.

This file says what each of the four windows' buffers holds when the tile's computation starts and when it
ends, as a function of the arrays the region was entered with (`V`), and proves that the computation, run on
buffers holding the former, leaves the latter: the three inputs as they were, the output tile equal to the
stored value, which depends on the three input blocks only (the old contents of the output tile are read and
dropped).
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of the core when the region is entered: everything below is a function of them
variable (V : (c : Dev nD) → (b : Ref sig .tc) → Buf (Elt F) ((c : Thread nD τ).loc b))

/-! ## The blocks and the stored value -/

/-- The block of window `w` at grid point `t`: the part of the window's array, as the region found it, that the
    window's index map selects at `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole of each buffer, as a rectangle: every load and the one store of the computation go through these. -/
abbrev rx0 : Rect S2000x192 := Rect.unit (s := S2000x192) ![0, 0] S2000x192.size inb_S2000x192_S2000x192_0_0
abbrev rw0 : Rect S192x64 := Rect.unit (s := S192x64) ![0, 0] S192x64.size inb_S192x64_S192x64_0_0
abbrev rb0 : Rect S1x64 := Rect.unit (s := S1x64) ![0, 0] S1x64.size inb_S1x64_S1x64_0_0
abbrev ro0 : Rect S2000x64 := Rect.unit (s := S2000x64) ![0, 0] S2000x64.size inb_S2000x64_S2000x64_0_0

/-- The output tile after the computation, from the three input blocks: the one store's value laid over the
    whole tile. -/
def out0 (x0 : Vec F S2000x192 .f32) (x1 : Vec F S192x64 .f32) (x2 : Vec F S1x64 .f32) : Vec F S2000x64 .f32 :=
  View.canon [⟨ro0, k0_pay1 (View.ld x0 rx0) (View.ld x1 rw0) (View.ld x2 rb0)⟩]

/-! ## The proof data of the region -/

/-- What the region's invariant is stated over: the four arrays as the region found them; after the computation
    at point `t` each input buffer still at its block and the output buffer at `out0` of the three input blocks;
    nothing else of the core is touched, nothing is owed, and every buffer is held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 (iblk0 V c 0 t) (iblk0 V c 1 t) (iblk0 V c 2 t)
  Φ _ := Pipeline.ΦA spec0 c
  q _ := fullShare
  owed _ := 0

/-- The data's arrays are the entry contents. -/
theorem A_eq0 (c : Dev nD) (w : Fin cfg0.W) : (dat0 V c).A w = V c (Pipeline.arrRef spec0 w) := by
  dsimp only [dat0]

/-- What the computation leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_out (c : Dev nD) (t : Fin cfg0.N) :
    (dat0 V c).after 3 t = out0 (iblk0 V c 0 t) (iblk0 V c 1 t) (iblk0 V c 2 t) := by dsimp only [dat0]

/-! ## What the computation finds in the input buffers

An input window's buffer is refilled only when the window's block index moves.  The tile of `X` moves at every
point; the weights and the bias never move after the first point, and their buffers keep what the first point
brought in, because the computation leaves every input buffer as it found it.  Either way the buffer holds the
window's block at the point. -/

theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-! ## The computation on four whole buffers -/

/-- The one store covers the whole output tile. -/
theorem cover0 (p0 : Vec F S2000x64 .f32) (y : S2000x64.Idx) :
    ∃ pc ∈ ([⟨ro0, p0⟩] : List (View.Piece (Elt F) S2000x64 .f32)), y ∈ pc.1.set :=
  View.cover_of_tiled [⟨ro0, p0⟩] S2000x64.size (by rfl) y

set_option maxHeartbeats 1000000 in
/-- Run on whole buffers, the three inputs reading `x0`, `x1`, `x2` and the output holding anything, the
    computation ends with the inputs unchanged and the output reading `out0 x0 x1 x2`: it loads the four buffers
    whole, and stores over the whole output the value computed from the first three loads. -/
theorem sound_kernel0 (c : Dev nD) (E : Set ℕ) (i : grid0.Coords)
    (arg1 : Memref sig .tc .vmem S2000x192 .f32) (harg1 : arg1.IsWhole) (arg2 : Memref sig .tc .vmem S192x64 .f32) (harg2 : arg2.IsWhole)
    (arg3 : Memref sig .tc .vmem S1x64 .f32) (harg3 : arg3.IsWhole) (arg4 : Memref sig .tc .vmem S2000x64 .f32) (harg4 : arg4.IsWhole)
    (x0 : Vec F S2000x192 .f32) (x1 : Vec F S192x64 .f32) (x2 : Vec F S1x64 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out0 x0 x1 x2)) -∗ K ⟨⟩))
      ⊢ wp frame (wpE (defs₀ (F := F)) Variants.none c none) E (cc0_kernel i arg1 harg1 arg2 harg2 arg3 harg3 arg4 harg4) K := by
  simp only [cc0_kernel_eq_skeleton]; unfold cc0_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0 _)

/-! ## The computation at a grid point -/

/-- What the computation is handed at point `t`: the region's invariant and its debts, and the four windows'
    current buffers at what they hold before it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it hands back: the same, the buffers at what they hold after it. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- At any point the input buffers hold their blocks, so the run on whole buffers applies; the invariant and the
    debts are not looked at. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_out]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The computation at every grid point takes the buffers from their state before it to their state after it. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.Body1.lean ====
import proofs.«154750_j39152921870699_1_alg».proof.Proof.Gen.Kernel.Launch
import proofs.«154750_j39152921870699_1_alg».proof.Proof.Gen.Kernel.Skeleton
import proofs.«154750_j39152921870699_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 1: one dense layer on a tile of rows

The region walks over the rows of a matrix `X` in tiles of 2000 rows.  At every tile it multiplies the
tile `[2000, 192]` by the whole weight matrix `W : [192, 64]`, adds the bias row `b : [1, 64]` to every
row of the product, clamps below at zero, and writes the `[2000, 64]` result to the matching tile of the
output.  The weights and the bias are the same block at every tile; only the tile of `X` and the tile of the
output move.

This file says what each of the four windows' buffers holds when the tile's computation starts and when it
ends, as a function of the arrays the region was entered with (`V`), and proves that the computation, run on
buffers holding the former, leaves the latter: the three inputs as they were, the output tile equal to the
stored value, which depends on the three input blocks only (the old contents of the output tile are read and
dropped).
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of the core when the region is entered: everything below is a function of them
variable (V : (c : Dev nD) → (b : Ref sig .tc) → Buf (Elt F) ((c : Thread nD τ).loc b))

/-! ## The blocks and the stored value -/

/-- The block of window `w` at grid point `t`: the part of the window's array, as the region found it, that the
    window's index map selects at `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole of each buffer, as a rectangle: every load and the one store of the computation go through these. -/
abbrev rx1 : Rect S2000x192 := Rect.unit (s := S2000x192) ![0, 0] S2000x192.size inb_S2000x192_S2000x192_0_0
abbrev rw1 : Rect S192x64 := Rect.unit (s := S192x64) ![0, 0] S192x64.size inb_S192x64_S192x64_0_0
abbrev rb1 : Rect S1x64 := Rect.unit (s := S1x64) ![0, 0] S1x64.size inb_S1x64_S1x64_0_0
abbrev ro1 : Rect S2000x64 := Rect.unit (s := S2000x64) ![0, 0] S2000x64.size inb_S2000x64_S2000x64_0_0

/-- The output tile after the computation, from the three input blocks: the one store's value laid over the
    whole tile. -/
def out1 (x0 : Vec F S2000x192 .f32) (x1 : Vec F S192x64 .f32) (x2 : Vec F S1x64 .f32) : Vec F S2000x64 .f32 :=
  View.canon [⟨ro1, k1_pay1 (View.ld x0 rx1) (View.ld x1 rw1) (View.ld x2 rb1)⟩]

/-! ## The proof data of the region -/

/-- What the region's invariant is stated over: the four arrays as the region found them; after the computation
    at point `t` each input buffer still at its block and the output buffer at `out1` of the three input blocks;
    nothing else of the core is touched, nothing is owed, and every buffer is held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 (iblk1 V c 0 t) (iblk1 V c 1 t) (iblk1 V c 2 t)
  Φ _ := Pipeline.ΦA spec1 c
  q _ := fullShare
  owed _ := 0

/-- The data's arrays are the entry contents. -/
theorem A_eq1 (c : Dev nD) (w : Fin cfg1.W) : (dat1 V c).A w = V c (Pipeline.arrRef spec1 w) := by
  dsimp only [dat1]

/-- What the computation leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_out (c : Dev nD) (t : Fin cfg1.N) :
    (dat1 V c).after 3 t = out1 (iblk1 V c 0 t) (iblk1 V c 1 t) (iblk1 V c 2 t) := by dsimp only [dat1]

/-! ## What the computation finds in the input buffers

An input window's buffer is refilled only when the window's block index moves.  The tile of `X` moves at every
point; the weights and the bias never move after the first point, and their buffers keep what the first point
brought in, because the computation leaves every input buffer as it found it.  Either way the buffer holds the
window's block at the point. -/

theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

/-! ## The computation on four whole buffers -/

/-- The one store covers the whole output tile. -/
theorem cover1 (p0 : Vec F S2000x64 .f32) (y : S2000x64.Idx) :
    ∃ pc ∈ ([⟨ro1, p0⟩] : List (View.Piece (Elt F) S2000x64 .f32)), y ∈ pc.1.set :=
  View.cover_of_tiled [⟨ro1, p0⟩] S2000x64.size (by rfl) y

set_option maxHeartbeats 1000000 in
/-- Run on whole buffers, the three inputs reading `x0`, `x1`, `x2` and the output holding anything, the
    computation ends with the inputs unchanged and the output reading `out1 x0 x1 x2`: it loads the four buffers
    whole, and stores over the whole output the value computed from the first three loads. -/
theorem sound_kernel1 (c : Dev nD) (E : Set ℕ) (i : grid1.Coords)
    (arg1 : Memref sig .tc .vmem S2000x192 .f32) (harg1 : arg1.IsWhole) (arg2 : Memref sig .tc .vmem S192x64 .f32) (harg2 : arg2.IsWhole)
    (arg3 : Memref sig .tc .vmem S1x64 .f32) (harg3 : arg3.IsWhole) (arg4 : Memref sig .tc .vmem S2000x64 .f32) (harg4 : arg4.IsWhole)
    (x0 : Vec F S2000x192 .f32) (x1 : Vec F S192x64 .f32) (x2 : Vec F S1x64 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out1 x0 x1 x2)) -∗ K ⟨⟩))
      ⊢ wp frame (wpE (defs₀ (F := F)) Variants.none c none) E (cc1_kernel i arg1 harg1 arg2 harg2 arg3 harg3 arg4 harg4) K := by
  simp only [cc1_kernel_eq_skeleton]; unfold cc1_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1 _)

/-! ## The computation at a grid point -/

/-- What the computation is handed at point `t`: the region's invariant and its debts, and the four windows'
    current buffers at what they hold before it, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it hands back: the same, the buffers at what they hold after it. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- At any point the input buffers hold their blocks, so the run on whole buffers applies; the invariant and the
    debts are not looked at. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_out]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The computation at every grid point takes the buffers from their state before it to their state after it. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.Body2.lean ====
import proofs.«154750_j39152921870699_1_alg».proof.Proof.Gen.Kernel.Launch
import proofs.«154750_j39152921870699_1_alg».proof.Proof.Gen.Kernel.Skeleton
import proofs.«154750_j39152921870699_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 2: one dense layer on a tile of rows

The region walks over the rows of a matrix `X` in tiles of 2000 rows.  At every tile it multiplies the
tile `[2000, 128]` by the whole weight matrix `W : [128, 64]`, adds the bias row `b : [1, 64]` to every
row of the product, clamps below at zero, and writes the `[2000, 64]` result to the matching tile of the
output.  The weights and the bias are the same block at every tile; only the tile of `X` and the tile of the
output move.

This file says what each of the four windows' buffers holds when the tile's computation starts and when it
ends, as a function of the arrays the region was entered with (`V`), and proves that the computation, run on
buffers holding the former, leaves the latter: the three inputs as they were, the output tile equal to the
stored value, which depends on the three input blocks only (the old contents of the output tile are read and
dropped).
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of the core when the region is entered: everything below is a function of them
variable (V : (c : Dev nD) → (b : Ref sig .tc) → Buf (Elt F) ((c : Thread nD τ).loc b))

/-! ## The blocks and the stored value -/

/-- The block of window `w` at grid point `t`: the part of the window's array, as the region found it, that the
    window's index map selects at `t`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole of each buffer, as a rectangle: every load and the one store of the computation go through these. -/
abbrev rx2 : Rect S2000x128 := Rect.unit (s := S2000x128) ![0, 0] S2000x128.size inb_S2000x128_S2000x128_0_0
abbrev rw2 : Rect S128x64 := Rect.unit (s := S128x64) ![0, 0] S128x64.size inb_S128x64_S128x64_0_0
abbrev rb2 : Rect S1x64 := Rect.unit (s := S1x64) ![0, 0] S1x64.size inb_S1x64_S1x64_0_0
abbrev ro2 : Rect S2000x64 := Rect.unit (s := S2000x64) ![0, 0] S2000x64.size inb_S2000x64_S2000x64_0_0

/-- The output tile after the computation, from the three input blocks: the one store's value laid over the
    whole tile. -/
def out2 (x0 : Vec F S2000x128 .f32) (x1 : Vec F S128x64 .f32) (x2 : Vec F S1x64 .f32) : Vec F S2000x64 .f32 :=
  View.canon [⟨ro2, k2_pay1 (View.ld x0 rx2) (View.ld x1 rw2) (View.ld x2 rb2)⟩]

/-! ## The proof data of the region -/

/-- What the region's invariant is stated over: the four arrays as the region found them; after the computation
    at point `t` each input buffer still at its block and the output buffer at `out2` of the three input blocks;
    nothing else of the core is touched, nothing is owed, and every buffer is held whole. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2 (iblk2 V c 0 t) (iblk2 V c 1 t) (iblk2 V c 2 t)
  Φ _ := Pipeline.ΦA spec2 c
  q _ := fullShare
  owed _ := 0

/-- The data's arrays are the entry contents. -/
theorem A_eq2 (c : Dev nD) (w : Fin cfg2.W) : (dat2 V c).A w = V c (Pipeline.arrRef spec2 w) := by
  dsimp only [dat2]

/-- What the computation leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_out (c : Dev nD) (t : Fin cfg2.N) :
    (dat2 V c).after 3 t = out2 (iblk2 V c 0 t) (iblk2 V c 1 t) (iblk2 V c 2 t) := by dsimp only [dat2]

/-! ## What the computation finds in the input buffers

An input window's buffer is refilled only when the window's block index moves.  The tile of `X` moves at every
point; the weights and the bias never move after the first point, and their buffers keep what the first point
brought in, because the computation leaves every input buffer as it found it.  Either way the buffer holds the
window's block at the point. -/

theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
      (fun t => by rw [after2_2]; unfold Dat.blockOf iblk2; rw [A_eq2]; try rfl) t d).trans
    (by unfold Dat.fetched Dat.blockOf iblk2; rw [A_eq2]; try rfl)

/-! ## The computation on four whole buffers -/

/-- The one store covers the whole output tile. -/
theorem cover2 (p0 : Vec F S2000x64 .f32) (y : S2000x64.Idx) :
    ∃ pc ∈ ([⟨ro2, p0⟩] : List (View.Piece (Elt F) S2000x64 .f32)), y ∈ pc.1.set :=
  View.cover_of_tiled [⟨ro2, p0⟩] S2000x64.size (by rfl) y

set_option maxHeartbeats 1000000 in
/-- Run on whole buffers, the three inputs reading `x0`, `x1`, `x2` and the output holding anything, the
    computation ends with the inputs unchanged and the output reading `out2 x0 x1 x2`: it loads the four buffers
    whole, and stores over the whole output the value computed from the first three loads. -/
theorem sound_kernel2 (c : Dev nD) (E : Set ℕ) (i : grid2.Coords)
    (arg1 : Memref sig .tc .vmem S2000x128 .f32) (harg1 : arg1.IsWhole) (arg2 : Memref sig .tc .vmem S128x64 .f32) (harg2 : arg2.IsWhole)
    (arg3 : Memref sig .tc .vmem S1x64 .f32) (harg3 : arg3.IsWhole) (arg4 : Memref sig .tc .vmem S2000x64 .f32) (harg4 : arg4.IsWhole)
    (x0 : Vec F S2000x128 .f32) (x1 : Vec F S128x64 .f32) (x2 : Vec F S1x64 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out2 x0 x1 x2)) -∗ K ⟨⟩))
      ⊢ wp frame (wpE (defs₀ (F := F)) Variants.none c none) E (cc2_kernel i arg1 harg1 arg2 harg2 arg3 harg3 arg4 harg4) K := by
  simp only [cc2_kernel_eq_skeleton]; unfold cc2_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2 _)

/-! ## The computation at a grid point -/

/-- What the computation is handed at point `t`: the region's invariant and its debts, and the four windows'
    current buffers at what they hold before it, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it hands back: the same, the buffers at what they hold after it. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- At any point the input buffers hold their blocks, so the run on whole buffers applies; the invariant and the
    debts are not looked at. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_out]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The computation at every grid point takes the buffers from their state before it to their state after it. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KB.Body3.lean ====
import proofs.«154750_j39152921870699_1_alg».proof.Proof.Gen.Kernel.Launch
import proofs.«154750_j39152921870699_1_alg».proof.Proof.Gen.Kernel.Skeleton
import proofs.«154750_j39152921870699_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 3: one dense layer on a tile of rows

The region walks over the rows of a matrix `X` in tiles of 1000 rows.  At every tile it multiplies the
tile `[1000, 128]` by the whole weight matrix `W : [128, 64]`, adds the bias row `b : [1, 64]` to every
row of the product, clamps below at zero, and writes the `[1000, 64]` result to the matching tile of the
output.  The weights and the bias are the same block at every tile; only the tile of `X` and the tile of the
output move.

This file says what each of the four windows' buffers holds when the tile's computation starts and when it
ends, as a function of the arrays the region was entered with (`V`), and proves that the computation, run on
buffers holding the former, leaves the latter: the three inputs as they were, the output tile equal to the
stored value, which depends on the three input blocks only (the old contents of the output tile are read and
dropped).
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of the core when the region is entered: everything below is a function of them
variable (V : (c : Dev nD) → (b : Ref sig .tc) → Buf (Elt F) ((c : Thread nD τ).loc b))

/-! ## The blocks and the stored value -/

/-- The block of window `w` at grid point `t`: the part of the window's array, as the region found it, that the
    window's index map selects at `t`. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The whole of each buffer, as a rectangle: every load and the one store of the computation go through these. -/
abbrev rx3 : Rect S1000x128 := Rect.unit (s := S1000x128) ![0, 0] S1000x128.size inb_S1000x128_S1000x128_0_0
abbrev rw3 : Rect S128x64 := Rect.unit (s := S128x64) ![0, 0] S128x64.size inb_S128x64_S128x64_0_0
abbrev rb3 : Rect S1x64 := Rect.unit (s := S1x64) ![0, 0] S1x64.size inb_S1x64_S1x64_0_0
abbrev ro3 : Rect S1000x64 := Rect.unit (s := S1000x64) ![0, 0] S1000x64.size inb_S1000x64_S1000x64_0_0

/-- The output tile after the computation, from the three input blocks: the one store's value laid over the
    whole tile. -/
def out3 (x0 : Vec F S1000x128 .f32) (x1 : Vec F S128x64 .f32) (x2 : Vec F S1x64 .f32) : Vec F S1000x64 .f32 :=
  View.canon [⟨ro3, k3_pay1 (View.ld x0 rx3) (View.ld x1 rw3) (View.ld x2 rb3)⟩]

/-! ## The proof data of the region -/

/-- What the region's invariant is stated over: the four arrays as the region found them; after the computation
    at point `t` each input buffer still at its block and the output buffer at `out3` of the three input blocks;
    nothing else of the core is touched, nothing is owed, and every buffer is held whole. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3 (iblk3 V c 0 t) (iblk3 V c 1 t) (iblk3 V c 2 t)
  Φ _ := Pipeline.ΦA spec3 c
  q _ := fullShare
  owed _ := 0

/-- The data's arrays are the entry contents. -/
theorem A_eq3 (c : Dev nD) (w : Fin cfg3.W) : (dat3 V c).A w = V c (Pipeline.arrRef spec3 w) := by
  dsimp only [dat3]

/-- What the computation leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_out (c : Dev nD) (t : Fin cfg3.N) :
    (dat3 V c).after 3 t = out3 (iblk3 V c 0 t) (iblk3 V c 1 t) (iblk3 V c 2 t) := by dsimp only [dat3]

/-! ## What the computation finds in the input buffers

An input window's buffer is refilled only when the window's block index moves.  The tile of `X` moves at every
point; the weights and the bias never move after the first point, and their buffers keep what the first point
brought in, because the computation leaves every input buffer as it found it.  Either way the buffer holds the
window's block at the point. -/

theorem before3_0 (c : Dev nD) (t : Fin cfg3.N) (d) : (dat3 V c).before 0 t d = iblk3 V c 0 t :=
  ((dat3 V c).before_in_eq_fetched 0 rfl (fun _ => rfl) (fun _ _ _ => rfl)
      (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
      (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl)
      (fun t => by rw [after3_2]; unfold Dat.blockOf iblk3; rw [A_eq3]; try rfl) t d).trans
    (by unfold Dat.fetched Dat.blockOf iblk3; rw [A_eq3]; try rfl)

/-! ## The computation on four whole buffers -/

/-- The one store covers the whole output tile. -/
theorem cover3 (p0 : Vec F S1000x64 .f32) (y : S1000x64.Idx) :
    ∃ pc ∈ ([⟨ro3, p0⟩] : List (View.Piece (Elt F) S1000x64 .f32)), y ∈ pc.1.set :=
  View.cover_of_tiled [⟨ro3, p0⟩] S1000x64.size (by rfl) y

set_option maxHeartbeats 1000000 in
/-- Run on whole buffers, the three inputs reading `x0`, `x1`, `x2` and the output holding anything, the
    computation ends with the inputs unchanged and the output reading `out3 x0 x1 x2`: it loads the four buffers
    whole, and stores over the whole output the value computed from the first three loads. -/
theorem sound_kernel3 (c : Dev nD) (E : Set ℕ) (i : grid3.Coords)
    (arg1 : Memref sig .tc .vmem S1000x128 .f32) (harg1 : arg1.IsWhole) (arg2 : Memref sig .tc .vmem S128x64 .f32) (harg2 : arg2.IsWhole)
    (arg3 : Memref sig .tc .vmem S1x64 .f32) (harg3 : arg3.IsWhole) (arg4 : Memref sig .tc .vmem S1000x64 .f32) (harg4 : arg4.IsWhole)
    (x0 : Vec F S1000x128 .f32) (x1 : Vec F S128x64 .f32) (x2 : Vec F S1x64 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out3 x0 x1 x2)) -∗ K ⟨⟩))
      ⊢ wp frame (wpE (defs₀ (F := F)) Variants.none c none) E (cc3_kernel i arg1 harg1 arg2 harg2 arg3 harg3 arg4 harg4) K := by
  simp only [cc3_kernel_eq_skeleton]; unfold cc3_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _)

/-! ## The computation at a grid point -/

/-- What the computation is handed at point `t`: the region's invariant and its debts, and the four windows'
    current buffers at what they hold before it, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it hands back: the same, the buffers at what they hold after it. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- At any point the input buffers hold their blocks, so the run on whole buffers applies; the invariant and the
    debts are not looked at. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_out]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The computation at every grid point takes the buffers from their state before it to their state after it. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KB.Body4.lean ====
import proofs.«154750_j39152921870699_1_alg».proof.Proof.Gen.Kernel.Launch
import proofs.«154750_j39152921870699_1_alg».proof.Proof.Gen.Kernel.Skeleton
import proofs.«154750_j39152921870699_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 4: one dense layer on a tile of rows

The region walks over the rows of a matrix `X` in tiles of 2000 rows.  At every tile it multiplies the
tile `[2000, 192]` by the whole weight matrix `W : [192, 64]`, adds the bias row `b : [1, 64]` to every
row of the product, and writes the `[2000, 64]` result to the matching tile of the
output.  The weights and the bias are the same block at every tile; only the tile of `X` and the tile of the
output move.

This file says what each of the four windows' buffers holds when the tile's computation starts and when it
ends, as a function of the arrays the region was entered with (`V`), and proves that the computation, run on
buffers holding the former, leaves the latter: the three inputs as they were, the output tile equal to the
stored value, which depends on the three input blocks only (the old contents of the output tile are read and
dropped).
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of the core when the region is entered: everything below is a function of them
variable (V : (c : Dev nD) → (b : Ref sig .tc) → Buf (Elt F) ((c : Thread nD τ).loc b))

/-! ## The blocks and the stored value -/

/-- The block of window `w` at grid point `t`: the part of the window's array, as the region found it, that the
    window's index map selects at `t`. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The whole of each buffer, as a rectangle: every load and the one store of the computation go through these. -/
abbrev rx4 : Rect S2000x192 := Rect.unit (s := S2000x192) ![0, 0] S2000x192.size inb_S2000x192_S2000x192_0_0
abbrev rw4 : Rect S192x64 := Rect.unit (s := S192x64) ![0, 0] S192x64.size inb_S192x64_S192x64_0_0
abbrev rb4 : Rect S1x64 := Rect.unit (s := S1x64) ![0, 0] S1x64.size inb_S1x64_S1x64_0_0
abbrev ro4 : Rect S2000x64 := Rect.unit (s := S2000x64) ![0, 0] S2000x64.size inb_S2000x64_S2000x64_0_0

/-- The output tile after the computation, from the three input blocks: the one store's value laid over the
    whole tile. -/
def out4 (x0 : Vec F S2000x192 .f32) (x1 : Vec F S192x64 .f32) (x2 : Vec F S1x64 .f32) : Vec F S2000x64 .f32 :=
  View.canon [⟨ro4, k4_pay1 (View.ld x0 rx4) (View.ld x1 rw4) (View.ld x2 rb4)⟩]

/-! ## The proof data of the region -/

/-- What the region's invariant is stated over: the four arrays as the region found them; after the computation
    at point `t` each input buffer still at its block and the output buffer at `out4` of the three input blocks;
    nothing else of the core is touched, nothing is owed, and every buffer is held whole. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4 (iblk4 V c 0 t) (iblk4 V c 1 t) (iblk4 V c 2 t)
  Φ _ := Pipeline.ΦA spec4 c
  q _ := fullShare
  owed _ := 0

/-- The data's arrays are the entry contents. -/
theorem A_eq4 (c : Dev nD) (w : Fin cfg4.W) : (dat4 V c).A w = V c (Pipeline.arrRef spec4 w) := by
  dsimp only [dat4]

/-- What the computation leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_out (c : Dev nD) (t : Fin cfg4.N) :
    (dat4 V c).after 3 t = out4 (iblk4 V c 0 t) (iblk4 V c 1 t) (iblk4 V c 2 t) := by dsimp only [dat4]

/-! ## What the computation finds in the input buffers

An input window's buffer is refilled only when the window's block index moves.  The tile of `X` moves at every
point; the weights and the bias never move after the first point, and their buffers keep what the first point
brought in, because the computation leaves every input buffer as it found it.  Either way the buffer holds the
window's block at the point. -/

theorem before4_0 (c : Dev nD) (t : Fin cfg4.N) (d) : (dat4 V c).before 0 t d = iblk4 V c 0 t :=
  ((dat4 V c).before_in_eq_fetched 0 rfl (fun _ => rfl) (fun _ _ _ => rfl)
      (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl)
      (fun t => by rw [after4_1]; unfold Dat.blockOf iblk4; rw [A_eq4]; try rfl) t d).trans
    (by unfold Dat.fetched Dat.blockOf iblk4; rw [A_eq4]; try rfl)
theorem before4_2 (c : Dev nD) (t : Fin cfg4.N) (d) : (dat4 V c).before 2 t d = iblk4 V c 2 t :=
  ((dat4 V c).before_in_eq_fetched 2 rfl (fun _ => rfl) (fun _ _ _ => rfl)
      (fun t => by rw [after4_2]; unfold Dat.blockOf iblk4; rw [A_eq4]; try rfl) t d).trans
    (by unfold Dat.fetched Dat.blockOf iblk4; rw [A_eq4]; try rfl)

/-! ## The computation on four whole buffers -/

/-- The one store covers the whole output tile. -/
theorem cover4 (p0 : Vec F S2000x64 .f32) (y : S2000x64.Idx) :
    ∃ pc ∈ ([⟨ro4, p0⟩] : List (View.Piece (Elt F) S2000x64 .f32)), y ∈ pc.1.set :=
  View.cover_of_tiled [⟨ro4, p0⟩] S2000x64.size (by rfl) y

set_option maxHeartbeats 1000000 in
/-- Run on whole buffers, the three inputs reading `x0`, `x1`, `x2` and the output holding anything, the
    computation ends with the inputs unchanged and the output reading `out4 x0 x1 x2`: it loads the four buffers
    whole, and stores over the whole output the value computed from the first three loads. -/
theorem sound_kernel4 (c : Dev nD) (E : Set ℕ) (i : grid4.Coords)
    (arg1 : Memref sig .tc .vmem S2000x192 .f32) (harg1 : arg1.IsWhole) (arg2 : Memref sig .tc .vmem S192x64 .f32) (harg2 : arg2.IsWhole)
    (arg3 : Memref sig .tc .vmem S1x64 .f32) (harg3 : arg3.IsWhole) (arg4 : Memref sig .tc .vmem S2000x64 .f32) (harg4 : arg4.IsWhole)
    (x0 : Vec F S2000x192 .f32) (x1 : Vec F S192x64 .f32) (x2 : Vec F S1x64 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out4 x0 x1 x2)) -∗ K ⟨⟩))
      ⊢ wp frame (wpE (defs₀ (F := F)) Variants.none c none) E (cc4_kernel i arg1 harg1 arg2 harg2 arg3 harg3 arg4 harg4) K := by
  simp only [cc4_kernel_eq_skeleton]; unfold cc4_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4 _)

/-! ## The computation at a grid point -/

/-- What the computation is handed at point `t`: the region's invariant and its debts, and the four windows'
    current buffers at what they hold before it, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it hands back: the same, the buffers at what they hold after it. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- At any point the input buffers hold their blocks, so the run on whole buffers applies; the invariant and the
    debts are not looked at. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_out]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The computation at every grid point takes the buffers from their state before it to their state after it. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.KB.Body5.lean ====
import proofs.«154750_j39152921870699_1_alg».proof.Proof.Gen.Kernel.Launch
import proofs.«154750_j39152921870699_1_alg».proof.Proof.Gen.Kernel.Skeleton
import proofs.«154750_j39152921870699_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 5: one dense layer on a tile of rows

The region walks over the rows of a matrix `X` in tiles of 2000 rows.  At every tile it multiplies the
tile `[2000, 192]` by the whole weight matrix `W : [192, 64]`, adds the bias row `b : [1, 64]` to every
row of the product, and writes the `[2000, 64]` result to the matching tile of the
output.  The weights and the bias are the same block at every tile; only the tile of `X` and the tile of the
output move.

This file says what each of the four windows' buffers holds when the tile's computation starts and when it
ends, as a function of the arrays the region was entered with (`V`), and proves that the computation, run on
buffers holding the former, leaves the latter: the three inputs as they were, the output tile equal to the
stored value, which depends on the three input blocks only (the old contents of the output tile are read and
dropped).
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of the core when the region is entered: everything below is a function of them
variable (V : (c : Dev nD) → (b : Ref sig .tc) → Buf (Elt F) ((c : Thread nD τ).loc b))

/-! ## The blocks and the stored value -/

/-- The block of window `w` at grid point `t`: the part of the window's array, as the region found it, that the
    window's index map selects at `t`. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The whole of each buffer, as a rectangle: every load and the one store of the computation go through these. -/
abbrev rx5 : Rect S2000x192 := Rect.unit (s := S2000x192) ![0, 0] S2000x192.size inb_S2000x192_S2000x192_0_0
abbrev rw5 : Rect S192x64 := Rect.unit (s := S192x64) ![0, 0] S192x64.size inb_S192x64_S192x64_0_0
abbrev rb5 : Rect S1x64 := Rect.unit (s := S1x64) ![0, 0] S1x64.size inb_S1x64_S1x64_0_0
abbrev ro5 : Rect S2000x64 := Rect.unit (s := S2000x64) ![0, 0] S2000x64.size inb_S2000x64_S2000x64_0_0

/-- The output tile after the computation, from the three input blocks: the one store's value laid over the
    whole tile. -/
def out5 (x0 : Vec F S2000x192 .f32) (x1 : Vec F S192x64 .f32) (x2 : Vec F S1x64 .f32) : Vec F S2000x64 .f32 :=
  View.canon [⟨ro5, k5_pay1 (View.ld x0 rx5) (View.ld x1 rw5) (View.ld x2 rb5)⟩]

/-! ## The proof data of the region -/

/-- What the region's invariant is stated over: the four arrays as the region found them; after the computation
    at point `t` each input buffer still at its block and the output buffer at `out5` of the three input blocks;
    nothing else of the core is touched, nothing is owed, and every buffer is held whole. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5 (iblk5 V c 0 t) (iblk5 V c 1 t) (iblk5 V c 2 t)
  Φ _ := Pipeline.ΦA spec5 c
  q _ := fullShare
  owed _ := 0

/-- The data's arrays are the entry contents. -/
theorem A_eq5 (c : Dev nD) (w : Fin cfg5.W) : (dat5 V c).A w = V c (Pipeline.arrRef spec5 w) := by
  dsimp only [dat5]

/-- What the computation leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_out (c : Dev nD) (t : Fin cfg5.N) :
    (dat5 V c).after 3 t = out5 (iblk5 V c 0 t) (iblk5 V c 1 t) (iblk5 V c 2 t) := by dsimp only [dat5]

/-! ## What the computation finds in the input buffers

An input window's buffer is refilled only when the window's block index moves.  The tile of `X` moves at every
point; the weights and the bias never move after the first point, and their buffers keep what the first point
brought in, because the computation leaves every input buffer as it found it.  Either way the buffer holds the
window's block at the point. -/

theorem before5_0 (c : Dev nD) (t : Fin cfg5.N) (d) : (dat5 V c).before 0 t d = iblk5 V c 0 t :=
  ((dat5 V c).before_in_eq_fetched 0 rfl (fun _ => rfl) (fun _ _ _ => rfl)
      (fun t => by rw [after5_0]; unfold Dat.blockOf iblk5; rw [A_eq5]; try rfl) t d).trans
    (by unfold Dat.fetched Dat.blockOf iblk5; rw [A_eq5]; try rfl)
theorem before5_1 (c : Dev nD) (t : Fin cfg5.N) (d) : (dat5 V c).before 1 t d = iblk5 V c 1 t :=
  ((dat5 V c).before_in_eq_fetched 1 rfl (fun _ => rfl) (fun _ _ _ => rfl)
      (fun t => by rw [after5_1]; unfold Dat.blockOf iblk5; rw [A_eq5]; try rfl) t d).trans
    (by unfold Dat.fetched Dat.blockOf iblk5; rw [A_eq5]; try rfl)
theorem before5_2 (c : Dev nD) (t : Fin cfg5.N) (d) : (dat5 V c).before 2 t d = iblk5 V c 2 t :=
  ((dat5 V c).before_in_eq_fetched 2 rfl (fun _ => rfl) (fun _ _ _ => rfl)
      (fun t => by rw [after5_2]; unfold Dat.blockOf iblk5; rw [A_eq5]; try rfl) t d).trans
    (by unfold Dat.fetched Dat.blockOf iblk5; rw [A_eq5]; try rfl)

/-! ## The computation on four whole buffers -/

/-- The one store covers the whole output tile. -/
theorem cover5 (p0 : Vec F S2000x64 .f32) (y : S2000x64.Idx) :
    ∃ pc ∈ ([⟨ro5, p0⟩] : List (View.Piece (Elt F) S2000x64 .f32)), y ∈ pc.1.set :=
  View.cover_of_tiled [⟨ro5, p0⟩] S2000x64.size (by rfl) y

set_option maxHeartbeats 1000000 in
/-- Run on whole buffers, the three inputs reading `x0`, `x1`, `x2` and the output holding anything, the
    computation ends with the inputs unchanged and the output reading `out5 x0 x1 x2`: it loads the four buffers
    whole, and stores over the whole output the value computed from the first three loads. -/
theorem sound_kernel5 (c : Dev nD) (E : Set ℕ) (i : grid5.Coords)
    (arg1 : Memref sig .tc .vmem S2000x192 .f32) (harg1 : arg1.IsWhole) (arg2 : Memref sig .tc .vmem S192x64 .f32) (harg2 : arg2.IsWhole)
    (arg3 : Memref sig .tc .vmem S1x64 .f32) (harg3 : arg3.IsWhole) (arg4 : Memref sig .tc .vmem S2000x64 .f32) (harg4 : arg4.IsWhole)
    (x0 : Vec F S2000x192 .f32) (x1 : Vec F S192x64 .f32) (x2 : Vec F S1x64 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out5 x0 x1 x2)) -∗ K ⟨⟩))
      ⊢ wp frame (wpE (defs₀ (F := F)) Variants.none c none) E (cc5_kernel i arg1 harg1 arg2 harg2 arg3 harg3 arg4 harg4) K := by
  simp only [cc5_kernel_eq_skeleton]; unfold cc5_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5 _)

/-! ## The computation at a grid point -/

/-- What the computation is handed at point `t`: the region's invariant and its debts, and the four windows'
    current buffers at what they hold before it, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it hands back: the same, the buffers at what they hold after it. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- At any point the input buffers hold their blocks, so the run on whole buffers applies; the invariant and the
    debts are not looked at. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_out]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The computation at every grid point takes the buffers from their state before it to their state after it. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.KB.Body6.lean ====
import proofs.«154750_j39152921870699_1_alg».proof.Proof.Gen.Kernel.Launch
import proofs.«154750_j39152921870699_1_alg».proof.Proof.Gen.Kernel.Skeleton
import proofs.«154750_j39152921870699_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 6: one dense layer on a tile of rows

The region walks over the rows of a matrix `X` in tiles of 2000 rows.  At every tile it multiplies the
tile `[2000, 128]` by the whole weight matrix `W : [128, 64]`, adds the bias row `b : [1, 64]` to every
row of the product, and writes the `[2000, 64]` result to the matching tile of the
output.  The weights and the bias are the same block at every tile; only the tile of `X` and the tile of the
output move.

This file says what each of the four windows' buffers holds when the tile's computation starts and when it
ends, as a function of the arrays the region was entered with (`V`), and proves that the computation, run on
buffers holding the former, leaves the latter: the three inputs as they were, the output tile equal to the
stored value, which depends on the three input blocks only (the old contents of the output tile are read and
dropped).
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of the core when the region is entered: everything below is a function of them
variable (V : (c : Dev nD) → (b : Ref sig .tc) → Buf (Elt F) ((c : Thread nD τ).loc b))

/-! ## The blocks and the stored value -/

/-- The block of window `w` at grid point `t`: the part of the window's array, as the region found it, that the
    window's index map selects at `t`. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The whole of each buffer, as a rectangle: every load and the one store of the computation go through these. -/
abbrev rx6 : Rect S2000x128 := Rect.unit (s := S2000x128) ![0, 0] S2000x128.size inb_S2000x128_S2000x128_0_0
abbrev rw6 : Rect S128x64 := Rect.unit (s := S128x64) ![0, 0] S128x64.size inb_S128x64_S128x64_0_0
abbrev rb6 : Rect S1x64 := Rect.unit (s := S1x64) ![0, 0] S1x64.size inb_S1x64_S1x64_0_0
abbrev ro6 : Rect S2000x64 := Rect.unit (s := S2000x64) ![0, 0] S2000x64.size inb_S2000x64_S2000x64_0_0

/-- The output tile after the computation, from the three input blocks: the one store's value laid over the
    whole tile. -/
def out6 (x0 : Vec F S2000x128 .f32) (x1 : Vec F S128x64 .f32) (x2 : Vec F S1x64 .f32) : Vec F S2000x64 .f32 :=
  View.canon [⟨ro6, k6_pay1 (View.ld x0 rx6) (View.ld x1 rw6) (View.ld x2 rb6)⟩]

/-! ## The proof data of the region -/

/-- What the region's invariant is stated over: the four arrays as the region found them; after the computation
    at point `t` each input buffer still at its block and the output buffer at `out6` of the three input blocks;
    nothing else of the core is touched, nothing is owed, and every buffer is held whole. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6 (iblk6 V c 0 t) (iblk6 V c 1 t) (iblk6 V c 2 t)
  Φ _ := Pipeline.ΦA spec6 c
  q _ := fullShare
  owed _ := 0

/-- The data's arrays are the entry contents. -/
theorem A_eq6 (c : Dev nD) (w : Fin cfg6.W) : (dat6 V c).A w = V c (Pipeline.arrRef spec6 w) := by
  dsimp only [dat6]

/-- What the computation leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_out (c : Dev nD) (t : Fin cfg6.N) :
    (dat6 V c).after 3 t = out6 (iblk6 V c 0 t) (iblk6 V c 1 t) (iblk6 V c 2 t) := by dsimp only [dat6]

/-! ## What the computation finds in the input buffers

An input window's buffer is refilled only when the window's block index moves.  The tile of `X` moves at every
point; the weights and the bias never move after the first point, and their buffers keep what the first point
brought in, because the computation leaves every input buffer as it found it.  Either way the buffer holds the
window's block at the point. -/

theorem before6_0 (c : Dev nD) (t : Fin cfg6.N) (d) : (dat6 V c).before 0 t d = iblk6 V c 0 t :=
  ((dat6 V c).before_in_eq_fetched 0 rfl (fun _ => rfl) (fun _ _ _ => rfl)
      (fun t => by rw [after6_0]; unfold Dat.blockOf iblk6; rw [A_eq6]; try rfl) t d).trans
    (by unfold Dat.fetched Dat.blockOf iblk6; rw [A_eq6]; try rfl)
theorem before6_1 (c : Dev nD) (t : Fin cfg6.N) (d) : (dat6 V c).before 1 t d = iblk6 V c 1 t :=
  ((dat6 V c).before_in_eq_fetched 1 rfl (fun _ => rfl) (fun _ _ _ => rfl)
      (fun t => by rw [after6_1]; unfold Dat.blockOf iblk6; rw [A_eq6]; try rfl) t d).trans
    (by unfold Dat.fetched Dat.blockOf iblk6; rw [A_eq6]; try rfl)
theorem before6_2 (c : Dev nD) (t : Fin cfg6.N) (d) : (dat6 V c).before 2 t d = iblk6 V c 2 t :=
  ((dat6 V c).before_in_eq_fetched 2 rfl (fun _ => rfl) (fun _ _ _ => rfl)
      (fun t => by rw [after6_2]; unfold Dat.blockOf iblk6; rw [A_eq6]; try rfl) t d).trans
    (by unfold Dat.fetched Dat.blockOf iblk6; rw [A_eq6]; try rfl)

/-! ## The computation on four whole buffers -/

/-- The one store covers the whole output tile. -/
theorem cover6 (p0 : Vec F S2000x64 .f32) (y : S2000x64.Idx) :
    ∃ pc ∈ ([⟨ro6, p0⟩] : List (View.Piece (Elt F) S2000x64 .f32)), y ∈ pc.1.set :=
  View.cover_of_tiled [⟨ro6, p0⟩] S2000x64.size (by rfl) y

set_option maxHeartbeats 1000000 in
/-- Run on whole buffers, the three inputs reading `x0`, `x1`, `x2` and the output holding anything, the
    computation ends with the inputs unchanged and the output reading `out6 x0 x1 x2`: it loads the four buffers
    whole, and stores over the whole output the value computed from the first three loads. -/
theorem sound_kernel6 (c : Dev nD) (E : Set ℕ) (i : grid6.Coords)
    (arg1 : Memref sig .tc .vmem S2000x128 .f32) (harg1 : arg1.IsWhole) (arg2 : Memref sig .tc .vmem S128x64 .f32) (harg2 : arg2.IsWhole)
    (arg3 : Memref sig .tc .vmem S1x64 .f32) (harg3 : arg3.IsWhole) (arg4 : Memref sig .tc .vmem S2000x64 .f32) (harg4 : arg4.IsWhole)
    (x0 : Vec F S2000x128 .f32) (x1 : Vec F S128x64 .f32) (x2 : Vec F S1x64 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out6 x0 x1 x2)) -∗ K ⟨⟩))
      ⊢ wp frame (wpE (defs₀ (F := F)) Variants.none c none) E (cc6_kernel i arg1 harg1 arg2 harg2 arg3 harg3 arg4 harg4) K := by
  simp only [cc6_kernel_eq_skeleton]; unfold cc6_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6 _)

/-! ## The computation at a grid point -/

/-- What the computation is handed at point `t`: the region's invariant and its debts, and the four windows'
    current buffers at what they hold before it, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it hands back: the same, the buffers at what they hold after it. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- At any point the input buffers hold their blocks, so the run on whole buffers applies; the invariant and the
    debts are not looked at. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_out]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The computation at every grid point takes the buffers from their state before it to their state after it. -/
theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.KB.Body7.lean ====
import proofs.«154750_j39152921870699_1_alg».proof.Proof.Gen.Kernel.Launch
import proofs.«154750_j39152921870699_1_alg».proof.Proof.Gen.Kernel.Skeleton
import proofs.«154750_j39152921870699_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 7: one dense layer on a tile of rows

The region walks over the rows of a matrix `X` in tiles of 1000 rows.  At every tile it multiplies the
tile `[1000, 128]` by the whole weight matrix `W : [128, 64]`, adds the bias row `b : [1, 64]` to every
row of the product, and writes the `[1000, 64]` result to the matching tile of the
output.  The weights and the bias are the same block at every tile; only the tile of `X` and the tile of the
output move.

This file says what each of the four windows' buffers holds when the tile's computation starts and when it
ends, as a function of the arrays the region was entered with (`V`), and proves that the computation, run on
buffers holding the former, leaves the latter: the three inputs as they were, the output tile equal to the
stored value, which depends on the three input blocks only (the old contents of the output tile are read and
dropped).
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of the core when the region is entered: everything below is a function of them
variable (V : (c : Dev nD) → (b : Ref sig .tc) → Buf (Elt F) ((c : Thread nD τ).loc b))

/-! ## The blocks and the stored value -/

/-- The block of window `w` at grid point `t`: the part of the window's array, as the region found it, that the
    window's index map selects at `t`. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The whole of each buffer, as a rectangle: every load and the one store of the computation go through these. -/
abbrev rx7 : Rect S1000x128 := Rect.unit (s := S1000x128) ![0, 0] S1000x128.size inb_S1000x128_S1000x128_0_0
abbrev rw7 : Rect S128x64 := Rect.unit (s := S128x64) ![0, 0] S128x64.size inb_S128x64_S128x64_0_0
abbrev rb7 : Rect S1x64 := Rect.unit (s := S1x64) ![0, 0] S1x64.size inb_S1x64_S1x64_0_0
abbrev ro7 : Rect S1000x64 := Rect.unit (s := S1000x64) ![0, 0] S1000x64.size inb_S1000x64_S1000x64_0_0

/-- The output tile after the computation, from the three input blocks: the one store's value laid over the
    whole tile. -/
def out7 (x0 : Vec F S1000x128 .f32) (x1 : Vec F S128x64 .f32) (x2 : Vec F S1x64 .f32) : Vec F S1000x64 .f32 :=
  View.canon [⟨ro7, k7_pay1 (View.ld x0 rx7) (View.ld x1 rw7) (View.ld x2 rb7)⟩]

/-! ## The proof data of the region -/

/-- What the region's invariant is stated over: the four arrays as the region found them; after the computation
    at point `t` each input buffer still at its block and the output buffer at `out7` of the three input blocks;
    nothing else of the core is touched, nothing is owed, and every buffer is held whole. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7 (iblk7 V c 0 t) (iblk7 V c 1 t) (iblk7 V c 2 t)
  Φ _ := Pipeline.ΦA spec7 c
  q _ := fullShare
  owed _ := 0

/-- The data's arrays are the entry contents. -/
theorem A_eq7 (c : Dev nD) (w : Fin cfg7.W) : (dat7 V c).A w = V c (Pipeline.arrRef spec7 w) := by
  dsimp only [dat7]

/-- What the computation leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_out (c : Dev nD) (t : Fin cfg7.N) :
    (dat7 V c).after 3 t = out7 (iblk7 V c 0 t) (iblk7 V c 1 t) (iblk7 V c 2 t) := by dsimp only [dat7]

/-! ## What the computation finds in the input buffers

An input window's buffer is refilled only when the window's block index moves.  The tile of `X` moves at every
point; the weights and the bias never move after the first point, and their buffers keep what the first point
brought in, because the computation leaves every input buffer as it found it.  Either way the buffer holds the
window's block at the point. -/

theorem before7_0 (c : Dev nD) (t : Fin cfg7.N) (d) : (dat7 V c).before 0 t d = iblk7 V c 0 t :=
  ((dat7 V c).before_in_eq_fetched 0 rfl (fun _ => rfl) (fun _ _ _ => rfl)
      (fun t => by rw [after7_0]; unfold Dat.blockOf iblk7; rw [A_eq7]; try rfl) t d).trans
    (by unfold Dat.fetched Dat.blockOf iblk7; rw [A_eq7]; try rfl)
theorem before7_1 (c : Dev nD) (t : Fin cfg7.N) (d) : (dat7 V c).before 1 t d = iblk7 V c 1 t :=
  ((dat7 V c).before_in_eq_fetched 1 rfl (fun _ => rfl) (fun _ _ _ => rfl)
      (fun t => by rw [after7_1]; unfold Dat.blockOf iblk7; rw [A_eq7]; try rfl) t d).trans
    (by unfold Dat.fetched Dat.blockOf iblk7; rw [A_eq7]; try rfl)
theorem before7_2 (c : Dev nD) (t : Fin cfg7.N) (d) : (dat7 V c).before 2 t d = iblk7 V c 2 t :=
  ((dat7 V c).before_in_eq_fetched 2 rfl (fun _ => rfl) (fun _ _ _ => rfl)
      (fun t => by rw [after7_2]; unfold Dat.blockOf iblk7; rw [A_eq7]; try rfl) t d).trans
    (by unfold Dat.fetched Dat.blockOf iblk7; rw [A_eq7]; try rfl)

/-! ## The computation on four whole buffers -/

/-- The one store covers the whole output tile. -/
theorem cover7 (p0 : Vec F S1000x64 .f32) (y : S1000x64.Idx) :
    ∃ pc ∈ ([⟨ro7, p0⟩] : List (View.Piece (Elt F) S1000x64 .f32)), y ∈ pc.1.set :=
  View.cover_of_tiled [⟨ro7, p0⟩] S1000x64.size (by rfl) y

set_option maxHeartbeats 1000000 in
/-- Run on whole buffers, the three inputs reading `x0`, `x1`, `x2` and the output holding anything, the
    computation ends with the inputs unchanged and the output reading `out7 x0 x1 x2`: it loads the four buffers
    whole, and stores over the whole output the value computed from the first three loads. -/
theorem sound_kernel7 (c : Dev nD) (E : Set ℕ) (i : grid7.Coords)
    (arg1 : Memref sig .tc .vmem S1000x128 .f32) (harg1 : arg1.IsWhole) (arg2 : Memref sig .tc .vmem S128x64 .f32) (harg2 : arg2.IsWhole)
    (arg3 : Memref sig .tc .vmem S1x64 .f32) (harg3 : arg3.IsWhole) (arg4 : Memref sig .tc .vmem S1000x64 .f32) (harg4 : arg4.IsWhole)
    (x0 : Vec F S1000x128 .f32) (x1 : Vec F S128x64 .f32) (x2 : Vec F S1x64 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out7 x0 x1 x2)) -∗ K ⟨⟩))
      ⊢ wp frame (wpE (defs₀ (F := F)) Variants.none c none) E (cc7_kernel i arg1 harg1 arg2 harg2 arg3 harg3 arg4 harg4) K := by
  simp only [cc7_kernel_eq_skeleton]; unfold cc7_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover7 _)

/-! ## The computation at a grid point -/

/-- What the computation is handed at point `t`: the region's invariant and its debts, and the four windows'
    current buffers at what they hold before it, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it hands back: the same, the buffers at what they hold after it. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

/-- At any point the input buffers hold their blocks, so the run on whole buffers applies; the invariant and the
    debts are not looked at. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_out]
  iintro ⟨HΦ, Ho, ⟨%d0, H0⟩, ⟨%d1, H1⟩, ⟨%d2, H2⟩, ⟨%d3, H3⟩⟩
  iapply (sound_kernel7 c Set.univ _ _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The computation at every grid point takes the buffers from their state before it to their state after it. -/
theorem body_obligation7 (c : Dev nD) : BodyObligation (dat7 (F := F) V c) (defs₀ (F := F)) Variants.none () Set.univ := fun t => by
  rw [bigSep_W7, bigSep_W7]
  exact sound_body7 V c t

end Cert.Kernel.Hand

end
-- ==== Proof.KB.Body8.lean ====
import proofs.«154750_j39152921870699_1_alg».proof.Proof.Gen.Kernel.Launch
import proofs.«154750_j39152921870699_1_alg».proof.Proof.Gen.Kernel.Skeleton
import proofs.«154750_j39152921870699_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 8: the two-layer read-out on a tile of rows

The region walks over the rows of a matrix `h` in tiles of 2000 rows.  At every tile it multiplies the tile
`[2000, 128]` by the whole first weight matrix `[128, 64]`, adds the first bias row `[1, 64]` to every row,
clamps below at zero, multiplies by the whole second weight matrix `[64, 4]`, adds the second bias row
`[1, 4]` to every row, and writes the `[2000, 4]` result to the matching tile of the output.  The two weight
matrices and the two bias rows are the same blocks at every tile; only the tile of `h` and the tile of the
output move.

This file says what each of the six windows' buffers holds when the tile's computation starts and when it
ends, as a function of the arrays the region was entered with (`V`), and proves that the computation, run on
buffers holding the former, leaves the latter: the five inputs as they were, the output tile equal to the
stored value, which depends on the five input blocks only (the old contents of the output tile are read and
dropped).
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of the core when the region is entered: everything below is a function of them
variable (V : (c : Dev nD) → (b : Ref sig .tc) → Buf (Elt F) ((c : Thread nD τ).loc b))

/-! ## The blocks and the stored value -/

/-- The block of window `w` at grid point `t`: the part of the window's array, as the region found it, that the
    window's index map selects at `t`. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- The whole of each buffer, as a rectangle: every load and the one store of the computation go through these. -/
abbrev rx8 : Rect S2000x128 := Rect.unit (s := S2000x128) ![0, 0] S2000x128.size inb_S2000x128_S2000x128_0_0
abbrev rw8 : Rect S128x64 := Rect.unit (s := S128x64) ![0, 0] S128x64.size inb_S128x64_S128x64_0_0
abbrev rb8 : Rect S1x64 := Rect.unit (s := S1x64) ![0, 0] S1x64.size inb_S1x64_S1x64_0_0
abbrev rv8 : Rect S64x4 := Rect.unit (s := S64x4) ![0, 0] S64x4.size inb_S64x4_S64x4_0_0
abbrev rd8 : Rect S1x4 := Rect.unit (s := S1x4) ![0, 0] S1x4.size inb_S1x4_S1x4_0_0
abbrev ro8 : Rect S2000x4 := Rect.unit (s := S2000x4) ![0, 0] S2000x4.size inb_S2000x4_S2000x4_0_0

/-- The output tile after the computation, from the five input blocks: the one store's value laid over the
    whole tile. -/
def out8 (x0 : Vec F S2000x128 .f32) (x1 : Vec F S128x64 .f32) (x2 : Vec F S1x64 .f32) (x3 : Vec F S64x4 .f32) (x4 : Vec F S1x4 .f32) :
    Vec F S2000x4 .f32 :=
  View.canon [⟨ro8, k8_pay1 (View.ld x0 rx8) (View.ld x1 rw8) (View.ld x2 rb8) (View.ld x3 rv8) (View.ld x4 rd8)⟩]

/-! ## The proof data of the region -/

/-- What the region's invariant is stated over: the six arrays as the region found them; after the computation
    at point `t` each input buffer still at its block and the output buffer at `out8` of the five input blocks;
    nothing else of the core is touched, nothing is owed, and every buffer is held whole. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8 (iblk8 V c 0 t) (iblk8 V c 1 t) (iblk8 V c 2 t) (iblk8 V c 3 t) (iblk8 V c 4 t)
  Φ _ := Pipeline.ΦA spec8 c
  q _ := fullShare
  owed _ := 0

/-- The data's arrays are the entry contents. -/
theorem A_eq8 (c : Dev nD) (w : Fin cfg8.W) : (dat8 V c).A w = V c (Pipeline.arrRef spec8 w) := by
  dsimp only [dat8]

/-- What the computation leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_out (c : Dev nD) (t : Fin cfg8.N) :
    (dat8 V c).after 5 t = out8 (iblk8 V c 0 t) (iblk8 V c 1 t) (iblk8 V c 2 t) (iblk8 V c 3 t) (iblk8 V c 4 t) := by
  dsimp only [dat8]

/-! ## What the computation finds in the input buffers

An input window's buffer is refilled only when the window's block index moves.  The tile of `h` moves at every
point; the two weight matrices and the two bias rows never move after the first point, and their buffers keep
what the first point brought in, because the computation leaves every input buffer as it found it.  Either way
the buffer holds the window's block at the point. -/

theorem before8_0 (c : Dev nD) (t : Fin cfg8.N) (d) : (dat8 V c).before 0 t d = iblk8 V c 0 t :=
  ((dat8 V c).before_in_eq_fetched 0 rfl (fun _ => rfl) (fun _ _ _ => rfl)
      (fun t => by rw [after8_0]; unfold Dat.blockOf iblk8; rw [A_eq8]; try rfl) t d).trans
    (by unfold Dat.fetched Dat.blockOf iblk8; rw [A_eq8]; try rfl)
theorem before8_1 (c : Dev nD) (t : Fin cfg8.N) (d) : (dat8 V c).before 1 t d = iblk8 V c 1 t :=
  ((dat8 V c).before_in_eq_fetched 1 rfl (fun _ => rfl) (fun _ _ _ => rfl)
      (fun t => by rw [after8_1]; unfold Dat.blockOf iblk8; rw [A_eq8]; try rfl) t d).trans
    (by unfold Dat.fetched Dat.blockOf iblk8; rw [A_eq8]; try rfl)
theorem before8_2 (c : Dev nD) (t : Fin cfg8.N) (d) : (dat8 V c).before 2 t d = iblk8 V c 2 t :=
  ((dat8 V c).before_in_eq_fetched 2 rfl (fun _ => rfl) (fun _ _ _ => rfl)
      (fun t => by rw [after8_2]; unfold Dat.blockOf iblk8; rw [A_eq8]; try rfl) t d).trans
    (by unfold Dat.fetched Dat.blockOf iblk8; rw [A_eq8]; try rfl)
theorem before8_3 (c : Dev nD) (t : Fin cfg8.N) (d) : (dat8 V c).before 3 t d = iblk8 V c 3 t :=
  ((dat8 V c).before_in_eq_fetched 3 rfl (fun _ => rfl) (fun _ _ _ => rfl)
      (fun t => by rw [after8_3]; unfold Dat.blockOf iblk8; rw [A_eq8]; try rfl) t d).trans
    (by unfold Dat.fetched Dat.blockOf iblk8; rw [A_eq8]; try rfl)
theorem before8_4 (c : Dev nD) (t : Fin cfg8.N) (d) : (dat8 V c).before 4 t d = iblk8 V c 4 t :=
  ((dat8 V c).before_in_eq_fetched 4 rfl (fun _ => rfl) (fun _ _ _ => rfl)
      (fun t => by rw [after8_4]; unfold Dat.blockOf iblk8; rw [A_eq8]; try rfl) t d).trans
    (by unfold Dat.fetched Dat.blockOf iblk8; rw [A_eq8]; try rfl)

/-! ## The computation on six whole buffers -/

/-- The one store covers the whole output tile. -/
theorem cover8 (p0 : Vec F S2000x4 .f32) (y : S2000x4.Idx) :
    ∃ pc ∈ ([⟨ro8, p0⟩] : List (View.Piece (Elt F) S2000x4 .f32)), y ∈ pc.1.set :=
  View.cover_of_tiled [⟨ro8, p0⟩] S2000x4.size (by rfl) y

set_option maxHeartbeats 1000000 in
/-- Run on whole buffers, the five inputs reading `x0` … `x4` and the output holding anything, the computation
    ends with the inputs unchanged and the output reading `out8 x0 x1 x2 x3 x4`: it loads the six buffers whole,
    and stores over the whole output the value computed from the first five loads. -/
theorem sound_kernel8 (c : Dev nD) (E : Set ℕ) (i : grid8.Coords)
    (arg1 : Memref sig .tc .vmem S2000x128 .f32) (harg1 : arg1.IsWhole) (arg2 : Memref sig .tc .vmem S128x64 .f32) (harg2 : arg2.IsWhole)
    (arg3 : Memref sig .tc .vmem S1x64 .f32) (harg3 : arg3.IsWhole) (arg4 : Memref sig .tc .vmem S64x4 .f32) (harg4 : arg4.IsWhole)
    (arg5 : Memref sig .tc .vmem S1x4 .f32) (harg5 : arg5.IsWhole) (arg6 : Memref sig .tc .vmem S2000x4 .f32) (harg6 : arg6.IsWhole)
    (x0 : Vec F S2000x128 .f32) (x1 : Vec F S128x64 .f32) (x2 : Vec F S1x64 .f32) (x3 : Vec F S64x4 .f32) (x4 : Vec F S1x4 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare (out8 x0 x1 x2 x3 x4)) -∗ K ⟨⟩))
      ⊢ wp frame (wpE (defs₀ (F := F)) Variants.none c none) E
          (cc8__mlp_kernel i arg1 harg1 arg2 harg2 arg3 harg3 arg4 harg4 arg5 harg5 arg6 harg6) K := by
  simp only [cc8__mlp_kernel_eq_skeleton]; unfold cc8__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8 _)

/-! ## The computation at a grid point -/

/-- What the computation is handed at point `t`: the region's invariant and its debts, and the six windows'
    current buffers at what they hold before it, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d)))

/-- and what it hands back: the same, the buffers at what they hold after it. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t))

/-- At any point the input buffers hold their blocks, so the run on whole buffers applies; the invariant and the
    debts are not looked at. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_out]
  iintro ⟨HΦ, Ho, ⟨%d0, H0⟩, ⟨%d1, H1⟩, ⟨%d2, H2⟩, ⟨%d3, H3⟩, ⟨%d4, H4⟩, ⟨%d5, H5⟩⟩
  iapply (sound_kernel8 c Set.univ _ _ _ _ _ _ _ _ _ _ _ _ _
    (iblk8 V c 0 t) (iblk8 V c 1 t) (iblk8 V c 2 t) (iblk8 V c 3 t) (iblk8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The computation at every grid point takes the buffers from their state before it to their state after it. -/
theorem body_obligation8 (c : Dev nD) : BodyObligation (dat8 (F := F) V c) (defs₀ (F := F)) Variants.none () Set.univ := fun t => by
  rw [bigSep_W8, bigSep_W8]
  exact sound_body8 V c t

end Cert.Kernel.Hand

end
-- ==== Proof.KB.Chain.lean ====
import proofs.«154750_j39152921870699_1_alg».proof.Proof.KB.Body0
import proofs.«154750_j39152921870699_1_alg».proof.Proof.KB.Body1
import proofs.«154750_j39152921870699_1_alg».proof.Proof.KB.Body2
import proofs.«154750_j39152921870699_1_alg».proof.Proof.KB.Body3
import proofs.«154750_j39152921870699_1_alg».proof.Proof.KB.Body4
import proofs.«154750_j39152921870699_1_alg».proof.Proof.KB.Body5
import proofs.«154750_j39152921870699_1_alg».proof.Proof.KB.Body6
import proofs.«154750_j39152921870699_1_alg».proof.Proof.KB.Body7
import proofs.«154750_j39152921870699_1_alg».proof.Proof.KB.Body8

/-!
# The contents of the core's buffers along the program

The program is a sequence of 26 segments: 17 stretches of host operations and 9 tiled regions.  This file names
the contents of the core's buffers at the 27 boundaries between them, B0 (the launch memory) to B26 (the end).

* Across a stretch of host operations the contents change by the fold of the operations: each operation
  rewrites the buffer it writes with its function of the buffers it reads, and leaves every other buffer alone.
* Across a region the contents change at the region's arrays only: an input array is as it was at entry, the
  output array holds what the region's write-backs left, tile after tile; every other buffer is as it was.

The regions' data (what each staging buffer holds before and after every tile) is taken at the contents the
region is entered with, so the family of the nine regions' data is stated here too, beside what rides along
all the segments unchanged: the random-number register at some state, and a core that owes no other core
anything.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The 27 boundaries -/

/-- At launch: the memory the program is started on. -/
abbrev B0 : Dev nD → Valuation τ sig (Elt F) := fun c b => (s₀ m ρ).mem ((c : Dev nD), b)
/-- After the host operations of segment 0. -/
abbrev B1 : Dev nD → Valuation τ sig (Elt F) := fun c => StableHlo.after main_part0_ops0 (B0 m ρ c)
/-- After the host operations of segment 1. -/
abbrev B2 : Dev nD → Valuation τ sig (Elt F) := fun c => StableHlo.after main_part1_ops0 (B1 m ρ c)
/-- After the host operations of segment 2. -/
abbrev B3 : Dev nD → Valuation τ sig (Elt F) := fun c => StableHlo.after main_part2_ops0 (B2 m ρ c)

/-- Segment 3 is region 0: what it is entered with, read at the core's own references. -/
abbrev E3 : (c : Dev nD) → (b : Ref sig .tc) → Buf (Elt F) ((c : Thread nD τ).loc b) := fun c b => B3 m ρ c b
/-- After region 0: its arrays at what the tiles' write-backs leave (an input array as entered, the output array
    the fold of the write-backs over all the tiles), every other buffer as entered. -/
def B4 (c : Dev nD) : Valuation τ sig (Elt F) :=
  Pipeline.withArrays spec0 c (B3 m ρ c) fun w => (dat0 (E3 m ρ) c).arrAt w cfg0.N
theorem B4_arr (c : Dev nD) (w : Fin cfg0.W) :
    B4 m ρ c (Proc.devRef .tc (Pipeline.arrRef spec0 w)) = (dat0 (E3 m ρ) c).arrAt w cfg0.N := by
  unfold B4; exact Pipeline.withArrays_arr spec0 launch0.win.arr_inj c _ _ w
theorem B4_of_ne (c : Dev nD) (b : Ref sig .tc) (hb : ∀ w, Pipeline.arrRef spec0 w ≠ b) :
    B4 m ρ c (Proc.devRef .tc b) = B3 m ρ c (Proc.devRef .tc b) := by
  unfold B4; exact Pipeline.withArrays_of_ne spec0 c _ _ b hb
/-- The same contents read at the core's own references. -/
abbrev X4 : (c : Dev nD) → (b : Ref sig .tc) → Buf (Elt F) ((c : Thread nD τ).loc b) := fun c b => B4 m ρ c b
/-- At the end of region 0 each of its arrays holds what the region leaves there, and every other buffer what it
    held when the region was entered. -/
theorem hF0 (c : Dev nD) (w : Fin cfg0.W) : (dat0 (E3 m ρ) c).arrAt w cfg0.N = X4 m ρ c (Pipeline.arrRef spec0 w) :=
  (B4_arr m ρ c w).symm
theorem hrest0 (c : Dev nD) : ∀ b, b ∉ Finset.univ.image (Pipeline.arrRef spec0) → X4 m ρ c b = E3 m ρ c b :=
  fun b hb => B4_of_ne m ρ c b fun w e => hb (Finset.mem_image.mpr ⟨w, Finset.mem_univ _, e⟩)

/-- After the host operations of segment 4. -/
abbrev B5 : Dev nD → Valuation τ sig (Elt F) := fun c => StableHlo.after main_part2_ops1 (B4 m ρ c)
/-- After the host operations of segment 5. -/
abbrev B6 : Dev nD → Valuation τ sig (Elt F) := fun c => StableHlo.after main_part3_ops0 (B5 m ρ c)

/-- Segment 6 is region 1: what it is entered with, read at the core's own references. -/
abbrev E6 : (c : Dev nD) → (b : Ref sig .tc) → Buf (Elt F) ((c : Thread nD τ).loc b) := fun c b => B6 m ρ c b
/-- After region 1: its arrays at what the tiles' write-backs leave (an input array as entered, the output array
    the fold of the write-backs over all the tiles), every other buffer as entered. -/
def B7 (c : Dev nD) : Valuation τ sig (Elt F) :=
  Pipeline.withArrays spec1 c (B6 m ρ c) fun w => (dat1 (E6 m ρ) c).arrAt w cfg1.N
theorem B7_arr (c : Dev nD) (w : Fin cfg1.W) :
    B7 m ρ c (Proc.devRef .tc (Pipeline.arrRef spec1 w)) = (dat1 (E6 m ρ) c).arrAt w cfg1.N := by
  unfold B7; exact Pipeline.withArrays_arr spec1 launch1.win.arr_inj c _ _ w
theorem B7_of_ne (c : Dev nD) (b : Ref sig .tc) (hb : ∀ w, Pipeline.arrRef spec1 w ≠ b) :
    B7 m ρ c (Proc.devRef .tc b) = B6 m ρ c (Proc.devRef .tc b) := by
  unfold B7; exact Pipeline.withArrays_of_ne spec1 c _ _ b hb
/-- The same contents read at the core's own references. -/
abbrev X7 : (c : Dev nD) → (b : Ref sig .tc) → Buf (Elt F) ((c : Thread nD τ).loc b) := fun c b => B7 m ρ c b
/-- At the end of region 1 each of its arrays holds what the region leaves there, and every other buffer what it
    held when the region was entered. -/
theorem hF1 (c : Dev nD) (w : Fin cfg1.W) : (dat1 (E6 m ρ) c).arrAt w cfg1.N = X7 m ρ c (Pipeline.arrRef spec1 w) :=
  (B7_arr m ρ c w).symm
theorem hrest1 (c : Dev nD) : ∀ b, b ∉ Finset.univ.image (Pipeline.arrRef spec1) → X7 m ρ c b = E6 m ρ c b :=
  fun b hb => B7_of_ne m ρ c b fun w e => hb (Finset.mem_image.mpr ⟨w, Finset.mem_univ _, e⟩)

/-- After the host operations of segment 7. -/
abbrev B8 : Dev nD → Valuation τ sig (Elt F) := fun c => StableHlo.after main_part3_ops1 (B7 m ρ c)

/-- Segment 8 is region 2: what it is entered with, read at the core's own references. -/
abbrev E8 : (c : Dev nD) → (b : Ref sig .tc) → Buf (Elt F) ((c : Thread nD τ).loc b) := fun c b => B8 m ρ c b
/-- After region 2: its arrays at what the tiles' write-backs leave (an input array as entered, the output array
    the fold of the write-backs over all the tiles), every other buffer as entered. -/
def B9 (c : Dev nD) : Valuation τ sig (Elt F) :=
  Pipeline.withArrays spec2 c (B8 m ρ c) fun w => (dat2 (E8 m ρ) c).arrAt w cfg2.N
theorem B9_arr (c : Dev nD) (w : Fin cfg2.W) :
    B9 m ρ c (Proc.devRef .tc (Pipeline.arrRef spec2 w)) = (dat2 (E8 m ρ) c).arrAt w cfg2.N := by
  unfold B9; exact Pipeline.withArrays_arr spec2 launch2.win.arr_inj c _ _ w
theorem B9_of_ne (c : Dev nD) (b : Ref sig .tc) (hb : ∀ w, Pipeline.arrRef spec2 w ≠ b) :
    B9 m ρ c (Proc.devRef .tc b) = B8 m ρ c (Proc.devRef .tc b) := by
  unfold B9; exact Pipeline.withArrays_of_ne spec2 c _ _ b hb
/-- The same contents read at the core's own references. -/
abbrev X9 : (c : Dev nD) → (b : Ref sig .tc) → Buf (Elt F) ((c : Thread nD τ).loc b) := fun c b => B9 m ρ c b
/-- At the end of region 2 each of its arrays holds what the region leaves there, and every other buffer what it
    held when the region was entered. -/
theorem hF2 (c : Dev nD) (w : Fin cfg2.W) : (dat2 (E8 m ρ) c).arrAt w cfg2.N = X9 m ρ c (Pipeline.arrRef spec2 w) :=
  (B9_arr m ρ c w).symm
theorem hrest2 (c : Dev nD) : ∀ b, b ∉ Finset.univ.image (Pipeline.arrRef spec2) → X9 m ρ c b = E8 m ρ c b :=
  fun b hb => B9_of_ne m ρ c b fun w e => hb (Finset.mem_image.mpr ⟨w, Finset.mem_univ _, e⟩)

/-- After the host operations of segment 9. -/
abbrev B10 : Dev nD → Valuation τ sig (Elt F) := fun c => StableHlo.after main_part3_ops2 (B9 m ρ c)

/-- Segment 10 is region 3: what it is entered with, read at the core's own references. -/
abbrev E10 : (c : Dev nD) → (b : Ref sig .tc) → Buf (Elt F) ((c : Thread nD τ).loc b) := fun c b => B10 m ρ c b
/-- After region 3: its arrays at what the tiles' write-backs leave (an input array as entered, the output array
    the fold of the write-backs over all the tiles), every other buffer as entered. -/
def B11 (c : Dev nD) : Valuation τ sig (Elt F) :=
  Pipeline.withArrays spec3 c (B10 m ρ c) fun w => (dat3 (E10 m ρ) c).arrAt w cfg3.N
theorem B11_arr (c : Dev nD) (w : Fin cfg3.W) :
    B11 m ρ c (Proc.devRef .tc (Pipeline.arrRef spec3 w)) = (dat3 (E10 m ρ) c).arrAt w cfg3.N := by
  unfold B11; exact Pipeline.withArrays_arr spec3 launch3.win.arr_inj c _ _ w
theorem B11_of_ne (c : Dev nD) (b : Ref sig .tc) (hb : ∀ w, Pipeline.arrRef spec3 w ≠ b) :
    B11 m ρ c (Proc.devRef .tc b) = B10 m ρ c (Proc.devRef .tc b) := by
  unfold B11; exact Pipeline.withArrays_of_ne spec3 c _ _ b hb
/-- The same contents read at the core's own references. -/
abbrev X11 : (c : Dev nD) → (b : Ref sig .tc) → Buf (Elt F) ((c : Thread nD τ).loc b) := fun c b => B11 m ρ c b
/-- At the end of region 3 each of its arrays holds what the region leaves there, and every other buffer what it
    held when the region was entered. -/
theorem hF3 (c : Dev nD) (w : Fin cfg3.W) : (dat3 (E10 m ρ) c).arrAt w cfg3.N = X11 m ρ c (Pipeline.arrRef spec3 w) :=
  (B11_arr m ρ c w).symm
theorem hrest3 (c : Dev nD) : ∀ b, b ∉ Finset.univ.image (Pipeline.arrRef spec3) → X11 m ρ c b = E10 m ρ c b :=
  fun b hb => B11_of_ne m ρ c b fun w e => hb (Finset.mem_image.mpr ⟨w, Finset.mem_univ _, e⟩)

/-- After the host operations of segment 11. -/
abbrev B12 : Dev nD → Valuation τ sig (Elt F) := fun c => StableHlo.after main_part3_ops3 (B11 m ρ c)
/-- After the host operations of segment 12. -/
abbrev B13 : Dev nD → Valuation τ sig (Elt F) := fun c => StableHlo.after main_part4_ops0 (B12 m ρ c)
/-- After the host operations of segment 13. -/
abbrev B14 : Dev nD → Valuation τ sig (Elt F) := fun c => StableHlo.after main_part5_ops0 (B13 m ρ c)
/-- After the host operations of segment 14. -/
abbrev B15 : Dev nD → Valuation τ sig (Elt F) := fun c => StableHlo.after main_part6_ops0 (B14 m ρ c)

/-- Segment 15 is region 4: what it is entered with, read at the core's own references. -/
abbrev E15 : (c : Dev nD) → (b : Ref sig .tc) → Buf (Elt F) ((c : Thread nD τ).loc b) := fun c b => B15 m ρ c b
/-- After region 4: its arrays at what the tiles' write-backs leave (an input array as entered, the output array
    the fold of the write-backs over all the tiles), every other buffer as entered. -/
def B16 (c : Dev nD) : Valuation τ sig (Elt F) :=
  Pipeline.withArrays spec4 c (B15 m ρ c) fun w => (dat4 (E15 m ρ) c).arrAt w cfg4.N
theorem B16_arr (c : Dev nD) (w : Fin cfg4.W) :
    B16 m ρ c (Proc.devRef .tc (Pipeline.arrRef spec4 w)) = (dat4 (E15 m ρ) c).arrAt w cfg4.N := by
  unfold B16; exact Pipeline.withArrays_arr spec4 launch4.win.arr_inj c _ _ w
theorem B16_of_ne (c : Dev nD) (b : Ref sig .tc) (hb : ∀ w, Pipeline.arrRef spec4 w ≠ b) :
    B16 m ρ c (Proc.devRef .tc b) = B15 m ρ c (Proc.devRef .tc b) := by
  unfold B16; exact Pipeline.withArrays_of_ne spec4 c _ _ b hb
/-- The same contents read at the core's own references. -/
abbrev X16 : (c : Dev nD) → (b : Ref sig .tc) → Buf (Elt F) ((c : Thread nD τ).loc b) := fun c b => B16 m ρ c b
/-- At the end of region 4 each of its arrays holds what the region leaves there, and every other buffer what it
    held when the region was entered. -/
theorem hF4 (c : Dev nD) (w : Fin cfg4.W) : (dat4 (E15 m ρ) c).arrAt w cfg4.N = X16 m ρ c (Pipeline.arrRef spec4 w) :=
  (B16_arr m ρ c w).symm
theorem hrest4 (c : Dev nD) : ∀ b, b ∉ Finset.univ.image (Pipeline.arrRef spec4) → X16 m ρ c b = E15 m ρ c b :=
  fun b hb => B16_of_ne m ρ c b fun w e => hb (Finset.mem_image.mpr ⟨w, Finset.mem_univ _, e⟩)

/-- After the host operations of segment 16. -/
abbrev B17 : Dev nD → Valuation τ sig (Elt F) := fun c => StableHlo.after main_part6_ops1 (B16 m ρ c)
/-- After the host operations of segment 17. -/
abbrev B18 : Dev nD → Valuation τ sig (Elt F) := fun c => StableHlo.after main_part7_ops0 (B17 m ρ c)

/-- Segment 18 is region 5: what it is entered with, read at the core's own references. -/
abbrev E18 : (c : Dev nD) → (b : Ref sig .tc) → Buf (Elt F) ((c : Thread nD τ).loc b) := fun c b => B18 m ρ c b
/-- After region 5: its arrays at what the tiles' write-backs leave (an input array as entered, the output array
    the fold of the write-backs over all the tiles), every other buffer as entered. -/
def B19 (c : Dev nD) : Valuation τ sig (Elt F) :=
  Pipeline.withArrays spec5 c (B18 m ρ c) fun w => (dat5 (E18 m ρ) c).arrAt w cfg5.N
theorem B19_arr (c : Dev nD) (w : Fin cfg5.W) :
    B19 m ρ c (Proc.devRef .tc (Pipeline.arrRef spec5 w)) = (dat5 (E18 m ρ) c).arrAt w cfg5.N := by
  unfold B19; exact Pipeline.withArrays_arr spec5 launch5.win.arr_inj c _ _ w
theorem B19_of_ne (c : Dev nD) (b : Ref sig .tc) (hb : ∀ w, Pipeline.arrRef spec5 w ≠ b) :
    B19 m ρ c (Proc.devRef .tc b) = B18 m ρ c (Proc.devRef .tc b) := by
  unfold B19; exact Pipeline.withArrays_of_ne spec5 c _ _ b hb
/-- The same contents read at the core's own references. -/
abbrev X19 : (c : Dev nD) → (b : Ref sig .tc) → Buf (Elt F) ((c : Thread nD τ).loc b) := fun c b => B19 m ρ c b
/-- At the end of region 5 each of its arrays holds what the region leaves there, and every other buffer what it
    held when the region was entered. -/
theorem hF5 (c : Dev nD) (w : Fin cfg5.W) : (dat5 (E18 m ρ) c).arrAt w cfg5.N = X19 m ρ c (Pipeline.arrRef spec5 w) :=
  (B19_arr m ρ c w).symm
theorem hrest5 (c : Dev nD) : ∀ b, b ∉ Finset.univ.image (Pipeline.arrRef spec5) → X19 m ρ c b = E18 m ρ c b :=
  fun b hb => B19_of_ne m ρ c b fun w e => hb (Finset.mem_image.mpr ⟨w, Finset.mem_univ _, e⟩)

/-- After the host operations of segment 19. -/
abbrev B20 : Dev nD → Valuation τ sig (Elt F) := fun c => StableHlo.after main_part7_ops1 (B19 m ρ c)

/-- Segment 20 is region 6: what it is entered with, read at the core's own references. -/
abbrev E20 : (c : Dev nD) → (b : Ref sig .tc) → Buf (Elt F) ((c : Thread nD τ).loc b) := fun c b => B20 m ρ c b
/-- After region 6: its arrays at what the tiles' write-backs leave (an input array as entered, the output array
    the fold of the write-backs over all the tiles), every other buffer as entered. -/
def B21 (c : Dev nD) : Valuation τ sig (Elt F) :=
  Pipeline.withArrays spec6 c (B20 m ρ c) fun w => (dat6 (E20 m ρ) c).arrAt w cfg6.N
theorem B21_arr (c : Dev nD) (w : Fin cfg6.W) :
    B21 m ρ c (Proc.devRef .tc (Pipeline.arrRef spec6 w)) = (dat6 (E20 m ρ) c).arrAt w cfg6.N := by
  unfold B21; exact Pipeline.withArrays_arr spec6 launch6.win.arr_inj c _ _ w
theorem B21_of_ne (c : Dev nD) (b : Ref sig .tc) (hb : ∀ w, Pipeline.arrRef spec6 w ≠ b) :
    B21 m ρ c (Proc.devRef .tc b) = B20 m ρ c (Proc.devRef .tc b) := by
  unfold B21; exact Pipeline.withArrays_of_ne spec6 c _ _ b hb
/-- The same contents read at the core's own references. -/
abbrev X21 : (c : Dev nD) → (b : Ref sig .tc) → Buf (Elt F) ((c : Thread nD τ).loc b) := fun c b => B21 m ρ c b
/-- At the end of region 6 each of its arrays holds what the region leaves there, and every other buffer what it
    held when the region was entered. -/
theorem hF6 (c : Dev nD) (w : Fin cfg6.W) : (dat6 (E20 m ρ) c).arrAt w cfg6.N = X21 m ρ c (Pipeline.arrRef spec6 w) :=
  (B21_arr m ρ c w).symm
theorem hrest6 (c : Dev nD) : ∀ b, b ∉ Finset.univ.image (Pipeline.arrRef spec6) → X21 m ρ c b = E20 m ρ c b :=
  fun b hb => B21_of_ne m ρ c b fun w e => hb (Finset.mem_image.mpr ⟨w, Finset.mem_univ _, e⟩)

/-- After the host operations of segment 21. -/
abbrev B22 : Dev nD → Valuation τ sig (Elt F) := fun c => StableHlo.after main_part7_ops2 (B21 m ρ c)

/-- Segment 22 is region 7: what it is entered with, read at the core's own references. -/
abbrev E22 : (c : Dev nD) → (b : Ref sig .tc) → Buf (Elt F) ((c : Thread nD τ).loc b) := fun c b => B22 m ρ c b
/-- After region 7: its arrays at what the tiles' write-backs leave (an input array as entered, the output array
    the fold of the write-backs over all the tiles), every other buffer as entered. -/
def B23 (c : Dev nD) : Valuation τ sig (Elt F) :=
  Pipeline.withArrays spec7 c (B22 m ρ c) fun w => (dat7 (E22 m ρ) c).arrAt w cfg7.N
theorem B23_arr (c : Dev nD) (w : Fin cfg7.W) :
    B23 m ρ c (Proc.devRef .tc (Pipeline.arrRef spec7 w)) = (dat7 (E22 m ρ) c).arrAt w cfg7.N := by
  unfold B23; exact Pipeline.withArrays_arr spec7 launch7.win.arr_inj c _ _ w
theorem B23_of_ne (c : Dev nD) (b : Ref sig .tc) (hb : ∀ w, Pipeline.arrRef spec7 w ≠ b) :
    B23 m ρ c (Proc.devRef .tc b) = B22 m ρ c (Proc.devRef .tc b) := by
  unfold B23; exact Pipeline.withArrays_of_ne spec7 c _ _ b hb
/-- The same contents read at the core's own references. -/
abbrev X23 : (c : Dev nD) → (b : Ref sig .tc) → Buf (Elt F) ((c : Thread nD τ).loc b) := fun c b => B23 m ρ c b
/-- At the end of region 7 each of its arrays holds what the region leaves there, and every other buffer what it
    held when the region was entered. -/
theorem hF7 (c : Dev nD) (w : Fin cfg7.W) : (dat7 (E22 m ρ) c).arrAt w cfg7.N = X23 m ρ c (Pipeline.arrRef spec7 w) :=
  (B23_arr m ρ c w).symm
theorem hrest7 (c : Dev nD) : ∀ b, b ∉ Finset.univ.image (Pipeline.arrRef spec7) → X23 m ρ c b = E22 m ρ c b :=
  fun b hb => B23_of_ne m ρ c b fun w e => hb (Finset.mem_image.mpr ⟨w, Finset.mem_univ _, e⟩)

/-- After the host operations of segment 23. -/
abbrev B24 : Dev nD → Valuation τ sig (Elt F) := fun c => StableHlo.after main_part7_ops3 (B23 m ρ c)
/-- After the host operations of segment 24. -/
abbrev B25 : Dev nD → Valuation τ sig (Elt F) := fun c => StableHlo.after main_part8_ops0 (B24 m ρ c)

/-- Segment 25 is region 8: what it is entered with, read at the core's own references. -/
abbrev E25 : (c : Dev nD) → (b : Ref sig .tc) → Buf (Elt F) ((c : Thread nD τ).loc b) := fun c b => B25 m ρ c b
/-- After region 8: its arrays at what the tiles' write-backs leave (an input array as entered, the output array
    the fold of the write-backs over all the tiles), every other buffer as entered. -/
def B26 (c : Dev nD) : Valuation τ sig (Elt F) :=
  Pipeline.withArrays spec8 c (B25 m ρ c) fun w => (dat8 (E25 m ρ) c).arrAt w cfg8.N
theorem B26_arr (c : Dev nD) (w : Fin cfg8.W) :
    B26 m ρ c (Proc.devRef .tc (Pipeline.arrRef spec8 w)) = (dat8 (E25 m ρ) c).arrAt w cfg8.N := by
  unfold B26; exact Pipeline.withArrays_arr spec8 launch8.win.arr_inj c _ _ w
theorem B26_of_ne (c : Dev nD) (b : Ref sig .tc) (hb : ∀ w, Pipeline.arrRef spec8 w ≠ b) :
    B26 m ρ c (Proc.devRef .tc b) = B25 m ρ c (Proc.devRef .tc b) := by
  unfold B26; exact Pipeline.withArrays_of_ne spec8 c _ _ b hb
/-- The same contents read at the core's own references. -/
abbrev X26 : (c : Dev nD) → (b : Ref sig .tc) → Buf (Elt F) ((c : Thread nD τ).loc b) := fun c b => B26 m ρ c b
/-- At the end of region 8 each of its arrays holds what the region leaves there, and every other buffer what it
    held when the region was entered. -/
theorem hF8 (c : Dev nD) (w : Fin cfg8.W) : (dat8 (E25 m ρ) c).arrAt w cfg8.N = X26 m ρ c (Pipeline.arrRef spec8 w) :=
  (B26_arr m ρ c w).symm
theorem hrest8 (c : Dev nD) : ∀ b, b ∉ Finset.univ.image (Pipeline.arrRef spec8) → X26 m ρ c b = E25 m ρ c b :=
  fun b hb => B26_of_ne m ρ c b fun w e => hb (Finset.mem_image.mpr ⟨w, Finset.mem_univ _, e⟩)

/-! ## The regions' data, and what rides along -/

/-- No region reads a table of indices fetched ahead of it. -/
abbrev adm : (p : Fin 9) → (pcfgs (F := F) p).Adm := fun p => (cfgs p).toPCfg_adm
/-- The data of the nine regions, each taken at the contents its region is entered with. -/
def pdats : (p : Fin 9) → (c : Dev nD) → Dat τ (Elt F) Unit ℕ (UR sig nD τ) ℕ (Pipeline.pin (pcfgs (F := F)) adm p) c
  | ⟨0, _⟩ => fun c => dat0 (E3 m ρ) c
  | ⟨1, _⟩ => fun c => dat1 (E6 m ρ) c
  | ⟨2, _⟩ => fun c => dat2 (E8 m ρ) c
  | ⟨3, _⟩ => fun c => dat3 (E10 m ρ) c
  | ⟨4, _⟩ => fun c => dat4 (E15 m ρ) c
  | ⟨5, _⟩ => fun c => dat5 (E18 m ρ) c
  | ⟨6, _⟩ => fun c => dat6 (E20 m ρ) c
  | ⟨7, _⟩ => fun c => dat7 (E22 m ρ) c
  | ⟨8, _⟩ => fun c => dat8 (E25 m ρ) c
abbrev 𝒱₀ : Variants := Variants.none
/-- No core owes another anything, so no pair of cores is given a level. -/
abbrev L : GSem nD τ sig → Finset Unit := fun _ => ∅
abbrev lv : GSem nD τ sig → Unit → ℕ := fun _ _ => 0
/-- What every segment carries beside the buffers: the random-number register at some state, and the core's
    account of what it owes, at nothing. -/
abbrev R (c : Dev nD) : sProp 𝕄 := iprop((∃ r, prngReg c r) ∗ ∃ W, owes (c : Thread nD τ) (0 : CellTallies nD τ sig Unit) W)
/-- A stretch of host operations as a segment: run from every unscoped buffer at the contents W it ends with them
    at the fold of the operations over W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-! No host operation allocates a buffer. -/
theorem main_part0_ops0_fresh : (main_part0_ops0 : List (HloOp τ sig (Elt F))).Forall fun op => op.fresh = ∅ := by
  simp only [List.Forall]; repeat' constructor
theorem main_part1_ops0_fresh : (main_part1_ops0 : List (HloOp τ sig (Elt F))).Forall fun op => op.fresh = ∅ := by
  simp only [List.Forall]; repeat' constructor
theorem main_part2_ops0_fresh : (main_part2_ops0 : List (HloOp τ sig (Elt F))).Forall fun op => op.fresh = ∅ := by
  simp only [List.Forall]; repeat' constructor
theorem main_part2_ops1_fresh : (main_part2_ops1 : List (HloOp τ sig (Elt F))).Forall fun op => op.fresh = ∅ := by
  simp only [List.Forall]; repeat' constructor
theorem main_part3_ops0_fresh : (main_part3_ops0 : List (HloOp τ sig (Elt F))).Forall fun op => op.fresh = ∅ := by
  simp only [List.Forall]; repeat' constructor
theorem main_part3_ops1_fresh : (main_part3_ops1 : List (HloOp τ sig (Elt F))).Forall fun op => op.fresh = ∅ := by
  simp only [List.Forall]; repeat' constructor
theorem main_part3_ops2_fresh : (main_part3_ops2 : List (HloOp τ sig (Elt F))).Forall fun op => op.fresh = ∅ := by
  simp only [List.Forall]; repeat' constructor
theorem main_part3_ops3_fresh : (main_part3_ops3 : List (HloOp τ sig (Elt F))).Forall fun op => op.fresh = ∅ := by
  simp only [List.Forall]; repeat' constructor
theorem main_part4_ops0_fresh : (main_part4_ops0 : List (HloOp τ sig (Elt F))).Forall fun op => op.fresh = ∅ := by
  simp only [List.Forall]; repeat' constructor
theorem main_part5_ops0_fresh : (main_part5_ops0 : List (HloOp τ sig (Elt F))).Forall fun op => op.fresh = ∅ := by
  simp only [List.Forall]; repeat' constructor
theorem main_part6_ops0_fresh : (main_part6_ops0 : List (HloOp τ sig (Elt F))).Forall fun op => op.fresh = ∅ := by
  simp only [List.Forall]; repeat' constructor
theorem main_part6_ops1_fresh : (main_part6_ops1 : List (HloOp τ sig (Elt F))).Forall fun op => op.fresh = ∅ := by
  simp only [List.Forall]; repeat' constructor
theorem main_part7_ops0_fresh : (main_part7_ops0 : List (HloOp τ sig (Elt F))).Forall fun op => op.fresh = ∅ := by
  simp only [List.Forall]; repeat' constructor
theorem main_part7_ops1_fresh : (main_part7_ops1 : List (HloOp τ sig (Elt F))).Forall fun op => op.fresh = ∅ := by
  simp only [List.Forall]; repeat' constructor
theorem main_part7_ops2_fresh : (main_part7_ops2 : List (HloOp τ sig (Elt F))).Forall fun op => op.fresh = ∅ := by
  simp only [List.Forall]; repeat' constructor
theorem main_part7_ops3_fresh : (main_part7_ops3 : List (HloOp τ sig (Elt F))).Forall fun op => op.fresh = ∅ := by
  simp only [List.Forall]; repeat' constructor
theorem main_part8_ops0_fresh : (main_part8_ops0 : List (HloOp τ sig (Elt F))).Forall fun op => op.fresh = ∅ := by
  simp only [List.Forall]; repeat' constructor

/-- An unscoped reference of the core is among the buffers every segment carries. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What the program ends with, beside a core that owes nothing: every unscoped buffer at the last boundary's
    contents, the random-number register at some state. -/
abbrev Tₙ (c : Dev nD) : sProp 𝕄 := iprop(StableHlo.held (c : Thread nD τ) (Pipeline.ucRefs τ sig) (B26 m ρ c) ∗ ∃ r, prngReg c r)

end Cert.Kernel.Hand

end
-- ==== Proof.KB.Reg0.lean ====
import proofs.«154750_j39152921870699_1_alg».proof.Proof.KB.Chain

/-!
# Region 0 as a segment of the program

The region is entered holding every unscoped buffer of the core at the contents of boundary 3, and is left
holding them at the contents of boundary 4.  At entry its arrays are taken out of the unscoped buffers
and handed to the tiled pipeline, whose data is stated at exactly those contents; at exit they are put back at
what the pipeline left, every other buffer not having moved.  The random-number register goes into the
pipeline's invariant and comes back; nothing is owed to another core before or after; the kernel has no
semaphore of its own.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 0: from every unscoped buffer at boundary 3's contents to every unscoped buffer at boundary 4's. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E3 m ρ) c).loose
  hwaits := Pipeline.hwaits_of_owed_zero _ _ _ _ L lv 0 fun _ _ => rfl
  pre c := iprop(StableHlo.held (c : Thread nD τ) (Pipeline.ucRefs τ sig) (B3 m ρ c) ∗ R c)
  post c := iprop(StableHlo.held (c : Thread nD τ) (Pipeline.ucRefs τ sig) (B4 m ρ c) ∗ R c)
  X c := iprop(∃ r, prngReg c r)
  Y c := iprop(∃ r, prngReg c r)
  Z c := Pipeline.unscopedRest (Ix := Unit) (Name := ℕ) (U := UR sig nD τ) (Lvl := ℕ) spec0 c (E3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E3 m ρ c) (X4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Reg1.lean ====
import proofs.«154750_j39152921870699_1_alg».proof.Proof.KB.Chain

/-!
# Region 1 as a segment of the program

The region is entered holding every unscoped buffer of the core at the contents of boundary 6, and is left
holding them at the contents of boundary 7.  At entry its arrays are taken out of the unscoped buffers
and handed to the tiled pipeline, whose data is stated at exactly those contents; at exit they are put back at
what the pipeline left, every other buffer not having moved.  The random-number register goes into the
pipeline's invariant and comes back; nothing is owed to another core before or after; the kernel has no
semaphore of its own.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 1: from every unscoped buffer at boundary 6's contents to every unscoped buffer at boundary 7's. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E6 m ρ) c).loose
  hwaits := Pipeline.hwaits_of_owed_zero _ _ _ _ L lv 1 fun _ _ => rfl
  pre c := iprop(StableHlo.held (c : Thread nD τ) (Pipeline.ucRefs τ sig) (B6 m ρ c) ∗ R c)
  post c := iprop(StableHlo.held (c : Thread nD τ) (Pipeline.ucRefs τ sig) (B7 m ρ c) ∗ R c)
  X c := iprop(∃ r, prngReg c r)
  Y c := iprop(∃ r, prngReg c r)
  Z c := Pipeline.unscopedRest (Ix := Unit) (Name := ℕ) (U := UR sig nD τ) (Lvl := ℕ) spec1 c (E6 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E6 m ρ c) (X7 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Reg2.lean ====
import proofs.«154750_j39152921870699_1_alg».proof.Proof.KB.Chain

/-!
# Region 2 as a segment of the program

The region is entered holding every unscoped buffer of the core at the contents of boundary 8, and is left
holding them at the contents of boundary 9.  At entry its arrays are taken out of the unscoped buffers
and handed to the tiled pipeline, whose data is stated at exactly those contents; at exit they are put back at
what the pipeline left, every other buffer not having moved.  The random-number register goes into the
pipeline's invariant and comes back; nothing is owed to another core before or after; the kernel has no
semaphore of its own.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 2: from every unscoped buffer at boundary 8's contents to every unscoped buffer at boundary 9's. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E8 m ρ) c).loose
  hwaits := Pipeline.hwaits_of_owed_zero _ _ _ _ L lv 2 fun _ _ => rfl
  pre c := iprop(StableHlo.held (c : Thread nD τ) (Pipeline.ucRefs τ sig) (B8 m ρ c) ∗ R c)
  post c := iprop(StableHlo.held (c : Thread nD τ) (Pipeline.ucRefs τ sig) (B9 m ρ c) ∗ R c)
  X c := iprop(∃ r, prngReg c r)
  Y c := iprop(∃ r, prngReg c r)
  Z c := Pipeline.unscopedRest (Ix := Unit) (Name := ℕ) (U := UR sig nD τ) (Lvl := ℕ) spec2 c (E8 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E8 m ρ c) (X9 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Reg3.lean ====
import proofs.«154750_j39152921870699_1_alg».proof.Proof.KB.Chain

/-!
# Region 3 as a segment of the program

The region is entered holding every unscoped buffer of the core at the contents of boundary 10, and is left
holding them at the contents of boundary 11.  At entry its arrays are taken out of the unscoped buffers
and handed to the tiled pipeline, whose data is stated at exactly those contents; at exit they are put back at
what the pipeline left, every other buffer not having moved.  The random-number register goes into the
pipeline's invariant and comes back; nothing is owed to another core before or after; the kernel has no
semaphore of its own.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 3: from every unscoped buffer at boundary 10's contents to every unscoped buffer at boundary 11's. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E10 m ρ) c).loose
  hwaits := Pipeline.hwaits_of_owed_zero _ _ _ _ L lv 3 fun _ _ => rfl
  pre c := iprop(StableHlo.held (c : Thread nD τ) (Pipeline.ucRefs τ sig) (B10 m ρ c) ∗ R c)
  post c := iprop(StableHlo.held (c : Thread nD τ) (Pipeline.ucRefs τ sig) (B11 m ρ c) ∗ R c)
  X c := iprop(∃ r, prngReg c r)
  Y c := iprop(∃ r, prngReg c r)
  Z c := Pipeline.unscopedRest (Ix := Unit) (Name := ℕ) (U := UR sig nD τ) (Lvl := ℕ) spec3 c (E10 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (E10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (E10 m ρ c) (X11 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Reg4.lean ====
import proofs.«154750_j39152921870699_1_alg».proof.Proof.KB.Chain

/-!
# Region 4 as a segment of the program

The region is entered holding every unscoped buffer of the core at the contents of boundary 15, and is left
holding them at the contents of boundary 16.  At entry its arrays are taken out of the unscoped buffers
and handed to the tiled pipeline, whose data is stated at exactly those contents; at exit they are put back at
what the pipeline left, every other buffer not having moved.  The random-number register goes into the
pipeline's invariant and comes back; nothing is owed to another core before or after; the kernel has no
semaphore of its own.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 4: from every unscoped buffer at boundary 15's contents to every unscoped buffer at boundary 16's. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (E15 m ρ) c).loose
  hwaits := Pipeline.hwaits_of_owed_zero _ _ _ _ L lv 4 fun _ _ => rfl
  pre c := iprop(StableHlo.held (c : Thread nD τ) (Pipeline.ucRefs τ sig) (B15 m ρ c) ∗ R c)
  post c := iprop(StableHlo.held (c : Thread nD τ) (Pipeline.ucRefs τ sig) (B16 m ρ c) ∗ R c)
  X c := iprop(∃ r, prngReg c r)
  Y c := iprop(∃ r, prngReg c r)
  Z c := Pipeline.unscopedRest (Ix := Unit) (Name := ℕ) (U := UR sig nD τ) (Lvl := ℕ) spec4 c (E15 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (E15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (E15 m ρ c) (X16 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Reg5.lean ====
import proofs.«154750_j39152921870699_1_alg».proof.Proof.KB.Chain

/-!
# Region 5 as a segment of the program

The region is entered holding every unscoped buffer of the core at the contents of boundary 18, and is left
holding them at the contents of boundary 19.  At entry its arrays are taken out of the unscoped buffers
and handed to the tiled pipeline, whose data is stated at exactly those contents; at exit they are put back at
what the pipeline left, every other buffer not having moved.  The random-number register goes into the
pipeline's invariant and comes back; nothing is owed to another core before or after; the kernel has no
semaphore of its own.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 5: from every unscoped buffer at boundary 18's contents to every unscoped buffer at boundary 19's. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (E18 m ρ) c).loose
  hwaits := Pipeline.hwaits_of_owed_zero _ _ _ _ L lv 5 fun _ _ => rfl
  pre c := iprop(StableHlo.held (c : Thread nD τ) (Pipeline.ucRefs τ sig) (B18 m ρ c) ∗ R c)
  post c := iprop(StableHlo.held (c : Thread nD τ) (Pipeline.ucRefs τ sig) (B19 m ρ c) ∗ R c)
  X c := iprop(∃ r, prngReg c r)
  Y c := iprop(∃ r, prngReg c r)
  Z c := Pipeline.unscopedRest (Ix := Unit) (Name := ℕ) (U := UR sig nD τ) (Lvl := ℕ) spec5 c (E18 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (E18 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (E18 m ρ c) (X19 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Reg6.lean ====
import proofs.«154750_j39152921870699_1_alg».proof.Proof.KB.Chain

/-!
# Region 6 as a segment of the program

The region is entered holding every unscoped buffer of the core at the contents of boundary 20, and is left
holding them at the contents of boundary 21.  At entry its arrays are taken out of the unscoped buffers
and handed to the tiled pipeline, whose data is stated at exactly those contents; at exit they are put back at
what the pipeline left, every other buffer not having moved.  The random-number register goes into the
pipeline's invariant and comes back; nothing is owed to another core before or after; the kernel has no
semaphore of its own.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 6: from every unscoped buffer at boundary 20's contents to every unscoped buffer at boundary 21's. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (E20 m ρ) c).loose
  hwaits := Pipeline.hwaits_of_owed_zero _ _ _ _ L lv 6 fun _ _ => rfl
  pre c := iprop(StableHlo.held (c : Thread nD τ) (Pipeline.ucRefs τ sig) (B20 m ρ c) ∗ R c)
  post c := iprop(StableHlo.held (c : Thread nD τ) (Pipeline.ucRefs τ sig) (B21 m ρ c) ∗ R c)
  X c := iprop(∃ r, prngReg c r)
  Y c := iprop(∃ r, prngReg c r)
  Z c := Pipeline.unscopedRest (Ix := Unit) (Name := ℕ) (U := UR sig nD τ) (Lvl := ℕ) spec6 c (E20 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (E20 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (E20 m ρ c) (X21 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Reg7.lean ====
import proofs.«154750_j39152921870699_1_alg».proof.Proof.KB.Chain

/-!
# Region 7 as a segment of the program

The region is entered holding every unscoped buffer of the core at the contents of boundary 22, and is left
holding them at the contents of boundary 23.  At entry its arrays are taken out of the unscoped buffers
and handed to the tiled pipeline, whose data is stated at exactly those contents; at exit they are put back at
what the pipeline left, every other buffer not having moved.  The random-number register goes into the
pipeline's invariant and comes back; nothing is owed to another core before or after; the kernel has no
semaphore of its own.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 7: from every unscoped buffer at boundary 22's contents to every unscoped buffer at boundary 23's. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (E22 m ρ) c).loose
  hwaits := Pipeline.hwaits_of_owed_zero _ _ _ _ L lv 7 fun _ _ => rfl
  pre c := iprop(StableHlo.held (c : Thread nD τ) (Pipeline.ucRefs τ sig) (B22 m ρ c) ∗ R c)
  post c := iprop(StableHlo.held (c : Thread nD τ) (Pipeline.ucRefs τ sig) (B23 m ρ c) ∗ R c)
  X c := iprop(∃ r, prngReg c r)
  Y c := iprop(∃ r, prngReg c r)
  Z c := Pipeline.unscopedRest (Ix := Unit) (Name := ℕ) (U := UR sig nD τ) (Lvl := ℕ) spec7 c (E22 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (E22 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (E22 m ρ c) (X23 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Reg8.lean ====
import proofs.«154750_j39152921870699_1_alg».proof.Proof.KB.Chain

/-!
# Region 8 as a segment of the program

The region is entered holding every unscoped buffer of the core at the contents of boundary 25, and is left
holding them at the contents of boundary 26.  At entry its arrays are taken out of the unscoped buffers
and handed to the tiled pipeline, whose data is stated at exactly those contents; at exit they are put back at
what the pipeline left, every other buffer not having moved.  The random-number register goes into the
pipeline's invariant and comes back; nothing is owed to another core before or after; the kernel has no
semaphore of its own.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 8: from every unscoped buffer at boundary 25's contents to every unscoped buffer at boundary 26's. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (E25 m ρ) c).loose
  hwaits := Pipeline.hwaits_of_owed_zero _ _ _ _ L lv 8 fun _ _ => rfl
  pre c := iprop(StableHlo.held (c : Thread nD τ) (Pipeline.ucRefs τ sig) (B25 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec8 c (E25 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (E25 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (E25 m ρ c) (X26 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.Kernel.Hand

end
-- ==== Proof.KB.Keep.lean ====
import proofs.«154750_j39152921870699_1_alg».proof.Proof.KB.Chain

/-!
# No segment changes an argument of the program

The program's 25 arguments are the buffers 0 to 24 of the device memory.  Every host operation writes one
buffer, and it is never one of those; a region changes only its output array, which is never one of those
either (the last region reads two arguments, through input windows, and an input array ends as it was
entered).  So at every boundary an argument's buffer holds what it held at the boundary before, and at the end
what it held at launch.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The reference is one of the program's 25 arguments: buffers 0 to 24 of the device memory. -/
def IsArg (r : Ref sig .tc) : Prop := r.space = Space.hbm ∧ r.idx.val < 25

instance : DecidablePred IsArg := fun r => by unfold IsArg; infer_instance

/-- The operation writes no argument. -/
def Keeps (op : HloOp τ sig (Elt F)) : Prop := ∀ r, IsArg r → Proc.devRef (τ := τ) .tc r ∉ op.writes

/-- An operation whose one written buffer is not an argument writes no argument. -/
theorem keeps_single {op : HloOp τ sig (Elt F)} {y : Ref sig .tc}
    (hw : op.writes = {Proc.devRef .tc y}) (hy : ¬ IsArg y) : Keeps op := fun r hr hm => by
  rw [hw, Finset.mem_singleton] at hm
  have e : r = y := Proc.devRef_injective _ hm
  exact hy (e ▸ hr)

/-- A line of operations none of which writes an argument leaves every argument as it was. -/
theorem after_keeps (ops : List (HloOp τ sig (Elt F))) (h : ops.Forall Keeps) (V : Valuation τ sig (Elt F))
    (r : Ref sig .tc) (hr : IsArg r) : StableHlo.after ops V (Proc.devRef .tc r) = V (Proc.devRef .tc r) :=
  StableHlo.after_of_forall_not_mem ops V fun op hop => (List.forall_iff_forall_mem.mp h) op hop r hr

/-! ## The host stretches: each operation's written buffer is looked up and is not an argument -/

theorem main_part0_ops0_keeps : (main_part0_ops0 : List (HloOp τ sig (Elt F))).Forall Keeps := by
  simp only [main_part0_ops0, List.Forall]
  repeat' apply And.intro
  all_goals exact keeps_single rfl (by decide)
theorem main_part1_ops0_keeps : (main_part1_ops0 : List (HloOp τ sig (Elt F))).Forall Keeps := by
  simp only [main_part1_ops0, List.Forall]
  repeat' apply And.intro
  all_goals exact keeps_single rfl (by decide)
theorem main_part2_ops0_keeps : (main_part2_ops0 : List (HloOp τ sig (Elt F))).Forall Keeps := by
  simp only [main_part2_ops0, List.Forall]
  repeat' apply And.intro
  all_goals exact keeps_single rfl (by decide)
theorem main_part2_ops1_keeps : (main_part2_ops1 : List (HloOp τ sig (Elt F))).Forall Keeps := by
  simp only [main_part2_ops1, List.Forall]
  repeat' apply And.intro
  all_goals exact keeps_single rfl (by decide)
theorem main_part3_ops0_keeps : (main_part3_ops0 : List (HloOp τ sig (Elt F))).Forall Keeps := by
  simp only [main_part3_ops0, List.Forall]
  repeat' apply And.intro
  all_goals exact keeps_single rfl (by decide)
theorem main_part3_ops1_keeps : (main_part3_ops1 : List (HloOp τ sig (Elt F))).Forall Keeps := by
  simp only [main_part3_ops1, List.Forall]
  repeat' apply And.intro
  all_goals exact keeps_single rfl (by decide)
theorem main_part3_ops2_keeps : (main_part3_ops2 : List (HloOp τ sig (Elt F))).Forall Keeps := by
  simp only [main_part3_ops2, List.Forall]
  repeat' apply And.intro
  all_goals exact keeps_single rfl (by decide)
theorem main_part3_ops3_keeps : (main_part3_ops3 : List (HloOp τ sig (Elt F))).Forall Keeps := by
  simp only [main_part3_ops3, List.Forall]
  repeat' apply And.intro
  all_goals exact keeps_single rfl (by decide)
theorem main_part4_ops0_keeps : (main_part4_ops0 : List (HloOp τ sig (Elt F))).Forall Keeps := by
  simp only [main_part4_ops0, List.Forall]
  repeat' apply And.intro
  all_goals exact keeps_single rfl (by decide)
theorem main_part5_ops0_keeps : (main_part5_ops0 : List (HloOp τ sig (Elt F))).Forall Keeps := by
  simp only [main_part5_ops0, List.Forall]
  repeat' apply And.intro
  all_goals exact keeps_single rfl (by decide)
theorem main_part6_ops0_keeps : (main_part6_ops0 : List (HloOp τ sig (Elt F))).Forall Keeps := by
  simp only [main_part6_ops0, List.Forall]
  repeat' apply And.intro
  all_goals exact keeps_single rfl (by decide)
theorem main_part6_ops1_keeps : (main_part6_ops1 : List (HloOp τ sig (Elt F))).Forall Keeps := by
  simp only [main_part6_ops1, List.Forall]
  repeat' apply And.intro
  all_goals exact keeps_single rfl (by decide)
theorem main_part7_ops0_keeps : (main_part7_ops0 : List (HloOp τ sig (Elt F))).Forall Keeps := by
  simp only [main_part7_ops0, List.Forall]
  repeat' apply And.intro
  all_goals exact keeps_single rfl (by decide)
theorem main_part7_ops1_keeps : (main_part7_ops1 : List (HloOp τ sig (Elt F))).Forall Keeps := by
  simp only [main_part7_ops1, List.Forall]
  repeat' apply And.intro
  all_goals exact keeps_single rfl (by decide)
theorem main_part7_ops2_keeps : (main_part7_ops2 : List (HloOp τ sig (Elt F))).Forall Keeps := by
  simp only [main_part7_ops2, List.Forall]
  repeat' apply And.intro
  all_goals exact keeps_single rfl (by decide)
theorem main_part7_ops3_keeps : (main_part7_ops3 : List (HloOp τ sig (Elt F))).Forall Keeps := by
  simp only [main_part7_ops3, List.Forall]
  repeat' apply And.intro
  all_goals exact keeps_single rfl (by decide)
theorem main_part8_ops0_keeps : (main_part8_ops0 : List (HloOp τ sig (Elt F))).Forall Keeps := by
  simp only [main_part8_ops0, List.Forall]
  repeat' apply And.intro
  all_goals exact keeps_single rfl (by decide)

/-! ## The regions: no array of regions 0 to 7 is an argument; an array of region 8 that is one is an input -/

theorem arr0_not_arg : ∀ w : Fin cfg0.W, ¬ IsArg (Pipeline.arrRef spec0 w) := by decide
theorem arr1_not_arg : ∀ w : Fin cfg1.W, ¬ IsArg (Pipeline.arrRef spec1 w) := by decide
theorem arr2_not_arg : ∀ w : Fin cfg2.W, ¬ IsArg (Pipeline.arrRef spec2 w) := by decide
theorem arr3_not_arg : ∀ w : Fin cfg3.W, ¬ IsArg (Pipeline.arrRef spec3 w) := by decide
theorem arr4_not_arg : ∀ w : Fin cfg4.W, ¬ IsArg (Pipeline.arrRef spec4 w) := by decide
theorem arr5_not_arg : ∀ w : Fin cfg5.W, ¬ IsArg (Pipeline.arrRef spec5 w) := by decide
theorem arr6_not_arg : ∀ w : Fin cfg6.W, ¬ IsArg (Pipeline.arrRef spec6 w) := by decide
theorem arr7_not_arg : ∀ w : Fin cfg7.W, ¬ IsArg (Pipeline.arrRef spec7 w) := by decide
theorem arr8_in_of_arg : ∀ w : Fin cfg8.W, IsArg (Pipeline.arrRef spec8 w) → (cfg8.win w).isOut = false := by decide

/-! ## Boundary by boundary -/

theorem keep0 (c : Dev nD) (r : Ref sig .tc) (hr : IsArg r) :
    B1 m ρ c (Proc.devRef .tc r) = B0 m ρ c (Proc.devRef .tc r) :=
  after_keeps main_part0_ops0 main_part0_ops0_keeps (B0 m ρ c) r hr
theorem keep1 (c : Dev nD) (r : Ref sig .tc) (hr : IsArg r) :
    B2 m ρ c (Proc.devRef .tc r) = B1 m ρ c (Proc.devRef .tc r) :=
  after_keeps main_part1_ops0 main_part1_ops0_keeps (B1 m ρ c) r hr
theorem keep2 (c : Dev nD) (r : Ref sig .tc) (hr : IsArg r) :
    B3 m ρ c (Proc.devRef .tc r) = B2 m ρ c (Proc.devRef .tc r) :=
  after_keeps main_part2_ops0 main_part2_ops0_keeps (B2 m ρ c) r hr
theorem keep3 (c : Dev nD) (r : Ref sig .tc) (hr : IsArg r) :
    B4 m ρ c (Proc.devRef .tc r) = B3 m ρ c (Proc.devRef .tc r) :=
  B4_of_ne m ρ c r fun w e => arr0_not_arg w (e ▸ hr)
theorem keep4 (c : Dev nD) (r : Ref sig .tc) (hr : IsArg r) :
    B5 m ρ c (Proc.devRef .tc r) = B4 m ρ c (Proc.devRef .tc r) :=
  after_keeps main_part2_ops1 main_part2_ops1_keeps (B4 m ρ c) r hr
theorem keep5 (c : Dev nD) (r : Ref sig .tc) (hr : IsArg r) :
    B6 m ρ c (Proc.devRef .tc r) = B5 m ρ c (Proc.devRef .tc r) :=
  after_keeps main_part3_ops0 main_part3_ops0_keeps (B5 m ρ c) r hr
theorem keep6 (c : Dev nD) (r : Ref sig .tc) (hr : IsArg r) :
    B7 m ρ c (Proc.devRef .tc r) = B6 m ρ c (Proc.devRef .tc r) :=
  B7_of_ne m ρ c r fun w e => arr1_not_arg w (e ▸ hr)
theorem keep7 (c : Dev nD) (r : Ref sig .tc) (hr : IsArg r) :
    B8 m ρ c (Proc.devRef .tc r) = B7 m ρ c (Proc.devRef .tc r) :=
  after_keeps main_part3_ops1 main_part3_ops1_keeps (B7 m ρ c) r hr
theorem keep8 (c : Dev nD) (r : Ref sig .tc) (hr : IsArg r) :
    B9 m ρ c (Proc.devRef .tc r) = B8 m ρ c (Proc.devRef .tc r) :=
  B9_of_ne m ρ c r fun w e => arr2_not_arg w (e ▸ hr)
theorem keep9 (c : Dev nD) (r : Ref sig .tc) (hr : IsArg r) :
    B10 m ρ c (Proc.devRef .tc r) = B9 m ρ c (Proc.devRef .tc r) :=
  after_keeps main_part3_ops2 main_part3_ops2_keeps (B9 m ρ c) r hr
theorem keep10 (c : Dev nD) (r : Ref sig .tc) (hr : IsArg r) :
    B11 m ρ c (Proc.devRef .tc r) = B10 m ρ c (Proc.devRef .tc r) :=
  B11_of_ne m ρ c r fun w e => arr3_not_arg w (e ▸ hr)
theorem keep11 (c : Dev nD) (r : Ref sig .tc) (hr : IsArg r) :
    B12 m ρ c (Proc.devRef .tc r) = B11 m ρ c (Proc.devRef .tc r) :=
  after_keeps main_part3_ops3 main_part3_ops3_keeps (B11 m ρ c) r hr
theorem keep12 (c : Dev nD) (r : Ref sig .tc) (hr : IsArg r) :
    B13 m ρ c (Proc.devRef .tc r) = B12 m ρ c (Proc.devRef .tc r) :=
  after_keeps main_part4_ops0 main_part4_ops0_keeps (B12 m ρ c) r hr
theorem keep13 (c : Dev nD) (r : Ref sig .tc) (hr : IsArg r) :
    B14 m ρ c (Proc.devRef .tc r) = B13 m ρ c (Proc.devRef .tc r) :=
  after_keeps main_part5_ops0 main_part5_ops0_keeps (B13 m ρ c) r hr
theorem keep14 (c : Dev nD) (r : Ref sig .tc) (hr : IsArg r) :
    B15 m ρ c (Proc.devRef .tc r) = B14 m ρ c (Proc.devRef .tc r) :=
  after_keeps main_part6_ops0 main_part6_ops0_keeps (B14 m ρ c) r hr
theorem keep15 (c : Dev nD) (r : Ref sig .tc) (hr : IsArg r) :
    B16 m ρ c (Proc.devRef .tc r) = B15 m ρ c (Proc.devRef .tc r) :=
  B16_of_ne m ρ c r fun w e => arr4_not_arg w (e ▸ hr)
theorem keep16 (c : Dev nD) (r : Ref sig .tc) (hr : IsArg r) :
    B17 m ρ c (Proc.devRef .tc r) = B16 m ρ c (Proc.devRef .tc r) :=
  after_keeps main_part6_ops1 main_part6_ops1_keeps (B16 m ρ c) r hr
theorem keep17 (c : Dev nD) (r : Ref sig .tc) (hr : IsArg r) :
    B18 m ρ c (Proc.devRef .tc r) = B17 m ρ c (Proc.devRef .tc r) :=
  after_keeps main_part7_ops0 main_part7_ops0_keeps (B17 m ρ c) r hr
theorem keep18 (c : Dev nD) (r : Ref sig .tc) (hr : IsArg r) :
    B19 m ρ c (Proc.devRef .tc r) = B18 m ρ c (Proc.devRef .tc r) :=
  B19_of_ne m ρ c r fun w e => arr5_not_arg w (e ▸ hr)
theorem keep19 (c : Dev nD) (r : Ref sig .tc) (hr : IsArg r) :
    B20 m ρ c (Proc.devRef .tc r) = B19 m ρ c (Proc.devRef .tc r) :=
  after_keeps main_part7_ops1 main_part7_ops1_keeps (B19 m ρ c) r hr
theorem keep20 (c : Dev nD) (r : Ref sig .tc) (hr : IsArg r) :
    B21 m ρ c (Proc.devRef .tc r) = B20 m ρ c (Proc.devRef .tc r) :=
  B21_of_ne m ρ c r fun w e => arr6_not_arg w (e ▸ hr)
theorem keep21 (c : Dev nD) (r : Ref sig .tc) (hr : IsArg r) :
    B22 m ρ c (Proc.devRef .tc r) = B21 m ρ c (Proc.devRef .tc r) :=
  after_keeps main_part7_ops2 main_part7_ops2_keeps (B21 m ρ c) r hr
theorem keep22 (c : Dev nD) (r : Ref sig .tc) (hr : IsArg r) :
    B23 m ρ c (Proc.devRef .tc r) = B22 m ρ c (Proc.devRef .tc r) :=
  B23_of_ne m ρ c r fun w e => arr7_not_arg w (e ▸ hr)
theorem keep23 (c : Dev nD) (r : Ref sig .tc) (hr : IsArg r) :
    B24 m ρ c (Proc.devRef .tc r) = B23 m ρ c (Proc.devRef .tc r) :=
  after_keeps main_part7_ops3 main_part7_ops3_keeps (B23 m ρ c) r hr
theorem keep24 (c : Dev nD) (r : Ref sig .tc) (hr : IsArg r) :
    B25 m ρ c (Proc.devRef .tc r) = B24 m ρ c (Proc.devRef .tc r) :=
  after_keeps main_part8_ops0 main_part8_ops0_keeps (B24 m ρ c) r hr
theorem keep25 (c : Dev nD) (r : Ref sig .tc) (hr : IsArg r) :
    B26 m ρ c (Proc.devRef .tc r) = B25 m ρ c (Proc.devRef .tc r) := by
  by_cases h : ∃ w, Pipeline.arrRef spec8 w = r
  · obtain ⟨w, rfl⟩ := h
    exact (B26_arr m ρ c w).trans (((dat8 (E25 m ρ) c).arrAt_in w (arr8_in_of_arg w hr) _).trans (A_eq8 (E25 m ρ) c w))
  · exact B26_of_ne m ρ c r fun w e => h ⟨w, e⟩

/-- An argument's buffer holds at the end what it held at launch. -/
theorem B26_arg (c : Dev nD) (r : Ref sig .tc) (hr : IsArg r) :
    B26 m ρ c (Proc.devRef .tc r) = m ((c : Thread nD τ).loc r) :=
  calc B26 m ρ c (Proc.devRef .tc r)
    _ = B25 m ρ c (Proc.devRef .tc r) := keep25 m ρ c r hr
    _ = B24 m ρ c (Proc.devRef .tc r) := keep24 m ρ c r hr
    _ = B23 m ρ c (Proc.devRef .tc r) := keep23 m ρ c r hr
    _ = B22 m ρ c (Proc.devRef .tc r) := keep22 m ρ c r hr
    _ = B21 m ρ c (Proc.devRef .tc r) := keep21 m ρ c r hr
    _ = B20 m ρ c (Proc.devRef .tc r) := keep20 m ρ c r hr
    _ = B19 m ρ c (Proc.devRef .tc r) := keep19 m ρ c r hr
    _ = B18 m ρ c (Proc.devRef .tc r) := keep18 m ρ c r hr
    _ = B17 m ρ c (Proc.devRef .tc r) := keep17 m ρ c r hr
    _ = B16 m ρ c (Proc.devRef .tc r) := keep16 m ρ c r hr
    _ = B15 m ρ c (Proc.devRef .tc r) := keep15 m ρ c r hr
    _ = B14 m ρ c (Proc.devRef .tc r) := keep14 m ρ c r hr
    _ = B13 m ρ c (Proc.devRef .tc r) := keep13 m ρ c r hr
    _ = B12 m ρ c (Proc.devRef .tc r) := keep12 m ρ c r hr
    _ = B11 m ρ c (Proc.devRef .tc r) := keep11 m ρ c r hr
    _ = B10 m ρ c (Proc.devRef .tc r) := keep10 m ρ c r hr
    _ = B9 m ρ c (Proc.devRef .tc r) := keep9 m ρ c r hr
    _ = B8 m ρ c (Proc.devRef .tc r) := keep8 m ρ c r hr
    _ = B7 m ρ c (Proc.devRef .tc r) := keep7 m ρ c r hr
    _ = B6 m ρ c (Proc.devRef .tc r) := keep6 m ρ c r hr
    _ = B5 m ρ c (Proc.devRef .tc r) := keep5 m ρ c r hr
    _ = B4 m ρ c (Proc.devRef .tc r) := keep4 m ρ c r hr
    _ = B3 m ρ c (Proc.devRef .tc r) := keep3 m ρ c r hr
    _ = B2 m ρ c (Proc.devRef .tc r) := keep2 m ρ c r hr
    _ = B1 m ρ c (Proc.devRef .tc r) := keep1 m ρ c r hr
    _ = B0 m ρ c (Proc.devRef .tc r) := keep0 m ρ c r hr
    _ = m ((c : Thread nD τ).loc r) := rfl

end Cert.Kernel.Hand

end
-- ==== Proof.KB.Run.lean ====
import proofs.«154750_j39152921870699_1_alg».proof.Proof.KB.Reg0
import proofs.«154750_j39152921870699_1_alg».proof.Proof.KB.Reg1
import proofs.«154750_j39152921870699_1_alg».proof.Proof.KB.Reg2
import proofs.«154750_j39152921870699_1_alg».proof.Proof.KB.Reg3
import proofs.«154750_j39152921870699_1_alg».proof.Proof.KB.Reg4
import proofs.«154750_j39152921870699_1_alg».proof.Proof.KB.Reg5
import proofs.«154750_j39152921870699_1_alg».proof.Proof.KB.Reg6
import proofs.«154750_j39152921870699_1_alg».proof.Proof.KB.Reg7
import proofs.«154750_j39152921870699_1_alg».proof.Proof.KB.Reg8
import proofs.«154750_j39152921870699_1_alg».proof.Proof.KB.Keep

/-!
# The whole run

The program is the chain of its 26 segments, each entered with what the one before left.  Launched on any
memory with every counter at zero, every weakly fair execution therefore terminates without a fault, and at the
end every unscoped buffer of the core holds the contents of the last boundary.  Since no segment changes an
argument's buffer, the arguments end as they were launched.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program's 26 segments in order. -/
abbrev segs : List (Pipeline.Seg (pcfgs (F := F)) adm (pdats m ρ) () defs₀ 𝒱₀ L lv) :=
  [ .host (hseg main_part0_ops0 main_part0_ops0_sub main_part0_ops0_fresh (B0 m ρ)),
    .host (hseg main_part1_ops0 main_part1_ops0_sub main_part1_ops0_fresh (B1 m ρ)),
    .host (hseg main_part2_ops0 main_part2_ops0_sub main_part2_ops0_fresh (B2 m ρ)),
    .region (reg0 m ρ),
    .host (hseg main_part2_ops1 main_part2_ops1_sub main_part2_ops1_fresh (B4 m ρ)),
    .host (hseg main_part3_ops0 main_part3_ops0_sub main_part3_ops0_fresh (B5 m ρ)),
    .region (reg1 m ρ),
    .host (hseg main_part3_ops1 main_part3_ops1_sub main_part3_ops1_fresh (B7 m ρ)),
    .region (reg2 m ρ),
    .host (hseg main_part3_ops2 main_part3_ops2_sub main_part3_ops2_fresh (B9 m ρ)),
    .region (reg3 m ρ),
    .host (hseg main_part3_ops3 main_part3_ops3_sub main_part3_ops3_fresh (B11 m ρ)),
    .host (hseg main_part4_ops0 main_part4_ops0_sub main_part4_ops0_fresh (B12 m ρ)),
    .host (hseg main_part5_ops0 main_part5_ops0_sub main_part5_ops0_fresh (B13 m ρ)),
    .host (hseg main_part6_ops0 main_part6_ops0_sub main_part6_ops0_fresh (B14 m ρ)),
    .region (reg4 m ρ),
    .host (hseg main_part6_ops1 main_part6_ops1_sub main_part6_ops1_fresh (B16 m ρ)),
    .host (hseg main_part7_ops0 main_part7_ops0_sub main_part7_ops0_fresh (B17 m ρ)),
    .region (reg5 m ρ),
    .host (hseg main_part7_ops1 main_part7_ops1_sub main_part7_ops1_fresh (B19 m ρ)),
    .region (reg6 m ρ),
    .host (hseg main_part7_ops2 main_part7_ops2_sub main_part7_ops2_fresh (B21 m ρ)),
    .region (reg7 m ρ),
    .host (hseg main_part7_ops3 main_part7_ops3_sub main_part7_ops3_fresh (B23 m ρ)),
    .host (hseg main_part8_ops0 main_part8_ops0_sub main_part8_ops0_fresh (B24 m ρ)),
    .region (reg8 m ρ) ]

/-- The program is the run of its segments. -/
theorem main_run (c : Dev nD) : main (F := F) c = Pipeline.Seg.run (segs m ρ) := (main_chain_windows c).trans (by chain_rfl)

set_option backward.isDefEq.respectTransparency.types false in
/-- From any memory with zero counters every weakly fair execution of the program terminates, nothing faulting,
    and every final state has every unscoped buffer of the core at the contents of the last boundary. -/
theorem run_main : θ_run defs (onTc (τ := τ) (main (F := F))) ⟨m, fun _ => 0, ρ⟩
    (fun r => ∀ c : Dev nD, ∀ b ∈ Pipeline.ucRefs τ sig, r.2.mem (((c : Thread nD τ)).1, b) = B26 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B26 m ρ c b)
    (hfin := fun c s' => by
      iintro ⟨⟨Hh, -⟩, HSI⟩
      unfold StableHlo.held
      imodintro
      iapply (pointsTo_read_all (Pipeline.ucRefs τ sig) (fun b => (((c : Thread nD τ)).1, b)) (B26 m ρ c) s')
      isplitl [Hh] <;> iassumption)
    (hQ := fun s h => h)

/-! ## The arguments end as launched -/

theorem B26_main_arg0 (c : Dev nD) : B26 m ρ c (Proc.devRef .tc main_arg0) = m ((c : Thread nD τ).loc main_arg0) :=
  B26_arg m ρ c main_arg0 (by decide)
theorem B26_main_arg1 (c : Dev nD) : B26 m ρ c (Proc.devRef .tc main_arg1) = m ((c : Thread nD τ).loc main_arg1) :=
  B26_arg m ρ c main_arg1 (by decide)
theorem B26_main_arg2 (c : Dev nD) : B26 m ρ c (Proc.devRef .tc main_arg2) = m ((c : Thread nD τ).loc main_arg2) :=
  B26_arg m ρ c main_arg2 (by decide)
theorem B26_main_arg3 (c : Dev nD) : B26 m ρ c (Proc.devRef .tc main_arg3) = m ((c : Thread nD τ).loc main_arg3) :=
  B26_arg m ρ c main_arg3 (by decide)
theorem B26_main_arg4 (c : Dev nD) : B26 m ρ c (Proc.devRef .tc main_arg4) = m ((c : Thread nD τ).loc main_arg4) :=
  B26_arg m ρ c main_arg4 (by decide)
theorem B26_main_arg5 (c : Dev nD) : B26 m ρ c (Proc.devRef .tc main_arg5) = m ((c : Thread nD τ).loc main_arg5) :=
  B26_arg m ρ c main_arg5 (by decide)
theorem B26_main_arg6 (c : Dev nD) : B26 m ρ c (Proc.devRef .tc main_arg6) = m ((c : Thread nD τ).loc main_arg6) :=
  B26_arg m ρ c main_arg6 (by decide)
theorem B26_main_arg7 (c : Dev nD) : B26 m ρ c (Proc.devRef .tc main_arg7) = m ((c : Thread nD τ).loc main_arg7) :=
  B26_arg m ρ c main_arg7 (by decide)
theorem B26_main_arg8 (c : Dev nD) : B26 m ρ c (Proc.devRef .tc main_arg8) = m ((c : Thread nD τ).loc main_arg8) :=
  B26_arg m ρ c main_arg8 (by decide)
theorem B26_main_arg9 (c : Dev nD) : B26 m ρ c (Proc.devRef .tc main_arg9) = m ((c : Thread nD τ).loc main_arg9) :=
  B26_arg m ρ c main_arg9 (by decide)
theorem B26_main_arg10 (c : Dev nD) : B26 m ρ c (Proc.devRef .tc main_arg10) = m ((c : Thread nD τ).loc main_arg10) :=
  B26_arg m ρ c main_arg10 (by decide)
theorem B26_main_arg11 (c : Dev nD) : B26 m ρ c (Proc.devRef .tc main_arg11) = m ((c : Thread nD τ).loc main_arg11) :=
  B26_arg m ρ c main_arg11 (by decide)
theorem B26_main_arg12 (c : Dev nD) : B26 m ρ c (Proc.devRef .tc main_arg12) = m ((c : Thread nD τ).loc main_arg12) :=
  B26_arg m ρ c main_arg12 (by decide)
theorem B26_main_arg13 (c : Dev nD) : B26 m ρ c (Proc.devRef .tc main_arg13) = m ((c : Thread nD τ).loc main_arg13) :=
  B26_arg m ρ c main_arg13 (by decide)
theorem B26_main_arg14 (c : Dev nD) : B26 m ρ c (Proc.devRef .tc main_arg14) = m ((c : Thread nD τ).loc main_arg14) :=
  B26_arg m ρ c main_arg14 (by decide)
theorem B26_main_arg15 (c : Dev nD) : B26 m ρ c (Proc.devRef .tc main_arg15) = m ((c : Thread nD τ).loc main_arg15) :=
  B26_arg m ρ c main_arg15 (by decide)
theorem B26_main_arg16 (c : Dev nD) : B26 m ρ c (Proc.devRef .tc main_arg16) = m ((c : Thread nD τ).loc main_arg16) :=
  B26_arg m ρ c main_arg16 (by decide)
theorem B26_main_arg17 (c : Dev nD) : B26 m ρ c (Proc.devRef .tc main_arg17) = m ((c : Thread nD τ).loc main_arg17) :=
  B26_arg m ρ c main_arg17 (by decide)
theorem B26_main_arg18 (c : Dev nD) : B26 m ρ c (Proc.devRef .tc main_arg18) = m ((c : Thread nD τ).loc main_arg18) :=
  B26_arg m ρ c main_arg18 (by decide)
theorem B26_main_arg19 (c : Dev nD) : B26 m ρ c (Proc.devRef .tc main_arg19) = m ((c : Thread nD τ).loc main_arg19) :=
  B26_arg m ρ c main_arg19 (by decide)
theorem B26_main_arg20 (c : Dev nD) : B26 m ρ c (Proc.devRef .tc main_arg20) = m ((c : Thread nD τ).loc main_arg20) :=
  B26_arg m ρ c main_arg20 (by decide)
theorem B26_main_arg21 (c : Dev nD) : B26 m ρ c (Proc.devRef .tc main_arg21) = m ((c : Thread nD τ).loc main_arg21) :=
  B26_arg m ρ c main_arg21 (by decide)
theorem B26_main_arg22 (c : Dev nD) : B26 m ρ c (Proc.devRef .tc main_arg22) = m ((c : Thread nD τ).loc main_arg22) :=
  B26_arg m ρ c main_arg22 (by decide)
theorem B26_main_arg23 (c : Dev nD) : B26 m ρ c (Proc.devRef .tc main_arg23) = m ((c : Thread nD τ).loc main_arg23) :=
  B26_arg m ρ c main_arg23 (by decide)
theorem B26_main_arg24 (c : Dev nD) : B26 m ρ c (Proc.devRef .tc main_arg24) = m ((c : Thread nD τ).loc main_arg24) :=
  B26_arg m ρ c main_arg24 (by decide)

/-- The frame: the program runs to its end from any memory with zero counters, and its argument arrays end
    unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun r h c =>
    ⟨(h c _ (mem_uc main_arg0 (by decide))).trans (B26_main_arg0 m ρ c),
     (h c _ (mem_uc main_arg1 (by decide))).trans (B26_main_arg1 m ρ c),
     (h c _ (mem_uc main_arg2 (by decide))).trans (B26_main_arg2 m ρ c),
     (h c _ (mem_uc main_arg3 (by decide))).trans (B26_main_arg3 m ρ c),
     (h c _ (mem_uc main_arg4 (by decide))).trans (B26_main_arg4 m ρ c),
     (h c _ (mem_uc main_arg5 (by decide))).trans (B26_main_arg5 m ρ c),
     (h c _ (mem_uc main_arg6 (by decide))).trans (B26_main_arg6 m ρ c),
     (h c _ (mem_uc main_arg7 (by decide))).trans (B26_main_arg7 m ρ c),
     (h c _ (mem_uc main_arg8 (by decide))).trans (B26_main_arg8 m ρ c),
     (h c _ (mem_uc main_arg9 (by decide))).trans (B26_main_arg9 m ρ c),
     (h c _ (mem_uc main_arg10 (by decide))).trans (B26_main_arg10 m ρ c),
     (h c _ (mem_uc main_arg11 (by decide))).trans (B26_main_arg11 m ρ c),
     (h c _ (mem_uc main_arg12 (by decide))).trans (B26_main_arg12 m ρ c),
     (h c _ (mem_uc main_arg13 (by decide))).trans (B26_main_arg13 m ρ c),
     (h c _ (mem_uc main_arg14 (by decide))).trans (B26_main_arg14 m ρ c),
     (h c _ (mem_uc main_arg15 (by decide))).trans (B26_main_arg15 m ρ c),
     (h c _ (mem_uc main_arg16 (by decide))).trans (B26_main_arg16 m ρ c),
     (h c _ (mem_uc main_arg17 (by decide))).trans (B26_main_arg17 m ρ c),
     (h c _ (mem_uc main_arg18 (by decide))).trans (B26_main_arg18 m ρ c),
     (h c _ (mem_uc main_arg19 (by decide))).trans (B26_main_arg19 m ρ c),
     (h c _ (mem_uc main_arg20 (by decide))).trans (B26_main_arg20 m ρ c),
     (h c _ (mem_uc main_arg21 (by decide))).trans (B26_main_arg21 m ρ c),
     (h c _ (mem_uc main_arg22 (by decide))).trans (B26_main_arg22 m ρ c),
     (h c _ (mem_uc main_arg23 (by decide))).trans (B26_main_arg23 m ρ c),
     (h c _ (mem_uc main_arg24 (by decide))).trans (B26_main_arg24 m ρ c)⟩) (run_main m ρ)

end Cert.Kernel.Hand

end
-- ==== Proof.KI.Body0.lean ====
import proofs.«154750_j39152921870699_1_alg».proof.Proof.Gen.KernelIdeal.Launch
import proofs.«154750_j39152921870699_1_alg».proof.Proof.Gen.KernelIdeal.Skeleton
import proofs.«154750_j39152921870699_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 0: one dense layer on a tile of rows

The region walks over the rows of a matrix `X` in tiles of 2000 rows.  At every tile it multiplies the
tile `[2000, 192]` by the whole weight matrix `W : [192, 64]`, adds the bias row `b : [1, 64]` to every
row of the product, clamps below at zero, and writes the `[2000, 64]` result to the matching tile of the
output.  The weights and the bias are the same block at every tile; only the tile of `X` and the tile of the
output move.

This file says what each of the four windows' buffers holds when the tile's computation starts and when it
ends, as a function of the arrays the region was entered with (`V`), and proves that the computation, run on
buffers holding the former, leaves the latter: the three inputs as they were, the output tile equal to the
stored value, which depends on the three input blocks only (the old contents of the output tile are read and
dropped).
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of the core when the region is entered: everything below is a function of them
variable (V : (c : Dev nD) → (b : Ref sig .tc) → Buf (Elt F) ((c : Thread nD τ).loc b))

/-! ## The blocks and the stored value -/

/-- The block of window `w` at grid point `t`: the part of the window's array, as the region found it, that the
    window's index map selects at `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole of each buffer, as a rectangle: every load and the one store of the computation go through these. -/
abbrev rx0 : Rect S2000x192 := Rect.unit (s := S2000x192) ![0, 0] S2000x192.size inb_S2000x192_S2000x192_0_0
abbrev rw0 : Rect S192x64 := Rect.unit (s := S192x64) ![0, 0] S192x64.size inb_S192x64_S192x64_0_0
abbrev rb0 : Rect S1x64 := Rect.unit (s := S1x64) ![0, 0] S1x64.size inb_S1x64_S1x64_0_0
abbrev ro0 : Rect S2000x64 := Rect.unit (s := S2000x64) ![0, 0] S2000x64.size inb_S2000x64_S2000x64_0_0

/-- The output tile after the computation, from the three input blocks: the one store's value laid over the
    whole tile. -/
def out0 (x0 : Vec F S2000x192 .f32) (x1 : Vec F S192x64 .f32) (x2 : Vec F S1x64 .f32) : Vec F S2000x64 .f32 :=
  View.canon [⟨ro0, k0_pay1 (View.ld x0 rx0) (View.ld x1 rw0) (View.ld x2 rb0)⟩]

/-! ## The proof data of the region -/

/-- What the region's invariant is stated over: the four arrays as the region found them; after the computation
    at point `t` each input buffer still at its block and the output buffer at `out0` of the three input blocks;
    nothing else of the core is touched, nothing is owed, and every buffer is held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 (iblk0 V c 0 t) (iblk0 V c 1 t) (iblk0 V c 2 t)
  Φ _ := Pipeline.ΦA spec0 c
  q _ := fullShare
  owed _ := 0

/-- The data's arrays are the entry contents. -/
theorem A_eq0 (c : Dev nD) (w : Fin cfg0.W) : (dat0 V c).A w = V c (Pipeline.arrRef spec0 w) := by
  dsimp only [dat0]

/-- What the computation leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_out (c : Dev nD) (t : Fin cfg0.N) :
    (dat0 V c).after 3 t = out0 (iblk0 V c 0 t) (iblk0 V c 1 t) (iblk0 V c 2 t) := by dsimp only [dat0]

/-! ## What the computation finds in the input buffers

An input window's buffer is refilled only when the window's block index moves.  The tile of `X` moves at every
point; the weights and the bias never move after the first point, and their buffers keep what the first point
brought in, because the computation leaves every input buffer as it found it.  Either way the buffer holds the
window's block at the point. -/

theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-! ## The computation on four whole buffers -/

/-- The one store covers the whole output tile. -/
theorem cover0 (p0 : Vec F S2000x64 .f32) (y : S2000x64.Idx) :
    ∃ pc ∈ ([⟨ro0, p0⟩] : List (View.Piece (Elt F) S2000x64 .f32)), y ∈ pc.1.set :=
  View.cover_of_tiled [⟨ro0, p0⟩] S2000x64.size (by rfl) y

set_option maxHeartbeats 1000000 in
/-- Run on whole buffers, the three inputs reading `x0`, `x1`, `x2` and the output holding anything, the
    computation ends with the inputs unchanged and the output reading `out0 x0 x1 x2`: it loads the four buffers
    whole, and stores over the whole output the value computed from the first three loads. -/
theorem sound_kernel0 (c : Dev nD) (E : Set ℕ) (i : grid0.Coords)
    (arg1 : Memref sig .tc .vmem S2000x192 .f32) (harg1 : arg1.IsWhole) (arg2 : Memref sig .tc .vmem S192x64 .f32) (harg2 : arg2.IsWhole)
    (arg3 : Memref sig .tc .vmem S1x64 .f32) (harg3 : arg3.IsWhole) (arg4 : Memref sig .tc .vmem S2000x64 .f32) (harg4 : arg4.IsWhole)
    (x0 : Vec F S2000x192 .f32) (x1 : Vec F S192x64 .f32) (x2 : Vec F S1x64 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out0 x0 x1 x2)) -∗ K ⟨⟩))
      ⊢ wp frame (wpE (defs₀ (F := F)) Variants.none c none) E (cc0_kernel i arg1 harg1 arg2 harg2 arg3 harg3 arg4 harg4) K := by
  simp only [cc0_kernel_eq_skeleton]; unfold cc0_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0 _)

/-! ## The computation at a grid point -/

/-- What the computation is handed at point `t`: the region's invariant and its debts, and the four windows'
    current buffers at what they hold before it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it hands back: the same, the buffers at what they hold after it. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- At any point the input buffers hold their blocks, so the run on whole buffers applies; the invariant and the
    debts are not looked at. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_out]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The computation at every grid point takes the buffers from their state before it to their state after it. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Body1.lean ====
import proofs.«154750_j39152921870699_1_alg».proof.Proof.Gen.KernelIdeal.Launch
import proofs.«154750_j39152921870699_1_alg».proof.Proof.Gen.KernelIdeal.Skeleton
import proofs.«154750_j39152921870699_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 1: one dense layer on a tile of rows

The region walks over the rows of a matrix `X` in tiles of 2000 rows.  At every tile it multiplies the
tile `[2000, 192]` by the whole weight matrix `W : [192, 64]`, adds the bias row `b : [1, 64]` to every
row of the product, clamps below at zero, and writes the `[2000, 64]` result to the matching tile of the
output.  The weights and the bias are the same block at every tile; only the tile of `X` and the tile of the
output move.

This file says what each of the four windows' buffers holds when the tile's computation starts and when it
ends, as a function of the arrays the region was entered with (`V`), and proves that the computation, run on
buffers holding the former, leaves the latter: the three inputs as they were, the output tile equal to the
stored value, which depends on the three input blocks only (the old contents of the output tile are read and
dropped).
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of the core when the region is entered: everything below is a function of them
variable (V : (c : Dev nD) → (b : Ref sig .tc) → Buf (Elt F) ((c : Thread nD τ).loc b))

/-! ## The blocks and the stored value -/

/-- The block of window `w` at grid point `t`: the part of the window's array, as the region found it, that the
    window's index map selects at `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole of each buffer, as a rectangle: every load and the one store of the computation go through these. -/
abbrev rx1 : Rect S2000x192 := Rect.unit (s := S2000x192) ![0, 0] S2000x192.size inb_S2000x192_S2000x192_0_0
abbrev rw1 : Rect S192x64 := Rect.unit (s := S192x64) ![0, 0] S192x64.size inb_S192x64_S192x64_0_0
abbrev rb1 : Rect S1x64 := Rect.unit (s := S1x64) ![0, 0] S1x64.size inb_S1x64_S1x64_0_0
abbrev ro1 : Rect S2000x64 := Rect.unit (s := S2000x64) ![0, 0] S2000x64.size inb_S2000x64_S2000x64_0_0

/-- The output tile after the computation, from the three input blocks: the one store's value laid over the
    whole tile. -/
def out1 (x0 : Vec F S2000x192 .f32) (x1 : Vec F S192x64 .f32) (x2 : Vec F S1x64 .f32) : Vec F S2000x64 .f32 :=
  View.canon [⟨ro1, k1_pay1 (View.ld x0 rx1) (View.ld x1 rw1) (View.ld x2 rb1)⟩]

/-! ## The proof data of the region -/

/-- What the region's invariant is stated over: the four arrays as the region found them; after the computation
    at point `t` each input buffer still at its block and the output buffer at `out1` of the three input blocks;
    nothing else of the core is touched, nothing is owed, and every buffer is held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 (iblk1 V c 0 t) (iblk1 V c 1 t) (iblk1 V c 2 t)
  Φ _ := Pipeline.ΦA spec1 c
  q _ := fullShare
  owed _ := 0

/-- The data's arrays are the entry contents. -/
theorem A_eq1 (c : Dev nD) (w : Fin cfg1.W) : (dat1 V c).A w = V c (Pipeline.arrRef spec1 w) := by
  dsimp only [dat1]

/-- What the computation leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_out (c : Dev nD) (t : Fin cfg1.N) :
    (dat1 V c).after 3 t = out1 (iblk1 V c 0 t) (iblk1 V c 1 t) (iblk1 V c 2 t) := by dsimp only [dat1]

/-! ## What the computation finds in the input buffers

An input window's buffer is refilled only when the window's block index moves.  The tile of `X` moves at every
point; the weights and the bias never move after the first point, and their buffers keep what the first point
brought in, because the computation leaves every input buffer as it found it.  Either way the buffer holds the
window's block at the point. -/

theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

/-! ## The computation on four whole buffers -/

/-- The one store covers the whole output tile. -/
theorem cover1 (p0 : Vec F S2000x64 .f32) (y : S2000x64.Idx) :
    ∃ pc ∈ ([⟨ro1, p0⟩] : List (View.Piece (Elt F) S2000x64 .f32)), y ∈ pc.1.set :=
  View.cover_of_tiled [⟨ro1, p0⟩] S2000x64.size (by rfl) y

set_option maxHeartbeats 1000000 in
/-- Run on whole buffers, the three inputs reading `x0`, `x1`, `x2` and the output holding anything, the
    computation ends with the inputs unchanged and the output reading `out1 x0 x1 x2`: it loads the four buffers
    whole, and stores over the whole output the value computed from the first three loads. -/
theorem sound_kernel1 (c : Dev nD) (E : Set ℕ) (i : grid1.Coords)
    (arg1 : Memref sig .tc .vmem S2000x192 .f32) (harg1 : arg1.IsWhole) (arg2 : Memref sig .tc .vmem S192x64 .f32) (harg2 : arg2.IsWhole)
    (arg3 : Memref sig .tc .vmem S1x64 .f32) (harg3 : arg3.IsWhole) (arg4 : Memref sig .tc .vmem S2000x64 .f32) (harg4 : arg4.IsWhole)
    (x0 : Vec F S2000x192 .f32) (x1 : Vec F S192x64 .f32) (x2 : Vec F S1x64 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out1 x0 x1 x2)) -∗ K ⟨⟩))
      ⊢ wp frame (wpE (defs₀ (F := F)) Variants.none c none) E (cc1_kernel i arg1 harg1 arg2 harg2 arg3 harg3 arg4 harg4) K := by
  simp only [cc1_kernel_eq_skeleton]; unfold cc1_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1 _)

/-! ## The computation at a grid point -/

/-- What the computation is handed at point `t`: the region's invariant and its debts, and the four windows'
    current buffers at what they hold before it, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it hands back: the same, the buffers at what they hold after it. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- At any point the input buffers hold their blocks, so the run on whole buffers applies; the invariant and the
    debts are not looked at. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_out]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The computation at every grid point takes the buffers from their state before it to their state after it. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Body2.lean ====
import proofs.«154750_j39152921870699_1_alg».proof.Proof.Gen.KernelIdeal.Launch
import proofs.«154750_j39152921870699_1_alg».proof.Proof.Gen.KernelIdeal.Skeleton
import proofs.«154750_j39152921870699_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 2: one dense layer on a tile of rows

The region walks over the rows of a matrix `X` in tiles of 2000 rows.  At every tile it multiplies the
tile `[2000, 128]` by the whole weight matrix `W : [128, 64]`, adds the bias row `b : [1, 64]` to every
row of the product, clamps below at zero, and writes the `[2000, 64]` result to the matching tile of the
output.  The weights and the bias are the same block at every tile; only the tile of `X` and the tile of the
output move.

This file says what each of the four windows' buffers holds when the tile's computation starts and when it
ends, as a function of the arrays the region was entered with (`V`), and proves that the computation, run on
buffers holding the former, leaves the latter: the three inputs as they were, the output tile equal to the
stored value, which depends on the three input blocks only (the old contents of the output tile are read and
dropped).
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of the core when the region is entered: everything below is a function of them
variable (V : (c : Dev nD) → (b : Ref sig .tc) → Buf (Elt F) ((c : Thread nD τ).loc b))

/-! ## The blocks and the stored value -/

/-- The block of window `w` at grid point `t`: the part of the window's array, as the region found it, that the
    window's index map selects at `t`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole of each buffer, as a rectangle: every load and the one store of the computation go through these. -/
abbrev rx2 : Rect S2000x128 := Rect.unit (s := S2000x128) ![0, 0] S2000x128.size inb_S2000x128_S2000x128_0_0
abbrev rw2 : Rect S128x64 := Rect.unit (s := S128x64) ![0, 0] S128x64.size inb_S128x64_S128x64_0_0
abbrev rb2 : Rect S1x64 := Rect.unit (s := S1x64) ![0, 0] S1x64.size inb_S1x64_S1x64_0_0
abbrev ro2 : Rect S2000x64 := Rect.unit (s := S2000x64) ![0, 0] S2000x64.size inb_S2000x64_S2000x64_0_0

/-- The output tile after the computation, from the three input blocks: the one store's value laid over the
    whole tile. -/
def out2 (x0 : Vec F S2000x128 .f32) (x1 : Vec F S128x64 .f32) (x2 : Vec F S1x64 .f32) : Vec F S2000x64 .f32 :=
  View.canon [⟨ro2, k2_pay1 (View.ld x0 rx2) (View.ld x1 rw2) (View.ld x2 rb2)⟩]

/-! ## The proof data of the region -/

/-- What the region's invariant is stated over: the four arrays as the region found them; after the computation
    at point `t` each input buffer still at its block and the output buffer at `out2` of the three input blocks;
    nothing else of the core is touched, nothing is owed, and every buffer is held whole. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2 (iblk2 V c 0 t) (iblk2 V c 1 t) (iblk2 V c 2 t)
  Φ _ := Pipeline.ΦA spec2 c
  q _ := fullShare
  owed _ := 0

/-- The data's arrays are the entry contents. -/
theorem A_eq2 (c : Dev nD) (w : Fin cfg2.W) : (dat2 V c).A w = V c (Pipeline.arrRef spec2 w) := by
  dsimp only [dat2]

/-- What the computation leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_out (c : Dev nD) (t : Fin cfg2.N) :
    (dat2 V c).after 3 t = out2 (iblk2 V c 0 t) (iblk2 V c 1 t) (iblk2 V c 2 t) := by dsimp only [dat2]

/-! ## What the computation finds in the input buffers

An input window's buffer is refilled only when the window's block index moves.  The tile of `X` moves at every
point; the weights and the bias never move after the first point, and their buffers keep what the first point
brought in, because the computation leaves every input buffer as it found it.  Either way the buffer holds the
window's block at the point. -/

theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
      (fun t => by rw [after2_2]; unfold Dat.blockOf iblk2; rw [A_eq2]; try rfl) t d).trans
    (by unfold Dat.fetched Dat.blockOf iblk2; rw [A_eq2]; try rfl)

/-! ## The computation on four whole buffers -/

/-- The one store covers the whole output tile. -/
theorem cover2 (p0 : Vec F S2000x64 .f32) (y : S2000x64.Idx) :
    ∃ pc ∈ ([⟨ro2, p0⟩] : List (View.Piece (Elt F) S2000x64 .f32)), y ∈ pc.1.set :=
  View.cover_of_tiled [⟨ro2, p0⟩] S2000x64.size (by rfl) y

set_option maxHeartbeats 1000000 in
/-- Run on whole buffers, the three inputs reading `x0`, `x1`, `x2` and the output holding anything, the
    computation ends with the inputs unchanged and the output reading `out2 x0 x1 x2`: it loads the four buffers
    whole, and stores over the whole output the value computed from the first three loads. -/
theorem sound_kernel2 (c : Dev nD) (E : Set ℕ) (i : grid2.Coords)
    (arg1 : Memref sig .tc .vmem S2000x128 .f32) (harg1 : arg1.IsWhole) (arg2 : Memref sig .tc .vmem S128x64 .f32) (harg2 : arg2.IsWhole)
    (arg3 : Memref sig .tc .vmem S1x64 .f32) (harg3 : arg3.IsWhole) (arg4 : Memref sig .tc .vmem S2000x64 .f32) (harg4 : arg4.IsWhole)
    (x0 : Vec F S2000x128 .f32) (x1 : Vec F S128x64 .f32) (x2 : Vec F S1x64 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out2 x0 x1 x2)) -∗ K ⟨⟩))
      ⊢ wp frame (wpE (defs₀ (F := F)) Variants.none c none) E (cc2_kernel i arg1 harg1 arg2 harg2 arg3 harg3 arg4 harg4) K := by
  simp only [cc2_kernel_eq_skeleton]; unfold cc2_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2 _)

/-! ## The computation at a grid point -/

/-- What the computation is handed at point `t`: the region's invariant and its debts, and the four windows'
    current buffers at what they hold before it, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it hands back: the same, the buffers at what they hold after it. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- At any point the input buffers hold their blocks, so the run on whole buffers applies; the invariant and the
    debts are not looked at. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_out]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The computation at every grid point takes the buffers from their state before it to their state after it. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Body3.lean ====
import proofs.«154750_j39152921870699_1_alg».proof.Proof.Gen.KernelIdeal.Launch
import proofs.«154750_j39152921870699_1_alg».proof.Proof.Gen.KernelIdeal.Skeleton
import proofs.«154750_j39152921870699_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 3: one dense layer on a tile of rows

The region walks over the rows of a matrix `X` in tiles of 1000 rows.  At every tile it multiplies the
tile `[1000, 128]` by the whole weight matrix `W : [128, 64]`, adds the bias row `b : [1, 64]` to every
row of the product, clamps below at zero, and writes the `[1000, 64]` result to the matching tile of the
output.  The weights and the bias are the same block at every tile; only the tile of `X` and the tile of the
output move.

This file says what each of the four windows' buffers holds when the tile's computation starts and when it
ends, as a function of the arrays the region was entered with (`V`), and proves that the computation, run on
buffers holding the former, leaves the latter: the three inputs as they were, the output tile equal to the
stored value, which depends on the three input blocks only (the old contents of the output tile are read and
dropped).
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of the core when the region is entered: everything below is a function of them
variable (V : (c : Dev nD) → (b : Ref sig .tc) → Buf (Elt F) ((c : Thread nD τ).loc b))

/-! ## The blocks and the stored value -/

/-- The block of window `w` at grid point `t`: the part of the window's array, as the region found it, that the
    window's index map selects at `t`. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The whole of each buffer, as a rectangle: every load and the one store of the computation go through these. -/
abbrev rx3 : Rect S1000x128 := Rect.unit (s := S1000x128) ![0, 0] S1000x128.size inb_S1000x128_S1000x128_0_0
abbrev rw3 : Rect S128x64 := Rect.unit (s := S128x64) ![0, 0] S128x64.size inb_S128x64_S128x64_0_0
abbrev rb3 : Rect S1x64 := Rect.unit (s := S1x64) ![0, 0] S1x64.size inb_S1x64_S1x64_0_0
abbrev ro3 : Rect S1000x64 := Rect.unit (s := S1000x64) ![0, 0] S1000x64.size inb_S1000x64_S1000x64_0_0

/-- The output tile after the computation, from the three input blocks: the one store's value laid over the
    whole tile. -/
def out3 (x0 : Vec F S1000x128 .f32) (x1 : Vec F S128x64 .f32) (x2 : Vec F S1x64 .f32) : Vec F S1000x64 .f32 :=
  View.canon [⟨ro3, k3_pay1 (View.ld x0 rx3) (View.ld x1 rw3) (View.ld x2 rb3)⟩]

/-! ## The proof data of the region -/

/-- What the region's invariant is stated over: the four arrays as the region found them; after the computation
    at point `t` each input buffer still at its block and the output buffer at `out3` of the three input blocks;
    nothing else of the core is touched, nothing is owed, and every buffer is held whole. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3 (iblk3 V c 0 t) (iblk3 V c 1 t) (iblk3 V c 2 t)
  Φ _ := Pipeline.ΦA spec3 c
  q _ := fullShare
  owed _ := 0

/-- The data's arrays are the entry contents. -/
theorem A_eq3 (c : Dev nD) (w : Fin cfg3.W) : (dat3 V c).A w = V c (Pipeline.arrRef spec3 w) := by
  dsimp only [dat3]

/-- What the computation leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_out (c : Dev nD) (t : Fin cfg3.N) :
    (dat3 V c).after 3 t = out3 (iblk3 V c 0 t) (iblk3 V c 1 t) (iblk3 V c 2 t) := by dsimp only [dat3]

/-! ## What the computation finds in the input buffers

An input window's buffer is refilled only when the window's block index moves.  The tile of `X` moves at every
point; the weights and the bias never move after the first point, and their buffers keep what the first point
brought in, because the computation leaves every input buffer as it found it.  Either way the buffer holds the
window's block at the point. -/

theorem before3_0 (c : Dev nD) (t : Fin cfg3.N) (d) : (dat3 V c).before 0 t d = iblk3 V c 0 t :=
  ((dat3 V c).before_in_eq_fetched 0 rfl (fun _ => rfl) (fun _ _ _ => rfl)
      (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
      (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl)
      (fun t => by rw [after3_2]; unfold Dat.blockOf iblk3; rw [A_eq3]; try rfl) t d).trans
    (by unfold Dat.fetched Dat.blockOf iblk3; rw [A_eq3]; try rfl)

/-! ## The computation on four whole buffers -/

/-- The one store covers the whole output tile. -/
theorem cover3 (p0 : Vec F S1000x64 .f32) (y : S1000x64.Idx) :
    ∃ pc ∈ ([⟨ro3, p0⟩] : List (View.Piece (Elt F) S1000x64 .f32)), y ∈ pc.1.set :=
  View.cover_of_tiled [⟨ro3, p0⟩] S1000x64.size (by rfl) y

set_option maxHeartbeats 1000000 in
/-- Run on whole buffers, the three inputs reading `x0`, `x1`, `x2` and the output holding anything, the
    computation ends with the inputs unchanged and the output reading `out3 x0 x1 x2`: it loads the four buffers
    whole, and stores over the whole output the value computed from the first three loads. -/
theorem sound_kernel3 (c : Dev nD) (E : Set ℕ) (i : grid3.Coords)
    (arg1 : Memref sig .tc .vmem S1000x128 .f32) (harg1 : arg1.IsWhole) (arg2 : Memref sig .tc .vmem S128x64 .f32) (harg2 : arg2.IsWhole)
    (arg3 : Memref sig .tc .vmem S1x64 .f32) (harg3 : arg3.IsWhole) (arg4 : Memref sig .tc .vmem S1000x64 .f32) (harg4 : arg4.IsWhole)
    (x0 : Vec F S1000x128 .f32) (x1 : Vec F S128x64 .f32) (x2 : Vec F S1x64 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out3 x0 x1 x2)) -∗ K ⟨⟩))
      ⊢ wp frame (wpE (defs₀ (F := F)) Variants.none c none) E (cc3_kernel i arg1 harg1 arg2 harg2 arg3 harg3 arg4 harg4) K := by
  simp only [cc3_kernel_eq_skeleton]; unfold cc3_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _)

/-! ## The computation at a grid point -/

/-- What the computation is handed at point `t`: the region's invariant and its debts, and the four windows'
    current buffers at what they hold before it, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it hands back: the same, the buffers at what they hold after it. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- At any point the input buffers hold their blocks, so the run on whole buffers applies; the invariant and the
    debts are not looked at. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_out]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The computation at every grid point takes the buffers from their state before it to their state after it. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Body4.lean ====
import proofs.«154750_j39152921870699_1_alg».proof.Proof.Gen.KernelIdeal.Launch
import proofs.«154750_j39152921870699_1_alg».proof.Proof.Gen.KernelIdeal.Skeleton
import proofs.«154750_j39152921870699_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 4: one dense layer on a tile of rows

The region walks over the rows of a matrix `X` in tiles of 2000 rows.  At every tile it multiplies the
tile `[2000, 192]` by the whole weight matrix `W : [192, 64]`, adds the bias row `b : [1, 64]` to every
row of the product, and writes the `[2000, 64]` result to the matching tile of the
output.  The weights and the bias are the same block at every tile; only the tile of `X` and the tile of the
output move.

This file says what each of the four windows' buffers holds when the tile's computation starts and when it
ends, as a function of the arrays the region was entered with (`V`), and proves that the computation, run on
buffers holding the former, leaves the latter: the three inputs as they were, the output tile equal to the
stored value, which depends on the three input blocks only (the old contents of the output tile are read and
dropped).
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of the core when the region is entered: everything below is a function of them
variable (V : (c : Dev nD) → (b : Ref sig .tc) → Buf (Elt F) ((c : Thread nD τ).loc b))

/-! ## The blocks and the stored value -/

/-- The block of window `w` at grid point `t`: the part of the window's array, as the region found it, that the
    window's index map selects at `t`. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The whole of each buffer, as a rectangle: every load and the one store of the computation go through these. -/
abbrev rx4 : Rect S2000x192 := Rect.unit (s := S2000x192) ![0, 0] S2000x192.size inb_S2000x192_S2000x192_0_0
abbrev rw4 : Rect S192x64 := Rect.unit (s := S192x64) ![0, 0] S192x64.size inb_S192x64_S192x64_0_0
abbrev rb4 : Rect S1x64 := Rect.unit (s := S1x64) ![0, 0] S1x64.size inb_S1x64_S1x64_0_0
abbrev ro4 : Rect S2000x64 := Rect.unit (s := S2000x64) ![0, 0] S2000x64.size inb_S2000x64_S2000x64_0_0

/-- The output tile after the computation, from the three input blocks: the one store's value laid over the
    whole tile. -/
def out4 (x0 : Vec F S2000x192 .f32) (x1 : Vec F S192x64 .f32) (x2 : Vec F S1x64 .f32) : Vec F S2000x64 .f32 :=
  View.canon [⟨ro4, k4_pay1 (View.ld x0 rx4) (View.ld x1 rw4) (View.ld x2 rb4)⟩]

/-! ## The proof data of the region -/

/-- What the region's invariant is stated over: the four arrays as the region found them; after the computation
    at point `t` each input buffer still at its block and the output buffer at `out4` of the three input blocks;
    nothing else of the core is touched, nothing is owed, and every buffer is held whole. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4 (iblk4 V c 0 t) (iblk4 V c 1 t) (iblk4 V c 2 t)
  Φ _ := Pipeline.ΦA spec4 c
  q _ := fullShare
  owed _ := 0

/-- The data's arrays are the entry contents. -/
theorem A_eq4 (c : Dev nD) (w : Fin cfg4.W) : (dat4 V c).A w = V c (Pipeline.arrRef spec4 w) := by
  dsimp only [dat4]

/-- What the computation leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_out (c : Dev nD) (t : Fin cfg4.N) :
    (dat4 V c).after 3 t = out4 (iblk4 V c 0 t) (iblk4 V c 1 t) (iblk4 V c 2 t) := by dsimp only [dat4]

/-! ## What the computation finds in the input buffers

An input window's buffer is refilled only when the window's block index moves.  The tile of `X` moves at every
point; the weights and the bias never move after the first point, and their buffers keep what the first point
brought in, because the computation leaves every input buffer as it found it.  Either way the buffer holds the
window's block at the point. -/

theorem before4_0 (c : Dev nD) (t : Fin cfg4.N) (d) : (dat4 V c).before 0 t d = iblk4 V c 0 t :=
  ((dat4 V c).before_in_eq_fetched 0 rfl (fun _ => rfl) (fun _ _ _ => rfl)
      (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl)
      (fun t => by rw [after4_1]; unfold Dat.blockOf iblk4; rw [A_eq4]; try rfl) t d).trans
    (by unfold Dat.fetched Dat.blockOf iblk4; rw [A_eq4]; try rfl)
theorem before4_2 (c : Dev nD) (t : Fin cfg4.N) (d) : (dat4 V c).before 2 t d = iblk4 V c 2 t :=
  ((dat4 V c).before_in_eq_fetched 2 rfl (fun _ => rfl) (fun _ _ _ => rfl)
      (fun t => by rw [after4_2]; unfold Dat.blockOf iblk4; rw [A_eq4]; try rfl) t d).trans
    (by unfold Dat.fetched Dat.blockOf iblk4; rw [A_eq4]; try rfl)

/-! ## The computation on four whole buffers -/

/-- The one store covers the whole output tile. -/
theorem cover4 (p0 : Vec F S2000x64 .f32) (y : S2000x64.Idx) :
    ∃ pc ∈ ([⟨ro4, p0⟩] : List (View.Piece (Elt F) S2000x64 .f32)), y ∈ pc.1.set :=
  View.cover_of_tiled [⟨ro4, p0⟩] S2000x64.size (by rfl) y

set_option maxHeartbeats 1000000 in
/-- Run on whole buffers, the three inputs reading `x0`, `x1`, `x2` and the output holding anything, the
    computation ends with the inputs unchanged and the output reading `out4 x0 x1 x2`: it loads the four buffers
    whole, and stores over the whole output the value computed from the first three loads. -/
theorem sound_kernel4 (c : Dev nD) (E : Set ℕ) (i : grid4.Coords)
    (arg1 : Memref sig .tc .vmem S2000x192 .f32) (harg1 : arg1.IsWhole) (arg2 : Memref sig .tc .vmem S192x64 .f32) (harg2 : arg2.IsWhole)
    (arg3 : Memref sig .tc .vmem S1x64 .f32) (harg3 : arg3.IsWhole) (arg4 : Memref sig .tc .vmem S2000x64 .f32) (harg4 : arg4.IsWhole)
    (x0 : Vec F S2000x192 .f32) (x1 : Vec F S192x64 .f32) (x2 : Vec F S1x64 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out4 x0 x1 x2)) -∗ K ⟨⟩))
      ⊢ wp frame (wpE (defs₀ (F := F)) Variants.none c none) E (cc4_kernel i arg1 harg1 arg2 harg2 arg3 harg3 arg4 harg4) K := by
  simp only [cc4_kernel_eq_skeleton]; unfold cc4_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4 _)

/-! ## The computation at a grid point -/

/-- What the computation is handed at point `t`: the region's invariant and its debts, and the four windows'
    current buffers at what they hold before it, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it hands back: the same, the buffers at what they hold after it. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- At any point the input buffers hold their blocks, so the run on whole buffers applies; the invariant and the
    debts are not looked at. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_out]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The computation at every grid point takes the buffers from their state before it to their state after it. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Body5.lean ====
import proofs.«154750_j39152921870699_1_alg».proof.Proof.Gen.KernelIdeal.Launch
import proofs.«154750_j39152921870699_1_alg».proof.Proof.Gen.KernelIdeal.Skeleton
import proofs.«154750_j39152921870699_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 5: one dense layer on a tile of rows

The region walks over the rows of a matrix `X` in tiles of 2000 rows.  At every tile it multiplies the
tile `[2000, 192]` by the whole weight matrix `W : [192, 64]`, adds the bias row `b : [1, 64]` to every
row of the product, and writes the `[2000, 64]` result to the matching tile of the
output.  The weights and the bias are the same block at every tile; only the tile of `X` and the tile of the
output move.

This file says what each of the four windows' buffers holds when the tile's computation starts and when it
ends, as a function of the arrays the region was entered with (`V`), and proves that the computation, run on
buffers holding the former, leaves the latter: the three inputs as they were, the output tile equal to the
stored value, which depends on the three input blocks only (the old contents of the output tile are read and
dropped).
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of the core when the region is entered: everything below is a function of them
variable (V : (c : Dev nD) → (b : Ref sig .tc) → Buf (Elt F) ((c : Thread nD τ).loc b))

/-! ## The blocks and the stored value -/

/-- The block of window `w` at grid point `t`: the part of the window's array, as the region found it, that the
    window's index map selects at `t`. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The whole of each buffer, as a rectangle: every load and the one store of the computation go through these. -/
abbrev rx5 : Rect S2000x192 := Rect.unit (s := S2000x192) ![0, 0] S2000x192.size inb_S2000x192_S2000x192_0_0
abbrev rw5 : Rect S192x64 := Rect.unit (s := S192x64) ![0, 0] S192x64.size inb_S192x64_S192x64_0_0
abbrev rb5 : Rect S1x64 := Rect.unit (s := S1x64) ![0, 0] S1x64.size inb_S1x64_S1x64_0_0
abbrev ro5 : Rect S2000x64 := Rect.unit (s := S2000x64) ![0, 0] S2000x64.size inb_S2000x64_S2000x64_0_0

/-- The output tile after the computation, from the three input blocks: the one store's value laid over the
    whole tile. -/
def out5 (x0 : Vec F S2000x192 .f32) (x1 : Vec F S192x64 .f32) (x2 : Vec F S1x64 .f32) : Vec F S2000x64 .f32 :=
  View.canon [⟨ro5, k5_pay1 (View.ld x0 rx5) (View.ld x1 rw5) (View.ld x2 rb5)⟩]

/-! ## The proof data of the region -/

/-- What the region's invariant is stated over: the four arrays as the region found them; after the computation
    at point `t` each input buffer still at its block and the output buffer at `out5` of the three input blocks;
    nothing else of the core is touched, nothing is owed, and every buffer is held whole. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5 (iblk5 V c 0 t) (iblk5 V c 1 t) (iblk5 V c 2 t)
  Φ _ := Pipeline.ΦA spec5 c
  q _ := fullShare
  owed _ := 0

/-- The data's arrays are the entry contents. -/
theorem A_eq5 (c : Dev nD) (w : Fin cfg5.W) : (dat5 V c).A w = V c (Pipeline.arrRef spec5 w) := by
  dsimp only [dat5]

/-- What the computation leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_out (c : Dev nD) (t : Fin cfg5.N) :
    (dat5 V c).after 3 t = out5 (iblk5 V c 0 t) (iblk5 V c 1 t) (iblk5 V c 2 t) := by dsimp only [dat5]

/-! ## What the computation finds in the input buffers

An input window's buffer is refilled only when the window's block index moves.  The tile of `X` moves at every
point; the weights and the bias never move after the first point, and their buffers keep what the first point
brought in, because the computation leaves every input buffer as it found it.  Either way the buffer holds the
window's block at the point. -/

theorem before5_0 (c : Dev nD) (t : Fin cfg5.N) (d) : (dat5 V c).before 0 t d = iblk5 V c 0 t :=
  ((dat5 V c).before_in_eq_fetched 0 rfl (fun _ => rfl) (fun _ _ _ => rfl)
      (fun t => by rw [after5_0]; unfold Dat.blockOf iblk5; rw [A_eq5]; try rfl) t d).trans
    (by unfold Dat.fetched Dat.blockOf iblk5; rw [A_eq5]; try rfl)
theorem before5_1 (c : Dev nD) (t : Fin cfg5.N) (d) : (dat5 V c).before 1 t d = iblk5 V c 1 t :=
  ((dat5 V c).before_in_eq_fetched 1 rfl (fun _ => rfl) (fun _ _ _ => rfl)
      (fun t => by rw [after5_1]; unfold Dat.blockOf iblk5; rw [A_eq5]; try rfl) t d).trans
    (by unfold Dat.fetched Dat.blockOf iblk5; rw [A_eq5]; try rfl)
theorem before5_2 (c : Dev nD) (t : Fin cfg5.N) (d) : (dat5 V c).before 2 t d = iblk5 V c 2 t :=
  ((dat5 V c).before_in_eq_fetched 2 rfl (fun _ => rfl) (fun _ _ _ => rfl)
      (fun t => by rw [after5_2]; unfold Dat.blockOf iblk5; rw [A_eq5]; try rfl) t d).trans
    (by unfold Dat.fetched Dat.blockOf iblk5; rw [A_eq5]; try rfl)

/-! ## The computation on four whole buffers -/

/-- The one store covers the whole output tile. -/
theorem cover5 (p0 : Vec F S2000x64 .f32) (y : S2000x64.Idx) :
    ∃ pc ∈ ([⟨ro5, p0⟩] : List (View.Piece (Elt F) S2000x64 .f32)), y ∈ pc.1.set :=
  View.cover_of_tiled [⟨ro5, p0⟩] S2000x64.size (by rfl) y

set_option maxHeartbeats 1000000 in
/-- Run on whole buffers, the three inputs reading `x0`, `x1`, `x2` and the output holding anything, the
    computation ends with the inputs unchanged and the output reading `out5 x0 x1 x2`: it loads the four buffers
    whole, and stores over the whole output the value computed from the first three loads. -/
theorem sound_kernel5 (c : Dev nD) (E : Set ℕ) (i : grid5.Coords)
    (arg1 : Memref sig .tc .vmem S2000x192 .f32) (harg1 : arg1.IsWhole) (arg2 : Memref sig .tc .vmem S192x64 .f32) (harg2 : arg2.IsWhole)
    (arg3 : Memref sig .tc .vmem S1x64 .f32) (harg3 : arg3.IsWhole) (arg4 : Memref sig .tc .vmem S2000x64 .f32) (harg4 : arg4.IsWhole)
    (x0 : Vec F S2000x192 .f32) (x1 : Vec F S192x64 .f32) (x2 : Vec F S1x64 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out5 x0 x1 x2)) -∗ K ⟨⟩))
      ⊢ wp frame (wpE (defs₀ (F := F)) Variants.none c none) E (cc5_kernel i arg1 harg1 arg2 harg2 arg3 harg3 arg4 harg4) K := by
  simp only [cc5_kernel_eq_skeleton]; unfold cc5_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5 _)

/-! ## The computation at a grid point -/

/-- What the computation is handed at point `t`: the region's invariant and its debts, and the four windows'
    current buffers at what they hold before it, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it hands back: the same, the buffers at what they hold after it. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- At any point the input buffers hold their blocks, so the run on whole buffers applies; the invariant and the
    debts are not looked at. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_out]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The computation at every grid point takes the buffers from their state before it to their state after it. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.Body6.lean ====
import proofs.«154750_j39152921870699_1_alg».proof.Proof.Gen.KernelIdeal.Launch
import proofs.«154750_j39152921870699_1_alg».proof.Proof.Gen.KernelIdeal.Skeleton
import proofs.«154750_j39152921870699_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 6: one dense layer on a tile of rows

The region walks over the rows of a matrix `X` in tiles of 2000 rows.  At every tile it multiplies the
tile `[2000, 128]` by the whole weight matrix `W : [128, 64]`, adds the bias row `b : [1, 64]` to every
row of the product, and writes the `[2000, 64]` result to the matching tile of the
output.  The weights and the bias are the same block at every tile; only the tile of `X` and the tile of the
output move.

This file says what each of the four windows' buffers holds when the tile's computation starts and when it
ends, as a function of the arrays the region was entered with (`V`), and proves that the computation, run on
buffers holding the former, leaves the latter: the three inputs as they were, the output tile equal to the
stored value, which depends on the three input blocks only (the old contents of the output tile are read and
dropped).
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of the core when the region is entered: everything below is a function of them
variable (V : (c : Dev nD) → (b : Ref sig .tc) → Buf (Elt F) ((c : Thread nD τ).loc b))

/-! ## The blocks and the stored value -/

/-- The block of window `w` at grid point `t`: the part of the window's array, as the region found it, that the
    window's index map selects at `t`. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The whole of each buffer, as a rectangle: every load and the one store of the computation go through these. -/
abbrev rx6 : Rect S2000x128 := Rect.unit (s := S2000x128) ![0, 0] S2000x128.size inb_S2000x128_S2000x128_0_0
abbrev rw6 : Rect S128x64 := Rect.unit (s := S128x64) ![0, 0] S128x64.size inb_S128x64_S128x64_0_0
abbrev rb6 : Rect S1x64 := Rect.unit (s := S1x64) ![0, 0] S1x64.size inb_S1x64_S1x64_0_0
abbrev ro6 : Rect S2000x64 := Rect.unit (s := S2000x64) ![0, 0] S2000x64.size inb_S2000x64_S2000x64_0_0

/-- The output tile after the computation, from the three input blocks: the one store's value laid over the
    whole tile. -/
def out6 (x0 : Vec F S2000x128 .f32) (x1 : Vec F S128x64 .f32) (x2 : Vec F S1x64 .f32) : Vec F S2000x64 .f32 :=
  View.canon [⟨ro6, k6_pay1 (View.ld x0 rx6) (View.ld x1 rw6) (View.ld x2 rb6)⟩]

/-! ## The proof data of the region -/

/-- What the region's invariant is stated over: the four arrays as the region found them; after the computation
    at point `t` each input buffer still at its block and the output buffer at `out6` of the three input blocks;
    nothing else of the core is touched, nothing is owed, and every buffer is held whole. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6 (iblk6 V c 0 t) (iblk6 V c 1 t) (iblk6 V c 2 t)
  Φ _ := Pipeline.ΦA spec6 c
  q _ := fullShare
  owed _ := 0

/-- The data's arrays are the entry contents. -/
theorem A_eq6 (c : Dev nD) (w : Fin cfg6.W) : (dat6 V c).A w = V c (Pipeline.arrRef spec6 w) := by
  dsimp only [dat6]

/-- What the computation leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_out (c : Dev nD) (t : Fin cfg6.N) :
    (dat6 V c).after 3 t = out6 (iblk6 V c 0 t) (iblk6 V c 1 t) (iblk6 V c 2 t) := by dsimp only [dat6]

/-! ## What the computation finds in the input buffers

An input window's buffer is refilled only when the window's block index moves.  The tile of `X` moves at every
point; the weights and the bias never move after the first point, and their buffers keep what the first point
brought in, because the computation leaves every input buffer as it found it.  Either way the buffer holds the
window's block at the point. -/

theorem before6_0 (c : Dev nD) (t : Fin cfg6.N) (d) : (dat6 V c).before 0 t d = iblk6 V c 0 t :=
  ((dat6 V c).before_in_eq_fetched 0 rfl (fun _ => rfl) (fun _ _ _ => rfl)
      (fun t => by rw [after6_0]; unfold Dat.blockOf iblk6; rw [A_eq6]; try rfl) t d).trans
    (by unfold Dat.fetched Dat.blockOf iblk6; rw [A_eq6]; try rfl)
theorem before6_1 (c : Dev nD) (t : Fin cfg6.N) (d) : (dat6 V c).before 1 t d = iblk6 V c 1 t :=
  ((dat6 V c).before_in_eq_fetched 1 rfl (fun _ => rfl) (fun _ _ _ => rfl)
      (fun t => by rw [after6_1]; unfold Dat.blockOf iblk6; rw [A_eq6]; try rfl) t d).trans
    (by unfold Dat.fetched Dat.blockOf iblk6; rw [A_eq6]; try rfl)
theorem before6_2 (c : Dev nD) (t : Fin cfg6.N) (d) : (dat6 V c).before 2 t d = iblk6 V c 2 t :=
  ((dat6 V c).before_in_eq_fetched 2 rfl (fun _ => rfl) (fun _ _ _ => rfl)
      (fun t => by rw [after6_2]; unfold Dat.blockOf iblk6; rw [A_eq6]; try rfl) t d).trans
    (by unfold Dat.fetched Dat.blockOf iblk6; rw [A_eq6]; try rfl)

/-! ## The computation on four whole buffers -/

/-- The one store covers the whole output tile. -/
theorem cover6 (p0 : Vec F S2000x64 .f32) (y : S2000x64.Idx) :
    ∃ pc ∈ ([⟨ro6, p0⟩] : List (View.Piece (Elt F) S2000x64 .f32)), y ∈ pc.1.set :=
  View.cover_of_tiled [⟨ro6, p0⟩] S2000x64.size (by rfl) y

set_option maxHeartbeats 1000000 in
/-- Run on whole buffers, the three inputs reading `x0`, `x1`, `x2` and the output holding anything, the
    computation ends with the inputs unchanged and the output reading `out6 x0 x1 x2`: it loads the four buffers
    whole, and stores over the whole output the value computed from the first three loads. -/
theorem sound_kernel6 (c : Dev nD) (E : Set ℕ) (i : grid6.Coords)
    (arg1 : Memref sig .tc .vmem S2000x128 .f32) (harg1 : arg1.IsWhole) (arg2 : Memref sig .tc .vmem S128x64 .f32) (harg2 : arg2.IsWhole)
    (arg3 : Memref sig .tc .vmem S1x64 .f32) (harg3 : arg3.IsWhole) (arg4 : Memref sig .tc .vmem S2000x64 .f32) (harg4 : arg4.IsWhole)
    (x0 : Vec F S2000x128 .f32) (x1 : Vec F S128x64 .f32) (x2 : Vec F S1x64 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out6 x0 x1 x2)) -∗ K ⟨⟩))
      ⊢ wp frame (wpE (defs₀ (F := F)) Variants.none c none) E (cc6_kernel i arg1 harg1 arg2 harg2 arg3 harg3 arg4 harg4) K := by
  simp only [cc6_kernel_eq_skeleton]; unfold cc6_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6 _)

/-! ## The computation at a grid point -/

/-- What the computation is handed at point `t`: the region's invariant and its debts, and the four windows'
    current buffers at what they hold before it, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it hands back: the same, the buffers at what they hold after it. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- At any point the input buffers hold their blocks, so the run on whole buffers applies; the invariant and the
    debts are not looked at. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_out]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The computation at every grid point takes the buffers from their state before it to their state after it. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.Body7.lean ====
import proofs.«154750_j39152921870699_1_alg».proof.Proof.Gen.KernelIdeal.Launch
import proofs.«154750_j39152921870699_1_alg».proof.Proof.Gen.KernelIdeal.Skeleton
import proofs.«154750_j39152921870699_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 7: one dense layer on a tile of rows

The region walks over the rows of a matrix `X` in tiles of 1000 rows.  At every tile it multiplies the
tile `[1000, 128]` by the whole weight matrix `W : [128, 64]`, adds the bias row `b : [1, 64]` to every
row of the product, and writes the `[1000, 64]` result to the matching tile of the
output.  The weights and the bias are the same block at every tile; only the tile of `X` and the tile of the
output move.

This file says what each of the four windows' buffers holds when the tile's computation starts and when it
ends, as a function of the arrays the region was entered with (`V`), and proves that the computation, run on
buffers holding the former, leaves the latter: the three inputs as they were, the output tile equal to the
stored value, which depends on the three input blocks only (the old contents of the output tile are read and
dropped).
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of the core when the region is entered: everything below is a function of them
variable (V : (c : Dev nD) → (b : Ref sig .tc) → Buf (Elt F) ((c : Thread nD τ).loc b))

/-! ## The blocks and the stored value -/

/-- The block of window `w` at grid point `t`: the part of the window's array, as the region found it, that the
    window's index map selects at `t`. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The whole of each buffer, as a rectangle: every load and the one store of the computation go through these. -/
abbrev rx7 : Rect S1000x128 := Rect.unit (s := S1000x128) ![0, 0] S1000x128.size inb_S1000x128_S1000x128_0_0
abbrev rw7 : Rect S128x64 := Rect.unit (s := S128x64) ![0, 0] S128x64.size inb_S128x64_S128x64_0_0
abbrev rb7 : Rect S1x64 := Rect.unit (s := S1x64) ![0, 0] S1x64.size inb_S1x64_S1x64_0_0
abbrev ro7 : Rect S1000x64 := Rect.unit (s := S1000x64) ![0, 0] S1000x64.size inb_S1000x64_S1000x64_0_0

/-- The output tile after the computation, from the three input blocks: the one store's value laid over the
    whole tile. -/
def out7 (x0 : Vec F S1000x128 .f32) (x1 : Vec F S128x64 .f32) (x2 : Vec F S1x64 .f32) : Vec F S1000x64 .f32 :=
  View.canon [⟨ro7, k7_pay1 (View.ld x0 rx7) (View.ld x1 rw7) (View.ld x2 rb7)⟩]

/-! ## The proof data of the region -/

/-- What the region's invariant is stated over: the four arrays as the region found them; after the computation
    at point `t` each input buffer still at its block and the output buffer at `out7` of the three input blocks;
    nothing else of the core is touched, nothing is owed, and every buffer is held whole. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7 (iblk7 V c 0 t) (iblk7 V c 1 t) (iblk7 V c 2 t)
  Φ _ := Pipeline.ΦA spec7 c
  q _ := fullShare
  owed _ := 0

/-- The data's arrays are the entry contents. -/
theorem A_eq7 (c : Dev nD) (w : Fin cfg7.W) : (dat7 V c).A w = V c (Pipeline.arrRef spec7 w) := by
  dsimp only [dat7]

/-- What the computation leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_out (c : Dev nD) (t : Fin cfg7.N) :
    (dat7 V c).after 3 t = out7 (iblk7 V c 0 t) (iblk7 V c 1 t) (iblk7 V c 2 t) := by dsimp only [dat7]

/-! ## What the computation finds in the input buffers

An input window's buffer is refilled only when the window's block index moves.  The tile of `X` moves at every
point; the weights and the bias never move after the first point, and their buffers keep what the first point
brought in, because the computation leaves every input buffer as it found it.  Either way the buffer holds the
window's block at the point. -/

theorem before7_0 (c : Dev nD) (t : Fin cfg7.N) (d) : (dat7 V c).before 0 t d = iblk7 V c 0 t :=
  ((dat7 V c).before_in_eq_fetched 0 rfl (fun _ => rfl) (fun _ _ _ => rfl)
      (fun t => by rw [after7_0]; unfold Dat.blockOf iblk7; rw [A_eq7]; try rfl) t d).trans
    (by unfold Dat.fetched Dat.blockOf iblk7; rw [A_eq7]; try rfl)
theorem before7_1 (c : Dev nD) (t : Fin cfg7.N) (d) : (dat7 V c).before 1 t d = iblk7 V c 1 t :=
  ((dat7 V c).before_in_eq_fetched 1 rfl (fun _ => rfl) (fun _ _ _ => rfl)
      (fun t => by rw [after7_1]; unfold Dat.blockOf iblk7; rw [A_eq7]; try rfl) t d).trans
    (by unfold Dat.fetched Dat.blockOf iblk7; rw [A_eq7]; try rfl)
theorem before7_2 (c : Dev nD) (t : Fin cfg7.N) (d) : (dat7 V c).before 2 t d = iblk7 V c 2 t :=
  ((dat7 V c).before_in_eq_fetched 2 rfl (fun _ => rfl) (fun _ _ _ => rfl)
      (fun t => by rw [after7_2]; unfold Dat.blockOf iblk7; rw [A_eq7]; try rfl) t d).trans
    (by unfold Dat.fetched Dat.blockOf iblk7; rw [A_eq7]; try rfl)

/-! ## The computation on four whole buffers -/

/-- The one store covers the whole output tile. -/
theorem cover7 (p0 : Vec F S1000x64 .f32) (y : S1000x64.Idx) :
    ∃ pc ∈ ([⟨ro7, p0⟩] : List (View.Piece (Elt F) S1000x64 .f32)), y ∈ pc.1.set :=
  View.cover_of_tiled [⟨ro7, p0⟩] S1000x64.size (by rfl) y

set_option maxHeartbeats 1000000 in
/-- Run on whole buffers, the three inputs reading `x0`, `x1`, `x2` and the output holding anything, the
    computation ends with the inputs unchanged and the output reading `out7 x0 x1 x2`: it loads the four buffers
    whole, and stores over the whole output the value computed from the first three loads. -/
theorem sound_kernel7 (c : Dev nD) (E : Set ℕ) (i : grid7.Coords)
    (arg1 : Memref sig .tc .vmem S1000x128 .f32) (harg1 : arg1.IsWhole) (arg2 : Memref sig .tc .vmem S128x64 .f32) (harg2 : arg2.IsWhole)
    (arg3 : Memref sig .tc .vmem S1x64 .f32) (harg3 : arg3.IsWhole) (arg4 : Memref sig .tc .vmem S1000x64 .f32) (harg4 : arg4.IsWhole)
    (x0 : Vec F S1000x128 .f32) (x1 : Vec F S128x64 .f32) (x2 : Vec F S1x64 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out7 x0 x1 x2)) -∗ K ⟨⟩))
      ⊢ wp frame (wpE (defs₀ (F := F)) Variants.none c none) E (cc7_kernel i arg1 harg1 arg2 harg2 arg3 harg3 arg4 harg4) K := by
  simp only [cc7_kernel_eq_skeleton]; unfold cc7_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover7 _)

/-! ## The computation at a grid point -/

/-- What the computation is handed at point `t`: the region's invariant and its debts, and the four windows'
    current buffers at what they hold before it, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it hands back: the same, the buffers at what they hold after it. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

/-- At any point the input buffers hold their blocks, so the run on whole buffers applies; the invariant and the
    debts are not looked at. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_out]
  iintro ⟨HΦ, Ho, ⟨%d0, H0⟩, ⟨%d1, H1⟩, ⟨%d2, H2⟩, ⟨%d3, H3⟩⟩
  iapply (sound_kernel7 c Set.univ _ _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The computation at every grid point takes the buffers from their state before it to their state after it. -/
theorem body_obligation7 (c : Dev nD) : BodyObligation (dat7 (F := F) V c) (defs₀ (F := F)) Variants.none () Set.univ := fun t => by
  rw [bigSep_W7, bigSep_W7]
  exact sound_body7 V c t

end Cert.KernelIdeal.Hand

end
-- ==== Proof.KI.Body8.lean ====
import proofs.«154750_j39152921870699_1_alg».proof.Proof.Gen.KernelIdeal.Launch
import proofs.«154750_j39152921870699_1_alg».proof.Proof.Gen.KernelIdeal.Skeleton
import proofs.«154750_j39152921870699_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 8: the two-layer read-out on a tile of rows

The region walks over the rows of a matrix `h` in tiles of 2000 rows.  At every tile it multiplies the tile
`[2000, 128]` by the whole first weight matrix `[128, 64]`, adds the first bias row `[1, 64]` to every row,
clamps below at zero, multiplies by the whole second weight matrix `[64, 4]`, adds the second bias row
`[1, 4]` to every row, and writes the `[2000, 4]` result to the matching tile of the output.  The two weight
matrices and the two bias rows are the same blocks at every tile; only the tile of `h` and the tile of the
output move.

This file says what each of the six windows' buffers holds when the tile's computation starts and when it
ends, as a function of the arrays the region was entered with (`V`), and proves that the computation, run on
buffers holding the former, leaves the latter: the five inputs as they were, the output tile equal to the
stored value, which depends on the five input blocks only (the old contents of the output tile are read and
dropped).
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of the core when the region is entered: everything below is a function of them
variable (V : (c : Dev nD) → (b : Ref sig .tc) → Buf (Elt F) ((c : Thread nD τ).loc b))

/-! ## The blocks and the stored value -/

/-- The block of window `w` at grid point `t`: the part of the window's array, as the region found it, that the
    window's index map selects at `t`. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- The whole of each buffer, as a rectangle: every load and the one store of the computation go through these. -/
abbrev rx8 : Rect S2000x128 := Rect.unit (s := S2000x128) ![0, 0] S2000x128.size inb_S2000x128_S2000x128_0_0
abbrev rw8 : Rect S128x64 := Rect.unit (s := S128x64) ![0, 0] S128x64.size inb_S128x64_S128x64_0_0
abbrev rb8 : Rect S1x64 := Rect.unit (s := S1x64) ![0, 0] S1x64.size inb_S1x64_S1x64_0_0
abbrev rv8 : Rect S64x4 := Rect.unit (s := S64x4) ![0, 0] S64x4.size inb_S64x4_S64x4_0_0
abbrev rd8 : Rect S1x4 := Rect.unit (s := S1x4) ![0, 0] S1x4.size inb_S1x4_S1x4_0_0
abbrev ro8 : Rect S2000x4 := Rect.unit (s := S2000x4) ![0, 0] S2000x4.size inb_S2000x4_S2000x4_0_0

/-- The output tile after the computation, from the five input blocks: the one store's value laid over the
    whole tile. -/
def out8 (x0 : Vec F S2000x128 .f32) (x1 : Vec F S128x64 .f32) (x2 : Vec F S1x64 .f32) (x3 : Vec F S64x4 .f32) (x4 : Vec F S1x4 .f32) :
    Vec F S2000x4 .f32 :=
  View.canon [⟨ro8, k8_pay1 (View.ld x0 rx8) (View.ld x1 rw8) (View.ld x2 rb8) (View.ld x3 rv8) (View.ld x4 rd8)⟩]

/-! ## The proof data of the region -/

/-- What the region's invariant is stated over: the six arrays as the region found them; after the computation
    at point `t` each input buffer still at its block and the output buffer at `out8` of the five input blocks;
    nothing else of the core is touched, nothing is owed, and every buffer is held whole. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8 (iblk8 V c 0 t) (iblk8 V c 1 t) (iblk8 V c 2 t) (iblk8 V c 3 t) (iblk8 V c 4 t)
  Φ _ := Pipeline.ΦA spec8 c
  q _ := fullShare
  owed _ := 0

/-- The data's arrays are the entry contents. -/
theorem A_eq8 (c : Dev nD) (w : Fin cfg8.W) : (dat8 V c).A w = V c (Pipeline.arrRef spec8 w) := by
  dsimp only [dat8]

/-- What the computation leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_out (c : Dev nD) (t : Fin cfg8.N) :
    (dat8 V c).after 5 t = out8 (iblk8 V c 0 t) (iblk8 V c 1 t) (iblk8 V c 2 t) (iblk8 V c 3 t) (iblk8 V c 4 t) := by
  dsimp only [dat8]

/-! ## What the computation finds in the input buffers

An input window's buffer is refilled only when the window's block index moves.  The tile of `h` moves at every
point; the two weight matrices and the two bias rows never move after the first point, and their buffers keep
what the first point brought in, because the computation leaves every input buffer as it found it.  Either way
the buffer holds the window's block at the point. -/

theorem before8_0 (c : Dev nD) (t : Fin cfg8.N) (d) : (dat8 V c).before 0 t d = iblk8 V c 0 t :=
  ((dat8 V c).before_in_eq_fetched 0 rfl (fun _ => rfl) (fun _ _ _ => rfl)
      (fun t => by rw [after8_0]; unfold Dat.blockOf iblk8; rw [A_eq8]; try rfl) t d).trans
    (by unfold Dat.fetched Dat.blockOf iblk8; rw [A_eq8]; try rfl)
theorem before8_1 (c : Dev nD) (t : Fin cfg8.N) (d) : (dat8 V c).before 1 t d = iblk8 V c 1 t :=
  ((dat8 V c).before_in_eq_fetched 1 rfl (fun _ => rfl) (fun _ _ _ => rfl)
      (fun t => by rw [after8_1]; unfold Dat.blockOf iblk8; rw [A_eq8]; try rfl) t d).trans
    (by unfold Dat.fetched Dat.blockOf iblk8; rw [A_eq8]; try rfl)
theorem before8_2 (c : Dev nD) (t : Fin cfg8.N) (d) : (dat8 V c).before 2 t d = iblk8 V c 2 t :=
  ((dat8 V c).before_in_eq_fetched 2 rfl (fun _ => rfl) (fun _ _ _ => rfl)
      (fun t => by rw [after8_2]; unfold Dat.blockOf iblk8; rw [A_eq8]; try rfl) t d).trans
    (by unfold Dat.fetched Dat.blockOf iblk8; rw [A_eq8]; try rfl)
theorem before8_3 (c : Dev nD) (t : Fin cfg8.N) (d) : (dat8 V c).before 3 t d = iblk8 V c 3 t :=
  ((dat8 V c).before_in_eq_fetched 3 rfl (fun _ => rfl) (fun _ _ _ => rfl)
      (fun t => by rw [after8_3]; unfold Dat.blockOf iblk8; rw [A_eq8]; try rfl) t d).trans
    (by unfold Dat.fetched Dat.blockOf iblk8; rw [A_eq8]; try rfl)
theorem before8_4 (c : Dev nD) (t : Fin cfg8.N) (d) : (dat8 V c).before 4 t d = iblk8 V c 4 t :=
  ((dat8 V c).before_in_eq_fetched 4 rfl (fun _ => rfl) (fun _ _ _ => rfl)
      (fun t => by rw [after8_4]; unfold Dat.blockOf iblk8; rw [A_eq8]; try rfl) t d).trans
    (by unfold Dat.fetched Dat.blockOf iblk8; rw [A_eq8]; try rfl)

/-! ## The computation on six whole buffers -/

/-- The one store covers the whole output tile. -/
theorem cover8 (p0 : Vec F S2000x4 .f32) (y : S2000x4.Idx) :
    ∃ pc ∈ ([⟨ro8, p0⟩] : List (View.Piece (Elt F) S2000x4 .f32)), y ∈ pc.1.set :=
  View.cover_of_tiled [⟨ro8, p0⟩] S2000x4.size (by rfl) y

set_option maxHeartbeats 1000000 in
/-- Run on whole buffers, the five inputs reading `x0` … `x4` and the output holding anything, the computation
    ends with the inputs unchanged and the output reading `out8 x0 x1 x2 x3 x4`: it loads the six buffers whole,
    and stores over the whole output the value computed from the first five loads. -/
theorem sound_kernel8 (c : Dev nD) (E : Set ℕ) (i : grid8.Coords)
    (arg1 : Memref sig .tc .vmem S2000x128 .f32) (harg1 : arg1.IsWhole) (arg2 : Memref sig .tc .vmem S128x64 .f32) (harg2 : arg2.IsWhole)
    (arg3 : Memref sig .tc .vmem S1x64 .f32) (harg3 : arg3.IsWhole) (arg4 : Memref sig .tc .vmem S64x4 .f32) (harg4 : arg4.IsWhole)
    (arg5 : Memref sig .tc .vmem S1x4 .f32) (harg5 : arg5.IsWhole) (arg6 : Memref sig .tc .vmem S2000x4 .f32) (harg6 : arg6.IsWhole)
    (x0 : Vec F S2000x128 .f32) (x1 : Vec F S128x64 .f32) (x2 : Vec F S1x64 .f32) (x3 : Vec F S64x4 .f32) (x4 : Vec F S1x4 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare (out8 x0 x1 x2 x3 x4)) -∗ K ⟨⟩))
      ⊢ wp frame (wpE (defs₀ (F := F)) Variants.none c none) E
          (cc8__mlp_kernel i arg1 harg1 arg2 harg2 arg3 harg3 arg4 harg4 arg5 harg5 arg6 harg6) K := by
  simp only [cc8__mlp_kernel_eq_skeleton]; unfold cc8__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8 _)

/-! ## The computation at a grid point -/

/-- What the computation is handed at point `t`: the region's invariant and its debts, and the six windows'
    current buffers at what they hold before it, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d)))

/-- and what it hands back: the same, the buffers at what they hold after it. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t))

/-- At any point the input buffers hold their blocks, so the run on whole buffers applies; the invariant and the
    debts are not looked at. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_out]
  iintro ⟨HΦ, Ho, ⟨%d0, H0⟩, ⟨%d1, H1⟩, ⟨%d2, H2⟩, ⟨%d3, H3⟩, ⟨%d4, H4⟩, ⟨%d5, H5⟩⟩
  iapply (sound_kernel8 c Set.univ _ _ _ _ _ _ _ _ _ _ _ _ _
    (iblk8 V c 0 t) (iblk8 V c 1 t) (iblk8 V c 2 t) (iblk8 V c 3 t) (iblk8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The computation at every grid point takes the buffers from their state before it to their state after it. -/
theorem body_obligation8 (c : Dev nD) : BodyObligation (dat8 (F := F) V c) (defs₀ (F := F)) Variants.none () Set.univ := fun t => by
  rw [bigSep_W8, bigSep_W8]
  exact sound_body8 V c t

end Cert.KernelIdeal.Hand

end
-- ==== Proof.KI.Chain.lean ====
import proofs.«154750_j39152921870699_1_alg».proof.Proof.KI.Body0
import proofs.«154750_j39152921870699_1_alg».proof.Proof.KI.Body1
import proofs.«154750_j39152921870699_1_alg».proof.Proof.KI.Body2
import proofs.«154750_j39152921870699_1_alg».proof.Proof.KI.Body3
import proofs.«154750_j39152921870699_1_alg».proof.Proof.KI.Body4
import proofs.«154750_j39152921870699_1_alg».proof.Proof.KI.Body5
import proofs.«154750_j39152921870699_1_alg».proof.Proof.KI.Body6
import proofs.«154750_j39152921870699_1_alg».proof.Proof.KI.Body7
import proofs.«154750_j39152921870699_1_alg».proof.Proof.KI.Body8

/-!
# The contents of the core's buffers along the program

The program is a sequence of 26 segments: 17 stretches of host operations and 9 tiled regions.  This file names
the contents of the core's buffers at the 27 boundaries between them, B0 (the launch memory) to B26 (the end).

* Across a stretch of host operations the contents change by the fold of the operations: each operation
  rewrites the buffer it writes with its function of the buffers it reads, and leaves every other buffer alone.
* Across a region the contents change at the region's arrays only: an input array is as it was at entry, the
  output array holds what the region's write-backs left, tile after tile; every other buffer is as it was.

The regions' data (what each staging buffer holds before and after every tile) is taken at the contents the
region is entered with, so the family of the nine regions' data is stated here too, beside what rides along
all the segments unchanged: the random-number register at some state, and a core that owes no other core
anything.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The 27 boundaries -/

/-- At launch: the memory the program is started on. -/
abbrev B0 : Dev nD → Valuation τ sig (Elt F) := fun c b => (s₀ m ρ).mem ((c : Dev nD), b)
/-- After the host operations of segment 0. -/
abbrev B1 : Dev nD → Valuation τ sig (Elt F) := fun c => StableHlo.after main_part0_ops0 (B0 m ρ c)
/-- After the host operations of segment 1. -/
abbrev B2 : Dev nD → Valuation τ sig (Elt F) := fun c => StableHlo.after main_part1_ops0 (B1 m ρ c)
/-- After the host operations of segment 2. -/
abbrev B3 : Dev nD → Valuation τ sig (Elt F) := fun c => StableHlo.after main_part2_ops0 (B2 m ρ c)

/-- Segment 3 is region 0: what it is entered with, read at the core's own references. -/
abbrev E3 : (c : Dev nD) → (b : Ref sig .tc) → Buf (Elt F) ((c : Thread nD τ).loc b) := fun c b => B3 m ρ c b
/-- After region 0: its arrays at what the tiles' write-backs leave (an input array as entered, the output array
    the fold of the write-backs over all the tiles), every other buffer as entered. -/
def B4 (c : Dev nD) : Valuation τ sig (Elt F) :=
  Pipeline.withArrays spec0 c (B3 m ρ c) fun w => (dat0 (E3 m ρ) c).arrAt w cfg0.N
theorem B4_arr (c : Dev nD) (w : Fin cfg0.W) :
    B4 m ρ c (Proc.devRef .tc (Pipeline.arrRef spec0 w)) = (dat0 (E3 m ρ) c).arrAt w cfg0.N := by
  unfold B4; exact Pipeline.withArrays_arr spec0 launch0.win.arr_inj c _ _ w
theorem B4_of_ne (c : Dev nD) (b : Ref sig .tc) (hb : ∀ w, Pipeline.arrRef spec0 w ≠ b) :
    B4 m ρ c (Proc.devRef .tc b) = B3 m ρ c (Proc.devRef .tc b) := by
  unfold B4; exact Pipeline.withArrays_of_ne spec0 c _ _ b hb
/-- The same contents read at the core's own references. -/
abbrev X4 : (c : Dev nD) → (b : Ref sig .tc) → Buf (Elt F) ((c : Thread nD τ).loc b) := fun c b => B4 m ρ c b
/-- At the end of region 0 each of its arrays holds what the region leaves there, and every other buffer what it
    held when the region was entered. -/
theorem hF0 (c : Dev nD) (w : Fin cfg0.W) : (dat0 (E3 m ρ) c).arrAt w cfg0.N = X4 m ρ c (Pipeline.arrRef spec0 w) :=
  (B4_arr m ρ c w).symm
theorem hrest0 (c : Dev nD) : ∀ b, b ∉ Finset.univ.image (Pipeline.arrRef spec0) → X4 m ρ c b = E3 m ρ c b :=
  fun b hb => B4_of_ne m ρ c b fun w e => hb (Finset.mem_image.mpr ⟨w, Finset.mem_univ _, e⟩)

/-- After the host operations of segment 4. -/
abbrev B5 : Dev nD → Valuation τ sig (Elt F) := fun c => StableHlo.after main_part2_ops1 (B4 m ρ c)
/-- After the host operations of segment 5. -/
abbrev B6 : Dev nD → Valuation τ sig (Elt F) := fun c => StableHlo.after main_part3_ops0 (B5 m ρ c)

/-- Segment 6 is region 1: what it is entered with, read at the core's own references. -/
abbrev E6 : (c : Dev nD) → (b : Ref sig .tc) → Buf (Elt F) ((c : Thread nD τ).loc b) := fun c b => B6 m ρ c b
/-- After region 1: its arrays at what the tiles' write-backs leave (an input array as entered, the output array
    the fold of the write-backs over all the tiles), every other buffer as entered. -/
def B7 (c : Dev nD) : Valuation τ sig (Elt F) :=
  Pipeline.withArrays spec1 c (B6 m ρ c) fun w => (dat1 (E6 m ρ) c).arrAt w cfg1.N
theorem B7_arr (c : Dev nD) (w : Fin cfg1.W) :
    B7 m ρ c (Proc.devRef .tc (Pipeline.arrRef spec1 w)) = (dat1 (E6 m ρ) c).arrAt w cfg1.N := by
  unfold B7; exact Pipeline.withArrays_arr spec1 launch1.win.arr_inj c _ _ w
theorem B7_of_ne (c : Dev nD) (b : Ref sig .tc) (hb : ∀ w, Pipeline.arrRef spec1 w ≠ b) :
    B7 m ρ c (Proc.devRef .tc b) = B6 m ρ c (Proc.devRef .tc b) := by
  unfold B7; exact Pipeline.withArrays_of_ne spec1 c _ _ b hb
/-- The same contents read at the core's own references. -/
abbrev X7 : (c : Dev nD) → (b : Ref sig .tc) → Buf (Elt F) ((c : Thread nD τ).loc b) := fun c b => B7 m ρ c b
/-- At the end of region 1 each of its arrays holds what the region leaves there, and every other buffer what it
    held when the region was entered. -/
theorem hF1 (c : Dev nD) (w : Fin cfg1.W) : (dat1 (E6 m ρ) c).arrAt w cfg1.N = X7 m ρ c (Pipeline.arrRef spec1 w) :=
  (B7_arr m ρ c w).symm
theorem hrest1 (c : Dev nD) : ∀ b, b ∉ Finset.univ.image (Pipeline.arrRef spec1) → X7 m ρ c b = E6 m ρ c b :=
  fun b hb => B7_of_ne m ρ c b fun w e => hb (Finset.mem_image.mpr ⟨w, Finset.mem_univ _, e⟩)

/-- After the host operations of segment 7. -/
abbrev B8 : Dev nD → Valuation τ sig (Elt F) := fun c => StableHlo.after main_part3_ops1 (B7 m ρ c)

/-- Segment 8 is region 2: what it is entered with, read at the core's own references. -/
abbrev E8 : (c : Dev nD) → (b : Ref sig .tc) → Buf (Elt F) ((c : Thread nD τ).loc b) := fun c b => B8 m ρ c b
/-- After region 2: its arrays at what the tiles' write-backs leave (an input array as entered, the output array
    the fold of the write-backs over all the tiles), every other buffer as entered. -/
def B9 (c : Dev nD) : Valuation τ sig (Elt F) :=
  Pipeline.withArrays spec2 c (B8 m ρ c) fun w => (dat2 (E8 m ρ) c).arrAt w cfg2.N
theorem B9_arr (c : Dev nD) (w : Fin cfg2.W) :
    B9 m ρ c (Proc.devRef .tc (Pipeline.arrRef spec2 w)) = (dat2 (E8 m ρ) c).arrAt w cfg2.N := by
  unfold B9; exact Pipeline.withArrays_arr spec2 launch2.win.arr_inj c _ _ w
theorem B9_of_ne (c : Dev nD) (b : Ref sig .tc) (hb : ∀ w, Pipeline.arrRef spec2 w ≠ b) :
    B9 m ρ c (Proc.devRef .tc b) = B8 m ρ c (Proc.devRef .tc b) := by
  unfold B9; exact Pipeline.withArrays_of_ne spec2 c _ _ b hb
/-- The same contents read at the core's own references. -/
abbrev X9 : (c : Dev nD) → (b : Ref sig .tc) → Buf (Elt F) ((c : Thread nD τ).loc b) := fun c b => B9 m ρ c b
/-- At the end of region 2 each of its arrays holds what the region leaves there, and every other buffer what it
    held when the region was entered. -/
theorem hF2 (c : Dev nD) (w : Fin cfg2.W) : (dat2 (E8 m ρ) c).arrAt w cfg2.N = X9 m ρ c (Pipeline.arrRef spec2 w) :=
  (B9_arr m ρ c w).symm
theorem hrest2 (c : Dev nD) : ∀ b, b ∉ Finset.univ.image (Pipeline.arrRef spec2) → X9 m ρ c b = E8 m ρ c b :=
  fun b hb => B9_of_ne m ρ c b fun w e => hb (Finset.mem_image.mpr ⟨w, Finset.mem_univ _, e⟩)

/-- After the host operations of segment 9. -/
abbrev B10 : Dev nD → Valuation τ sig (Elt F) := fun c => StableHlo.after main_part3_ops2 (B9 m ρ c)

/-- Segment 10 is region 3: what it is entered with, read at the core's own references. -/
abbrev E10 : (c : Dev nD) → (b : Ref sig .tc) → Buf (Elt F) ((c : Thread nD τ).loc b) := fun c b => B10 m ρ c b
/-- After region 3: its arrays at what the tiles' write-backs leave (an input array as entered, the output array
    the fold of the write-backs over all the tiles), every other buffer as entered. -/
def B11 (c : Dev nD) : Valuation τ sig (Elt F) :=
  Pipeline.withArrays spec3 c (B10 m ρ c) fun w => (dat3 (E10 m ρ) c).arrAt w cfg3.N
theorem B11_arr (c : Dev nD) (w : Fin cfg3.W) :
    B11 m ρ c (Proc.devRef .tc (Pipeline.arrRef spec3 w)) = (dat3 (E10 m ρ) c).arrAt w cfg3.N := by
  unfold B11; exact Pipeline.withArrays_arr spec3 launch3.win.arr_inj c _ _ w
theorem B11_of_ne (c : Dev nD) (b : Ref sig .tc) (hb : ∀ w, Pipeline.arrRef spec3 w ≠ b) :
    B11 m ρ c (Proc.devRef .tc b) = B10 m ρ c (Proc.devRef .tc b) := by
  unfold B11; exact Pipeline.withArrays_of_ne spec3 c _ _ b hb
/-- The same contents read at the core's own references. -/
abbrev X11 : (c : Dev nD) → (b : Ref sig .tc) → Buf (Elt F) ((c : Thread nD τ).loc b) := fun c b => B11 m ρ c b
/-- At the end of region 3 each of its arrays holds what the region leaves there, and every other buffer what it
    held when the region was entered. -/
theorem hF3 (c : Dev nD) (w : Fin cfg3.W) : (dat3 (E10 m ρ) c).arrAt w cfg3.N = X11 m ρ c (Pipeline.arrRef spec3 w) :=
  (B11_arr m ρ c w).symm
theorem hrest3 (c : Dev nD) : ∀ b, b ∉ Finset.univ.image (Pipeline.arrRef spec3) → X11 m ρ c b = E10 m ρ c b :=
  fun b hb => B11_of_ne m ρ c b fun w e => hb (Finset.mem_image.mpr ⟨w, Finset.mem_univ _, e⟩)

/-- After the host operations of segment 11. -/
abbrev B12 : Dev nD → Valuation τ sig (Elt F) := fun c => StableHlo.after main_part3_ops3 (B11 m ρ c)
/-- After the host operations of segment 12. -/
abbrev B13 : Dev nD → Valuation τ sig (Elt F) := fun c => StableHlo.after main_part4_ops0 (B12 m ρ c)
/-- After the host operations of segment 13. -/
abbrev B14 : Dev nD → Valuation τ sig (Elt F) := fun c => StableHlo.after main_part5_ops0 (B13 m ρ c)
/-- After the host operations of segment 14. -/
abbrev B15 : Dev nD → Valuation τ sig (Elt F) := fun c => StableHlo.after main_part6_ops0 (B14 m ρ c)

/-- Segment 15 is region 4: what it is entered with, read at the core's own references. -/
abbrev E15 : (c : Dev nD) → (b : Ref sig .tc) → Buf (Elt F) ((c : Thread nD τ).loc b) := fun c b => B15 m ρ c b
/-- After region 4: its arrays at what the tiles' write-backs leave (an input array as entered, the output array
    the fold of the write-backs over all the tiles), every other buffer as entered. -/
def B16 (c : Dev nD) : Valuation τ sig (Elt F) :=
  Pipeline.withArrays spec4 c (B15 m ρ c) fun w => (dat4 (E15 m ρ) c).arrAt w cfg4.N
theorem B16_arr (c : Dev nD) (w : Fin cfg4.W) :
    B16 m ρ c (Proc.devRef .tc (Pipeline.arrRef spec4 w)) = (dat4 (E15 m ρ) c).arrAt w cfg4.N := by
  unfold B16; exact Pipeline.withArrays_arr spec4 launch4.win.arr_inj c _ _ w
theorem B16_of_ne (c : Dev nD) (b : Ref sig .tc) (hb : ∀ w, Pipeline.arrRef spec4 w ≠ b) :
    B16 m ρ c (Proc.devRef .tc b) = B15 m ρ c (Proc.devRef .tc b) := by
  unfold B16; exact Pipeline.withArrays_of_ne spec4 c _ _ b hb
/-- The same contents read at the core's own references. -/
abbrev X16 : (c : Dev nD) → (b : Ref sig .tc) → Buf (Elt F) ((c : Thread nD τ).loc b) := fun c b => B16 m ρ c b
/-- At the end of region 4 each of its arrays holds what the region leaves there, and every other buffer what it
    held when the region was entered. -/
theorem hF4 (c : Dev nD) (w : Fin cfg4.W) : (dat4 (E15 m ρ) c).arrAt w cfg4.N = X16 m ρ c (Pipeline.arrRef spec4 w) :=
  (B16_arr m ρ c w).symm
theorem hrest4 (c : Dev nD) : ∀ b, b ∉ Finset.univ.image (Pipeline.arrRef spec4) → X16 m ρ c b = E15 m ρ c b :=
  fun b hb => B16_of_ne m ρ c b fun w e => hb (Finset.mem_image.mpr ⟨w, Finset.mem_univ _, e⟩)

/-- After the host operations of segment 16. -/
abbrev B17 : Dev nD → Valuation τ sig (Elt F) := fun c => StableHlo.after main_part6_ops1 (B16 m ρ c)
/-- After the host operations of segment 17. -/
abbrev B18 : Dev nD → Valuation τ sig (Elt F) := fun c => StableHlo.after main_part7_ops0 (B17 m ρ c)

/-- Segment 18 is region 5: what it is entered with, read at the core's own references. -/
abbrev E18 : (c : Dev nD) → (b : Ref sig .tc) → Buf (Elt F) ((c : Thread nD τ).loc b) := fun c b => B18 m ρ c b
/-- After region 5: its arrays at what the tiles' write-backs leave (an input array as entered, the output array
    the fold of the write-backs over all the tiles), every other buffer as entered. -/
def B19 (c : Dev nD) : Valuation τ sig (Elt F) :=
  Pipeline.withArrays spec5 c (B18 m ρ c) fun w => (dat5 (E18 m ρ) c).arrAt w cfg5.N
theorem B19_arr (c : Dev nD) (w : Fin cfg5.W) :
    B19 m ρ c (Proc.devRef .tc (Pipeline.arrRef spec5 w)) = (dat5 (E18 m ρ) c).arrAt w cfg5.N := by
  unfold B19; exact Pipeline.withArrays_arr spec5 launch5.win.arr_inj c _ _ w
theorem B19_of_ne (c : Dev nD) (b : Ref sig .tc) (hb : ∀ w, Pipeline.arrRef spec5 w ≠ b) :
    B19 m ρ c (Proc.devRef .tc b) = B18 m ρ c (Proc.devRef .tc b) := by
  unfold B19; exact Pipeline.withArrays_of_ne spec5 c _ _ b hb
/-- The same contents read at the core's own references. -/
abbrev X19 : (c : Dev nD) → (b : Ref sig .tc) → Buf (Elt F) ((c : Thread nD τ).loc b) := fun c b => B19 m ρ c b
/-- At the end of region 5 each of its arrays holds what the region leaves there, and every other buffer what it
    held when the region was entered. -/
theorem hF5 (c : Dev nD) (w : Fin cfg5.W) : (dat5 (E18 m ρ) c).arrAt w cfg5.N = X19 m ρ c (Pipeline.arrRef spec5 w) :=
  (B19_arr m ρ c w).symm
theorem hrest5 (c : Dev nD) : ∀ b, b ∉ Finset.univ.image (Pipeline.arrRef spec5) → X19 m ρ c b = E18 m ρ c b :=
  fun b hb => B19_of_ne m ρ c b fun w e => hb (Finset.mem_image.mpr ⟨w, Finset.mem_univ _, e⟩)

/-- After the host operations of segment 19. -/
abbrev B20 : Dev nD → Valuation τ sig (Elt F) := fun c => StableHlo.after main_part7_ops1 (B19 m ρ c)

/-- Segment 20 is region 6: what it is entered with, read at the core's own references. -/
abbrev E20 : (c : Dev nD) → (b : Ref sig .tc) → Buf (Elt F) ((c : Thread nD τ).loc b) := fun c b => B20 m ρ c b
/-- After region 6: its arrays at what the tiles' write-backs leave (an input array as entered, the output array
    the fold of the write-backs over all the tiles), every other buffer as entered. -/
def B21 (c : Dev nD) : Valuation τ sig (Elt F) :=
  Pipeline.withArrays spec6 c (B20 m ρ c) fun w => (dat6 (E20 m ρ) c).arrAt w cfg6.N
theorem B21_arr (c : Dev nD) (w : Fin cfg6.W) :
    B21 m ρ c (Proc.devRef .tc (Pipeline.arrRef spec6 w)) = (dat6 (E20 m ρ) c).arrAt w cfg6.N := by
  unfold B21; exact Pipeline.withArrays_arr spec6 launch6.win.arr_inj c _ _ w
theorem B21_of_ne (c : Dev nD) (b : Ref sig .tc) (hb : ∀ w, Pipeline.arrRef spec6 w ≠ b) :
    B21 m ρ c (Proc.devRef .tc b) = B20 m ρ c (Proc.devRef .tc b) := by
  unfold B21; exact Pipeline.withArrays_of_ne spec6 c _ _ b hb
/-- The same contents read at the core's own references. -/
abbrev X21 : (c : Dev nD) → (b : Ref sig .tc) → Buf (Elt F) ((c : Thread nD τ).loc b) := fun c b => B21 m ρ c b
/-- At the end of region 6 each of its arrays holds what the region leaves there, and every other buffer what it
    held when the region was entered. -/
theorem hF6 (c : Dev nD) (w : Fin cfg6.W) : (dat6 (E20 m ρ) c).arrAt w cfg6.N = X21 m ρ c (Pipeline.arrRef spec6 w) :=
  (B21_arr m ρ c w).symm
theorem hrest6 (c : Dev nD) : ∀ b, b ∉ Finset.univ.image (Pipeline.arrRef spec6) → X21 m ρ c b = E20 m ρ c b :=
  fun b hb => B21_of_ne m ρ c b fun w e => hb (Finset.mem_image.mpr ⟨w, Finset.mem_univ _, e⟩)

/-- After the host operations of segment 21. -/
abbrev B22 : Dev nD → Valuation τ sig (Elt F) := fun c => StableHlo.after main_part7_ops2 (B21 m ρ c)

/-- Segment 22 is region 7: what it is entered with, read at the core's own references. -/
abbrev E22 : (c : Dev nD) → (b : Ref sig .tc) → Buf (Elt F) ((c : Thread nD τ).loc b) := fun c b => B22 m ρ c b
/-- After region 7: its arrays at what the tiles' write-backs leave (an input array as entered, the output array
    the fold of the write-backs over all the tiles), every other buffer as entered. -/
def B23 (c : Dev nD) : Valuation τ sig (Elt F) :=
  Pipeline.withArrays spec7 c (B22 m ρ c) fun w => (dat7 (E22 m ρ) c).arrAt w cfg7.N
theorem B23_arr (c : Dev nD) (w : Fin cfg7.W) :
    B23 m ρ c (Proc.devRef .tc (Pipeline.arrRef spec7 w)) = (dat7 (E22 m ρ) c).arrAt w cfg7.N := by
  unfold B23; exact Pipeline.withArrays_arr spec7 launch7.win.arr_inj c _ _ w
theorem B23_of_ne (c : Dev nD) (b : Ref sig .tc) (hb : ∀ w, Pipeline.arrRef spec7 w ≠ b) :
    B23 m ρ c (Proc.devRef .tc b) = B22 m ρ c (Proc.devRef .tc b) := by
  unfold B23; exact Pipeline.withArrays_of_ne spec7 c _ _ b hb
/-- The same contents read at the core's own references. -/
abbrev X23 : (c : Dev nD) → (b : Ref sig .tc) → Buf (Elt F) ((c : Thread nD τ).loc b) := fun c b => B23 m ρ c b
/-- At the end of region 7 each of its arrays holds what the region leaves there, and every other buffer what it
    held when the region was entered. -/
theorem hF7 (c : Dev nD) (w : Fin cfg7.W) : (dat7 (E22 m ρ) c).arrAt w cfg7.N = X23 m ρ c (Pipeline.arrRef spec7 w) :=
  (B23_arr m ρ c w).symm
theorem hrest7 (c : Dev nD) : ∀ b, b ∉ Finset.univ.image (Pipeline.arrRef spec7) → X23 m ρ c b = E22 m ρ c b :=
  fun b hb => B23_of_ne m ρ c b fun w e => hb (Finset.mem_image.mpr ⟨w, Finset.mem_univ _, e⟩)

/-- After the host operations of segment 23. -/
abbrev B24 : Dev nD → Valuation τ sig (Elt F) := fun c => StableHlo.after main_part7_ops3 (B23 m ρ c)
/-- After the host operations of segment 24. -/
abbrev B25 : Dev nD → Valuation τ sig (Elt F) := fun c => StableHlo.after main_part8_ops0 (B24 m ρ c)

/-- Segment 25 is region 8: what it is entered with, read at the core's own references. -/
abbrev E25 : (c : Dev nD) → (b : Ref sig .tc) → Buf (Elt F) ((c : Thread nD τ).loc b) := fun c b => B25 m ρ c b
/-- After region 8: its arrays at what the tiles' write-backs leave (an input array as entered, the output array
    the fold of the write-backs over all the tiles), every other buffer as entered. -/
def B26 (c : Dev nD) : Valuation τ sig (Elt F) :=
  Pipeline.withArrays spec8 c (B25 m ρ c) fun w => (dat8 (E25 m ρ) c).arrAt w cfg8.N
theorem B26_arr (c : Dev nD) (w : Fin cfg8.W) :
    B26 m ρ c (Proc.devRef .tc (Pipeline.arrRef spec8 w)) = (dat8 (E25 m ρ) c).arrAt w cfg8.N := by
  unfold B26; exact Pipeline.withArrays_arr spec8 launch8.win.arr_inj c _ _ w
theorem B26_of_ne (c : Dev nD) (b : Ref sig .tc) (hb : ∀ w, Pipeline.arrRef spec8 w ≠ b) :
    B26 m ρ c (Proc.devRef .tc b) = B25 m ρ c (Proc.devRef .tc b) := by
  unfold B26; exact Pipeline.withArrays_of_ne spec8 c _ _ b hb
/-- The same contents read at the core's own references. -/
abbrev X26 : (c : Dev nD) → (b : Ref sig .tc) → Buf (Elt F) ((c : Thread nD τ).loc b) := fun c b => B26 m ρ c b
/-- At the end of region 8 each of its arrays holds what the region leaves there, and every other buffer what it
    held when the region was entered. -/
theorem hF8 (c : Dev nD) (w : Fin cfg8.W) : (dat8 (E25 m ρ) c).arrAt w cfg8.N = X26 m ρ c (Pipeline.arrRef spec8 w) :=
  (B26_arr m ρ c w).symm
theorem hrest8 (c : Dev nD) : ∀ b, b ∉ Finset.univ.image (Pipeline.arrRef spec8) → X26 m ρ c b = E25 m ρ c b :=
  fun b hb => B26_of_ne m ρ c b fun w e => hb (Finset.mem_image.mpr ⟨w, Finset.mem_univ _, e⟩)

/-! ## The regions' data, and what rides along -/

/-- No region reads a table of indices fetched ahead of it. -/
abbrev adm : (p : Fin 9) → (pcfgs (F := F) p).Adm := fun p => (cfgs p).toPCfg_adm
/-- The data of the nine regions, each taken at the contents its region is entered with. -/
def pdats : (p : Fin 9) → (c : Dev nD) → Dat τ (Elt F) Unit ℕ (UR sig nD τ) ℕ (Pipeline.pin (pcfgs (F := F)) adm p) c
  | ⟨0, _⟩ => fun c => dat0 (E3 m ρ) c
  | ⟨1, _⟩ => fun c => dat1 (E6 m ρ) c
  | ⟨2, _⟩ => fun c => dat2 (E8 m ρ) c
  | ⟨3, _⟩ => fun c => dat3 (E10 m ρ) c
  | ⟨4, _⟩ => fun c => dat4 (E15 m ρ) c
  | ⟨5, _⟩ => fun c => dat5 (E18 m ρ) c
  | ⟨6, _⟩ => fun c => dat6 (E20 m ρ) c
  | ⟨7, _⟩ => fun c => dat7 (E22 m ρ) c
  | ⟨8, _⟩ => fun c => dat8 (E25 m ρ) c
abbrev 𝒱₀ : Variants := Variants.none
/-- No core owes another anything, so no pair of cores is given a level. -/
abbrev L : GSem nD τ sig → Finset Unit := fun _ => ∅
abbrev lv : GSem nD τ sig → Unit → ℕ := fun _ _ => 0
/-- What every segment carries beside the buffers: the random-number register at some state, and the core's
    account of what it owes, at nothing. -/
abbrev R (c : Dev nD) : sProp 𝕄 := iprop((∃ r, prngReg c r) ∗ ∃ W, owes (c : Thread nD τ) (0 : CellTallies nD τ sig Unit) W)
/-- A stretch of host operations as a segment: run from every unscoped buffer at the contents W it ends with them
    at the fold of the operations over W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-! No host operation allocates a buffer. -/
theorem main_part0_ops0_fresh : (main_part0_ops0 : List (HloOp τ sig (Elt F))).Forall fun op => op.fresh = ∅ := by
  simp only [List.Forall]; repeat' constructor
theorem main_part1_ops0_fresh : (main_part1_ops0 : List (HloOp τ sig (Elt F))).Forall fun op => op.fresh = ∅ := by
  simp only [List.Forall]; repeat' constructor
theorem main_part2_ops0_fresh : (main_part2_ops0 : List (HloOp τ sig (Elt F))).Forall fun op => op.fresh = ∅ := by
  simp only [List.Forall]; repeat' constructor
theorem main_part2_ops1_fresh : (main_part2_ops1 : List (HloOp τ sig (Elt F))).Forall fun op => op.fresh = ∅ := by
  simp only [List.Forall]; repeat' constructor
theorem main_part3_ops0_fresh : (main_part3_ops0 : List (HloOp τ sig (Elt F))).Forall fun op => op.fresh = ∅ := by
  simp only [List.Forall]; repeat' constructor
theorem main_part3_ops1_fresh : (main_part3_ops1 : List (HloOp τ sig (Elt F))).Forall fun op => op.fresh = ∅ := by
  simp only [List.Forall]; repeat' constructor
theorem main_part3_ops2_fresh : (main_part3_ops2 : List (HloOp τ sig (Elt F))).Forall fun op => op.fresh = ∅ := by
  simp only [List.Forall]; repeat' constructor
theorem main_part3_ops3_fresh : (main_part3_ops3 : List (HloOp τ sig (Elt F))).Forall fun op => op.fresh = ∅ := by
  simp only [List.Forall]; repeat' constructor
theorem main_part4_ops0_fresh : (main_part4_ops0 : List (HloOp τ sig (Elt F))).Forall fun op => op.fresh = ∅ := by
  simp only [List.Forall]; repeat' constructor
theorem main_part5_ops0_fresh : (main_part5_ops0 : List (HloOp τ sig (Elt F))).Forall fun op => op.fresh = ∅ := by
  simp only [List.Forall]; repeat' constructor
theorem main_part6_ops0_fresh : (main_part6_ops0 : List (HloOp τ sig (Elt F))).Forall fun op => op.fresh = ∅ := by
  simp only [List.Forall]; repeat' constructor
theorem main_part6_ops1_fresh : (main_part6_ops1 : List (HloOp τ sig (Elt F))).Forall fun op => op.fresh = ∅ := by
  simp only [List.Forall]; repeat' constructor
theorem main_part7_ops0_fresh : (main_part7_ops0 : List (HloOp τ sig (Elt F))).Forall fun op => op.fresh = ∅ := by
  simp only [List.Forall]; repeat' constructor
theorem main_part7_ops1_fresh : (main_part7_ops1 : List (HloOp τ sig (Elt F))).Forall fun op => op.fresh = ∅ := by
  simp only [List.Forall]; repeat' constructor
theorem main_part7_ops2_fresh : (main_part7_ops2 : List (HloOp τ sig (Elt F))).Forall fun op => op.fresh = ∅ := by
  simp only [List.Forall]; repeat' constructor
theorem main_part7_ops3_fresh : (main_part7_ops3 : List (HloOp τ sig (Elt F))).Forall fun op => op.fresh = ∅ := by
  simp only [List.Forall]; repeat' constructor
theorem main_part8_ops0_fresh : (main_part8_ops0 : List (HloOp τ sig (Elt F))).Forall fun op => op.fresh = ∅ := by
  simp only [List.Forall]; repeat' constructor

/-- An unscoped reference of the core is among the buffers every segment carries. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What the program ends with, beside a core that owes nothing: every unscoped buffer at the last boundary's
    contents, the random-number register at some state. -/
abbrev Tₙ (c : Dev nD) : sProp 𝕄 := iprop(StableHlo.held (c : Thread nD τ) (Pipeline.ucRefs τ sig) (B26 m ρ c) ∗ ∃ r, prngReg c r)

end Cert.KernelIdeal.Hand

end
-- ==== Proof.KI.Reg0.lean ====
import proofs.«154750_j39152921870699_1_alg».proof.Proof.KI.Chain

/-!
# Region 0 as a segment of the program

The region is entered holding every unscoped buffer of the core at the contents of boundary 3, and is left
holding them at the contents of boundary 4.  At entry its arrays are taken out of the unscoped buffers
and handed to the tiled pipeline, whose data is stated at exactly those contents; at exit they are put back at
what the pipeline left, every other buffer not having moved.  The random-number register goes into the
pipeline's invariant and comes back; nothing is owed to another core before or after; the kernel has no
semaphore of its own.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 0: from every unscoped buffer at boundary 3's contents to every unscoped buffer at boundary 4's. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E3 m ρ) c).loose
  hwaits := Pipeline.hwaits_of_owed_zero _ _ _ _ L lv 0 fun _ _ => rfl
  pre c := iprop(StableHlo.held (c : Thread nD τ) (Pipeline.ucRefs τ sig) (B3 m ρ c) ∗ R c)
  post c := iprop(StableHlo.held (c : Thread nD τ) (Pipeline.ucRefs τ sig) (B4 m ρ c) ∗ R c)
  X c := iprop(∃ r, prngReg c r)
  Y c := iprop(∃ r, prngReg c r)
  Z c := Pipeline.unscopedRest (Ix := Unit) (Name := ℕ) (U := UR sig nD τ) (Lvl := ℕ) spec0 c (E3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E3 m ρ c) (X4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg1.lean ====
import proofs.«154750_j39152921870699_1_alg».proof.Proof.KI.Chain

/-!
# Region 1 as a segment of the program

The region is entered holding every unscoped buffer of the core at the contents of boundary 6, and is left
holding them at the contents of boundary 7.  At entry its arrays are taken out of the unscoped buffers
and handed to the tiled pipeline, whose data is stated at exactly those contents; at exit they are put back at
what the pipeline left, every other buffer not having moved.  The random-number register goes into the
pipeline's invariant and comes back; nothing is owed to another core before or after; the kernel has no
semaphore of its own.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 1: from every unscoped buffer at boundary 6's contents to every unscoped buffer at boundary 7's. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E6 m ρ) c).loose
  hwaits := Pipeline.hwaits_of_owed_zero _ _ _ _ L lv 1 fun _ _ => rfl
  pre c := iprop(StableHlo.held (c : Thread nD τ) (Pipeline.ucRefs τ sig) (B6 m ρ c) ∗ R c)
  post c := iprop(StableHlo.held (c : Thread nD τ) (Pipeline.ucRefs τ sig) (B7 m ρ c) ∗ R c)
  X c := iprop(∃ r, prngReg c r)
  Y c := iprop(∃ r, prngReg c r)
  Z c := Pipeline.unscopedRest (Ix := Unit) (Name := ℕ) (U := UR sig nD τ) (Lvl := ℕ) spec1 c (E6 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E6 m ρ c) (X7 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg2.lean ====
import proofs.«154750_j39152921870699_1_alg».proof.Proof.KI.Chain

/-!
# Region 2 as a segment of the program

The region is entered holding every unscoped buffer of the core at the contents of boundary 8, and is left
holding them at the contents of boundary 9.  At entry its arrays are taken out of the unscoped buffers
and handed to the tiled pipeline, whose data is stated at exactly those contents; at exit they are put back at
what the pipeline left, every other buffer not having moved.  The random-number register goes into the
pipeline's invariant and comes back; nothing is owed to another core before or after; the kernel has no
semaphore of its own.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 2: from every unscoped buffer at boundary 8's contents to every unscoped buffer at boundary 9's. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E8 m ρ) c).loose
  hwaits := Pipeline.hwaits_of_owed_zero _ _ _ _ L lv 2 fun _ _ => rfl
  pre c := iprop(StableHlo.held (c : Thread nD τ) (Pipeline.ucRefs τ sig) (B8 m ρ c) ∗ R c)
  post c := iprop(StableHlo.held (c : Thread nD τ) (Pipeline.ucRefs τ sig) (B9 m ρ c) ∗ R c)
  X c := iprop(∃ r, prngReg c r)
  Y c := iprop(∃ r, prngReg c r)
  Z c := Pipeline.unscopedRest (Ix := Unit) (Name := ℕ) (U := UR sig nD τ) (Lvl := ℕ) spec2 c (E8 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E8 m ρ c) (X9 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg3.lean ====
import proofs.«154750_j39152921870699_1_alg».proof.Proof.KI.Chain

/-!
# Region 3 as a segment of the program

The region is entered holding every unscoped buffer of the core at the contents of boundary 10, and is left
holding them at the contents of boundary 11.  At entry its arrays are taken out of the unscoped buffers
and handed to the tiled pipeline, whose data is stated at exactly those contents; at exit they are put back at
what the pipeline left, every other buffer not having moved.  The random-number register goes into the
pipeline's invariant and comes back; nothing is owed to another core before or after; the kernel has no
semaphore of its own.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 3: from every unscoped buffer at boundary 10's contents to every unscoped buffer at boundary 11's. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E10 m ρ) c).loose
  hwaits := Pipeline.hwaits_of_owed_zero _ _ _ _ L lv 3 fun _ _ => rfl
  pre c := iprop(StableHlo.held (c : Thread nD τ) (Pipeline.ucRefs τ sig) (B10 m ρ c) ∗ R c)
  post c := iprop(StableHlo.held (c : Thread nD τ) (Pipeline.ucRefs τ sig) (B11 m ρ c) ∗ R c)
  X c := iprop(∃ r, prngReg c r)
  Y c := iprop(∃ r, prngReg c r)
  Z c := Pipeline.unscopedRest (Ix := Unit) (Name := ℕ) (U := UR sig nD τ) (Lvl := ℕ) spec3 c (E10 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (E10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (E10 m ρ c) (X11 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg4.lean ====
import proofs.«154750_j39152921870699_1_alg».proof.Proof.KI.Chain

/-!
# Region 4 as a segment of the program

The region is entered holding every unscoped buffer of the core at the contents of boundary 15, and is left
holding them at the contents of boundary 16.  At entry its arrays are taken out of the unscoped buffers
and handed to the tiled pipeline, whose data is stated at exactly those contents; at exit they are put back at
what the pipeline left, every other buffer not having moved.  The random-number register goes into the
pipeline's invariant and comes back; nothing is owed to another core before or after; the kernel has no
semaphore of its own.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 4: from every unscoped buffer at boundary 15's contents to every unscoped buffer at boundary 16's. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (E15 m ρ) c).loose
  hwaits := Pipeline.hwaits_of_owed_zero _ _ _ _ L lv 4 fun _ _ => rfl
  pre c := iprop(StableHlo.held (c : Thread nD τ) (Pipeline.ucRefs τ sig) (B15 m ρ c) ∗ R c)
  post c := iprop(StableHlo.held (c : Thread nD τ) (Pipeline.ucRefs τ sig) (B16 m ρ c) ∗ R c)
  X c := iprop(∃ r, prngReg c r)
  Y c := iprop(∃ r, prngReg c r)
  Z c := Pipeline.unscopedRest (Ix := Unit) (Name := ℕ) (U := UR sig nD τ) (Lvl := ℕ) spec4 c (E15 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (E15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (E15 m ρ c) (X16 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg5.lean ====
import proofs.«154750_j39152921870699_1_alg».proof.Proof.KI.Chain

/-!
# Region 5 as a segment of the program

The region is entered holding every unscoped buffer of the core at the contents of boundary 18, and is left
holding them at the contents of boundary 19.  At entry its arrays are taken out of the unscoped buffers
and handed to the tiled pipeline, whose data is stated at exactly those contents; at exit they are put back at
what the pipeline left, every other buffer not having moved.  The random-number register goes into the
pipeline's invariant and comes back; nothing is owed to another core before or after; the kernel has no
semaphore of its own.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 5: from every unscoped buffer at boundary 18's contents to every unscoped buffer at boundary 19's. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (E18 m ρ) c).loose
  hwaits := Pipeline.hwaits_of_owed_zero _ _ _ _ L lv 5 fun _ _ => rfl
  pre c := iprop(StableHlo.held (c : Thread nD τ) (Pipeline.ucRefs τ sig) (B18 m ρ c) ∗ R c)
  post c := iprop(StableHlo.held (c : Thread nD τ) (Pipeline.ucRefs τ sig) (B19 m ρ c) ∗ R c)
  X c := iprop(∃ r, prngReg c r)
  Y c := iprop(∃ r, prngReg c r)
  Z c := Pipeline.unscopedRest (Ix := Unit) (Name := ℕ) (U := UR sig nD τ) (Lvl := ℕ) spec5 c (E18 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (E18 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (E18 m ρ c) (X19 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg6.lean ====
import proofs.«154750_j39152921870699_1_alg».proof.Proof.KI.Chain

/-!
# Region 6 as a segment of the program

The region is entered holding every unscoped buffer of the core at the contents of boundary 20, and is left
holding them at the contents of boundary 21.  At entry its arrays are taken out of the unscoped buffers
and handed to the tiled pipeline, whose data is stated at exactly those contents; at exit they are put back at
what the pipeline left, every other buffer not having moved.  The random-number register goes into the
pipeline's invariant and comes back; nothing is owed to another core before or after; the kernel has no
semaphore of its own.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 6: from every unscoped buffer at boundary 20's contents to every unscoped buffer at boundary 21's. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (E20 m ρ) c).loose
  hwaits := Pipeline.hwaits_of_owed_zero _ _ _ _ L lv 6 fun _ _ => rfl
  pre c := iprop(StableHlo.held (c : Thread nD τ) (Pipeline.ucRefs τ sig) (B20 m ρ c) ∗ R c)
  post c := iprop(StableHlo.held (c : Thread nD τ) (Pipeline.ucRefs τ sig) (B21 m ρ c) ∗ R c)
  X c := iprop(∃ r, prngReg c r)
  Y c := iprop(∃ r, prngReg c r)
  Z c := Pipeline.unscopedRest (Ix := Unit) (Name := ℕ) (U := UR sig nD τ) (Lvl := ℕ) spec6 c (E20 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (E20 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (E20 m ρ c) (X21 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg7.lean ====
import proofs.«154750_j39152921870699_1_alg».proof.Proof.KI.Chain

/-!
# Region 7 as a segment of the program

The region is entered holding every unscoped buffer of the core at the contents of boundary 22, and is left
holding them at the contents of boundary 23.  At entry its arrays are taken out of the unscoped buffers
and handed to the tiled pipeline, whose data is stated at exactly those contents; at exit they are put back at
what the pipeline left, every other buffer not having moved.  The random-number register goes into the
pipeline's invariant and comes back; nothing is owed to another core before or after; the kernel has no
semaphore of its own.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 7: from every unscoped buffer at boundary 22's contents to every unscoped buffer at boundary 23's. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (E22 m ρ) c).loose
  hwaits := Pipeline.hwaits_of_owed_zero _ _ _ _ L lv 7 fun _ _ => rfl
  pre c := iprop(StableHlo.held (c : Thread nD τ) (Pipeline.ucRefs τ sig) (B22 m ρ c) ∗ R c)
  post c := iprop(StableHlo.held (c : Thread nD τ) (Pipeline.ucRefs τ sig) (B23 m ρ c) ∗ R c)
  X c := iprop(∃ r, prngReg c r)
  Y c := iprop(∃ r, prngReg c r)
  Z c := Pipeline.unscopedRest (Ix := Unit) (Name := ℕ) (U := UR sig nD τ) (Lvl := ℕ) spec7 c (E22 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (E22 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (E22 m ρ c) (X23 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg8.lean ====
import proofs.«154750_j39152921870699_1_alg».proof.Proof.KI.Chain

/-!
# Region 8 as a segment of the program

The region is entered holding every unscoped buffer of the core at the contents of boundary 25, and is left
holding them at the contents of boundary 26.  At entry its arrays are taken out of the unscoped buffers
and handed to the tiled pipeline, whose data is stated at exactly those contents; at exit they are put back at
what the pipeline left, every other buffer not having moved.  The random-number register goes into the
pipeline's invariant and comes back; nothing is owed to another core before or after; the kernel has no
semaphore of its own.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 8: from every unscoped buffer at boundary 25's contents to every unscoped buffer at boundary 26's. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (E25 m ρ) c).loose
  hwaits := Pipeline.hwaits_of_owed_zero _ _ _ _ L lv 8 fun _ _ => rfl
  pre c := iprop(StableHlo.held (c : Thread nD τ) (Pipeline.ucRefs τ sig) (B25 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec8 c (E25 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (E25 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (E25 m ρ c) (X26 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.KernelIdeal.Hand

end
-- ==== Proof.KI.Keep.lean ====
import proofs.«154750_j39152921870699_1_alg».proof.Proof.KI.Chain

/-!
# No segment changes an argument of the program

The program's 25 arguments are the buffers 0 to 24 of the device memory.  Every host operation writes one
buffer, and it is never one of those; a region changes only its output array, which is never one of those
either (the last region reads two arguments, through input windows, and an input array ends as it was
entered).  So at every boundary an argument's buffer holds what it held at the boundary before, and at the end
what it held at launch.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The reference is one of the program's 25 arguments: buffers 0 to 24 of the device memory. -/
def IsArg (r : Ref sig .tc) : Prop := r.space = Space.hbm ∧ r.idx.val < 25

instance : DecidablePred IsArg := fun r => by unfold IsArg; infer_instance

/-- The operation writes no argument. -/
def Keeps (op : HloOp τ sig (Elt F)) : Prop := ∀ r, IsArg r → Proc.devRef (τ := τ) .tc r ∉ op.writes

/-- An operation whose one written buffer is not an argument writes no argument. -/
theorem keeps_single {op : HloOp τ sig (Elt F)} {y : Ref sig .tc}
    (hw : op.writes = {Proc.devRef .tc y}) (hy : ¬ IsArg y) : Keeps op := fun r hr hm => by
  rw [hw, Finset.mem_singleton] at hm
  have e : r = y := Proc.devRef_injective _ hm
  exact hy (e ▸ hr)

/-- A line of operations none of which writes an argument leaves every argument as it was. -/
theorem after_keeps (ops : List (HloOp τ sig (Elt F))) (h : ops.Forall Keeps) (V : Valuation τ sig (Elt F))
    (r : Ref sig .tc) (hr : IsArg r) : StableHlo.after ops V (Proc.devRef .tc r) = V (Proc.devRef .tc r) :=
  StableHlo.after_of_forall_not_mem ops V fun op hop => (List.forall_iff_forall_mem.mp h) op hop r hr

/-! ## The host stretches: each operation's written buffer is looked up and is not an argument -/

theorem main_part0_ops0_keeps : (main_part0_ops0 : List (HloOp τ sig (Elt F))).Forall Keeps := by
  simp only [main_part0_ops0, List.Forall]
  repeat' apply And.intro
  all_goals exact keeps_single rfl (by decide)
theorem main_part1_ops0_keeps : (main_part1_ops0 : List (HloOp τ sig (Elt F))).Forall Keeps := by
  simp only [main_part1_ops0, List.Forall]
  repeat' apply And.intro
  all_goals exact keeps_single rfl (by decide)
theorem main_part2_ops0_keeps : (main_part2_ops0 : List (HloOp τ sig (Elt F))).Forall Keeps := by
  simp only [main_part2_ops0, List.Forall]
  repeat' apply And.intro
  all_goals exact keeps_single rfl (by decide)
theorem main_part2_ops1_keeps : (main_part2_ops1 : List (HloOp τ sig (Elt F))).Forall Keeps := by
  simp only [main_part2_ops1, List.Forall]
  repeat' apply And.intro
  all_goals exact keeps_single rfl (by decide)
theorem main_part3_ops0_keeps : (main_part3_ops0 : List (HloOp τ sig (Elt F))).Forall Keeps := by
  simp only [main_part3_ops0, List.Forall]
  repeat' apply And.intro
  all_goals exact keeps_single rfl (by decide)
theorem main_part3_ops1_keeps : (main_part3_ops1 : List (HloOp τ sig (Elt F))).Forall Keeps := by
  simp only [main_part3_ops1, List.Forall]
  repeat' apply And.intro
  all_goals exact keeps_single rfl (by decide)
theorem main_part3_ops2_keeps : (main_part3_ops2 : List (HloOp τ sig (Elt F))).Forall Keeps := by
  simp only [main_part3_ops2, List.Forall]
  repeat' apply And.intro
  all_goals exact keeps_single rfl (by decide)
theorem main_part3_ops3_keeps : (main_part3_ops3 : List (HloOp τ sig (Elt F))).Forall Keeps := by
  simp only [main_part3_ops3, List.Forall]
  repeat' apply And.intro
  all_goals exact keeps_single rfl (by decide)
theorem main_part4_ops0_keeps : (main_part4_ops0 : List (HloOp τ sig (Elt F))).Forall Keeps := by
  simp only [main_part4_ops0, List.Forall]
  repeat' apply And.intro
  all_goals exact keeps_single rfl (by decide)
theorem main_part5_ops0_keeps : (main_part5_ops0 : List (HloOp τ sig (Elt F))).Forall Keeps := by
  simp only [main_part5_ops0, List.Forall]
  repeat' apply And.intro
  all_goals exact keeps_single rfl (by decide)
theorem main_part6_ops0_keeps : (main_part6_ops0 : List (HloOp τ sig (Elt F))).Forall Keeps := by
  simp only [main_part6_ops0, List.Forall]
  repeat' apply And.intro
  all_goals exact keeps_single rfl (by decide)
theorem main_part6_ops1_keeps : (main_part6_ops1 : List (HloOp τ sig (Elt F))).Forall Keeps := by
  simp only [main_part6_ops1, List.Forall]
  repeat' apply And.intro
  all_goals exact keeps_single rfl (by decide)
theorem main_part7_ops0_keeps : (main_part7_ops0 : List (HloOp τ sig (Elt F))).Forall Keeps := by
  simp only [main_part7_ops0, List.Forall]
  repeat' apply And.intro
  all_goals exact keeps_single rfl (by decide)
theorem main_part7_ops1_keeps : (main_part7_ops1 : List (HloOp τ sig (Elt F))).Forall Keeps := by
  simp only [main_part7_ops1, List.Forall]
  repeat' apply And.intro
  all_goals exact keeps_single rfl (by decide)
theorem main_part7_ops2_keeps : (main_part7_ops2 : List (HloOp τ sig (Elt F))).Forall Keeps := by
  simp only [main_part7_ops2, List.Forall]
  repeat' apply And.intro
  all_goals exact keeps_single rfl (by decide)
theorem main_part7_ops3_keeps : (main_part7_ops3 : List (HloOp τ sig (Elt F))).Forall Keeps := by
  simp only [main_part7_ops3, List.Forall]
  repeat' apply And.intro
  all_goals exact keeps_single rfl (by decide)
theorem main_part8_ops0_keeps : (main_part8_ops0 : List (HloOp τ sig (Elt F))).Forall Keeps := by
  simp only [main_part8_ops0, List.Forall]
  repeat' apply And.intro
  all_goals exact keeps_single rfl (by decide)

/-! ## The regions: no array of regions 0 to 7 is an argument; an array of region 8 that is one is an input -/

theorem arr0_not_arg : ∀ w : Fin cfg0.W, ¬ IsArg (Pipeline.arrRef spec0 w) := by decide
theorem arr1_not_arg : ∀ w : Fin cfg1.W, ¬ IsArg (Pipeline.arrRef spec1 w) := by decide
theorem arr2_not_arg : ∀ w : Fin cfg2.W, ¬ IsArg (Pipeline.arrRef spec2 w) := by decide
theorem arr3_not_arg : ∀ w : Fin cfg3.W, ¬ IsArg (Pipeline.arrRef spec3 w) := by decide
theorem arr4_not_arg : ∀ w : Fin cfg4.W, ¬ IsArg (Pipeline.arrRef spec4 w) := by decide
theorem arr5_not_arg : ∀ w : Fin cfg5.W, ¬ IsArg (Pipeline.arrRef spec5 w) := by decide
theorem arr6_not_arg : ∀ w : Fin cfg6.W, ¬ IsArg (Pipeline.arrRef spec6 w) := by decide
theorem arr7_not_arg : ∀ w : Fin cfg7.W, ¬ IsArg (Pipeline.arrRef spec7 w) := by decide
theorem arr8_in_of_arg : ∀ w : Fin cfg8.W, IsArg (Pipeline.arrRef spec8 w) → (cfg8.win w).isOut = false := by decide

/-! ## Boundary by boundary -/

theorem keep0 (c : Dev nD) (r : Ref sig .tc) (hr : IsArg r) :
    B1 m ρ c (Proc.devRef .tc r) = B0 m ρ c (Proc.devRef .tc r) :=
  after_keeps main_part0_ops0 main_part0_ops0_keeps (B0 m ρ c) r hr
theorem keep1 (c : Dev nD) (r : Ref sig .tc) (hr : IsArg r) :
    B2 m ρ c (Proc.devRef .tc r) = B1 m ρ c (Proc.devRef .tc r) :=
  after_keeps main_part1_ops0 main_part1_ops0_keeps (B1 m ρ c) r hr
theorem keep2 (c : Dev nD) (r : Ref sig .tc) (hr : IsArg r) :
    B3 m ρ c (Proc.devRef .tc r) = B2 m ρ c (Proc.devRef .tc r) :=
  after_keeps main_part2_ops0 main_part2_ops0_keeps (B2 m ρ c) r hr
theorem keep3 (c : Dev nD) (r : Ref sig .tc) (hr : IsArg r) :
    B4 m ρ c (Proc.devRef .tc r) = B3 m ρ c (Proc.devRef .tc r) :=
  B4_of_ne m ρ c r fun w e => arr0_not_arg w (e ▸ hr)
theorem keep4 (c : Dev nD) (r : Ref sig .tc) (hr : IsArg r) :
    B5 m ρ c (Proc.devRef .tc r) = B4 m ρ c (Proc.devRef .tc r) :=
  after_keeps main_part2_ops1 main_part2_ops1_keeps (B4 m ρ c) r hr
theorem keep5 (c : Dev nD) (r : Ref sig .tc) (hr : IsArg r) :
    B6 m ρ c (Proc.devRef .tc r) = B5 m ρ c (Proc.devRef .tc r) :=
  after_keeps main_part3_ops0 main_part3_ops0_keeps (B5 m ρ c) r hr
theorem keep6 (c : Dev nD) (r : Ref sig .tc) (hr : IsArg r) :
    B7 m ρ c (Proc.devRef .tc r) = B6 m ρ c (Proc.devRef .tc r) :=
  B7_of_ne m ρ c r fun w e => arr1_not_arg w (e ▸ hr)
theorem keep7 (c : Dev nD) (r : Ref sig .tc) (hr : IsArg r) :
    B8 m ρ c (Proc.devRef .tc r) = B7 m ρ c (Proc.devRef .tc r) :=
  after_keeps main_part3_ops1 main_part3_ops1_keeps (B7 m ρ c) r hr
theorem keep8 (c : Dev nD) (r : Ref sig .tc) (hr : IsArg r) :
    B9 m ρ c (Proc.devRef .tc r) = B8 m ρ c (Proc.devRef .tc r) :=
  B9_of_ne m ρ c r fun w e => arr2_not_arg w (e ▸ hr)
theorem keep9 (c : Dev nD) (r : Ref sig .tc) (hr : IsArg r) :
    B10 m ρ c (Proc.devRef .tc r) = B9 m ρ c (Proc.devRef .tc r) :=
  after_keeps main_part3_ops2 main_part3_ops2_keeps (B9 m ρ c) r hr
theorem keep10 (c : Dev nD) (r : Ref sig .tc) (hr : IsArg r) :
    B11 m ρ c (Proc.devRef .tc r) = B10 m ρ c (Proc.devRef .tc r) :=
  B11_of_ne m ρ c r fun w e => arr3_not_arg w (e ▸ hr)
theorem keep11 (c : Dev nD) (r : Ref sig .tc) (hr : IsArg r) :
    B12 m ρ c (Proc.devRef .tc r) = B11 m ρ c (Proc.devRef .tc r) :=
  after_keeps main_part3_ops3 main_part3_ops3_keeps (B11 m ρ c) r hr
theorem keep12 (c : Dev nD) (r : Ref sig .tc) (hr : IsArg r) :
    B13 m ρ c (Proc.devRef .tc r) = B12 m ρ c (Proc.devRef .tc r) :=
  after_keeps main_part4_ops0 main_part4_ops0_keeps (B12 m ρ c) r hr
theorem keep13 (c : Dev nD) (r : Ref sig .tc) (hr : IsArg r) :
    B14 m ρ c (Proc.devRef .tc r) = B13 m ρ c (Proc.devRef .tc r) :=
  after_keeps main_part5_ops0 main_part5_ops0_keeps (B13 m ρ c) r hr
theorem keep14 (c : Dev nD) (r : Ref sig .tc) (hr : IsArg r) :
    B15 m ρ c (Proc.devRef .tc r) = B14 m ρ c (Proc.devRef .tc r) :=
  after_keeps main_part6_ops0 main_part6_ops0_keeps (B14 m ρ c) r hr
theorem keep15 (c : Dev nD) (r : Ref sig .tc) (hr : IsArg r) :
    B16 m ρ c (Proc.devRef .tc r) = B15 m ρ c (Proc.devRef .tc r) :=
  B16_of_ne m ρ c r fun w e => arr4_not_arg w (e ▸ hr)
theorem keep16 (c : Dev nD) (r : Ref sig .tc) (hr : IsArg r) :
    B17 m ρ c (Proc.devRef .tc r) = B16 m ρ c (Proc.devRef .tc r) :=
  after_keeps main_part6_ops1 main_part6_ops1_keeps (B16 m ρ c) r hr
theorem keep17 (c : Dev nD) (r : Ref sig .tc) (hr : IsArg r) :
    B18 m ρ c (Proc.devRef .tc r) = B17 m ρ c (Proc.devRef .tc r) :=
  after_keeps main_part7_ops0 main_part7_ops0_keeps (B17 m ρ c) r hr
theorem keep18 (c : Dev nD) (r : Ref sig .tc) (hr : IsArg r) :
    B19 m ρ c (Proc.devRef .tc r) = B18 m ρ c (Proc.devRef .tc r) :=
  B19_of_ne m ρ c r fun w e => arr5_not_arg w (e ▸ hr)
theorem keep19 (c : Dev nD) (r : Ref sig .tc) (hr : IsArg r) :
    B20 m ρ c (Proc.devRef .tc r) = B19 m ρ c (Proc.devRef .tc r) :=
  after_keeps main_part7_ops1 main_part7_ops1_keeps (B19 m ρ c) r hr
theorem keep20 (c : Dev nD) (r : Ref sig .tc) (hr : IsArg r) :
    B21 m ρ c (Proc.devRef .tc r) = B20 m ρ c (Proc.devRef .tc r) :=
  B21_of_ne m ρ c r fun w e => arr6_not_arg w (e ▸ hr)
theorem keep21 (c : Dev nD) (r : Ref sig .tc) (hr : IsArg r) :
    B22 m ρ c (Proc.devRef .tc r) = B21 m ρ c (Proc.devRef .tc r) :=
  after_keeps main_part7_ops2 main_part7_ops2_keeps (B21 m ρ c) r hr
theorem keep22 (c : Dev nD) (r : Ref sig .tc) (hr : IsArg r) :
    B23 m ρ c (Proc.devRef .tc r) = B22 m ρ c (Proc.devRef .tc r) :=
  B23_of_ne m ρ c r fun w e => arr7_not_arg w (e ▸ hr)
theorem keep23 (c : Dev nD) (r : Ref sig .tc) (hr : IsArg r) :
    B24 m ρ c (Proc.devRef .tc r) = B23 m ρ c (Proc.devRef .tc r) :=
  after_keeps main_part7_ops3 main_part7_ops3_keeps (B23 m ρ c) r hr
theorem keep24 (c : Dev nD) (r : Ref sig .tc) (hr : IsArg r) :
    B25 m ρ c (Proc.devRef .tc r) = B24 m ρ c (Proc.devRef .tc r) :=
  after_keeps main_part8_ops0 main_part8_ops0_keeps (B24 m ρ c) r hr
theorem keep25 (c : Dev nD) (r : Ref sig .tc) (hr : IsArg r) :
    B26 m ρ c (Proc.devRef .tc r) = B25 m ρ c (Proc.devRef .tc r) := by
  by_cases h : ∃ w, Pipeline.arrRef spec8 w = r
  · obtain ⟨w, rfl⟩ := h
    exact (B26_arr m ρ c w).trans (((dat8 (E25 m ρ) c).arrAt_in w (arr8_in_of_arg w hr) _).trans (A_eq8 (E25 m ρ) c w))
  · exact B26_of_ne m ρ c r fun w e => h ⟨w, e⟩

/-- An argument's buffer holds at the end what it held at launch. -/
theorem B26_arg (c : Dev nD) (r : Ref sig .tc) (hr : IsArg r) :
    B26 m ρ c (Proc.devRef .tc r) = m ((c : Thread nD τ).loc r) :=
  calc B26 m ρ c (Proc.devRef .tc r)
    _ = B25 m ρ c (Proc.devRef .tc r) := keep25 m ρ c r hr
    _ = B24 m ρ c (Proc.devRef .tc r) := keep24 m ρ c r hr
    _ = B23 m ρ c (Proc.devRef .tc r) := keep23 m ρ c r hr
    _ = B22 m ρ c (Proc.devRef .tc r) := keep22 m ρ c r hr
    _ = B21 m ρ c (Proc.devRef .tc r) := keep21 m ρ c r hr
    _ = B20 m ρ c (Proc.devRef .tc r) := keep20 m ρ c r hr
    _ = B19 m ρ c (Proc.devRef .tc r) := keep19 m ρ c r hr
    _ = B18 m ρ c (Proc.devRef .tc r) := keep18 m ρ c r hr
    _ = B17 m ρ c (Proc.devRef .tc r) := keep17 m ρ c r hr
    _ = B16 m ρ c (Proc.devRef .tc r) := keep16 m ρ c r hr
    _ = B15 m ρ c (Proc.devRef .tc r) := keep15 m ρ c r hr
    _ = B14 m ρ c (Proc.devRef .tc r) := keep14 m ρ c r hr
    _ = B13 m ρ c (Proc.devRef .tc r) := keep13 m ρ c r hr
    _ = B12 m ρ c (Proc.devRef .tc r) := keep12 m ρ c r hr
    _ = B11 m ρ c (Proc.devRef .tc r) := keep11 m ρ c r hr
    _ = B10 m ρ c (Proc.devRef .tc r) := keep10 m ρ c r hr
    _ = B9 m ρ c (Proc.devRef .tc r) := keep9 m ρ c r hr
    _ = B8 m ρ c (Proc.devRef .tc r) := keep8 m ρ c r hr
    _ = B7 m ρ c (Proc.devRef .tc r) := keep7 m ρ c r hr
    _ = B6 m ρ c (Proc.devRef .tc r) := keep6 m ρ c r hr
    _ = B5 m ρ c (Proc.devRef .tc r) := keep5 m ρ c r hr
    _ = B4 m ρ c (Proc.devRef .tc r) := keep4 m ρ c r hr
    _ = B3 m ρ c (Proc.devRef .tc r) := keep3 m ρ c r hr
    _ = B2 m ρ c (Proc.devRef .tc r) := keep2 m ρ c r hr
    _ = B1 m ρ c (Proc.devRef .tc r) := keep1 m ρ c r hr
    _ = B0 m ρ c (Proc.devRef .tc r) := keep0 m ρ c r hr
    _ = m ((c : Thread nD τ).loc r) := rfl

end Cert.KernelIdeal.Hand

end
-- ==== Proof.KI.Run.lean ====
import proofs.«154750_j39152921870699_1_alg».proof.Proof.KI.Reg0
import proofs.«154750_j39152921870699_1_alg».proof.Proof.KI.Reg1
import proofs.«154750_j39152921870699_1_alg».proof.Proof.KI.Reg2
import proofs.«154750_j39152921870699_1_alg».proof.Proof.KI.Reg3
import proofs.«154750_j39152921870699_1_alg».proof.Proof.KI.Reg4
import proofs.«154750_j39152921870699_1_alg».proof.Proof.KI.Reg5
import proofs.«154750_j39152921870699_1_alg».proof.Proof.KI.Reg6
import proofs.«154750_j39152921870699_1_alg».proof.Proof.KI.Reg7
import proofs.«154750_j39152921870699_1_alg».proof.Proof.KI.Reg8
import proofs.«154750_j39152921870699_1_alg».proof.Proof.KI.Keep

/-!
# The whole run

The program is the chain of its 26 segments, each entered with what the one before left.  Launched on any
memory with every counter at zero, every weakly fair execution therefore terminates without a fault, and at the
end every unscoped buffer of the core holds the contents of the last boundary.  Since no segment changes an
argument's buffer, the arguments end as they were launched.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program's 26 segments in order. -/
abbrev segs : List (Pipeline.Seg (pcfgs (F := F)) adm (pdats m ρ) () defs₀ 𝒱₀ L lv) :=
  [ .host (hseg main_part0_ops0 main_part0_ops0_sub main_part0_ops0_fresh (B0 m ρ)),
    .host (hseg main_part1_ops0 main_part1_ops0_sub main_part1_ops0_fresh (B1 m ρ)),
    .host (hseg main_part2_ops0 main_part2_ops0_sub main_part2_ops0_fresh (B2 m ρ)),
    .region (reg0 m ρ),
    .host (hseg main_part2_ops1 main_part2_ops1_sub main_part2_ops1_fresh (B4 m ρ)),
    .host (hseg main_part3_ops0 main_part3_ops0_sub main_part3_ops0_fresh (B5 m ρ)),
    .region (reg1 m ρ),
    .host (hseg main_part3_ops1 main_part3_ops1_sub main_part3_ops1_fresh (B7 m ρ)),
    .region (reg2 m ρ),
    .host (hseg main_part3_ops2 main_part3_ops2_sub main_part3_ops2_fresh (B9 m ρ)),
    .region (reg3 m ρ),
    .host (hseg main_part3_ops3 main_part3_ops3_sub main_part3_ops3_fresh (B11 m ρ)),
    .host (hseg main_part4_ops0 main_part4_ops0_sub main_part4_ops0_fresh (B12 m ρ)),
    .host (hseg main_part5_ops0 main_part5_ops0_sub main_part5_ops0_fresh (B13 m ρ)),
    .host (hseg main_part6_ops0 main_part6_ops0_sub main_part6_ops0_fresh (B14 m ρ)),
    .region (reg4 m ρ),
    .host (hseg main_part6_ops1 main_part6_ops1_sub main_part6_ops1_fresh (B16 m ρ)),
    .host (hseg main_part7_ops0 main_part7_ops0_sub main_part7_ops0_fresh (B17 m ρ)),
    .region (reg5 m ρ),
    .host (hseg main_part7_ops1 main_part7_ops1_sub main_part7_ops1_fresh (B19 m ρ)),
    .region (reg6 m ρ),
    .host (hseg main_part7_ops2 main_part7_ops2_sub main_part7_ops2_fresh (B21 m ρ)),
    .region (reg7 m ρ),
    .host (hseg main_part7_ops3 main_part7_ops3_sub main_part7_ops3_fresh (B23 m ρ)),
    .host (hseg main_part8_ops0 main_part8_ops0_sub main_part8_ops0_fresh (B24 m ρ)),
    .region (reg8 m ρ) ]

/-- The program is the run of its segments. -/
theorem main_run (c : Dev nD) : main (F := F) c = Pipeline.Seg.run (segs m ρ) := (main_chain_windows c).trans (by chain_rfl)

set_option backward.isDefEq.respectTransparency.types false in
/-- From any memory with zero counters every weakly fair execution of the program terminates, nothing faulting,
    and every final state has every unscoped buffer of the core at the contents of the last boundary. -/
theorem run_main : θ_run defs (onTc (τ := τ) (main (F := F))) ⟨m, fun _ => 0, ρ⟩
    (fun r => ∀ c : Dev nD, ∀ b ∈ Pipeline.ucRefs τ sig, r.2.mem (((c : Thread nD τ)).1, b) = B26 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B26 m ρ c b)
    (hfin := fun c s' => by
      iintro ⟨⟨Hh, -⟩, HSI⟩
      unfold StableHlo.held
      imodintro
      iapply (pointsTo_read_all (Pipeline.ucRefs τ sig) (fun b => (((c : Thread nD τ)).1, b)) (B26 m ρ c) s')
      isplitl [Hh] <;> iassumption)
    (hQ := fun s h => h)

/-! ## The arguments end as launched -/

theorem B26_main_arg0 (c : Dev nD) : B26 m ρ c (Proc.devRef .tc main_arg0) = m ((c : Thread nD τ).loc main_arg0) :=
  B26_arg m ρ c main_arg0 (by decide)
theorem B26_main_arg1 (c : Dev nD) : B26 m ρ c (Proc.devRef .tc main_arg1) = m ((c : Thread nD τ).loc main_arg1) :=
  B26_arg m ρ c main_arg1 (by decide)
theorem B26_main_arg2 (c : Dev nD) : B26 m ρ c (Proc.devRef .tc main_arg2) = m ((c : Thread nD τ).loc main_arg2) :=
  B26_arg m ρ c main_arg2 (by decide)
theorem B26_main_arg3 (c : Dev nD) : B26 m ρ c (Proc.devRef .tc main_arg3) = m ((c : Thread nD τ).loc main_arg3) :=
  B26_arg m ρ c main_arg3 (by decide)
theorem B26_main_arg4 (c : Dev nD) : B26 m ρ c (Proc.devRef .tc main_arg4) = m ((c : Thread nD τ).loc main_arg4) :=
  B26_arg m ρ c main_arg4 (by decide)
theorem B26_main_arg5 (c : Dev nD) : B26 m ρ c (Proc.devRef .tc main_arg5) = m ((c : Thread nD τ).loc main_arg5) :=
  B26_arg m ρ c main_arg5 (by decide)
theorem B26_main_arg6 (c : Dev nD) : B26 m ρ c (Proc.devRef .tc main_arg6) = m ((c : Thread nD τ).loc main_arg6) :=
  B26_arg m ρ c main_arg6 (by decide)
theorem B26_main_arg7 (c : Dev nD) : B26 m ρ c (Proc.devRef .tc main_arg7) = m ((c : Thread nD τ).loc main_arg7) :=
  B26_arg m ρ c main_arg7 (by decide)
theorem B26_main_arg8 (c : Dev nD) : B26 m ρ c (Proc.devRef .tc main_arg8) = m ((c : Thread nD τ).loc main_arg8) :=
  B26_arg m ρ c main_arg8 (by decide)
theorem B26_main_arg9 (c : Dev nD) : B26 m ρ c (Proc.devRef .tc main_arg9) = m ((c : Thread nD τ).loc main_arg9) :=
  B26_arg m ρ c main_arg9 (by decide)
theorem B26_main_arg10 (c : Dev nD) : B26 m ρ c (Proc.devRef .tc main_arg10) = m ((c : Thread nD τ).loc main_arg10) :=
  B26_arg m ρ c main_arg10 (by decide)
theorem B26_main_arg11 (c : Dev nD) : B26 m ρ c (Proc.devRef .tc main_arg11) = m ((c : Thread nD τ).loc main_arg11) :=
  B26_arg m ρ c main_arg11 (by decide)
theorem B26_main_arg12 (c : Dev nD) : B26 m ρ c (Proc.devRef .tc main_arg12) = m ((c : Thread nD τ).loc main_arg12) :=
  B26_arg m ρ c main_arg12 (by decide)
theorem B26_main_arg13 (c : Dev nD) : B26 m ρ c (Proc.devRef .tc main_arg13) = m ((c : Thread nD τ).loc main_arg13) :=
  B26_arg m ρ c main_arg13 (by decide)
theorem B26_main_arg14 (c : Dev nD) : B26 m ρ c (Proc.devRef .tc main_arg14) = m ((c : Thread nD τ).loc main_arg14) :=
  B26_arg m ρ c main_arg14 (by decide)
theorem B26_main_arg15 (c : Dev nD) : B26 m ρ c (Proc.devRef .tc main_arg15) = m ((c : Thread nD τ).loc main_arg15) :=
  B26_arg m ρ c main_arg15 (by decide)
theorem B26_main_arg16 (c : Dev nD) : B26 m ρ c (Proc.devRef .tc main_arg16) = m ((c : Thread nD τ).loc main_arg16) :=
  B26_arg m ρ c main_arg16 (by decide)
theorem B26_main_arg17 (c : Dev nD) : B26 m ρ c (Proc.devRef .tc main_arg17) = m ((c : Thread nD τ).loc main_arg17) :=
  B26_arg m ρ c main_arg17 (by decide)
theorem B26_main_arg18 (c : Dev nD) : B26 m ρ c (Proc.devRef .tc main_arg18) = m ((c : Thread nD τ).loc main_arg18) :=
  B26_arg m ρ c main_arg18 (by decide)
theorem B26_main_arg19 (c : Dev nD) : B26 m ρ c (Proc.devRef .tc main_arg19) = m ((c : Thread nD τ).loc main_arg19) :=
  B26_arg m ρ c main_arg19 (by decide)
theorem B26_main_arg20 (c : Dev nD) : B26 m ρ c (Proc.devRef .tc main_arg20) = m ((c : Thread nD τ).loc main_arg20) :=
  B26_arg m ρ c main_arg20 (by decide)
theorem B26_main_arg21 (c : Dev nD) : B26 m ρ c (Proc.devRef .tc main_arg21) = m ((c : Thread nD τ).loc main_arg21) :=
  B26_arg m ρ c main_arg21 (by decide)
theorem B26_main_arg22 (c : Dev nD) : B26 m ρ c (Proc.devRef .tc main_arg22) = m ((c : Thread nD τ).loc main_arg22) :=
  B26_arg m ρ c main_arg22 (by decide)
theorem B26_main_arg23 (c : Dev nD) : B26 m ρ c (Proc.devRef .tc main_arg23) = m ((c : Thread nD τ).loc main_arg23) :=
  B26_arg m ρ c main_arg23 (by decide)
theorem B26_main_arg24 (c : Dev nD) : B26 m ρ c (Proc.devRef .tc main_arg24) = m ((c : Thread nD τ).loc main_arg24) :=
  B26_arg m ρ c main_arg24 (by decide)

/-- The frame: the program runs to its end from any memory with zero counters, and its argument arrays end
    unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun r h c =>
    ⟨(h c _ (mem_uc main_arg0 (by decide))).trans (B26_main_arg0 m ρ c),
     (h c _ (mem_uc main_arg1 (by decide))).trans (B26_main_arg1 m ρ c),
     (h c _ (mem_uc main_arg2 (by decide))).trans (B26_main_arg2 m ρ c),
     (h c _ (mem_uc main_arg3 (by decide))).trans (B26_main_arg3 m ρ c),
     (h c _ (mem_uc main_arg4 (by decide))).trans (B26_main_arg4 m ρ c),
     (h c _ (mem_uc main_arg5 (by decide))).trans (B26_main_arg5 m ρ c),
     (h c _ (mem_uc main_arg6 (by decide))).trans (B26_main_arg6 m ρ c),
     (h c _ (mem_uc main_arg7 (by decide))).trans (B26_main_arg7 m ρ c),
     (h c _ (mem_uc main_arg8 (by decide))).trans (B26_main_arg8 m ρ c),
     (h c _ (mem_uc main_arg9 (by decide))).trans (B26_main_arg9 m ρ c),
     (h c _ (mem_uc main_arg10 (by decide))).trans (B26_main_arg10 m ρ c),
     (h c _ (mem_uc main_arg11 (by decide))).trans (B26_main_arg11 m ρ c),
     (h c _ (mem_uc main_arg12 (by decide))).trans (B26_main_arg12 m ρ c),
     (h c _ (mem_uc main_arg13 (by decide))).trans (B26_main_arg13 m ρ c),
     (h c _ (mem_uc main_arg14 (by decide))).trans (B26_main_arg14 m ρ c),
     (h c _ (mem_uc main_arg15 (by decide))).trans (B26_main_arg15 m ρ c),
     (h c _ (mem_uc main_arg16 (by decide))).trans (B26_main_arg16 m ρ c),
     (h c _ (mem_uc main_arg17 (by decide))).trans (B26_main_arg17 m ρ c),
     (h c _ (mem_uc main_arg18 (by decide))).trans (B26_main_arg18 m ρ c),
     (h c _ (mem_uc main_arg19 (by decide))).trans (B26_main_arg19 m ρ c),
     (h c _ (mem_uc main_arg20 (by decide))).trans (B26_main_arg20 m ρ c),
     (h c _ (mem_uc main_arg21 (by decide))).trans (B26_main_arg21 m ρ c),
     (h c _ (mem_uc main_arg22 (by decide))).trans (B26_main_arg22 m ρ c),
     (h c _ (mem_uc main_arg23 (by decide))).trans (B26_main_arg23 m ρ c),
     (h c _ (mem_uc main_arg24 (by decide))).trans (B26_main_arg24 m ρ c)⟩) (run_main m ρ)

end Cert.KernelIdeal.Hand

end
-- ==== Proof.Assemble.lean ====
import proofs.«154750_j39152921870699_1_alg».proof.Defs
import proofs.«154750_j39152921870699_1_alg».proof.Proof.Gen.Pre_finite_inputs
import proofs.«154750_j39152921870699_1_alg».proof.Proof.KI.Run
import proofs.«154750_j39152921870699_1_alg».proof.Proof.RefRead

/-!
# The two idealized programs end with equal results

Both programs are run at the ideal instance, from memories that agree on the 25 arguments.  The kernel's program
ends with every unscoped buffer at the contents of its last boundary, so its result buffer holds those contents
there and its arguments are as launched.  The reference ends with its result buffer at its last stage, a function
of its arguments, and its arguments as launched.  If the last boundary's contents at the kernel's result buffer
ARE that function of the kernel's arguments (the hypothesis on the kernel's value), then, the arguments agreeing,
the two results are one array: the function of the common arguments.
-/

noncomputable section

open Idealize.ShloMosaic Idealize.ShloMosaic.TcCoe Idealize.SL.Sem

namespace Cert.Proof

open Cert.KernelIdeal.Hand in
/-- The equivalence of the two idealized programs, from the kernel's value (what the last boundary holds at the
    result buffer is the reference's last stage of the kernel's arguments) and the reference's run (it ends with
    its result buffer at that stage of its own arguments, the arguments unchanged). -/
theorem algebraic_of
    (hval : ∀ (m : (ℓ : Loc Cert.KernelIdeal.nD Cert.KernelIdeal.τ Cert.KernelIdeal.sig) → Buf (Elt Ideal) ℓ)
        (ρ : Dev Cert.KernelIdeal.nD → PrngReg) (c : Dev Cert.KernelIdeal.nD), Cert.Pre_KernelIdeal m →
        Cert.KernelIdeal.Hand.B26 m ρ c (Proc.devRef .tc Cert.KernelIdeal.main_v389)
          = Cert.ReferenceIdeal.Read.val_main_v419 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)))
    (hrun : ∀ (m' : (ℓ : Loc Cert.ReferenceIdeal.nD Cert.ReferenceIdeal.τ Cert.ReferenceIdeal.sig) → Buf (Elt Ideal) ℓ)
        (ρ' : Dev Cert.ReferenceIdeal.nD → PrngReg),
        θ_run (Cert.ReferenceIdeal.defs (F := Ideal)) (onTc (τ := Cert.ReferenceIdeal.τ) (Cert.ReferenceIdeal.main (F := Ideal))) ⟨m', fun _ => 0, ρ'⟩
          (fun r => ∀ c : Dev Cert.ReferenceIdeal.nD,
            r.2.mem ((c.tc : Thread Cert.ReferenceIdeal.nD Cert.ReferenceIdeal.τ).loc Cert.ReferenceIdeal.main_v419)
              = Cert.ReferenceIdeal.Read.val_main_v419 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24))
            ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
            ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
            ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
            ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
            ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
            ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
            ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
            ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
            ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
            ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
            ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
            ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
            ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
            ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
            ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
            ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
            ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
            ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
            ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
            ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
            ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
            ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
            ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
            ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
            ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))) :
    Cert.algebraic_KernelIdeal_ReferenceIdeal := by
  intro m ρ m' ρ' hpre hagree
  refine ⟨fun c => Cert.ReferenceIdeal.Read.val_main_v419 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)), ?_, ?_⟩
  · -- the kernel's program: the last boundary's contents, read at the result buffer and at each argument
    exact (θ_run (Cert.KernelIdeal.defs (F := Ideal)) _ _).mono (fun r h c =>
      ⟨(h c _ (mem_uc Cert.KernelIdeal.main_v389 (by decide))).trans (hval m ρ c hpre),
       (h c _ (mem_uc Cert.KernelIdeal.main_arg0 (by decide))).trans (B26_main_arg0 m ρ c),
       (h c _ (mem_uc Cert.KernelIdeal.main_arg1 (by decide))).trans (B26_main_arg1 m ρ c),
       (h c _ (mem_uc Cert.KernelIdeal.main_arg2 (by decide))).trans (B26_main_arg2 m ρ c),
       (h c _ (mem_uc Cert.KernelIdeal.main_arg3 (by decide))).trans (B26_main_arg3 m ρ c),
       (h c _ (mem_uc Cert.KernelIdeal.main_arg4 (by decide))).trans (B26_main_arg4 m ρ c),
       (h c _ (mem_uc Cert.KernelIdeal.main_arg5 (by decide))).trans (B26_main_arg5 m ρ c),
       (h c _ (mem_uc Cert.KernelIdeal.main_arg6 (by decide))).trans (B26_main_arg6 m ρ c),
       (h c _ (mem_uc Cert.KernelIdeal.main_arg7 (by decide))).trans (B26_main_arg7 m ρ c),
       (h c _ (mem_uc Cert.KernelIdeal.main_arg8 (by decide))).trans (B26_main_arg8 m ρ c),
       (h c _ (mem_uc Cert.KernelIdeal.main_arg9 (by decide))).trans (B26_main_arg9 m ρ c),
       (h c _ (mem_uc Cert.KernelIdeal.main_arg10 (by decide))).trans (B26_main_arg10 m ρ c),
       (h c _ (mem_uc Cert.KernelIdeal.main_arg11 (by decide))).trans (B26_main_arg11 m ρ c),
       (h c _ (mem_uc Cert.KernelIdeal.main_arg12 (by decide))).trans (B26_main_arg12 m ρ c),
       (h c _ (mem_uc Cert.KernelIdeal.main_arg13 (by decide))).trans (B26_main_arg13 m ρ c),
       (h c _ (mem_uc Cert.KernelIdeal.main_arg14 (by decide))).trans (B26_main_arg14 m ρ c),
       (h c _ (mem_uc Cert.KernelIdeal.main_arg15 (by decide))).trans (B26_main_arg15 m ρ c),
       (h c _ (mem_uc Cert.KernelIdeal.main_arg16 (by decide))).trans (B26_main_arg16 m ρ c),
       (h c _ (mem_uc Cert.KernelIdeal.main_arg17 (by decide))).trans (B26_main_arg17 m ρ c),
       (h c _ (mem_uc Cert.KernelIdeal.main_arg18 (by decide))).trans (B26_main_arg18 m ρ c),
       (h c _ (mem_uc Cert.KernelIdeal.main_arg19 (by decide))).trans (B26_main_arg19 m ρ c),
       (h c _ (mem_uc Cert.KernelIdeal.main_arg20 (by decide))).trans (B26_main_arg20 m ρ c),
       (h c _ (mem_uc Cert.KernelIdeal.main_arg21 (by decide))).trans (B26_main_arg21 m ρ c),
       (h c _ (mem_uc Cert.KernelIdeal.main_arg22 (by decide))).trans (B26_main_arg22 m ρ c),
       (h c _ (mem_uc Cert.KernelIdeal.main_arg23 (by decide))).trans (B26_main_arg23 m ρ c),
       (h c _ (mem_uc Cert.KernelIdeal.main_arg24 (by decide))).trans (B26_main_arg24 m ρ c)⟩)
      (run_main (F := Ideal) m ρ)
  · -- the reference: its last stage of its own arguments, which are the kernel's
    refine (θ_run (Cert.ReferenceIdeal.defs (F := Ideal)) _ _).mono (fun r h c => ⟨(h c).1.trans ?_, (h c).2⟩) (hrun m' ρ')
    obtain ⟨e0, e1, e2, e3, e4, e5, e6, e7, e8, e9, e10, e11, e12, e13, e14, e15, e16, e17, e18, e19, e20, e21, e22, e23, e24⟩ := hagree c
    rw [e0, e1, e2, e3, e4, e5, e6, e7, e8, e9, e10, e11, e12, e13, e14, e15, e16, e17, e18, e19, e20, e21, e22, e23, e24]

end Cert.Proof

end
-- ==== Proof.LibHostRead.lean ====
/-
  Reading a host stretch back, with three-operand operations, for any signature and any value type.

  A host operation with three operands given as a literal family of references writes its function of the three
  operands' contents, each read at its own reference; and the fold of a stretch of operations is read back at one buffer
  by rewriting each operation's result at its own buffer to its function's value and at any other buffer to what was there.
-/
import Idealize.ShloMosaic.Lib.StableHlo.Run

noncomputable section

namespace Idealize.ShloMosaic.StableHlo

open Idealize.ShloMosaic

variable {τ : Topo} {sig : RefSig} {Val : EltTy → Type}

/-- Three contents, one per reference of a literal family of three, as the family's dependent function. -/
def nary3Args {x a b : Ref sig .tc} (u : x.ty.Contents Val) (v : a.ty.Contents Val) (w : b.ty.Contents Val) :
    (k : Fin 3) → ((![x, a, b] : Fin 3 → Ref sig .tc) k).ty.Contents Val :=
  Fin.cons u (Fin.cons v (Fin.cons w (fun i => i.elim0)))

/-- A three-operand operation's result, each operand's contents at its own reference. -/
theorem nary3_result' {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (nary3Args (F (Proc.devRef .tc x)) (F (Proc.devRef .tc a)) (F (Proc.devRef .tc b))) := by
  rw [nary_result]; congr 1; funext k; fin_cases k <;> rfl

/-- The read-back as one rewriting pass, three-operand operations included. -/
macro "host_read" : tactic =>
  `(tactic| (simp (disch := decide) only [after_cons, after_nil,
      nullary_result', unary_result', binary_result', ternary_result', quaternary_result', reshape_result', nary4_result', nary3_result',
      unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo

end
-- ==== Proof.KI.HostA.lean ====
/-
  What the core's buffers hold at the segment boundaries 0 to 3, read back through the host operations.

  A host operation rewrites one buffer with its function of the buffers it reads and leaves the others alone, so a buffer's contents after a stretch is the
  composition of the operations that lead to it, applied to what the stretch found in the buffers it reads; a region changes only its output array.
  The aggregation stages are stated as the reference program's own stages of the same arguments: the two programs apply the same gathers, segment sums,
  counts and quotients to the same arrays, so the composed terms coincide.
-/
import proofs.«154750_j39152921870699_1_alg».proof.Proof.KI.Keep
import proofs.«154750_j39152921870699_1_alg».proof.Proof.RefRead
import proofs.«154750_j39152921870699_1_alg».proof.Proof.LibHostRead
import Idealize.ShloMosaic.PureOps.Ideal
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL.Sem

variable (m : (ℓ : Loc nD τ sig) → Buf (Elt Ideal) ℓ) (ρ : Dev nD → PrngReg) (c : Dev nD)

/-! ## An argument's buffer holds its launch contents at every boundary -/

theorem B1_arg (r : Ref sig .tc) (hr : IsArg r) : B1 m ρ c (Proc.devRef .tc r) = m ((c : Thread nD τ).loc r) :=
  (keep0 m ρ c r hr).trans rfl
theorem B2_arg (r : Ref sig .tc) (hr : IsArg r) : B2 m ρ c (Proc.devRef .tc r) = m ((c : Thread nD τ).loc r) :=
  (keep1 m ρ c r hr).trans (B1_arg m ρ c r hr)
theorem B3_arg (r : Ref sig .tc) (hr : IsArg r) : B3 m ρ c (Proc.devRef .tc r) = m ((c : Thread nD τ).loc r) :=
  (keep2 m ρ c r hr).trans (B2_arg m ρ c r hr)
theorem B4_arg (r : Ref sig .tc) (hr : IsArg r) : B4 m ρ c (Proc.devRef .tc r) = m ((c : Thread nD τ).loc r) :=
  (keep3 m ρ c r hr).trans (B3_arg m ρ c r hr)
theorem B5_arg (r : Ref sig .tc) (hr : IsArg r) : B5 m ρ c (Proc.devRef .tc r) = m ((c : Thread nD τ).loc r) :=
  (keep4 m ρ c r hr).trans (B4_arg m ρ c r hr)
theorem B6_arg (r : Ref sig .tc) (hr : IsArg r) : B6 m ρ c (Proc.devRef .tc r) = m ((c : Thread nD τ).loc r) :=
  (keep5 m ρ c r hr).trans (B5_arg m ρ c r hr)
theorem B7_arg (r : Ref sig .tc) (hr : IsArg r) : B7 m ρ c (Proc.devRef .tc r) = m ((c : Thread nD τ).loc r) :=
  (keep6 m ρ c r hr).trans (B6_arg m ρ c r hr)
theorem B8_arg (r : Ref sig .tc) (hr : IsArg r) : B8 m ρ c (Proc.devRef .tc r) = m ((c : Thread nD τ).loc r) :=
  (keep7 m ρ c r hr).trans (B7_arg m ρ c r hr)
theorem B9_arg (r : Ref sig .tc) (hr : IsArg r) : B9 m ρ c (Proc.devRef .tc r) = m ((c : Thread nD τ).loc r) :=
  (keep8 m ρ c r hr).trans (B8_arg m ρ c r hr)
theorem B10_arg (r : Ref sig .tc) (hr : IsArg r) : B10 m ρ c (Proc.devRef .tc r) = m ((c : Thread nD τ).loc r) :=
  (keep9 m ρ c r hr).trans (B9_arg m ρ c r hr)
theorem B11_arg (r : Ref sig .tc) (hr : IsArg r) : B11 m ρ c (Proc.devRef .tc r) = m ((c : Thread nD τ).loc r) :=
  (keep10 m ρ c r hr).trans (B10_arg m ρ c r hr)
theorem B12_arg (r : Ref sig .tc) (hr : IsArg r) : B12 m ρ c (Proc.devRef .tc r) = m ((c : Thread nD τ).loc r) :=
  (keep11 m ρ c r hr).trans (B11_arg m ρ c r hr)
theorem B13_arg (r : Ref sig .tc) (hr : IsArg r) : B13 m ρ c (Proc.devRef .tc r) = m ((c : Thread nD τ).loc r) :=
  (keep12 m ρ c r hr).trans (B12_arg m ρ c r hr)
theorem B14_arg (r : Ref sig .tc) (hr : IsArg r) : B14 m ρ c (Proc.devRef .tc r) = m ((c : Thread nD τ).loc r) :=
  (keep13 m ρ c r hr).trans (B13_arg m ρ c r hr)
theorem B15_arg (r : Ref sig .tc) (hr : IsArg r) : B15 m ρ c (Proc.devRef .tc r) = m ((c : Thread nD τ).loc r) :=
  (keep14 m ρ c r hr).trans (B14_arg m ρ c r hr)
theorem B16_arg (r : Ref sig .tc) (hr : IsArg r) : B16 m ρ c (Proc.devRef .tc r) = m ((c : Thread nD τ).loc r) :=
  (keep15 m ρ c r hr).trans (B15_arg m ρ c r hr)
theorem B17_arg (r : Ref sig .tc) (hr : IsArg r) : B17 m ρ c (Proc.devRef .tc r) = m ((c : Thread nD τ).loc r) :=
  (keep16 m ρ c r hr).trans (B16_arg m ρ c r hr)
theorem B18_arg (r : Ref sig .tc) (hr : IsArg r) : B18 m ρ c (Proc.devRef .tc r) = m ((c : Thread nD τ).loc r) :=
  (keep17 m ρ c r hr).trans (B17_arg m ρ c r hr)
theorem B19_arg (r : Ref sig .tc) (hr : IsArg r) : B19 m ρ c (Proc.devRef .tc r) = m ((c : Thread nD τ).loc r) :=
  (keep18 m ρ c r hr).trans (B18_arg m ρ c r hr)
theorem B20_arg (r : Ref sig .tc) (hr : IsArg r) : B20 m ρ c (Proc.devRef .tc r) = m ((c : Thread nD τ).loc r) :=
  (keep19 m ρ c r hr).trans (B19_arg m ρ c r hr)
theorem B21_arg (r : Ref sig .tc) (hr : IsArg r) : B21 m ρ c (Proc.devRef .tc r) = m ((c : Thread nD τ).loc r) :=
  (keep20 m ρ c r hr).trans (B20_arg m ρ c r hr)
theorem B22_arg (r : Ref sig .tc) (hr : IsArg r) : B22 m ρ c (Proc.devRef .tc r) = m ((c : Thread nD τ).loc r) :=
  (keep21 m ρ c r hr).trans (B21_arg m ρ c r hr)
theorem B23_arg (r : Ref sig .tc) (hr : IsArg r) : B23 m ρ c (Proc.devRef .tc r) = m ((c : Thread nD τ).loc r) :=
  (keep22 m ρ c r hr).trans (B22_arg m ρ c r hr)
theorem B24_arg (r : Ref sig .tc) (hr : IsArg r) : B24 m ρ c (Proc.devRef .tc r) = m ((c : Thread nD τ).loc r) :=
  (keep23 m ρ c r hr).trans (B23_arg m ρ c r hr)
theorem B25_arg (r : Ref sig .tc) (hr : IsArg r) : B25 m ρ c (Proc.devRef .tc r) = m ((c : Thread nD τ).loc r) :=
  (keep24 m ρ c r hr).trans (B24_arg m ρ c r hr)

/-! ## The read-backs -/

theorem B3_v114_ops :
    B3 m ρ c (Proc.devRef .tc main_v114) = (concatenate S100000x192 1 [⟨S100000x64, (B3 m ρ c (Proc.devRef .tc main_v18) : ((⟨S100000x64, .f32⟩ : BufTy).Contents (Elt Ideal)))⟩, ⟨S100000x64, (B3 m ρ c (Proc.devRef .tc main_v113) : ((⟨S100000x64, .f32⟩ : BufTy).Contents (Elt Ideal)))⟩, ⟨S100000x64, (B3 m ρ c (Proc.devRef .tc main_arg0) : ((⟨S100000x64, .f32⟩ : BufTy).Contents (Elt Ideal)))⟩] concatenates_S100000x64_S100000x64_S100000x64_S100000x192_d1) := by
  show StableHlo.after main_part2_ops0 (B2 m ρ c) (Proc.devRef .tc main_v114) = (concatenate S100000x192 1 [⟨S100000x64, (StableHlo.after main_part2_ops0 (B2 m ρ c) (Proc.devRef .tc main_v18) : ((⟨S100000x64, .f32⟩ : BufTy).Contents (Elt Ideal)))⟩, ⟨S100000x64, (StableHlo.after main_part2_ops0 (B2 m ρ c) (Proc.devRef .tc main_v113) : ((⟨S100000x64, .f32⟩ : BufTy).Contents (Elt Ideal)))⟩, ⟨S100000x64, (StableHlo.after main_part2_ops0 (B2 m ρ c) (Proc.devRef .tc main_arg0) : ((⟨S100000x64, .f32⟩ : BufTy).Contents (Elt Ideal)))⟩] concatenates_S100000x64_S100000x64_S100000x64_S100000x192_d1)
  generalize B2 m ρ c = W
  after_results_simp
  rfl

set_option maxRecDepth 131072 in
theorem B1_v18 :
    B1 m ρ c (Proc.devRef .tc main_v18) = (Cert.ReferenceIdeal.Read.val_main_v28 (F := Ideal) (m ((c : Thread nD τ).loc main_arg1)) (m ((c : Thread nD τ).loc main_arg11)) (m ((c : Thread nD τ).loc main_arg12))) := by
  show StableHlo.after main_part0_ops0 (B0 m ρ c) (Proc.devRef .tc main_v18) = _
  host_read <;> rfl

theorem B2_v18 :
    B2 m ρ c (Proc.devRef .tc main_v18) = (Cert.ReferenceIdeal.Read.val_main_v28 (F := Ideal) (m ((c : Thread nD τ).loc main_arg1)) (m ((c : Thread nD τ).loc main_arg11)) (m ((c : Thread nD τ).loc main_arg12))) := by
  show StableHlo.after main_part1_ops0 (B1 m ρ c) (Proc.devRef .tc main_v18) = _
  have e0 := (B1_v18 m ρ c)
  generalize B1 m ρ c = W at e0 ⊢
  host_read
  exact e0

theorem B3_v18 :
    B3 m ρ c (Proc.devRef .tc main_v18) = (Cert.ReferenceIdeal.Read.val_main_v28 (F := Ideal) (m ((c : Thread nD τ).loc main_arg1)) (m ((c : Thread nD τ).loc main_arg11)) (m ((c : Thread nD τ).loc main_arg12))) := by
  show StableHlo.after main_part2_ops0 (B2 m ρ c) (Proc.devRef .tc main_v18) = _
  have e0 := (B2_v18 m ρ c)
  generalize B2 m ρ c = W at e0 ⊢
  host_read
  exact e0

set_option maxRecDepth 131072 in
theorem B3_v113 :
    B3 m ρ c (Proc.devRef .tc main_v113) = (Cert.ReferenceIdeal.Read.val_main_v188 (F := Ideal) (m ((c : Thread nD τ).loc main_arg3)) (m ((c : Thread nD τ).loc main_arg21)) (m ((c : Thread nD τ).loc main_arg22))) := by
  show StableHlo.after main_part2_ops0 (B2 m ρ c) (Proc.devRef .tc main_v113) = _
  have e0 := (B2_arg m ρ c main_arg22 (by decide))
  have e1 := (B2_arg m ρ c main_arg21 (by decide))
  have e2 := (B2_arg m ρ c main_arg3 (by decide))
  generalize B2 m ρ c = W at e0 e1 e2 ⊢
  host_read <;> (try simp only [e0, e1, e2]) <;> rfl

theorem B3_v114 :
    B3 m ρ c (Proc.devRef .tc main_v114) = (concatenate S100000x192 1 [⟨S100000x64, ((Cert.ReferenceIdeal.Read.val_main_v28 (F := Ideal) (m ((c : Thread nD τ).loc main_arg1)) (m ((c : Thread nD τ).loc main_arg11)) (m ((c : Thread nD τ).loc main_arg12))) : ((⟨S100000x64, .f32⟩ : BufTy).Contents (Elt Ideal)))⟩, ⟨S100000x64, ((Cert.ReferenceIdeal.Read.val_main_v188 (F := Ideal) (m ((c : Thread nD τ).loc main_arg3)) (m ((c : Thread nD τ).loc main_arg21)) (m ((c : Thread nD τ).loc main_arg22))) : ((⟨S100000x64, .f32⟩ : BufTy).Contents (Elt Ideal)))⟩, ⟨S100000x64, ((m ((c : Thread nD τ).loc main_arg0)) : ((⟨S100000x64, .f32⟩ : BufTy).Contents (Elt Ideal)))⟩] concatenates_S100000x64_S100000x64_S100000x64_S100000x192_d1) := by
  rw [B3_v114_ops m ρ c, (B3_v18 m ρ c), (B3_v113 m ρ c), (B3_arg m ρ c main_arg0 (by decide))] <;> rfl

theorem B3_v126_ops :
    B3 m ρ c (Proc.devRef .tc main_v126) = (concatenate S192x64 0 [⟨S64x64, (B3 m ρ c (Proc.devRef .tc main_v116) : ((⟨S64x64, .f32⟩ : BufTy).Contents (Elt Ideal)))⟩, ⟨S64x64, (B3 m ρ c (Proc.devRef .tc main_v118) : ((⟨S64x64, .f32⟩ : BufTy).Contents (Elt Ideal)))⟩, ⟨S64x64, (B3 m ρ c (Proc.devRef .tc main_v125) : ((⟨S64x64, .f32⟩ : BufTy).Contents (Elt Ideal)))⟩] concatenates_S64x64_S64x64_S64x64_S192x64_d0) := by
  show StableHlo.after main_part2_ops0 (B2 m ρ c) (Proc.devRef .tc main_v126) = (concatenate S192x64 0 [⟨S64x64, (StableHlo.after main_part2_ops0 (B2 m ρ c) (Proc.devRef .tc main_v116) : ((⟨S64x64, .f32⟩ : BufTy).Contents (Elt Ideal)))⟩, ⟨S64x64, (StableHlo.after main_part2_ops0 (B2 m ρ c) (Proc.devRef .tc main_v118) : ((⟨S64x64, .f32⟩ : BufTy).Contents (Elt Ideal)))⟩, ⟨S64x64, (StableHlo.after main_part2_ops0 (B2 m ρ c) (Proc.devRef .tc main_v125) : ((⟨S64x64, .f32⟩ : BufTy).Contents (Elt Ideal)))⟩] concatenates_S64x64_S64x64_S64x64_S192x64_d0)
  generalize B2 m ρ c = W
  after_results_simp
  rfl

set_option maxRecDepth 131072 in
theorem B3_v116 :
    B3 m ρ c (Proc.devRef .tc main_v116) = ((shapeCast S64x64 (extractStridedSlice S1x1x64x64 ![0, 0, 0, 0] ((m ((c : Thread nD τ).loc main_arg4)) : ((⟨S2x6x64x64, .f32⟩ : BufTy).Contents (Elt Ideal))) slices_S2x6x64x64_S1x1x64x64_0_0_0_0) shapeCasts_S1x1x64x64_S64x64) : ((⟨S64x64, .f32⟩ : BufTy).Contents (Elt Ideal))) := by
  show StableHlo.after main_part2_ops0 (B2 m ρ c) (Proc.devRef .tc main_v116) = _
  have e0 := (B2_arg m ρ c main_arg4 (by decide))
  generalize B2 m ρ c = W at e0 ⊢
  host_read <;> (try simp only [e0]) <;> rfl

set_option maxRecDepth 131072 in
theorem B3_v118 :
    B3 m ρ c (Proc.devRef .tc main_v118) = ((shapeCast S64x64 (extractStridedSlice S1x1x64x64 ![0, 5, 0, 0] ((m ((c : Thread nD τ).loc main_arg4)) : ((⟨S2x6x64x64, .f32⟩ : BufTy).Contents (Elt Ideal))) slices_S2x6x64x64_S1x1x64x64_0_5_0_0) shapeCasts_S1x1x64x64_S64x64) : ((⟨S64x64, .f32⟩ : BufTy).Contents (Elt Ideal))) := by
  show StableHlo.after main_part2_ops0 (B2 m ρ c) (Proc.devRef .tc main_v118) = _
  have e0 := (B2_arg m ρ c main_arg4 (by decide))
  generalize B2 m ρ c = W at e0 ⊢
  host_read <;> (try simp only [e0]) <;> rfl

set_option maxRecDepth 131072 in
theorem B3_v125 :
    B3 m ρ c (Proc.devRef .tc main_v125) = ((addf (F := Ideal) (φ := .f32) (addf (F := Ideal) (φ := .f32) ((broadcastInDim S64x64 ![] bcast_S_S64x64 (constant (F := Ideal) S_ .f32 0x00000000#32)) : ((⟨S64x64, .f32⟩ : BufTy).Contents (Elt Ideal))) ((shapeCast S64x64 (extractStridedSlice S1x1x64x64 ![0, 0, 0, 0] ((m ((c : Thread nD τ).loc main_arg6)) : ((⟨S2x6x64x64, .f32⟩ : BufTy).Contents (Elt Ideal))) slices_S2x6x64x64_S1x1x64x64_0_0_0_0) shapeCasts_S1x1x64x64_S64x64) : ((⟨S64x64, .f32⟩ : BufTy).Contents (Elt Ideal)))) ((shapeCast S64x64 (extractStridedSlice S1x1x64x64 ![0, 5, 0, 0] ((m ((c : Thread nD τ).loc main_arg6)) : ((⟨S2x6x64x64, .f32⟩ : BufTy).Contents (Elt Ideal))) slices_S2x6x64x64_S1x1x64x64_0_5_0_0) shapeCasts_S1x1x64x64_S64x64) : ((⟨S64x64, .f32⟩ : BufTy).Contents (Elt Ideal)))) : ((⟨S64x64, .f32⟩ : BufTy).Contents (Elt Ideal))) := by
  show StableHlo.after main_part2_ops0 (B2 m ρ c) (Proc.devRef .tc main_v125) = _
  have e0 := (B2_arg m ρ c main_arg6 (by decide))
  generalize B2 m ρ c = W at e0 ⊢
  host_read <;> (try simp only [e0]) <;> rfl

theorem B3_v126 :
    B3 m ρ c (Proc.devRef .tc main_v126) = (concatenate S192x64 0 [⟨S64x64, ((shapeCast S64x64 (extractStridedSlice S1x1x64x64 ![0, 0, 0, 0] ((m ((c : Thread nD τ).loc main_arg4)) : ((⟨S2x6x64x64, .f32⟩ : BufTy).Contents (Elt Ideal))) slices_S2x6x64x64_S1x1x64x64_0_0_0_0) shapeCasts_S1x1x64x64_S64x64) : ((⟨S64x64, .f32⟩ : BufTy).Contents (Elt Ideal)))⟩, ⟨S64x64, ((shapeCast S64x64 (extractStridedSlice S1x1x64x64 ![0, 5, 0, 0] ((m ((c : Thread nD τ).loc main_arg4)) : ((⟨S2x6x64x64, .f32⟩ : BufTy).Contents (Elt Ideal))) slices_S2x6x64x64_S1x1x64x64_0_5_0_0) shapeCasts_S1x1x64x64_S64x64) : ((⟨S64x64, .f32⟩ : BufTy).Contents (Elt Ideal)))⟩, ⟨S64x64, ((addf (F := Ideal) (φ := .f32) (addf (F := Ideal) (φ := .f32) ((broadcastInDim S64x64 ![] bcast_S_S64x64 (constant (F := Ideal) S_ .f32 0x00000000#32)) : ((⟨S64x64, .f32⟩ : BufTy).Contents (Elt Ideal))) ((shapeCast S64x64 (extractStridedSlice S1x1x64x64 ![0, 0, 0, 0] ((m ((c : Thread nD τ).loc main_arg6)) : ((⟨S2x6x64x64, .f32⟩ : BufTy).Contents (Elt Ideal))) slices_S2x6x64x64_S1x1x64x64_0_0_0_0) shapeCasts_S1x1x64x64_S64x64) : ((⟨S64x64, .f32⟩ : BufTy).Contents (Elt Ideal)))) ((shapeCast S64x64 (extractStridedSlice S1x1x64x64 ![0, 5, 0, 0] ((m ((c : Thread nD τ).loc main_arg6)) : ((⟨S2x6x64x64, .f32⟩ : BufTy).Contents (Elt Ideal))) slices_S2x6x64x64_S1x1x64x64_0_5_0_0) shapeCasts_S1x1x64x64_S64x64) : ((⟨S64x64, .f32⟩ : BufTy).Contents (Elt Ideal)))) : ((⟨S64x64, .f32⟩ : BufTy).Contents (Elt Ideal)))⟩] concatenates_S64x64_S64x64_S64x64_S192x64_d0) := by
  rw [B3_v126_ops m ρ c, (B3_v116 m ρ c), (B3_v118 m ρ c), (B3_v125 m ρ c)] <;> rfl

set_option maxRecDepth 131072 in
theorem B3_v134 :
    B3 m ρ c (Proc.devRef .tc main_v134) = ((shapeCast S1x64 ((addf (F := Ideal) (φ := .f32) (addf (F := Ideal) (φ := .f32) ((broadcastInDim S64 ![] bcast_S_S64 (constant (F := Ideal) S_ .f32 0x00000000#32)) : ((⟨S64, .f32⟩ : BufTy).Contents (Elt Ideal))) ((shapeCast S64 (extractStridedSlice S1x1x64 ![0, 0, 0] ((m ((c : Thread nD τ).loc main_arg5)) : ((⟨S2x6x64, .f32⟩ : BufTy).Contents (Elt Ideal))) slices_S2x6x64_S1x1x64_0_0_0) shapeCasts_S1x1x64_S64) : ((⟨S64, .f32⟩ : BufTy).Contents (Elt Ideal)))) ((shapeCast S64 (extractStridedSlice S1x1x64 ![0, 5, 0] ((m ((c : Thread nD τ).loc main_arg5)) : ((⟨S2x6x64, .f32⟩ : BufTy).Contents (Elt Ideal))) slices_S2x6x64_S1x1x64_0_5_0) shapeCasts_S1x1x64_S64) : ((⟨S64, .f32⟩ : BufTy).Contents (Elt Ideal)))) : ((⟨S64, .f32⟩ : BufTy).Contents (Elt Ideal))) shapeCasts_S64_S1x64) : ((⟨S1x64, .f32⟩ : BufTy).Contents (Elt Ideal))) := by
  show StableHlo.after main_part2_ops0 (B2 m ρ c) (Proc.devRef .tc main_v134) = _
  have e0 := (B2_arg m ρ c main_arg5 (by decide))
  generalize B2 m ρ c = W at e0 ⊢
  host_read <;> (try simp only [e0]) <;> rfl

set_option maxRecDepth 131072 in
theorem B1_v37 :
    B1 m ρ c (Proc.devRef .tc main_v37) = (Cert.ReferenceIdeal.Read.val_main_v60 (F := Ideal) (m ((c : Thread nD τ).loc main_arg0)) (m ((c : Thread nD τ).loc main_arg13)) (m ((c : Thread nD τ).loc main_arg14))) := by
  show StableHlo.after main_part0_ops0 (B0 m ρ c) (Proc.devRef .tc main_v37) = _
  host_read <;> rfl

theorem B2_v37 :
    B2 m ρ c (Proc.devRef .tc main_v37) = (Cert.ReferenceIdeal.Read.val_main_v60 (F := Ideal) (m ((c : Thread nD τ).loc main_arg0)) (m ((c : Thread nD τ).loc main_arg13)) (m ((c : Thread nD τ).loc main_arg14))) := by
  show StableHlo.after main_part1_ops0 (B1 m ρ c) (Proc.devRef .tc main_v37) = _
  have e0 := (B1_v37 m ρ c)
  generalize B1 m ρ c = W at e0 ⊢
  host_read
  exact e0

theorem B3_v37 :
    B3 m ρ c (Proc.devRef .tc main_v37) = (Cert.ReferenceIdeal.Read.val_main_v60 (F := Ideal) (m ((c : Thread nD τ).loc main_arg0)) (m ((c : Thread nD τ).loc main_arg13)) (m ((c : Thread nD τ).loc main_arg14))) := by
  show StableHlo.after main_part2_ops0 (B2 m ρ c) (Proc.devRef .tc main_v37) = _
  have e0 := (B2_v37 m ρ c)
  generalize B2 m ρ c = W at e0 ⊢
  host_read
  exact e0

set_option maxRecDepth 131072 in
theorem B2_v75 :
    B2 m ρ c (Proc.devRef .tc main_v75) = (Cert.ReferenceIdeal.Read.val_main_v124 (F := Ideal) (m ((c : Thread nD τ).loc main_arg2)) (m ((c : Thread nD τ).loc main_arg17)) (m ((c : Thread nD τ).loc main_arg18))) := by
  show StableHlo.after main_part1_ops0 (B1 m ρ c) (Proc.devRef .tc main_v75) = _
  have e0 := (B1_arg m ρ c main_arg18 (by decide))
  have e1 := (B1_arg m ρ c main_arg17 (by decide))
  have e2 := (B1_arg m ρ c main_arg2 (by decide))
  generalize B1 m ρ c = W at e0 e1 e2 ⊢
  host_read <;> (try simp only [e0, e1, e2]) <;> rfl

theorem B3_v75 :
    B3 m ρ c (Proc.devRef .tc main_v75) = (Cert.ReferenceIdeal.Read.val_main_v124 (F := Ideal) (m ((c : Thread nD τ).loc main_arg2)) (m ((c : Thread nD τ).loc main_arg17)) (m ((c : Thread nD τ).loc main_arg18))) := by
  show StableHlo.after main_part2_ops0 (B2 m ρ c) (Proc.devRef .tc main_v75) = _
  have e0 := (B2_v75 m ρ c)
  generalize B2 m ρ c = W at e0 ⊢
  host_read
  exact e0

set_option maxRecDepth 131072 in
theorem B1_v44 :
    B1 m ρ c (Proc.devRef .tc main_v44) = (Cert.ReferenceIdeal.Read.val_main_v80 (F := Ideal) (m ((c : Thread nD τ).loc main_arg1)) (m ((c : Thread nD τ).loc main_arg15))) := by
  show StableHlo.after main_part0_ops0 (B0 m ρ c) (Proc.devRef .tc main_v44) = _
  host_read <;> rfl

set_option maxRecDepth 131072 in
theorem B1_cst_12 :
    B1 m ρ c (Proc.devRef .tc main_cst_12) = (constant (F := Ideal) S_ .f32 0x00000000#32) := by
  show StableHlo.after main_part0_ops0 (B0 m ρ c) (Proc.devRef .tc main_cst_12) = _
  host_read <;> rfl

set_option maxRecDepth 131072 in
theorem B2_v56 :
    B2 m ρ c (Proc.devRef .tc main_v56) = (Cert.ReferenceIdeal.Read.val_main_v92 (F := Ideal) (m ((c : Thread nD τ).loc main_arg1)) (m ((c : Thread nD τ).loc main_arg15)) (m ((c : Thread nD τ).loc main_arg16))) := by
  show StableHlo.after main_part1_ops0 (B1 m ρ c) (Proc.devRef .tc main_v56) = _
  have e0 := (B1_arg m ρ c main_arg16 (by decide))
  have e1 := (B1_v44 m ρ c)
  have e2 := (B1_cst_12 m ρ c)
  generalize B1 m ρ c = W at e0 e1 e2 ⊢
  host_read <;> (try simp only [e0, e1, e2]) <;> rfl

theorem B3_v56 :
    B3 m ρ c (Proc.devRef .tc main_v56) = (Cert.ReferenceIdeal.Read.val_main_v92 (F := Ideal) (m ((c : Thread nD τ).loc main_arg1)) (m ((c : Thread nD τ).loc main_arg15)) (m ((c : Thread nD τ).loc main_arg16))) := by
  show StableHlo.after main_part2_ops0 (B2 m ρ c) (Proc.devRef .tc main_v56) = _
  have e0 := (B2_v56 m ρ c)
  generalize B2 m ρ c = W at e0 ⊢
  host_read
  exact e0

set_option maxRecDepth 131072 in
theorem B2_cst_27 :
    B2 m ρ c (Proc.devRef .tc main_cst_27) = (constant (F := Ideal) S_ .f32 0x3F800000#32) := by
  show StableHlo.after main_part1_ops0 (B1 m ρ c) (Proc.devRef .tc main_cst_27) = _
  host_read <;> rfl

set_option maxRecDepth 131072 in
theorem B2_v89 :
    B2 m ρ c (Proc.devRef .tc main_v89) = (Cert.ReferenceIdeal.Read.val_main_v151 (F := Ideal) (m ((c : Thread nD τ).loc main_arg20))) := by
  show StableHlo.after main_part1_ops0 (B1 m ρ c) (Proc.devRef .tc main_v89) = _
  have e0 := (B1_arg m ρ c main_arg20 (by decide))
  generalize B1 m ρ c = W at e0 ⊢
  host_read <;> (try simp only [e0]) <;> rfl

set_option maxRecDepth 131072 in
theorem B2_v85 :
    B2 m ρ c (Proc.devRef .tc main_v85) = (Cert.ReferenceIdeal.Read.val_main_v147 (F := Ideal) (m ((c : Thread nD τ).loc main_arg0)) (m ((c : Thread nD τ).loc main_arg19)) (m ((c : Thread nD τ).loc main_arg20))) := by
  show StableHlo.after main_part1_ops0 (B1 m ρ c) (Proc.devRef .tc main_v85) = _
  have e0 := (B1_arg m ρ c main_arg19 (by decide))
  have e1 := (B1_arg m ρ c main_arg0 (by decide))
  have e2 := (B1_arg m ρ c main_arg20 (by decide))
  generalize B1 m ρ c = W at e0 e1 e2 ⊢
  host_read <;> (try simp only [e0, e1, e2]) <;> rfl

set_option maxRecDepth 131072 in
theorem B3_v94 :
    B3 m ρ c (Proc.devRef .tc main_v94) = (Cert.ReferenceIdeal.Read.val_main_v156 (F := Ideal) (m ((c : Thread nD τ).loc main_arg0)) (m ((c : Thread nD τ).loc main_arg19)) (m ((c : Thread nD τ).loc main_arg20))) := by
  show StableHlo.after main_part2_ops0 (B2 m ρ c) (Proc.devRef .tc main_v94) = _
  have e0 := (B2_cst_27 m ρ c)
  have e1 := (B2_v89 m ρ c)
  have e2 := (B2_v85 m ρ c)
  generalize B2 m ρ c = W at e0 e1 e2 ⊢
  host_read <;> (try simp only [e0, e1, e2]) <;> rfl

end Cert.KernelIdeal.Hand

end
-- ==== Proof.KI.HostB.lean ====
/-
  What the core's buffers hold at the segment boundaries 3 to 11, read back through the host operations.

  A host operation rewrites one buffer with its function of the buffers it reads and leaves the others alone, so a buffer's contents after a stretch is the
  composition of the operations that lead to it, applied to what the stretch found in the buffers it reads; a region changes only its output array.
  The aggregation stages are stated as the reference program's own stages of the same arguments: the two programs apply the same gathers, segment sums,
  counts and quotients to the same arrays, so the composed terms coincide.
-/
import proofs.«154750_j39152921870699_1_alg».proof.Proof.KI.HostA
import proofs.«154750_j39152921870699_1_alg».proof.Proof.RefRead
import proofs.«154750_j39152921870699_1_alg».proof.Proof.LibHostRead
import Idealize.ShloMosaic.PureOps.Ideal
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL.Sem

variable (m : (ℓ : Loc nD τ sig) → Buf (Elt Ideal) ℓ) (ρ : Dev nD → PrngReg) (c : Dev nD)

/-! ## The read-backs -/

theorem B5_v136_ops :
    B5 m ρ c (Proc.devRef .tc main_v136) = (concatenate S50000x192 1 [⟨S50000x64, (B5 m ρ c (Proc.devRef .tc main_v37) : ((⟨S50000x64, .f32⟩ : BufTy).Contents (Elt Ideal)))⟩, ⟨S50000x64, (B5 m ρ c (Proc.devRef .tc main_v75) : ((⟨S50000x64, .f32⟩ : BufTy).Contents (Elt Ideal)))⟩, ⟨S50000x64, (B5 m ρ c (Proc.devRef .tc main_arg1) : ((⟨S50000x64, .f32⟩ : BufTy).Contents (Elt Ideal)))⟩] concatenates_S50000x64_S50000x64_S50000x64_S50000x192_d1) := by
  show StableHlo.after main_part2_ops1 (B4 m ρ c) (Proc.devRef .tc main_v136) = (concatenate S50000x192 1 [⟨S50000x64, (StableHlo.after main_part2_ops1 (B4 m ρ c) (Proc.devRef .tc main_v37) : ((⟨S50000x64, .f32⟩ : BufTy).Contents (Elt Ideal)))⟩, ⟨S50000x64, (StableHlo.after main_part2_ops1 (B4 m ρ c) (Proc.devRef .tc main_v75) : ((⟨S50000x64, .f32⟩ : BufTy).Contents (Elt Ideal)))⟩, ⟨S50000x64, (StableHlo.after main_part2_ops1 (B4 m ρ c) (Proc.devRef .tc main_arg1) : ((⟨S50000x64, .f32⟩ : BufTy).Contents (Elt Ideal)))⟩] concatenates_S50000x64_S50000x64_S50000x64_S50000x192_d1)
  generalize B4 m ρ c = W
  after_results_simp
  rfl

theorem B4_v37 (h3_v37 : B3 m ρ c (Proc.devRef .tc main_v37) = (Cert.ReferenceIdeal.Read.val_main_v60 (F := Ideal) (m ((c : Thread nD τ).loc main_arg0)) (m ((c : Thread nD τ).loc main_arg13)) (m ((c : Thread nD τ).loc main_arg14)))) :
    B4 m ρ c (Proc.devRef .tc main_v37) = (Cert.ReferenceIdeal.Read.val_main_v60 (F := Ideal) (m ((c : Thread nD τ).loc main_arg0)) (m ((c : Thread nD τ).loc main_arg13)) (m ((c : Thread nD τ).loc main_arg14))) :=
  (B4_of_ne m ρ c main_v37 (by decide)).trans h3_v37

theorem B5_v37 (h3_v37 : B3 m ρ c (Proc.devRef .tc main_v37) = (Cert.ReferenceIdeal.Read.val_main_v60 (F := Ideal) (m ((c : Thread nD τ).loc main_arg0)) (m ((c : Thread nD τ).loc main_arg13)) (m ((c : Thread nD τ).loc main_arg14)))) :
    B5 m ρ c (Proc.devRef .tc main_v37) = (Cert.ReferenceIdeal.Read.val_main_v60 (F := Ideal) (m ((c : Thread nD τ).loc main_arg0)) (m ((c : Thread nD τ).loc main_arg13)) (m ((c : Thread nD τ).loc main_arg14))) := by
  show StableHlo.after main_part2_ops1 (B4 m ρ c) (Proc.devRef .tc main_v37) = _
  have e0 := (B4_v37 m ρ c h3_v37)
  generalize B4 m ρ c = W at e0 ⊢
  host_read
  exact e0

theorem B4_v75 (h3_v75 : B3 m ρ c (Proc.devRef .tc main_v75) = (Cert.ReferenceIdeal.Read.val_main_v124 (F := Ideal) (m ((c : Thread nD τ).loc main_arg2)) (m ((c : Thread nD τ).loc main_arg17)) (m ((c : Thread nD τ).loc main_arg18)))) :
    B4 m ρ c (Proc.devRef .tc main_v75) = (Cert.ReferenceIdeal.Read.val_main_v124 (F := Ideal) (m ((c : Thread nD τ).loc main_arg2)) (m ((c : Thread nD τ).loc main_arg17)) (m ((c : Thread nD τ).loc main_arg18))) :=
  (B4_of_ne m ρ c main_v75 (by decide)).trans h3_v75

theorem B5_v75 (h3_v75 : B3 m ρ c (Proc.devRef .tc main_v75) = (Cert.ReferenceIdeal.Read.val_main_v124 (F := Ideal) (m ((c : Thread nD τ).loc main_arg2)) (m ((c : Thread nD τ).loc main_arg17)) (m ((c : Thread nD τ).loc main_arg18)))) :
    B5 m ρ c (Proc.devRef .tc main_v75) = (Cert.ReferenceIdeal.Read.val_main_v124 (F := Ideal) (m ((c : Thread nD τ).loc main_arg2)) (m ((c : Thread nD τ).loc main_arg17)) (m ((c : Thread nD τ).loc main_arg18))) := by
  show StableHlo.after main_part2_ops1 (B4 m ρ c) (Proc.devRef .tc main_v75) = _
  have e0 := (B4_v75 m ρ c h3_v75)
  generalize B4 m ρ c = W at e0 ⊢
  host_read
  exact e0

theorem B5_v136 (h3_v37 : B3 m ρ c (Proc.devRef .tc main_v37) = (Cert.ReferenceIdeal.Read.val_main_v60 (F := Ideal) (m ((c : Thread nD τ).loc main_arg0)) (m ((c : Thread nD τ).loc main_arg13)) (m ((c : Thread nD τ).loc main_arg14)))) (h3_v75 : B3 m ρ c (Proc.devRef .tc main_v75) = (Cert.ReferenceIdeal.Read.val_main_v124 (F := Ideal) (m ((c : Thread nD τ).loc main_arg2)) (m ((c : Thread nD τ).loc main_arg17)) (m ((c : Thread nD τ).loc main_arg18)))) :
    B5 m ρ c (Proc.devRef .tc main_v136) = (concatenate S50000x192 1 [⟨S50000x64, ((Cert.ReferenceIdeal.Read.val_main_v60 (F := Ideal) (m ((c : Thread nD τ).loc main_arg0)) (m ((c : Thread nD τ).loc main_arg13)) (m ((c : Thread nD τ).loc main_arg14))) : ((⟨S50000x64, .f32⟩ : BufTy).Contents (Elt Ideal)))⟩, ⟨S50000x64, ((Cert.ReferenceIdeal.Read.val_main_v124 (F := Ideal) (m ((c : Thread nD τ).loc main_arg2)) (m ((c : Thread nD τ).loc main_arg17)) (m ((c : Thread nD τ).loc main_arg18))) : ((⟨S50000x64, .f32⟩ : BufTy).Contents (Elt Ideal)))⟩, ⟨S50000x64, ((m ((c : Thread nD τ).loc main_arg1)) : ((⟨S50000x64, .f32⟩ : BufTy).Contents (Elt Ideal)))⟩] concatenates_S50000x64_S50000x64_S50000x64_S50000x192_d1) := by
  rw [B5_v136_ops m ρ c, (B5_v37 m ρ c h3_v37), (B5_v75 m ρ c h3_v75), (B5_arg m ρ c main_arg1 (by decide))] <;> rfl

theorem B6_v136 (h3_v37 : B3 m ρ c (Proc.devRef .tc main_v37) = (Cert.ReferenceIdeal.Read.val_main_v60 (F := Ideal) (m ((c : Thread nD τ).loc main_arg0)) (m ((c : Thread nD τ).loc main_arg13)) (m ((c : Thread nD τ).loc main_arg14)))) (h3_v75 : B3 m ρ c (Proc.devRef .tc main_v75) = (Cert.ReferenceIdeal.Read.val_main_v124 (F := Ideal) (m ((c : Thread nD τ).loc main_arg2)) (m ((c : Thread nD τ).loc main_arg17)) (m ((c : Thread nD τ).loc main_arg18)))) :
    B6 m ρ c (Proc.devRef .tc main_v136) = (concatenate S50000x192 1 [⟨S50000x64, ((Cert.ReferenceIdeal.Read.val_main_v60 (F := Ideal) (m ((c : Thread nD τ).loc main_arg0)) (m ((c : Thread nD τ).loc main_arg13)) (m ((c : Thread nD τ).loc main_arg14))) : ((⟨S50000x64, .f32⟩ : BufTy).Contents (Elt Ideal)))⟩, ⟨S50000x64, ((Cert.ReferenceIdeal.Read.val_main_v124 (F := Ideal) (m ((c : Thread nD τ).loc main_arg2)) (m ((c : Thread nD τ).loc main_arg17)) (m ((c : Thread nD τ).loc main_arg18))) : ((⟨S50000x64, .f32⟩ : BufTy).Contents (Elt Ideal)))⟩, ⟨S50000x64, ((m ((c : Thread nD τ).loc main_arg1)) : ((⟨S50000x64, .f32⟩ : BufTy).Contents (Elt Ideal)))⟩] concatenates_S50000x64_S50000x64_S50000x64_S50000x192_d1) := by
  show StableHlo.after main_part3_ops0 (B5 m ρ c) (Proc.devRef .tc main_v136) = _
  have e0 := (B5_v136 m ρ c h3_v37 h3_v75)
  generalize B5 m ρ c = W at e0 ⊢
  host_read
  exact e0

theorem B6_v148_ops :
    B6 m ρ c (Proc.devRef .tc main_v148) = (concatenate S192x64 0 [⟨S64x64, (B6 m ρ c (Proc.devRef .tc main_v138) : ((⟨S64x64, .f32⟩ : BufTy).Contents (Elt Ideal)))⟩, ⟨S64x64, (B6 m ρ c (Proc.devRef .tc main_v140) : ((⟨S64x64, .f32⟩ : BufTy).Contents (Elt Ideal)))⟩, ⟨S64x64, (B6 m ρ c (Proc.devRef .tc main_v147) : ((⟨S64x64, .f32⟩ : BufTy).Contents (Elt Ideal)))⟩] concatenates_S64x64_S64x64_S64x64_S192x64_d0) := by
  show StableHlo.after main_part3_ops0 (B5 m ρ c) (Proc.devRef .tc main_v148) = (concatenate S192x64 0 [⟨S64x64, (StableHlo.after main_part3_ops0 (B5 m ρ c) (Proc.devRef .tc main_v138) : ((⟨S64x64, .f32⟩ : BufTy).Contents (Elt Ideal)))⟩, ⟨S64x64, (StableHlo.after main_part3_ops0 (B5 m ρ c) (Proc.devRef .tc main_v140) : ((⟨S64x64, .f32⟩ : BufTy).Contents (Elt Ideal)))⟩, ⟨S64x64, (StableHlo.after main_part3_ops0 (B5 m ρ c) (Proc.devRef .tc main_v147) : ((⟨S64x64, .f32⟩ : BufTy).Contents (Elt Ideal)))⟩] concatenates_S64x64_S64x64_S64x64_S192x64_d0)
  generalize B5 m ρ c = W
  after_results_simp
  rfl

set_option maxRecDepth 131072 in
theorem B5_v138 :
    B5 m ρ c (Proc.devRef .tc main_v138) = ((shapeCast S64x64 (extractStridedSlice S1x1x64x64 ![0, 1, 0, 0] ((m ((c : Thread nD τ).loc main_arg4)) : ((⟨S2x6x64x64, .f32⟩ : BufTy).Contents (Elt Ideal))) slices_S2x6x64x64_S1x1x64x64_0_1_0_0) shapeCasts_S1x1x64x64_S64x64) : ((⟨S64x64, .f32⟩ : BufTy).Contents (Elt Ideal))) := by
  show StableHlo.after main_part2_ops1 (B4 m ρ c) (Proc.devRef .tc main_v138) = _
  have e0 := (B4_arg m ρ c main_arg4 (by decide))
  generalize B4 m ρ c = W at e0 ⊢
  host_read <;> (try simp only [e0]) <;> rfl

theorem B6_v138 :
    B6 m ρ c (Proc.devRef .tc main_v138) = ((shapeCast S64x64 (extractStridedSlice S1x1x64x64 ![0, 1, 0, 0] ((m ((c : Thread nD τ).loc main_arg4)) : ((⟨S2x6x64x64, .f32⟩ : BufTy).Contents (Elt Ideal))) slices_S2x6x64x64_S1x1x64x64_0_1_0_0) shapeCasts_S1x1x64x64_S64x64) : ((⟨S64x64, .f32⟩ : BufTy).Contents (Elt Ideal))) := by
  show StableHlo.after main_part3_ops0 (B5 m ρ c) (Proc.devRef .tc main_v138) = _
  have e0 := (B5_v138 m ρ c)
  generalize B5 m ρ c = W at e0 ⊢
  host_read
  exact e0

set_option maxRecDepth 131072 in
theorem B5_v140 :
    B5 m ρ c (Proc.devRef .tc main_v140) = ((shapeCast S64x64 (extractStridedSlice S1x1x64x64 ![0, 3, 0, 0] ((m ((c : Thread nD τ).loc main_arg4)) : ((⟨S2x6x64x64, .f32⟩ : BufTy).Contents (Elt Ideal))) slices_S2x6x64x64_S1x1x64x64_0_3_0_0) shapeCasts_S1x1x64x64_S64x64) : ((⟨S64x64, .f32⟩ : BufTy).Contents (Elt Ideal))) := by
  show StableHlo.after main_part2_ops1 (B4 m ρ c) (Proc.devRef .tc main_v140) = _
  have e0 := (B4_arg m ρ c main_arg4 (by decide))
  generalize B4 m ρ c = W at e0 ⊢
  host_read <;> (try simp only [e0]) <;> rfl

theorem B6_v140 :
    B6 m ρ c (Proc.devRef .tc main_v140) = ((shapeCast S64x64 (extractStridedSlice S1x1x64x64 ![0, 3, 0, 0] ((m ((c : Thread nD τ).loc main_arg4)) : ((⟨S2x6x64x64, .f32⟩ : BufTy).Contents (Elt Ideal))) slices_S2x6x64x64_S1x1x64x64_0_3_0_0) shapeCasts_S1x1x64x64_S64x64) : ((⟨S64x64, .f32⟩ : BufTy).Contents (Elt Ideal))) := by
  show StableHlo.after main_part3_ops0 (B5 m ρ c) (Proc.devRef .tc main_v140) = _
  have e0 := (B5_v140 m ρ c)
  generalize B5 m ρ c = W at e0 ⊢
  host_read
  exact e0

set_option maxRecDepth 131072 in
theorem B5_v141 :
    B5 m ρ c (Proc.devRef .tc main_v141) = ((extractStridedSlice S1x1x64x64 ![0, 1, 0, 0] ((m ((c : Thread nD τ).loc main_arg6)) : ((⟨S2x6x64x64, .f32⟩ : BufTy).Contents (Elt Ideal))) slices_S2x6x64x64_S1x1x64x64_0_1_0_0) : ((⟨S1x1x64x64, .f32⟩ : BufTy).Contents (Elt Ideal))) := by
  show StableHlo.after main_part2_ops1 (B4 m ρ c) (Proc.devRef .tc main_v141) = _
  have e0 := (B4_arg m ρ c main_arg6 (by decide))
  generalize B4 m ρ c = W at e0 ⊢
  host_read <;> (try simp only [e0]) <;> rfl

set_option maxRecDepth 131072 in
theorem B6_v147 :
    B6 m ρ c (Proc.devRef .tc main_v147) = ((addf (F := Ideal) (φ := .f32) (addf (F := Ideal) (φ := .f32) ((broadcastInDim S64x64 ![] bcast_S_S64x64 (constant (F := Ideal) S_ .f32 0x00000000#32)) : ((⟨S64x64, .f32⟩ : BufTy).Contents (Elt Ideal))) ((shapeCast S64x64 (extractStridedSlice S1x1x64x64 ![0, 1, 0, 0] ((m ((c : Thread nD τ).loc main_arg6)) : ((⟨S2x6x64x64, .f32⟩ : BufTy).Contents (Elt Ideal))) slices_S2x6x64x64_S1x1x64x64_0_1_0_0) shapeCasts_S1x1x64x64_S64x64) : ((⟨S64x64, .f32⟩ : BufTy).Contents (Elt Ideal)))) ((shapeCast S64x64 (extractStridedSlice S1x1x64x64 ![0, 3, 0, 0] ((m ((c : Thread nD τ).loc main_arg6)) : ((⟨S2x6x64x64, .f32⟩ : BufTy).Contents (Elt Ideal))) slices_S2x6x64x64_S1x1x64x64_0_3_0_0) shapeCasts_S1x1x64x64_S64x64) : ((⟨S64x64, .f32⟩ : BufTy).Contents (Elt Ideal)))) : ((⟨S64x64, .f32⟩ : BufTy).Contents (Elt Ideal))) := by
  show StableHlo.after main_part3_ops0 (B5 m ρ c) (Proc.devRef .tc main_v147) = _
  have e0 := (B5_arg m ρ c main_arg6 (by decide))
  have e1 := (B5_v141 m ρ c)
  generalize B5 m ρ c = W at e0 e1 ⊢
  host_read <;> (try simp only [e0, e1]) <;> rfl

theorem B6_v148 :
    B6 m ρ c (Proc.devRef .tc main_v148) = (concatenate S192x64 0 [⟨S64x64, ((shapeCast S64x64 (extractStridedSlice S1x1x64x64 ![0, 1, 0, 0] ((m ((c : Thread nD τ).loc main_arg4)) : ((⟨S2x6x64x64, .f32⟩ : BufTy).Contents (Elt Ideal))) slices_S2x6x64x64_S1x1x64x64_0_1_0_0) shapeCasts_S1x1x64x64_S64x64) : ((⟨S64x64, .f32⟩ : BufTy).Contents (Elt Ideal)))⟩, ⟨S64x64, ((shapeCast S64x64 (extractStridedSlice S1x1x64x64 ![0, 3, 0, 0] ((m ((c : Thread nD τ).loc main_arg4)) : ((⟨S2x6x64x64, .f32⟩ : BufTy).Contents (Elt Ideal))) slices_S2x6x64x64_S1x1x64x64_0_3_0_0) shapeCasts_S1x1x64x64_S64x64) : ((⟨S64x64, .f32⟩ : BufTy).Contents (Elt Ideal)))⟩, ⟨S64x64, ((addf (F := Ideal) (φ := .f32) (addf (F := Ideal) (φ := .f32) ((broadcastInDim S64x64 ![] bcast_S_S64x64 (constant (F := Ideal) S_ .f32 0x00000000#32)) : ((⟨S64x64, .f32⟩ : BufTy).Contents (Elt Ideal))) ((shapeCast S64x64 (extractStridedSlice S1x1x64x64 ![0, 1, 0, 0] ((m ((c : Thread nD τ).loc main_arg6)) : ((⟨S2x6x64x64, .f32⟩ : BufTy).Contents (Elt Ideal))) slices_S2x6x64x64_S1x1x64x64_0_1_0_0) shapeCasts_S1x1x64x64_S64x64) : ((⟨S64x64, .f32⟩ : BufTy).Contents (Elt Ideal)))) ((shapeCast S64x64 (extractStridedSlice S1x1x64x64 ![0, 3, 0, 0] ((m ((c : Thread nD τ).loc main_arg6)) : ((⟨S2x6x64x64, .f32⟩ : BufTy).Contents (Elt Ideal))) slices_S2x6x64x64_S1x1x64x64_0_3_0_0) shapeCasts_S1x1x64x64_S64x64) : ((⟨S64x64, .f32⟩ : BufTy).Contents (Elt Ideal)))) : ((⟨S64x64, .f32⟩ : BufTy).Contents (Elt Ideal)))⟩] concatenates_S64x64_S64x64_S64x64_S192x64_d0) := by
  rw [B6_v148_ops m ρ c, (B6_v138 m ρ c), (B6_v140 m ρ c), (B6_v147 m ρ c)] <;> rfl

set_option maxRecDepth 131072 in
theorem B6_v156 :
    B6 m ρ c (Proc.devRef .tc main_v156) = ((shapeCast S1x64 ((addf (F := Ideal) (φ := .f32) (addf (F := Ideal) (φ := .f32) ((broadcastInDim S64 ![] bcast_S_S64 (constant (F := Ideal) S_ .f32 0x00000000#32)) : ((⟨S64, .f32⟩ : BufTy).Contents (Elt Ideal))) ((shapeCast S64 (extractStridedSlice S1x1x64 ![0, 1, 0] ((m ((c : Thread nD τ).loc main_arg5)) : ((⟨S2x6x64, .f32⟩ : BufTy).Contents (Elt Ideal))) slices_S2x6x64_S1x1x64_0_1_0) shapeCasts_S1x1x64_S64) : ((⟨S64, .f32⟩ : BufTy).Contents (Elt Ideal)))) ((shapeCast S64 (extractStridedSlice S1x1x64 ![0, 3, 0] ((m ((c : Thread nD τ).loc main_arg5)) : ((⟨S2x6x64, .f32⟩ : BufTy).Contents (Elt Ideal))) slices_S2x6x64_S1x1x64_0_3_0) shapeCasts_S1x1x64_S64) : ((⟨S64, .f32⟩ : BufTy).Contents (Elt Ideal)))) : ((⟨S64, .f32⟩ : BufTy).Contents (Elt Ideal))) shapeCasts_S64_S1x64) : ((⟨S1x64, .f32⟩ : BufTy).Contents (Elt Ideal))) := by
  show StableHlo.after main_part3_ops0 (B5 m ρ c) (Proc.devRef .tc main_v156) = _
  have e0 := (B5_arg m ρ c main_arg5 (by decide))
  generalize B5 m ρ c = W at e0 ⊢
  host_read <;> (try simp only [e0]) <;> rfl

theorem B8_v158_ops :
    B8 m ρ c (Proc.devRef .tc main_v158) = (concatenate S2000x128 1 [⟨S2000x64, (B8 m ρ c (Proc.devRef .tc main_v56) : ((⟨S2000x64, .f32⟩ : BufTy).Contents (Elt Ideal)))⟩, ⟨S2000x64, (B8 m ρ c (Proc.devRef .tc main_arg2) : ((⟨S2000x64, .f32⟩ : BufTy).Contents (Elt Ideal)))⟩] concatenates_S2000x64_S2000x64_S2000x128_d1) := by
  show StableHlo.after main_part3_ops1 (B7 m ρ c) (Proc.devRef .tc main_v158) = (concatenate S2000x128 1 [⟨S2000x64, (StableHlo.after main_part3_ops1 (B7 m ρ c) (Proc.devRef .tc main_v56) : ((⟨S2000x64, .f32⟩ : BufTy).Contents (Elt Ideal)))⟩, ⟨S2000x64, (StableHlo.after main_part3_ops1 (B7 m ρ c) (Proc.devRef .tc main_arg2) : ((⟨S2000x64, .f32⟩ : BufTy).Contents (Elt Ideal)))⟩] concatenates_S2000x64_S2000x64_S2000x128_d1)
  generalize B7 m ρ c = W
  after_results_simp
  rfl

theorem B4_v56 (h3_v56 : B3 m ρ c (Proc.devRef .tc main_v56) = (Cert.ReferenceIdeal.Read.val_main_v92 (F := Ideal) (m ((c : Thread nD τ).loc main_arg1)) (m ((c : Thread nD τ).loc main_arg15)) (m ((c : Thread nD τ).loc main_arg16)))) :
    B4 m ρ c (Proc.devRef .tc main_v56) = (Cert.ReferenceIdeal.Read.val_main_v92 (F := Ideal) (m ((c : Thread nD τ).loc main_arg1)) (m ((c : Thread nD τ).loc main_arg15)) (m ((c : Thread nD τ).loc main_arg16))) :=
  (B4_of_ne m ρ c main_v56 (by decide)).trans h3_v56

theorem B5_v56 (h3_v56 : B3 m ρ c (Proc.devRef .tc main_v56) = (Cert.ReferenceIdeal.Read.val_main_v92 (F := Ideal) (m ((c : Thread nD τ).loc main_arg1)) (m ((c : Thread nD τ).loc main_arg15)) (m ((c : Thread nD τ).loc main_arg16)))) :
    B5 m ρ c (Proc.devRef .tc main_v56) = (Cert.ReferenceIdeal.Read.val_main_v92 (F := Ideal) (m ((c : Thread nD τ).loc main_arg1)) (m ((c : Thread nD τ).loc main_arg15)) (m ((c : Thread nD τ).loc main_arg16))) := by
  show StableHlo.after main_part2_ops1 (B4 m ρ c) (Proc.devRef .tc main_v56) = _
  have e0 := (B4_v56 m ρ c h3_v56)
  generalize B4 m ρ c = W at e0 ⊢
  host_read
  exact e0

theorem B6_v56 (h3_v56 : B3 m ρ c (Proc.devRef .tc main_v56) = (Cert.ReferenceIdeal.Read.val_main_v92 (F := Ideal) (m ((c : Thread nD τ).loc main_arg1)) (m ((c : Thread nD τ).loc main_arg15)) (m ((c : Thread nD τ).loc main_arg16)))) :
    B6 m ρ c (Proc.devRef .tc main_v56) = (Cert.ReferenceIdeal.Read.val_main_v92 (F := Ideal) (m ((c : Thread nD τ).loc main_arg1)) (m ((c : Thread nD τ).loc main_arg15)) (m ((c : Thread nD τ).loc main_arg16))) := by
  show StableHlo.after main_part3_ops0 (B5 m ρ c) (Proc.devRef .tc main_v56) = _
  have e0 := (B5_v56 m ρ c h3_v56)
  generalize B5 m ρ c = W at e0 ⊢
  host_read
  exact e0

theorem B7_v56 (h3_v56 : B3 m ρ c (Proc.devRef .tc main_v56) = (Cert.ReferenceIdeal.Read.val_main_v92 (F := Ideal) (m ((c : Thread nD τ).loc main_arg1)) (m ((c : Thread nD τ).loc main_arg15)) (m ((c : Thread nD τ).loc main_arg16)))) :
    B7 m ρ c (Proc.devRef .tc main_v56) = (Cert.ReferenceIdeal.Read.val_main_v92 (F := Ideal) (m ((c : Thread nD τ).loc main_arg1)) (m ((c : Thread nD τ).loc main_arg15)) (m ((c : Thread nD τ).loc main_arg16))) :=
  (B7_of_ne m ρ c main_v56 (by decide)).trans (B6_v56 m ρ c h3_v56)

theorem B8_v56 (h3_v56 : B3 m ρ c (Proc.devRef .tc main_v56) = (Cert.ReferenceIdeal.Read.val_main_v92 (F := Ideal) (m ((c : Thread nD τ).loc main_arg1)) (m ((c : Thread nD τ).loc main_arg15)) (m ((c : Thread nD τ).loc main_arg16)))) :
    B8 m ρ c (Proc.devRef .tc main_v56) = (Cert.ReferenceIdeal.Read.val_main_v92 (F := Ideal) (m ((c : Thread nD τ).loc main_arg1)) (m ((c : Thread nD τ).loc main_arg15)) (m ((c : Thread nD τ).loc main_arg16))) := by
  show StableHlo.after main_part3_ops1 (B7 m ρ c) (Proc.devRef .tc main_v56) = _
  have e0 := (B7_v56 m ρ c h3_v56)
  generalize B7 m ρ c = W at e0 ⊢
  host_read
  exact e0

theorem B8_v158 (h3_v56 : B3 m ρ c (Proc.devRef .tc main_v56) = (Cert.ReferenceIdeal.Read.val_main_v92 (F := Ideal) (m ((c : Thread nD τ).loc main_arg1)) (m ((c : Thread nD τ).loc main_arg15)) (m ((c : Thread nD τ).loc main_arg16)))) :
    B8 m ρ c (Proc.devRef .tc main_v158) = (concatenate S2000x128 1 [⟨S2000x64, ((Cert.ReferenceIdeal.Read.val_main_v92 (F := Ideal) (m ((c : Thread nD τ).loc main_arg1)) (m ((c : Thread nD τ).loc main_arg15)) (m ((c : Thread nD τ).loc main_arg16))) : ((⟨S2000x64, .f32⟩ : BufTy).Contents (Elt Ideal)))⟩, ⟨S2000x64, ((m ((c : Thread nD τ).loc main_arg2)) : ((⟨S2000x64, .f32⟩ : BufTy).Contents (Elt Ideal)))⟩] concatenates_S2000x64_S2000x64_S2000x128_d1) := by
  rw [B8_v158_ops m ρ c, (B8_v56 m ρ c h3_v56), (B8_arg m ρ c main_arg2 (by decide))] <;> rfl

theorem B8_v165_ops :
    B8 m ρ c (Proc.devRef .tc main_v165) = (concatenate S128x64 0 [⟨S64x64, (B8 m ρ c (Proc.devRef .tc main_v160) : ((⟨S64x64, .f32⟩ : BufTy).Contents (Elt Ideal)))⟩, ⟨S64x64, (B8 m ρ c (Proc.devRef .tc main_v164) : ((⟨S64x64, .f32⟩ : BufTy).Contents (Elt Ideal)))⟩] concatenates_S64x64_S64x64_S128x64_d0) := by
  show StableHlo.after main_part3_ops1 (B7 m ρ c) (Proc.devRef .tc main_v165) = (concatenate S128x64 0 [⟨S64x64, (StableHlo.after main_part3_ops1 (B7 m ρ c) (Proc.devRef .tc main_v160) : ((⟨S64x64, .f32⟩ : BufTy).Contents (Elt Ideal)))⟩, ⟨S64x64, (StableHlo.after main_part3_ops1 (B7 m ρ c) (Proc.devRef .tc main_v164) : ((⟨S64x64, .f32⟩ : BufTy).Contents (Elt Ideal)))⟩] concatenates_S64x64_S64x64_S128x64_d0)
  generalize B7 m ρ c = W
  after_results_simp
  rfl

set_option maxRecDepth 131072 in
theorem B8_v160 :
    B8 m ρ c (Proc.devRef .tc main_v160) = ((shapeCast S64x64 (extractStridedSlice S1x1x64x64 ![0, 2, 0, 0] ((m ((c : Thread nD τ).loc main_arg4)) : ((⟨S2x6x64x64, .f32⟩ : BufTy).Contents (Elt Ideal))) slices_S2x6x64x64_S1x1x64x64_0_2_0_0) shapeCasts_S1x1x64x64_S64x64) : ((⟨S64x64, .f32⟩ : BufTy).Contents (Elt Ideal))) := by
  show StableHlo.after main_part3_ops1 (B7 m ρ c) (Proc.devRef .tc main_v160) = _
  have e0 := (B7_arg m ρ c main_arg4 (by decide))
  generalize B7 m ρ c = W at e0 ⊢
  host_read <;> (try simp only [e0]) <;> rfl

set_option maxRecDepth 131072 in
theorem B8_v164 :
    B8 m ρ c (Proc.devRef .tc main_v164) = ((addf (F := Ideal) (φ := .f32) ((broadcastInDim S64x64 ![] bcast_S_S64x64 (constant (F := Ideal) S_ .f32 0x00000000#32)) : ((⟨S64x64, .f32⟩ : BufTy).Contents (Elt Ideal))) ((shapeCast S64x64 (extractStridedSlice S1x1x64x64 ![0, 2, 0, 0] ((m ((c : Thread nD τ).loc main_arg6)) : ((⟨S2x6x64x64, .f32⟩ : BufTy).Contents (Elt Ideal))) slices_S2x6x64x64_S1x1x64x64_0_2_0_0) shapeCasts_S1x1x64x64_S64x64) : ((⟨S64x64, .f32⟩ : BufTy).Contents (Elt Ideal)))) : ((⟨S64x64, .f32⟩ : BufTy).Contents (Elt Ideal))) := by
  show StableHlo.after main_part3_ops1 (B7 m ρ c) (Proc.devRef .tc main_v164) = _
  have e0 := (B7_arg m ρ c main_arg6 (by decide))
  generalize B7 m ρ c = W at e0 ⊢
  host_read <;> (try simp only [e0]) <;> rfl

theorem B8_v165 :
    B8 m ρ c (Proc.devRef .tc main_v165) = (concatenate S128x64 0 [⟨S64x64, ((shapeCast S64x64 (extractStridedSlice S1x1x64x64 ![0, 2, 0, 0] ((m ((c : Thread nD τ).loc main_arg4)) : ((⟨S2x6x64x64, .f32⟩ : BufTy).Contents (Elt Ideal))) slices_S2x6x64x64_S1x1x64x64_0_2_0_0) shapeCasts_S1x1x64x64_S64x64) : ((⟨S64x64, .f32⟩ : BufTy).Contents (Elt Ideal)))⟩, ⟨S64x64, ((addf (F := Ideal) (φ := .f32) ((broadcastInDim S64x64 ![] bcast_S_S64x64 (constant (F := Ideal) S_ .f32 0x00000000#32)) : ((⟨S64x64, .f32⟩ : BufTy).Contents (Elt Ideal))) ((shapeCast S64x64 (extractStridedSlice S1x1x64x64 ![0, 2, 0, 0] ((m ((c : Thread nD τ).loc main_arg6)) : ((⟨S2x6x64x64, .f32⟩ : BufTy).Contents (Elt Ideal))) slices_S2x6x64x64_S1x1x64x64_0_2_0_0) shapeCasts_S1x1x64x64_S64x64) : ((⟨S64x64, .f32⟩ : BufTy).Contents (Elt Ideal)))) : ((⟨S64x64, .f32⟩ : BufTy).Contents (Elt Ideal)))⟩] concatenates_S64x64_S64x64_S128x64_d0) := by
  rw [B8_v165_ops m ρ c, (B8_v160 m ρ c), (B8_v164 m ρ c)] <;> rfl

set_option maxRecDepth 131072 in
theorem B8_v170 :
    B8 m ρ c (Proc.devRef .tc main_v170) = ((shapeCast S1x64 ((addf (F := Ideal) (φ := .f32) ((broadcastInDim S64 ![] bcast_S_S64 (constant (F := Ideal) S_ .f32 0x00000000#32)) : ((⟨S64, .f32⟩ : BufTy).Contents (Elt Ideal))) ((shapeCast S64 (extractStridedSlice S1x1x64 ![0, 2, 0] ((m ((c : Thread nD τ).loc main_arg5)) : ((⟨S2x6x64, .f32⟩ : BufTy).Contents (Elt Ideal))) slices_S2x6x64_S1x1x64_0_2_0) shapeCasts_S1x1x64_S64) : ((⟨S64, .f32⟩ : BufTy).Contents (Elt Ideal)))) : ((⟨S64, .f32⟩ : BufTy).Contents (Elt Ideal))) shapeCasts_S64_S1x64) : ((⟨S1x64, .f32⟩ : BufTy).Contents (Elt Ideal))) := by
  show StableHlo.after main_part3_ops1 (B7 m ρ c) (Proc.devRef .tc main_v170) = _
  have e0 := (B7_arg m ρ c main_arg5 (by decide))
  generalize B7 m ρ c = W at e0 ⊢
  host_read <;> (try simp only [e0]) <;> rfl

theorem B10_v172_ops :
    B10 m ρ c (Proc.devRef .tc main_v172) = (concatenate S5000x128 1 [⟨S5000x64, (B10 m ρ c (Proc.devRef .tc main_v94) : ((⟨S5000x64, .f32⟩ : BufTy).Contents (Elt Ideal)))⟩, ⟨S5000x64, (B10 m ρ c (Proc.devRef .tc main_arg3) : ((⟨S5000x64, .f32⟩ : BufTy).Contents (Elt Ideal)))⟩] concatenates_S5000x64_S5000x64_S5000x128_d1) := by
  show StableHlo.after main_part3_ops2 (B9 m ρ c) (Proc.devRef .tc main_v172) = (concatenate S5000x128 1 [⟨S5000x64, (StableHlo.after main_part3_ops2 (B9 m ρ c) (Proc.devRef .tc main_v94) : ((⟨S5000x64, .f32⟩ : BufTy).Contents (Elt Ideal)))⟩, ⟨S5000x64, (StableHlo.after main_part3_ops2 (B9 m ρ c) (Proc.devRef .tc main_arg3) : ((⟨S5000x64, .f32⟩ : BufTy).Contents (Elt Ideal)))⟩] concatenates_S5000x64_S5000x64_S5000x128_d1)
  generalize B9 m ρ c = W
  after_results_simp
  rfl

theorem B4_v94 (h3_v94 : B3 m ρ c (Proc.devRef .tc main_v94) = (Cert.ReferenceIdeal.Read.val_main_v156 (F := Ideal) (m ((c : Thread nD τ).loc main_arg0)) (m ((c : Thread nD τ).loc main_arg19)) (m ((c : Thread nD τ).loc main_arg20)))) :
    B4 m ρ c (Proc.devRef .tc main_v94) = (Cert.ReferenceIdeal.Read.val_main_v156 (F := Ideal) (m ((c : Thread nD τ).loc main_arg0)) (m ((c : Thread nD τ).loc main_arg19)) (m ((c : Thread nD τ).loc main_arg20))) :=
  (B4_of_ne m ρ c main_v94 (by decide)).trans h3_v94

theorem B5_v94 (h3_v94 : B3 m ρ c (Proc.devRef .tc main_v94) = (Cert.ReferenceIdeal.Read.val_main_v156 (F := Ideal) (m ((c : Thread nD τ).loc main_arg0)) (m ((c : Thread nD τ).loc main_arg19)) (m ((c : Thread nD τ).loc main_arg20)))) :
    B5 m ρ c (Proc.devRef .tc main_v94) = (Cert.ReferenceIdeal.Read.val_main_v156 (F := Ideal) (m ((c : Thread nD τ).loc main_arg0)) (m ((c : Thread nD τ).loc main_arg19)) (m ((c : Thread nD τ).loc main_arg20))) := by
  show StableHlo.after main_part2_ops1 (B4 m ρ c) (Proc.devRef .tc main_v94) = _
  have e0 := (B4_v94 m ρ c h3_v94)
  generalize B4 m ρ c = W at e0 ⊢
  host_read
  exact e0

theorem B6_v94 (h3_v94 : B3 m ρ c (Proc.devRef .tc main_v94) = (Cert.ReferenceIdeal.Read.val_main_v156 (F := Ideal) (m ((c : Thread nD τ).loc main_arg0)) (m ((c : Thread nD τ).loc main_arg19)) (m ((c : Thread nD τ).loc main_arg20)))) :
    B6 m ρ c (Proc.devRef .tc main_v94) = (Cert.ReferenceIdeal.Read.val_main_v156 (F := Ideal) (m ((c : Thread nD τ).loc main_arg0)) (m ((c : Thread nD τ).loc main_arg19)) (m ((c : Thread nD τ).loc main_arg20))) := by
  show StableHlo.after main_part3_ops0 (B5 m ρ c) (Proc.devRef .tc main_v94) = _
  have e0 := (B5_v94 m ρ c h3_v94)
  generalize B5 m ρ c = W at e0 ⊢
  host_read
  exact e0

theorem B7_v94 (h3_v94 : B3 m ρ c (Proc.devRef .tc main_v94) = (Cert.ReferenceIdeal.Read.val_main_v156 (F := Ideal) (m ((c : Thread nD τ).loc main_arg0)) (m ((c : Thread nD τ).loc main_arg19)) (m ((c : Thread nD τ).loc main_arg20)))) :
    B7 m ρ c (Proc.devRef .tc main_v94) = (Cert.ReferenceIdeal.Read.val_main_v156 (F := Ideal) (m ((c : Thread nD τ).loc main_arg0)) (m ((c : Thread nD τ).loc main_arg19)) (m ((c : Thread nD τ).loc main_arg20))) :=
  (B7_of_ne m ρ c main_v94 (by decide)).trans (B6_v94 m ρ c h3_v94)

theorem B8_v94 (h3_v94 : B3 m ρ c (Proc.devRef .tc main_v94) = (Cert.ReferenceIdeal.Read.val_main_v156 (F := Ideal) (m ((c : Thread nD τ).loc main_arg0)) (m ((c : Thread nD τ).loc main_arg19)) (m ((c : Thread nD τ).loc main_arg20)))) :
    B8 m ρ c (Proc.devRef .tc main_v94) = (Cert.ReferenceIdeal.Read.val_main_v156 (F := Ideal) (m ((c : Thread nD τ).loc main_arg0)) (m ((c : Thread nD τ).loc main_arg19)) (m ((c : Thread nD τ).loc main_arg20))) := by
  show StableHlo.after main_part3_ops1 (B7 m ρ c) (Proc.devRef .tc main_v94) = _
  have e0 := (B7_v94 m ρ c h3_v94)
  generalize B7 m ρ c = W at e0 ⊢
  host_read
  exact e0

theorem B9_v94 (h3_v94 : B3 m ρ c (Proc.devRef .tc main_v94) = (Cert.ReferenceIdeal.Read.val_main_v156 (F := Ideal) (m ((c : Thread nD τ).loc main_arg0)) (m ((c : Thread nD τ).loc main_arg19)) (m ((c : Thread nD τ).loc main_arg20)))) :
    B9 m ρ c (Proc.devRef .tc main_v94) = (Cert.ReferenceIdeal.Read.val_main_v156 (F := Ideal) (m ((c : Thread nD τ).loc main_arg0)) (m ((c : Thread nD τ).loc main_arg19)) (m ((c : Thread nD τ).loc main_arg20))) :=
  (B9_of_ne m ρ c main_v94 (by decide)).trans (B8_v94 m ρ c h3_v94)

theorem B10_v94 (h3_v94 : B3 m ρ c (Proc.devRef .tc main_v94) = (Cert.ReferenceIdeal.Read.val_main_v156 (F := Ideal) (m ((c : Thread nD τ).loc main_arg0)) (m ((c : Thread nD τ).loc main_arg19)) (m ((c : Thread nD τ).loc main_arg20)))) :
    B10 m ρ c (Proc.devRef .tc main_v94) = (Cert.ReferenceIdeal.Read.val_main_v156 (F := Ideal) (m ((c : Thread nD τ).loc main_arg0)) (m ((c : Thread nD τ).loc main_arg19)) (m ((c : Thread nD τ).loc main_arg20))) := by
  show StableHlo.after main_part3_ops2 (B9 m ρ c) (Proc.devRef .tc main_v94) = _
  have e0 := (B9_v94 m ρ c h3_v94)
  generalize B9 m ρ c = W at e0 ⊢
  host_read
  exact e0

theorem B10_v172 (h3_v94 : B3 m ρ c (Proc.devRef .tc main_v94) = (Cert.ReferenceIdeal.Read.val_main_v156 (F := Ideal) (m ((c : Thread nD τ).loc main_arg0)) (m ((c : Thread nD τ).loc main_arg19)) (m ((c : Thread nD τ).loc main_arg20)))) :
    B10 m ρ c (Proc.devRef .tc main_v172) = (concatenate S5000x128 1 [⟨S5000x64, ((Cert.ReferenceIdeal.Read.val_main_v156 (F := Ideal) (m ((c : Thread nD τ).loc main_arg0)) (m ((c : Thread nD τ).loc main_arg19)) (m ((c : Thread nD τ).loc main_arg20))) : ((⟨S5000x64, .f32⟩ : BufTy).Contents (Elt Ideal)))⟩, ⟨S5000x64, ((m ((c : Thread nD τ).loc main_arg3)) : ((⟨S5000x64, .f32⟩ : BufTy).Contents (Elt Ideal)))⟩] concatenates_S5000x64_S5000x64_S5000x128_d1) := by
  rw [B10_v172_ops m ρ c, (B10_v94 m ρ c h3_v94), (B10_arg m ρ c main_arg3 (by decide))] <;> rfl

theorem B10_v179_ops :
    B10 m ρ c (Proc.devRef .tc main_v179) = (concatenate S128x64 0 [⟨S64x64, (B10 m ρ c (Proc.devRef .tc main_v174) : ((⟨S64x64, .f32⟩ : BufTy).Contents (Elt Ideal)))⟩, ⟨S64x64, (B10 m ρ c (Proc.devRef .tc main_v178) : ((⟨S64x64, .f32⟩ : BufTy).Contents (Elt Ideal)))⟩] concatenates_S64x64_S64x64_S128x64_d0) := by
  show StableHlo.after main_part3_ops2 (B9 m ρ c) (Proc.devRef .tc main_v179) = (concatenate S128x64 0 [⟨S64x64, (StableHlo.after main_part3_ops2 (B9 m ρ c) (Proc.devRef .tc main_v174) : ((⟨S64x64, .f32⟩ : BufTy).Contents (Elt Ideal)))⟩, ⟨S64x64, (StableHlo.after main_part3_ops2 (B9 m ρ c) (Proc.devRef .tc main_v178) : ((⟨S64x64, .f32⟩ : BufTy).Contents (Elt Ideal)))⟩] concatenates_S64x64_S64x64_S128x64_d0)
  generalize B9 m ρ c = W
  after_results_simp
  rfl

set_option maxRecDepth 131072 in
theorem B10_v174 :
    B10 m ρ c (Proc.devRef .tc main_v174) = ((shapeCast S64x64 (extractStridedSlice S1x1x64x64 ![0, 4, 0, 0] ((m ((c : Thread nD τ).loc main_arg4)) : ((⟨S2x6x64x64, .f32⟩ : BufTy).Contents (Elt Ideal))) slices_S2x6x64x64_S1x1x64x64_0_4_0_0) shapeCasts_S1x1x64x64_S64x64) : ((⟨S64x64, .f32⟩ : BufTy).Contents (Elt Ideal))) := by
  show StableHlo.after main_part3_ops2 (B9 m ρ c) (Proc.devRef .tc main_v174) = _
  have e0 := (B9_arg m ρ c main_arg4 (by decide))
  generalize B9 m ρ c = W at e0 ⊢
  host_read <;> (try simp only [e0]) <;> rfl

set_option maxRecDepth 131072 in
theorem B10_v178 :
    B10 m ρ c (Proc.devRef .tc main_v178) = ((addf (F := Ideal) (φ := .f32) ((broadcastInDim S64x64 ![] bcast_S_S64x64 (constant (F := Ideal) S_ .f32 0x00000000#32)) : ((⟨S64x64, .f32⟩ : BufTy).Contents (Elt Ideal))) ((shapeCast S64x64 (extractStridedSlice S1x1x64x64 ![0, 4, 0, 0] ((m ((c : Thread nD τ).loc main_arg6)) : ((⟨S2x6x64x64, .f32⟩ : BufTy).Contents (Elt Ideal))) slices_S2x6x64x64_S1x1x64x64_0_4_0_0) shapeCasts_S1x1x64x64_S64x64) : ((⟨S64x64, .f32⟩ : BufTy).Contents (Elt Ideal)))) : ((⟨S64x64, .f32⟩ : BufTy).Contents (Elt Ideal))) := by
  show StableHlo.after main_part3_ops2 (B9 m ρ c) (Proc.devRef .tc main_v178) = _
  have e0 := (B9_arg m ρ c main_arg6 (by decide))
  generalize B9 m ρ c = W at e0 ⊢
  host_read <;> (try simp only [e0]) <;> rfl

theorem B10_v179 :
    B10 m ρ c (Proc.devRef .tc main_v179) = (concatenate S128x64 0 [⟨S64x64, ((shapeCast S64x64 (extractStridedSlice S1x1x64x64 ![0, 4, 0, 0] ((m ((c : Thread nD τ).loc main_arg4)) : ((⟨S2x6x64x64, .f32⟩ : BufTy).Contents (Elt Ideal))) slices_S2x6x64x64_S1x1x64x64_0_4_0_0) shapeCasts_S1x1x64x64_S64x64) : ((⟨S64x64, .f32⟩ : BufTy).Contents (Elt Ideal)))⟩, ⟨S64x64, ((addf (F := Ideal) (φ := .f32) ((broadcastInDim S64x64 ![] bcast_S_S64x64 (constant (F := Ideal) S_ .f32 0x00000000#32)) : ((⟨S64x64, .f32⟩ : BufTy).Contents (Elt Ideal))) ((shapeCast S64x64 (extractStridedSlice S1x1x64x64 ![0, 4, 0, 0] ((m ((c : Thread nD τ).loc main_arg6)) : ((⟨S2x6x64x64, .f32⟩ : BufTy).Contents (Elt Ideal))) slices_S2x6x64x64_S1x1x64x64_0_4_0_0) shapeCasts_S1x1x64x64_S64x64) : ((⟨S64x64, .f32⟩ : BufTy).Contents (Elt Ideal)))) : ((⟨S64x64, .f32⟩ : BufTy).Contents (Elt Ideal)))⟩] concatenates_S64x64_S64x64_S128x64_d0) := by
  rw [B10_v179_ops m ρ c, (B10_v174 m ρ c), (B10_v178 m ρ c)] <;> rfl

set_option maxRecDepth 131072 in
theorem B10_v184 :
    B10 m ρ c (Proc.devRef .tc main_v184) = ((shapeCast S1x64 ((addf (F := Ideal) (φ := .f32) ((broadcastInDim S64 ![] bcast_S_S64 (constant (F := Ideal) S_ .f32 0x00000000#32)) : ((⟨S64, .f32⟩ : BufTy).Contents (Elt Ideal))) ((shapeCast S64 (extractStridedSlice S1x1x64 ![0, 4, 0] ((m ((c : Thread nD τ).loc main_arg5)) : ((⟨S2x6x64, .f32⟩ : BufTy).Contents (Elt Ideal))) slices_S2x6x64_S1x1x64_0_4_0) shapeCasts_S1x1x64_S64) : ((⟨S64, .f32⟩ : BufTy).Contents (Elt Ideal)))) : ((⟨S64, .f32⟩ : BufTy).Contents (Elt Ideal))) shapeCasts_S64_S1x64) : ((⟨S1x64, .f32⟩ : BufTy).Contents (Elt Ideal))) := by
  show StableHlo.after main_part3_ops2 (B9 m ρ c) (Proc.devRef .tc main_v184) = _
  have e0 := (B9_arg m ρ c main_arg5 (by decide))
  generalize B9 m ρ c = W at e0 ⊢
  host_read <;> (try simp only [e0]) <;> rfl

theorem B5_v135 (h4_v135 : B4 m ρ c (Proc.devRef .tc main_v135) = (Cert.ReferenceIdeal.Read.val_main_v196 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg21)) (m ((c : Thread nD τ).loc main_arg22)))) :
    B5 m ρ c (Proc.devRef .tc main_v135) = (Cert.ReferenceIdeal.Read.val_main_v196 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg21)) (m ((c : Thread nD τ).loc main_arg22))) := by
  show StableHlo.after main_part2_ops1 (B4 m ρ c) (Proc.devRef .tc main_v135) = _
  have e0 := h4_v135
  generalize B4 m ρ c = W at e0 ⊢
  host_read
  exact e0

theorem B6_v135 (h4_v135 : B4 m ρ c (Proc.devRef .tc main_v135) = (Cert.ReferenceIdeal.Read.val_main_v196 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg21)) (m ((c : Thread nD τ).loc main_arg22)))) :
    B6 m ρ c (Proc.devRef .tc main_v135) = (Cert.ReferenceIdeal.Read.val_main_v196 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg21)) (m ((c : Thread nD τ).loc main_arg22))) := by
  show StableHlo.after main_part3_ops0 (B5 m ρ c) (Proc.devRef .tc main_v135) = _
  have e0 := (B5_v135 m ρ c h4_v135)
  generalize B5 m ρ c = W at e0 ⊢
  host_read
  exact e0

theorem B7_v135 (h4_v135 : B4 m ρ c (Proc.devRef .tc main_v135) = (Cert.ReferenceIdeal.Read.val_main_v196 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg21)) (m ((c : Thread nD τ).loc main_arg22)))) :
    B7 m ρ c (Proc.devRef .tc main_v135) = (Cert.ReferenceIdeal.Read.val_main_v196 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg21)) (m ((c : Thread nD τ).loc main_arg22))) :=
  (B7_of_ne m ρ c main_v135 (by decide)).trans (B6_v135 m ρ c h4_v135)

theorem B8_v135 (h4_v135 : B4 m ρ c (Proc.devRef .tc main_v135) = (Cert.ReferenceIdeal.Read.val_main_v196 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg21)) (m ((c : Thread nD τ).loc main_arg22)))) :
    B8 m ρ c (Proc.devRef .tc main_v135) = (Cert.ReferenceIdeal.Read.val_main_v196 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg21)) (m ((c : Thread nD τ).loc main_arg22))) := by
  show StableHlo.after main_part3_ops1 (B7 m ρ c) (Proc.devRef .tc main_v135) = _
  have e0 := (B7_v135 m ρ c h4_v135)
  generalize B7 m ρ c = W at e0 ⊢
  host_read
  exact e0

theorem B9_v135 (h4_v135 : B4 m ρ c (Proc.devRef .tc main_v135) = (Cert.ReferenceIdeal.Read.val_main_v196 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg21)) (m ((c : Thread nD τ).loc main_arg22)))) :
    B9 m ρ c (Proc.devRef .tc main_v135) = (Cert.ReferenceIdeal.Read.val_main_v196 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg21)) (m ((c : Thread nD τ).loc main_arg22))) :=
  (B9_of_ne m ρ c main_v135 (by decide)).trans (B8_v135 m ρ c h4_v135)

theorem B10_v135 (h4_v135 : B4 m ρ c (Proc.devRef .tc main_v135) = (Cert.ReferenceIdeal.Read.val_main_v196 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg21)) (m ((c : Thread nD τ).loc main_arg22)))) :
    B10 m ρ c (Proc.devRef .tc main_v135) = (Cert.ReferenceIdeal.Read.val_main_v196 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg21)) (m ((c : Thread nD τ).loc main_arg22))) := by
  show StableHlo.after main_part3_ops2 (B9 m ρ c) (Proc.devRef .tc main_v135) = _
  have e0 := (B9_v135 m ρ c h4_v135)
  generalize B9 m ρ c = W at e0 ⊢
  host_read
  exact e0

theorem B11_v135 (h4_v135 : B4 m ρ c (Proc.devRef .tc main_v135) = (Cert.ReferenceIdeal.Read.val_main_v196 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg21)) (m ((c : Thread nD τ).loc main_arg22)))) :
    B11 m ρ c (Proc.devRef .tc main_v135) = (Cert.ReferenceIdeal.Read.val_main_v196 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg21)) (m ((c : Thread nD τ).loc main_arg22))) :=
  (B11_of_ne m ρ c main_v135 (by decide)).trans (B10_v135 m ρ c h4_v135)

theorem B8_v157 (h7_v157 : B7 m ρ c (Proc.devRef .tc main_v157) = (Cert.ReferenceIdeal.Read.val_main_v197 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg13)) (m ((c : Thread nD τ).loc main_arg14)) (m ((c : Thread nD τ).loc main_arg17)) (m ((c : Thread nD τ).loc main_arg18)))) :
    B8 m ρ c (Proc.devRef .tc main_v157) = (Cert.ReferenceIdeal.Read.val_main_v197 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg13)) (m ((c : Thread nD τ).loc main_arg14)) (m ((c : Thread nD τ).loc main_arg17)) (m ((c : Thread nD τ).loc main_arg18))) := by
  show StableHlo.after main_part3_ops1 (B7 m ρ c) (Proc.devRef .tc main_v157) = _
  have e0 := h7_v157
  generalize B7 m ρ c = W at e0 ⊢
  host_read
  exact e0

theorem B9_v157 (h7_v157 : B7 m ρ c (Proc.devRef .tc main_v157) = (Cert.ReferenceIdeal.Read.val_main_v197 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg13)) (m ((c : Thread nD τ).loc main_arg14)) (m ((c : Thread nD τ).loc main_arg17)) (m ((c : Thread nD τ).loc main_arg18)))) :
    B9 m ρ c (Proc.devRef .tc main_v157) = (Cert.ReferenceIdeal.Read.val_main_v197 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg13)) (m ((c : Thread nD τ).loc main_arg14)) (m ((c : Thread nD τ).loc main_arg17)) (m ((c : Thread nD τ).loc main_arg18))) :=
  (B9_of_ne m ρ c main_v157 (by decide)).trans (B8_v157 m ρ c h7_v157)

theorem B10_v157 (h7_v157 : B7 m ρ c (Proc.devRef .tc main_v157) = (Cert.ReferenceIdeal.Read.val_main_v197 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg13)) (m ((c : Thread nD τ).loc main_arg14)) (m ((c : Thread nD τ).loc main_arg17)) (m ((c : Thread nD τ).loc main_arg18)))) :
    B10 m ρ c (Proc.devRef .tc main_v157) = (Cert.ReferenceIdeal.Read.val_main_v197 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg13)) (m ((c : Thread nD τ).loc main_arg14)) (m ((c : Thread nD τ).loc main_arg17)) (m ((c : Thread nD τ).loc main_arg18))) := by
  show StableHlo.after main_part3_ops2 (B9 m ρ c) (Proc.devRef .tc main_v157) = _
  have e0 := (B9_v157 m ρ c h7_v157)
  generalize B9 m ρ c = W at e0 ⊢
  host_read
  exact e0

theorem B11_v157 (h7_v157 : B7 m ρ c (Proc.devRef .tc main_v157) = (Cert.ReferenceIdeal.Read.val_main_v197 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg13)) (m ((c : Thread nD τ).loc main_arg14)) (m ((c : Thread nD τ).loc main_arg17)) (m ((c : Thread nD τ).loc main_arg18)))) :
    B11 m ρ c (Proc.devRef .tc main_v157) = (Cert.ReferenceIdeal.Read.val_main_v197 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg13)) (m ((c : Thread nD τ).loc main_arg14)) (m ((c : Thread nD τ).loc main_arg17)) (m ((c : Thread nD τ).loc main_arg18))) :=
  (B11_of_ne m ρ c main_v157 (by decide)).trans (B10_v157 m ρ c h7_v157)

theorem B10_v171 (h9_v171 : B9 m ρ c (Proc.devRef .tc main_v171) = (Cert.ReferenceIdeal.Read.val_main_v198 (F := Ideal) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg15)) (m ((c : Thread nD τ).loc main_arg16)))) :
    B10 m ρ c (Proc.devRef .tc main_v171) = (Cert.ReferenceIdeal.Read.val_main_v198 (F := Ideal) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg15)) (m ((c : Thread nD τ).loc main_arg16))) := by
  show StableHlo.after main_part3_ops2 (B9 m ρ c) (Proc.devRef .tc main_v171) = _
  have e0 := h9_v171
  generalize B9 m ρ c = W at e0 ⊢
  host_read
  exact e0

theorem B11_v171 (h9_v171 : B9 m ρ c (Proc.devRef .tc main_v171) = (Cert.ReferenceIdeal.Read.val_main_v198 (F := Ideal) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg15)) (m ((c : Thread nD τ).loc main_arg16)))) :
    B11 m ρ c (Proc.devRef .tc main_v171) = (Cert.ReferenceIdeal.Read.val_main_v198 (F := Ideal) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg15)) (m ((c : Thread nD τ).loc main_arg16))) :=
  (B11_of_ne m ρ c main_v171 (by decide)).trans (B10_v171 m ρ c h9_v171)

end Cert.KernelIdeal.Hand

end
-- ==== Proof.KI.HostC.lean ====
/-
  What the core's buffers hold at the segment boundaries 11 to 15, read back through the host operations.

  A host operation rewrites one buffer with its function of the buffers it reads and leaves the others alone, so a buffer's contents after a stretch is the
  composition of the operations that lead to it, applied to what the stretch found in the buffers it reads; a region changes only its output array.
  The aggregation stages are stated as the reference program's own stages of the same arguments: the two programs apply the same gathers, segment sums,
  counts and quotients to the same arrays, so the composed terms coincide.
-/
import proofs.«154750_j39152921870699_1_alg».proof.Proof.KI.HostA
import proofs.«154750_j39152921870699_1_alg».proof.Proof.RefRead
import proofs.«154750_j39152921870699_1_alg».proof.Proof.LibHostRead
import Idealize.ShloMosaic.PureOps.Ideal
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL.Sem

variable (m : (ℓ : Loc nD τ sig) → Buf (Elt Ideal) ℓ) (ρ : Dev nD → PrngReg) (c : Dev nD)

/-! ## The read-backs -/

theorem B15_v300_ops :
    B15 m ρ c (Proc.devRef .tc main_v300) = (concatenate S100000x192 1 [⟨S100000x64, (B15 m ρ c (Proc.devRef .tc main_v204) : ((⟨S100000x64, .f32⟩ : BufTy).Contents (Elt Ideal)))⟩, ⟨S100000x64, (B15 m ρ c (Proc.devRef .tc main_v299) : ((⟨S100000x64, .f32⟩ : BufTy).Contents (Elt Ideal)))⟩, ⟨S100000x64, (B15 m ρ c (Proc.devRef .tc main_v135) : ((⟨S100000x64, .f32⟩ : BufTy).Contents (Elt Ideal)))⟩] concatenates_S100000x64_S100000x64_S100000x64_S100000x192_d1) := by
  show StableHlo.after main_part6_ops0 (B14 m ρ c) (Proc.devRef .tc main_v300) = (concatenate S100000x192 1 [⟨S100000x64, (StableHlo.after main_part6_ops0 (B14 m ρ c) (Proc.devRef .tc main_v204) : ((⟨S100000x64, .f32⟩ : BufTy).Contents (Elt Ideal)))⟩, ⟨S100000x64, (StableHlo.after main_part6_ops0 (B14 m ρ c) (Proc.devRef .tc main_v299) : ((⟨S100000x64, .f32⟩ : BufTy).Contents (Elt Ideal)))⟩, ⟨S100000x64, (StableHlo.after main_part6_ops0 (B14 m ρ c) (Proc.devRef .tc main_v135) : ((⟨S100000x64, .f32⟩ : BufTy).Contents (Elt Ideal)))⟩] concatenates_S100000x64_S100000x64_S100000x64_S100000x192_d1)
  generalize B14 m ρ c = W
  after_results_simp
  rfl

set_option maxRecDepth 131072 in
theorem B12_v192 (h11_v157 : B11 m ρ c (Proc.devRef .tc main_v157) = (Cert.ReferenceIdeal.Read.val_main_v197 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg13)) (m ((c : Thread nD τ).loc main_arg14)) (m ((c : Thread nD τ).loc main_arg17)) (m ((c : Thread nD τ).loc main_arg18)))) :
    B12 m ρ c (Proc.devRef .tc main_v192) = (Cert.ReferenceIdeal.Read.val_main_v216 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg11)) (m ((c : Thread nD τ).loc main_arg13)) (m ((c : Thread nD τ).loc main_arg14)) (m ((c : Thread nD τ).loc main_arg17)) (m ((c : Thread nD τ).loc main_arg18))) := by
  show StableHlo.after main_part3_ops3 (B11 m ρ c) (Proc.devRef .tc main_v192) = _
  have e0 := (B11_arg m ρ c main_arg11 (by decide))
  have e1 := h11_v157
  generalize B11 m ρ c = W at e0 e1 ⊢
  host_read <;> (try simp only [e0, e1]) <;> rfl

set_option maxRecDepth 131072 in
theorem B12_cst_44 :
    B12 m ρ c (Proc.devRef .tc main_cst_44) = (constant (F := Ideal) S_ .f32 0x00000000#32) := by
  show StableHlo.after main_part3_ops3 (B11 m ρ c) (Proc.devRef .tc main_cst_44) = _
  host_read <;> rfl

set_option maxRecDepth 131072 in
theorem B13_v204 (h11_v157 : B11 m ρ c (Proc.devRef .tc main_v157) = (Cert.ReferenceIdeal.Read.val_main_v197 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg13)) (m ((c : Thread nD τ).loc main_arg14)) (m ((c : Thread nD τ).loc main_arg17)) (m ((c : Thread nD τ).loc main_arg18)))) :
    B13 m ρ c (Proc.devRef .tc main_v204) = (Cert.ReferenceIdeal.Read.val_main_v228 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13)) (m ((c : Thread nD τ).loc main_arg14)) (m ((c : Thread nD τ).loc main_arg17)) (m ((c : Thread nD τ).loc main_arg18))) := by
  show StableHlo.after main_part4_ops0 (B12 m ρ c) (Proc.devRef .tc main_v204) = _
  have e0 := (B12_arg m ρ c main_arg12 (by decide))
  have e1 := (B12_v192 m ρ c h11_v157)
  have e2 := (B12_cst_44 m ρ c)
  generalize B12 m ρ c = W at e0 e1 e2 ⊢
  host_read <;> (try simp only [e0, e1, e2]) <;> rfl

theorem B14_v204 (h11_v157 : B11 m ρ c (Proc.devRef .tc main_v157) = (Cert.ReferenceIdeal.Read.val_main_v197 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg13)) (m ((c : Thread nD τ).loc main_arg14)) (m ((c : Thread nD τ).loc main_arg17)) (m ((c : Thread nD τ).loc main_arg18)))) :
    B14 m ρ c (Proc.devRef .tc main_v204) = (Cert.ReferenceIdeal.Read.val_main_v228 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13)) (m ((c : Thread nD τ).loc main_arg14)) (m ((c : Thread nD τ).loc main_arg17)) (m ((c : Thread nD τ).loc main_arg18))) := by
  show StableHlo.after main_part5_ops0 (B13 m ρ c) (Proc.devRef .tc main_v204) = _
  have e0 := (B13_v204 m ρ c h11_v157)
  generalize B13 m ρ c = W at e0 ⊢
  host_read
  exact e0

theorem B15_v204 (h11_v157 : B11 m ρ c (Proc.devRef .tc main_v157) = (Cert.ReferenceIdeal.Read.val_main_v197 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg13)) (m ((c : Thread nD τ).loc main_arg14)) (m ((c : Thread nD τ).loc main_arg17)) (m ((c : Thread nD τ).loc main_arg18)))) :
    B15 m ρ c (Proc.devRef .tc main_v204) = (Cert.ReferenceIdeal.Read.val_main_v228 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13)) (m ((c : Thread nD τ).loc main_arg14)) (m ((c : Thread nD τ).loc main_arg17)) (m ((c : Thread nD τ).loc main_arg18))) := by
  show StableHlo.after main_part6_ops0 (B14 m ρ c) (Proc.devRef .tc main_v204) = _
  have e0 := (B14_v204 m ρ c h11_v157)
  generalize B14 m ρ c = W at e0 ⊢
  host_read
  exact e0

set_option maxRecDepth 131072 in
theorem B14_v283 :
    B14 m ρ c (Proc.devRef .tc main_v283) = (broadcastInDim S200000 ![] bcast_S_S200000 (constantI S_ 32 5000#32)) := by
  show StableHlo.after main_part5_ops0 (B13 m ρ c) (Proc.devRef .tc main_v283) = _
  host_read <;> rfl

set_option maxRecDepth 131072 in
theorem B14_v282 :
    B14 m ρ c (Proc.devRef .tc main_v282) = (cmpi .slt (m ((c : Thread nD τ).loc main_arg21)) (broadcastInDim S200000 ![] bcast_S_S200000 (constantI S_ 32 0#32))) := by
  show StableHlo.after main_part5_ops0 (B13 m ρ c) (Proc.devRef .tc main_v282) = _
  have e0 := (B13_arg m ρ c main_arg21 (by decide))
  generalize B13 m ρ c = W at e0 ⊢
  host_read <;> (try simp only [e0]) <;> rfl

theorem B12_v185 (h11_v185 : B11 m ρ c (Proc.devRef .tc main_v185) = (Cert.ReferenceIdeal.Read.val_main_v199 (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg19)) (m ((c : Thread nD τ).loc main_arg20)))) :
    B12 m ρ c (Proc.devRef .tc main_v185) = (Cert.ReferenceIdeal.Read.val_main_v199 (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg19)) (m ((c : Thread nD τ).loc main_arg20))) := by
  show StableHlo.after main_part3_ops3 (B11 m ρ c) (Proc.devRef .tc main_v185) = _
  have e0 := h11_v185
  generalize B11 m ρ c = W at e0 ⊢
  host_read
  exact e0

theorem B13_v185 (h11_v185 : B11 m ρ c (Proc.devRef .tc main_v185) = (Cert.ReferenceIdeal.Read.val_main_v199 (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg19)) (m ((c : Thread nD τ).loc main_arg20)))) :
    B13 m ρ c (Proc.devRef .tc main_v185) = (Cert.ReferenceIdeal.Read.val_main_v199 (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg19)) (m ((c : Thread nD τ).loc main_arg20))) := by
  show StableHlo.after main_part4_ops0 (B12 m ρ c) (Proc.devRef .tc main_v185) = _
  have e0 := (B12_v185 m ρ c h11_v185)
  generalize B12 m ρ c = W at e0 ⊢
  host_read
  exact e0

theorem B14_v185 (h11_v185 : B11 m ρ c (Proc.devRef .tc main_v185) = (Cert.ReferenceIdeal.Read.val_main_v199 (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg19)) (m ((c : Thread nD τ).loc main_arg20)))) :
    B14 m ρ c (Proc.devRef .tc main_v185) = (Cert.ReferenceIdeal.Read.val_main_v199 (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg19)) (m ((c : Thread nD τ).loc main_arg20))) := by
  show StableHlo.after main_part5_ops0 (B13 m ρ c) (Proc.devRef .tc main_v185) = _
  have e0 := (B13_v185 m ρ c h11_v185)
  generalize B13 m ρ c = W at e0 ⊢
  host_read
  exact e0

set_option maxRecDepth 131072 in
theorem B15_v299 (h11_v185 : B11 m ρ c (Proc.devRef .tc main_v185) = (Cert.ReferenceIdeal.Read.val_main_v199 (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg19)) (m ((c : Thread nD τ).loc main_arg20)))) :
    B15 m ρ c (Proc.devRef .tc main_v299) = (Cert.ReferenceIdeal.Read.val_main_v388 (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg19)) (m ((c : Thread nD τ).loc main_arg20)) (m ((c : Thread nD τ).loc main_arg21)) (m ((c : Thread nD τ).loc main_arg22))) := by
  show StableHlo.after main_part6_ops0 (B14 m ρ c) (Proc.devRef .tc main_v299) = _
  have e0 := (B14_arg m ρ c main_arg22 (by decide))
  have e1 := (B14_arg m ρ c main_arg21 (by decide))
  have e2 := (B14_v283 m ρ c)
  have e3 := (B14_v282 m ρ c)
  have e4 := (B14_v185 m ρ c h11_v185)
  generalize B14 m ρ c = W at e0 e1 e2 e3 e4 ⊢
  host_read <;> (try simp only [e0, e1, e2, e3, e4]) <;> rfl

theorem B12_v135 (h11_v135 : B11 m ρ c (Proc.devRef .tc main_v135) = (Cert.ReferenceIdeal.Read.val_main_v196 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg21)) (m ((c : Thread nD τ).loc main_arg22)))) :
    B12 m ρ c (Proc.devRef .tc main_v135) = (Cert.ReferenceIdeal.Read.val_main_v196 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg21)) (m ((c : Thread nD τ).loc main_arg22))) := by
  show StableHlo.after main_part3_ops3 (B11 m ρ c) (Proc.devRef .tc main_v135) = _
  have e0 := h11_v135
  generalize B11 m ρ c = W at e0 ⊢
  host_read
  exact e0

theorem B13_v135 (h11_v135 : B11 m ρ c (Proc.devRef .tc main_v135) = (Cert.ReferenceIdeal.Read.val_main_v196 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg21)) (m ((c : Thread nD τ).loc main_arg22)))) :
    B13 m ρ c (Proc.devRef .tc main_v135) = (Cert.ReferenceIdeal.Read.val_main_v196 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg21)) (m ((c : Thread nD τ).loc main_arg22))) := by
  show StableHlo.after main_part4_ops0 (B12 m ρ c) (Proc.devRef .tc main_v135) = _
  have e0 := (B12_v135 m ρ c h11_v135)
  generalize B12 m ρ c = W at e0 ⊢
  host_read
  exact e0

theorem B14_v135 (h11_v135 : B11 m ρ c (Proc.devRef .tc main_v135) = (Cert.ReferenceIdeal.Read.val_main_v196 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg21)) (m ((c : Thread nD τ).loc main_arg22)))) :
    B14 m ρ c (Proc.devRef .tc main_v135) = (Cert.ReferenceIdeal.Read.val_main_v196 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg21)) (m ((c : Thread nD τ).loc main_arg22))) := by
  show StableHlo.after main_part5_ops0 (B13 m ρ c) (Proc.devRef .tc main_v135) = _
  have e0 := (B13_v135 m ρ c h11_v135)
  generalize B13 m ρ c = W at e0 ⊢
  host_read
  exact e0

theorem B15_v135 (h11_v135 : B11 m ρ c (Proc.devRef .tc main_v135) = (Cert.ReferenceIdeal.Read.val_main_v196 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg21)) (m ((c : Thread nD τ).loc main_arg22)))) :
    B15 m ρ c (Proc.devRef .tc main_v135) = (Cert.ReferenceIdeal.Read.val_main_v196 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg21)) (m ((c : Thread nD τ).loc main_arg22))) := by
  show StableHlo.after main_part6_ops0 (B14 m ρ c) (Proc.devRef .tc main_v135) = _
  have e0 := (B14_v135 m ρ c h11_v135)
  generalize B14 m ρ c = W at e0 ⊢
  host_read
  exact e0

theorem B15_v300 (h11_v157 : B11 m ρ c (Proc.devRef .tc main_v157) = (Cert.ReferenceIdeal.Read.val_main_v197 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg13)) (m ((c : Thread nD τ).loc main_arg14)) (m ((c : Thread nD τ).loc main_arg17)) (m ((c : Thread nD τ).loc main_arg18)))) (h11_v185 : B11 m ρ c (Proc.devRef .tc main_v185) = (Cert.ReferenceIdeal.Read.val_main_v199 (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg19)) (m ((c : Thread nD τ).loc main_arg20)))) (h11_v135 : B11 m ρ c (Proc.devRef .tc main_v135) = (Cert.ReferenceIdeal.Read.val_main_v196 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg21)) (m ((c : Thread nD τ).loc main_arg22)))) :
    B15 m ρ c (Proc.devRef .tc main_v300) = (concatenate S100000x192 1 [⟨S100000x64, ((Cert.ReferenceIdeal.Read.val_main_v228 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13)) (m ((c : Thread nD τ).loc main_arg14)) (m ((c : Thread nD τ).loc main_arg17)) (m ((c : Thread nD τ).loc main_arg18))) : ((⟨S100000x64, .f32⟩ : BufTy).Contents (Elt Ideal)))⟩, ⟨S100000x64, ((Cert.ReferenceIdeal.Read.val_main_v388 (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg19)) (m ((c : Thread nD τ).loc main_arg20)) (m ((c : Thread nD τ).loc main_arg21)) (m ((c : Thread nD τ).loc main_arg22))) : ((⟨S100000x64, .f32⟩ : BufTy).Contents (Elt Ideal)))⟩, ⟨S100000x64, ((Cert.ReferenceIdeal.Read.val_main_v196 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg21)) (m ((c : Thread nD τ).loc main_arg22))) : ((⟨S100000x64, .f32⟩ : BufTy).Contents (Elt Ideal)))⟩] concatenates_S100000x64_S100000x64_S100000x64_S100000x192_d1) := by
  rw [B15_v300_ops m ρ c, (B15_v204 m ρ c h11_v157), (B15_v299 m ρ c h11_v185), (B15_v135 m ρ c h11_v135)] <;> rfl

theorem B15_v312_ops :
    B15 m ρ c (Proc.devRef .tc main_v312) = (concatenate S192x64 0 [⟨S64x64, (B15 m ρ c (Proc.devRef .tc main_v302) : ((⟨S64x64, .f32⟩ : BufTy).Contents (Elt Ideal)))⟩, ⟨S64x64, (B15 m ρ c (Proc.devRef .tc main_v304) : ((⟨S64x64, .f32⟩ : BufTy).Contents (Elt Ideal)))⟩, ⟨S64x64, (B15 m ρ c (Proc.devRef .tc main_v311) : ((⟨S64x64, .f32⟩ : BufTy).Contents (Elt Ideal)))⟩] concatenates_S64x64_S64x64_S64x64_S192x64_d0) := by
  show StableHlo.after main_part6_ops0 (B14 m ρ c) (Proc.devRef .tc main_v312) = (concatenate S192x64 0 [⟨S64x64, (StableHlo.after main_part6_ops0 (B14 m ρ c) (Proc.devRef .tc main_v302) : ((⟨S64x64, .f32⟩ : BufTy).Contents (Elt Ideal)))⟩, ⟨S64x64, (StableHlo.after main_part6_ops0 (B14 m ρ c) (Proc.devRef .tc main_v304) : ((⟨S64x64, .f32⟩ : BufTy).Contents (Elt Ideal)))⟩, ⟨S64x64, (StableHlo.after main_part6_ops0 (B14 m ρ c) (Proc.devRef .tc main_v311) : ((⟨S64x64, .f32⟩ : BufTy).Contents (Elt Ideal)))⟩] concatenates_S64x64_S64x64_S64x64_S192x64_d0)
  generalize B14 m ρ c = W
  after_results_simp
  rfl

set_option maxRecDepth 131072 in
theorem B15_v302 :
    B15 m ρ c (Proc.devRef .tc main_v302) = ((shapeCast S64x64 (extractStridedSlice S1x1x64x64 ![1, 0, 0, 0] ((m ((c : Thread nD τ).loc main_arg4)) : ((⟨S2x6x64x64, .f32⟩ : BufTy).Contents (Elt Ideal))) slices_S2x6x64x64_S1x1x64x64_1_0_0_0) shapeCasts_S1x1x64x64_S64x64) : ((⟨S64x64, .f32⟩ : BufTy).Contents (Elt Ideal))) := by
  show StableHlo.after main_part6_ops0 (B14 m ρ c) (Proc.devRef .tc main_v302) = _
  have e0 := (B14_arg m ρ c main_arg4 (by decide))
  generalize B14 m ρ c = W at e0 ⊢
  host_read <;> (try simp only [e0]) <;> rfl

set_option maxRecDepth 131072 in
theorem B15_v304 :
    B15 m ρ c (Proc.devRef .tc main_v304) = ((shapeCast S64x64 (extractStridedSlice S1x1x64x64 ![1, 5, 0, 0] ((m ((c : Thread nD τ).loc main_arg4)) : ((⟨S2x6x64x64, .f32⟩ : BufTy).Contents (Elt Ideal))) slices_S2x6x64x64_S1x1x64x64_1_5_0_0) shapeCasts_S1x1x64x64_S64x64) : ((⟨S64x64, .f32⟩ : BufTy).Contents (Elt Ideal))) := by
  show StableHlo.after main_part6_ops0 (B14 m ρ c) (Proc.devRef .tc main_v304) = _
  have e0 := (B14_arg m ρ c main_arg4 (by decide))
  generalize B14 m ρ c = W at e0 ⊢
  host_read <;> (try simp only [e0]) <;> rfl

set_option maxRecDepth 131072 in
theorem B15_v311 :
    B15 m ρ c (Proc.devRef .tc main_v311) = ((addf (F := Ideal) (φ := .f32) (addf (F := Ideal) (φ := .f32) ((broadcastInDim S64x64 ![] bcast_S_S64x64 (constant (F := Ideal) S_ .f32 0x00000000#32)) : ((⟨S64x64, .f32⟩ : BufTy).Contents (Elt Ideal))) ((shapeCast S64x64 (extractStridedSlice S1x1x64x64 ![1, 0, 0, 0] ((m ((c : Thread nD τ).loc main_arg6)) : ((⟨S2x6x64x64, .f32⟩ : BufTy).Contents (Elt Ideal))) slices_S2x6x64x64_S1x1x64x64_1_0_0_0) shapeCasts_S1x1x64x64_S64x64) : ((⟨S64x64, .f32⟩ : BufTy).Contents (Elt Ideal)))) ((shapeCast S64x64 (extractStridedSlice S1x1x64x64 ![1, 5, 0, 0] ((m ((c : Thread nD τ).loc main_arg6)) : ((⟨S2x6x64x64, .f32⟩ : BufTy).Contents (Elt Ideal))) slices_S2x6x64x64_S1x1x64x64_1_5_0_0) shapeCasts_S1x1x64x64_S64x64) : ((⟨S64x64, .f32⟩ : BufTy).Contents (Elt Ideal)))) : ((⟨S64x64, .f32⟩ : BufTy).Contents (Elt Ideal))) := by
  show StableHlo.after main_part6_ops0 (B14 m ρ c) (Proc.devRef .tc main_v311) = _
  have e0 := (B14_arg m ρ c main_arg6 (by decide))
  generalize B14 m ρ c = W at e0 ⊢
  host_read <;> (try simp only [e0]) <;> rfl

theorem B15_v312 :
    B15 m ρ c (Proc.devRef .tc main_v312) = (concatenate S192x64 0 [⟨S64x64, ((shapeCast S64x64 (extractStridedSlice S1x1x64x64 ![1, 0, 0, 0] ((m ((c : Thread nD τ).loc main_arg4)) : ((⟨S2x6x64x64, .f32⟩ : BufTy).Contents (Elt Ideal))) slices_S2x6x64x64_S1x1x64x64_1_0_0_0) shapeCasts_S1x1x64x64_S64x64) : ((⟨S64x64, .f32⟩ : BufTy).Contents (Elt Ideal)))⟩, ⟨S64x64, ((shapeCast S64x64 (extractStridedSlice S1x1x64x64 ![1, 5, 0, 0] ((m ((c : Thread nD τ).loc main_arg4)) : ((⟨S2x6x64x64, .f32⟩ : BufTy).Contents (Elt Ideal))) slices_S2x6x64x64_S1x1x64x64_1_5_0_0) shapeCasts_S1x1x64x64_S64x64) : ((⟨S64x64, .f32⟩ : BufTy).Contents (Elt Ideal)))⟩, ⟨S64x64, ((addf (F := Ideal) (φ := .f32) (addf (F := Ideal) (φ := .f32) ((broadcastInDim S64x64 ![] bcast_S_S64x64 (constant (F := Ideal) S_ .f32 0x00000000#32)) : ((⟨S64x64, .f32⟩ : BufTy).Contents (Elt Ideal))) ((shapeCast S64x64 (extractStridedSlice S1x1x64x64 ![1, 0, 0, 0] ((m ((c : Thread nD τ).loc main_arg6)) : ((⟨S2x6x64x64, .f32⟩ : BufTy).Contents (Elt Ideal))) slices_S2x6x64x64_S1x1x64x64_1_0_0_0) shapeCasts_S1x1x64x64_S64x64) : ((⟨S64x64, .f32⟩ : BufTy).Contents (Elt Ideal)))) ((shapeCast S64x64 (extractStridedSlice S1x1x64x64 ![1, 5, 0, 0] ((m ((c : Thread nD τ).loc main_arg6)) : ((⟨S2x6x64x64, .f32⟩ : BufTy).Contents (Elt Ideal))) slices_S2x6x64x64_S1x1x64x64_1_5_0_0) shapeCasts_S1x1x64x64_S64x64) : ((⟨S64x64, .f32⟩ : BufTy).Contents (Elt Ideal)))) : ((⟨S64x64, .f32⟩ : BufTy).Contents (Elt Ideal)))⟩] concatenates_S64x64_S64x64_S64x64_S192x64_d0) := by
  rw [B15_v312_ops m ρ c, (B15_v302 m ρ c), (B15_v304 m ρ c), (B15_v311 m ρ c)] <;> rfl

set_option maxRecDepth 131072 in
theorem B15_v320 :
    B15 m ρ c (Proc.devRef .tc main_v320) = ((shapeCast S1x64 ((addf (F := Ideal) (φ := .f32) (addf (F := Ideal) (φ := .f32) ((broadcastInDim S64 ![] bcast_S_S64 (constant (F := Ideal) S_ .f32 0x00000000#32)) : ((⟨S64, .f32⟩ : BufTy).Contents (Elt Ideal))) ((shapeCast S64 (extractStridedSlice S1x1x64 ![1, 0, 0] ((m ((c : Thread nD τ).loc main_arg5)) : ((⟨S2x6x64, .f32⟩ : BufTy).Contents (Elt Ideal))) slices_S2x6x64_S1x1x64_1_0_0) shapeCasts_S1x1x64_S64) : ((⟨S64, .f32⟩ : BufTy).Contents (Elt Ideal)))) ((shapeCast S64 (extractStridedSlice S1x1x64 ![1, 5, 0] ((m ((c : Thread nD τ).loc main_arg5)) : ((⟨S2x6x64, .f32⟩ : BufTy).Contents (Elt Ideal))) slices_S2x6x64_S1x1x64_1_5_0) shapeCasts_S1x1x64_S64) : ((⟨S64, .f32⟩ : BufTy).Contents (Elt Ideal)))) : ((⟨S64, .f32⟩ : BufTy).Contents (Elt Ideal))) shapeCasts_S64_S1x64) : ((⟨S1x64, .f32⟩ : BufTy).Contents (Elt Ideal))) := by
  show StableHlo.after main_part6_ops0 (B14 m ρ c) (Proc.devRef .tc main_v320) = _
  have e0 := (B14_arg m ρ c main_arg5 (by decide))
  generalize B14 m ρ c = W at e0 ⊢
  host_read <;> (try simp only [e0]) <;> rfl

set_option maxRecDepth 131072 in
theorem B13_v223 (h11_v135 : B11 m ρ c (Proc.devRef .tc main_v135) = (Cert.ReferenceIdeal.Read.val_main_v196 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg21)) (m ((c : Thread nD τ).loc main_arg22)))) :
    B13 m ρ c (Proc.devRef .tc main_v223) = (Cert.ReferenceIdeal.Read.val_main_v260 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13)) (m ((c : Thread nD τ).loc main_arg14)) (m ((c : Thread nD τ).loc main_arg21)) (m ((c : Thread nD τ).loc main_arg22))) := by
  show StableHlo.after main_part4_ops0 (B12 m ρ c) (Proc.devRef .tc main_v223) = _
  have e0 := (B12_arg m ρ c main_arg14 (by decide))
  have e1 := (B12_arg m ρ c main_arg13 (by decide))
  have e2 := (B12_v135 m ρ c h11_v135)
  generalize B12 m ρ c = W at e0 e1 e2 ⊢
  host_read <;> (try simp only [e0, e1, e2]) <;> rfl

theorem B14_v223 (h11_v135 : B11 m ρ c (Proc.devRef .tc main_v135) = (Cert.ReferenceIdeal.Read.val_main_v196 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg21)) (m ((c : Thread nD τ).loc main_arg22)))) :
    B14 m ρ c (Proc.devRef .tc main_v223) = (Cert.ReferenceIdeal.Read.val_main_v260 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13)) (m ((c : Thread nD τ).loc main_arg14)) (m ((c : Thread nD τ).loc main_arg21)) (m ((c : Thread nD τ).loc main_arg22))) := by
  show StableHlo.after main_part5_ops0 (B13 m ρ c) (Proc.devRef .tc main_v223) = _
  have e0 := (B13_v223 m ρ c h11_v135)
  generalize B13 m ρ c = W at e0 ⊢
  host_read
  exact e0

theorem B15_v223 (h11_v135 : B11 m ρ c (Proc.devRef .tc main_v135) = (Cert.ReferenceIdeal.Read.val_main_v196 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg21)) (m ((c : Thread nD τ).loc main_arg22)))) :
    B15 m ρ c (Proc.devRef .tc main_v223) = (Cert.ReferenceIdeal.Read.val_main_v260 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13)) (m ((c : Thread nD τ).loc main_arg14)) (m ((c : Thread nD τ).loc main_arg21)) (m ((c : Thread nD τ).loc main_arg22))) := by
  show StableHlo.after main_part6_ops0 (B14 m ρ c) (Proc.devRef .tc main_v223) = _
  have e0 := (B14_v223 m ρ c h11_v135)
  generalize B14 m ρ c = W at e0 ⊢
  host_read
  exact e0

theorem B12_v171 (h11_v171 : B11 m ρ c (Proc.devRef .tc main_v171) = (Cert.ReferenceIdeal.Read.val_main_v198 (F := Ideal) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg15)) (m ((c : Thread nD τ).loc main_arg16)))) :
    B12 m ρ c (Proc.devRef .tc main_v171) = (Cert.ReferenceIdeal.Read.val_main_v198 (F := Ideal) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg15)) (m ((c : Thread nD τ).loc main_arg16))) := by
  show StableHlo.after main_part3_ops3 (B11 m ρ c) (Proc.devRef .tc main_v171) = _
  have e0 := h11_v171
  generalize B11 m ρ c = W at e0 ⊢
  host_read
  exact e0

theorem B13_v171 (h11_v171 : B11 m ρ c (Proc.devRef .tc main_v171) = (Cert.ReferenceIdeal.Read.val_main_v198 (F := Ideal) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg15)) (m ((c : Thread nD τ).loc main_arg16)))) :
    B13 m ρ c (Proc.devRef .tc main_v171) = (Cert.ReferenceIdeal.Read.val_main_v198 (F := Ideal) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg15)) (m ((c : Thread nD τ).loc main_arg16))) := by
  show StableHlo.after main_part4_ops0 (B12 m ρ c) (Proc.devRef .tc main_v171) = _
  have e0 := (B12_v171 m ρ c h11_v171)
  generalize B12 m ρ c = W at e0 ⊢
  host_read
  exact e0

set_option maxRecDepth 131072 in
theorem B14_v261 (h11_v171 : B11 m ρ c (Proc.devRef .tc main_v171) = (Cert.ReferenceIdeal.Read.val_main_v198 (F := Ideal) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg15)) (m ((c : Thread nD τ).loc main_arg16)))) :
    B14 m ρ c (Proc.devRef .tc main_v261) = (Cert.ReferenceIdeal.Read.val_main_v324 (F := Ideal) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg15)) (m ((c : Thread nD τ).loc main_arg16)) (m ((c : Thread nD τ).loc main_arg17)) (m ((c : Thread nD τ).loc main_arg18))) := by
  show StableHlo.after main_part5_ops0 (B13 m ρ c) (Proc.devRef .tc main_v261) = _
  have e0 := (B13_arg m ρ c main_arg18 (by decide))
  have e1 := (B13_arg m ρ c main_arg17 (by decide))
  have e2 := (B13_v171 m ρ c h11_v171)
  generalize B13 m ρ c = W at e0 e1 e2 ⊢
  host_read <;> (try simp only [e0, e1, e2]) <;> rfl

theorem B15_v261 (h11_v171 : B11 m ρ c (Proc.devRef .tc main_v171) = (Cert.ReferenceIdeal.Read.val_main_v198 (F := Ideal) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg15)) (m ((c : Thread nD τ).loc main_arg16)))) :
    B15 m ρ c (Proc.devRef .tc main_v261) = (Cert.ReferenceIdeal.Read.val_main_v324 (F := Ideal) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg15)) (m ((c : Thread nD τ).loc main_arg16)) (m ((c : Thread nD τ).loc main_arg17)) (m ((c : Thread nD τ).loc main_arg18))) := by
  show StableHlo.after main_part6_ops0 (B14 m ρ c) (Proc.devRef .tc main_v261) = _
  have e0 := (B14_v261 m ρ c h11_v171)
  generalize B14 m ρ c = W at e0 ⊢
  host_read
  exact e0

theorem B12_v157 (h11_v157 : B11 m ρ c (Proc.devRef .tc main_v157) = (Cert.ReferenceIdeal.Read.val_main_v197 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg13)) (m ((c : Thread nD τ).loc main_arg14)) (m ((c : Thread nD τ).loc main_arg17)) (m ((c : Thread nD τ).loc main_arg18)))) :
    B12 m ρ c (Proc.devRef .tc main_v157) = (Cert.ReferenceIdeal.Read.val_main_v197 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg13)) (m ((c : Thread nD τ).loc main_arg14)) (m ((c : Thread nD τ).loc main_arg17)) (m ((c : Thread nD τ).loc main_arg18))) := by
  show StableHlo.after main_part3_ops3 (B11 m ρ c) (Proc.devRef .tc main_v157) = _
  have e0 := h11_v157
  generalize B11 m ρ c = W at e0 ⊢
  host_read
  exact e0

theorem B13_v157 (h11_v157 : B11 m ρ c (Proc.devRef .tc main_v157) = (Cert.ReferenceIdeal.Read.val_main_v197 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg13)) (m ((c : Thread nD τ).loc main_arg14)) (m ((c : Thread nD τ).loc main_arg17)) (m ((c : Thread nD τ).loc main_arg18)))) :
    B13 m ρ c (Proc.devRef .tc main_v157) = (Cert.ReferenceIdeal.Read.val_main_v197 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg13)) (m ((c : Thread nD τ).loc main_arg14)) (m ((c : Thread nD τ).loc main_arg17)) (m ((c : Thread nD τ).loc main_arg18))) := by
  show StableHlo.after main_part4_ops0 (B12 m ρ c) (Proc.devRef .tc main_v157) = _
  have e0 := (B12_v157 m ρ c h11_v157)
  generalize B12 m ρ c = W at e0 ⊢
  host_read
  exact e0

theorem B14_v157 (h11_v157 : B11 m ρ c (Proc.devRef .tc main_v157) = (Cert.ReferenceIdeal.Read.val_main_v197 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg13)) (m ((c : Thread nD τ).loc main_arg14)) (m ((c : Thread nD τ).loc main_arg17)) (m ((c : Thread nD τ).loc main_arg18)))) :
    B14 m ρ c (Proc.devRef .tc main_v157) = (Cert.ReferenceIdeal.Read.val_main_v197 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg13)) (m ((c : Thread nD τ).loc main_arg14)) (m ((c : Thread nD τ).loc main_arg17)) (m ((c : Thread nD τ).loc main_arg18))) := by
  show StableHlo.after main_part5_ops0 (B13 m ρ c) (Proc.devRef .tc main_v157) = _
  have e0 := (B13_v157 m ρ c h11_v157)
  generalize B13 m ρ c = W at e0 ⊢
  host_read
  exact e0

theorem B15_v157 (h11_v157 : B11 m ρ c (Proc.devRef .tc main_v157) = (Cert.ReferenceIdeal.Read.val_main_v197 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg13)) (m ((c : Thread nD τ).loc main_arg14)) (m ((c : Thread nD τ).loc main_arg17)) (m ((c : Thread nD τ).loc main_arg18)))) :
    B15 m ρ c (Proc.devRef .tc main_v157) = (Cert.ReferenceIdeal.Read.val_main_v197 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg13)) (m ((c : Thread nD τ).loc main_arg14)) (m ((c : Thread nD τ).loc main_arg17)) (m ((c : Thread nD τ).loc main_arg18))) := by
  show StableHlo.after main_part6_ops0 (B14 m ρ c) (Proc.devRef .tc main_v157) = _
  have e0 := (B14_v157 m ρ c h11_v157)
  generalize B14 m ρ c = W at e0 ⊢
  host_read
  exact e0

end Cert.KernelIdeal.Hand

end
-- ==== Proof.KI.HostD.lean ====
/-
  What the core's buffers hold at the segment boundaries 15 to 18, read back through the host operations.

  A host operation rewrites one buffer with its function of the buffers it reads and leaves the others alone, so a buffer's contents after a stretch is the
  composition of the operations that lead to it, applied to what the stretch found in the buffers it reads; a region changes only its output array.
  The aggregation stages are stated as the reference program's own stages of the same arguments: the two programs apply the same gathers, segment sums,
  counts and quotients to the same arrays, so the composed terms coincide.
-/
import proofs.«154750_j39152921870699_1_alg».proof.Proof.KI.HostA
import proofs.«154750_j39152921870699_1_alg».proof.Proof.RefRead
import proofs.«154750_j39152921870699_1_alg».proof.Proof.LibHostRead
import Idealize.ShloMosaic.PureOps.Ideal
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL.Sem

variable (m : (ℓ : Loc nD τ sig) → Buf (Elt Ideal) ℓ) (ρ : Dev nD → PrngReg) (c : Dev nD)

/-! ## The read-backs -/

theorem B17_v322_ops :
    B17 m ρ c (Proc.devRef .tc main_v322) = (concatenate S50000x192 1 [⟨S50000x64, (B17 m ρ c (Proc.devRef .tc main_v223) : ((⟨S50000x64, .f32⟩ : BufTy).Contents (Elt Ideal)))⟩, ⟨S50000x64, (B17 m ρ c (Proc.devRef .tc main_v261) : ((⟨S50000x64, .f32⟩ : BufTy).Contents (Elt Ideal)))⟩, ⟨S50000x64, (B17 m ρ c (Proc.devRef .tc main_v157) : ((⟨S50000x64, .f32⟩ : BufTy).Contents (Elt Ideal)))⟩] concatenates_S50000x64_S50000x64_S50000x64_S50000x192_d1) := by
  show StableHlo.after main_part6_ops1 (B16 m ρ c) (Proc.devRef .tc main_v322) = (concatenate S50000x192 1 [⟨S50000x64, (StableHlo.after main_part6_ops1 (B16 m ρ c) (Proc.devRef .tc main_v223) : ((⟨S50000x64, .f32⟩ : BufTy).Contents (Elt Ideal)))⟩, ⟨S50000x64, (StableHlo.after main_part6_ops1 (B16 m ρ c) (Proc.devRef .tc main_v261) : ((⟨S50000x64, .f32⟩ : BufTy).Contents (Elt Ideal)))⟩, ⟨S50000x64, (StableHlo.after main_part6_ops1 (B16 m ρ c) (Proc.devRef .tc main_v157) : ((⟨S50000x64, .f32⟩ : BufTy).Contents (Elt Ideal)))⟩] concatenates_S50000x64_S50000x64_S50000x64_S50000x192_d1)
  generalize B16 m ρ c = W
  after_results_simp
  rfl

theorem B16_v223 (h15_v223 : B15 m ρ c (Proc.devRef .tc main_v223) = (Cert.ReferenceIdeal.Read.val_main_v260 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13)) (m ((c : Thread nD τ).loc main_arg14)) (m ((c : Thread nD τ).loc main_arg21)) (m ((c : Thread nD τ).loc main_arg22)))) :
    B16 m ρ c (Proc.devRef .tc main_v223) = (Cert.ReferenceIdeal.Read.val_main_v260 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13)) (m ((c : Thread nD τ).loc main_arg14)) (m ((c : Thread nD τ).loc main_arg21)) (m ((c : Thread nD τ).loc main_arg22))) :=
  (B16_of_ne m ρ c main_v223 (by decide)).trans h15_v223

theorem B17_v223 (h15_v223 : B15 m ρ c (Proc.devRef .tc main_v223) = (Cert.ReferenceIdeal.Read.val_main_v260 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13)) (m ((c : Thread nD τ).loc main_arg14)) (m ((c : Thread nD τ).loc main_arg21)) (m ((c : Thread nD τ).loc main_arg22)))) :
    B17 m ρ c (Proc.devRef .tc main_v223) = (Cert.ReferenceIdeal.Read.val_main_v260 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13)) (m ((c : Thread nD τ).loc main_arg14)) (m ((c : Thread nD τ).loc main_arg21)) (m ((c : Thread nD τ).loc main_arg22))) := by
  show StableHlo.after main_part6_ops1 (B16 m ρ c) (Proc.devRef .tc main_v223) = _
  have e0 := (B16_v223 m ρ c h15_v223)
  generalize B16 m ρ c = W at e0 ⊢
  host_read
  exact e0

theorem B16_v261 (h15_v261 : B15 m ρ c (Proc.devRef .tc main_v261) = (Cert.ReferenceIdeal.Read.val_main_v324 (F := Ideal) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg15)) (m ((c : Thread nD τ).loc main_arg16)) (m ((c : Thread nD τ).loc main_arg17)) (m ((c : Thread nD τ).loc main_arg18)))) :
    B16 m ρ c (Proc.devRef .tc main_v261) = (Cert.ReferenceIdeal.Read.val_main_v324 (F := Ideal) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg15)) (m ((c : Thread nD τ).loc main_arg16)) (m ((c : Thread nD τ).loc main_arg17)) (m ((c : Thread nD τ).loc main_arg18))) :=
  (B16_of_ne m ρ c main_v261 (by decide)).trans h15_v261

theorem B17_v261 (h15_v261 : B15 m ρ c (Proc.devRef .tc main_v261) = (Cert.ReferenceIdeal.Read.val_main_v324 (F := Ideal) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg15)) (m ((c : Thread nD τ).loc main_arg16)) (m ((c : Thread nD τ).loc main_arg17)) (m ((c : Thread nD τ).loc main_arg18)))) :
    B17 m ρ c (Proc.devRef .tc main_v261) = (Cert.ReferenceIdeal.Read.val_main_v324 (F := Ideal) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg15)) (m ((c : Thread nD τ).loc main_arg16)) (m ((c : Thread nD τ).loc main_arg17)) (m ((c : Thread nD τ).loc main_arg18))) := by
  show StableHlo.after main_part6_ops1 (B16 m ρ c) (Proc.devRef .tc main_v261) = _
  have e0 := (B16_v261 m ρ c h15_v261)
  generalize B16 m ρ c = W at e0 ⊢
  host_read
  exact e0

theorem B16_v157 (h15_v157 : B15 m ρ c (Proc.devRef .tc main_v157) = (Cert.ReferenceIdeal.Read.val_main_v197 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg13)) (m ((c : Thread nD τ).loc main_arg14)) (m ((c : Thread nD τ).loc main_arg17)) (m ((c : Thread nD τ).loc main_arg18)))) :
    B16 m ρ c (Proc.devRef .tc main_v157) = (Cert.ReferenceIdeal.Read.val_main_v197 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg13)) (m ((c : Thread nD τ).loc main_arg14)) (m ((c : Thread nD τ).loc main_arg17)) (m ((c : Thread nD τ).loc main_arg18))) :=
  (B16_of_ne m ρ c main_v157 (by decide)).trans h15_v157

theorem B17_v157 (h15_v157 : B15 m ρ c (Proc.devRef .tc main_v157) = (Cert.ReferenceIdeal.Read.val_main_v197 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg13)) (m ((c : Thread nD τ).loc main_arg14)) (m ((c : Thread nD τ).loc main_arg17)) (m ((c : Thread nD τ).loc main_arg18)))) :
    B17 m ρ c (Proc.devRef .tc main_v157) = (Cert.ReferenceIdeal.Read.val_main_v197 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg13)) (m ((c : Thread nD τ).loc main_arg14)) (m ((c : Thread nD τ).loc main_arg17)) (m ((c : Thread nD τ).loc main_arg18))) := by
  show StableHlo.after main_part6_ops1 (B16 m ρ c) (Proc.devRef .tc main_v157) = _
  have e0 := (B16_v157 m ρ c h15_v157)
  generalize B16 m ρ c = W at e0 ⊢
  host_read
  exact e0

theorem B17_v322 (h15_v223 : B15 m ρ c (Proc.devRef .tc main_v223) = (Cert.ReferenceIdeal.Read.val_main_v260 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13)) (m ((c : Thread nD τ).loc main_arg14)) (m ((c : Thread nD τ).loc main_arg21)) (m ((c : Thread nD τ).loc main_arg22)))) (h15_v261 : B15 m ρ c (Proc.devRef .tc main_v261) = (Cert.ReferenceIdeal.Read.val_main_v324 (F := Ideal) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg15)) (m ((c : Thread nD τ).loc main_arg16)) (m ((c : Thread nD τ).loc main_arg17)) (m ((c : Thread nD τ).loc main_arg18)))) (h15_v157 : B15 m ρ c (Proc.devRef .tc main_v157) = (Cert.ReferenceIdeal.Read.val_main_v197 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg13)) (m ((c : Thread nD τ).loc main_arg14)) (m ((c : Thread nD τ).loc main_arg17)) (m ((c : Thread nD τ).loc main_arg18)))) :
    B17 m ρ c (Proc.devRef .tc main_v322) = (concatenate S50000x192 1 [⟨S50000x64, ((Cert.ReferenceIdeal.Read.val_main_v260 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13)) (m ((c : Thread nD τ).loc main_arg14)) (m ((c : Thread nD τ).loc main_arg21)) (m ((c : Thread nD τ).loc main_arg22))) : ((⟨S50000x64, .f32⟩ : BufTy).Contents (Elt Ideal)))⟩, ⟨S50000x64, ((Cert.ReferenceIdeal.Read.val_main_v324 (F := Ideal) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg15)) (m ((c : Thread nD τ).loc main_arg16)) (m ((c : Thread nD τ).loc main_arg17)) (m ((c : Thread nD τ).loc main_arg18))) : ((⟨S50000x64, .f32⟩ : BufTy).Contents (Elt Ideal)))⟩, ⟨S50000x64, ((Cert.ReferenceIdeal.Read.val_main_v197 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg13)) (m ((c : Thread nD τ).loc main_arg14)) (m ((c : Thread nD τ).loc main_arg17)) (m ((c : Thread nD τ).loc main_arg18))) : ((⟨S50000x64, .f32⟩ : BufTy).Contents (Elt Ideal)))⟩] concatenates_S50000x64_S50000x64_S50000x64_S50000x192_d1) := by
  rw [B17_v322_ops m ρ c, (B17_v223 m ρ c h15_v223), (B17_v261 m ρ c h15_v261), (B17_v157 m ρ c h15_v157)] <;> rfl

theorem B18_v322 (h15_v223 : B15 m ρ c (Proc.devRef .tc main_v223) = (Cert.ReferenceIdeal.Read.val_main_v260 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13)) (m ((c : Thread nD τ).loc main_arg14)) (m ((c : Thread nD τ).loc main_arg21)) (m ((c : Thread nD τ).loc main_arg22)))) (h15_v261 : B15 m ρ c (Proc.devRef .tc main_v261) = (Cert.ReferenceIdeal.Read.val_main_v324 (F := Ideal) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg15)) (m ((c : Thread nD τ).loc main_arg16)) (m ((c : Thread nD τ).loc main_arg17)) (m ((c : Thread nD τ).loc main_arg18)))) (h15_v157 : B15 m ρ c (Proc.devRef .tc main_v157) = (Cert.ReferenceIdeal.Read.val_main_v197 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg13)) (m ((c : Thread nD τ).loc main_arg14)) (m ((c : Thread nD τ).loc main_arg17)) (m ((c : Thread nD τ).loc main_arg18)))) :
    B18 m ρ c (Proc.devRef .tc main_v322) = (concatenate S50000x192 1 [⟨S50000x64, ((Cert.ReferenceIdeal.Read.val_main_v260 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13)) (m ((c : Thread nD τ).loc main_arg14)) (m ((c : Thread nD τ).loc main_arg21)) (m ((c : Thread nD τ).loc main_arg22))) : ((⟨S50000x64, .f32⟩ : BufTy).Contents (Elt Ideal)))⟩, ⟨S50000x64, ((Cert.ReferenceIdeal.Read.val_main_v324 (F := Ideal) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg15)) (m ((c : Thread nD τ).loc main_arg16)) (m ((c : Thread nD τ).loc main_arg17)) (m ((c : Thread nD τ).loc main_arg18))) : ((⟨S50000x64, .f32⟩ : BufTy).Contents (Elt Ideal)))⟩, ⟨S50000x64, ((Cert.ReferenceIdeal.Read.val_main_v197 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg13)) (m ((c : Thread nD τ).loc main_arg14)) (m ((c : Thread nD τ).loc main_arg17)) (m ((c : Thread nD τ).loc main_arg18))) : ((⟨S50000x64, .f32⟩ : BufTy).Contents (Elt Ideal)))⟩] concatenates_S50000x64_S50000x64_S50000x64_S50000x192_d1) := by
  show StableHlo.after main_part7_ops0 (B17 m ρ c) (Proc.devRef .tc main_v322) = _
  have e0 := (B17_v322 m ρ c h15_v223 h15_v261 h15_v157)
  generalize B17 m ρ c = W at e0 ⊢
  host_read
  exact e0

theorem B17_v334_ops :
    B17 m ρ c (Proc.devRef .tc main_v334) = (concatenate S192x64 0 [⟨S64x64, (B17 m ρ c (Proc.devRef .tc main_v324) : ((⟨S64x64, .f32⟩ : BufTy).Contents (Elt Ideal)))⟩, ⟨S64x64, (B17 m ρ c (Proc.devRef .tc main_v326) : ((⟨S64x64, .f32⟩ : BufTy).Contents (Elt Ideal)))⟩, ⟨S64x64, (B17 m ρ c (Proc.devRef .tc main_v333) : ((⟨S64x64, .f32⟩ : BufTy).Contents (Elt Ideal)))⟩] concatenates_S64x64_S64x64_S64x64_S192x64_d0) := by
  show StableHlo.after main_part6_ops1 (B16 m ρ c) (Proc.devRef .tc main_v334) = (concatenate S192x64 0 [⟨S64x64, (StableHlo.after main_part6_ops1 (B16 m ρ c) (Proc.devRef .tc main_v324) : ((⟨S64x64, .f32⟩ : BufTy).Contents (Elt Ideal)))⟩, ⟨S64x64, (StableHlo.after main_part6_ops1 (B16 m ρ c) (Proc.devRef .tc main_v326) : ((⟨S64x64, .f32⟩ : BufTy).Contents (Elt Ideal)))⟩, ⟨S64x64, (StableHlo.after main_part6_ops1 (B16 m ρ c) (Proc.devRef .tc main_v333) : ((⟨S64x64, .f32⟩ : BufTy).Contents (Elt Ideal)))⟩] concatenates_S64x64_S64x64_S64x64_S192x64_d0)
  generalize B16 m ρ c = W
  after_results_simp
  rfl

set_option maxRecDepth 131072 in
theorem B17_v324 :
    B17 m ρ c (Proc.devRef .tc main_v324) = ((shapeCast S64x64 (extractStridedSlice S1x1x64x64 ![1, 1, 0, 0] ((m ((c : Thread nD τ).loc main_arg4)) : ((⟨S2x6x64x64, .f32⟩ : BufTy).Contents (Elt Ideal))) slices_S2x6x64x64_S1x1x64x64_1_1_0_0) shapeCasts_S1x1x64x64_S64x64) : ((⟨S64x64, .f32⟩ : BufTy).Contents (Elt Ideal))) := by
  show StableHlo.after main_part6_ops1 (B16 m ρ c) (Proc.devRef .tc main_v324) = _
  have e0 := (B16_arg m ρ c main_arg4 (by decide))
  generalize B16 m ρ c = W at e0 ⊢
  host_read <;> (try simp only [e0]) <;> rfl

set_option maxRecDepth 131072 in
theorem B17_v326 :
    B17 m ρ c (Proc.devRef .tc main_v326) = ((shapeCast S64x64 (extractStridedSlice S1x1x64x64 ![1, 3, 0, 0] ((m ((c : Thread nD τ).loc main_arg4)) : ((⟨S2x6x64x64, .f32⟩ : BufTy).Contents (Elt Ideal))) slices_S2x6x64x64_S1x1x64x64_1_3_0_0) shapeCasts_S1x1x64x64_S64x64) : ((⟨S64x64, .f32⟩ : BufTy).Contents (Elt Ideal))) := by
  show StableHlo.after main_part6_ops1 (B16 m ρ c) (Proc.devRef .tc main_v326) = _
  have e0 := (B16_arg m ρ c main_arg4 (by decide))
  generalize B16 m ρ c = W at e0 ⊢
  host_read <;> (try simp only [e0]) <;> rfl

set_option maxRecDepth 131072 in
theorem B17_v333 :
    B17 m ρ c (Proc.devRef .tc main_v333) = ((addf (F := Ideal) (φ := .f32) (addf (F := Ideal) (φ := .f32) ((broadcastInDim S64x64 ![] bcast_S_S64x64 (constant (F := Ideal) S_ .f32 0x00000000#32)) : ((⟨S64x64, .f32⟩ : BufTy).Contents (Elt Ideal))) ((shapeCast S64x64 (extractStridedSlice S1x1x64x64 ![1, 1, 0, 0] ((m ((c : Thread nD τ).loc main_arg6)) : ((⟨S2x6x64x64, .f32⟩ : BufTy).Contents (Elt Ideal))) slices_S2x6x64x64_S1x1x64x64_1_1_0_0) shapeCasts_S1x1x64x64_S64x64) : ((⟨S64x64, .f32⟩ : BufTy).Contents (Elt Ideal)))) ((shapeCast S64x64 (extractStridedSlice S1x1x64x64 ![1, 3, 0, 0] ((m ((c : Thread nD τ).loc main_arg6)) : ((⟨S2x6x64x64, .f32⟩ : BufTy).Contents (Elt Ideal))) slices_S2x6x64x64_S1x1x64x64_1_3_0_0) shapeCasts_S1x1x64x64_S64x64) : ((⟨S64x64, .f32⟩ : BufTy).Contents (Elt Ideal)))) : ((⟨S64x64, .f32⟩ : BufTy).Contents (Elt Ideal))) := by
  show StableHlo.after main_part6_ops1 (B16 m ρ c) (Proc.devRef .tc main_v333) = _
  have e0 := (B16_arg m ρ c main_arg6 (by decide))
  generalize B16 m ρ c = W at e0 ⊢
  host_read <;> (try simp only [e0]) <;> rfl

theorem B17_v334 :
    B17 m ρ c (Proc.devRef .tc main_v334) = (concatenate S192x64 0 [⟨S64x64, ((shapeCast S64x64 (extractStridedSlice S1x1x64x64 ![1, 1, 0, 0] ((m ((c : Thread nD τ).loc main_arg4)) : ((⟨S2x6x64x64, .f32⟩ : BufTy).Contents (Elt Ideal))) slices_S2x6x64x64_S1x1x64x64_1_1_0_0) shapeCasts_S1x1x64x64_S64x64) : ((⟨S64x64, .f32⟩ : BufTy).Contents (Elt Ideal)))⟩, ⟨S64x64, ((shapeCast S64x64 (extractStridedSlice S1x1x64x64 ![1, 3, 0, 0] ((m ((c : Thread nD τ).loc main_arg4)) : ((⟨S2x6x64x64, .f32⟩ : BufTy).Contents (Elt Ideal))) slices_S2x6x64x64_S1x1x64x64_1_3_0_0) shapeCasts_S1x1x64x64_S64x64) : ((⟨S64x64, .f32⟩ : BufTy).Contents (Elt Ideal)))⟩, ⟨S64x64, ((addf (F := Ideal) (φ := .f32) (addf (F := Ideal) (φ := .f32) ((broadcastInDim S64x64 ![] bcast_S_S64x64 (constant (F := Ideal) S_ .f32 0x00000000#32)) : ((⟨S64x64, .f32⟩ : BufTy).Contents (Elt Ideal))) ((shapeCast S64x64 (extractStridedSlice S1x1x64x64 ![1, 1, 0, 0] ((m ((c : Thread nD τ).loc main_arg6)) : ((⟨S2x6x64x64, .f32⟩ : BufTy).Contents (Elt Ideal))) slices_S2x6x64x64_S1x1x64x64_1_1_0_0) shapeCasts_S1x1x64x64_S64x64) : ((⟨S64x64, .f32⟩ : BufTy).Contents (Elt Ideal)))) ((shapeCast S64x64 (extractStridedSlice S1x1x64x64 ![1, 3, 0, 0] ((m ((c : Thread nD τ).loc main_arg6)) : ((⟨S2x6x64x64, .f32⟩ : BufTy).Contents (Elt Ideal))) slices_S2x6x64x64_S1x1x64x64_1_3_0_0) shapeCasts_S1x1x64x64_S64x64) : ((⟨S64x64, .f32⟩ : BufTy).Contents (Elt Ideal)))) : ((⟨S64x64, .f32⟩ : BufTy).Contents (Elt Ideal)))⟩] concatenates_S64x64_S64x64_S64x64_S192x64_d0) := by
  rw [B17_v334_ops m ρ c, (B17_v324 m ρ c), (B17_v326 m ρ c), (B17_v333 m ρ c)] <;> rfl

theorem B18_v334 :
    B18 m ρ c (Proc.devRef .tc main_v334) = (concatenate S192x64 0 [⟨S64x64, ((shapeCast S64x64 (extractStridedSlice S1x1x64x64 ![1, 1, 0, 0] ((m ((c : Thread nD τ).loc main_arg4)) : ((⟨S2x6x64x64, .f32⟩ : BufTy).Contents (Elt Ideal))) slices_S2x6x64x64_S1x1x64x64_1_1_0_0) shapeCasts_S1x1x64x64_S64x64) : ((⟨S64x64, .f32⟩ : BufTy).Contents (Elt Ideal)))⟩, ⟨S64x64, ((shapeCast S64x64 (extractStridedSlice S1x1x64x64 ![1, 3, 0, 0] ((m ((c : Thread nD τ).loc main_arg4)) : ((⟨S2x6x64x64, .f32⟩ : BufTy).Contents (Elt Ideal))) slices_S2x6x64x64_S1x1x64x64_1_3_0_0) shapeCasts_S1x1x64x64_S64x64) : ((⟨S64x64, .f32⟩ : BufTy).Contents (Elt Ideal)))⟩, ⟨S64x64, ((addf (F := Ideal) (φ := .f32) (addf (F := Ideal) (φ := .f32) ((broadcastInDim S64x64 ![] bcast_S_S64x64 (constant (F := Ideal) S_ .f32 0x00000000#32)) : ((⟨S64x64, .f32⟩ : BufTy).Contents (Elt Ideal))) ((shapeCast S64x64 (extractStridedSlice S1x1x64x64 ![1, 1, 0, 0] ((m ((c : Thread nD τ).loc main_arg6)) : ((⟨S2x6x64x64, .f32⟩ : BufTy).Contents (Elt Ideal))) slices_S2x6x64x64_S1x1x64x64_1_1_0_0) shapeCasts_S1x1x64x64_S64x64) : ((⟨S64x64, .f32⟩ : BufTy).Contents (Elt Ideal)))) ((shapeCast S64x64 (extractStridedSlice S1x1x64x64 ![1, 3, 0, 0] ((m ((c : Thread nD τ).loc main_arg6)) : ((⟨S2x6x64x64, .f32⟩ : BufTy).Contents (Elt Ideal))) slices_S2x6x64x64_S1x1x64x64_1_3_0_0) shapeCasts_S1x1x64x64_S64x64) : ((⟨S64x64, .f32⟩ : BufTy).Contents (Elt Ideal)))) : ((⟨S64x64, .f32⟩ : BufTy).Contents (Elt Ideal)))⟩] concatenates_S64x64_S64x64_S64x64_S192x64_d0) := by
  show StableHlo.after main_part7_ops0 (B17 m ρ c) (Proc.devRef .tc main_v334) = _
  have e0 := (B17_v334 m ρ c)
  generalize B17 m ρ c = W at e0 ⊢
  host_read
  exact e0

set_option maxRecDepth 131072 in
theorem B17_v336 :
    B17 m ρ c (Proc.devRef .tc main_v336) = ((shapeCast S64 (extractStridedSlice S1x1x64 ![1, 1, 0] ((m ((c : Thread nD τ).loc main_arg5)) : ((⟨S2x6x64, .f32⟩ : BufTy).Contents (Elt Ideal))) slices_S2x6x64_S1x1x64_1_1_0) shapeCasts_S1x1x64_S64) : ((⟨S64, .f32⟩ : BufTy).Contents (Elt Ideal))) := by
  show StableHlo.after main_part6_ops1 (B16 m ρ c) (Proc.devRef .tc main_v336) = _
  have e0 := (B16_arg m ρ c main_arg5 (by decide))
  generalize B16 m ρ c = W at e0 ⊢
  host_read <;> (try simp only [e0]) <;> rfl

set_option maxRecDepth 131072 in
theorem B18_v342 :
    B18 m ρ c (Proc.devRef .tc main_v342) = ((shapeCast S1x64 ((addf (F := Ideal) (φ := .f32) (addf (F := Ideal) (φ := .f32) ((broadcastInDim S64 ![] bcast_S_S64 (constant (F := Ideal) S_ .f32 0x00000000#32)) : ((⟨S64, .f32⟩ : BufTy).Contents (Elt Ideal))) ((shapeCast S64 (extractStridedSlice S1x1x64 ![1, 1, 0] ((m ((c : Thread nD τ).loc main_arg5)) : ((⟨S2x6x64, .f32⟩ : BufTy).Contents (Elt Ideal))) slices_S2x6x64_S1x1x64_1_1_0) shapeCasts_S1x1x64_S64) : ((⟨S64, .f32⟩ : BufTy).Contents (Elt Ideal)))) ((shapeCast S64 (extractStridedSlice S1x1x64 ![1, 3, 0] ((m ((c : Thread nD τ).loc main_arg5)) : ((⟨S2x6x64, .f32⟩ : BufTy).Contents (Elt Ideal))) slices_S2x6x64_S1x1x64_1_3_0) shapeCasts_S1x1x64_S64) : ((⟨S64, .f32⟩ : BufTy).Contents (Elt Ideal)))) : ((⟨S64, .f32⟩ : BufTy).Contents (Elt Ideal))) shapeCasts_S64_S1x64) : ((⟨S1x64, .f32⟩ : BufTy).Contents (Elt Ideal))) := by
  show StableHlo.after main_part7_ops0 (B17 m ρ c) (Proc.devRef .tc main_v342) = _
  have e0 := (B17_arg m ρ c main_arg5 (by decide))
  have e1 := (B17_v336 m ρ c)
  generalize B17 m ρ c = W at e0 e1 ⊢
  host_read <;> (try simp only [e0, e1]) <;> rfl

theorem B17_v321 (h16_v321 : B16 m ρ c (Proc.devRef .tc main_v321) = (Cert.ReferenceIdeal.Read.val_main_v395 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13)) (m ((c : Thread nD τ).loc main_arg14)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)))) :
    B17 m ρ c (Proc.devRef .tc main_v321) = (Cert.ReferenceIdeal.Read.val_main_v395 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13)) (m ((c : Thread nD τ).loc main_arg14)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))) := by
  show StableHlo.after main_part6_ops1 (B16 m ρ c) (Proc.devRef .tc main_v321) = _
  have e0 := h16_v321
  generalize B16 m ρ c = W at e0 ⊢
  host_read
  exact e0

theorem B18_v321 (h16_v321 : B16 m ρ c (Proc.devRef .tc main_v321) = (Cert.ReferenceIdeal.Read.val_main_v395 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13)) (m ((c : Thread nD τ).loc main_arg14)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)))) :
    B18 m ρ c (Proc.devRef .tc main_v321) = (Cert.ReferenceIdeal.Read.val_main_v395 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13)) (m ((c : Thread nD τ).loc main_arg14)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))) := by
  show StableHlo.after main_part7_ops0 (B17 m ρ c) (Proc.devRef .tc main_v321) = _
  have e0 := (B17_v321 m ρ c h16_v321)
  generalize B17 m ρ c = W at e0 ⊢
  host_read
  exact e0

end Cert.KernelIdeal.Hand

end
-- ==== Proof.KI.HostE.lean ====
/-
  What the core's buffers hold at the segment boundaries 18 to 25, read back through the host operations.

  A host operation rewrites one buffer with its function of the buffers it reads and leaves the others alone, so a buffer's contents after a stretch is the
  composition of the operations that lead to it, applied to what the stretch found in the buffers it reads; a region changes only its output array.
  The aggregation stages are stated as the reference program's own stages of the same arguments: the two programs apply the same gathers, segment sums,
  counts and quotients to the same arrays, so the composed terms coincide.
-/
import proofs.«154750_j39152921870699_1_alg».proof.Proof.KI.HostA
import proofs.«154750_j39152921870699_1_alg».proof.Proof.RefRead
import proofs.«154750_j39152921870699_1_alg».proof.Proof.LibHostRead
import Idealize.ShloMosaic.PureOps.Ideal
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL.Sem

variable (m : (ℓ : Loc nD τ sig) → Buf (Elt Ideal) ℓ) (ρ : Dev nD → PrngReg) (c : Dev nD)

/-! ## The read-backs -/

theorem B24_v386_ops :
    B24 m ρ c (Proc.devRef .tc main_v386) = (concatenate S100000x128 1 [⟨S100000x64, (B24 m ρ c (Proc.devRef .tc main_v378) : ((⟨S100000x64, .f32⟩ : BufTy).Contents (Elt Ideal)))⟩, ⟨S100000x64, (B24 m ρ c (Proc.devRef .tc main_v385) : ((⟨S100000x64, .f32⟩ : BufTy).Contents (Elt Ideal)))⟩] concatenates_S100000x64_S100000x64_S100000x128_d1) := by
  show StableHlo.after main_part7_ops3 (B23 m ρ c) (Proc.devRef .tc main_v386) = (concatenate S100000x128 1 [⟨S100000x64, (StableHlo.after main_part7_ops3 (B23 m ρ c) (Proc.devRef .tc main_v378) : ((⟨S100000x64, .f32⟩ : BufTy).Contents (Elt Ideal)))⟩, ⟨S100000x64, (StableHlo.after main_part7_ops3 (B23 m ρ c) (Proc.devRef .tc main_v385) : ((⟨S100000x64, .f32⟩ : BufTy).Contents (Elt Ideal)))⟩] concatenates_S100000x64_S100000x64_S100000x128_d1)
  generalize B23 m ρ c = W
  after_results_simp
  rfl

theorem B20_v343 (h19_v343 : B19 m ρ c (Proc.devRef .tc main_v343) = (Cert.ReferenceIdeal.Read.val_main_v331 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg21)) (m ((c : Thread nD τ).loc main_arg22)))) :
    B20 m ρ c (Proc.devRef .tc main_v343) = (Cert.ReferenceIdeal.Read.val_main_v331 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg21)) (m ((c : Thread nD τ).loc main_arg22))) := by
  show StableHlo.after main_part7_ops1 (B19 m ρ c) (Proc.devRef .tc main_v343) = _
  have e0 := h19_v343
  generalize B19 m ρ c = W at e0 ⊢
  host_read
  exact e0

theorem B21_v343 (h19_v343 : B19 m ρ c (Proc.devRef .tc main_v343) = (Cert.ReferenceIdeal.Read.val_main_v331 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg21)) (m ((c : Thread nD τ).loc main_arg22)))) :
    B21 m ρ c (Proc.devRef .tc main_v343) = (Cert.ReferenceIdeal.Read.val_main_v331 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg21)) (m ((c : Thread nD τ).loc main_arg22))) :=
  (B21_of_ne m ρ c main_v343 (by decide)).trans (B20_v343 m ρ c h19_v343)

theorem B22_v343 (h19_v343 : B19 m ρ c (Proc.devRef .tc main_v343) = (Cert.ReferenceIdeal.Read.val_main_v331 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg21)) (m ((c : Thread nD τ).loc main_arg22)))) :
    B22 m ρ c (Proc.devRef .tc main_v343) = (Cert.ReferenceIdeal.Read.val_main_v331 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg21)) (m ((c : Thread nD τ).loc main_arg22))) := by
  show StableHlo.after main_part7_ops2 (B21 m ρ c) (Proc.devRef .tc main_v343) = _
  have e0 := (B21_v343 m ρ c h19_v343)
  generalize B21 m ρ c = W at e0 ⊢
  host_read
  exact e0

theorem B23_v343 (h19_v343 : B19 m ρ c (Proc.devRef .tc main_v343) = (Cert.ReferenceIdeal.Read.val_main_v331 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg21)) (m ((c : Thread nD τ).loc main_arg22)))) :
    B23 m ρ c (Proc.devRef .tc main_v343) = (Cert.ReferenceIdeal.Read.val_main_v331 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg21)) (m ((c : Thread nD τ).loc main_arg22))) :=
  (B23_of_ne m ρ c main_v343 (by decide)).trans (B22_v343 m ρ c h19_v343)

set_option maxRecDepth 131072 in
theorem B24_v378 (h19_v343 : B19 m ρ c (Proc.devRef .tc main_v343) = (Cert.ReferenceIdeal.Read.val_main_v331 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg21)) (m ((c : Thread nD τ).loc main_arg22)))) :
    B24 m ρ c (Proc.devRef .tc main_v378) = (Cert.ReferenceIdeal.Read.val_main_v402 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg21)) (m ((c : Thread nD τ).loc main_arg22)) (m ((c : Thread nD τ).loc main_arg23))) := by
  show StableHlo.after main_part7_ops3 (B23 m ρ c) (Proc.devRef .tc main_v378) = _
  have e0 := (B23_arg m ρ c main_arg23 (by decide))
  have e1 := (B23_v343 m ρ c h19_v343)
  generalize B23 m ρ c = W at e0 e1 ⊢
  host_read <;> (try simp only [e0, e1]) <;> rfl

theorem B19_v321 (h18_v321 : B18 m ρ c (Proc.devRef .tc main_v321) = (Cert.ReferenceIdeal.Read.val_main_v395 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13)) (m ((c : Thread nD τ).loc main_arg14)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)))) :
    B19 m ρ c (Proc.devRef .tc main_v321) = (Cert.ReferenceIdeal.Read.val_main_v395 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13)) (m ((c : Thread nD τ).loc main_arg14)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))) :=
  (B19_of_ne m ρ c main_v321 (by decide)).trans h18_v321

theorem B20_v321 (h18_v321 : B18 m ρ c (Proc.devRef .tc main_v321) = (Cert.ReferenceIdeal.Read.val_main_v395 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13)) (m ((c : Thread nD τ).loc main_arg14)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)))) :
    B20 m ρ c (Proc.devRef .tc main_v321) = (Cert.ReferenceIdeal.Read.val_main_v395 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13)) (m ((c : Thread nD τ).loc main_arg14)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))) := by
  show StableHlo.after main_part7_ops1 (B19 m ρ c) (Proc.devRef .tc main_v321) = _
  have e0 := (B19_v321 m ρ c h18_v321)
  generalize B19 m ρ c = W at e0 ⊢
  host_read
  exact e0

theorem B21_v321 (h18_v321 : B18 m ρ c (Proc.devRef .tc main_v321) = (Cert.ReferenceIdeal.Read.val_main_v395 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13)) (m ((c : Thread nD τ).loc main_arg14)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)))) :
    B21 m ρ c (Proc.devRef .tc main_v321) = (Cert.ReferenceIdeal.Read.val_main_v395 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13)) (m ((c : Thread nD τ).loc main_arg14)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))) :=
  (B21_of_ne m ρ c main_v321 (by decide)).trans (B20_v321 m ρ c h18_v321)

theorem B22_v321 (h18_v321 : B18 m ρ c (Proc.devRef .tc main_v321) = (Cert.ReferenceIdeal.Read.val_main_v395 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13)) (m ((c : Thread nD τ).loc main_arg14)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)))) :
    B22 m ρ c (Proc.devRef .tc main_v321) = (Cert.ReferenceIdeal.Read.val_main_v395 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13)) (m ((c : Thread nD τ).loc main_arg14)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))) := by
  show StableHlo.after main_part7_ops2 (B21 m ρ c) (Proc.devRef .tc main_v321) = _
  have e0 := (B21_v321 m ρ c h18_v321)
  generalize B21 m ρ c = W at e0 ⊢
  host_read
  exact e0

theorem B23_v321 (h18_v321 : B18 m ρ c (Proc.devRef .tc main_v321) = (Cert.ReferenceIdeal.Read.val_main_v395 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13)) (m ((c : Thread nD τ).loc main_arg14)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)))) :
    B23 m ρ c (Proc.devRef .tc main_v321) = (Cert.ReferenceIdeal.Read.val_main_v395 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13)) (m ((c : Thread nD τ).loc main_arg14)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))) :=
  (B23_of_ne m ρ c main_v321 (by decide)).trans (B22_v321 m ρ c h18_v321)

set_option maxRecDepth 131072 in
theorem B24_v385 (h18_v321 : B18 m ρ c (Proc.devRef .tc main_v321) = (Cert.ReferenceIdeal.Read.val_main_v395 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13)) (m ((c : Thread nD τ).loc main_arg14)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)))) :
    B24 m ρ c (Proc.devRef .tc main_v385) = (Cert.ReferenceIdeal.Read.val_main_v409 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13)) (m ((c : Thread nD τ).loc main_arg14)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg24))) := by
  show StableHlo.after main_part7_ops3 (B23 m ρ c) (Proc.devRef .tc main_v385) = _
  have e0 := (B23_arg m ρ c main_arg24 (by decide))
  have e1 := (B23_v321 m ρ c h18_v321)
  generalize B23 m ρ c = W at e0 e1 ⊢
  host_read <;> (try simp only [e0, e1]) <;> rfl

theorem B24_v386 (h19_v343 : B19 m ρ c (Proc.devRef .tc main_v343) = (Cert.ReferenceIdeal.Read.val_main_v331 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg21)) (m ((c : Thread nD τ).loc main_arg22)))) (h18_v321 : B18 m ρ c (Proc.devRef .tc main_v321) = (Cert.ReferenceIdeal.Read.val_main_v395 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13)) (m ((c : Thread nD τ).loc main_arg14)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)))) :
    B24 m ρ c (Proc.devRef .tc main_v386) = (Cert.ReferenceIdeal.Read.val_main_v410 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24))) := by
  rw [B24_v386_ops m ρ c, (B24_v378 m ρ c h19_v343), (B24_v385 m ρ c h18_v321)] <;> rfl

theorem B25_v386 (h19_v343 : B19 m ρ c (Proc.devRef .tc main_v343) = (Cert.ReferenceIdeal.Read.val_main_v331 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg21)) (m ((c : Thread nD τ).loc main_arg22)))) (h18_v321 : B18 m ρ c (Proc.devRef .tc main_v321) = (Cert.ReferenceIdeal.Read.val_main_v395 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13)) (m ((c : Thread nD τ).loc main_arg14)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)))) :
    B25 m ρ c (Proc.devRef .tc main_v386) = (Cert.ReferenceIdeal.Read.val_main_v410 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24))) := by
  show StableHlo.after main_part8_ops0 (B24 m ρ c) (Proc.devRef .tc main_v386) = _
  have e0 := (B24_v386 m ρ c h19_v343 h18_v321)
  generalize B24 m ρ c = W at e0 ⊢
  host_read
  exact e0

set_option maxRecDepth 131072 in
theorem B24_v387 :
    B24 m ρ c (Proc.devRef .tc main_v387) = ((shapeCast S1x64 ((m ((c : Thread nD τ).loc main_arg8)) : ((⟨S64, .f32⟩ : BufTy).Contents (Elt Ideal))) shapeCasts_S64_S1x64) : ((⟨S1x64, .f32⟩ : BufTy).Contents (Elt Ideal))) := by
  show StableHlo.after main_part7_ops3 (B23 m ρ c) (Proc.devRef .tc main_v387) = _
  have e0 := (B23_arg m ρ c main_arg8 (by decide))
  generalize B23 m ρ c = W at e0 ⊢
  host_read <;> (try simp only [e0]) <;> rfl

theorem B25_v387 :
    B25 m ρ c (Proc.devRef .tc main_v387) = ((shapeCast S1x64 ((m ((c : Thread nD τ).loc main_arg8)) : ((⟨S64, .f32⟩ : BufTy).Contents (Elt Ideal))) shapeCasts_S64_S1x64) : ((⟨S1x64, .f32⟩ : BufTy).Contents (Elt Ideal))) := by
  show StableHlo.after main_part8_ops0 (B24 m ρ c) (Proc.devRef .tc main_v387) = _
  have e0 := (B24_v387 m ρ c)
  generalize B24 m ρ c = W at e0 ⊢
  host_read
  exact e0

set_option maxRecDepth 131072 in
theorem B25_v388 :
    B25 m ρ c (Proc.devRef .tc main_v388) = ((shapeCast S1x4 ((m ((c : Thread nD τ).loc main_arg10)) : ((⟨S4, .f32⟩ : BufTy).Contents (Elt Ideal))) shapeCasts_S4_S1x4) : ((⟨S1x4, .f32⟩ : BufTy).Contents (Elt Ideal))) := by
  show StableHlo.after main_part8_ops0 (B24 m ρ c) (Proc.devRef .tc main_v388) = _
  have e0 := (B24_arg m ρ c main_arg10 (by decide))
  generalize B24 m ρ c = W at e0 ⊢
  host_read <;> (try simp only [e0]) <;> rfl

end Cert.KernelIdeal.Hand

end
-- ==== Proof.Spec.lean ====
/-
  The network as pure functions of arrays on the extended reals, and the one algebraic law that joins the two
  programs' arrangements of a layer.

  A matrix is a function of a rank-2 index. A dense map sends a matrix X [n,k], weights W [k,o] and a one-row
  bias b [1,o] to  (Σ_c X(a,c)·W(c,j)) + b(0,j).  One program multiplies ONE matrix, made of several blocks laid
  side by side, by ONE stack of weights whose last block is a SUM of root weights, and adds a summed bias; the
  other adds up, relation by relation, the products of the separate blocks. The two agree entry by entry as soon as
  the entries that meet a sum of weights are real numbers: on the extended reals x·(u+v) = x·u + x·v needs x, u, v finite,
  while splitting a sum over consecutive index ranges and regrouping sums need nothing.
-/
import Idealize.ShloMosaic.PureOps.Ideal
import Idealize.ShloMosaic.Lib.ValueIdx

noncomputable section

open scoped BigOperators

namespace Cert.Spec

open Idealize.ShloMosaic Idealize.ShloMosaic.ValueIdx

/-- A matrix of extended reals with n rows and k columns. -/
abbrev Mat (n k : ℕ) : Type := (⟨2, ![n, k]⟩ : Shape).Idx → EReal

/-- Entry (a, j) of the dense map: the row of X against the column of W, plus the bias row's entry. -/
def denseAt {n k o : ℕ} (X : Mat n k) (W : Mat k o) (b : Mat 1 o) (a : Fin n) (j : Fin o) : EReal :=
  (∑ c : Fin k, X (ix2 a c) * W (ix2 c j)) + b (ix2 (0 : Fin 1) j)

/-- The dense map as a matrix. -/
def dense {n k o : ℕ} (X : Mat n k) (W : Mat k o) (b : Mat 1 o) : Mat n o :=
  fun i => denseAt X W b (i 0) (i 1)

/-- The dense map followed by the clamp at zero. -/
def denseRelu {n k o : ℕ} (X : Mat n k) (W : Mat k o) (b : Mat 1 o) : Mat n o :=
  fun i => max (denseAt X W b (i 0) (i 1)) 0

/-- The two-layer classifier head: a clamped dense map followed by a dense map. -/
def mlp {n k h o : ℕ} (X : Mat n k) (W1 : Mat k h) (b1 : Mat 1 h) (W2 : Mat h o) (b2 : Mat 1 o) : Mat n o :=
  dense (denseRelu X W1 b1) W2 b2

/-- Every entry is a real number. -/
def IsReal {ι : Type} (v : ι → EReal) : Prop := ∀ i, ∃ r : ℝ, v i = (r : EReal)

theorem dense_apply {n k o : ℕ} (X : Mat n k) (W : Mat k o) (b : Mat 1 o) (a : Fin n) (j : Fin o) :
    dense X W b (ix2 a j) = denseAt X W b a j := rfl

theorem denseRelu_apply {n k o : ℕ} (X : Mat n k) (W : Mat k o) (b : Mat 1 o) (a : Fin n) (j : Fin o) :
    denseRelu X W b (ix2 a j) = max (denseAt X W b a j) 0 := rfl

/-- A vector [o] laid out as the one-row matrix [1,o]. -/
def rowOf {o : ℕ} (b : (⟨1, ![o]⟩ : Shape).Idx → EReal) : Mat 1 o := fun i => b (ix1 (i 1))

/-- The stacked weights [2,6,64,64] (layer, relation, in, out) and biases [2,6,64] (layer, relation, out). -/
abbrev W4 : Type := (⟨4, ![2, 6, 64, 64]⟩ : Shape).Idx → EReal
abbrev B3 : Type := (⟨3, ![2, 6, 64]⟩ : Shape).Idx → EReal

/-- One relation's contribution at (a, j), layer l, relation r: the aggregated neighbours M through the message weights,
    plus the relation's bias, plus the node's own row x through the root weights. -/
def sageAt {n : ℕ} (l : Fin 2) (r : Fin 6) (M x : Mat n 64) (Wm : W4) (b : B3) (Wr : W4) (a : Fin n) (j : Fin 64) : EReal :=
  ((∑ k : Fin 64, M (ix2 a k) * Wm (ix4 l r k j)) + b (ix3 l r j)) + ∑ k : Fin 64, x (ix2 a k) * Wr (ix4 l r k j)

/-- A node type reached by two relations r, r': their contributions added, in order, onto zero. -/
def refTwoAt {n : ℕ} (l : Fin 2) (r r' : Fin 6) (M M' x : Mat n 64) (Wm : W4) (b : B3) (Wr : W4) (a : Fin n) (j : Fin 64) : EReal :=
  (0 + sageAt l r M x Wm b Wr a j) + sageAt l r' M' x Wm b Wr a j

/-- A node type reached by one relation r: its contribution added onto zero. -/
def refOneAt {n : ℕ} (l : Fin 2) (r : Fin 6) (M x : Mat n 64) (Wm : W4) (b : B3) (Wr : W4) (a : Fin n) (j : Fin 64) : EReal :=
  0 + sageAt l r M x Wm b Wr a j

/-- The stacked arrangement for two relations: the three blocks against their weights — the root weights SUMMED onto zero
    before the product —, plus the biases summed onto zero. -/
def kerTwoAt {n : ℕ} (l : Fin 2) (r r' : Fin 6) (M M' x : Mat n 64) (Wm : W4) (b : B3) (Wr : W4) (a : Fin n) (j : Fin 64) : EReal :=
  ((∑ k : Fin 64, M (ix2 a k) * Wm (ix4 l r k j)) + (∑ k : Fin 64, M' (ix2 a k) * Wm (ix4 l r' k j))
      + ∑ k : Fin 64, x (ix2 a k) * ((0 + Wr (ix4 l r k j)) + Wr (ix4 l r' k j)))
    + ((0 + b (ix3 l r j)) + b (ix3 l r' j))

/-- The stacked arrangement for one relation. -/
def kerOneAt {n : ℕ} (l : Fin 2) (r : Fin 6) (M x : Mat n 64) (Wm : W4) (b : B3) (Wr : W4) (a : Fin n) (j : Fin 64) : EReal :=
  ((∑ k : Fin 64, M (ix2 a k) * Wm (ix4 l r k j)) + ∑ k : Fin 64, x (ix2 a k) * (0 + Wr (ix4 l r k j)))
    + (0 + b (ix3 l r j))

end Cert.Spec

end
-- ==== Proof.KI.Val0.lean ====
import proofs.«154750_j39152921870699_1_alg».proof.Proof.KI.Body0
import proofs.«154750_j39152921870699_1_alg».proof.Proof.Spec
import Idealize.ShloMosaic.Lib.Pipeline.Value
import Idealize.ShloMosaic.Lib.ValueLayout
import Idealize.ShloMosaic.PureOps.Ideal.Laws

/-!
# Region 0: the output array as one function of the three input arrays

The region writes, tile by tile, the rows of an output matrix.  The tile at point t is rows
2000·t … 2000·t + 1999; its entry (a, j) is the row a of the tile of X against the column j of W, plus
the bias b(0, j), clamped below at zero.  Row a of the tile of X is row 2000·t + a of X, so the tile is
the block of rows 2000·t … 2000·t + 1999 of the matrix

    (r, j) ↦ max (Σ_c X(r, c) · W(c, j) + b(0, j)) 0

and the fifty tiles cover all 100000 rows: when the region ends the output array is that matrix.
-/

noncomputable section

namespace Cert.KernelIdeal.Hand.Val0

open Cert.KernelIdeal Cert.KernelIdeal.Gen Cert.KernelIdeal.Hand
open Idealize.ShloMosaic Idealize.ShloMosaic.TcCoe Idealize.ShloMosaic.ValueIdx
open Idealize.ShloMosaic.Pipeline (Dat)
open scoped BigOperators

/-! ## The product of a tile by the weights, entry by entry -/

/-- A row coordinate of the left factor at an entry of the product is the entry's row. -/
theorem dotA0_lhs_row (i : S2000x64.Idx) (q : dot_S2000x192_S192x64_S2000x64_1_0_0_1_n_n.contr.Idx) :
    (dot_S2000x192_S192x64_S2000x64_1_0_0_1_n_n.lhsIdx i q 0).val = (i 0).val := by
  unfold DotDims.lhsIdx
  rw [dif_neg (show ¬(0 : Fin S2000x192.rank) ∈ dot_S2000x192_S192x64_S2000x64_1_0_0_1_n_n.lhsBatch by decide),
    dif_pos (show (0 : Fin S2000x192.rank) ∈ dot_S2000x192_S192x64_S2000x64_1_0_0_1_n_n.lhsNonContracting by decide)]
  rfl

/-- Its column coordinate is the summation index. -/
theorem dotA0_lhs_col (i : S2000x64.Idx) (q : dot_S2000x192_S192x64_S2000x64_1_0_0_1_n_n.contr.Idx) :
    (dot_S2000x192_S192x64_S2000x64_1_0_0_1_n_n.lhsIdx i q 1).val = (q ⟨0, by decide⟩).val :=
  dot_S2000x192_S192x64_S2000x64_1_0_0_1_n_n.lhsIdx_val_of_single rfl i q

/-- The right factor's row coordinate is the summation index. -/
theorem dotA0_rhs_row (i : S2000x64.Idx) (q : dot_S2000x192_S192x64_S2000x64_1_0_0_1_n_n.contr.Idx) :
    (dot_S2000x192_S192x64_S2000x64_1_0_0_1_n_n.rhsIdx i q 0).val = (q ⟨0, by decide⟩).val :=
  dot_S2000x192_S192x64_S2000x64_1_0_0_1_n_n.rhsIdx_val_of_single rfl i q

/-- Its column coordinate is the entry's column. -/
theorem dotA0_rhs_col (i : S2000x64.Idx) (q : dot_S2000x192_S192x64_S2000x64_1_0_0_1_n_n.contr.Idx) :
    (dot_S2000x192_S192x64_S2000x64_1_0_0_1_n_n.rhsIdx i q 1).val = (i 1).val := by
  unfold DotDims.rhsIdx
  rw [dif_neg (show ¬(1 : Fin S192x64.rank) ∈ dot_S2000x192_S192x64_S2000x64_1_0_0_1_n_n.rhsBatch by decide),
    dif_pos (show (1 : Fin S192x64.rank) ∈ dot_S2000x192_S192x64_S2000x64_1_0_0_1_n_n.rhsNonContracting by decide)]
  rfl

/-- The product accumulated onto zero, at entry (a, j): the row a of A against the column j of B. -/
theorem matmul0_apply (A : FVec Ideal S2000x192 .bf16) (B : FVec Ideal S192x64 .bf16) (a : Fin 2000) (j : Fin 64) :
    matmul dot_S2000x192_S192x64_S2000x64_1_0_0_1_n_n none A B (constant (F := Ideal) S2000x64 .f32 0x00000000#32) (ix2 a j)
      = ∑ k : Fin 192, A (ix2 a k) * B (ix2 k j) := by
  simp only [matmul]
  rw [Ideal.matmul_constant_zero_apply,
    ← Equiv.sum_comp (contrEquiv1 dot_S2000x192_S192x64_S2000x64_1_0_0_1_n_n 192 rfl rfl).symm]
  refine Finset.sum_congr rfl fun k _ => ?_
  have hk := contrEquiv1_symm_val dot_S2000x192_S192x64_S2000x64_1_0_0_1_n_n 192 rfl rfl k
  have el : dot_S2000x192_S192x64_S2000x64_1_0_0_1_n_n.lhsIdx (ix2 a j)
      ((contrEquiv1 dot_S2000x192_S192x64_S2000x64_1_0_0_1_n_n 192 rfl rfl).symm k) = ix2 a k :=
    funext fun ax => Fin.ext (by
      match ax with
      | ⟨0, _⟩ => exact dotA0_lhs_row _ _
      | ⟨1, _⟩ => exact (dotA0_lhs_col _ _).trans hk)
  have er : dot_S2000x192_S192x64_S2000x64_1_0_0_1_n_n.rhsIdx (ix2 a j)
      ((contrEquiv1 dot_S2000x192_S192x64_S2000x64_1_0_0_1_n_n 192 rfl rfl).symm k) = ix2 k j :=
    funext fun ax => Fin.ext (by
      match ax with
      | ⟨0, _⟩ => exact (dotA0_rhs_row _ _).trans hk
      | ⟨1, _⟩ => exact dotA0_rhs_col _ _)
  rw [el, er]

/-- The stored tile at entry (a, j), from the three loaded blocks: the row of the tile of X against the
    column of W, plus the bias, clamped below at zero. -/
theorem pay0_apply (x0 : Vec Ideal S2000x192 .f32) (x1 : Vec Ideal S192x64 .f32) (x2 : Vec Ideal S1x64 .f32)
    (a : Fin 2000) (j : Fin 64) :
    k0_pay1 x0 x1 x2 (ix2 a j)
      = max ((∑ k : Fin 192, x0 (ix2 a k) * x1 (ix2 k j)) + x2 (ix2 (0 : Fin 1) j)) 0 := by
  unfold k0_pay1
  simp only [shapeCast_self]
  have hzero : (FloatOps.ofBits (F := Ideal) FTy.f32 0x00000000#32) = (0 : EReal) := Ideal.ofBits_zero_f32
  rw [maximumf_apply, addf_apply, matmul0_apply, broadcastTo_1b_ab_apply, broadcast_apply, hzero]
  simp only [truncf_apply]

/-! ## The tiles' places in the arrays -/

variable (V : (c : Dev nD) → (b : Ref sig .tc) → Buf (Elt Ideal) ((c : Thread nD τ).loc b))

theorem zero_offsets : (![0, 0] : Fin 2 → Nat) = fun _ => 0 := funext fun a => by fin_cases a <;> rfl

/-- Where the four windows' tiles sit at point t, decided over the fifty points: the tile of X and the
    output tile are tile t along the rows; the weights and the bias are the one tile of their arrays. -/
theorem tile_places0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The array element under entry y of the tile of X at point t. -/
theorem emb0_0 (t : Fin cfg0.N) (y : S2000x192.Idx) (i : S100000x192.Idx)
    (h0 : (i 0).val = t.val * 2000 + (y 0).val) (h1 : (i 1).val = (y 1).val) :
    ((cfg0.win 0).blk t).view.emb y = i := by
  obtain ⟨e0, e1, -⟩ := tile_places0 t
  funext ax; apply Fin.ext
  match ax with
  | ⟨0, _⟩ => show win0_0.index t (0 : Fin 2) * 2000 + 1 * (y 0).val = (i 0).val; omega
  | ⟨1, _⟩ => show win0_0.index t (1 : Fin 2) * 192 + 1 * (y 1).val = (i 1).val; omega

/-- The array element under entry y of the weights' tile. -/
theorem emb0_1 (t : Fin cfg0.N) (y : S192x64.Idx) : ((cfg0.win 1).blk t).view.emb y = y := by
  obtain ⟨-, -, e0, e1, -⟩ := tile_places0 t
  funext ax; apply Fin.ext
  match ax with
  | ⟨0, _⟩ => show win0_1.index t (0 : Fin 2) * 192 + 1 * (y 0).val = (y 0).val; omega
  | ⟨1, _⟩ => show win0_1.index t (1 : Fin 2) * 64 + 1 * (y 1).val = (y 1).val; omega

/-- The array element under entry y of the bias's tile. -/
theorem emb0_2 (t : Fin cfg0.N) (y : S1x64.Idx) : ((cfg0.win 2).blk t).view.emb y = y := by
  obtain ⟨-, -, -, -, e0, e1, -⟩ := tile_places0 t
  funext ax; apply Fin.ext
  match ax with
  | ⟨0, _⟩ => show win0_2.index t (0 : Fin 2) * 1 + 1 * (y 0).val = (y 0).val; omega
  | ⟨1, _⟩ => show win0_2.index t (1 : Fin 2) * 64 + 1 * (y 1).val = (y 1).val; omega

/-- The array element under entry y of the output tile at point t. -/
theorem emb0_3 (t : Fin cfg0.N) (y : S2000x64.Idx) (i : S100000x64.Idx)
    (h0 : (i 0).val = t.val * 2000 + (y 0).val) (h1 : (i 1).val = (y 1).val) :
    ((cfg0.win 3).blk t).view.emb y = i := by
  obtain ⟨-, -, -, -, -, -, e0, e1⟩ := tile_places0 t
  funext ax; apply Fin.ext
  match ax with
  | ⟨0, _⟩ => show win0_3.index t (0 : Fin 2) * 2000 + 1 * (y 0).val = (i 0).val; omega
  | ⟨1, _⟩ => show win0_3.index t (1 : Fin 2) * 64 + 1 * (y 1).val = (i 1).val; omega

/-! ## What a point writes back is its tile of the dense map -/

/-- The matrix the region computes, from the three arrays as the region finds them. -/
abbrev G0 (c : Dev nD) : Cert.Spec.Mat 100000 64 :=
  Cert.Spec.denseRelu (V c (Pipeline.arrRef spec0 0)) (V c (Pipeline.arrRef spec0 1)) (V c (Pipeline.arrRef spec0 2))

/-- What point t writes back is tile t of that matrix. -/
theorem flushed0_eq (c : Dev nD) (t : Fin cfg0.N) :
    (dat0 (F := Ideal) V c).flushed 3 t = ((cfg0.win 3).blk t).view.read (Elt Ideal) (G0 V c) := by
  show (cfg0.win 3).cut (grid0.coords t) ((dat0 V c).after 3 t) = _
  rw [after0_out]
  unfold out0
  rw [View.canon_unit_zero zero_offsets]
  simp only [View.ld_unit_zero (S := S2000x192) zero_offsets, View.ld_unit_zero (S := S192x64) zero_offsets,
    View.ld_unit_zero (S := S1x64) zero_offsets]
  funext y
  obtain ⟨a, j, rfl⟩ : ∃ (a : Fin 2000) (j : Fin 64), y = ix2 a j := ⟨y 0, y 1, eq_ix2 y⟩
  have hN : cfg0.N = 50 := N_0
  have hrow : t.val * 2000 + a.val < 100000 := by have := t.isLt; omega
  -- the row of the arrays under row a of the tiles at point t
  obtain ⟨r, hr⟩ : ∃ r : Fin 100000, r.val = t.val * 2000 + a.val := ⟨⟨_, hrow⟩, rfl⟩
  show k0_pay1 (iblk0 V c 0 t) (iblk0 V c 1 t) (iblk0 V c 2 t) (ix2 a j)
    = G0 V c (((cfg0.win 3).blk t).view.emb (ix2 a j))
  rw [emb0_3 t (ix2 a j) (ix2 r j) hr rfl, pay0_apply]
  have hx : ∀ k : Fin 192, iblk0 V c 0 t (ix2 a k)
      = (V c (Pipeline.arrRef spec0 0) : Cert.Spec.Mat 100000 192) (ix2 r k) := fun k => by
    show V c (Pipeline.arrRef spec0 0) (((cfg0.win 0).blk t).view.emb (ix2 a k)) = _
    rw [emb0_0 t (ix2 a k) (ix2 r k) hr rfl]
  have hw : ∀ k : Fin 192, iblk0 V c 1 t (ix2 k j)
      = (V c (Pipeline.arrRef spec0 1) : Cert.Spec.Mat 192 64) (ix2 k j) := fun k => by
    show V c (Pipeline.arrRef spec0 1) (((cfg0.win 1).blk t).view.emb (ix2 k j)) = _
    rw [emb0_1 t (ix2 k j)]
  have hb : iblk0 V c 2 t (ix2 (0 : Fin 1) j)
      = (V c (Pipeline.arrRef spec0 2) : Cert.Spec.Mat 1 64) (ix2 (0 : Fin 1) j) := by
    show V c (Pipeline.arrRef spec0 2) (((cfg0.win 2).blk t).view.emb (ix2 (0 : Fin 1) j)) = _
    rw [emb0_2 t (ix2 (0 : Fin 1) j)]
  rw [hb]
  simp only [hx, hw]
  rfl

/-! ## The fifty tiles cover the array -/

/-- An index of the output array is in point t's tile iff each coordinate is in the tile's range. -/
theorem mem_tile0 (t : Fin cfg0.N) (i : S100000x64.Idx) :
    i ∈ ((cfg0.win 3).blk t).view.set ↔ ∀ a : Fin 2, win0_3.index t a * S2000x64.size a ≤ (i a).val
      ∧ (i a).val < win0_3.index t a * S2000x64.size a + S2000x64.size a := by
  show i ∈ ((View.whole main_v135).slice (win0_3.rect t)).set ↔ _
  rw [View.set_slice_whole, Rect.mem_set_unit]
  exact Iff.rfl

/-- Row r of the output is in the tile of point r / 2000. -/
theorem cover0 (i : S100000x64.Idx) :
    ∃ t : Fin cfg0.N, (cfg0.win 3).flush t = true ∧ i ∈ ((cfg0.win 3).blk t).view.set := by
  have hN : cfg0.N = 50 := N_0
  have hi0 : (i 0).val < 100000 := idx2_lt0 i
  have hi1 : (i 1).val < 64 := idx2_lt1 i
  refine ⟨⟨(i 0).val / 2000, by omega⟩, flush0_3 _, ?_⟩
  rw [mem_tile0]
  obtain ⟨-, -, -, -, -, -, e0, e1⟩ := tile_places0 ⟨(i 0).val / 2000, by omega⟩
  intro a
  match a with
  | ⟨0, _⟩ =>
    show win0_3.index _ (0 : Fin 2) * 2000 ≤ (i 0).val ∧ (i 0).val < win0_3.index _ (0 : Fin 2) * 2000 + 2000
    rw [e0]; show (i 0).val / 2000 * 2000 ≤ (i 0).val ∧ (i 0).val < (i 0).val / 2000 * 2000 + 2000; omega
  | ⟨1, _⟩ =>
    show win0_3.index _ (1 : Fin 2) * 64 ≤ (i 1).val ∧ (i 1).val < win0_3.index _ (1 : Fin 2) * 64 + 64
    rw [e1]; omega

end Cert.KernelIdeal.Hand.Val0

namespace Cert.KernelIdeal.Hand

open Cert.KernelIdeal Cert.KernelIdeal.Gen
open Idealize.ShloMosaic Idealize.ShloMosaic.TcCoe Idealize.ShloMosaic.ValueIdx

variable (V : (c : Dev nD) → (b : Ref sig .tc) → Buf (Elt Ideal) ((c : Thread nD τ).loc b))

/-! ## The output array when the region ends -/

/-- The region leaves in its output array the dense map of its three input arrays, clamped below at zero. -/
theorem out_value0 (c : Dev nD) :
    (dat0 (F := Ideal) V c).arrAt 3 cfg0.N
      = Cert.Spec.denseRelu (V c (Pipeline.arrRef spec0 0)) (V c (Pipeline.arrRef spec0 1)) (V c (Pipeline.arrRef spec0 2)) :=
  (dat0 (F := Ideal) V c).arrAt_eq_of_cover 3 (Val0.G0 V c) (fun t _ => Val0.flushed0_eq V c t) Val0.cover0

end Cert.KernelIdeal.Hand

end
-- ==== Proof.KI.Val1.lean ====
import proofs.«154750_j39152921870699_1_alg».proof.Proof.KI.Body1
import proofs.«154750_j39152921870699_1_alg».proof.Proof.Spec
import Idealize.ShloMosaic.Lib.Pipeline.Value
import Idealize.ShloMosaic.Lib.ValueLayout
import Idealize.ShloMosaic.PureOps.Ideal.Laws

/-!
# Region 1: the output array as one function of the three input arrays

The region writes, tile by tile, the rows of an output matrix.  The tile at point t is rows
2000·t … 2000·t + 1999; its entry (a, j) is the row a of the tile of X against the column j of W, plus
the bias b(0, j), clamped below at zero.  Row a of the tile of X is row 2000·t + a of X, so the tile is
the block of rows 2000·t … 2000·t + 1999 of the matrix

    (r, j) ↦ max (Σ_c X(r, c) · W(c, j) + b(0, j)) 0

and the 25 tiles cover all 50000 rows: when the region ends the output array is that matrix.
-/

noncomputable section

namespace Cert.KernelIdeal.Hand.Val1

open Cert.KernelIdeal Cert.KernelIdeal.Gen Cert.KernelIdeal.Hand
open Idealize.ShloMosaic Idealize.ShloMosaic.TcCoe Idealize.ShloMosaic.ValueIdx
open Idealize.ShloMosaic.Pipeline (Dat)
open scoped BigOperators

/-! ## The product of a tile by the weights, entry by entry -/

/-- A row coordinate of the left factor at an entry of the product is the entry's row. -/
theorem dot_lhs_row (i : S2000x64.Idx) (q : dot_S2000x192_S192x64_S2000x64_1_0_0_1_n_n.contr.Idx) :
    (dot_S2000x192_S192x64_S2000x64_1_0_0_1_n_n.lhsIdx i q 0).val = (i 0).val := by
  unfold DotDims.lhsIdx
  rw [dif_neg (show ¬(0 : Fin S2000x192.rank) ∈ dot_S2000x192_S192x64_S2000x64_1_0_0_1_n_n.lhsBatch by decide),
    dif_pos (show (0 : Fin S2000x192.rank) ∈ dot_S2000x192_S192x64_S2000x64_1_0_0_1_n_n.lhsNonContracting by decide)]
  rfl

/-- Its column coordinate is the summation index. -/
theorem dot_lhs_col (i : S2000x64.Idx) (q : dot_S2000x192_S192x64_S2000x64_1_0_0_1_n_n.contr.Idx) :
    (dot_S2000x192_S192x64_S2000x64_1_0_0_1_n_n.lhsIdx i q 1).val = (q ⟨0, by decide⟩).val :=
  dot_S2000x192_S192x64_S2000x64_1_0_0_1_n_n.lhsIdx_val_of_single rfl i q

/-- The right factor's row coordinate is the summation index. -/
theorem dot_rhs_row (i : S2000x64.Idx) (q : dot_S2000x192_S192x64_S2000x64_1_0_0_1_n_n.contr.Idx) :
    (dot_S2000x192_S192x64_S2000x64_1_0_0_1_n_n.rhsIdx i q 0).val = (q ⟨0, by decide⟩).val :=
  dot_S2000x192_S192x64_S2000x64_1_0_0_1_n_n.rhsIdx_val_of_single rfl i q

/-- Its column coordinate is the entry's column. -/
theorem dot_rhs_col (i : S2000x64.Idx) (q : dot_S2000x192_S192x64_S2000x64_1_0_0_1_n_n.contr.Idx) :
    (dot_S2000x192_S192x64_S2000x64_1_0_0_1_n_n.rhsIdx i q 1).val = (i 1).val := by
  unfold DotDims.rhsIdx
  rw [dif_neg (show ¬(1 : Fin S192x64.rank) ∈ dot_S2000x192_S192x64_S2000x64_1_0_0_1_n_n.rhsBatch by decide),
    dif_pos (show (1 : Fin S192x64.rank) ∈ dot_S2000x192_S192x64_S2000x64_1_0_0_1_n_n.rhsNonContracting by decide)]
  rfl

/-- The product accumulated onto zero, at entry (a, j): the row a of A against the column j of B. -/
theorem matmul1_apply (A : FVec Ideal S2000x192 .bf16) (B : FVec Ideal S192x64 .bf16) (a : Fin 2000) (j : Fin 64) :
    matmul dot_S2000x192_S192x64_S2000x64_1_0_0_1_n_n none A B (constant (F := Ideal) S2000x64 .f32 0x00000000#32) (ix2 a j)
      = ∑ k : Fin 192, A (ix2 a k) * B (ix2 k j) := by
  simp only [matmul]
  rw [Ideal.matmul_constant_zero_apply,
    ← Equiv.sum_comp (contrEquiv1 dot_S2000x192_S192x64_S2000x64_1_0_0_1_n_n 192 rfl rfl).symm]
  refine Finset.sum_congr rfl fun k _ => ?_
  have hk := contrEquiv1_symm_val dot_S2000x192_S192x64_S2000x64_1_0_0_1_n_n 192 rfl rfl k
  have el : dot_S2000x192_S192x64_S2000x64_1_0_0_1_n_n.lhsIdx (ix2 a j)
      ((contrEquiv1 dot_S2000x192_S192x64_S2000x64_1_0_0_1_n_n 192 rfl rfl).symm k) = ix2 a k :=
    funext fun ax => Fin.ext (by
      match ax with
      | ⟨0, _⟩ => exact dot_lhs_row _ _
      | ⟨1, _⟩ => exact (dot_lhs_col _ _).trans hk)
  have er : dot_S2000x192_S192x64_S2000x64_1_0_0_1_n_n.rhsIdx (ix2 a j)
      ((contrEquiv1 dot_S2000x192_S192x64_S2000x64_1_0_0_1_n_n 192 rfl rfl).symm k) = ix2 k j :=
    funext fun ax => Fin.ext (by
      match ax with
      | ⟨0, _⟩ => exact (dot_rhs_row _ _).trans hk
      | ⟨1, _⟩ => exact dot_rhs_col _ _)
  rw [el, er]

/-- The stored tile at entry (a, j), from the three loaded blocks: the row of the tile of X against the
    column of W, plus the bias, clamped below at zero. -/
theorem pay1_apply (x0 : Vec Ideal S2000x192 .f32) (x1 : Vec Ideal S192x64 .f32) (x2 : Vec Ideal S1x64 .f32)
    (a : Fin 2000) (j : Fin 64) :
    k1_pay1 x0 x1 x2 (ix2 a j)
      = max ((∑ k : Fin 192, x0 (ix2 a k) * x1 (ix2 k j)) + x2 (ix2 (0 : Fin 1) j)) 0 := by
  unfold k1_pay1
  simp only [shapeCast_self]
  have hzero : (FloatOps.ofBits (F := Ideal) FTy.f32 0x00000000#32) = (0 : EReal) := Ideal.ofBits_zero_f32
  rw [maximumf_apply, addf_apply, matmul1_apply, broadcastTo_1b_ab_apply, broadcast_apply, hzero]
  simp only [truncf_apply]

/-! ## The tiles' places in the arrays -/

variable (V : (c : Dev nD) → (b : Ref sig .tc) → Buf (Elt Ideal) ((c : Thread nD τ).loc b))

theorem zero_offsets : (![0, 0] : Fin 2 → Nat) = fun _ => 0 := funext fun a => by fin_cases a <;> rfl

/-- Where the four windows' tiles sit at point t, decided over the grid: the tile of X and the
    output tile are tile t along the rows; the weights and the bias are the one tile of their arrays. -/
theorem tile_places : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The array element under entry y of the tile of X at point t. -/
theorem emb_x (t : Fin cfg1.N) (y : S2000x192.Idx) (i : S50000x192.Idx)
    (h0 : (i 0).val = t.val * 2000 + (y 0).val) (h1 : (i 1).val = (y 1).val) :
    ((cfg1.win 0).blk t).view.emb y = i := by
  obtain ⟨e0, e1, -⟩ := tile_places t
  funext ax; apply Fin.ext
  match ax with
  | ⟨0, _⟩ => show win1_0.index t (0 : Fin 2) * 2000 + 1 * (y 0).val = (i 0).val; omega
  | ⟨1, _⟩ => show win1_0.index t (1 : Fin 2) * 192 + 1 * (y 1).val = (i 1).val; omega

/-- The array element under entry y of the weights' tile. -/
theorem emb_w (t : Fin cfg1.N) (y : S192x64.Idx) : ((cfg1.win 1).blk t).view.emb y = y := by
  obtain ⟨-, -, e0, e1, -⟩ := tile_places t
  funext ax; apply Fin.ext
  match ax with
  | ⟨0, _⟩ => show win1_1.index t (0 : Fin 2) * 192 + 1 * (y 0).val = (y 0).val; omega
  | ⟨1, _⟩ => show win1_1.index t (1 : Fin 2) * 64 + 1 * (y 1).val = (y 1).val; omega

/-- The array element under entry y of the bias's tile. -/
theorem emb_b (t : Fin cfg1.N) (y : S1x64.Idx) : ((cfg1.win 2).blk t).view.emb y = y := by
  obtain ⟨-, -, -, -, e0, e1, -⟩ := tile_places t
  funext ax; apply Fin.ext
  match ax with
  | ⟨0, _⟩ => show win1_2.index t (0 : Fin 2) * 1 + 1 * (y 0).val = (y 0).val; omega
  | ⟨1, _⟩ => show win1_2.index t (1 : Fin 2) * 64 + 1 * (y 1).val = (y 1).val; omega

/-- The array element under entry y of the output tile at point t. -/
theorem emb_o (t : Fin cfg1.N) (y : S2000x64.Idx) (i : S50000x64.Idx)
    (h0 : (i 0).val = t.val * 2000 + (y 0).val) (h1 : (i 1).val = (y 1).val) :
    ((cfg1.win 3).blk t).view.emb y = i := by
  obtain ⟨-, -, -, -, -, -, e0, e1⟩ := tile_places t
  funext ax; apply Fin.ext
  match ax with
  | ⟨0, _⟩ => show win1_3.index t (0 : Fin 2) * 2000 + 1 * (y 0).val = (i 0).val; omega
  | ⟨1, _⟩ => show win1_3.index t (1 : Fin 2) * 64 + 1 * (y 1).val = (i 1).val; omega

/-! ## What a point writes back is its tile of the dense map -/

/-- The matrix the region computes, from the three arrays as the region finds them. -/
abbrev G (c : Dev nD) : Cert.Spec.Mat 50000 64 :=
  Cert.Spec.denseRelu (V c (Pipeline.arrRef spec1 0)) (V c (Pipeline.arrRef spec1 1)) (V c (Pipeline.arrRef spec1 2))

/-- What point t writes back is tile t of that matrix. -/
theorem flushed_eq (c : Dev nD) (t : Fin cfg1.N) :
    (dat1 (F := Ideal) V c).flushed 3 t = ((cfg1.win 3).blk t).view.read (Elt Ideal) (G V c) := by
  show (cfg1.win 3).cut (grid1.coords t) ((dat1 V c).after 3 t) = _
  rw [after1_out]
  unfold out1
  rw [View.canon_unit_zero zero_offsets]
  simp only [View.ld_unit_zero (S := S2000x192) zero_offsets, View.ld_unit_zero (S := S192x64) zero_offsets,
    View.ld_unit_zero (S := S1x64) zero_offsets]
  funext y
  obtain ⟨a, j, rfl⟩ : ∃ (a : Fin 2000) (j : Fin 64), y = ix2 a j := ⟨y 0, y 1, eq_ix2 y⟩
  have hN : cfg1.N = 25 := N_1
  have hrow : t.val * 2000 + a.val < 50000 := by have := t.isLt; omega
  -- the row of the arrays under row a of the tiles at point t
  obtain ⟨r, hr⟩ : ∃ r : Fin 50000, r.val = t.val * 2000 + a.val := ⟨⟨_, hrow⟩, rfl⟩
  show k1_pay1 (iblk1 V c 0 t) (iblk1 V c 1 t) (iblk1 V c 2 t) (ix2 a j)
    = G V c (((cfg1.win 3).blk t).view.emb (ix2 a j))
  rw [emb_o t (ix2 a j) (ix2 r j) hr rfl, pay1_apply]
  have hx : ∀ k : Fin 192, iblk1 V c 0 t (ix2 a k)
      = (V c (Pipeline.arrRef spec1 0) : Cert.Spec.Mat 50000 192) (ix2 r k) := fun k => by
    show V c (Pipeline.arrRef spec1 0) (((cfg1.win 0).blk t).view.emb (ix2 a k)) = _
    rw [emb_x t (ix2 a k) (ix2 r k) hr rfl]
  have hw : ∀ k : Fin 192, iblk1 V c 1 t (ix2 k j)
      = (V c (Pipeline.arrRef spec1 1) : Cert.Spec.Mat 192 64) (ix2 k j) := fun k => by
    show V c (Pipeline.arrRef spec1 1) (((cfg1.win 1).blk t).view.emb (ix2 k j)) = _
    rw [emb_w t (ix2 k j)]
  have hb : iblk1 V c 2 t (ix2 (0 : Fin 1) j)
      = (V c (Pipeline.arrRef spec1 2) : Cert.Spec.Mat 1 64) (ix2 (0 : Fin 1) j) := by
    show V c (Pipeline.arrRef spec1 2) (((cfg1.win 2).blk t).view.emb (ix2 (0 : Fin 1) j)) = _
    rw [emb_b t (ix2 (0 : Fin 1) j)]
  rw [hb]
  simp only [hx, hw]
  rfl

/-! ## The tiles cover the array -/

/-- An index of the output array is in point t's tile iff each coordinate is in the tile's range. -/
theorem mem_tile (t : Fin cfg1.N) (i : S50000x64.Idx) :
    i ∈ ((cfg1.win 3).blk t).view.set ↔ ∀ a : Fin 2, win1_3.index t a * S2000x64.size a ≤ (i a).val
      ∧ (i a).val < win1_3.index t a * S2000x64.size a + S2000x64.size a := by
  show i ∈ ((View.whole main_v157).slice (win1_3.rect t)).set ↔ _
  rw [View.set_slice_whole, Rect.mem_set_unit]
  exact Iff.rfl

/-- Row r of the output is in the tile of point r / 2000. -/
theorem cover (i : S50000x64.Idx) :
    ∃ t : Fin cfg1.N, (cfg1.win 3).flush t = true ∧ i ∈ ((cfg1.win 3).blk t).view.set := by
  have hN : cfg1.N = 25 := N_1
  have hi0 : (i 0).val < 50000 := idx2_lt0 i
  have hi1 : (i 1).val < 64 := idx2_lt1 i
  refine ⟨⟨(i 0).val / 2000, by omega⟩, flush1_3 _, ?_⟩
  rw [mem_tile]
  obtain ⟨-, -, -, -, -, -, e0, e1⟩ := tile_places ⟨(i 0).val / 2000, by omega⟩
  intro a
  match a with
  | ⟨0, _⟩ =>
    show win1_3.index _ (0 : Fin 2) * 2000 ≤ (i 0).val ∧ (i 0).val < win1_3.index _ (0 : Fin 2) * 2000 + 2000
    rw [e0]; show (i 0).val / 2000 * 2000 ≤ (i 0).val ∧ (i 0).val < (i 0).val / 2000 * 2000 + 2000; omega
  | ⟨1, _⟩ =>
    show win1_3.index _ (1 : Fin 2) * 64 ≤ (i 1).val ∧ (i 1).val < win1_3.index _ (1 : Fin 2) * 64 + 64
    rw [e1]; omega

end Cert.KernelIdeal.Hand.Val1

namespace Cert.KernelIdeal.Hand

open Cert.KernelIdeal Cert.KernelIdeal.Gen
open Idealize.ShloMosaic Idealize.ShloMosaic.TcCoe Idealize.ShloMosaic.ValueIdx

variable (V : (c : Dev nD) → (b : Ref sig .tc) → Buf (Elt Ideal) ((c : Thread nD τ).loc b))

/-! ## The output array when the region ends -/

/-- The region leaves in its output array the dense map of its three input arrays, clamped below at zero. -/
theorem out_value1 (c : Dev nD) :
    (dat1 (F := Ideal) V c).arrAt 3 cfg1.N
      = Cert.Spec.denseRelu (V c (Pipeline.arrRef spec1 0)) (V c (Pipeline.arrRef spec1 1)) (V c (Pipeline.arrRef spec1 2)) :=
  (dat1 (F := Ideal) V c).arrAt_eq_of_cover 3 (Val1.G V c) (fun t _ => Val1.flushed_eq V c t) Val1.cover

end Cert.KernelIdeal.Hand

end
-- ==== Proof.KI.Val2.lean ====
import proofs.«154750_j39152921870699_1_alg».proof.Proof.KI.Body2
import proofs.«154750_j39152921870699_1_alg».proof.Proof.Spec
import Idealize.ShloMosaic.Lib.Pipeline.Value
import Idealize.ShloMosaic.Lib.ValueLayout
import Idealize.ShloMosaic.PureOps.Ideal.Laws

/-!
# Region 2: the output array as one function of the three input arrays

The region writes, tile by tile, the rows of an output matrix.  The tile at point t is rows
2000·t … 2000·t + 1999; its entry (a, j) is the row a of the tile of X against the column j of W, plus
the bias b(0, j), clamped below at zero.  Row a of the tile of X is row 2000·t + a of X, so the tile is
the block of rows 2000·t … 2000·t + 1999 of the matrix

    (r, j) ↦ max (Σ_c X(r, c) · W(c, j) + b(0, j)) 0

and the one tile covers all 2000 rows: when the region ends the output array is that matrix.
-/

noncomputable section

namespace Cert.KernelIdeal.Hand.Val2

open Cert.KernelIdeal Cert.KernelIdeal.Gen Cert.KernelIdeal.Hand
open Idealize.ShloMosaic Idealize.ShloMosaic.TcCoe Idealize.ShloMosaic.ValueIdx
open Idealize.ShloMosaic.Pipeline (Dat)
open scoped BigOperators

/-! ## The product of a tile by the weights, entry by entry -/

/-- A row coordinate of the left factor at an entry of the product is the entry's row. -/
theorem dot_lhs_row (i : S2000x64.Idx) (q : dot_S2000x128_S128x64_S2000x64_1_0_0_1_n_n.contr.Idx) :
    (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide),
    dif_pos (show (0 : Fin S2000x128.rank) ∈ dot_S2000x128_S128x64_S2000x64_1_0_0_1_n_n.lhsNonContracting by decide)]
  rfl

/-- Its column coordinate is the summation index. -/
theorem dot_lhs_col (i : S2000x64.Idx) (q : dot_S2000x128_S128x64_S2000x64_1_0_0_1_n_n.contr.Idx) :
    (dot_S2000x128_S128x64_S2000x64_1_0_0_1_n_n.lhsIdx i q 1).val = (q ⟨0, by decide⟩).val :=
  dot_S2000x128_S128x64_S2000x64_1_0_0_1_n_n.lhsIdx_val_of_single rfl i q

/-- The right factor's row coordinate is the summation index. -/
theorem dot_rhs_row (i : S2000x64.Idx) (q : dot_S2000x128_S128x64_S2000x64_1_0_0_1_n_n.contr.Idx) :
    (dot_S2000x128_S128x64_S2000x64_1_0_0_1_n_n.rhsIdx i q 0).val = (q ⟨0, by decide⟩).val :=
  dot_S2000x128_S128x64_S2000x64_1_0_0_1_n_n.rhsIdx_val_of_single rfl i q

/-- Its column coordinate is the entry's column. -/
theorem dot_rhs_col (i : S2000x64.Idx) (q : dot_S2000x128_S128x64_S2000x64_1_0_0_1_n_n.contr.Idx) :
    (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide),
    dif_pos (show (1 : Fin S128x64.rank) ∈ dot_S2000x128_S128x64_S2000x64_1_0_0_1_n_n.rhsNonContracting by decide)]
  rfl

/-- The product accumulated onto zero, at entry (a, j): the row a of A against the column j of B. -/
theorem matmul2_apply (A : FVec Ideal S2000x128 .bf16) (B : FVec Ideal S128x64 .bf16) (a : Fin 2000) (j : Fin 64) :
    matmul dot_S2000x128_S128x64_S2000x64_1_0_0_1_n_n none A B (constant (F := Ideal) S2000x64 .f32 0x00000000#32) (ix2 a j)
      = ∑ k : Fin 128, A (ix2 a k) * B (ix2 k j) := by
  simp only [matmul]
  rw [Ideal.matmul_constant_zero_apply,
    ← Equiv.sum_comp (contrEquiv1 dot_S2000x128_S128x64_S2000x64_1_0_0_1_n_n 128 rfl rfl).symm]
  refine Finset.sum_congr rfl fun k _ => ?_
  have hk := contrEquiv1_symm_val dot_S2000x128_S128x64_S2000x64_1_0_0_1_n_n 128 rfl rfl k
  have el : dot_S2000x128_S128x64_S2000x64_1_0_0_1_n_n.lhsIdx (ix2 a j)
      ((contrEquiv1 dot_S2000x128_S128x64_S2000x64_1_0_0_1_n_n 128 rfl rfl).symm k) = ix2 a k :=
    funext fun ax => Fin.ext (by
      match ax with
      | ⟨0, _⟩ => exact dot_lhs_row _ _
      | ⟨1, _⟩ => exact (dot_lhs_col _ _).trans hk)
  have er : dot_S2000x128_S128x64_S2000x64_1_0_0_1_n_n.rhsIdx (ix2 a j)
      ((contrEquiv1 dot_S2000x128_S128x64_S2000x64_1_0_0_1_n_n 128 rfl rfl).symm k) = ix2 k j :=
    funext fun ax => Fin.ext (by
      match ax with
      | ⟨0, _⟩ => exact (dot_rhs_row _ _).trans hk
      | ⟨1, _⟩ => exact dot_rhs_col _ _)
  rw [el, er]

/-- The stored tile at entry (a, j), from the three loaded blocks: the row of the tile of X against the
    column of W, plus the bias, clamped below at zero. -/
theorem pay2_apply (x0 : Vec Ideal S2000x128 .f32) (x1 : Vec Ideal S128x64 .f32) (x2 : Vec Ideal S1x64 .f32)
    (a : Fin 2000) (j : Fin 64) :
    k2_pay1 x0 x1 x2 (ix2 a j)
      = max ((∑ k : Fin 128, x0 (ix2 a k) * x1 (ix2 k j)) + x2 (ix2 (0 : Fin 1) j)) 0 := by
  unfold k2_pay1
  simp only [shapeCast_self]
  have hzero : (FloatOps.ofBits (F := Ideal) FTy.f32 0x00000000#32) = (0 : EReal) := Ideal.ofBits_zero_f32
  rw [maximumf_apply, addf_apply, matmul2_apply, broadcastTo_1b_ab_apply, broadcast_apply, hzero]
  simp only [truncf_apply]

/-! ## The tiles' places in the arrays -/

variable (V : (c : Dev nD) → (b : Ref sig .tc) → Buf (Elt Ideal) ((c : Thread nD τ).loc b))

theorem zero_offsets : (![0, 0] : Fin 2 → Nat) = fun _ => 0 := funext fun a => by fin_cases a <;> rfl

/-- Where the four windows' tiles sit at point t, decided over the grid: the tile of X and the
    output tile are tile t along the rows; the weights and the bias are the one tile of their arrays. -/
theorem tile_places : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The array element under entry y of the tile of X at point t. -/
theorem emb_x (t : Fin cfg2.N) (y : S2000x128.Idx) (i : S2000x128.Idx)
    (h0 : (i 0).val = t.val * 2000 + (y 0).val) (h1 : (i 1).val = (y 1).val) :
    ((cfg2.win 0).blk t).view.emb y = i := by
  obtain ⟨e0, e1, -⟩ := tile_places t
  funext ax; apply Fin.ext
  match ax with
  | ⟨0, _⟩ => show win2_0.index t (0 : Fin 2) * 2000 + 1 * (y 0).val = (i 0).val; omega
  | ⟨1, _⟩ => show win2_0.index t (1 : Fin 2) * 128 + 1 * (y 1).val = (i 1).val; omega

/-- The array element under entry y of the weights' tile. -/
theorem emb_w (t : Fin cfg2.N) (y : S128x64.Idx) : ((cfg2.win 1).blk t).view.emb y = y := by
  obtain ⟨-, -, e0, e1, -⟩ := tile_places t
  funext ax; apply Fin.ext
  match ax with
  | ⟨0, _⟩ => show win2_1.index t (0 : Fin 2) * 128 + 1 * (y 0).val = (y 0).val; omega
  | ⟨1, _⟩ => show win2_1.index t (1 : Fin 2) * 64 + 1 * (y 1).val = (y 1).val; omega

/-- The array element under entry y of the bias's tile. -/
theorem emb_b (t : Fin cfg2.N) (y : S1x64.Idx) : ((cfg2.win 2).blk t).view.emb y = y := by
  obtain ⟨-, -, -, -, e0, e1, -⟩ := tile_places t
  funext ax; apply Fin.ext
  match ax with
  | ⟨0, _⟩ => show win2_2.index t (0 : Fin 2) * 1 + 1 * (y 0).val = (y 0).val; omega
  | ⟨1, _⟩ => show win2_2.index t (1 : Fin 2) * 64 + 1 * (y 1).val = (y 1).val; omega

/-- The array element under entry y of the output tile at point t. -/
theorem emb_o (t : Fin cfg2.N) (y : S2000x64.Idx) (i : S2000x64.Idx)
    (h0 : (i 0).val = t.val * 2000 + (y 0).val) (h1 : (i 1).val = (y 1).val) :
    ((cfg2.win 3).blk t).view.emb y = i := by
  obtain ⟨-, -, -, -, -, -, e0, e1⟩ := tile_places t
  funext ax; apply Fin.ext
  match ax with
  | ⟨0, _⟩ => show win2_3.index t (0 : Fin 2) * 2000 + 1 * (y 0).val = (i 0).val; omega
  | ⟨1, _⟩ => show win2_3.index t (1 : Fin 2) * 64 + 1 * (y 1).val = (i 1).val; omega

/-! ## What a point writes back is its tile of the dense map -/

/-- The matrix the region computes, from the three arrays as the region finds them. -/
abbrev G (c : Dev nD) : Cert.Spec.Mat 2000 64 :=
  Cert.Spec.denseRelu (V c (Pipeline.arrRef spec2 0)) (V c (Pipeline.arrRef spec2 1)) (V c (Pipeline.arrRef spec2 2))

/-- What point t writes back is tile t of that matrix. -/
theorem flushed_eq (c : Dev nD) (t : Fin cfg2.N) :
    (dat2 (F := Ideal) V c).flushed 3 t = ((cfg2.win 3).blk t).view.read (Elt Ideal) (G V c) := by
  show (cfg2.win 3).cut (grid2.coords t) ((dat2 V c).after 3 t) = _
  rw [after2_out]
  unfold out2
  rw [View.canon_unit_zero zero_offsets]
  simp only [View.ld_unit_zero (S := S2000x128) zero_offsets, View.ld_unit_zero (S := S128x64) zero_offsets,
    View.ld_unit_zero (S := S1x64) zero_offsets]
  funext y
  obtain ⟨a, j, rfl⟩ : ∃ (a : Fin 2000) (j : Fin 64), y = ix2 a j := ⟨y 0, y 1, eq_ix2 y⟩
  have hN : cfg2.N = 1 := N_2
  have hrow : t.val * 2000 + a.val < 2000 := by have := t.isLt; omega
  -- the row of the arrays under row a of the tiles at point t
  obtain ⟨r, hr⟩ : ∃ r : Fin 2000, r.val = t.val * 2000 + a.val := ⟨⟨_, hrow⟩, rfl⟩
  show k2_pay1 (iblk2 V c 0 t) (iblk2 V c 1 t) (iblk2 V c 2 t) (ix2 a j)
    = G V c (((cfg2.win 3).blk t).view.emb (ix2 a j))
  rw [emb_o t (ix2 a j) (ix2 r j) hr rfl, pay2_apply]
  have hx : ∀ k : Fin 128, iblk2 V c 0 t (ix2 a k)
      = (V c (Pipeline.arrRef spec2 0) : Cert.Spec.Mat 2000 128) (ix2 r k) := fun k => by
    show V c (Pipeline.arrRef spec2 0) (((cfg2.win 0).blk t).view.emb (ix2 a k)) = _
    rw [emb_x t (ix2 a k) (ix2 r k) hr rfl]
  have hw : ∀ k : Fin 128, iblk2 V c 1 t (ix2 k j)
      = (V c (Pipeline.arrRef spec2 1) : Cert.Spec.Mat 128 64) (ix2 k j) := fun k => by
    show V c (Pipeline.arrRef spec2 1) (((cfg2.win 1).blk t).view.emb (ix2 k j)) = _
    rw [emb_w t (ix2 k j)]
  have hb : iblk2 V c 2 t (ix2 (0 : Fin 1) j)
      = (V c (Pipeline.arrRef spec2 2) : Cert.Spec.Mat 1 64) (ix2 (0 : Fin 1) j) := by
    show V c (Pipeline.arrRef spec2 2) (((cfg2.win 2).blk t).view.emb (ix2 (0 : Fin 1) j)) = _
    rw [emb_b t (ix2 (0 : Fin 1) j)]
  rw [hb]
  simp only [hx, hw]
  rfl

/-! ## The tiles cover the array -/

/-- An index of the output array is in point t's tile iff each coordinate is in the tile's range. -/
theorem mem_tile (t : Fin cfg2.N) (i : S2000x64.Idx) :
    i ∈ ((cfg2.win 3).blk t).view.set ↔ ∀ a : Fin 2, win2_3.index t a * S2000x64.size a ≤ (i a).val
      ∧ (i a).val < win2_3.index t a * S2000x64.size a + S2000x64.size a := by
  show i ∈ ((View.whole main_v171).slice (win2_3.rect t)).set ↔ _
  rw [View.set_slice_whole, Rect.mem_set_unit]
  exact Iff.rfl

/-- Row r of the output is in the tile of point r / 2000. -/
theorem cover (i : S2000x64.Idx) :
    ∃ t : Fin cfg2.N, (cfg2.win 3).flush t = true ∧ i ∈ ((cfg2.win 3).blk t).view.set := by
  have hN : cfg2.N = 1 := N_2
  have hi0 : (i 0).val < 2000 := idx2_lt0 i
  have hi1 : (i 1).val < 64 := idx2_lt1 i
  refine ⟨⟨(i 0).val / 2000, by omega⟩, flush2_3 _, ?_⟩
  rw [mem_tile]
  obtain ⟨-, -, -, -, -, -, e0, e1⟩ := tile_places ⟨(i 0).val / 2000, by omega⟩
  intro a
  match a with
  | ⟨0, _⟩ =>
    show win2_3.index _ (0 : Fin 2) * 2000 ≤ (i 0).val ∧ (i 0).val < win2_3.index _ (0 : Fin 2) * 2000 + 2000
    rw [e0]; show (i 0).val / 2000 * 2000 ≤ (i 0).val ∧ (i 0).val < (i 0).val / 2000 * 2000 + 2000; omega
  | ⟨1, _⟩ =>
    show win2_3.index _ (1 : Fin 2) * 64 ≤ (i 1).val ∧ (i 1).val < win2_3.index _ (1 : Fin 2) * 64 + 64
    rw [e1]; omega

end Cert.KernelIdeal.Hand.Val2

namespace Cert.KernelIdeal.Hand

open Cert.KernelIdeal Cert.KernelIdeal.Gen
open Idealize.ShloMosaic Idealize.ShloMosaic.TcCoe Idealize.ShloMosaic.ValueIdx

variable (V : (c : Dev nD) → (b : Ref sig .tc) → Buf (Elt Ideal) ((c : Thread nD τ).loc b))

/-! ## The output array when the region ends -/

/-- The region leaves in its output array the dense map of its three input arrays, clamped below at zero. -/
theorem out_value2 (c : Dev nD) :
    (dat2 (F := Ideal) V c).arrAt 3 cfg2.N
      = Cert.Spec.denseRelu (V c (Pipeline.arrRef spec2 0)) (V c (Pipeline.arrRef spec2 1)) (V c (Pipeline.arrRef spec2 2)) :=
  (dat2 (F := Ideal) V c).arrAt_eq_of_cover 3 (Val2.G V c) (fun t _ => Val2.flushed_eq V c t) Val2.cover

end Cert.KernelIdeal.Hand

end
-- ==== Proof.KI.Val3.lean ====
import proofs.«154750_j39152921870699_1_alg».proof.Proof.KI.Body3
import proofs.«154750_j39152921870699_1_alg».proof.Proof.Spec
import Idealize.ShloMosaic.Lib.Pipeline.Value
import Idealize.ShloMosaic.Lib.ValueLayout
import Idealize.ShloMosaic.PureOps.Ideal.Laws

/-!
# Region 3: the output array as one function of the three input arrays

The region writes, tile by tile, the rows of an output matrix.  The tile at point t is rows
1000·t … 1000·t + 999; its entry (a, j) is the row a of the tile of X against the column j of W, plus
the bias b(0, j), clamped below at zero.  Row a of the tile of X is row 1000·t + a of X, so the tile is
the block of rows 1000·t … 1000·t + 999 of the matrix

    (r, j) ↦ max (Σ_c X(r, c) · W(c, j) + b(0, j)) 0

and the 5 tiles cover all 5000 rows: when the region ends the output array is that matrix.
-/

noncomputable section

namespace Cert.KernelIdeal.Hand.Val3

open Cert.KernelIdeal Cert.KernelIdeal.Gen Cert.KernelIdeal.Hand
open Idealize.ShloMosaic Idealize.ShloMosaic.TcCoe Idealize.ShloMosaic.ValueIdx
open Idealize.ShloMosaic.Pipeline (Dat)
open scoped BigOperators

/-! ## The product of a tile by the weights, entry by entry -/

/-- A row coordinate of the left factor at an entry of the product is the entry's row. -/
theorem dot_lhs_row (i : S1000x64.Idx) (q : dot_S1000x128_S128x64_S1000x64_1_0_0_1_n_n.contr.Idx) :
    (dot_S1000x128_S128x64_S1000x64_1_0_0_1_n_n.lhsIdx i q 0).val = (i 0).val := by
  unfold DotDims.lhsIdx
  rw [dif_neg (show ¬(0 : Fin S1000x128.rank) ∈ dot_S1000x128_S128x64_S1000x64_1_0_0_1_n_n.lhsBatch by decide),
    dif_pos (show (0 : Fin S1000x128.rank) ∈ dot_S1000x128_S128x64_S1000x64_1_0_0_1_n_n.lhsNonContracting by decide)]
  rfl

/-- Its column coordinate is the summation index. -/
theorem dot_lhs_col (i : S1000x64.Idx) (q : dot_S1000x128_S128x64_S1000x64_1_0_0_1_n_n.contr.Idx) :
    (dot_S1000x128_S128x64_S1000x64_1_0_0_1_n_n.lhsIdx i q 1).val = (q ⟨0, by decide⟩).val :=
  dot_S1000x128_S128x64_S1000x64_1_0_0_1_n_n.lhsIdx_val_of_single rfl i q

/-- The right factor's row coordinate is the summation index. -/
theorem dot_rhs_row (i : S1000x64.Idx) (q : dot_S1000x128_S128x64_S1000x64_1_0_0_1_n_n.contr.Idx) :
    (dot_S1000x128_S128x64_S1000x64_1_0_0_1_n_n.rhsIdx i q 0).val = (q ⟨0, by decide⟩).val :=
  dot_S1000x128_S128x64_S1000x64_1_0_0_1_n_n.rhsIdx_val_of_single rfl i q

/-- Its column coordinate is the entry's column. -/
theorem dot_rhs_col (i : S1000x64.Idx) (q : dot_S1000x128_S128x64_S1000x64_1_0_0_1_n_n.contr.Idx) :
    (dot_S1000x128_S128x64_S1000x64_1_0_0_1_n_n.rhsIdx i q 1).val = (i 1).val := by
  unfold DotDims.rhsIdx
  rw [dif_neg (show ¬(1 : Fin S128x64.rank) ∈ dot_S1000x128_S128x64_S1000x64_1_0_0_1_n_n.rhsBatch by decide),
    dif_pos (show (1 : Fin S128x64.rank) ∈ dot_S1000x128_S128x64_S1000x64_1_0_0_1_n_n.rhsNonContracting by decide)]
  rfl

/-- The product accumulated onto zero, at entry (a, j): the row a of A against the column j of B. -/
theorem matmul3_apply (A : FVec Ideal S1000x128 .bf16) (B : FVec Ideal S128x64 .bf16) (a : Fin 1000) (j : Fin 64) :
    matmul dot_S1000x128_S128x64_S1000x64_1_0_0_1_n_n none A B (constant (F := Ideal) S1000x64 .f32 0x00000000#32) (ix2 a j)
      = ∑ k : Fin 128, A (ix2 a k) * B (ix2 k j) := by
  simp only [matmul]
  rw [Ideal.matmul_constant_zero_apply,
    ← Equiv.sum_comp (contrEquiv1 dot_S1000x128_S128x64_S1000x64_1_0_0_1_n_n 128 rfl rfl).symm]
  refine Finset.sum_congr rfl fun k _ => ?_
  have hk := contrEquiv1_symm_val dot_S1000x128_S128x64_S1000x64_1_0_0_1_n_n 128 rfl rfl k
  have el : dot_S1000x128_S128x64_S1000x64_1_0_0_1_n_n.lhsIdx (ix2 a j)
      ((contrEquiv1 dot_S1000x128_S128x64_S1000x64_1_0_0_1_n_n 128 rfl rfl).symm k) = ix2 a k :=
    funext fun ax => Fin.ext (by
      match ax with
      | ⟨0, _⟩ => exact dot_lhs_row _ _
      | ⟨1, _⟩ => exact (dot_lhs_col _ _).trans hk)
  have er : dot_S1000x128_S128x64_S1000x64_1_0_0_1_n_n.rhsIdx (ix2 a j)
      ((contrEquiv1 dot_S1000x128_S128x64_S1000x64_1_0_0_1_n_n 128 rfl rfl).symm k) = ix2 k j :=
    funext fun ax => Fin.ext (by
      match ax with
      | ⟨0, _⟩ => exact (dot_rhs_row _ _).trans hk
      | ⟨1, _⟩ => exact dot_rhs_col _ _)
  rw [el, er]

/-- The stored tile at entry (a, j), from the three loaded blocks: the row of the tile of X against the
    column of W, plus the bias, clamped below at zero. -/
theorem pay3_apply (x0 : Vec Ideal S1000x128 .f32) (x1 : Vec Ideal S128x64 .f32) (x2 : Vec Ideal S1x64 .f32)
    (a : Fin 1000) (j : Fin 64) :
    k3_pay1 x0 x1 x2 (ix2 a j)
      = max ((∑ k : Fin 128, x0 (ix2 a k) * x1 (ix2 k j)) + x2 (ix2 (0 : Fin 1) j)) 0 := by
  unfold k3_pay1
  simp only [shapeCast_self]
  have hzero : (FloatOps.ofBits (F := Ideal) FTy.f32 0x00000000#32) = (0 : EReal) := Ideal.ofBits_zero_f32
  rw [maximumf_apply, addf_apply, matmul3_apply, broadcastTo_1b_ab_apply, broadcast_apply, hzero]
  simp only [truncf_apply]

/-! ## The tiles' places in the arrays -/

variable (V : (c : Dev nD) → (b : Ref sig .tc) → Buf (Elt Ideal) ((c : Thread nD τ).loc b))

theorem zero_offsets : (![0, 0] : Fin 2 → Nat) = fun _ => 0 := funext fun a => by fin_cases a <;> rfl

/-- Where the four windows' tiles sit at point t, decided over the grid: the tile of X and the
    output tile are tile t along the rows; the weights and the bias are the one tile of their arrays. -/
theorem tile_places : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The array element under entry y of the tile of X at point t. -/
theorem emb_x (t : Fin cfg3.N) (y : S1000x128.Idx) (i : S5000x128.Idx)
    (h0 : (i 0).val = t.val * 1000 + (y 0).val) (h1 : (i 1).val = (y 1).val) :
    ((cfg3.win 0).blk t).view.emb y = i := by
  obtain ⟨e0, e1, -⟩ := tile_places t
  funext ax; apply Fin.ext
  match ax with
  | ⟨0, _⟩ => show win3_0.index t (0 : Fin 2) * 1000 + 1 * (y 0).val = (i 0).val; omega
  | ⟨1, _⟩ => show win3_0.index t (1 : Fin 2) * 128 + 1 * (y 1).val = (i 1).val; omega

/-- The array element under entry y of the weights' tile. -/
theorem emb_w (t : Fin cfg3.N) (y : S128x64.Idx) : ((cfg3.win 1).blk t).view.emb y = y := by
  obtain ⟨-, -, e0, e1, -⟩ := tile_places t
  funext ax; apply Fin.ext
  match ax with
  | ⟨0, _⟩ => show win3_1.index t (0 : Fin 2) * 128 + 1 * (y 0).val = (y 0).val; omega
  | ⟨1, _⟩ => show win3_1.index t (1 : Fin 2) * 64 + 1 * (y 1).val = (y 1).val; omega

/-- The array element under entry y of the bias's tile. -/
theorem emb_b (t : Fin cfg3.N) (y : S1x64.Idx) : ((cfg3.win 2).blk t).view.emb y = y := by
  obtain ⟨-, -, -, -, e0, e1, -⟩ := tile_places t
  funext ax; apply Fin.ext
  match ax with
  | ⟨0, _⟩ => show win3_2.index t (0 : Fin 2) * 1 + 1 * (y 0).val = (y 0).val; omega
  | ⟨1, _⟩ => show win3_2.index t (1 : Fin 2) * 64 + 1 * (y 1).val = (y 1).val; omega

/-- The array element under entry y of the output tile at point t. -/
theorem emb_o (t : Fin cfg3.N) (y : S1000x64.Idx) (i : S5000x64.Idx)
    (h0 : (i 0).val = t.val * 1000 + (y 0).val) (h1 : (i 1).val = (y 1).val) :
    ((cfg3.win 3).blk t).view.emb y = i := by
  obtain ⟨-, -, -, -, -, -, e0, e1⟩ := tile_places t
  funext ax; apply Fin.ext
  match ax with
  | ⟨0, _⟩ => show win3_3.index t (0 : Fin 2) * 1000 + 1 * (y 0).val = (i 0).val; omega
  | ⟨1, _⟩ => show win3_3.index t (1 : Fin 2) * 64 + 1 * (y 1).val = (i 1).val; omega

/-! ## What a point writes back is its tile of the dense map -/

/-- The matrix the region computes, from the three arrays as the region finds them. -/
abbrev G (c : Dev nD) : Cert.Spec.Mat 5000 64 :=
  Cert.Spec.denseRelu (V c (Pipeline.arrRef spec3 0)) (V c (Pipeline.arrRef spec3 1)) (V c (Pipeline.arrRef spec3 2))

/-- What point t writes back is tile t of that matrix. -/
theorem flushed_eq (c : Dev nD) (t : Fin cfg3.N) :
    (dat3 (F := Ideal) V c).flushed 3 t = ((cfg3.win 3).blk t).view.read (Elt Ideal) (G V c) := by
  show (cfg3.win 3).cut (grid3.coords t) ((dat3 V c).after 3 t) = _
  rw [after3_out]
  unfold out3
  rw [View.canon_unit_zero zero_offsets]
  simp only [View.ld_unit_zero (S := S1000x128) zero_offsets, View.ld_unit_zero (S := S128x64) zero_offsets,
    View.ld_unit_zero (S := S1x64) zero_offsets]
  funext y
  obtain ⟨a, j, rfl⟩ : ∃ (a : Fin 1000) (j : Fin 64), y = ix2 a j := ⟨y 0, y 1, eq_ix2 y⟩
  have hN : cfg3.N = 5 := N_3
  have hrow : t.val * 1000 + a.val < 5000 := by have := t.isLt; omega
  -- the row of the arrays under row a of the tiles at point t
  obtain ⟨r, hr⟩ : ∃ r : Fin 5000, r.val = t.val * 1000 + a.val := ⟨⟨_, hrow⟩, rfl⟩
  show k3_pay1 (iblk3 V c 0 t) (iblk3 V c 1 t) (iblk3 V c 2 t) (ix2 a j)
    = G V c (((cfg3.win 3).blk t).view.emb (ix2 a j))
  rw [emb_o t (ix2 a j) (ix2 r j) hr rfl, pay3_apply]
  have hx : ∀ k : Fin 128, iblk3 V c 0 t (ix2 a k)
      = (V c (Pipeline.arrRef spec3 0) : Cert.Spec.Mat 5000 128) (ix2 r k) := fun k => by
    show V c (Pipeline.arrRef spec3 0) (((cfg3.win 0).blk t).view.emb (ix2 a k)) = _
    rw [emb_x t (ix2 a k) (ix2 r k) hr rfl]
  have hw : ∀ k : Fin 128, iblk3 V c 1 t (ix2 k j)
      = (V c (Pipeline.arrRef spec3 1) : Cert.Spec.Mat 128 64) (ix2 k j) := fun k => by
    show V c (Pipeline.arrRef spec3 1) (((cfg3.win 1).blk t).view.emb (ix2 k j)) = _
    rw [emb_w t (ix2 k j)]
  have hb : iblk3 V c 2 t (ix2 (0 : Fin 1) j)
      = (V c (Pipeline.arrRef spec3 2) : Cert.Spec.Mat 1 64) (ix2 (0 : Fin 1) j) := by
    show V c (Pipeline.arrRef spec3 2) (((cfg3.win 2).blk t).view.emb (ix2 (0 : Fin 1) j)) = _
    rw [emb_b t (ix2 (0 : Fin 1) j)]
  rw [hb]
  simp only [hx, hw]
  rfl

/-! ## The tiles cover the array -/

/-- An index of the output array is in point t's tile iff each coordinate is in the tile's range. -/
theorem mem_tile (t : Fin cfg3.N) (i : S5000x64.Idx) :
    i ∈ ((cfg3.win 3).blk t).view.set ↔ ∀ a : Fin 2, win3_3.index t a * S1000x64.size a ≤ (i a).val
      ∧ (i a).val < win3_3.index t a * S1000x64.size a + S1000x64.size a := by
  show i ∈ ((View.whole main_v185).slice (win3_3.rect t)).set ↔ _
  rw [View.set_slice_whole, Rect.mem_set_unit]
  exact Iff.rfl

/-- Row r of the output is in the tile of point r / 1000. -/
theorem cover (i : S5000x64.Idx) :
    ∃ t : Fin cfg3.N, (cfg3.win 3).flush t = true ∧ i ∈ ((cfg3.win 3).blk t).view.set := by
  have hN : cfg3.N = 5 := N_3
  have hi0 : (i 0).val < 5000 := idx2_lt0 i
  have hi1 : (i 1).val < 64 := idx2_lt1 i
  refine ⟨⟨(i 0).val / 1000, by omega⟩, flush3_3 _, ?_⟩
  rw [mem_tile]
  obtain ⟨-, -, -, -, -, -, e0, e1⟩ := tile_places ⟨(i 0).val / 1000, by omega⟩
  intro a
  match a with
  | ⟨0, _⟩ =>
    show win3_3.index _ (0 : Fin 2) * 1000 ≤ (i 0).val ∧ (i 0).val < win3_3.index _ (0 : Fin 2) * 1000 + 1000
    rw [e0]; show (i 0).val / 1000 * 1000 ≤ (i 0).val ∧ (i 0).val < (i 0).val / 1000 * 1000 + 1000; omega
  | ⟨1, _⟩ =>
    show win3_3.index _ (1 : Fin 2) * 64 ≤ (i 1).val ∧ (i 1).val < win3_3.index _ (1 : Fin 2) * 64 + 64
    rw [e1]; omega

end Cert.KernelIdeal.Hand.Val3

namespace Cert.KernelIdeal.Hand

open Cert.KernelIdeal Cert.KernelIdeal.Gen
open Idealize.ShloMosaic Idealize.ShloMosaic.TcCoe Idealize.ShloMosaic.ValueIdx

variable (V : (c : Dev nD) → (b : Ref sig .tc) → Buf (Elt Ideal) ((c : Thread nD τ).loc b))

/-! ## The output array when the region ends -/

/-- The region leaves in its output array the dense map of its three input arrays, clamped below at zero. -/
theorem out_value3 (c : Dev nD) :
    (dat3 (F := Ideal) V c).arrAt 3 cfg3.N
      = Cert.Spec.denseRelu (V c (Pipeline.arrRef spec3 0)) (V c (Pipeline.arrRef spec3 1)) (V c (Pipeline.arrRef spec3 2)) :=
  (dat3 (F := Ideal) V c).arrAt_eq_of_cover 3 (Val3.G V c) (fun t _ => Val3.flushed_eq V c t) Val3.cover

end Cert.KernelIdeal.Hand

end
-- ==== Proof.KI.Val4.lean ====
import proofs.«154750_j39152921870699_1_alg».proof.Proof.KI.Body4
import proofs.«154750_j39152921870699_1_alg».proof.Proof.Spec
import Idealize.ShloMosaic.Lib.Pipeline.Value
import Idealize.ShloMosaic.Lib.ValueLayout
import Idealize.ShloMosaic.PureOps.Ideal.Laws

/-!
# Region 4: the output array as one function of the three input arrays

The region writes, tile by tile, the rows of an output matrix.  The tile at point t is rows
2000·t … 2000·t + 1999; its entry (a, j) is the row a of the tile of X against the column j of W, plus
the bias b(0, j).  Row a of the tile of X is row 2000·t + a of X, so the tile is
the block of rows 2000·t … 2000·t + 1999 of the matrix

    (r, j) ↦ Σ_c X(r, c) · W(c, j) + b(0, j)

and the 50 tiles cover all 100000 rows: when the region ends the output array is that matrix.
-/

noncomputable section

namespace Cert.KernelIdeal.Hand.Val4

open Cert.KernelIdeal Cert.KernelIdeal.Gen Cert.KernelIdeal.Hand
open Idealize.ShloMosaic Idealize.ShloMosaic.TcCoe Idealize.ShloMosaic.ValueIdx
open Idealize.ShloMosaic.Pipeline (Dat)
open scoped BigOperators

/-! ## The product of a tile by the weights, entry by entry -/

/-- A row coordinate of the left factor at an entry of the product is the entry's row. -/
theorem dot_lhs_row (i : S2000x64.Idx) (q : dot_S2000x192_S192x64_S2000x64_1_0_0_1_n_n.contr.Idx) :
    (dot_S2000x192_S192x64_S2000x64_1_0_0_1_n_n.lhsIdx i q 0).val = (i 0).val := by
  unfold DotDims.lhsIdx
  rw [dif_neg (show ¬(0 : Fin S2000x192.rank) ∈ dot_S2000x192_S192x64_S2000x64_1_0_0_1_n_n.lhsBatch by decide),
    dif_pos (show (0 : Fin S2000x192.rank) ∈ dot_S2000x192_S192x64_S2000x64_1_0_0_1_n_n.lhsNonContracting by decide)]
  rfl

/-- Its column coordinate is the summation index. -/
theorem dot_lhs_col (i : S2000x64.Idx) (q : dot_S2000x192_S192x64_S2000x64_1_0_0_1_n_n.contr.Idx) :
    (dot_S2000x192_S192x64_S2000x64_1_0_0_1_n_n.lhsIdx i q 1).val = (q ⟨0, by decide⟩).val :=
  dot_S2000x192_S192x64_S2000x64_1_0_0_1_n_n.lhsIdx_val_of_single rfl i q

/-- The right factor's row coordinate is the summation index. -/
theorem dot_rhs_row (i : S2000x64.Idx) (q : dot_S2000x192_S192x64_S2000x64_1_0_0_1_n_n.contr.Idx) :
    (dot_S2000x192_S192x64_S2000x64_1_0_0_1_n_n.rhsIdx i q 0).val = (q ⟨0, by decide⟩).val :=
  dot_S2000x192_S192x64_S2000x64_1_0_0_1_n_n.rhsIdx_val_of_single rfl i q

/-- Its column coordinate is the entry's column. -/
theorem dot_rhs_col (i : S2000x64.Idx) (q : dot_S2000x192_S192x64_S2000x64_1_0_0_1_n_n.contr.Idx) :
    (dot_S2000x192_S192x64_S2000x64_1_0_0_1_n_n.rhsIdx i q 1).val = (i 1).val := by
  unfold DotDims.rhsIdx
  rw [dif_neg (show ¬(1 : Fin S192x64.rank) ∈ dot_S2000x192_S192x64_S2000x64_1_0_0_1_n_n.rhsBatch by decide),
    dif_pos (show (1 : Fin S192x64.rank) ∈ dot_S2000x192_S192x64_S2000x64_1_0_0_1_n_n.rhsNonContracting by decide)]
  rfl

/-- The product accumulated onto zero, at entry (a, j): the row a of A against the column j of B. -/
theorem matmul4_apply (A : FVec Ideal S2000x192 .bf16) (B : FVec Ideal S192x64 .bf16) (a : Fin 2000) (j : Fin 64) :
    matmul dot_S2000x192_S192x64_S2000x64_1_0_0_1_n_n none A B (constant (F := Ideal) S2000x64 .f32 0x00000000#32) (ix2 a j)
      = ∑ k : Fin 192, A (ix2 a k) * B (ix2 k j) := by
  simp only [matmul]
  rw [Ideal.matmul_constant_zero_apply,
    ← Equiv.sum_comp (contrEquiv1 dot_S2000x192_S192x64_S2000x64_1_0_0_1_n_n 192 rfl rfl).symm]
  refine Finset.sum_congr rfl fun k _ => ?_
  have hk := contrEquiv1_symm_val dot_S2000x192_S192x64_S2000x64_1_0_0_1_n_n 192 rfl rfl k
  have el : dot_S2000x192_S192x64_S2000x64_1_0_0_1_n_n.lhsIdx (ix2 a j)
      ((contrEquiv1 dot_S2000x192_S192x64_S2000x64_1_0_0_1_n_n 192 rfl rfl).symm k) = ix2 a k :=
    funext fun ax => Fin.ext (by
      match ax with
      | ⟨0, _⟩ => exact dot_lhs_row _ _
      | ⟨1, _⟩ => exact (dot_lhs_col _ _).trans hk)
  have er : dot_S2000x192_S192x64_S2000x64_1_0_0_1_n_n.rhsIdx (ix2 a j)
      ((contrEquiv1 dot_S2000x192_S192x64_S2000x64_1_0_0_1_n_n 192 rfl rfl).symm k) = ix2 k j :=
    funext fun ax => Fin.ext (by
      match ax with
      | ⟨0, _⟩ => exact (dot_rhs_row _ _).trans hk
      | ⟨1, _⟩ => exact dot_rhs_col _ _)
  rw [el, er]

/-- The stored tile at entry (a, j), from the three loaded blocks: the row of the tile of X against the
    column of W, plus the bias. -/
theorem pay4_apply (x0 : Vec Ideal S2000x192 .f32) (x1 : Vec Ideal S192x64 .f32) (x2 : Vec Ideal S1x64 .f32)
    (a : Fin 2000) (j : Fin 64) :
    k4_pay1 x0 x1 x2 (ix2 a j)
      = (∑ k : Fin 192, x0 (ix2 a k) * x1 (ix2 k j)) + x2 (ix2 (0 : Fin 1) j) := by
  unfold k4_pay1
  simp only [shapeCast_self]
  rw [addf_apply, matmul4_apply, broadcastTo_1b_ab_apply]
  simp only [truncf_apply]

/-! ## The tiles' places in the arrays -/

variable (V : (c : Dev nD) → (b : Ref sig .tc) → Buf (Elt Ideal) ((c : Thread nD τ).loc b))

theorem zero_offsets : (![0, 0] : Fin 2 → Nat) = fun _ => 0 := funext fun a => by fin_cases a <;> rfl

/-- Where the four windows' tiles sit at point t, decided over the grid: the tile of X and the
    output tile are tile t along the rows; the weights and the bias are the one tile of their arrays. -/
theorem tile_places : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The array element under entry y of the tile of X at point t. -/
theorem emb_x (t : Fin cfg4.N) (y : S2000x192.Idx) (i : S100000x192.Idx)
    (h0 : (i 0).val = t.val * 2000 + (y 0).val) (h1 : (i 1).val = (y 1).val) :
    ((cfg4.win 0).blk t).view.emb y = i := by
  obtain ⟨e0, e1, -⟩ := tile_places t
  funext ax; apply Fin.ext
  match ax with
  | ⟨0, _⟩ => show win4_0.index t (0 : Fin 2) * 2000 + 1 * (y 0).val = (i 0).val; omega
  | ⟨1, _⟩ => show win4_0.index t (1 : Fin 2) * 192 + 1 * (y 1).val = (i 1).val; omega

/-- The array element under entry y of the weights' tile. -/
theorem emb_w (t : Fin cfg4.N) (y : S192x64.Idx) : ((cfg4.win 1).blk t).view.emb y = y := by
  obtain ⟨-, -, e0, e1, -⟩ := tile_places t
  funext ax; apply Fin.ext
  match ax with
  | ⟨0, _⟩ => show win4_1.index t (0 : Fin 2) * 192 + 1 * (y 0).val = (y 0).val; omega
  | ⟨1, _⟩ => show win4_1.index t (1 : Fin 2) * 64 + 1 * (y 1).val = (y 1).val; omega

/-- The array element under entry y of the bias's tile. -/
theorem emb_b (t : Fin cfg4.N) (y : S1x64.Idx) : ((cfg4.win 2).blk t).view.emb y = y := by
  obtain ⟨-, -, -, -, e0, e1, -⟩ := tile_places t
  funext ax; apply Fin.ext
  match ax with
  | ⟨0, _⟩ => show win4_2.index t (0 : Fin 2) * 1 + 1 * (y 0).val = (y 0).val; omega
  | ⟨1, _⟩ => show win4_2.index t (1 : Fin 2) * 64 + 1 * (y 1).val = (y 1).val; omega

/-- The array element under entry y of the output tile at point t. -/
theorem emb_o (t : Fin cfg4.N) (y : S2000x64.Idx) (i : S100000x64.Idx)
    (h0 : (i 0).val = t.val * 2000 + (y 0).val) (h1 : (i 1).val = (y 1).val) :
    ((cfg4.win 3).blk t).view.emb y = i := by
  obtain ⟨-, -, -, -, -, -, e0, e1⟩ := tile_places t
  funext ax; apply Fin.ext
  match ax with
  | ⟨0, _⟩ => show win4_3.index t (0 : Fin 2) * 2000 + 1 * (y 0).val = (i 0).val; omega
  | ⟨1, _⟩ => show win4_3.index t (1 : Fin 2) * 64 + 1 * (y 1).val = (i 1).val; omega

/-! ## What a point writes back is its tile of the dense map -/

/-- The matrix the region computes, from the three arrays as the region finds them. -/
abbrev G (c : Dev nD) : Cert.Spec.Mat 100000 64 :=
  Cert.Spec.dense (V c (Pipeline.arrRef spec4 0)) (V c (Pipeline.arrRef spec4 1)) (V c (Pipeline.arrRef spec4 2))

/-- What point t writes back is tile t of that matrix. -/
theorem flushed_eq (c : Dev nD) (t : Fin cfg4.N) :
    (dat4 (F := Ideal) V c).flushed 3 t = ((cfg4.win 3).blk t).view.read (Elt Ideal) (G V c) := by
  show (cfg4.win 3).cut (grid4.coords t) ((dat4 V c).after 3 t) = _
  rw [after4_out]
  unfold out4
  rw [View.canon_unit_zero zero_offsets]
  simp only [View.ld_unit_zero (S := S2000x192) zero_offsets, View.ld_unit_zero (S := S192x64) zero_offsets,
    View.ld_unit_zero (S := S1x64) zero_offsets]
  funext y
  obtain ⟨a, j, rfl⟩ : ∃ (a : Fin 2000) (j : Fin 64), y = ix2 a j := ⟨y 0, y 1, eq_ix2 y⟩
  have hN : cfg4.N = 50 := N_4
  have hrow : t.val * 2000 + a.val < 100000 := by have := t.isLt; omega
  -- the row of the arrays under row a of the tiles at point t
  obtain ⟨r, hr⟩ : ∃ r : Fin 100000, r.val = t.val * 2000 + a.val := ⟨⟨_, hrow⟩, rfl⟩
  show k4_pay1 (iblk4 V c 0 t) (iblk4 V c 1 t) (iblk4 V c 2 t) (ix2 a j)
    = G V c (((cfg4.win 3).blk t).view.emb (ix2 a j))
  rw [emb_o t (ix2 a j) (ix2 r j) hr rfl, pay4_apply]
  have hx : ∀ k : Fin 192, iblk4 V c 0 t (ix2 a k)
      = (V c (Pipeline.arrRef spec4 0) : Cert.Spec.Mat 100000 192) (ix2 r k) := fun k => by
    show V c (Pipeline.arrRef spec4 0) (((cfg4.win 0).blk t).view.emb (ix2 a k)) = _
    rw [emb_x t (ix2 a k) (ix2 r k) hr rfl]
  have hw : ∀ k : Fin 192, iblk4 V c 1 t (ix2 k j)
      = (V c (Pipeline.arrRef spec4 1) : Cert.Spec.Mat 192 64) (ix2 k j) := fun k => by
    show V c (Pipeline.arrRef spec4 1) (((cfg4.win 1).blk t).view.emb (ix2 k j)) = _
    rw [emb_w t (ix2 k j)]
  have hb : iblk4 V c 2 t (ix2 (0 : Fin 1) j)
      = (V c (Pipeline.arrRef spec4 2) : Cert.Spec.Mat 1 64) (ix2 (0 : Fin 1) j) := by
    show V c (Pipeline.arrRef spec4 2) (((cfg4.win 2).blk t).view.emb (ix2 (0 : Fin 1) j)) = _
    rw [emb_b t (ix2 (0 : Fin 1) j)]
  rw [hb]
  simp only [hx, hw]
  rfl

/-! ## The tiles cover the array -/

/-- An index of the output array is in point t's tile iff each coordinate is in the tile's range. -/
theorem mem_tile (t : Fin cfg4.N) (i : S100000x64.Idx) :
    i ∈ ((cfg4.win 3).blk t).view.set ↔ ∀ a : Fin 2, win4_3.index t a * S2000x64.size a ≤ (i a).val
      ∧ (i a).val < win4_3.index t a * S2000x64.size a + S2000x64.size a := by
  show i ∈ ((View.whole main_v321).slice (win4_3.rect t)).set ↔ _
  rw [View.set_slice_whole, Rect.mem_set_unit]
  exact Iff.rfl

/-- Row r of the output is in the tile of point r / 2000. -/
theorem cover (i : S100000x64.Idx) :
    ∃ t : Fin cfg4.N, (cfg4.win 3).flush t = true ∧ i ∈ ((cfg4.win 3).blk t).view.set := by
  have hN : cfg4.N = 50 := N_4
  have hi0 : (i 0).val < 100000 := idx2_lt0 i
  have hi1 : (i 1).val < 64 := idx2_lt1 i
  refine ⟨⟨(i 0).val / 2000, by omega⟩, flush4_3 _, ?_⟩
  rw [mem_tile]
  obtain ⟨-, -, -, -, -, -, e0, e1⟩ := tile_places ⟨(i 0).val / 2000, by omega⟩
  intro a
  match a with
  | ⟨0, _⟩ =>
    show win4_3.index _ (0 : Fin 2) * 2000 ≤ (i 0).val ∧ (i 0).val < win4_3.index _ (0 : Fin 2) * 2000 + 2000
    rw [e0]; show (i 0).val / 2000 * 2000 ≤ (i 0).val ∧ (i 0).val < (i 0).val / 2000 * 2000 + 2000; omega
  | ⟨1, _⟩ =>
    show win4_3.index _ (1 : Fin 2) * 64 ≤ (i 1).val ∧ (i 1).val < win4_3.index _ (1 : Fin 2) * 64 + 64
    rw [e1]; omega

end Cert.KernelIdeal.Hand.Val4

namespace Cert.KernelIdeal.Hand

open Cert.KernelIdeal Cert.KernelIdeal.Gen
open Idealize.ShloMosaic Idealize.ShloMosaic.TcCoe Idealize.ShloMosaic.ValueIdx

variable (V : (c : Dev nD) → (b : Ref sig .tc) → Buf (Elt Ideal) ((c : Thread nD τ).loc b))

/-! ## The output array when the region ends -/

/-- The region leaves in its output array the dense map of its three input arrays. -/
theorem out_value4 (c : Dev nD) :
    (dat4 (F := Ideal) V c).arrAt 3 cfg4.N
      = Cert.Spec.dense (V c (Pipeline.arrRef spec4 0)) (V c (Pipeline.arrRef spec4 1)) (V c (Pipeline.arrRef spec4 2)) :=
  (dat4 (F := Ideal) V c).arrAt_eq_of_cover 3 (Val4.G V c) (fun t _ => Val4.flushed_eq V c t) Val4.cover

end Cert.KernelIdeal.Hand

end
-- ==== Proof.KI.Val5.lean ====
import proofs.«154750_j39152921870699_1_alg».proof.Proof.KI.Body5
import proofs.«154750_j39152921870699_1_alg».proof.Proof.Spec
import Idealize.ShloMosaic.Lib.Pipeline.Value
import Idealize.ShloMosaic.Lib.ValueLayout
import Idealize.ShloMosaic.PureOps.Ideal.Laws

/-!
# Region 5: the output array as one function of the three input arrays

The region writes, tile by tile, the rows of an output matrix.  The tile at point t is rows
2000·t … 2000·t + 1999; its entry (a, j) is the row a of the tile of X against the column j of W, plus
the bias b(0, j).  Row a of the tile of X is row 2000·t + a of X, so the tile is
the block of rows 2000·t … 2000·t + 1999 of the matrix

    (r, j) ↦ Σ_c X(r, c) · W(c, j) + b(0, j)

and the 25 tiles cover all 50000 rows: when the region ends the output array is that matrix.
-/

noncomputable section

namespace Cert.KernelIdeal.Hand.Val5

open Cert.KernelIdeal Cert.KernelIdeal.Gen Cert.KernelIdeal.Hand
open Idealize.ShloMosaic Idealize.ShloMosaic.TcCoe Idealize.ShloMosaic.ValueIdx
open Idealize.ShloMosaic.Pipeline (Dat)
open scoped BigOperators

/-! ## The product of a tile by the weights, entry by entry -/

/-- A row coordinate of the left factor at an entry of the product is the entry's row. -/
theorem dot_lhs_row (i : S2000x64.Idx) (q : dot_S2000x192_S192x64_S2000x64_1_0_0_1_n_n.contr.Idx) :
    (dot_S2000x192_S192x64_S2000x64_1_0_0_1_n_n.lhsIdx i q 0).val = (i 0).val := by
  unfold DotDims.lhsIdx
  rw [dif_neg (show ¬(0 : Fin S2000x192.rank) ∈ dot_S2000x192_S192x64_S2000x64_1_0_0_1_n_n.lhsBatch by decide),
    dif_pos (show (0 : Fin S2000x192.rank) ∈ dot_S2000x192_S192x64_S2000x64_1_0_0_1_n_n.lhsNonContracting by decide)]
  rfl

/-- Its column coordinate is the summation index. -/
theorem dot_lhs_col (i : S2000x64.Idx) (q : dot_S2000x192_S192x64_S2000x64_1_0_0_1_n_n.contr.Idx) :
    (dot_S2000x192_S192x64_S2000x64_1_0_0_1_n_n.lhsIdx i q 1).val = (q ⟨0, by decide⟩).val :=
  dot_S2000x192_S192x64_S2000x64_1_0_0_1_n_n.lhsIdx_val_of_single rfl i q

/-- The right factor's row coordinate is the summation index. -/
theorem dot_rhs_row (i : S2000x64.Idx) (q : dot_S2000x192_S192x64_S2000x64_1_0_0_1_n_n.contr.Idx) :
    (dot_S2000x192_S192x64_S2000x64_1_0_0_1_n_n.rhsIdx i q 0).val = (q ⟨0, by decide⟩).val :=
  dot_S2000x192_S192x64_S2000x64_1_0_0_1_n_n.rhsIdx_val_of_single rfl i q

/-- Its column coordinate is the entry's column. -/
theorem dot_rhs_col (i : S2000x64.Idx) (q : dot_S2000x192_S192x64_S2000x64_1_0_0_1_n_n.contr.Idx) :
    (dot_S2000x192_S192x64_S2000x64_1_0_0_1_n_n.rhsIdx i q 1).val = (i 1).val := by
  unfold DotDims.rhsIdx
  rw [dif_neg (show ¬(1 : Fin S192x64.rank) ∈ dot_S2000x192_S192x64_S2000x64_1_0_0_1_n_n.rhsBatch by decide),
    dif_pos (show (1 : Fin S192x64.rank) ∈ dot_S2000x192_S192x64_S2000x64_1_0_0_1_n_n.rhsNonContracting by decide)]
  rfl

/-- The product accumulated onto zero, at entry (a, j): the row a of A against the column j of B. -/
theorem matmul5_apply (A : FVec Ideal S2000x192 .bf16) (B : FVec Ideal S192x64 .bf16) (a : Fin 2000) (j : Fin 64) :
    matmul dot_S2000x192_S192x64_S2000x64_1_0_0_1_n_n none A B (constant (F := Ideal) S2000x64 .f32 0x00000000#32) (ix2 a j)
      = ∑ k : Fin 192, A (ix2 a k) * B (ix2 k j) := by
  simp only [matmul]
  rw [Ideal.matmul_constant_zero_apply,
    ← Equiv.sum_comp (contrEquiv1 dot_S2000x192_S192x64_S2000x64_1_0_0_1_n_n 192 rfl rfl).symm]
  refine Finset.sum_congr rfl fun k _ => ?_
  have hk := contrEquiv1_symm_val dot_S2000x192_S192x64_S2000x64_1_0_0_1_n_n 192 rfl rfl k
  have el : dot_S2000x192_S192x64_S2000x64_1_0_0_1_n_n.lhsIdx (ix2 a j)
      ((contrEquiv1 dot_S2000x192_S192x64_S2000x64_1_0_0_1_n_n 192 rfl rfl).symm k) = ix2 a k :=
    funext fun ax => Fin.ext (by
      match ax with
      | ⟨0, _⟩ => exact dot_lhs_row _ _
      | ⟨1, _⟩ => exact (dot_lhs_col _ _).trans hk)
  have er : dot_S2000x192_S192x64_S2000x64_1_0_0_1_n_n.rhsIdx (ix2 a j)
      ((contrEquiv1 dot_S2000x192_S192x64_S2000x64_1_0_0_1_n_n 192 rfl rfl).symm k) = ix2 k j :=
    funext fun ax => Fin.ext (by
      match ax with
      | ⟨0, _⟩ => exact (dot_rhs_row _ _).trans hk
      | ⟨1, _⟩ => exact dot_rhs_col _ _)
  rw [el, er]

/-- The stored tile at entry (a, j), from the three loaded blocks: the row of the tile of X against the
    column of W, plus the bias. -/
theorem pay5_apply (x0 : Vec Ideal S2000x192 .f32) (x1 : Vec Ideal S192x64 .f32) (x2 : Vec Ideal S1x64 .f32)
    (a : Fin 2000) (j : Fin 64) :
    k5_pay1 x0 x1 x2 (ix2 a j)
      = (∑ k : Fin 192, x0 (ix2 a k) * x1 (ix2 k j)) + x2 (ix2 (0 : Fin 1) j) := by
  unfold k5_pay1
  simp only [shapeCast_self]
  rw [addf_apply, matmul5_apply, broadcastTo_1b_ab_apply]
  simp only [truncf_apply]

/-! ## The tiles' places in the arrays -/

variable (V : (c : Dev nD) → (b : Ref sig .tc) → Buf (Elt Ideal) ((c : Thread nD τ).loc b))

theorem zero_offsets : (![0, 0] : Fin 2 → Nat) = fun _ => 0 := funext fun a => by fin_cases a <;> rfl

/-- Where the four windows' tiles sit at point t, decided over the grid: the tile of X and the
    output tile are tile t along the rows; the weights and the bias are the one tile of their arrays. -/
theorem tile_places : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- The array element under entry y of the tile of X at point t. -/
theorem emb_x (t : Fin cfg5.N) (y : S2000x192.Idx) (i : S50000x192.Idx)
    (h0 : (i 0).val = t.val * 2000 + (y 0).val) (h1 : (i 1).val = (y 1).val) :
    ((cfg5.win 0).blk t).view.emb y = i := by
  obtain ⟨e0, e1, -⟩ := tile_places t
  funext ax; apply Fin.ext
  match ax with
  | ⟨0, _⟩ => show win5_0.index t (0 : Fin 2) * 2000 + 1 * (y 0).val = (i 0).val; omega
  | ⟨1, _⟩ => show win5_0.index t (1 : Fin 2) * 192 + 1 * (y 1).val = (i 1).val; omega

/-- The array element under entry y of the weights' tile. -/
theorem emb_w (t : Fin cfg5.N) (y : S192x64.Idx) : ((cfg5.win 1).blk t).view.emb y = y := by
  obtain ⟨-, -, e0, e1, -⟩ := tile_places t
  funext ax; apply Fin.ext
  match ax with
  | ⟨0, _⟩ => show win5_1.index t (0 : Fin 2) * 192 + 1 * (y 0).val = (y 0).val; omega
  | ⟨1, _⟩ => show win5_1.index t (1 : Fin 2) * 64 + 1 * (y 1).val = (y 1).val; omega

/-- The array element under entry y of the bias's tile. -/
theorem emb_b (t : Fin cfg5.N) (y : S1x64.Idx) : ((cfg5.win 2).blk t).view.emb y = y := by
  obtain ⟨-, -, -, -, e0, e1, -⟩ := tile_places t
  funext ax; apply Fin.ext
  match ax with
  | ⟨0, _⟩ => show win5_2.index t (0 : Fin 2) * 1 + 1 * (y 0).val = (y 0).val; omega
  | ⟨1, _⟩ => show win5_2.index t (1 : Fin 2) * 64 + 1 * (y 1).val = (y 1).val; omega

/-- The array element under entry y of the output tile at point t. -/
theorem emb_o (t : Fin cfg5.N) (y : S2000x64.Idx) (i : S50000x64.Idx)
    (h0 : (i 0).val = t.val * 2000 + (y 0).val) (h1 : (i 1).val = (y 1).val) :
    ((cfg5.win 3).blk t).view.emb y = i := by
  obtain ⟨-, -, -, -, -, -, e0, e1⟩ := tile_places t
  funext ax; apply Fin.ext
  match ax with
  | ⟨0, _⟩ => show win5_3.index t (0 : Fin 2) * 2000 + 1 * (y 0).val = (i 0).val; omega
  | ⟨1, _⟩ => show win5_3.index t (1 : Fin 2) * 64 + 1 * (y 1).val = (i 1).val; omega

/-! ## What a point writes back is its tile of the dense map -/

/-- The matrix the region computes, from the three arrays as the region finds them. -/
abbrev G (c : Dev nD) : Cert.Spec.Mat 50000 64 :=
  Cert.Spec.dense (V c (Pipeline.arrRef spec5 0)) (V c (Pipeline.arrRef spec5 1)) (V c (Pipeline.arrRef spec5 2))

/-- What point t writes back is tile t of that matrix. -/
theorem flushed_eq (c : Dev nD) (t : Fin cfg5.N) :
    (dat5 (F := Ideal) V c).flushed 3 t = ((cfg5.win 3).blk t).view.read (Elt Ideal) (G V c) := by
  show (cfg5.win 3).cut (grid5.coords t) ((dat5 V c).after 3 t) = _
  rw [after5_out]
  unfold out5
  rw [View.canon_unit_zero zero_offsets]
  simp only [View.ld_unit_zero (S := S2000x192) zero_offsets, View.ld_unit_zero (S := S192x64) zero_offsets,
    View.ld_unit_zero (S := S1x64) zero_offsets]
  funext y
  obtain ⟨a, j, rfl⟩ : ∃ (a : Fin 2000) (j : Fin 64), y = ix2 a j := ⟨y 0, y 1, eq_ix2 y⟩
  have hN : cfg5.N = 25 := N_5
  have hrow : t.val * 2000 + a.val < 50000 := by have := t.isLt; omega
  -- the row of the arrays under row a of the tiles at point t
  obtain ⟨r, hr⟩ : ∃ r : Fin 50000, r.val = t.val * 2000 + a.val := ⟨⟨_, hrow⟩, rfl⟩
  show k5_pay1 (iblk5 V c 0 t) (iblk5 V c 1 t) (iblk5 V c 2 t) (ix2 a j)
    = G V c (((cfg5.win 3).blk t).view.emb (ix2 a j))
  rw [emb_o t (ix2 a j) (ix2 r j) hr rfl, pay5_apply]
  have hx : ∀ k : Fin 192, iblk5 V c 0 t (ix2 a k)
      = (V c (Pipeline.arrRef spec5 0) : Cert.Spec.Mat 50000 192) (ix2 r k) := fun k => by
    show V c (Pipeline.arrRef spec5 0) (((cfg5.win 0).blk t).view.emb (ix2 a k)) = _
    rw [emb_x t (ix2 a k) (ix2 r k) hr rfl]
  have hw : ∀ k : Fin 192, iblk5 V c 1 t (ix2 k j)
      = (V c (Pipeline.arrRef spec5 1) : Cert.Spec.Mat 192 64) (ix2 k j) := fun k => by
    show V c (Pipeline.arrRef spec5 1) (((cfg5.win 1).blk t).view.emb (ix2 k j)) = _
    rw [emb_w t (ix2 k j)]
  have hb : iblk5 V c 2 t (ix2 (0 : Fin 1) j)
      = (V c (Pipeline.arrRef spec5 2) : Cert.Spec.Mat 1 64) (ix2 (0 : Fin 1) j) := by
    show V c (Pipeline.arrRef spec5 2) (((cfg5.win 2).blk t).view.emb (ix2 (0 : Fin 1) j)) = _
    rw [emb_b t (ix2 (0 : Fin 1) j)]
  rw [hb]
  simp only [hx, hw]
  rfl

/-! ## The tiles cover the array -/

/-- An index of the output array is in point t's tile iff each coordinate is in the tile's range. -/
theorem mem_tile (t : Fin cfg5.N) (i : S50000x64.Idx) :
    i ∈ ((cfg5.win 3).blk t).view.set ↔ ∀ a : Fin 2, win5_3.index t a * S2000x64.size a ≤ (i a).val
      ∧ (i a).val < win5_3.index t a * S2000x64.size a + S2000x64.size a := by
  show i ∈ ((View.whole main_v343).slice (win5_3.rect t)).set ↔ _
  rw [View.set_slice_whole, Rect.mem_set_unit]
  exact Iff.rfl

/-- Row r of the output is in the tile of point r / 2000. -/
theorem cover (i : S50000x64.Idx) :
    ∃ t : Fin cfg5.N, (cfg5.win 3).flush t = true ∧ i ∈ ((cfg5.win 3).blk t).view.set := by
  have hN : cfg5.N = 25 := N_5
  have hi0 : (i 0).val < 50000 := idx2_lt0 i
  have hi1 : (i 1).val < 64 := idx2_lt1 i
  refine ⟨⟨(i 0).val / 2000, by omega⟩, flush5_3 _, ?_⟩
  rw [mem_tile]
  obtain ⟨-, -, -, -, -, -, e0, e1⟩ := tile_places ⟨(i 0).val / 2000, by omega⟩
  intro a
  match a with
  | ⟨0, _⟩ =>
    show win5_3.index _ (0 : Fin 2) * 2000 ≤ (i 0).val ∧ (i 0).val < win5_3.index _ (0 : Fin 2) * 2000 + 2000
    rw [e0]; show (i 0).val / 2000 * 2000 ≤ (i 0).val ∧ (i 0).val < (i 0).val / 2000 * 2000 + 2000; omega
  | ⟨1, _⟩ =>
    show win5_3.index _ (1 : Fin 2) * 64 ≤ (i 1).val ∧ (i 1).val < win5_3.index _ (1 : Fin 2) * 64 + 64
    rw [e1]; omega

end Cert.KernelIdeal.Hand.Val5

namespace Cert.KernelIdeal.Hand

open Cert.KernelIdeal Cert.KernelIdeal.Gen
open Idealize.ShloMosaic Idealize.ShloMosaic.TcCoe Idealize.ShloMosaic.ValueIdx

variable (V : (c : Dev nD) → (b : Ref sig .tc) → Buf (Elt Ideal) ((c : Thread nD τ).loc b))

/-! ## The output array when the region ends -/

/-- The region leaves in its output array the dense map of its three input arrays. -/
theorem out_value5 (c : Dev nD) :
    (dat5 (F := Ideal) V c).arrAt 3 cfg5.N
      = Cert.Spec.dense (V c (Pipeline.arrRef spec5 0)) (V c (Pipeline.arrRef spec5 1)) (V c (Pipeline.arrRef spec5 2)) :=
  (dat5 (F := Ideal) V c).arrAt_eq_of_cover 3 (Val5.G V c) (fun t _ => Val5.flushed_eq V c t) Val5.cover

end Cert.KernelIdeal.Hand

end
-- ==== Proof.KI.Val8.lean ====
import proofs.«154750_j39152921870699_1_alg».proof.Proof.KI.Body8
import proofs.«154750_j39152921870699_1_alg».proof.Proof.Spec
import Idealize.ShloMosaic.Lib.Pipeline.Value
import Idealize.ShloMosaic.Lib.ValueLayout
import Idealize.ShloMosaic.PureOps.Ideal.Laws

/-!
# Region 8: the output array as one function of the five input arrays

The region writes, tile by tile, the rows of an output matrix with four columns.  The tile at point t is
rows 2000·t … 2000·t + 1999.  Its entry (a, j) is computed in two steps from row a of the tile of h: first
the hidden row  u(k) = max (Σ_c h(a, c) · W1(c, k) + b1(0, k)) 0  for k = 0 … 63, then
Σ_k u(k) · W2(k, j) + b2(0, j).  Row a of the tile of h is row 2000·t + a of h, so the tile is the block of
rows 2000·t … 2000·t + 1999 of the matrix

    (r, j) ↦ Σ_k max (Σ_c h(r, c) · W1(c, k) + b1(0, k)) 0 · W2(k, j) + b2(0, j)

and the fifty tiles cover all 100000 rows: when the region ends the output array is that matrix.
-/

noncomputable section

namespace Cert.KernelIdeal.Hand.Val8

open Cert.KernelIdeal Cert.KernelIdeal.Gen Cert.KernelIdeal.Hand
open Idealize.ShloMosaic Idealize.ShloMosaic.TcCoe Idealize.ShloMosaic.ValueIdx
open Idealize.ShloMosaic.Pipeline (Dat)
open scoped BigOperators

/-! ## The first product: a tile of h by W1, entry by entry -/

/-- A row coordinate of the left factor at an entry of the product is the entry's row. -/
theorem dotA_lhs_row (i : S2000x64.Idx) (q : dot_S2000x128_S128x64_S2000x64_1_0_0_1_n_n.contr.Idx) :
    (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide),
    dif_pos (show (0 : Fin S2000x128.rank) ∈ dot_S2000x128_S128x64_S2000x64_1_0_0_1_n_n.lhsNonContracting by decide)]
  rfl

/-- Its column coordinate is the summation index. -/
theorem dotA_lhs_col (i : S2000x64.Idx) (q : dot_S2000x128_S128x64_S2000x64_1_0_0_1_n_n.contr.Idx) :
    (dot_S2000x128_S128x64_S2000x64_1_0_0_1_n_n.lhsIdx i q 1).val = (q ⟨0, by decide⟩).val :=
  dot_S2000x128_S128x64_S2000x64_1_0_0_1_n_n.lhsIdx_val_of_single rfl i q

/-- The right factor's row coordinate is the summation index. -/
theorem dotA_rhs_row (i : S2000x64.Idx) (q : dot_S2000x128_S128x64_S2000x64_1_0_0_1_n_n.contr.Idx) :
    (dot_S2000x128_S128x64_S2000x64_1_0_0_1_n_n.rhsIdx i q 0).val = (q ⟨0, by decide⟩).val :=
  dot_S2000x128_S128x64_S2000x64_1_0_0_1_n_n.rhsIdx_val_of_single rfl i q

/-- Its column coordinate is the entry's column. -/
theorem dotA_rhs_col (i : S2000x64.Idx) (q : dot_S2000x128_S128x64_S2000x64_1_0_0_1_n_n.contr.Idx) :
    (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide),
    dif_pos (show (1 : Fin S128x64.rank) ∈ dot_S2000x128_S128x64_S2000x64_1_0_0_1_n_n.rhsNonContracting by decide)]
  rfl

/-- The product accumulated onto zero, at entry (a, j): the row a of A against the column j of B. -/
theorem matmulA_apply (A : FVec Ideal S2000x128 .bf16) (B : FVec Ideal S128x64 .bf16) (a : Fin 2000) (j : Fin 64) :
    matmul dot_S2000x128_S128x64_S2000x64_1_0_0_1_n_n none A B (constant (F := Ideal) S2000x64 .f32 0x00000000#32) (ix2 a j)
      = ∑ k : Fin 128, A (ix2 a k) * B (ix2 k j) := by
  simp only [matmul]
  rw [Ideal.matmul_constant_zero_apply,
    ← Equiv.sum_comp (contrEquiv1 dot_S2000x128_S128x64_S2000x64_1_0_0_1_n_n 128 rfl rfl).symm]
  refine Finset.sum_congr rfl fun k _ => ?_
  have hk := contrEquiv1_symm_val dot_S2000x128_S128x64_S2000x64_1_0_0_1_n_n 128 rfl rfl k
  have el : dot_S2000x128_S128x64_S2000x64_1_0_0_1_n_n.lhsIdx (ix2 a j)
      ((contrEquiv1 dot_S2000x128_S128x64_S2000x64_1_0_0_1_n_n 128 rfl rfl).symm k) = ix2 a k :=
    funext fun ax => Fin.ext (by
      match ax with
      | ⟨0, _⟩ => exact dotA_lhs_row _ _
      | ⟨1, _⟩ => exact (dotA_lhs_col _ _).trans hk)
  have er : dot_S2000x128_S128x64_S2000x64_1_0_0_1_n_n.rhsIdx (ix2 a j)
      ((contrEquiv1 dot_S2000x128_S128x64_S2000x64_1_0_0_1_n_n 128 rfl rfl).symm k) = ix2 k j :=
    funext fun ax => Fin.ext (by
      match ax with
      | ⟨0, _⟩ => exact (dotA_rhs_row _ _).trans hk
      | ⟨1, _⟩ => exact dotA_rhs_col _ _)
  rw [el, er]

/-! ## The second product: the hidden tile by W2, entry by entry -/

/-- A row coordinate of the left factor at an entry of the product is the entry's row. -/
theorem dotB_lhs_row (i : S2000x4.Idx) (q : dot_S2000x64_S64x4_S2000x4_1_0_0_1_n_n.contr.Idx) :
    (dot_S2000x64_S64x4_S2000x4_1_0_0_1_n_n.lhsIdx i q 0).val = (i 0).val := by
  unfold DotDims.lhsIdx
  rw [dif_neg (show ¬(0 : Fin S2000x64.rank) ∈ dot_S2000x64_S64x4_S2000x4_1_0_0_1_n_n.lhsBatch by decide),
    dif_pos (show (0 : Fin S2000x64.rank) ∈ dot_S2000x64_S64x4_S2000x4_1_0_0_1_n_n.lhsNonContracting by decide)]
  rfl

/-- Its column coordinate is the summation index. -/
theorem dotB_lhs_col (i : S2000x4.Idx) (q : dot_S2000x64_S64x4_S2000x4_1_0_0_1_n_n.contr.Idx) :
    (dot_S2000x64_S64x4_S2000x4_1_0_0_1_n_n.lhsIdx i q 1).val = (q ⟨0, by decide⟩).val :=
  dot_S2000x64_S64x4_S2000x4_1_0_0_1_n_n.lhsIdx_val_of_single rfl i q

/-- The right factor's row coordinate is the summation index. -/
theorem dotB_rhs_row (i : S2000x4.Idx) (q : dot_S2000x64_S64x4_S2000x4_1_0_0_1_n_n.contr.Idx) :
    (dot_S2000x64_S64x4_S2000x4_1_0_0_1_n_n.rhsIdx i q 0).val = (q ⟨0, by decide⟩).val :=
  dot_S2000x64_S64x4_S2000x4_1_0_0_1_n_n.rhsIdx_val_of_single rfl i q

/-- Its column coordinate is the entry's column. -/
theorem dotB_rhs_col (i : S2000x4.Idx) (q : dot_S2000x64_S64x4_S2000x4_1_0_0_1_n_n.contr.Idx) :
    (dot_S2000x64_S64x4_S2000x4_1_0_0_1_n_n.rhsIdx i q 1).val = (i 1).val := by
  unfold DotDims.rhsIdx
  rw [dif_neg (show ¬(1 : Fin S64x4.rank) ∈ dot_S2000x64_S64x4_S2000x4_1_0_0_1_n_n.rhsBatch by decide),
    dif_pos (show (1 : Fin S64x4.rank) ∈ dot_S2000x64_S64x4_S2000x4_1_0_0_1_n_n.rhsNonContracting by decide)]
  rfl

/-- The product accumulated onto zero, at entry (a, j): the row a of A against the column j of B. -/
theorem matmulB_apply (A : FVec Ideal S2000x64 .bf16) (B : FVec Ideal S64x4 .bf16) (a : Fin 2000) (j : Fin 4) :
    matmul dot_S2000x64_S64x4_S2000x4_1_0_0_1_n_n none A B (constant (F := Ideal) S2000x4 .f32 0x00000000#32) (ix2 a j)
      = ∑ k : Fin 64, A (ix2 a k) * B (ix2 k j) := by
  simp only [matmul]
  rw [Ideal.matmul_constant_zero_apply,
    ← Equiv.sum_comp (contrEquiv1 dot_S2000x64_S64x4_S2000x4_1_0_0_1_n_n 64 rfl rfl).symm]
  refine Finset.sum_congr rfl fun k _ => ?_
  have hk := contrEquiv1_symm_val dot_S2000x64_S64x4_S2000x4_1_0_0_1_n_n 64 rfl rfl k
  have el : dot_S2000x64_S64x4_S2000x4_1_0_0_1_n_n.lhsIdx (ix2 a j)
      ((contrEquiv1 dot_S2000x64_S64x4_S2000x4_1_0_0_1_n_n 64 rfl rfl).symm k) = ix2 a k :=
    funext fun ax => Fin.ext (by
      match ax with
      | ⟨0, _⟩ => exact dotB_lhs_row _ _
      | ⟨1, _⟩ => exact (dotB_lhs_col _ _).trans hk)
  have er : dot_S2000x64_S64x4_S2000x4_1_0_0_1_n_n.rhsIdx (ix2 a j)
      ((contrEquiv1 dot_S2000x64_S64x4_S2000x4_1_0_0_1_n_n 64 rfl rfl).symm k) = ix2 k j :=
    funext fun ax => Fin.ext (by
      match ax with
      | ⟨0, _⟩ => exact (dotB_rhs_row _ _).trans hk
      | ⟨1, _⟩ => exact dotB_rhs_col _ _)
  rw [el, er]

/-! ## The stored tile, entry by entry -/

/-- The stored tile at entry (a, j), from the five loaded blocks: the hidden row of row a — the row of the
    tile of h against each column of W1, plus the first bias, clamped below at zero — against the column j
    of W2, plus the second bias. -/
theorem pay8_apply (x0 : Vec Ideal S2000x128 .f32) (x1 : Vec Ideal S128x64 .f32) (x2 : Vec Ideal S1x64 .f32)
    (x3 : Vec Ideal S64x4 .f32) (x4 : Vec Ideal S1x4 .f32) (a : Fin 2000) (j : Fin 4) :
    k8_pay1 x0 x1 x2 x3 x4 (ix2 a j)
      = (∑ k : Fin 64, max ((∑ c : Fin 128, x0 (ix2 a c) * x1 (ix2 c k)) + x2 (ix2 (0 : Fin 1) k)) 0 * x3 (ix2 k j))
        + x4 (ix2 (0 : Fin 1) j) := by
  unfold k8_pay1
  simp only [shapeCast_self]
  have hzero : (FloatOps.ofBits (F := Ideal) FTy.f32 0x00000000#32) = (0 : EReal) := Ideal.ofBits_zero_f32
  rw [addf_apply, matmulB_apply, broadcastTo_1b_ab_apply]
  refine congrArg (· + x4 (ix2 (0 : Fin 1) j)) (Finset.sum_congr rfl fun k _ => ?_)
  rw [truncf_apply, truncf_apply, maximumf_apply, addf_apply, matmulA_apply, broadcastTo_1b_ab_apply,
    broadcast_apply, hzero]
  simp only [truncf_apply]

/-! ## The tiles' places in the arrays -/

variable (V : (c : Dev nD) → (b : Ref sig .tc) → Buf (Elt Ideal) ((c : Thread nD τ).loc b))

theorem zero_offsets : (![0, 0] : Fin 2 → Nat) = fun _ => 0 := funext fun a => by fin_cases a <;> rfl

/-- Where the six windows' tiles sit at point t, decided over the grid: the tile of h and the output tile
    are tile t along the rows; the two weight matrices and the two bias rows are the one tile of their arrays. -/
theorem tile_places : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = t.val ∧ win8_5.index t (1 : Fin 2) = 0 :=
  (by decide +kernel : ∀ t : Fin grid8.N, _)

/-- The array element under entry y of the tile of h at point t. -/
theorem emb_x (t : Fin cfg8.N) (y : S2000x128.Idx) (i : S100000x128.Idx)
    (h0 : (i 0).val = t.val * 2000 + (y 0).val) (h1 : (i 1).val = (y 1).val) :
    ((cfg8.win 0).blk t).view.emb y = i := by
  obtain ⟨e0, e1, -⟩ := tile_places t
  funext ax; apply Fin.ext
  match ax with
  | ⟨0, _⟩ => show win8_0.index t (0 : Fin 2) * 2000 + 1 * (y 0).val = (i 0).val; omega
  | ⟨1, _⟩ => show win8_0.index t (1 : Fin 2) * 128 + 1 * (y 1).val = (i 1).val; omega

/-- The array element under entry y of the first weights' tile. -/
theorem emb_w1 (t : Fin cfg8.N) (y : S128x64.Idx) : ((cfg8.win 1).blk t).view.emb y = y := by
  obtain ⟨-, -, e0, e1, -⟩ := tile_places t
  funext ax; apply Fin.ext
  match ax with
  | ⟨0, _⟩ => show win8_1.index t (0 : Fin 2) * 128 + 1 * (y 0).val = (y 0).val; omega
  | ⟨1, _⟩ => show win8_1.index t (1 : Fin 2) * 64 + 1 * (y 1).val = (y 1).val; omega

/-- The array element under entry y of the first bias's tile. -/
theorem emb_b1 (t : Fin cfg8.N) (y : S1x64.Idx) : ((cfg8.win 2).blk t).view.emb y = y := by
  obtain ⟨-, -, -, -, e0, e1, -⟩ := tile_places t
  funext ax; apply Fin.ext
  match ax with
  | ⟨0, _⟩ => show win8_2.index t (0 : Fin 2) * 1 + 1 * (y 0).val = (y 0).val; omega
  | ⟨1, _⟩ => show win8_2.index t (1 : Fin 2) * 64 + 1 * (y 1).val = (y 1).val; omega

/-- The array element under entry y of the second weights' tile. -/
theorem emb_w2 (t : Fin cfg8.N) (y : S64x4.Idx) : ((cfg8.win 3).blk t).view.emb y = y := by
  obtain ⟨-, -, -, -, -, -, e0, e1, -⟩ := tile_places t
  funext ax; apply Fin.ext
  match ax with
  | ⟨0, _⟩ => show win8_3.index t (0 : Fin 2) * 64 + 1 * (y 0).val = (y 0).val; omega
  | ⟨1, _⟩ => show win8_3.index t (1 : Fin 2) * 4 + 1 * (y 1).val = (y 1).val; omega

/-- The array element under entry y of the second bias's tile. -/
theorem emb_b2 (t : Fin cfg8.N) (y : S1x4.Idx) : ((cfg8.win 4).blk t).view.emb y = y := by
  obtain ⟨-, -, -, -, -, -, -, -, e0, e1, -⟩ := tile_places t
  funext ax; apply Fin.ext
  match ax with
  | ⟨0, _⟩ => show win8_4.index t (0 : Fin 2) * 1 + 1 * (y 0).val = (y 0).val; omega
  | ⟨1, _⟩ => show win8_4.index t (1 : Fin 2) * 4 + 1 * (y 1).val = (y 1).val; omega

/-- The array element under entry y of the output tile at point t. -/
theorem emb_o (t : Fin cfg8.N) (y : S2000x4.Idx) (i : S100000x4.Idx)
    (h0 : (i 0).val = t.val * 2000 + (y 0).val) (h1 : (i 1).val = (y 1).val) :
    ((cfg8.win 5).blk t).view.emb y = i := by
  obtain ⟨-, -, -, -, -, -, -, -, -, -, e0, e1⟩ := tile_places t
  funext ax; apply Fin.ext
  match ax with
  | ⟨0, _⟩ => show win8_5.index t (0 : Fin 2) * 2000 + 1 * (y 0).val = (i 0).val; omega
  | ⟨1, _⟩ => show win8_5.index t (1 : Fin 2) * 4 + 1 * (y 1).val = (i 1).val; omega

/-! ## What a point writes back is its tile of the two-layer map -/

/-- The matrix the region computes, from the five arrays as the region finds them. -/
abbrev G (c : Dev nD) : Cert.Spec.Mat 100000 4 :=
  Cert.Spec.mlp (V c (Pipeline.arrRef spec8 0)) (V c (Pipeline.arrRef spec8 1)) (V c (Pipeline.arrRef spec8 2))
    (V c (Pipeline.arrRef spec8 3)) (V c (Pipeline.arrRef spec8 4))

/-! ### Each input tile's entries are the array's -/

/-- Row a of the tile of h at point t is row 2000·t + a of h. -/
theorem read_x (c : Dev nD) (t : Fin cfg8.N) (a : Fin 2000) (k : Fin 128) (r : Fin 100000)
    (hr : r.val = t.val * 2000 + a.val) :
    iblk8 V c 0 t (ix2 a k) = (V c (Pipeline.arrRef spec8 0) : Cert.Spec.Mat 100000 128) (ix2 r k) := by
  show V c (Pipeline.arrRef spec8 0) (((cfg8.win 0).blk t).view.emb (ix2 a k)) = _
  rw [emb_x t (ix2 a k) (ix2 r k) hr rfl]

/-- The first weights' tile is the whole of W1. -/
theorem read_w1 (c : Dev nD) (t : Fin cfg8.N) (k : Fin 128) (l : Fin 64) :
    iblk8 V c 1 t (ix2 k l) = (V c (Pipeline.arrRef spec8 1) : Cert.Spec.Mat 128 64) (ix2 k l) := by
  show V c (Pipeline.arrRef spec8 1) (((cfg8.win 1).blk t).view.emb (ix2 k l)) = _
  rw [emb_w1 t (ix2 k l)]

/-- The first bias's tile is the whole of b1. -/
theorem read_b1 (c : Dev nD) (t : Fin cfg8.N) (l : Fin 64) :
    iblk8 V c 2 t (ix2 (0 : Fin 1) l) = (V c (Pipeline.arrRef spec8 2) : Cert.Spec.Mat 1 64) (ix2 (0 : Fin 1) l) := by
  show V c (Pipeline.arrRef spec8 2) (((cfg8.win 2).blk t).view.emb (ix2 (0 : Fin 1) l)) = _
  rw [emb_b1 t (ix2 (0 : Fin 1) l)]

/-- The second weights' tile is the whole of W2. -/
theorem read_w2 (c : Dev nD) (t : Fin cfg8.N) (l : Fin 64) (j : Fin 4) :
    iblk8 V c 3 t (ix2 l j) = (V c (Pipeline.arrRef spec8 3) : Cert.Spec.Mat 64 4) (ix2 l j) := by
  show V c (Pipeline.arrRef spec8 3) (((cfg8.win 3).blk t).view.emb (ix2 l j)) = _
  rw [emb_w2 t (ix2 l j)]

/-- The second bias's tile is the whole of b2. -/
theorem read_b2 (c : Dev nD) (t : Fin cfg8.N) (j : Fin 4) :
    iblk8 V c 4 t (ix2 (0 : Fin 1) j) = (V c (Pipeline.arrRef spec8 4) : Cert.Spec.Mat 1 4) (ix2 (0 : Fin 1) j) := by
  show V c (Pipeline.arrRef spec8 4) (((cfg8.win 4).blk t).view.emb (ix2 (0 : Fin 1) j)) = _
  rw [emb_b2 t (ix2 (0 : Fin 1) j)]

/-- The output tile after the computation is the stored value. -/
theorem after_out_eq (c : Dev nD) (t : Fin cfg8.N) :
    (dat8 (F := Ideal) V c).after 5 t
      = k8_pay1 (iblk8 V c 0 t) (iblk8 V c 1 t) (iblk8 V c 2 t) (iblk8 V c 3 t) (iblk8 V c 4 t) := by
  rw [after8_out]
  unfold out8
  rw [View.canon_unit_zero zero_offsets]
  simp only [View.ld_unit_zero (S := S2000x128) zero_offsets, View.ld_unit_zero (S := S128x64) zero_offsets,
    View.ld_unit_zero (S := S1x64) zero_offsets, View.ld_unit_zero (S := S64x4) zero_offsets,
    View.ld_unit_zero (S := S1x4) zero_offsets]

/-- What point t writes back is tile t of that matrix. -/
theorem flushed_eq (c : Dev nD) (t : Fin cfg8.N) :
    (dat8 (F := Ideal) V c).flushed 5 t = ((cfg8.win 5).blk t).view.read (Elt Ideal) (G V c) := by
  show (cfg8.win 5).cut (grid8.coords t) ((dat8 V c).after 5 t) = _
  rw [after_out_eq]
  funext y
  obtain ⟨a, j, rfl⟩ : ∃ (a : Fin 2000) (j : Fin 4), y = ix2 a j := ⟨y 0, y 1, eq_ix2 y⟩
  have hN : cfg8.N = 50 := N_8
  have hrow : t.val * 2000 + a.val < 100000 := by have := t.isLt; omega
  -- the row of the arrays under row a of the tiles at point t
  obtain ⟨r, hr⟩ : ∃ r : Fin 100000, r.val = t.val * 2000 + a.val := ⟨⟨_, hrow⟩, rfl⟩
  show k8_pay1 (iblk8 V c 0 t) (iblk8 V c 1 t) (iblk8 V c 2 t) (iblk8 V c 3 t) (iblk8 V c 4 t) (ix2 a j)
    = G V c (((cfg8.win 5).blk t).view.emb (ix2 a j))
  rw [emb_o t (ix2 a j) (ix2 r j) hr rfl, pay8_apply, read_b2]
  simp only [fun k => read_x V c t a k r hr, read_w1, read_b1, read_w2]
  rfl

/-! ## The fifty tiles cover the array -/

/-- An index of the output array is in point t's tile iff each coordinate is in the tile's range. -/
theorem mem_tile (t : Fin cfg8.N) (i : S100000x4.Idx) :
    i ∈ ((cfg8.win 5).blk t).view.set ↔ ∀ a : Fin 2, win8_5.index t a * S2000x4.size a ≤ (i a).val
      ∧ (i a).val < win8_5.index t a * S2000x4.size a + S2000x4.size a := by
  show i ∈ ((View.whole main_v389).slice (win8_5.rect t)).set ↔ _
  rw [View.set_slice_whole, Rect.mem_set_unit]
  exact Iff.rfl

/-- Row r of the output is in the tile of point r / 2000. -/
theorem cover (i : S100000x4.Idx) :
    ∃ t : Fin cfg8.N, (cfg8.win 5).flush t = true ∧ i ∈ ((cfg8.win 5).blk t).view.set := by
  have hN : cfg8.N = 50 := N_8
  have hi0 : (i 0).val < 100000 := idx2_lt0 i
  have hi1 : (i 1).val < 4 := idx2_lt1 i
  refine ⟨⟨(i 0).val / 2000, by omega⟩, flush8_5 _, ?_⟩
  rw [mem_tile]
  obtain ⟨-, -, -, -, -, -, -, -, -, -, e0, e1⟩ := tile_places ⟨(i 0).val / 2000, by omega⟩
  intro a
  match a with
  | ⟨0, _⟩ =>
    show win8_5.index _ (0 : Fin 2) * 2000 ≤ (i 0).val ∧ (i 0).val < win8_5.index _ (0 : Fin 2) * 2000 + 2000
    rw [e0]; show (i 0).val / 2000 * 2000 ≤ (i 0).val ∧ (i 0).val < (i 0).val / 2000 * 2000 + 2000; omega
  | ⟨1, _⟩ =>
    show win8_5.index _ (1 : Fin 2) * 4 ≤ (i 1).val ∧ (i 1).val < win8_5.index _ (1 : Fin 2) * 4 + 4
    rw [e1]; omega

end Cert.KernelIdeal.Hand.Val8

namespace Cert.KernelIdeal.Hand

open Cert.KernelIdeal Cert.KernelIdeal.Gen
open Idealize.ShloMosaic Idealize.ShloMosaic.TcCoe Idealize.ShloMosaic.ValueIdx

variable (V : (c : Dev nD) → (b : Ref sig .tc) → Buf (Elt Ideal) ((c : Thread nD τ).loc b))

/-! ## The output array when the region ends -/

/-- The region leaves in its output array the two-layer map of its five input arrays: the clamped dense map
    of h through W1 and b1, then the dense map of that through W2 and b2. -/
theorem out_value8 (c : Dev nD) :
    (dat8 (F := Ideal) V c).arrAt 5 cfg8.N
      = Cert.Spec.mlp (V c (Pipeline.arrRef spec8 0)) (V c (Pipeline.arrRef spec8 1)) (V c (Pipeline.arrRef spec8 2))
          (V c (Pipeline.arrRef spec8 3)) (V c (Pipeline.arrRef spec8 4)) :=
  (dat8 (F := Ideal) V c).arrAt_eq_of_cover 5 (Val8.G V c) (fun t _ => Val8.flushed_eq V c t) Val8.cover

end Cert.KernelIdeal.Hand

end
-- ==== Proof.Stacked.lean ====
/-
  The stacked arrangement read entry by entry.

  Several matrices with 64 columns laid side by side form one wide matrix; the same number of 64-row weight blocks
  stacked on top of each other form one tall matrix; and the product of the wide matrix with the tall one is the sum of
  the blocks' products: a sum over 192 (or 128) consecutive indices is the sum over the first 64, the next 64
  (and the last 64), which holds in any commutative additive monoid. A block of the stacked parameter arrays
  (layer l, relation r) cut out and reshaped to a matrix or a vector reads the stacked array at (l, r, ·, ·).
-/
import proofs.«154750_j39152921870699_1_alg».proof.Proof.Spec
import Idealize.ShloMosaic.Lib.Pipeline.Value

noncomputable section

open scoped BigOperators

namespace Cert.Spec

open Idealize.ShloMosaic Idealize.ShloMosaic.ValueIdx

abbrev Sh2 (n k : ℕ) : Shape := ⟨2, ![n, k]⟩

/-! ## Sums over consecutive ranges -/

theorem sum192 (f : Fin 192 → EReal) :
    ∑ c : Fin 192, f c = (∑ k : Fin 64, f ⟨k.val, by omega⟩) + ((∑ k : Fin 64, f ⟨64 + k.val, by omega⟩) + ∑ k : Fin 64, f ⟨128 + k.val, by omega⟩) := by
  have h1 := Fin.sum_univ_add (a := 64) (b := 128) (f : Fin (64 + 128) → EReal)
  have h2 := Fin.sum_univ_add (a := 64) (b := 64) (fun i : Fin (64 + 64) => f (Fin.natAdd 64 i))
  refine h1.trans (congrArg₂ (· + ·) (Finset.sum_congr rfl fun k _ => congrArg f (Fin.ext rfl)) (h2.trans (congrArg₂ (· + ·) ?_ ?_)))
  · exact Finset.sum_congr rfl fun k _ => congrArg f (Fin.ext rfl)
  · exact Finset.sum_congr rfl fun k _ => congrArg f (Fin.ext (by show 64 + (64 + k.val) = 128 + k.val; omega))

theorem sum128 (f : Fin 128 → EReal) :
    ∑ c : Fin 128, f c = (∑ k : Fin 64, f ⟨k.val, by omega⟩) + ∑ k : Fin 64, f ⟨64 + k.val, by omega⟩ := by
  have h1 := Fin.sum_univ_add (a := 64) (b := 64) (f : Fin (64 + 64) → EReal)
  exact h1.trans (congrArg₂ (· + ·) (Finset.sum_congr rfl fun k _ => congrArg f (Fin.ext rfl)) (Finset.sum_congr rfl fun k _ => congrArg f (Fin.ext rfl)))

/-! ## Blocks side by side and blocks stacked, read at an index -/

section Three
variable {n : ℕ} (M M' x : Mat n 64)
  (hX : Shape.Concatenates [Sh2 n 64, Sh2 n 64, Sh2 n 64] (Sh2 n 192) 1)

theorem cols3_left (a : Fin n) (c : Fin 192) (k : Fin 64) (hc : c.val = k.val) :
    concatenate (Sh2 n 192) 1 [⟨Sh2 n 64, M⟩, ⟨Sh2 n 64, M'⟩, ⟨Sh2 n 64, x⟩] hX (ix2 a c) = M (ix2 a k) :=
  concatenate_apply_piece 1 [⟨Sh2 n 64, M⟩, ⟨Sh2 n 64, M'⟩, ⟨Sh2 n 64, x⟩] hX (ix2 a c) 0 (by simp) (Sh2 n 64) M rfl rfl 0 rfl (ix2 a k)
    (fun b hb => by match b with | ⟨0, _⟩ => rfl | ⟨1, _⟩ => exact absurd rfl hb) (by show 0 + k.val = c.val; omega)

theorem cols3_mid (a : Fin n) (c : Fin 192) (k : Fin 64) (hc : c.val = 64 + k.val) :
    concatenate (Sh2 n 192) 1 [⟨Sh2 n 64, M⟩, ⟨Sh2 n 64, M'⟩, ⟨Sh2 n 64, x⟩] hX (ix2 a c) = M' (ix2 a k) :=
  concatenate_apply_piece 1 [⟨Sh2 n 64, M⟩, ⟨Sh2 n 64, M'⟩, ⟨Sh2 n 64, x⟩] hX (ix2 a c) 1 (by simp) (Sh2 n 64) M' rfl rfl 64 rfl (ix2 a k)
    (fun b hb => by match b with | ⟨0, _⟩ => rfl | ⟨1, _⟩ => exact absurd rfl hb) (by show 64 + k.val = c.val; omega)

theorem cols3_right (a : Fin n) (c : Fin 192) (k : Fin 64) (hc : c.val = 128 + k.val) :
    concatenate (Sh2 n 192) 1 [⟨Sh2 n 64, M⟩, ⟨Sh2 n 64, M'⟩, ⟨Sh2 n 64, x⟩] hX (ix2 a c) = x (ix2 a k) :=
  concatenate_apply_piece 1 [⟨Sh2 n 64, M⟩, ⟨Sh2 n 64, M'⟩, ⟨Sh2 n 64, x⟩] hX (ix2 a c) 2 (by simp) (Sh2 n 64) x rfl rfl 128 rfl (ix2 a k)
    (fun b hb => by match b with | ⟨0, _⟩ => rfl | ⟨1, _⟩ => exact absurd rfl hb) (by show 128 + k.val = c.val; omega)

variable (Wa Wb Wc : Mat 64 64) (hW : Shape.Concatenates [Sh2 64 64, Sh2 64 64, Sh2 64 64] (Sh2 192 64) 0)

theorem rows3_top (c : Fin 192) (k j : Fin 64) (hc : c.val = k.val) :
    concatenate (Sh2 192 64) 0 [⟨Sh2 64 64, Wa⟩, ⟨Sh2 64 64, Wb⟩, ⟨Sh2 64 64, Wc⟩] hW (ix2 c j) = Wa (ix2 k j) :=
  concatenate_apply_piece 0 [⟨Sh2 64 64, Wa⟩, ⟨Sh2 64 64, Wb⟩, ⟨Sh2 64 64, Wc⟩] hW (ix2 c j) 0 (by simp) (Sh2 64 64) Wa rfl rfl 0 rfl (ix2 k j)
    (fun b hb => by match b with | ⟨0, _⟩ => exact absurd rfl hb | ⟨1, _⟩ => rfl) (by show 0 + k.val = c.val; omega)

theorem rows3_mid (c : Fin 192) (k j : Fin 64) (hc : c.val = 64 + k.val) :
    concatenate (Sh2 192 64) 0 [⟨Sh2 64 64, Wa⟩, ⟨Sh2 64 64, Wb⟩, ⟨Sh2 64 64, Wc⟩] hW (ix2 c j) = Wb (ix2 k j) :=
  concatenate_apply_piece 0 [⟨Sh2 64 64, Wa⟩, ⟨Sh2 64 64, Wb⟩, ⟨Sh2 64 64, Wc⟩] hW (ix2 c j) 1 (by simp) (Sh2 64 64) Wb rfl rfl 64 rfl (ix2 k j)
    (fun b hb => by match b with | ⟨0, _⟩ => exact absurd rfl hb | ⟨1, _⟩ => rfl) (by show 64 + k.val = c.val; omega)

theorem rows3_bot (c : Fin 192) (k j : Fin 64) (hc : c.val = 128 + k.val) :
    concatenate (Sh2 192 64) 0 [⟨Sh2 64 64, Wa⟩, ⟨Sh2 64 64, Wb⟩, ⟨Sh2 64 64, Wc⟩] hW (ix2 c j) = Wc (ix2 k j) :=
  concatenate_apply_piece 0 [⟨Sh2 64 64, Wa⟩, ⟨Sh2 64 64, Wb⟩, ⟨Sh2 64 64, Wc⟩] hW (ix2 c j) 2 (by simp) (Sh2 64 64) Wc rfl rfl 128 rfl (ix2 k j)
    (fun b hb => by match b with | ⟨0, _⟩ => exact absurd rfl hb | ⟨1, _⟩ => rfl) (by show 128 + k.val = c.val; omega)

/-- The dense map of three blocks side by side against three blocks stacked: the three products added, plus the bias. -/
theorem denseAt_stacked3 (brow : Mat 1 64) (a : Fin n) (j : Fin 64) :
    denseAt (concatenate (Sh2 n 192) 1 [⟨Sh2 n 64, M⟩, ⟨Sh2 n 64, M'⟩, ⟨Sh2 n 64, x⟩] hX)
        (concatenate (Sh2 192 64) 0 [⟨Sh2 64 64, Wa⟩, ⟨Sh2 64 64, Wb⟩, ⟨Sh2 64 64, Wc⟩] hW) brow a j
      = ((∑ k : Fin 64, M (ix2 a k) * Wa (ix2 k j)) + (∑ k : Fin 64, M' (ix2 a k) * Wb (ix2 k j))
          + ∑ k : Fin 64, x (ix2 a k) * Wc (ix2 k j)) + brow (ix2 (0 : Fin 1) j) := by
  unfold denseAt
  refine congrArg (· + brow (ix2 (0 : Fin 1) j)) ?_
  rw [sum192, ← add_assoc]
  refine congrArg₂ (· + ·) (congrArg₂ (· + ·) (Finset.sum_congr rfl fun k _ => ?_) (Finset.sum_congr rfl fun k _ => ?_))
    (Finset.sum_congr rfl fun k _ => ?_)
  · rw [cols3_left M M' x hX a _ k rfl, rows3_top Wa Wb Wc hW _ k j rfl]
  · rw [cols3_mid M M' x hX a _ k rfl, rows3_mid Wa Wb Wc hW _ k j rfl]
  · rw [cols3_right M M' x hX a _ k rfl, rows3_bot Wa Wb Wc hW _ k j rfl]

end Three

section Two
variable {n : ℕ} (M x : Mat n 64)
  (hX : Shape.Concatenates [Sh2 n 64, Sh2 n 64] (Sh2 n 128) 1)

theorem cols2_left (a : Fin n) (c : Fin 128) (k : Fin 64) (hc : c.val = k.val) :
    concatenate (Sh2 n 128) 1 [⟨Sh2 n 64, M⟩, ⟨Sh2 n 64, x⟩] hX (ix2 a c) = M (ix2 a k) :=
  concatenate_apply_piece 1 [⟨Sh2 n 64, M⟩, ⟨Sh2 n 64, x⟩] hX (ix2 a c) 0 (by simp) (Sh2 n 64) M rfl rfl 0 rfl (ix2 a k)
    (fun b hb => by match b with | ⟨0, _⟩ => rfl | ⟨1, _⟩ => exact absurd rfl hb) (by show 0 + k.val = c.val; omega)

theorem cols2_right (a : Fin n) (c : Fin 128) (k : Fin 64) (hc : c.val = 64 + k.val) :
    concatenate (Sh2 n 128) 1 [⟨Sh2 n 64, M⟩, ⟨Sh2 n 64, x⟩] hX (ix2 a c) = x (ix2 a k) :=
  concatenate_apply_piece 1 [⟨Sh2 n 64, M⟩, ⟨Sh2 n 64, x⟩] hX (ix2 a c) 1 (by simp) (Sh2 n 64) x rfl rfl 64 rfl (ix2 a k)
    (fun b hb => by match b with | ⟨0, _⟩ => rfl | ⟨1, _⟩ => exact absurd rfl hb) (by show 64 + k.val = c.val; omega)

variable (Wa Wc : Mat 64 64) (hW : Shape.Concatenates [Sh2 64 64, Sh2 64 64] (Sh2 128 64) 0)

theorem rows2_top (c : Fin 128) (k j : Fin 64) (hc : c.val = k.val) :
    concatenate (Sh2 128 64) 0 [⟨Sh2 64 64, Wa⟩, ⟨Sh2 64 64, Wc⟩] hW (ix2 c j) = Wa (ix2 k j) :=
  concatenate_apply_piece 0 [⟨Sh2 64 64, Wa⟩, ⟨Sh2 64 64, Wc⟩] hW (ix2 c j) 0 (by simp) (Sh2 64 64) Wa rfl rfl 0 rfl (ix2 k j)
    (fun b hb => by match b with | ⟨0, _⟩ => exact absurd rfl hb | ⟨1, _⟩ => rfl) (by show 0 + k.val = c.val; omega)

theorem rows2_bot (c : Fin 128) (k j : Fin 64) (hc : c.val = 64 + k.val) :
    concatenate (Sh2 128 64) 0 [⟨Sh2 64 64, Wa⟩, ⟨Sh2 64 64, Wc⟩] hW (ix2 c j) = Wc (ix2 k j) :=
  concatenate_apply_piece 0 [⟨Sh2 64 64, Wa⟩, ⟨Sh2 64 64, Wc⟩] hW (ix2 c j) 1 (by simp) (Sh2 64 64) Wc rfl rfl 64 rfl (ix2 k j)
    (fun b hb => by match b with | ⟨0, _⟩ => exact absurd rfl hb | ⟨1, _⟩ => rfl) (by show 64 + k.val = c.val; omega)

/-- The dense map of two blocks side by side against two blocks stacked. -/
theorem denseAt_stacked2 (brow : Mat 1 64) (a : Fin n) (j : Fin 64) :
    denseAt (concatenate (Sh2 n 128) 1 [⟨Sh2 n 64, M⟩, ⟨Sh2 n 64, x⟩] hX)
        (concatenate (Sh2 128 64) 0 [⟨Sh2 64 64, Wa⟩, ⟨Sh2 64 64, Wc⟩] hW) brow a j
      = ((∑ k : Fin 64, M (ix2 a k) * Wa (ix2 k j)) + ∑ k : Fin 64, x (ix2 a k) * Wc (ix2 k j)) + brow (ix2 (0 : Fin 1) j) := by
  unfold denseAt
  refine congrArg (· + brow (ix2 (0 : Fin 1) j)) ?_
  rw [sum128]
  refine congrArg₂ (· + ·) (Finset.sum_congr rfl fun k _ => ?_) (Finset.sum_congr rfl fun k _ => ?_)
  · rw [cols2_left M x hX a _ k rfl, rows2_top Wa Wc hW _ k j rfl]
  · rw [cols2_right M x hX a _ k rfl, rows2_bot Wa Wc hW _ k j rfl]

end Two

/-! ## A block of the stacked parameters -/

/-- Layer l, relation r of stacked [2,6,64,64] weights, cut out as [1,1,64,64] and reshaped to [64,64], read at (k, j). -/
theorem slab_apply (l : Fin 2) (r : Fin 6) (Wm : W4) (off : Fin 4 → ℕ) (h0 : off 0 = l.val) (h1 : off 1 = r.val) (h2 : off 2 = 0) (h3 : off 3 = 0)
    (hs : (⟨4, ![2, 6, 64, 64]⟩ : Shape).Slices off ⟨4, ![1, 1, 64, 64]⟩)
    (hc : (⟨4, ![1, 1, 64, 64]⟩ : Shape).ShapeCasts (Sh2 64 64)) (k j : Fin 64) :
    shapeCast (Sh2 64 64) (extractStridedSlice ⟨4, ![1, 1, 64, 64]⟩ off Wm hs) hc (ix2 k j) = Wm (ix4 l r k j) := by
  refine (shapeCast_apply _ hc (ix2 k j) (ix4 (0 : Fin 1) (0 : Fin 1) k j) ?_).trans
    (extractStridedSlice_apply off Wm hs _ (ix4 l r k j) fun a => ?_)
  · rw [Shape.rowMajor_val_four, Shape.rowMajor_val_two]
    show (((0 * 1 + 0) * 64 + k.val) * 64 + j.val) = k.val * 64 + j.val
    omega
  · match a with
    | ⟨0, _⟩ => show l.val = off 0 + 0; omega
    | ⟨1, _⟩ => show r.val = off 1 + 0; omega
    | ⟨2, _⟩ => show k.val = off 2 + k.val; omega
    | ⟨3, _⟩ => show j.val = off 3 + j.val; omega

/-- Layer l, relation r of stacked [2,6,64] biases, cut out as [1,1,64] and reshaped to [64], read at j. -/
theorem brow_apply (l : Fin 2) (r : Fin 6) (b : B3) (off : Fin 3 → ℕ) (h0 : off 0 = l.val) (h1 : off 1 = r.val) (h2 : off 2 = 0)
    (hs : (⟨3, ![2, 6, 64]⟩ : Shape).Slices off ⟨3, ![1, 1, 64]⟩)
    (hc : (⟨3, ![1, 1, 64]⟩ : Shape).ShapeCasts ⟨1, ![64]⟩) (j : Fin 64) :
    shapeCast ⟨1, ![64]⟩ (extractStridedSlice ⟨3, ![1, 1, 64]⟩ off b hs) hc (ix1 j) = b (ix3 l r j) := by
  refine (shapeCast_apply _ hc (ix1 j) (ix3 (0 : Fin 1) (0 : Fin 1) j) ?_).trans
    (extractStridedSlice_apply off b hs _ (ix3 l r j) fun a => ?_)
  · rw [Shape.rowMajor_val_three, Shape.rowMajor_val_one]
    show ((0 * 1 + 0) * 64 + j.val) = j.val
    omega
  · match a with
    | ⟨0, _⟩ => show l.val = off 0 + 0; omega
    | ⟨1, _⟩ => show r.val = off 1 + 0; omega
    | ⟨2, _⟩ => show j.val = off 2 + j.val; omega

/-- A vector [64] reshaped to the one-row matrix [1,64], read at (0, j). -/
theorem vecRow_apply (v : (⟨1, ![64]⟩ : Shape).Idx → EReal) (hc : (⟨1, ![64]⟩ : Shape).ShapeCasts (Sh2 1 64)) (j : Fin 64) :
    shapeCast (Sh2 1 64) v hc (ix2 (0 : Fin 1) j) = v (ix1 j) := by
  refine shapeCast_apply _ hc _ _ ?_
  rw [Shape.rowMajor_val_one, Shape.rowMajor_val_two]
  show j.val = 0 * 64 + j.val
  omega

/-- A vector [o] reshaped to the one-row matrix [1,o] is the vector laid out as a row, for any width. -/
theorem shapeCast_row_eq_rowOf {o : ℕ} (v : (⟨1, ![o]⟩ : Shape).Idx → EReal) (hc : (⟨1, ![o]⟩ : Shape).ShapeCasts (Sh2 1 o)) :
    shapeCast (Sh2 1 o) v hc = rowOf v := by
  funext i
  unfold rowOf
  refine shapeCast_apply _ hc i (ix1 (i 1)) ?_
  rw [Shape.rowMajor_val_one, Shape.rowMajor_val_two]
  have h0 : (i 0).val = 0 := by have h1 : (i 0).val < 1 := (i 0).isLt; omega
  show (i 1).val = (i 0).val * o + (i 1).val
  rw [h0]; omega

end Cert.Spec

end
-- ==== Proof.Algebra.lean ====
/-
  The law that joins the two arrangements of a layer, and the facts that keep entries real.

  On the extended reals x·(u+v) = x·u + x·v holds when x, u, v are real numbers; it fails at infinities
  (⊤·(1 + (−1)) = 0 while ⊤·1 + ⊤·(−1) = ⊥). Everything else used here — adding zero, regrouping sums, summing a
  sum of two families term by term — holds in any commutative additive monoid. So the stacked arrangement
  (root weights summed first) equals the relation-by-relation one as soon as the node's own rows and the root
  weights are real; and real entries stay real under sums, products, quotients by a real at least one, maxima,
  and any re-indexing of entries.
-/
import proofs.«154750_j39152921870699_1_alg».proof.Proof.Spec

noncomputable section

open scoped BigOperators

namespace Cert.Spec

open Idealize.ShloMosaic Idealize.ShloMosaic.ValueIdx

/-- A real number times a sum of two real numbers distributes, inside the extended reals. -/
theorem mul_add_of_real {x u v : EReal} (hx : ∃ r : ℝ, x = (r : EReal)) (hu : ∃ r : ℝ, u = (r : EReal))
    (hv : ∃ r : ℝ, v = (r : EReal)) : x * (u + v) = x * u + x * v := by
  obtain ⟨a, rfl⟩ := hx; obtain ⟨b, rfl⟩ := hu; obtain ⟨c, rfl⟩ := hv
  rw [← EReal.coe_add, ← EReal.coe_mul, ← EReal.coe_mul, ← EReal.coe_mul, ← EReal.coe_add, mul_add]

/-- Two relations: the stacked arrangement is the relation-by-relation one when the node rows and the root weights are real. -/
theorem kerTwoAt_eq_refTwoAt {n : ℕ} (l : Fin 2) (r r' : Fin 6) (M M' x : Mat n 64) (Wm : W4) (b : B3) (Wr : W4)
    (a : Fin n) (j : Fin 64) (hx : IsReal x) (hW : IsReal Wr) :
    kerTwoAt l r r' M M' x Wm b Wr a j = refTwoAt l r r' M M' x Wm b Wr a j := by
  unfold kerTwoAt refTwoAt sageAt
  simp only [zero_add]
  have h : ∀ k : Fin 64, x (ix2 a k) * (Wr (ix4 l r k j) + Wr (ix4 l r' k j))
      = x (ix2 a k) * Wr (ix4 l r k j) + x (ix2 a k) * Wr (ix4 l r' k j) :=
    fun k => mul_add_of_real (hx _) (hW _) (hW _)
  rw [Finset.sum_congr rfl (fun k _ => h k), Finset.sum_add_distrib]
  abel

/-- One relation: nothing but zeros added. -/
theorem kerOneAt_eq_refOneAt {n : ℕ} (l : Fin 2) (r : Fin 6) (M x : Mat n 64) (Wm : W4) (b : B3) (Wr : W4)
    (a : Fin n) (j : Fin 64) : kerOneAt l r M x Wm b Wr a j = refOneAt l r M x Wm b Wr a j := by
  unfold kerOneAt refOneAt sageAt
  simp only [zero_add]
  abel

/-! ## Real entries stay real -/

theorem real_add {x y : EReal} (hx : ∃ r : ℝ, x = (r : EReal)) (hy : ∃ r : ℝ, y = (r : EReal)) : ∃ r : ℝ, x + y = (r : EReal) := by
  obtain ⟨a, rfl⟩ := hx; obtain ⟨b, rfl⟩ := hy; exact ⟨a + b, (EReal.coe_add a b).symm⟩

theorem real_mul {x y : EReal} (hx : ∃ r : ℝ, x = (r : EReal)) (hy : ∃ r : ℝ, y = (r : EReal)) : ∃ r : ℝ, x * y = (r : EReal) := by
  obtain ⟨a, rfl⟩ := hx; obtain ⟨b, rfl⟩ := hy; exact ⟨a * b, (EReal.coe_mul a b).symm⟩

theorem real_max {x y : EReal} (hx : ∃ r : ℝ, x = (r : EReal)) (hy : ∃ r : ℝ, y = (r : EReal)) : ∃ r : ℝ, max x y = (r : EReal) := by
  rcases max_choice x y with h | h <;> rw [h] <;> assumption

theorem real_zero : ∃ r : ℝ, (0 : EReal) = (r : EReal) := ⟨0, rfl⟩
theorem real_one : ∃ r : ℝ, (1 : EReal) = (r : EReal) := ⟨1, rfl⟩

/-- A finite sum of real numbers is a real number. -/
theorem real_sum {ι : Type} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by simp⟩
  | insert i s hi ih =>
    rw [Finset.sum_insert hi]
    exact real_add (h i (Finset.mem_insert_self i s)) (ih fun k hk => h k (Finset.mem_insert_of_mem hk))

/-- The quotient of a real number by a real number that is at least one is a real number. -/
theorem real_div_of_one_le {x y : EReal} (hx : ∃ r : ℝ, x = (r : EReal)) (hy : ∃ r : ℝ, y = (r : EReal)) (h1 : (1 : EReal) ≤ y) :
    ∃ r : ℝ, Ideal.div x y = (r : EReal) := by
  obtain ⟨a, rfl⟩ := hx; obtain ⟨b, rfl⟩ := hy
  have hb : (1 : ℝ) ≤ b := by exact_mod_cast h1
  have hb0 : b ≠ 0 := by linarith
  have hne : ((b : ℝ) : EReal) ≠ 0 := by exact_mod_cast hb0
  unfold Ideal.div
  rw [if_neg hne]
  refine ⟨a * b⁻¹, ?_⟩
  rw [← EReal.coe_inv, ← EReal.coe_mul]

/-- Entry (a, j) of a dense map of real arrays is real. -/
theorem real_denseAt {n k o : ℕ} (X : Mat n k) (W : Mat k o) (b : Mat 1 o) (a : Fin n) (j : Fin o)
    (hX : IsReal X) (hW : IsReal W) (hb : IsReal b) : ∃ r : ℝ, denseAt X W b a j = (r : EReal) :=
  real_add (real_sum _ _ fun c _ => real_mul (hX _) (hW _)) (hb _)

theorem isReal_denseRelu {n k o : ℕ} (X : Mat n k) (W : Mat k o) (b : Mat 1 o)
    (hX : IsReal X) (hW : IsReal W) (hb : IsReal b) : IsReal (denseRelu X W b) :=
  fun i => real_max (real_denseAt X W b (i 0) (i 1) hX hW hb) real_zero

/-- Re-indexing keeps entries real: every entry of the new array is an entry of the old one. -/
theorem IsReal.comp {ι κ : Type} {v : ι → EReal} (h : IsReal v) (f : κ → ι) : IsReal (fun k => v (f k)) := fun k => h (f k)

end Cert.Spec

end
-- ==== Proof.KerForm.lean ====
/-
  The stacked arrangement as the core computes it, named.

  The core's dense map takes the aggregated neighbours and the node's own rows laid side by side, against the message
  weights of each relation stacked on top of the SUM of the relations' root weights (added, in order, onto a zero
  matrix), plus the SUM of the relations' biases (added onto a zero vector). Each block of weights is layer l, relation r
  of a stacked parameter array, cut out and reshaped. Read entry by entry this is the stacked arrangement of the
  specification; with real node rows and real root weights it equals the relation-by-relation arrangement.
-/
import proofs.«154750_j39152921870699_1_alg».proof.Proof.Stacked
import proofs.«154750_j39152921870699_1_alg».proof.Proof.Algebra
import Idealize.ShloMosaic.PureOps.Ideal.Laws
import Idealize.ShloMosaic.Lib.ValueIdx

noncomputable section

open scoped BigOperators

namespace Cert.Spec

open Idealize.ShloMosaic Idealize.ShloMosaic.ValueIdx

/-- The word of zero broadcast to any shape reads zero everywhere. -/
theorem zeroBcast_apply {z t : Shape} (e : Fin z.rank → Fin t.rank) (hz : z.BroadcastsInDim t e) (i : t.Idx) :
    broadcastInDim t e hz (constant (F := Ideal) z .f32 0x00000000#32) i = 0 := by
  unfold broadcastInDim
  rw [constant_apply, Ideal.ofBits_zero_f32]

/-- Two relations: the core's dense map at (a, j) is the stacked arrangement. -/
theorem stacked3_kerTwo {n : ℕ} (l : Fin 2) (r r' : Fin 6) (M M' x : Mat n 64) (Wm : W4) (b : B3) (Wr : W4)
    (hX : Shape.Concatenates [Sh2 n 64, Sh2 n 64, Sh2 n 64] (Sh2 n 192) 1)
    (hW : Shape.Concatenates [Sh2 64 64, Sh2 64 64, Sh2 64 64] (Sh2 192 64) 0)
    (o1 o2 o3 o4 : Fin 4 → ℕ)
    (hs1 : (⟨4, ![2, 6, 64, 64]⟩ : Shape).Slices o1 ⟨4, ![1, 1, 64, 64]⟩) (hs2 : (⟨4, ![2, 6, 64, 64]⟩ : Shape).Slices o2 ⟨4, ![1, 1, 64, 64]⟩)
    (hs3 : (⟨4, ![2, 6, 64, 64]⟩ : Shape).Slices o3 ⟨4, ![1, 1, 64, 64]⟩) (hs4 : (⟨4, ![2, 6, 64, 64]⟩ : Shape).Slices o4 ⟨4, ![1, 1, 64, 64]⟩)
    (hc1 hc2 hc3 hc4 : (⟨4, ![1, 1, 64, 64]⟩ : Shape).ShapeCasts (Sh2 64 64))
    (e2 : Fin (⟨0, ![]⟩ : Shape).rank → Fin (Sh2 64 64).rank) (hz2 : (⟨0, ![]⟩ : Shape).BroadcastsInDim (Sh2 64 64) e2)
    (p1 p2 : Fin 3 → ℕ)
    (hsb1 : (⟨3, ![2, 6, 64]⟩ : Shape).Slices p1 ⟨3, ![1, 1, 64]⟩) (hsb2 : (⟨3, ![2, 6, 64]⟩ : Shape).Slices p2 ⟨3, ![1, 1, 64]⟩)
    (hcb1 hcb2 : (⟨3, ![1, 1, 64]⟩ : Shape).ShapeCasts ⟨1, ![64]⟩)
    (e1 : Fin (⟨0, ![]⟩ : Shape).rank → Fin (⟨1, ![64]⟩ : Shape).rank) (hz1 : (⟨0, ![]⟩ : Shape).BroadcastsInDim ⟨1, ![64]⟩ e1)
    (hcr : (⟨1, ![64]⟩ : Shape).ShapeCasts (Sh2 1 64))
    (ho1 : o1 0 = l.val ∧ o1 1 = r.val ∧ o1 2 = 0 ∧ o1 3 = 0) (ho2 : o2 0 = l.val ∧ o2 1 = r'.val ∧ o2 2 = 0 ∧ o2 3 = 0)
    (ho3 : o3 0 = l.val ∧ o3 1 = r.val ∧ o3 2 = 0 ∧ o3 3 = 0) (ho4 : o4 0 = l.val ∧ o4 1 = r'.val ∧ o4 2 = 0 ∧ o4 3 = 0)
    (hp1 : p1 0 = l.val ∧ p1 1 = r.val ∧ p1 2 = 0) (hp2 : p2 0 = l.val ∧ p2 1 = r'.val ∧ p2 2 = 0)
    (a : Fin n) (j : Fin 64) :
    denseAt (concatenate (Sh2 n 192) 1 [⟨Sh2 n 64, M⟩, ⟨Sh2 n 64, M'⟩, ⟨Sh2 n 64, x⟩] hX)
        (concatenate (Sh2 192 64) 0 [⟨Sh2 64 64, (shapeCast (Sh2 64 64) (extractStridedSlice (⟨4, ![1, 1, 64, 64]⟩ : Shape) o1 Wm hs1) hc1)⟩, ⟨Sh2 64 64, (shapeCast (Sh2 64 64) (extractStridedSlice (⟨4, ![1, 1, 64, 64]⟩ : Shape) o2 Wm hs2) hc2)⟩,
          ⟨Sh2 64 64, (addf (F := Ideal) (φ := .f32) (addf (F := Ideal) (φ := .f32) (broadcastInDim (Sh2 64 64) e2 hz2 (constant (F := Ideal) (⟨0, ![]⟩ : Shape) .f32 0x00000000#32)) (shapeCast (Sh2 64 64) (extractStridedSlice (⟨4, ![1, 1, 64, 64]⟩ : Shape) o3 Wr hs3) hc3)) (shapeCast (Sh2 64 64) (extractStridedSlice (⟨4, ![1, 1, 64, 64]⟩ : Shape) o4 Wr hs4) hc4))⟩] hW)
        (shapeCast (Sh2 1 64) (addf (F := Ideal) (φ := .f32) (addf (F := Ideal) (φ := .f32) (broadcastInDim (⟨1, ![64]⟩ : Shape) e1 hz1 (constant (F := Ideal) (⟨0, ![]⟩ : Shape) .f32 0x00000000#32)) (shapeCast (⟨1, ![64]⟩ : Shape) (extractStridedSlice (⟨3, ![1, 1, 64]⟩ : Shape) p1 b hsb1) hcb1)) (shapeCast (⟨1, ![64]⟩ : Shape) (extractStridedSlice (⟨3, ![1, 1, 64]⟩ : Shape) p2 b hsb2) hcb2)) hcr) a j
      = kerTwoAt l r r' M M' x Wm b Wr a j := by
  rw [denseAt_stacked3]
  unfold kerTwoAt
  refine congrArg₂ (· + ·) (congrArg₂ (· + ·) (congrArg₂ (· + ·) (Finset.sum_congr rfl fun k _ => ?_)
    (Finset.sum_congr rfl fun k _ => ?_)) (Finset.sum_congr rfl fun k _ => ?_)) ?_
  · rw [slab_apply l r Wm o1 ho1.1 ho1.2.1 ho1.2.2.1 ho1.2.2.2 hs1 hc1 k j]
  · rw [slab_apply l r' Wm o2 ho2.1 ho2.2.1 ho2.2.2.1 ho2.2.2.2 hs2 hc2 k j]
  · rw [addf_apply, addf_apply, zeroBcast_apply, slab_apply l r Wr o3 ho3.1 ho3.2.1 ho3.2.2.1 ho3.2.2.2 hs3 hc3 k j,
      slab_apply l r' Wr o4 ho4.1 ho4.2.1 ho4.2.2.1 ho4.2.2.2 hs4 hc4 k j]
  · rw [vecRow_apply, addf_apply, addf_apply, zeroBcast_apply, brow_apply l r b p1 hp1.1 hp1.2.1 hp1.2.2 hsb1 hcb1 j,
      brow_apply l r' b p2 hp2.1 hp2.2.1 hp2.2.2 hsb2 hcb2 j]

/-- One relation: the core's dense map at (a, j) is the stacked arrangement. -/
theorem stacked2_kerOne {n : ℕ} (l : Fin 2) (r : Fin 6) (M x : Mat n 64) (Wm : W4) (b : B3) (Wr : W4)
    (hX : Shape.Concatenates [Sh2 n 64, Sh2 n 64] (Sh2 n 128) 1)
    (hW : Shape.Concatenates [Sh2 64 64, Sh2 64 64] (Sh2 128 64) 0)
    (o1 o3 : Fin 4 → ℕ)
    (hs1 : (⟨4, ![2, 6, 64, 64]⟩ : Shape).Slices o1 ⟨4, ![1, 1, 64, 64]⟩) (hs3 : (⟨4, ![2, 6, 64, 64]⟩ : Shape).Slices o3 ⟨4, ![1, 1, 64, 64]⟩)
    (hc1 hc3 : (⟨4, ![1, 1, 64, 64]⟩ : Shape).ShapeCasts (Sh2 64 64))
    (e2 : Fin (⟨0, ![]⟩ : Shape).rank → Fin (Sh2 64 64).rank) (hz2 : (⟨0, ![]⟩ : Shape).BroadcastsInDim (Sh2 64 64) e2)
    (p1 : Fin 3 → ℕ)
    (hsb1 : (⟨3, ![2, 6, 64]⟩ : Shape).Slices p1 ⟨3, ![1, 1, 64]⟩)
    (hcb1 : (⟨3, ![1, 1, 64]⟩ : Shape).ShapeCasts ⟨1, ![64]⟩)
    (e1 : Fin (⟨0, ![]⟩ : Shape).rank → Fin (⟨1, ![64]⟩ : Shape).rank) (hz1 : (⟨0, ![]⟩ : Shape).BroadcastsInDim ⟨1, ![64]⟩ e1)
    (hcr : (⟨1, ![64]⟩ : Shape).ShapeCasts (Sh2 1 64))
    (ho1 : o1 0 = l.val ∧ o1 1 = r.val ∧ o1 2 = 0 ∧ o1 3 = 0) (ho3 : o3 0 = l.val ∧ o3 1 = r.val ∧ o3 2 = 0 ∧ o3 3 = 0)
    (hp1 : p1 0 = l.val ∧ p1 1 = r.val ∧ p1 2 = 0)
    (a : Fin n) (j : Fin 64) :
    denseAt (concatenate (Sh2 n 128) 1 [⟨Sh2 n 64, M⟩, ⟨Sh2 n 64, x⟩] hX)
        (concatenate (Sh2 128 64) 0 [⟨Sh2 64 64, (shapeCast (Sh2 64 64) (extractStridedSlice (⟨4, ![1, 1, 64, 64]⟩ : Shape) o1 Wm hs1) hc1)⟩,
          ⟨Sh2 64 64, (addf (F := Ideal) (φ := .f32) (broadcastInDim (Sh2 64 64) e2 hz2 (constant (F := Ideal) (⟨0, ![]⟩ : Shape) .f32 0x00000000#32)) (shapeCast (Sh2 64 64) (extractStridedSlice (⟨4, ![1, 1, 64, 64]⟩ : Shape) o3 Wr hs3) hc3))⟩] hW)
        (shapeCast (Sh2 1 64) (addf (F := Ideal) (φ := .f32) (broadcastInDim (⟨1, ![64]⟩ : Shape) e1 hz1 (constant (F := Ideal) (⟨0, ![]⟩ : Shape) .f32 0x00000000#32)) (shapeCast (⟨1, ![64]⟩ : Shape) (extractStridedSlice (⟨3, ![1, 1, 64]⟩ : Shape) p1 b hsb1) hcb1)) hcr) a j
      = kerOneAt l r M x Wm b Wr a j := by
  rw [denseAt_stacked2]
  unfold kerOneAt
  refine congrArg₂ (· + ·) (congrArg₂ (· + ·) (Finset.sum_congr rfl fun k _ => ?_) (Finset.sum_congr rfl fun k _ => ?_)) ?_
  · rw [slab_apply l r Wm o1 ho1.1 ho1.2.1 ho1.2.2.1 ho1.2.2.2 hs1 hc1 k j]
  · rw [addf_apply, zeroBcast_apply, slab_apply l r Wr o3 ho3.1 ho3.2.1 ho3.2.2.1 ho3.2.2.2 hs3 hc3 k j]
  · rw [vecRow_apply, addf_apply, zeroBcast_apply, brow_apply l r b p1 hp1.1 hp1.2.1 hp1.2.2 hsb1 hcb1 j]

/-- Two relations, clamped: with real node rows and real root weights the core's layer is the relation-by-relation
    layer, clamped at zero. -/
theorem layer_two_relu {n : ℕ} (l : Fin 2) (r r' : Fin 6) (M M' x : Mat n 64) (Wm : W4) (b : B3) (Wr : W4)
    (hX : Shape.Concatenates [Sh2 n 64, Sh2 n 64, Sh2 n 64] (Sh2 n 192) 1)
    (hW : Shape.Concatenates [Sh2 64 64, Sh2 64 64, Sh2 64 64] (Sh2 192 64) 0)
    (o1 o2 o3 o4 : Fin 4 → ℕ)
    (hs1 : (⟨4, ![2, 6, 64, 64]⟩ : Shape).Slices o1 ⟨4, ![1, 1, 64, 64]⟩) (hs2 : (⟨4, ![2, 6, 64, 64]⟩ : Shape).Slices o2 ⟨4, ![1, 1, 64, 64]⟩)
    (hs3 : (⟨4, ![2, 6, 64, 64]⟩ : Shape).Slices o3 ⟨4, ![1, 1, 64, 64]⟩) (hs4 : (⟨4, ![2, 6, 64, 64]⟩ : Shape).Slices o4 ⟨4, ![1, 1, 64, 64]⟩)
    (hc1 hc2 hc3 hc4 : (⟨4, ![1, 1, 64, 64]⟩ : Shape).ShapeCasts (Sh2 64 64))
    (e2 : Fin (⟨0, ![]⟩ : Shape).rank → Fin (Sh2 64 64).rank) (hz2 : (⟨0, ![]⟩ : Shape).BroadcastsInDim (Sh2 64 64) e2)
    (p1 p2 : Fin 3 → ℕ)
    (hsb1 : (⟨3, ![2, 6, 64]⟩ : Shape).Slices p1 ⟨3, ![1, 1, 64]⟩) (hsb2 : (⟨3, ![2, 6, 64]⟩ : Shape).Slices p2 ⟨3, ![1, 1, 64]⟩)
    (hcb1 hcb2 : (⟨3, ![1, 1, 64]⟩ : Shape).ShapeCasts ⟨1, ![64]⟩)
    (e1 : Fin (⟨0, ![]⟩ : Shape).rank → Fin (⟨1, ![64]⟩ : Shape).rank) (hz1 : (⟨0, ![]⟩ : Shape).BroadcastsInDim ⟨1, ![64]⟩ e1)
    (hcr : (⟨1, ![64]⟩ : Shape).ShapeCasts (Sh2 1 64))
    (ho1 : o1 0 = l.val ∧ o1 1 = r.val ∧ o1 2 = 0 ∧ o1 3 = 0) (ho2 : o2 0 = l.val ∧ o2 1 = r'.val ∧ o2 2 = 0 ∧ o2 3 = 0)
    (ho3 : o3 0 = l.val ∧ o3 1 = r.val ∧ o3 2 = 0 ∧ o3 3 = 0) (ho4 : o4 0 = l.val ∧ o4 1 = r'.val ∧ o4 2 = 0 ∧ o4 3 = 0)
    (hp1 : p1 0 = l.val ∧ p1 1 = r.val ∧ p1 2 = 0) (hp2 : p2 0 = l.val ∧ p2 1 = r'.val ∧ p2 2 = 0)
    (hx : IsReal x) (hWr : IsReal Wr) :
    denseRelu (concatenate (Sh2 n 192) 1 [⟨Sh2 n 64, M⟩, ⟨Sh2 n 64, M'⟩, ⟨Sh2 n 64, x⟩] hX)
        (concatenate (Sh2 192 64) 0 [⟨Sh2 64 64, (shapeCast (Sh2 64 64) (extractStridedSlice (⟨4, ![1, 1, 64, 64]⟩ : Shape) o1 Wm hs1) hc1)⟩, ⟨Sh2 64 64, (shapeCast (Sh2 64 64) (extractStridedSlice (⟨4, ![1, 1, 64, 64]⟩ : Shape) o2 Wm hs2) hc2)⟩,
          ⟨Sh2 64 64, (addf (F := Ideal) (φ := .f32) (addf (F := Ideal) (φ := .f32) (broadcastInDim (Sh2 64 64) e2 hz2 (constant (F := Ideal) (⟨0, ![]⟩ : Shape) .f32 0x00000000#32)) (shapeCast (Sh2 64 64) (extractStridedSlice (⟨4, ![1, 1, 64, 64]⟩ : Shape) o3 Wr hs3) hc3)) (shapeCast (Sh2 64 64) (extractStridedSlice (⟨4, ![1, 1, 64, 64]⟩ : Shape) o4 Wr hs4) hc4))⟩] hW)
        (shapeCast (Sh2 1 64) (addf (F := Ideal) (φ := .f32) (addf (F := Ideal) (φ := .f32) (broadcastInDim (⟨1, ![64]⟩ : Shape) e1 hz1 (constant (F := Ideal) (⟨0, ![]⟩ : Shape) .f32 0x00000000#32)) (shapeCast (⟨1, ![64]⟩ : Shape) (extractStridedSlice (⟨3, ![1, 1, 64]⟩ : Shape) p1 b hsb1) hcb1)) (shapeCast (⟨1, ![64]⟩ : Shape) (extractStridedSlice (⟨3, ![1, 1, 64]⟩ : Shape) p2 b hsb2) hcb2)) hcr)
      = fun i => max (refTwoAt l r r' M M' x Wm b Wr (i 0) (i 1)) 0 := by
  funext i
  unfold denseRelu
  rw [stacked3_kerTwo l r r' M M' x Wm b Wr hX hW o1 o2 o3 o4 hs1 hs2 hs3 hs4 hc1 hc2 hc3 hc4 e2 hz2 p1 p2 hsb1 hsb2 hcb1 hcb2 e1 hz1 hcr ho1 ho2 ho3 ho4 hp1 hp2 (i 0) (i 1),
    kerTwoAt_eq_refTwoAt l r r' M M' x Wm b Wr (i 0) (i 1) hx hWr]

/-- Two relations, not clamped. -/
theorem layer_two_lin {n : ℕ} (l : Fin 2) (r r' : Fin 6) (M M' x : Mat n 64) (Wm : W4) (b : B3) (Wr : W4)
    (hX : Shape.Concatenates [Sh2 n 64, Sh2 n 64, Sh2 n 64] (Sh2 n 192) 1)
    (hW : Shape.Concatenates [Sh2 64 64, Sh2 64 64, Sh2 64 64] (Sh2 192 64) 0)
    (o1 o2 o3 o4 : Fin 4 → ℕ)
    (hs1 : (⟨4, ![2, 6, 64, 64]⟩ : Shape).Slices o1 ⟨4, ![1, 1, 64, 64]⟩) (hs2 : (⟨4, ![2, 6, 64, 64]⟩ : Shape).Slices o2 ⟨4, ![1, 1, 64, 64]⟩)
    (hs3 : (⟨4, ![2, 6, 64, 64]⟩ : Shape).Slices o3 ⟨4, ![1, 1, 64, 64]⟩) (hs4 : (⟨4, ![2, 6, 64, 64]⟩ : Shape).Slices o4 ⟨4, ![1, 1, 64, 64]⟩)
    (hc1 hc2 hc3 hc4 : (⟨4, ![1, 1, 64, 64]⟩ : Shape).ShapeCasts (Sh2 64 64))
    (e2 : Fin (⟨0, ![]⟩ : Shape).rank → Fin (Sh2 64 64).rank) (hz2 : (⟨0, ![]⟩ : Shape).BroadcastsInDim (Sh2 64 64) e2)
    (p1 p2 : Fin 3 → ℕ)
    (hsb1 : (⟨3, ![2, 6, 64]⟩ : Shape).Slices p1 ⟨3, ![1, 1, 64]⟩) (hsb2 : (⟨3, ![2, 6, 64]⟩ : Shape).Slices p2 ⟨3, ![1, 1, 64]⟩)
    (hcb1 hcb2 : (⟨3, ![1, 1, 64]⟩ : Shape).ShapeCasts ⟨1, ![64]⟩)
    (e1 : Fin (⟨0, ![]⟩ : Shape).rank → Fin (⟨1, ![64]⟩ : Shape).rank) (hz1 : (⟨0, ![]⟩ : Shape).BroadcastsInDim ⟨1, ![64]⟩ e1)
    (hcr : (⟨1, ![64]⟩ : Shape).ShapeCasts (Sh2 1 64))
    (ho1 : o1 0 = l.val ∧ o1 1 = r.val ∧ o1 2 = 0 ∧ o1 3 = 0) (ho2 : o2 0 = l.val ∧ o2 1 = r'.val ∧ o2 2 = 0 ∧ o2 3 = 0)
    (ho3 : o3 0 = l.val ∧ o3 1 = r.val ∧ o3 2 = 0 ∧ o3 3 = 0) (ho4 : o4 0 = l.val ∧ o4 1 = r'.val ∧ o4 2 = 0 ∧ o4 3 = 0)
    (hp1 : p1 0 = l.val ∧ p1 1 = r.val ∧ p1 2 = 0) (hp2 : p2 0 = l.val ∧ p2 1 = r'.val ∧ p2 2 = 0)
    (hx : IsReal x) (hWr : IsReal Wr) :
    dense (concatenate (Sh2 n 192) 1 [⟨Sh2 n 64, M⟩, ⟨Sh2 n 64, M'⟩, ⟨Sh2 n 64, x⟩] hX)
        (concatenate (Sh2 192 64) 0 [⟨Sh2 64 64, (shapeCast (Sh2 64 64) (extractStridedSlice (⟨4, ![1, 1, 64, 64]⟩ : Shape) o1 Wm hs1) hc1)⟩, ⟨Sh2 64 64, (shapeCast (Sh2 64 64) (extractStridedSlice (⟨4, ![1, 1, 64, 64]⟩ : Shape) o2 Wm hs2) hc2)⟩,
          ⟨Sh2 64 64, (addf (F := Ideal) (φ := .f32) (addf (F := Ideal) (φ := .f32) (broadcastInDim (Sh2 64 64) e2 hz2 (constant (F := Ideal) (⟨0, ![]⟩ : Shape) .f32 0x00000000#32)) (shapeCast (Sh2 64 64) (extractStridedSlice (⟨4, ![1, 1, 64, 64]⟩ : Shape) o3 Wr hs3) hc3)) (shapeCast (Sh2 64 64) (extractStridedSlice (⟨4, ![1, 1, 64, 64]⟩ : Shape) o4 Wr hs4) hc4))⟩] hW)
        (shapeCast (Sh2 1 64) (addf (F := Ideal) (φ := .f32) (addf (F := Ideal) (φ := .f32) (broadcastInDim (⟨1, ![64]⟩ : Shape) e1 hz1 (constant (F := Ideal) (⟨0, ![]⟩ : Shape) .f32 0x00000000#32)) (shapeCast (⟨1, ![64]⟩ : Shape) (extractStridedSlice (⟨3, ![1, 1, 64]⟩ : Shape) p1 b hsb1) hcb1)) (shapeCast (⟨1, ![64]⟩ : Shape) (extractStridedSlice (⟨3, ![1, 1, 64]⟩ : Shape) p2 b hsb2) hcb2)) hcr)
      = fun i => refTwoAt l r r' M M' x Wm b Wr (i 0) (i 1) := by
  funext i
  unfold dense
  rw [stacked3_kerTwo l r r' M M' x Wm b Wr hX hW o1 o2 o3 o4 hs1 hs2 hs3 hs4 hc1 hc2 hc3 hc4 e2 hz2 p1 p2 hsb1 hsb2 hcb1 hcb2 e1 hz1 hcr ho1 ho2 ho3 ho4 hp1 hp2 (i 0) (i 1),
    kerTwoAt_eq_refTwoAt l r r' M M' x Wm b Wr (i 0) (i 1) hx hWr]

/-- One relation, clamped: nothing but zeros are added, so no entry needs to be real. -/
theorem layer_one_relu {n : ℕ} (l : Fin 2) (r : Fin 6) (M x : Mat n 64) (Wm : W4) (b : B3) (Wr : W4)
    (hX : Shape.Concatenates [Sh2 n 64, Sh2 n 64] (Sh2 n 128) 1)
    (hW : Shape.Concatenates [Sh2 64 64, Sh2 64 64] (Sh2 128 64) 0)
    (o1 o3 : Fin 4 → ℕ)
    (hs1 : (⟨4, ![2, 6, 64, 64]⟩ : Shape).Slices o1 ⟨4, ![1, 1, 64, 64]⟩) (hs3 : (⟨4, ![2, 6, 64, 64]⟩ : Shape).Slices o3 ⟨4, ![1, 1, 64, 64]⟩)
    (hc1 hc3 : (⟨4, ![1, 1, 64, 64]⟩ : Shape).ShapeCasts (Sh2 64 64))
    (e2 : Fin (⟨0, ![]⟩ : Shape).rank → Fin (Sh2 64 64).rank) (hz2 : (⟨0, ![]⟩ : Shape).BroadcastsInDim (Sh2 64 64) e2)
    (p1 : Fin 3 → ℕ)
    (hsb1 : (⟨3, ![2, 6, 64]⟩ : Shape).Slices p1 ⟨3, ![1, 1, 64]⟩)
    (hcb1 : (⟨3, ![1, 1, 64]⟩ : Shape).ShapeCasts ⟨1, ![64]⟩)
    (e1 : Fin (⟨0, ![]⟩ : Shape).rank → Fin (⟨1, ![64]⟩ : Shape).rank) (hz1 : (⟨0, ![]⟩ : Shape).BroadcastsInDim ⟨1, ![64]⟩ e1)
    (hcr : (⟨1, ![64]⟩ : Shape).ShapeCasts (Sh2 1 64))
    (ho1 : o1 0 = l.val ∧ o1 1 = r.val ∧ o1 2 = 0 ∧ o1 3 = 0) (ho3 : o3 0 = l.val ∧ o3 1 = r.val ∧ o3 2 = 0 ∧ o3 3 = 0)
    (hp1 : p1 0 = l.val ∧ p1 1 = r.val ∧ p1 2 = 0) :
    denseRelu (concatenate (Sh2 n 128) 1 [⟨Sh2 n 64, M⟩, ⟨Sh2 n 64, x⟩] hX)
        (concatenate (Sh2 128 64) 0 [⟨Sh2 64 64, (shapeCast (Sh2 64 64) (extractStridedSlice (⟨4, ![1, 1, 64, 64]⟩ : Shape) o1 Wm hs1) hc1)⟩,
          ⟨Sh2 64 64, (addf (F := Ideal) (φ := .f32) (broadcastInDim (Sh2 64 64) e2 hz2 (constant (F := Ideal) (⟨0, ![]⟩ : Shape) .f32 0x00000000#32)) (shapeCast (Sh2 64 64) (extractStridedSlice (⟨4, ![1, 1, 64, 64]⟩ : Shape) o3 Wr hs3) hc3))⟩] hW)
        (shapeCast (Sh2 1 64) (addf (F := Ideal) (φ := .f32) (broadcastInDim (⟨1, ![64]⟩ : Shape) e1 hz1 (constant (F := Ideal) (⟨0, ![]⟩ : Shape) .f32 0x00000000#32)) (shapeCast (⟨1, ![64]⟩ : Shape) (extractStridedSlice (⟨3, ![1, 1, 64]⟩ : Shape) p1 b hsb1) hcb1)) hcr)
      = fun i => max (refOneAt l r M x Wm b Wr (i 0) (i 1)) 0 := by
  funext i
  unfold denseRelu
  rw [stacked2_kerOne l r M x Wm b Wr hX hW o1 o3 hs1 hs3 hc1 hc3 e2 hz2 p1 hsb1 hcb1 e1 hz1 hcr ho1 ho3 hp1 (i 0) (i 1),
    kerOneAt_eq_refOneAt l r M x Wm b Wr (i 0) (i 1)]

/-- One relation, not clamped. -/
theorem layer_one_lin {n : ℕ} (l : Fin 2) (r : Fin 6) (M x : Mat n 64) (Wm : W4) (b : B3) (Wr : W4)
    (hX : Shape.Concatenates [Sh2 n 64, Sh2 n 64] (Sh2 n 128) 1)
    (hW : Shape.Concatenates [Sh2 64 64, Sh2 64 64] (Sh2 128 64) 0)
    (o1 o3 : Fin 4 → ℕ)
    (hs1 : (⟨4, ![2, 6, 64, 64]⟩ : Shape).Slices o1 ⟨4, ![1, 1, 64, 64]⟩) (hs3 : (⟨4, ![2, 6, 64, 64]⟩ : Shape).Slices o3 ⟨4, ![1, 1, 64, 64]⟩)
    (hc1 hc3 : (⟨4, ![1, 1, 64, 64]⟩ : Shape).ShapeCasts (Sh2 64 64))
    (e2 : Fin (⟨0, ![]⟩ : Shape).rank → Fin (Sh2 64 64).rank) (hz2 : (⟨0, ![]⟩ : Shape).BroadcastsInDim (Sh2 64 64) e2)
    (p1 : Fin 3 → ℕ)
    (hsb1 : (⟨3, ![2, 6, 64]⟩ : Shape).Slices p1 ⟨3, ![1, 1, 64]⟩)
    (hcb1 : (⟨3, ![1, 1, 64]⟩ : Shape).ShapeCasts ⟨1, ![64]⟩)
    (e1 : Fin (⟨0, ![]⟩ : Shape).rank → Fin (⟨1, ![64]⟩ : Shape).rank) (hz1 : (⟨0, ![]⟩ : Shape).BroadcastsInDim ⟨1, ![64]⟩ e1)
    (hcr : (⟨1, ![64]⟩ : Shape).ShapeCasts (Sh2 1 64))
    (ho1 : o1 0 = l.val ∧ o1 1 = r.val ∧ o1 2 = 0 ∧ o1 3 = 0) (ho3 : o3 0 = l.val ∧ o3 1 = r.val ∧ o3 2 = 0 ∧ o3 3 = 0)
    (hp1 : p1 0 = l.val ∧ p1 1 = r.val ∧ p1 2 = 0) :
    dense (concatenate (Sh2 n 128) 1 [⟨Sh2 n 64, M⟩, ⟨Sh2 n 64, x⟩] hX)
        (concatenate (Sh2 128 64) 0 [⟨Sh2 64 64, (shapeCast (Sh2 64 64) (extractStridedSlice (⟨4, ![1, 1, 64, 64]⟩ : Shape) o1 Wm hs1) hc1)⟩,
          ⟨Sh2 64 64, (addf (F := Ideal) (φ := .f32) (broadcastInDim (Sh2 64 64) e2 hz2 (constant (F := Ideal) (⟨0, ![]⟩ : Shape) .f32 0x00000000#32)) (shapeCast (Sh2 64 64) (extractStridedSlice (⟨4, ![1, 1, 64, 64]⟩ : Shape) o3 Wr hs3) hc3))⟩] hW)
        (shapeCast (Sh2 1 64) (addf (F := Ideal) (φ := .f32) (broadcastInDim (⟨1, ![64]⟩ : Shape) e1 hz1 (constant (F := Ideal) (⟨0, ![]⟩ : Shape) .f32 0x00000000#32)) (shapeCast (⟨1, ![64]⟩ : Shape) (extractStridedSlice (⟨3, ![1, 1, 64]⟩ : Shape) p1 b hsb1) hcb1)) hcr)
      = fun i => refOneAt l r M x Wm b Wr (i 0) (i 1) := by
  funext i
  unfold dense
  rw [stacked2_kerOne l r M x Wm b Wr hX hW o1 o3 hs1 hs3 hc1 hc3 e2 hz2 p1 hsb1 hcb1 e1 hz1 hcr ho1 ho3 hp1 (i 0) (i 1),
    kerOneAt_eq_refOneAt l r M x Wm b Wr (i 0) (i 1)]

end Cert.Spec

end
-- ==== Proof.PreReal.lean ====
/-
  From the precondition to real entries.

  The precondition says, of each floating-point argument array, that every entry x satisfies |x| < +∞, and joins
  these statements by "and". On the extended reals |x| is max x (−x), the word 0x7F800000 denotes ⊤, and
  max x (−x) < ⊤ rules out x = ⊤ and x = ⊥ (where −x = ⊤): what is left is a real number. So each of the eleven
  floating-point arguments has only real entries.
-/
import proofs.«154750_j39152921870699_1_alg».proof.Defs
import proofs.«154750_j39152921870699_1_alg».proof.Proof.Gen.Pre_finite_inputs
import proofs.«154750_j39152921870699_1_alg».proof.Proof.Spec
import Idealize.ShloMosaic.Lib.ReduceAll

noncomputable section

namespace Cert.Spec

open Idealize.ShloMosaic Idealize.ShloMosaic.ValueIdx

/-- The shape with no axes has one index. -/
instance subsingleton_scalarIdx : Subsingleton (⟨0, ![]⟩ : Shape).Idx := ⟨fun a b => funext fun d => d.elim0⟩

/-- The word 0x7F800000 denotes +∞. -/
theorem ofBits_inf_f32 : Ideal.ofBits .f32 0x7F800000#32 = ⊤ := by simp [Ideal.ofBits, Ideal.ieee]

/-- An extended real whose absolute value is below +∞ is a real number. -/
theorem real_of_abs_lt_inf (x : EReal)
    (h : FloatOps.cmpf (F := Ideal) (φ := .f32) .olt (FloatOps.hostAbsf (F := Ideal) (φ := .f32) x)
          (FloatOps.ofBits (F := Ideal) .f32 0x7F800000#32) = 1#1) :
    ∃ r : ℝ, x = (r : EReal) := by
  change BitVec.ofBool (decide (max x (-x) < Ideal.ofBits .f32 0x7F800000#32)) = 1#1 at h
  rw [ofBits_inf_f32] at h
  have hlt : max x (-x) < ⊤ := by
    by_contra hn
    rw [decide_eq_false hn] at h
    exact absurd h (by decide)
  induction x using EReal.rec with
  | bot => exact absurd hlt (by simp)
  | coe r => exact ⟨r, rfl⟩
  | top => exact absurd hlt (by simp)

/-- One argument's part of the precondition, for any shape: if "all entries have absolute value below +∞" came out
    true, every entry is a real number. -/
theorem isReal_of_all_finite {s z u : Shape} [Subsingleton z.Idx] {axes : List (Fin s.rank)} (x : FVec Ideal s .f32)
    (e : Fin z.rank → Fin s.rank) (hb : z.BroadcastsInDim s e) (hr : s.ReducesTo axes z) (hu : 0 < u.numel)
    (init : IVec u 1) (j : z.Idx)
    (h : Host.reduce IntOp.andi (cmpf .olt (Host.absf x) (broadcastInDim s e hb (constant (F := Ideal) z .f32 0x7F800000#32)))
          init hr hu j = 1#1) :
    IsReal x := fun i =>
  real_of_abs_lt_inf (x i) (Host.reduce_andi_all _ init hr hu j h i)

/-- Both operands of an "and" that came out true are true. -/
theorem andi_split {s : Shape} (a b : IVec s 1) (i : s.Idx) (h : andi a b i = 1#1) : a i = 1#1 ∧ b i = 1#1 :=
  IntOp.andi_eq_one.1 h

/-- Under the precondition the eleven floating-point arguments have real entries (arguments 0 to 10, in order). -/
theorem args_real (m : (ℓ : Loc Cert.KernelIdeal.nD Cert.KernelIdeal.τ Cert.KernelIdeal.sig) → Buf (Elt Ideal) ℓ)
    (h : Cert.Pre_KernelIdeal m) (c : Dev Cert.KernelIdeal.nD) :
    IsReal (m ((c.tc : Thread Cert.KernelIdeal.nD Cert.KernelIdeal.τ).loc Cert.KernelIdeal.main_arg0))
    ∧ IsReal (m ((c.tc : Thread Cert.KernelIdeal.nD Cert.KernelIdeal.τ).loc Cert.KernelIdeal.main_arg1))
    ∧ IsReal (m ((c.tc : Thread Cert.KernelIdeal.nD Cert.KernelIdeal.τ).loc Cert.KernelIdeal.main_arg2))
    ∧ IsReal (m ((c.tc : Thread Cert.KernelIdeal.nD Cert.KernelIdeal.τ).loc Cert.KernelIdeal.main_arg3))
    ∧ IsReal (m ((c.tc : Thread Cert.KernelIdeal.nD Cert.KernelIdeal.τ).loc Cert.KernelIdeal.main_arg4))
    ∧ IsReal (m ((c.tc : Thread Cert.KernelIdeal.nD Cert.KernelIdeal.τ).loc Cert.KernelIdeal.main_arg5))
    ∧ IsReal (m ((c.tc : Thread Cert.KernelIdeal.nD Cert.KernelIdeal.τ).loc Cert.KernelIdeal.main_arg6))
    ∧ IsReal (m ((c.tc : Thread Cert.KernelIdeal.nD Cert.KernelIdeal.τ).loc Cert.KernelIdeal.main_arg7))
    ∧ IsReal (m ((c.tc : Thread Cert.KernelIdeal.nD Cert.KernelIdeal.τ).loc Cert.KernelIdeal.main_arg8))
    ∧ IsReal (m ((c.tc : Thread Cert.KernelIdeal.nD Cert.KernelIdeal.τ).loc Cert.KernelIdeal.main_arg9))
    ∧ IsReal (m ((c.tc : Thread Cert.KernelIdeal.nD Cert.KernelIdeal.τ).loc Cert.KernelIdeal.main_arg10)) := by
  have h0 := congrFun (h c) ix0
  dsimp only [Cert.Pre_finite_inputs.fn, Cert.Pre_finite_inputs.fn_part1, Cert.Pre_finite_inputs.fn_part2,
    Cert.Pre_finite_inputs.fn_part3] at h0
  obtain ⟨h0, h10⟩ := andi_split _ _ _ h0
  obtain ⟨h0, h9⟩ := andi_split _ _ _ h0
  obtain ⟨h0, h8⟩ := andi_split _ _ _ h0
  obtain ⟨h0, h7⟩ := andi_split _ _ _ h0
  obtain ⟨h0, h6⟩ := andi_split _ _ _ h0
  obtain ⟨h0, h5⟩ := andi_split _ _ _ h0
  obtain ⟨h0, h4⟩ := andi_split _ _ _ h0
  obtain ⟨h0, h3⟩ := andi_split _ _ _ h0
  obtain ⟨h0, h2⟩ := andi_split _ _ _ h0
  obtain ⟨h0, h1⟩ := andi_split _ _ _ h0
  exact ⟨isReal_of_all_finite _ _ _ _ _ _ _ h0, isReal_of_all_finite _ _ _ _ _ _ _ h1,
    isReal_of_all_finite _ _ _ _ _ _ _ h2, isReal_of_all_finite _ _ _ _ _ _ _ h3,
    isReal_of_all_finite _ _ _ _ _ _ _ h4, isReal_of_all_finite _ _ _ _ _ _ _ h5,
    isReal_of_all_finite _ _ _ _ _ _ _ h6, isReal_of_all_finite _ _ _ _ _ _ _ h7,
    isReal_of_all_finite _ _ _ _ _ _ _ h8, isReal_of_all_finite _ _ _ _ _ _ _ h9,
    isReal_of_all_finite _ _ _ _ _ _ _ h10⟩

end Cert.Spec

end
-- ==== Proof.Ref.Idx.lean ====
/-
  Indices from their coordinates: an index of a literal rank-1 … rank-4 shape is the one built from given coordinates as soon
  as its coordinates have the given values. The composed index functions of the reference's layout operations are
  identified with plain coordinate tuples through these.
-/
import Idealize.ShloMosaic.Lib.ValueIdx

namespace Cert.RefSide

open Idealize.ShloMosaic Idealize.ShloMosaic.ValueIdx

/-- A rank-1 index with the coordinate's value. -/
theorem ix1_of_vals {n0 : ℕ} (i : (⟨1, ![n0]⟩ : Shape).Idx) (a : Fin n0) (h0 : (i 0).val = a.val) : i = ix1 a := by
  funext e
  match e with
  | ⟨0, _⟩ => exact Fin.ext h0

/-- A rank-2 index with the two coordinates' values. -/
theorem ix2_of_vals {n0 n1 : ℕ} (i : (⟨2, ![n0, n1]⟩ : Shape).Idx) (a : Fin n0) (b : Fin n1)
    (h0 : (i 0).val = a.val) (h1 : (i 1).val = b.val) : i = ix2 a b := by
  funext e
  match e with
  | ⟨0, _⟩ => exact Fin.ext h0
  | ⟨1, _⟩ => exact Fin.ext h1

/-- A rank-3 index with the three coordinates' values. -/
theorem ix3_of_vals {n0 n1 n2 : ℕ} (i : (⟨3, ![n0, n1, n2]⟩ : Shape).Idx) (a : Fin n0) (b : Fin n1) (c : Fin n2)
    (h0 : (i 0).val = a.val) (h1 : (i 1).val = b.val) (h2 : (i 2).val = c.val) : i = ix3 a b c := by
  funext e
  match e with
  | ⟨0, _⟩ => exact Fin.ext h0
  | ⟨1, _⟩ => exact Fin.ext h1
  | ⟨2, _⟩ => exact Fin.ext h2

/-- A rank-4 index with the four coordinates' values. -/
theorem ix4_of_vals {n0 n1 n2 n3 : ℕ} (i : (⟨4, ![n0, n1, n2, n3]⟩ : Shape).Idx) (a : Fin n0) (b : Fin n1) (c : Fin n2)
    (d : Fin n3) (h0 : (i 0).val = a.val) (h1 : (i 1).val = b.val) (h2 : (i 2).val = c.val) (h3 : (i 3).val = d.val) :
    i = ix4 a b c d := by
  funext e
  match e with
  | ⟨0, _⟩ => exact Fin.ext h0
  | ⟨1, _⟩ => exact Fin.ext h1
  | ⟨2, _⟩ => exact Fin.ext h2
  | ⟨3, _⟩ => exact Fin.ext h3

/-- The stacked weights [2,6,64,64] read through the [1,1,64,64] slice at (l, r) and the reshape to [64,64]: entry (k, j) of the
    reshaped slice sits at flat position k·64 + j of the slice, which is the slice's (0, 0, k, j). -/
theorem w_idx (l : Fin 2) (r : Fin 6) (k j : Fin 64) (i : (⟨4, ![2, 6, 64, 64]⟩ : Shape).Idx)
    (h0 : (i 0).val = l.val) (h1 : (i 1).val = r.val)
    (h2 : (i 2).val = (k.val * 64 + j.val) / 64 % 64) (h3 : (i 3).val = (k.val * 64 + j.val) % 64) :
    i = ix4 l r k j :=
  ix4_of_vals i l r k j h0 h1 (by have hk := k.isLt; have hj := j.isLt; omega) (by have hk := k.isLt; have hj := j.isLt; omega)

/-- The stacked biases [2,6,64] read through the [1,1,64] slice at (l, r), the reshape to [64] and the two broadcasts to a
    full matrix: entry (a, j) reads the stack at (l, r, j). -/
theorem b_idx (l : Fin 2) (r : Fin 6) (j : Fin 64) (i : (⟨3, ![2, 6, 64]⟩ : Shape).Idx)
    (h0 : (i 0).val = l.val) (h1 : (i 1).val = r.val) (h2 : (i 2).val = j.val % 64) : i = ix3 l r j :=
  ix3_of_vals i l r j h0 h1 (by have hj := j.isLt; omega)

end Cert.RefSide
-- ==== Proof.Ref.Sage.lean ====
/-
  One relation's contribution, and a node type's sum of contributions, from what their pieces read.

  The reference computes a relation's contribution to a node type as three matrices added entry by entry: the
  aggregated neighbours times the relation's message weights, the relation's bias spread over the rows, and the
  node type's own rows times the relation's root weights. Once each piece is known entry by entry — the two
  products as sums over the 64 columns, the weights and the bias as entries of the stacked arrays — the sum is the
  specification's `sageAt`. A node type's new value adds its relations' contributions, in order, onto a zero
  matrix; the clamp is the maximum with a zero matrix.
-/
import proofs.«154750_j39152921870699_1_alg».proof.Proof.Spec
import proofs.«154750_j39152921870699_1_alg».proof.Proof.Ref.Idx
import Idealize.ShloMosaic.PureOps.Ideal.Laws

noncomputable section

open scoped BigOperators

namespace Cert.RefSide

open Idealize.ShloMosaic Idealize.ShloMosaic.ValueIdx Cert.Spec

/-- The three pieces of a relation's contribution at (a, j), added in the reference's order (the sums are the ideal
    instance's, the extended reals' own), are `sageAt`. -/
theorem sage_of_reads {n : ℕ} (l : Fin 2) (r : Fin 6) (M x : Mat n 64) (x4 : W4) (x5 : B3) (x6 : W4)
    (Wm Wr : Mat 64 64) (bb dM dX : Mat n 64) (a : Fin n) (j : Fin 64)
    (hdM : dM (ix2 a j) = ∑ k : Fin 64, M (ix2 a k) * Wm (ix2 k j))
    (hWm : ∀ k : Fin 64, Wm (ix2 k j) = x4 (ix4 l r k j))
    (hb : bb (ix2 a j) = x5 (ix3 l r j))
    (hdX : dX (ix2 a j) = ∑ k : Fin 64, x (ix2 a k) * Wr (ix2 k j))
    (hWr : ∀ k : Fin 64, Wr (ix2 k j) = x6 (ix4 l r k j)) :
    (FloatOps.addf (F := Ideal) (φ := .f32) (FloatOps.addf (F := Ideal) (φ := .f32) (dM (ix2 a j)) (bb (ix2 a j))) (dX (ix2 a j)) : EReal)
      = sageAt l r M x x4 x5 x6 a j := by
  show (dM (ix2 a j) + bb (ix2 a j)) + dX (ix2 a j) = sageAt l r M x x4 x5 x6 a j
  rw [hdM, hb, hdX]
  unfold sageAt
  simp only [hWm, hWr]

/-- The zero literal is the extended real 0. -/
theorem zero_lit : (FloatOps.ofBits (F := Ideal) .f32 0x00000000#32 : Ideal .f32) = 0 := by
  rw [Ideal.ofBits_def, Ideal.ofBits_zero_f32]

/-- Two contributions added, in order, onto the zero literal. -/
theorem two_onto_zero (s s' : EReal) :
    (FloatOps.addf (F := Ideal) (φ := .f32) (FloatOps.addf (F := Ideal) (φ := .f32) (FloatOps.ofBits (F := Ideal) .f32 0x00000000#32) s) s' : EReal)
      = (0 + s) + s' := by
  rw [zero_lit]; rfl

/-- One contribution added onto the zero literal. -/
theorem one_onto_zero (s : EReal) :
    (FloatOps.addf (F := Ideal) (φ := .f32) (FloatOps.ofBits (F := Ideal) .f32 0x00000000#32) s : EReal) = 0 + s := by
  rw [zero_lit]; rfl

/-- The clamp: the maximum with the zero literal. -/
theorem clamp_zero (s : EReal) :
    (FloatOps.maximumf (F := Ideal) (φ := .f32) s (FloatOps.ofBits (F := Ideal) .f32 0x00000000#32) : EReal) = max s 0 := by
  rw [zero_lit]; rfl

end Cert.RefSide

end
-- ==== Proof.Ref.L0.lean ====
/-
  The reference's layer 0 in closed form, relation by relation. For each relation: the message weights and the root weights
  (a [1,1,64,64] slice of the stacked weights, reshaped to [64,64]) read the stack at (l, r, k, j); the bias (a [1,1,64] slice,
  reshaped to [64] and spread over the rows) reads the stack at (l, r, j); the two products are sums over the 64 columns; so the
  relation's contribution at (a, j) is the specification's sageAt. Each node type's new value adds its relations' contributions,
  in order, onto a zero matrix, and the clamp is the maximum with a zero matrix.
  The aggregated-neighbour matrices (the means) are left as the reference's own stages.
-/
import proofs.«154750_j39152921870699_1_alg».proof.Proof.RefRead
import proofs.«154750_j39152921870699_1_alg».proof.Proof.Spec
import proofs.«154750_j39152921870699_1_alg».proof.Proof.Ref.Idx
import proofs.«154750_j39152921870699_1_alg».proof.Proof.Ref.Sage

noncomputable section

open scoped BigOperators

namespace Cert.RefSide

open Idealize.ShloMosaic Idealize.ShloMosaic.ValueIdx Cert.ReferenceIdeal Cert.ReferenceIdeal.Read Cert.Spec

variable (x0 : (⟨S100000x64, .f32⟩ : BufTy).Contents (Elt Ideal))
  (x1 : (⟨S50000x64, .f32⟩ : BufTy).Contents (Elt Ideal))
  (x2 : (⟨S2000x64, .f32⟩ : BufTy).Contents (Elt Ideal))
  (x3 : (⟨S5000x64, .f32⟩ : BufTy).Contents (Elt Ideal))
  (x4 : (⟨S2x6x64x64, .f32⟩ : BufTy).Contents (Elt Ideal))
  (x5 : (⟨S2x6x64, .f32⟩ : BufTy).Contents (Elt Ideal))
  (x6 : (⟨S2x6x64x64, .f32⟩ : BufTy).Contents (Elt Ideal))
  (x11 : (⟨S2000000, .i32⟩ : BufTy).Contents (Elt Ideal))
  (x12 : (⟨S2000000, .i32⟩ : BufTy).Contents (Elt Ideal))
  (x13 : (⟨S2000000, .i32⟩ : BufTy).Contents (Elt Ideal))
  (x14 : (⟨S2000000, .i32⟩ : BufTy).Contents (Elt Ideal))
  (x15 : (⟨S100000, .i32⟩ : BufTy).Contents (Elt Ideal))
  (x16 : (⟨S100000, .i32⟩ : BufTy).Contents (Elt Ideal))
  (x17 : (⟨S100000, .i32⟩ : BufTy).Contents (Elt Ideal))
  (x18 : (⟨S100000, .i32⟩ : BufTy).Contents (Elt Ideal))
  (x19 : (⟨S200000, .i32⟩ : BufTy).Contents (Elt Ideal))
  (x20 : (⟨S200000, .i32⟩ : BufTy).Contents (Elt Ideal))
  (x21 : (⟨S200000, .i32⟩ : BufTy).Contents (Elt Ideal))
  (x22 : (⟨S200000, .i32⟩ : BufTy).Contents (Elt Ideal))

/-! ## Relation 0 of layer 0 (100000 rows) -/

theorem wm_l0r0 (k j : Fin 64) : (val_main_v5 (F := Ideal) x4) (ix2 k j) = x4 (ix4 0 0 k j) := by
  rw [val_main_v5_apply, val_main_v4_apply]
  exact congrArg x4 (w_idx 0 0 k j (idx_main_v4 (idx_main_v5 (ix2 k j))) rfl rfl rfl rfl)

theorem wr_l0r0 (k j : Fin 64) : (val_main_v9 (F := Ideal) x6) (ix2 k j) = x6 (ix4 0 0 k j) := by
  rw [val_main_v9_apply, val_main_v8_apply]
  exact congrArg x6 (w_idx 0 0 k j (idx_main_v8 (idx_main_v9 (ix2 k j))) rfl rfl rfl rfl)

theorem b_l0r0 (a : Fin 100000) (j : Fin 64) : (val_main_v31 (F := Ideal) x5) (ix2 a j) = x5 (ix3 0 0 j) := by
  rw [val_main_v31_apply, val_main_v30_apply, val_main_v7_apply, val_main_v6_apply]
  exact congrArg x5 (b_idx 0 0 j (idx_main_v6 (idx_main_v7 (idx_main_v30 (idx_main_v31 (ix2 a j))))) rfl rfl rfl)

theorem dm_l0r0 (a : Fin 100000) (j : Fin 64) :
    (val_main_v29 (F := Ideal) x1 x4 x11 x12) (ix2 a j) = ∑ k : Fin 64, (val_main_v28 (F := Ideal) x1 x11 x12) (ix2 a k) * (val_main_v5 (F := Ideal) x4) (ix2 k j) := by
  rw [val_main_v29_apply]
  refine Finset.sum_congr rfl fun k _ => ?_
  rw [ix2_of_vals (lidx_main_v29 (ix2 a j) k) a k rfl rfl, ix2_of_vals (ridx_main_v29 (ix2 a j) k) k j rfl rfl]

theorem dx_l0r0 (a : Fin 100000) (j : Fin 64) :
    (val_main_v33 (F := Ideal) x0 x6) (ix2 a j) = ∑ k : Fin 64, x0 (ix2 a k) * (val_main_v9 (F := Ideal) x6) (ix2 k j) := by
  rw [val_main_v33_apply]
  refine Finset.sum_congr rfl fun k _ => ?_
  rw [ix2_of_vals (lidx_main_v33 (ix2 a j) k) a k rfl rfl, ix2_of_vals (ridx_main_v33 (ix2 a j) k) k j rfl rfl]

/-- Relation 0's contribution at (a, j). -/
theorem sage_l0r0 (a : Fin 100000) (j : Fin 64) :
    (val_main_v34 (F := Ideal) x0 x1 x4 x5 x6 x11 x12) (ix2 a j) = sageAt 0 0 (val_main_v28 (F := Ideal) x1 x11 x12) x0 x4 x5 x6 a j := by
  rw [val_main_v34_apply, val_main_v32_apply]
  exact sage_of_reads 0 0 (val_main_v28 (F := Ideal) x1 x11 x12) x0 x4 x5 x6 (val_main_v5 (F := Ideal) x4) (val_main_v9 (F := Ideal) x6)
    (val_main_v31 (F := Ideal) x5) (val_main_v29 (F := Ideal) x1 x4 x11 x12) (val_main_v33 (F := Ideal) x0 x6) a j
    (dm_l0r0 x1 x4 x11 x12 a j) (fun k => wm_l0r0 x4 k j) (b_l0r0 x5 a j)
    (dx_l0r0 x0 x6 a j) (fun k => wr_l0r0 x6 k j)

/-! ## Relation 1 of layer 0 (50000 rows) -/

theorem wm_l0r1 (k j : Fin 64) : (val_main_v37 (F := Ideal) x4) (ix2 k j) = x4 (ix4 0 1 k j) := by
  rw [val_main_v37_apply, val_main_v36_apply]
  exact congrArg x4 (w_idx 0 1 k j (idx_main_v36 (idx_main_v37 (ix2 k j))) rfl rfl rfl rfl)

theorem wr_l0r1 (k j : Fin 64) : (val_main_v41 (F := Ideal) x6) (ix2 k j) = x6 (ix4 0 1 k j) := by
  rw [val_main_v41_apply, val_main_v40_apply]
  exact congrArg x6 (w_idx 0 1 k j (idx_main_v40 (idx_main_v41 (ix2 k j))) rfl rfl rfl rfl)

theorem b_l0r1 (a : Fin 50000) (j : Fin 64) : (val_main_v63 (F := Ideal) x5) (ix2 a j) = x5 (ix3 0 1 j) := by
  rw [val_main_v63_apply, val_main_v62_apply, val_main_v39_apply, val_main_v38_apply]
  exact congrArg x5 (b_idx 0 1 j (idx_main_v38 (idx_main_v39 (idx_main_v62 (idx_main_v63 (ix2 a j))))) rfl rfl rfl)

theorem dm_l0r1 (a : Fin 50000) (j : Fin 64) :
    (val_main_v61 (F := Ideal) x0 x4 x13 x14) (ix2 a j) = ∑ k : Fin 64, (val_main_v60 (F := Ideal) x0 x13 x14) (ix2 a k) * (val_main_v37 (F := Ideal) x4) (ix2 k j) := by
  rw [val_main_v61_apply]
  refine Finset.sum_congr rfl fun k _ => ?_
  rw [ix2_of_vals (lidx_main_v61 (ix2 a j) k) a k rfl rfl, ix2_of_vals (ridx_main_v61 (ix2 a j) k) k j rfl rfl]

theorem dx_l0r1 (a : Fin 50000) (j : Fin 64) :
    (val_main_v65 (F := Ideal) x1 x6) (ix2 a j) = ∑ k : Fin 64, x1 (ix2 a k) * (val_main_v41 (F := Ideal) x6) (ix2 k j) := by
  rw [val_main_v65_apply]
  refine Finset.sum_congr rfl fun k _ => ?_
  rw [ix2_of_vals (lidx_main_v65 (ix2 a j) k) a k rfl rfl, ix2_of_vals (ridx_main_v65 (ix2 a j) k) k j rfl rfl]

/-- Relation 1's contribution at (a, j). -/
theorem sage_l0r1 (a : Fin 50000) (j : Fin 64) :
    (val_main_v66 (F := Ideal) x0 x1 x4 x5 x6 x13 x14) (ix2 a j) = sageAt 0 1 (val_main_v60 (F := Ideal) x0 x13 x14) x1 x4 x5 x6 a j := by
  rw [val_main_v66_apply, val_main_v64_apply]
  exact sage_of_reads 0 1 (val_main_v60 (F := Ideal) x0 x13 x14) x1 x4 x5 x6 (val_main_v37 (F := Ideal) x4) (val_main_v41 (F := Ideal) x6)
    (val_main_v63 (F := Ideal) x5) (val_main_v61 (F := Ideal) x0 x4 x13 x14) (val_main_v65 (F := Ideal) x1 x6) a j
    (dm_l0r1 x0 x4 x13 x14 a j) (fun k => wm_l0r1 x4 k j) (b_l0r1 x5 a j)
    (dx_l0r1 x1 x6 a j) (fun k => wr_l0r1 x6 k j)

/-! ## Relation 2 of layer 0 (2000 rows) -/

theorem wm_l0r2 (k j : Fin 64) : (val_main_v69 (F := Ideal) x4) (ix2 k j) = x4 (ix4 0 2 k j) := by
  rw [val_main_v69_apply, val_main_v68_apply]
  exact congrArg x4 (w_idx 0 2 k j (idx_main_v68 (idx_main_v69 (ix2 k j))) rfl rfl rfl rfl)

theorem wr_l0r2 (k j : Fin 64) : (val_main_v73 (F := Ideal) x6) (ix2 k j) = x6 (ix4 0 2 k j) := by
  rw [val_main_v73_apply, val_main_v72_apply]
  exact congrArg x6 (w_idx 0 2 k j (idx_main_v72 (idx_main_v73 (ix2 k j))) rfl rfl rfl rfl)

theorem b_l0r2 (a : Fin 2000) (j : Fin 64) : (val_main_v95 (F := Ideal) x5) (ix2 a j) = x5 (ix3 0 2 j) := by
  rw [val_main_v95_apply, val_main_v94_apply, val_main_v71_apply, val_main_v70_apply]
  exact congrArg x5 (b_idx 0 2 j (idx_main_v70 (idx_main_v71 (idx_main_v94 (idx_main_v95 (ix2 a j))))) rfl rfl rfl)

theorem dm_l0r2 (a : Fin 2000) (j : Fin 64) :
    (val_main_v93 (F := Ideal) x1 x4 x15 x16) (ix2 a j) = ∑ k : Fin 64, (val_main_v92 (F := Ideal) x1 x15 x16) (ix2 a k) * (val_main_v69 (F := Ideal) x4) (ix2 k j) := by
  rw [val_main_v93_apply]
  refine Finset.sum_congr rfl fun k _ => ?_
  rw [ix2_of_vals (lidx_main_v93 (ix2 a j) k) a k rfl rfl, ix2_of_vals (ridx_main_v93 (ix2 a j) k) k j rfl rfl]

theorem dx_l0r2 (a : Fin 2000) (j : Fin 64) :
    (val_main_v97 (F := Ideal) x2 x6) (ix2 a j) = ∑ k : Fin 64, x2 (ix2 a k) * (val_main_v73 (F := Ideal) x6) (ix2 k j) := by
  rw [val_main_v97_apply]
  refine Finset.sum_congr rfl fun k _ => ?_
  rw [ix2_of_vals (lidx_main_v97 (ix2 a j) k) a k rfl rfl, ix2_of_vals (ridx_main_v97 (ix2 a j) k) k j rfl rfl]

/-- Relation 2's contribution at (a, j). -/
theorem sage_l0r2 (a : Fin 2000) (j : Fin 64) :
    (val_main_v98 (F := Ideal) x1 x2 x4 x5 x6 x15 x16) (ix2 a j) = sageAt 0 2 (val_main_v92 (F := Ideal) x1 x15 x16) x2 x4 x5 x6 a j := by
  rw [val_main_v98_apply, val_main_v96_apply]
  exact sage_of_reads 0 2 (val_main_v92 (F := Ideal) x1 x15 x16) x2 x4 x5 x6 (val_main_v69 (F := Ideal) x4) (val_main_v73 (F := Ideal) x6)
    (val_main_v95 (F := Ideal) x5) (val_main_v93 (F := Ideal) x1 x4 x15 x16) (val_main_v97 (F := Ideal) x2 x6) a j
    (dm_l0r2 x1 x4 x15 x16 a j) (fun k => wm_l0r2 x4 k j) (b_l0r2 x5 a j)
    (dx_l0r2 x2 x6 a j) (fun k => wr_l0r2 x6 k j)

/-! ## Relation 3 of layer 0 (50000 rows) -/

theorem wm_l0r3 (k j : Fin 64) : (val_main_v101 (F := Ideal) x4) (ix2 k j) = x4 (ix4 0 3 k j) := by
  rw [val_main_v101_apply, val_main_v100_apply]
  exact congrArg x4 (w_idx 0 3 k j (idx_main_v100 (idx_main_v101 (ix2 k j))) rfl rfl rfl rfl)

theorem wr_l0r3 (k j : Fin 64) : (val_main_v105 (F := Ideal) x6) (ix2 k j) = x6 (ix4 0 3 k j) := by
  rw [val_main_v105_apply, val_main_v104_apply]
  exact congrArg x6 (w_idx 0 3 k j (idx_main_v104 (idx_main_v105 (ix2 k j))) rfl rfl rfl rfl)

theorem b_l0r3 (a : Fin 50000) (j : Fin 64) : (val_main_v127 (F := Ideal) x5) (ix2 a j) = x5 (ix3 0 3 j) := by
  rw [val_main_v127_apply, val_main_v126_apply, val_main_v103_apply, val_main_v102_apply]
  exact congrArg x5 (b_idx 0 3 j (idx_main_v102 (idx_main_v103 (idx_main_v126 (idx_main_v127 (ix2 a j))))) rfl rfl rfl)

theorem dm_l0r3 (a : Fin 50000) (j : Fin 64) :
    (val_main_v125 (F := Ideal) x2 x4 x17 x18) (ix2 a j) = ∑ k : Fin 64, (val_main_v124 (F := Ideal) x2 x17 x18) (ix2 a k) * (val_main_v101 (F := Ideal) x4) (ix2 k j) := by
  rw [val_main_v125_apply]
  refine Finset.sum_congr rfl fun k _ => ?_
  rw [ix2_of_vals (lidx_main_v125 (ix2 a j) k) a k rfl rfl, ix2_of_vals (ridx_main_v125 (ix2 a j) k) k j rfl rfl]

theorem dx_l0r3 (a : Fin 50000) (j : Fin 64) :
    (val_main_v129 (F := Ideal) x1 x6) (ix2 a j) = ∑ k : Fin 64, x1 (ix2 a k) * (val_main_v105 (F := Ideal) x6) (ix2 k j) := by
  rw [val_main_v129_apply]
  refine Finset.sum_congr rfl fun k _ => ?_
  rw [ix2_of_vals (lidx_main_v129 (ix2 a j) k) a k rfl rfl, ix2_of_vals (ridx_main_v129 (ix2 a j) k) k j rfl rfl]

/-- Relation 3's contribution at (a, j). -/
theorem sage_l0r3 (a : Fin 50000) (j : Fin 64) :
    (val_main_v130 (F := Ideal) x1 x2 x4 x5 x6 x17 x18) (ix2 a j) = sageAt 0 3 (val_main_v124 (F := Ideal) x2 x17 x18) x1 x4 x5 x6 a j := by
  rw [val_main_v130_apply, val_main_v128_apply]
  exact sage_of_reads 0 3 (val_main_v124 (F := Ideal) x2 x17 x18) x1 x4 x5 x6 (val_main_v101 (F := Ideal) x4) (val_main_v105 (F := Ideal) x6)
    (val_main_v127 (F := Ideal) x5) (val_main_v125 (F := Ideal) x2 x4 x17 x18) (val_main_v129 (F := Ideal) x1 x6) a j
    (dm_l0r3 x2 x4 x17 x18 a j) (fun k => wm_l0r3 x4 k j) (b_l0r3 x5 a j)
    (dx_l0r3 x1 x6 a j) (fun k => wr_l0r3 x6 k j)

/-! ## Relation 4 of layer 0 (5000 rows) -/

theorem wm_l0r4 (k j : Fin 64) : (val_main_v133 (F := Ideal) x4) (ix2 k j) = x4 (ix4 0 4 k j) := by
  rw [val_main_v133_apply, val_main_v132_apply]
  exact congrArg x4 (w_idx 0 4 k j (idx_main_v132 (idx_main_v133 (ix2 k j))) rfl rfl rfl rfl)

theorem wr_l0r4 (k j : Fin 64) : (val_main_v137 (F := Ideal) x6) (ix2 k j) = x6 (ix4 0 4 k j) := by
  rw [val_main_v137_apply, val_main_v136_apply]
  exact congrArg x6 (w_idx 0 4 k j (idx_main_v136 (idx_main_v137 (ix2 k j))) rfl rfl rfl rfl)

theorem b_l0r4 (a : Fin 5000) (j : Fin 64) : (val_main_v159 (F := Ideal) x5) (ix2 a j) = x5 (ix3 0 4 j) := by
  rw [val_main_v159_apply, val_main_v158_apply, val_main_v135_apply, val_main_v134_apply]
  exact congrArg x5 (b_idx 0 4 j (idx_main_v134 (idx_main_v135 (idx_main_v158 (idx_main_v159 (ix2 a j))))) rfl rfl rfl)

theorem dm_l0r4 (a : Fin 5000) (j : Fin 64) :
    (val_main_v157 (F := Ideal) x0 x4 x19 x20) (ix2 a j) = ∑ k : Fin 64, (val_main_v156 (F := Ideal) x0 x19 x20) (ix2 a k) * (val_main_v133 (F := Ideal) x4) (ix2 k j) := by
  rw [val_main_v157_apply]
  refine Finset.sum_congr rfl fun k _ => ?_
  rw [ix2_of_vals (lidx_main_v157 (ix2 a j) k) a k rfl rfl, ix2_of_vals (ridx_main_v157 (ix2 a j) k) k j rfl rfl]

theorem dx_l0r4 (a : Fin 5000) (j : Fin 64) :
    (val_main_v161 (F := Ideal) x3 x6) (ix2 a j) = ∑ k : Fin 64, x3 (ix2 a k) * (val_main_v137 (F := Ideal) x6) (ix2 k j) := by
  rw [val_main_v161_apply]
  refine Finset.sum_congr rfl fun k _ => ?_
  rw [ix2_of_vals (lidx_main_v161 (ix2 a j) k) a k rfl rfl, ix2_of_vals (ridx_main_v161 (ix2 a j) k) k j rfl rfl]

/-- Relation 4's contribution at (a, j). -/
theorem sage_l0r4 (a : Fin 5000) (j : Fin 64) :
    (val_main_v162 (F := Ideal) x0 x3 x4 x5 x6 x19 x20) (ix2 a j) = sageAt 0 4 (val_main_v156 (F := Ideal) x0 x19 x20) x3 x4 x5 x6 a j := by
  rw [val_main_v162_apply, val_main_v160_apply]
  exact sage_of_reads 0 4 (val_main_v156 (F := Ideal) x0 x19 x20) x3 x4 x5 x6 (val_main_v133 (F := Ideal) x4) (val_main_v137 (F := Ideal) x6)
    (val_main_v159 (F := Ideal) x5) (val_main_v157 (F := Ideal) x0 x4 x19 x20) (val_main_v161 (F := Ideal) x3 x6) a j
    (dm_l0r4 x0 x4 x19 x20 a j) (fun k => wm_l0r4 x4 k j) (b_l0r4 x5 a j)
    (dx_l0r4 x3 x6 a j) (fun k => wr_l0r4 x6 k j)

/-! ## Relation 5 of layer 0 (100000 rows) -/

theorem wm_l0r5 (k j : Fin 64) : (val_main_v165 (F := Ideal) x4) (ix2 k j) = x4 (ix4 0 5 k j) := by
  rw [val_main_v165_apply, val_main_v164_apply]
  exact congrArg x4 (w_idx 0 5 k j (idx_main_v164 (idx_main_v165 (ix2 k j))) rfl rfl rfl rfl)

theorem wr_l0r5 (k j : Fin 64) : (val_main_v169 (F := Ideal) x6) (ix2 k j) = x6 (ix4 0 5 k j) := by
  rw [val_main_v169_apply, val_main_v168_apply]
  exact congrArg x6 (w_idx 0 5 k j (idx_main_v168 (idx_main_v169 (ix2 k j))) rfl rfl rfl rfl)

theorem b_l0r5 (a : Fin 100000) (j : Fin 64) : (val_main_v191 (F := Ideal) x5) (ix2 a j) = x5 (ix3 0 5 j) := by
  rw [val_main_v191_apply, val_main_v190_apply, val_main_v167_apply, val_main_v166_apply]
  exact congrArg x5 (b_idx 0 5 j (idx_main_v166 (idx_main_v167 (idx_main_v190 (idx_main_v191 (ix2 a j))))) rfl rfl rfl)

theorem dm_l0r5 (a : Fin 100000) (j : Fin 64) :
    (val_main_v189 (F := Ideal) x3 x4 x21 x22) (ix2 a j) = ∑ k : Fin 64, (val_main_v188 (F := Ideal) x3 x21 x22) (ix2 a k) * (val_main_v165 (F := Ideal) x4) (ix2 k j) := by
  rw [val_main_v189_apply]
  refine Finset.sum_congr rfl fun k _ => ?_
  rw [ix2_of_vals (lidx_main_v189 (ix2 a j) k) a k rfl rfl, ix2_of_vals (ridx_main_v189 (ix2 a j) k) k j rfl rfl]

theorem dx_l0r5 (a : Fin 100000) (j : Fin 64) :
    (val_main_v193 (F := Ideal) x0 x6) (ix2 a j) = ∑ k : Fin 64, x0 (ix2 a k) * (val_main_v169 (F := Ideal) x6) (ix2 k j) := by
  rw [val_main_v193_apply]
  refine Finset.sum_congr rfl fun k _ => ?_
  rw [ix2_of_vals (lidx_main_v193 (ix2 a j) k) a k rfl rfl, ix2_of_vals (ridx_main_v193 (ix2 a j) k) k j rfl rfl]

/-- Relation 5's contribution at (a, j). -/
theorem sage_l0r5 (a : Fin 100000) (j : Fin 64) :
    (val_main_v194 (F := Ideal) x0 x3 x4 x5 x6 x21 x22) (ix2 a j) = sageAt 0 5 (val_main_v188 (F := Ideal) x3 x21 x22) x0 x4 x5 x6 a j := by
  rw [val_main_v194_apply, val_main_v192_apply]
  exact sage_of_reads 0 5 (val_main_v188 (F := Ideal) x3 x21 x22) x0 x4 x5 x6 (val_main_v165 (F := Ideal) x4) (val_main_v169 (F := Ideal) x6)
    (val_main_v191 (F := Ideal) x5) (val_main_v189 (F := Ideal) x3 x4 x21 x22) (val_main_v193 (F := Ideal) x0 x6) a j
    (dm_l0r5 x3 x4 x21 x22 a j) (fun k => wm_l0r5 x4 k j) (b_l0r5 x5 a j)
    (dx_l0r5 x0 x6 a j) (fun k => wr_l0r5 x6 k j)

/-! ## The node type gene, layer 0 -/

/-- The value before the clamp at (a, j): the relations' contributions added, in order, onto zero. -/
theorem pre_gene_l0 (a : Fin 100000) (j : Fin 64) :
    (val_main_v195 (F := Ideal) x0 x1 x3 x4 x5 x6 x11 x12 x21 x22) (ix2 a j) = refTwoAt 0 0 5 (val_main_v28 (F := Ideal) x1 x11 x12) (val_main_v188 (F := Ideal) x3 x21 x22) x0 x4 x5 x6 a j := by
  rw [val_main_v195_apply, val_main_v35_apply, val_main_v0_apply, val_main_cst_apply, sage_l0r0, sage_l0r5]
  exact two_onto_zero _ _

/-- The clamp: at every index the maximum of the value before it and 0. -/
theorem relu_gene_l0 (i : S100000x64.Idx) :
    (val_main_v196 (F := Ideal) x0 x1 x3 x4 x5 x6 x11 x12 x21 x22) i = max ((val_main_v195 (F := Ideal) x0 x1 x3 x4 x5 x6 x11 x12 x21 x22) i : EReal) 0 := by
  rw [val_main_v196_apply, val_main_call0_v0_apply, val_main_call0_cst_apply]
  exact clamp_zero _

/-! ## The node type compound, layer 0 -/

/-- The value before the clamp at (a, j): the relations' contributions added, in order, onto zero. -/
theorem pre_compound_l0 (a : Fin 50000) (j : Fin 64) :
    (val_main_v131 (F := Ideal) x0 x1 x2 x4 x5 x6 x13 x14 x17 x18) (ix2 a j) = refTwoAt 0 1 3 (val_main_v60 (F := Ideal) x0 x13 x14) (val_main_v124 (F := Ideal) x2 x17 x18) x1 x4 x5 x6 a j := by
  rw [val_main_v131_apply, val_main_v67_apply, val_main_v1_apply, val_main_cst_0_apply, sage_l0r1, sage_l0r3]
  exact two_onto_zero _ _

/-- The clamp: at every index the maximum of the value before it and 0. -/
theorem relu_compound_l0 (i : S50000x64.Idx) :
    (val_main_v197 (F := Ideal) x0 x1 x2 x4 x5 x6 x13 x14 x17 x18) i = max ((val_main_v131 (F := Ideal) x0 x1 x2 x4 x5 x6 x13 x14 x17 x18) i : EReal) 0 := by
  rw [val_main_v197_apply, val_main_call1_v0_apply, val_main_call1_cst_apply]
  exact clamp_zero _

/-! ## The node type pclass, layer 0 -/

/-- The value before the clamp at (a, j): the relations' contributions added, in order, onto zero. -/
theorem pre_pclass_l0 (a : Fin 2000) (j : Fin 64) :
    (val_main_v99 (F := Ideal) x1 x2 x4 x5 x6 x15 x16) (ix2 a j) = refOneAt 0 2 (val_main_v92 (F := Ideal) x1 x15 x16) x2 x4 x5 x6 a j := by
  rw [val_main_v99_apply, val_main_v2_apply, val_main_cst_1_apply, sage_l0r2]
  exact one_onto_zero _

/-- The clamp: at every index the maximum of the value before it and 0. -/
theorem relu_pclass_l0 (i : S2000x64.Idx) :
    (val_main_v198 (F := Ideal) x1 x2 x4 x5 x6 x15 x16) i = max ((val_main_v99 (F := Ideal) x1 x2 x4 x5 x6 x15 x16) i : EReal) 0 := by
  rw [val_main_v198_apply, val_main_call2_v0_apply, val_main_call2_cst_apply]
  exact clamp_zero _

/-! ## The node type family, layer 0 -/

/-- The value before the clamp at (a, j): the relations' contributions added, in order, onto zero. -/
theorem pre_family_l0 (a : Fin 5000) (j : Fin 64) :
    (val_main_v163 (F := Ideal) x0 x3 x4 x5 x6 x19 x20) (ix2 a j) = refOneAt 0 4 (val_main_v156 (F := Ideal) x0 x19 x20) x3 x4 x5 x6 a j := by
  rw [val_main_v163_apply, val_main_v3_apply, val_main_cst_2_apply, sage_l0r4]
  exact one_onto_zero _

/-- The clamp: at every index the maximum of the value before it and 0. -/
theorem relu_family_l0 (i : S5000x64.Idx) :
    (val_main_v199 (F := Ideal) x0 x3 x4 x5 x6 x19 x20) i = max ((val_main_v163 (F := Ideal) x0 x3 x4 x5 x6 x19 x20) i : EReal) 0 := by
  rw [val_main_v199_apply, val_main_call3_v0_apply, val_main_call3_cst_apply]
  exact clamp_zero _

end Cert.RefSide

end
-- ==== Proof.Reals.lean ====
/-
  The host operations keep entries real.

  A gather, a broadcast, a slice, a reshape and a concatenation only move entries around: every entry of the result
  is an entry of an operand. An accumulating scatter adds to each entry of its operand a finite sum of entries of the
  updates; a quotient of a real number by a real number that is at least one is a real number. The mean aggregation
  — the neighbours' rows summed per target node, divided by the number of neighbours or by one when there are none —
  is built of exactly these steps, and its divisor is max(count, 1) ≥ 1: so its entries are real as soon as the
  node array's are.
-/
import proofs.«154750_j39152921870699_1_alg».proof.Proof.Algebra
import Idealize.ShloMosaic.PureOps.Ideal.Laws
import Idealize.ShloMosaic.Lib.ValueIdx
import Idealize.ShloMosaic.Lib.IdealHost

noncomputable section

open scoped BigOperators

namespace Cert.Spec

open Idealize.ShloMosaic Idealize.ShloMosaic.ValueIdx

/-! ## Re-indexings -/

/-- A gather reads each result entry from the operand. -/
theorem isReal_gather {s si t : Shape} {w : Nat} (g : GatherDims s si t) {x : FVec Ideal s .f32} (idx : IVec si w)
    (hx : IsReal x) : IsReal (Host.gather g x idx) := fun j => hx (g.operandIdx j idx)

/-- A broadcast reads each result entry from the operand. -/
theorem isReal_broadcastInDim {s : Shape} (t : Shape) (dims : Fin s.rank → Fin t.rank) (h : s.BroadcastsInDim t dims)
    {x : FVec Ideal s .f32} (hx : IsReal x) : IsReal (broadcastInDim t dims h x) := fun j => by
  unfold broadcastInDim
  exact hx _

/-- A slice reads each result entry from the operand. -/
theorem isReal_extractStridedSlice {s : Shape} (t : Shape) (off : Fin s.rank → Nat) {x : FVec Ideal s .f32}
    (h : s.Slices off t) (hx : IsReal x) : IsReal (extractStridedSlice t off x h) := fun j => by
  unfold extractStridedSlice
  exact hx _

/-- A reshape reads each result entry from the operand. -/
theorem isReal_shapeCast {s : Shape} (t : Shape) {x : FVec Ideal s .f32} (h : s.ShapeCasts t) (hx : IsReal x) :
    IsReal (shapeCast t x h) := fun j => hx (Shape.reshapeEquiv h j)

/-- Every entry of a concatenation is an entry of one of the pieces. -/
theorem isReal_concatenate (t : Shape) (a : Fin t.rank) (xs : List ((s : Shape) × (s.Idx → EReal)))
    (h : Shape.Concatenates (xs.map (·.1)) t a) (hxs : ∀ p ∈ xs, IsReal p.2) : IsReal (concatenate t a xs h) := fun j => by
  unfold concatenate
  exact hxs _ (List.getElem_mem _) _

/-- Two pieces. -/
theorem isReal_concatenate2 (t : Shape) (a : Fin t.rank) {s1 s2 : Shape} {x1 : FVec Ideal s1 .f32} {x2 : FVec Ideal s2 .f32}
    (h : Shape.Concatenates (([⟨s1, x1⟩, ⟨s2, x2⟩] : List ((s : Shape) × (s.Idx → EReal))).map (·.1)) t a)
    (h1 : IsReal x1) (h2 : IsReal x2) : IsReal (concatenate t a [⟨s1, x1⟩, ⟨s2, x2⟩] h) :=
  isReal_concatenate t a _ h fun p hp => by
    rcases List.mem_cons.1 hp with rfl | hp
    · exact h1
    rcases List.mem_cons.1 hp with rfl | hp
    · exact h2
    exact absurd hp (List.not_mem_nil)

/-- Three pieces. -/
theorem isReal_concatenate3 (t : Shape) (a : Fin t.rank) {s1 s2 s3 : Shape} {x1 : FVec Ideal s1 .f32}
    {x2 : FVec Ideal s2 .f32} {x3 : FVec Ideal s3 .f32}
    (h : Shape.Concatenates (([⟨s1, x1⟩, ⟨s2, x2⟩, ⟨s3, x3⟩] : List ((s : Shape) × (s.Idx → EReal))).map (·.1)) t a)
    (h1 : IsReal x1) (h2 : IsReal x2) (h3 : IsReal x3) : IsReal (concatenate t a [⟨s1, x1⟩, ⟨s2, x2⟩, ⟨s3, x3⟩] h) :=
  isReal_concatenate t a _ h fun p hp => by
    rcases List.mem_cons.1 hp with rfl | hp
    · exact h1
    rcases List.mem_cons.1 hp with rfl | hp
    · exact h2
    rcases List.mem_cons.1 hp with rfl | hp
    · exact h3
    exact absurd hp (List.not_mem_nil)

/-! ## Constants -/

/-- The word of zero, at every index of any shape. -/
theorem isReal_const0 (s : Shape) : IsReal (constant (F := Ideal) s .f32 0x00000000#32) := fun _ =>
  ⟨0, by rw [constant_apply, Ideal.ofBits_zero_f32, EReal.coe_zero]⟩

/-- The word of one, at every index of any shape. -/
theorem isReal_const1 (s : Shape) : IsReal (constant (F := Ideal) s .f32 0x3F800000#32) := fun _ =>
  ⟨1, by rw [constant_apply, Ideal.ofBits_one_f32, EReal.coe_one]⟩

/-! ## Entrywise operations -/

theorem isReal_maximumf {s : Shape} {x y : FVec Ideal s .f32} (hx : IsReal x) (hy : IsReal y) : IsReal (maximumf x y) :=
  fun i => real_max (hx i) (hy i)

theorem isReal_addf {s : Shape} {x y : FVec Ideal s .f32} (hx : IsReal x) (hy : IsReal y) : IsReal (addf x y) :=
  fun i => real_add (hx i) (hy i)

/-- The maximum with an array that is at least one everywhere is at least one everywhere. -/
theorem one_le_maximumf_right {s : Shape} (x y : FVec Ideal s .f32) (hy : ∀ i, (1 : EReal) ≤ y i) (i : s.Idx) :
    (1 : EReal) ≤ maximumf x y i := by
  rw [maximumf_apply]
  exact le_trans (hy i) (le_max_right _ _)

/-- The maximum with the broadcast word of one is at least one everywhere. -/
theorem one_le_maximumf_one {s z : Shape} (cnt : FVec Ideal s .f32) (e : Fin z.rank → Fin s.rank) (hb : z.BroadcastsInDim s e)
    (i : s.Idx) : (1 : EReal) ≤ maximumf cnt (broadcastInDim s e hb (constant (F := Ideal) z .f32 0x3F800000#32)) i :=
  one_le_maximumf_right _ _ (fun k => by
    unfold broadcastInDim
    rw [constant_apply, Ideal.ofBits_one_f32]) i

/-- A broadcast of an array that is at least one everywhere is at least one everywhere. -/
theorem one_le_broadcastInDim {s : Shape} (t : Shape) (dims : Fin s.rank → Fin t.rank) (h : s.BroadcastsInDim t dims)
    {y : FVec Ideal s .f32} (hy : ∀ i, (1 : EReal) ≤ y i) (j : t.Idx) : (1 : EReal) ≤ broadcastInDim t dims h y j := by
  unfold broadcastInDim
  exact hy _

/-! ## The accumulating scatter and the quotient -/

/-- Each entry of the operand plus a finite sum of entries of the updates. -/
theorem isReal_scatterAdd {s si su : Shape} {w : Nat} (d : ScatterDims s si su) {x : FVec Ideal s .f32} (idx : IVec si w)
    {upd : FVec Ideal su .f32} (hx : IsReal x) (hu : IsReal upd) : IsReal (Host.scatterAdd d x idx upd) := fun i => by
  unfold Host.scatterAdd
  rw [Ideal.hostScatterAdd_def]
  unfold Ideal.hostScatterAdd
  exact real_add (hx i) (real_sum _ _ fun j _ => hu j)

/-- A real array divided entrywise by a real array that is at least one everywhere. -/
theorem isReal_divf {s : Shape} {x y : FVec Ideal s .f32} (hx : IsReal x) (hy : IsReal y) (h1 : ∀ i, (1 : EReal) ≤ y i) :
    IsReal (Host.divf x y) := fun i => by
  rw [hostDivf_apply]
  exact real_div_of_one_le (hx i) (hy i) (h1 i)

/-! ## Products of matrices -/

/-- The host's matrix product: each entry is a finite sum of products of entries. -/
theorem isReal_dotGeneral {sl sr so : Shape} (d : DotDims sl sr so) (prec : Option ContractPrecision)
    {lhs : FVec Ideal sl .f32} {rhs : FVec Ideal sr .f32} (hl : IsReal lhs) (hr : IsReal rhs) :
    IsReal (Host.dotGeneral d prec lhs rhs) := fun j => by
  change ∃ r : ℝ, Ideal.matmul d lhs rhs (fun _ => 0) j = (r : EReal)
  unfold Ideal.matmul
  exact real_add real_zero (real_sum _ _ fun k _ => real_mul (hl _) (hr _))

/-- The matrix unit's product onto an accumulator: the accumulator's entry plus a finite sum of products. -/
theorem isReal_matmul {sl sr so : Shape} (d : DotDims sl sr so) (prec : Option ContractPrecision)
    {lhs : FVec Ideal sl .f32} {rhs : FVec Ideal sr .f32} {acc : FVec Ideal so .f32}
    (hl : IsReal lhs) (hr : IsReal rhs) (ha : IsReal acc) : IsReal (matmul d prec lhs rhs acc) := fun j => by
  change ∃ r : ℝ, Ideal.matmul d lhs rhs acc j = (r : EReal)
  unfold Ideal.matmul
  exact real_add (ha j) (real_sum _ _ fun k _ => real_mul (hl _) (hr _))

/-- The dense map of real arrays is real. -/
theorem isReal_dense {n k o : ℕ} (X : Mat n k) (W : Mat k o) (b : Mat 1 o)
    (hX : IsReal X) (hW : IsReal W) (hb : IsReal b) : IsReal (dense X W b) :=
  fun i => real_denseAt X W b (i 0) (i 1) hX hW hb

/-- The classifier head of real arrays is real. -/
theorem isReal_mlp {n k h o : ℕ} (X : Mat n k) (W1 : Mat k h) (b1 : Mat 1 h) (W2 : Mat h o) (b2 : Mat 1 o)
    (hX : IsReal X) (hW1 : IsReal W1) (hb1 : IsReal b1) (hW2 : IsReal W2) (hb2 : IsReal b2) : IsReal (mlp X W1 b1 W2 b2) :=
  isReal_dense _ _ _ (isReal_denseRelu X W1 b1 hX hW1 hb1) hW2 hb2

/-- A vector laid out as a one-row matrix keeps its entries. -/
theorem isReal_rowOf {o : ℕ} {b : (⟨1, ![o]⟩ : Shape).Idx → EReal} (hb : IsReal b) : IsReal (rowOf b) :=
  fun i => hb (ix1 (i 1))

/-! ## The mean aggregation -/

/-- The mean aggregation of a real node array has real entries: the gathered rows summed onto zeros, divided by the
    neighbour count raised to at least one (the count itself is a sum of ones onto zeros), whatever the index arrays. -/
theorem isReal_mean {sx sgi su s si z0 sc si3 sone s1 z1 z2 z3 : Shape} {w1 w2 w3 : Nat}
    (g : GatherDims sx sgi su) (d : ScatterDims s si su) (d' : ScatterDims sc si3 sone)
    (x : FVec Ideal sx .f32) (i1 : IVec si w1) (i2 : IVec sgi w2) (i3 : IVec si3 w3)
    (e0 : Fin z0.rank → Fin s.rank) (h0 : z0.BroadcastsInDim s e0)
    (e1 : Fin z1.rank → Fin sc.rank) (h1 : z1.BroadcastsInDim sc e1)
    (e2 : Fin z2.rank → Fin sone.rank) (h2 : z2.BroadcastsInDim sone e2)
    (e3 : Fin z3.rank → Fin sc.rank) (h3 : z3.BroadcastsInDim sc e3)
    (e4 : Fin sc.rank → Fin s1.rank) (h4 : sc.BroadcastsInDim s1 e4)
    (e5 : Fin s1.rank → Fin s.rank) (h5 : s1.BroadcastsInDim s e5)
    (hx : IsReal x) :
    IsReal (Host.divf
      (Host.scatterAdd d (broadcastInDim s e0 h0 (constant (F := Ideal) z0 .f32 0x00000000#32)) i1 (Host.gather g x i2))
      (broadcastInDim s e5 h5 (broadcastInDim s1 e4 h4
        (maximumf
          (Host.scatterAdd d' (broadcastInDim sc e1 h1 (constant (F := Ideal) z1 .f32 0x00000000#32)) i3
            (broadcastInDim sone e2 h2 (constant (F := Ideal) z2 .f32 0x3F800000#32)))
          (broadcastInDim sc e3 h3 (constant (F := Ideal) z3 .f32 0x3F800000#32)))))) :=
  isReal_divf
    (isReal_scatterAdd d i1 (isReal_broadcastInDim s e0 h0 (isReal_const0 z0)) (isReal_gather g i2 hx))
    (isReal_broadcastInDim s e5 h5 (isReal_broadcastInDim s1 e4 h4
      (isReal_maximumf
        (isReal_scatterAdd d' i3 (isReal_broadcastInDim sc e1 h1 (isReal_const0 z1))
          (isReal_broadcastInDim sone e2 h2 (isReal_const1 z2)))
        (isReal_broadcastInDim sc e3 h3 (isReal_const1 z3)))))
    (one_le_broadcastInDim s e5 h5 (one_le_broadcastInDim s1 e4 h4 (one_le_maximumf_one _ e3 h3)))

end Cert.Spec

end
-- ==== Proof.RealStages.lean ====
/-
  The reference's first layer has real entries.

  Each relation's contribution at an entry is a finite sum of products of an aggregated neighbour's entry with a message
  weight, plus a bias entry, plus a finite sum of products of the node's own entries with root weights; a node type's new
  value adds its relations' contributions onto zero and clamps at zero. The aggregated neighbours are real when the source
  node array is (a mean of real rows, the divisor at least one). So with real arguments the first layer's clamped values
  are real numbers — which is what the second layer's distributive step asks of its node rows.
-/
import proofs.«154750_j39152921870699_1_alg».proof.Proof.RefRead
import proofs.«154750_j39152921870699_1_alg».proof.Proof.Ref.L0
import proofs.«154750_j39152921870699_1_alg».proof.Proof.Reals
import proofs.«154750_j39152921870699_1_alg».proof.Proof.Algebra

noncomputable section

open scoped BigOperators

namespace Cert.Spec

open Idealize.ShloMosaic Idealize.ShloMosaic.ValueIdx

/-- One relation's contribution at an entry is real when all the arrays it reads are. -/
theorem real_sageAt {n : ℕ} (l : Fin 2) (r : Fin 6) (M x : Mat n 64) (Wm : W4) (b : B3) (Wr : W4) (a : Fin n) (j : Fin 64)
    (hM : IsReal M) (hx : IsReal x) (hWm : IsReal Wm) (hb : IsReal b) (hWr : IsReal Wr) :
    ∃ r₀ : ℝ, sageAt l r M x Wm b Wr a j = (r₀ : EReal) :=
  real_add (real_add (real_sum _ _ fun k _ => real_mul (hM _) (hWm _)) (hb _)) (real_sum _ _ fun k _ => real_mul (hx _) (hWr _))

/-- Two relations' contributions added onto zero: real when all the arrays are. -/
theorem real_refTwoAt {n : ℕ} (l : Fin 2) (r r' : Fin 6) (M M' x : Mat n 64) (Wm : W4) (b : B3) (Wr : W4) (a : Fin n) (j : Fin 64)
    (hM : IsReal M) (hM' : IsReal M') (hx : IsReal x) (hWm : IsReal Wm) (hb : IsReal b) (hWr : IsReal Wr) :
    ∃ r₀ : ℝ, refTwoAt l r r' M M' x Wm b Wr a j = (r₀ : EReal) :=
  real_add (real_add real_zero (real_sageAt l r M x Wm b Wr a j hM hx hWm hb hWr)) (real_sageAt l r' M' x Wm b Wr a j hM' hx hWm hb hWr)

/-- One relation's contribution added onto zero. -/
theorem real_refOneAt {n : ℕ} (l : Fin 2) (r : Fin 6) (M x : Mat n 64) (Wm : W4) (b : B3) (Wr : W4) (a : Fin n) (j : Fin 64)
    (hM : IsReal M) (hx : IsReal x) (hWm : IsReal Wm) (hb : IsReal b) (hWr : IsReal Wr) :
    ∃ r₀ : ℝ, refOneAt l r M x Wm b Wr a j = (r₀ : EReal) :=
  real_add real_zero (real_sageAt l r M x Wm b Wr a j hM hx hWm hb hWr)

end Cert.Spec

namespace Cert.RefSide

open Idealize.ShloMosaic Idealize.ShloMosaic.ValueIdx Cert.ReferenceIdeal Cert.ReferenceIdeal.Read Cert.Spec

variable (x0 : (⟨S100000x64, .f32⟩ : BufTy).Contents (Elt Ideal))
  (x1 : (⟨S50000x64, .f32⟩ : BufTy).Contents (Elt Ideal))
  (x2 : (⟨S2000x64, .f32⟩ : BufTy).Contents (Elt Ideal))
  (x3 : (⟨S5000x64, .f32⟩ : BufTy).Contents (Elt Ideal))
  (x4 : (⟨S2x6x64x64, .f32⟩ : BufTy).Contents (Elt Ideal))
  (x5 : (⟨S2x6x64, .f32⟩ : BufTy).Contents (Elt Ideal))
  (x6 : (⟨S2x6x64x64, .f32⟩ : BufTy).Contents (Elt Ideal))
  (x11 : (⟨S2000000, .i32⟩ : BufTy).Contents (Elt Ideal))
  (x12 : (⟨S2000000, .i32⟩ : BufTy).Contents (Elt Ideal))
  (x13 : (⟨S2000000, .i32⟩ : BufTy).Contents (Elt Ideal))
  (x14 : (⟨S2000000, .i32⟩ : BufTy).Contents (Elt Ideal))
  (x15 : (⟨S100000, .i32⟩ : BufTy).Contents (Elt Ideal))
  (x16 : (⟨S100000, .i32⟩ : BufTy).Contents (Elt Ideal))
  (x17 : (⟨S100000, .i32⟩ : BufTy).Contents (Elt Ideal))
  (x18 : (⟨S100000, .i32⟩ : BufTy).Contents (Elt Ideal))
  (x19 : (⟨S200000, .i32⟩ : BufTy).Contents (Elt Ideal))
  (x20 : (⟨S200000, .i32⟩ : BufTy).Contents (Elt Ideal))
  (x21 : (⟨S200000, .i32⟩ : BufTy).Contents (Elt Ideal))
  (x22 : (⟨S200000, .i32⟩ : BufTy).Contents (Elt Ideal))

/-! ## The six aggregations of the first layer -/

/-- The aggregated neighbours of stage 28 are real when the source node array is. -/
theorem isReal_mean_v28 (h : IsReal x1) : IsReal (val_main_v28 (F := Ideal) x1 x11 x12) := by
  unfold val_main_v28 val_main_v19 val_main_v27 val_main_v17 val_main_v16 val_main_v26 val_main_cst_4 val_main_v25 val_main_v23 val_main_v24 val_main_v21 val_main_v20 val_main_cst_7 val_main_cst_6 val_main_cst_5
  exact isReal_mean _ _ _ _ _ _ _ _ _ _ _ _ _ _ _ _ _ _ _ h

/-- The aggregated neighbours of stage 60 are real when the source node array is. -/
theorem isReal_mean_v60 (h : IsReal x0) : IsReal (val_main_v60 (F := Ideal) x0 x13 x14) := by
  unfold val_main_v60 val_main_v51 val_main_v59 val_main_v49 val_main_v48 val_main_v58 val_main_cst_10 val_main_v57 val_main_v55 val_main_v56 val_main_v53 val_main_v52 val_main_cst_13 val_main_cst_12 val_main_cst_11
  exact isReal_mean _ _ _ _ _ _ _ _ _ _ _ _ _ _ _ _ _ _ _ h

/-- The aggregated neighbours of stage 92 are real when the source node array is. -/
theorem isReal_mean_v92 (h : IsReal x1) : IsReal (val_main_v92 (F := Ideal) x1 x15 x16) := by
  unfold val_main_v92 val_main_v83 val_main_v91 val_main_v81 val_main_v80 val_main_v90 val_main_cst_16 val_main_v89 val_main_v87 val_main_v88 val_main_v85 val_main_v84 val_main_cst_19 val_main_cst_18 val_main_cst_17
  exact isReal_mean _ _ _ _ _ _ _ _ _ _ _ _ _ _ _ _ _ _ _ h

/-- The aggregated neighbours of stage 124 are real when the source node array is. -/
theorem isReal_mean_v124 (h : IsReal x2) : IsReal (val_main_v124 (F := Ideal) x2 x17 x18) := by
  unfold val_main_v124 val_main_v115 val_main_v123 val_main_v113 val_main_v112 val_main_v122 val_main_cst_22 val_main_v121 val_main_v119 val_main_v120 val_main_v117 val_main_v116 val_main_cst_25 val_main_cst_24 val_main_cst_23
  exact isReal_mean _ _ _ _ _ _ _ _ _ _ _ _ _ _ _ _ _ _ _ h

/-- The aggregated neighbours of stage 156 are real when the source node array is. -/
theorem isReal_mean_v156 (h : IsReal x0) : IsReal (val_main_v156 (F := Ideal) x0 x19 x20) := by
  unfold val_main_v156 val_main_v147 val_main_v155 val_main_v145 val_main_v144 val_main_v154 val_main_cst_28 val_main_v153 val_main_v151 val_main_v152 val_main_v149 val_main_v148 val_main_cst_31 val_main_cst_30 val_main_cst_29
  exact isReal_mean _ _ _ _ _ _ _ _ _ _ _ _ _ _ _ _ _ _ _ h

/-- The aggregated neighbours of stage 188 are real when the source node array is. -/
theorem isReal_mean_v188 (h : IsReal x3) : IsReal (val_main_v188 (F := Ideal) x3 x21 x22) := by
  unfold val_main_v188 val_main_v179 val_main_v187 val_main_v177 val_main_v176 val_main_v186 val_main_cst_34 val_main_v185 val_main_v183 val_main_v184 val_main_v181 val_main_v180 val_main_cst_37 val_main_cst_36 val_main_cst_35
  exact isReal_mean _ _ _ _ _ _ _ _ _ _ _ _ _ _ _ _ _ _ _ h

/-! ## The clamped values of the first layer: gene and compound -/

theorem real_gene_l0 (h0 : IsReal x0) (h1 : IsReal x1) (h3 : IsReal x3) (h4 : IsReal x4) (h5 : IsReal x5) (h6 : IsReal x6) :
    IsReal (val_main_v196 (F := Ideal) x0 x1 x3 x4 x5 x6 x11 x12 x21 x22) := fun i => by
  have hi : ix2 (n0 := 100000) (n1 := 64) (i 0) (i 1) = i := (eq_ix2 (n0 := 100000) (n1 := 64) i).symm
  have h := pre_gene_l0 x0 x1 x3 x4 x5 x6 x11 x12 x21 x22 (i 0) (i 1)
  rw [hi] at h
  rw [relu_gene_l0, h]
  exact real_max (real_refTwoAt 0 0 5 _ _ x0 x4 x5 x6 (i 0) (i 1) (isReal_mean_v28 x1 x11 x12 h1) (isReal_mean_v188 x3 x21 x22 h3)
    h0 h4 h5 h6) real_zero

theorem real_compound_l0 (h0 : IsReal x0) (h1 : IsReal x1) (h2 : IsReal x2) (h4 : IsReal x4) (h5 : IsReal x5) (h6 : IsReal x6) :
    IsReal (val_main_v197 (F := Ideal) x0 x1 x2 x4 x5 x6 x13 x14 x17 x18) := fun i => by
  have hi : ix2 (n0 := 50000) (n1 := 64) (i 0) (i 1) = i := (eq_ix2 (n0 := 50000) (n1 := 64) i).symm
  have h := pre_compound_l0 x0 x1 x2 x4 x5 x6 x13 x14 x17 x18 (i 0) (i 1)
  rw [hi] at h
  rw [relu_compound_l0, h]
  exact real_max (real_refTwoAt 0 1 3 _ _ x1 x4 x5 x6 (i 0) (i 1) (isReal_mean_v60 x0 x13 x14 h0) (isReal_mean_v124 x2 x17 x18 h2)
    h1 h4 h5 h6) real_zero

end Cert.RefSide

end
-- ==== Proof.Ref.L1.lean ====
/-
  The reference's layer 1 in closed form, relation by relation. For each relation: the message weights and the root weights
  (a [1,1,64,64] slice of the stacked weights, reshaped to [64,64]) read the stack at (l, r, k, j); the bias (a [1,1,64] slice,
  reshaped to [64] and spread over the rows) reads the stack at (l, r, j); the two products are sums over the 64 columns; so the
  relation's contribution at (a, j) is the specification's sageAt. Each node type's new value adds its relations' contributions,
  in order, onto a zero matrix.
  The aggregated-neighbour matrices (the means) are left as the reference's own stages.
-/
import proofs.«154750_j39152921870699_1_alg».proof.Proof.RefRead
import proofs.«154750_j39152921870699_1_alg».proof.Proof.Spec
import proofs.«154750_j39152921870699_1_alg».proof.Proof.Ref.Idx
import proofs.«154750_j39152921870699_1_alg».proof.Proof.Ref.Sage

noncomputable section

open scoped BigOperators

namespace Cert.RefSide

open Idealize.ShloMosaic Idealize.ShloMosaic.ValueIdx Cert.ReferenceIdeal Cert.ReferenceIdeal.Read Cert.Spec

variable (x0 : (⟨S100000x64, .f32⟩ : BufTy).Contents (Elt Ideal))
  (x1 : (⟨S50000x64, .f32⟩ : BufTy).Contents (Elt Ideal))
  (x2 : (⟨S2000x64, .f32⟩ : BufTy).Contents (Elt Ideal))
  (x3 : (⟨S5000x64, .f32⟩ : BufTy).Contents (Elt Ideal))
  (x4 : (⟨S2x6x64x64, .f32⟩ : BufTy).Contents (Elt Ideal))
  (x5 : (⟨S2x6x64, .f32⟩ : BufTy).Contents (Elt Ideal))
  (x6 : (⟨S2x6x64x64, .f32⟩ : BufTy).Contents (Elt Ideal))
  (x11 : (⟨S2000000, .i32⟩ : BufTy).Contents (Elt Ideal))
  (x12 : (⟨S2000000, .i32⟩ : BufTy).Contents (Elt Ideal))
  (x13 : (⟨S2000000, .i32⟩ : BufTy).Contents (Elt Ideal))
  (x14 : (⟨S2000000, .i32⟩ : BufTy).Contents (Elt Ideal))
  (x15 : (⟨S100000, .i32⟩ : BufTy).Contents (Elt Ideal))
  (x16 : (⟨S100000, .i32⟩ : BufTy).Contents (Elt Ideal))
  (x17 : (⟨S100000, .i32⟩ : BufTy).Contents (Elt Ideal))
  (x18 : (⟨S100000, .i32⟩ : BufTy).Contents (Elt Ideal))
  (x19 : (⟨S200000, .i32⟩ : BufTy).Contents (Elt Ideal))
  (x20 : (⟨S200000, .i32⟩ : BufTy).Contents (Elt Ideal))
  (x21 : (⟨S200000, .i32⟩ : BufTy).Contents (Elt Ideal))
  (x22 : (⟨S200000, .i32⟩ : BufTy).Contents (Elt Ideal))

/-! ## Relation 0 of layer 1 (100000 rows) -/

theorem wm_l1r0 (k j : Fin 64) : (val_main_v205 (F := Ideal) x4) (ix2 k j) = x4 (ix4 1 0 k j) := by
  rw [val_main_v205_apply, val_main_v204_apply]
  exact congrArg x4 (w_idx 1 0 k j (idx_main_v204 (idx_main_v205 (ix2 k j))) rfl rfl rfl rfl)

theorem wr_l1r0 (k j : Fin 64) : (val_main_v209 (F := Ideal) x6) (ix2 k j) = x6 (ix4 1 0 k j) := by
  rw [val_main_v209_apply, val_main_v208_apply]
  exact congrArg x6 (w_idx 1 0 k j (idx_main_v208 (idx_main_v209 (ix2 k j))) rfl rfl rfl rfl)

theorem b_l1r0 (a : Fin 100000) (j : Fin 64) : (val_main_v231 (F := Ideal) x5) (ix2 a j) = x5 (ix3 1 0 j) := by
  rw [val_main_v231_apply, val_main_v230_apply, val_main_v207_apply, val_main_v206_apply]
  exact congrArg x5 (b_idx 1 0 j (idx_main_v206 (idx_main_v207 (idx_main_v230 (idx_main_v231 (ix2 a j))))) rfl rfl rfl)

theorem dm_l1r0 (a : Fin 100000) (j : Fin 64) :
    (val_main_v229 (F := Ideal) x0 x1 x2 x4 x5 x6 x11 x12 x13 x14 x17 x18) (ix2 a j) = ∑ k : Fin 64, (val_main_v228 (F := Ideal) x0 x1 x2 x4 x5 x6 x11 x12 x13 x14 x17 x18) (ix2 a k) * (val_main_v205 (F := Ideal) x4) (ix2 k j) := by
  rw [val_main_v229_apply]
  refine Finset.sum_congr rfl fun k _ => ?_
  rw [ix2_of_vals (lidx_main_v229 (ix2 a j) k) a k rfl rfl, ix2_of_vals (ridx_main_v229 (ix2 a j) k) k j rfl rfl]

theorem dx_l1r0 (a : Fin 100000) (j : Fin 64) :
    (val_main_v233 (F := Ideal) x0 x1 x3 x4 x5 x6 x11 x12 x21 x22) (ix2 a j) = ∑ k : Fin 64, (val_main_v196 (F := Ideal) x0 x1 x3 x4 x5 x6 x11 x12 x21 x22) (ix2 a k) * (val_main_v209 (F := Ideal) x6) (ix2 k j) := by
  rw [val_main_v233_apply]
  refine Finset.sum_congr rfl fun k _ => ?_
  rw [ix2_of_vals (lidx_main_v233 (ix2 a j) k) a k rfl rfl, ix2_of_vals (ridx_main_v233 (ix2 a j) k) k j rfl rfl]

/-- Relation 0's contribution at (a, j). -/
theorem sage_l1r0 (a : Fin 100000) (j : Fin 64) :
    (val_main_v234 (F := Ideal) x0 x1 x2 x3 x4 x5 x6 x11 x12 x13 x14 x17 x18 x21 x22) (ix2 a j) = sageAt 1 0 (val_main_v228 (F := Ideal) x0 x1 x2 x4 x5 x6 x11 x12 x13 x14 x17 x18) (val_main_v196 (F := Ideal) x0 x1 x3 x4 x5 x6 x11 x12 x21 x22) x4 x5 x6 a j := by
  rw [val_main_v234_apply, val_main_v232_apply]
  exact sage_of_reads 1 0 (val_main_v228 (F := Ideal) x0 x1 x2 x4 x5 x6 x11 x12 x13 x14 x17 x18) (val_main_v196 (F := Ideal) x0 x1 x3 x4 x5 x6 x11 x12 x21 x22) x4 x5 x6 (val_main_v205 (F := Ideal) x4) (val_main_v209 (F := Ideal) x6)
    (val_main_v231 (F := Ideal) x5) (val_main_v229 (F := Ideal) x0 x1 x2 x4 x5 x6 x11 x12 x13 x14 x17 x18) (val_main_v233 (F := Ideal) x0 x1 x3 x4 x5 x6 x11 x12 x21 x22) a j
    (dm_l1r0 x0 x1 x2 x4 x5 x6 x11 x12 x13 x14 x17 x18 a j) (fun k => wm_l1r0 x4 k j) (b_l1r0 x5 a j)
    (dx_l1r0 x0 x1 x3 x4 x5 x6 x11 x12 x21 x22 a j) (fun k => wr_l1r0 x6 k j)

/-! ## Relation 1 of layer 1 (50000 rows) -/

theorem wm_l1r1 (k j : Fin 64) : (val_main_v237 (F := Ideal) x4) (ix2 k j) = x4 (ix4 1 1 k j) := by
  rw [val_main_v237_apply, val_main_v236_apply]
  exact congrArg x4 (w_idx 1 1 k j (idx_main_v236 (idx_main_v237 (ix2 k j))) rfl rfl rfl rfl)

theorem wr_l1r1 (k j : Fin 64) : (val_main_v241 (F := Ideal) x6) (ix2 k j) = x6 (ix4 1 1 k j) := by
  rw [val_main_v241_apply, val_main_v240_apply]
  exact congrArg x6 (w_idx 1 1 k j (idx_main_v240 (idx_main_v241 (ix2 k j))) rfl rfl rfl rfl)

theorem b_l1r1 (a : Fin 50000) (j : Fin 64) : (val_main_v263 (F := Ideal) x5) (ix2 a j) = x5 (ix3 1 1 j) := by
  rw [val_main_v263_apply, val_main_v262_apply, val_main_v239_apply, val_main_v238_apply]
  exact congrArg x5 (b_idx 1 1 j (idx_main_v238 (idx_main_v239 (idx_main_v262 (idx_main_v263 (ix2 a j))))) rfl rfl rfl)

theorem dm_l1r1 (a : Fin 50000) (j : Fin 64) :
    (val_main_v261 (F := Ideal) x0 x1 x3 x4 x5 x6 x11 x12 x13 x14 x21 x22) (ix2 a j) = ∑ k : Fin 64, (val_main_v260 (F := Ideal) x0 x1 x3 x4 x5 x6 x11 x12 x13 x14 x21 x22) (ix2 a k) * (val_main_v237 (F := Ideal) x4) (ix2 k j) := by
  rw [val_main_v261_apply]
  refine Finset.sum_congr rfl fun k _ => ?_
  rw [ix2_of_vals (lidx_main_v261 (ix2 a j) k) a k rfl rfl, ix2_of_vals (ridx_main_v261 (ix2 a j) k) k j rfl rfl]

theorem dx_l1r1 (a : Fin 50000) (j : Fin 64) :
    (val_main_v265 (F := Ideal) x0 x1 x2 x4 x5 x6 x13 x14 x17 x18) (ix2 a j) = ∑ k : Fin 64, (val_main_v197 (F := Ideal) x0 x1 x2 x4 x5 x6 x13 x14 x17 x18) (ix2 a k) * (val_main_v241 (F := Ideal) x6) (ix2 k j) := by
  rw [val_main_v265_apply]
  refine Finset.sum_congr rfl fun k _ => ?_
  rw [ix2_of_vals (lidx_main_v265 (ix2 a j) k) a k rfl rfl, ix2_of_vals (ridx_main_v265 (ix2 a j) k) k j rfl rfl]

/-- Relation 1's contribution at (a, j). -/
theorem sage_l1r1 (a : Fin 50000) (j : Fin 64) :
    (val_main_v266 (F := Ideal) x0 x1 x2 x3 x4 x5 x6 x11 x12 x13 x14 x17 x18 x21 x22) (ix2 a j) = sageAt 1 1 (val_main_v260 (F := Ideal) x0 x1 x3 x4 x5 x6 x11 x12 x13 x14 x21 x22) (val_main_v197 (F := Ideal) x0 x1 x2 x4 x5 x6 x13 x14 x17 x18) x4 x5 x6 a j := by
  rw [val_main_v266_apply, val_main_v264_apply]
  exact sage_of_reads 1 1 (val_main_v260 (F := Ideal) x0 x1 x3 x4 x5 x6 x11 x12 x13 x14 x21 x22) (val_main_v197 (F := Ideal) x0 x1 x2 x4 x5 x6 x13 x14 x17 x18) x4 x5 x6 (val_main_v237 (F := Ideal) x4) (val_main_v241 (F := Ideal) x6)
    (val_main_v263 (F := Ideal) x5) (val_main_v261 (F := Ideal) x0 x1 x3 x4 x5 x6 x11 x12 x13 x14 x21 x22) (val_main_v265 (F := Ideal) x0 x1 x2 x4 x5 x6 x13 x14 x17 x18) a j
    (dm_l1r1 x0 x1 x3 x4 x5 x6 x11 x12 x13 x14 x21 x22 a j) (fun k => wm_l1r1 x4 k j) (b_l1r1 x5 a j)
    (dx_l1r1 x0 x1 x2 x4 x5 x6 x13 x14 x17 x18 a j) (fun k => wr_l1r1 x6 k j)

/-! ## Relation 3 of layer 1 (50000 rows) -/

theorem wm_l1r3 (k j : Fin 64) : (val_main_v301 (F := Ideal) x4) (ix2 k j) = x4 (ix4 1 3 k j) := by
  rw [val_main_v301_apply, val_main_v300_apply]
  exact congrArg x4 (w_idx 1 3 k j (idx_main_v300 (idx_main_v301 (ix2 k j))) rfl rfl rfl rfl)

theorem wr_l1r3 (k j : Fin 64) : (val_main_v305 (F := Ideal) x6) (ix2 k j) = x6 (ix4 1 3 k j) := by
  rw [val_main_v305_apply, val_main_v304_apply]
  exact congrArg x6 (w_idx 1 3 k j (idx_main_v304 (idx_main_v305 (ix2 k j))) rfl rfl rfl rfl)

theorem b_l1r3 (a : Fin 50000) (j : Fin 64) : (val_main_v327 (F := Ideal) x5) (ix2 a j) = x5 (ix3 1 3 j) := by
  rw [val_main_v327_apply, val_main_v326_apply, val_main_v303_apply, val_main_v302_apply]
  exact congrArg x5 (b_idx 1 3 j (idx_main_v302 (idx_main_v303 (idx_main_v326 (idx_main_v327 (ix2 a j))))) rfl rfl rfl)

theorem dm_l1r3 (a : Fin 50000) (j : Fin 64) :
    (val_main_v325 (F := Ideal) x1 x2 x4 x5 x6 x15 x16 x17 x18) (ix2 a j) = ∑ k : Fin 64, (val_main_v324 (F := Ideal) x1 x2 x4 x5 x6 x15 x16 x17 x18) (ix2 a k) * (val_main_v301 (F := Ideal) x4) (ix2 k j) := by
  rw [val_main_v325_apply]
  refine Finset.sum_congr rfl fun k _ => ?_
  rw [ix2_of_vals (lidx_main_v325 (ix2 a j) k) a k rfl rfl, ix2_of_vals (ridx_main_v325 (ix2 a j) k) k j rfl rfl]

theorem dx_l1r3 (a : Fin 50000) (j : Fin 64) :
    (val_main_v329 (F := Ideal) x0 x1 x2 x4 x5 x6 x13 x14 x17 x18) (ix2 a j) = ∑ k : Fin 64, (val_main_v197 (F := Ideal) x0 x1 x2 x4 x5 x6 x13 x14 x17 x18) (ix2 a k) * (val_main_v305 (F := Ideal) x6) (ix2 k j) := by
  rw [val_main_v329_apply]
  refine Finset.sum_congr rfl fun k _ => ?_
  rw [ix2_of_vals (lidx_main_v329 (ix2 a j) k) a k rfl rfl, ix2_of_vals (ridx_main_v329 (ix2 a j) k) k j rfl rfl]

/-- Relation 3's contribution at (a, j). -/
theorem sage_l1r3 (a : Fin 50000) (j : Fin 64) :
    (val_main_v330 (F := Ideal) x0 x1 x2 x4 x5 x6 x13 x14 x15 x16 x17 x18) (ix2 a j) = sageAt 1 3 (val_main_v324 (F := Ideal) x1 x2 x4 x5 x6 x15 x16 x17 x18) (val_main_v197 (F := Ideal) x0 x1 x2 x4 x5 x6 x13 x14 x17 x18) x4 x5 x6 a j := by
  rw [val_main_v330_apply, val_main_v328_apply]
  exact sage_of_reads 1 3 (val_main_v324 (F := Ideal) x1 x2 x4 x5 x6 x15 x16 x17 x18) (val_main_v197 (F := Ideal) x0 x1 x2 x4 x5 x6 x13 x14 x17 x18) x4 x5 x6 (val_main_v301 (F := Ideal) x4) (val_main_v305 (F := Ideal) x6)
    (val_main_v327 (F := Ideal) x5) (val_main_v325 (F := Ideal) x1 x2 x4 x5 x6 x15 x16 x17 x18) (val_main_v329 (F := Ideal) x0 x1 x2 x4 x5 x6 x13 x14 x17 x18) a j
    (dm_l1r3 x1 x2 x4 x5 x6 x15 x16 x17 x18 a j) (fun k => wm_l1r3 x4 k j) (b_l1r3 x5 a j)
    (dx_l1r3 x0 x1 x2 x4 x5 x6 x13 x14 x17 x18 a j) (fun k => wr_l1r3 x6 k j)

/-! ## Relation 5 of layer 1 (100000 rows) -/

theorem wm_l1r5 (k j : Fin 64) : (val_main_v365 (F := Ideal) x4) (ix2 k j) = x4 (ix4 1 5 k j) := by
  rw [val_main_v365_apply, val_main_v364_apply]
  exact congrArg x4 (w_idx 1 5 k j (idx_main_v364 (idx_main_v365 (ix2 k j))) rfl rfl rfl rfl)

theorem wr_l1r5 (k j : Fin 64) : (val_main_v369 (F := Ideal) x6) (ix2 k j) = x6 (ix4 1 5 k j) := by
  rw [val_main_v369_apply, val_main_v368_apply]
  exact congrArg x6 (w_idx 1 5 k j (idx_main_v368 (idx_main_v369 (ix2 k j))) rfl rfl rfl rfl)

theorem b_l1r5 (a : Fin 100000) (j : Fin 64) : (val_main_v391 (F := Ideal) x5) (ix2 a j) = x5 (ix3 1 5 j) := by
  rw [val_main_v391_apply, val_main_v390_apply, val_main_v367_apply, val_main_v366_apply]
  exact congrArg x5 (b_idx 1 5 j (idx_main_v366 (idx_main_v367 (idx_main_v390 (idx_main_v391 (ix2 a j))))) rfl rfl rfl)

theorem dm_l1r5 (a : Fin 100000) (j : Fin 64) :
    (val_main_v389 (F := Ideal) x0 x3 x4 x5 x6 x19 x20 x21 x22) (ix2 a j) = ∑ k : Fin 64, (val_main_v388 (F := Ideal) x0 x3 x4 x5 x6 x19 x20 x21 x22) (ix2 a k) * (val_main_v365 (F := Ideal) x4) (ix2 k j) := by
  rw [val_main_v389_apply]
  refine Finset.sum_congr rfl fun k _ => ?_
  rw [ix2_of_vals (lidx_main_v389 (ix2 a j) k) a k rfl rfl, ix2_of_vals (ridx_main_v389 (ix2 a j) k) k j rfl rfl]

theorem dx_l1r5 (a : Fin 100000) (j : Fin 64) :
    (val_main_v393 (F := Ideal) x0 x1 x3 x4 x5 x6 x11 x12 x21 x22) (ix2 a j) = ∑ k : Fin 64, (val_main_v196 (F := Ideal) x0 x1 x3 x4 x5 x6 x11 x12 x21 x22) (ix2 a k) * (val_main_v369 (F := Ideal) x6) (ix2 k j) := by
  rw [val_main_v393_apply]
  refine Finset.sum_congr rfl fun k _ => ?_
  rw [ix2_of_vals (lidx_main_v393 (ix2 a j) k) a k rfl rfl, ix2_of_vals (ridx_main_v393 (ix2 a j) k) k j rfl rfl]

/-- Relation 5's contribution at (a, j). -/
theorem sage_l1r5 (a : Fin 100000) (j : Fin 64) :
    (val_main_v394 (F := Ideal) x0 x1 x3 x4 x5 x6 x11 x12 x19 x20 x21 x22) (ix2 a j) = sageAt 1 5 (val_main_v388 (F := Ideal) x0 x3 x4 x5 x6 x19 x20 x21 x22) (val_main_v196 (F := Ideal) x0 x1 x3 x4 x5 x6 x11 x12 x21 x22) x4 x5 x6 a j := by
  rw [val_main_v394_apply, val_main_v392_apply]
  exact sage_of_reads 1 5 (val_main_v388 (F := Ideal) x0 x3 x4 x5 x6 x19 x20 x21 x22) (val_main_v196 (F := Ideal) x0 x1 x3 x4 x5 x6 x11 x12 x21 x22) x4 x5 x6 (val_main_v365 (F := Ideal) x4) (val_main_v369 (F := Ideal) x6)
    (val_main_v391 (F := Ideal) x5) (val_main_v389 (F := Ideal) x0 x3 x4 x5 x6 x19 x20 x21 x22) (val_main_v393 (F := Ideal) x0 x1 x3 x4 x5 x6 x11 x12 x21 x22) a j
    (dm_l1r5 x0 x3 x4 x5 x6 x19 x20 x21 x22 a j) (fun k => wm_l1r5 x4 k j) (b_l1r5 x5 a j)
    (dx_l1r5 x0 x1 x3 x4 x5 x6 x11 x12 x21 x22 a j) (fun k => wr_l1r5 x6 k j)

/-! ## The node type gene, layer 1 -/

/-- The new value at (a, j): the relations' contributions added, in order, onto zero. -/
theorem pre_gene_l1 (a : Fin 100000) (j : Fin 64) :
    (val_main_v395 (F := Ideal) x0 x1 x2 x3 x4 x5 x6 x11 x12 x13 x14 x17 x18 x19 x20 x21 x22) (ix2 a j) = refTwoAt 1 0 5 (val_main_v228 (F := Ideal) x0 x1 x2 x4 x5 x6 x11 x12 x13 x14 x17 x18) (val_main_v388 (F := Ideal) x0 x3 x4 x5 x6 x19 x20 x21 x22) (val_main_v196 (F := Ideal) x0 x1 x3 x4 x5 x6 x11 x12 x21 x22) x4 x5 x6 a j := by
  rw [val_main_v395_apply, val_main_v235_apply, val_main_v200_apply, val_main_cst_38_apply, sage_l1r0, sage_l1r5]
  exact two_onto_zero _ _

/-! ## The node type compound, layer 1 -/

/-- The new value at (a, j): the relations' contributions added, in order, onto zero. -/
theorem pre_compound_l1 (a : Fin 50000) (j : Fin 64) :
    (val_main_v331 (F := Ideal) x0 x1 x2 x3 x4 x5 x6 x11 x12 x13 x14 x15 x16 x17 x18 x21 x22) (ix2 a j) = refTwoAt 1 1 3 (val_main_v260 (F := Ideal) x0 x1 x3 x4 x5 x6 x11 x12 x13 x14 x21 x22) (val_main_v324 (F := Ideal) x1 x2 x4 x5 x6 x15 x16 x17 x18) (val_main_v197 (F := Ideal) x0 x1 x2 x4 x5 x6 x13 x14 x17 x18) x4 x5 x6 a j := by
  rw [val_main_v331_apply, val_main_v267_apply, val_main_v201_apply, val_main_cst_39_apply, sage_l1r1, sage_l1r3]
  exact two_onto_zero _ _

end Cert.RefSide

end
-- ==== Proof.Ref.Head.lean ====
/-
  The reference's classifier head in closed form. The pair features H [100000,128] (two gathered blocks laid side by side,
  left as the reference's own stage) go through a dense map with weights [128,64] and a bias vector [64] spread over the
  rows, the clamp at zero, and a second dense map with weights [64,4] and a bias vector [4]: the specification's two-layer
  head, with each bias vector laid out as a one-row matrix.
-/
import proofs.«154750_j39152921870699_1_alg».proof.Proof.RefRead
import proofs.«154750_j39152921870699_1_alg».proof.Proof.Spec
import proofs.«154750_j39152921870699_1_alg».proof.Proof.Ref.Idx
import proofs.«154750_j39152921870699_1_alg».proof.Proof.Ref.Sage

noncomputable section

open scoped BigOperators

namespace Cert.RefSide

open Idealize.ShloMosaic Idealize.ShloMosaic.ValueIdx Cert.ReferenceIdeal Cert.ReferenceIdeal.Read Cert.Spec

variable (x0 : (⟨S100000x64, .f32⟩ : BufTy).Contents (Elt Ideal))
  (x1 : (⟨S50000x64, .f32⟩ : BufTy).Contents (Elt Ideal))
  (x2 : (⟨S2000x64, .f32⟩ : BufTy).Contents (Elt Ideal))
  (x3 : (⟨S5000x64, .f32⟩ : BufTy).Contents (Elt Ideal))
  (x4 : (⟨S2x6x64x64, .f32⟩ : BufTy).Contents (Elt Ideal))
  (x5 : (⟨S2x6x64, .f32⟩ : BufTy).Contents (Elt Ideal))
  (x6 : (⟨S2x6x64x64, .f32⟩ : BufTy).Contents (Elt Ideal))
  (x7 : (⟨S128x64, .f32⟩ : BufTy).Contents (Elt Ideal))
  (x8 : (⟨S64, .f32⟩ : BufTy).Contents (Elt Ideal))
  (x9 : (⟨S64x4, .f32⟩ : BufTy).Contents (Elt Ideal))
  (x10 : (⟨S4, .f32⟩ : BufTy).Contents (Elt Ideal))
  (x11 : (⟨S2000000, .i32⟩ : BufTy).Contents (Elt Ideal))
  (x12 : (⟨S2000000, .i32⟩ : BufTy).Contents (Elt Ideal))
  (x13 : (⟨S2000000, .i32⟩ : BufTy).Contents (Elt Ideal))
  (x14 : (⟨S2000000, .i32⟩ : BufTy).Contents (Elt Ideal))
  (x15 : (⟨S100000, .i32⟩ : BufTy).Contents (Elt Ideal))
  (x16 : (⟨S100000, .i32⟩ : BufTy).Contents (Elt Ideal))
  (x17 : (⟨S100000, .i32⟩ : BufTy).Contents (Elt Ideal))
  (x18 : (⟨S100000, .i32⟩ : BufTy).Contents (Elt Ideal))
  (x19 : (⟨S200000, .i32⟩ : BufTy).Contents (Elt Ideal))
  (x20 : (⟨S200000, .i32⟩ : BufTy).Contents (Elt Ideal))
  (x21 : (⟨S200000, .i32⟩ : BufTy).Contents (Elt Ideal))
  (x22 : (⟨S200000, .i32⟩ : BufTy).Contents (Elt Ideal))
  (x23 : (⟨S100000, .i32⟩ : BufTy).Contents (Elt Ideal))
  (x24 : (⟨S100000, .i32⟩ : BufTy).Contents (Elt Ideal))

/-- The hidden layer's bias, spread over the rows, reads the bias vector at the column. -/
theorem head_b1 (a : Fin 100000) (c : Fin 64) : (val_main_v413 (F := Ideal) x8) (ix2 a c) = x8 (ix1 c) := by
  rw [val_main_v413_apply, val_main_v412_apply]
  exact congrArg x8 (ix1_of_vals (idx_main_v412 (idx_main_v413 (ix2 a c))) c rfl)

/-- The output layer's bias, spread over the rows, reads the bias vector at the column. -/
theorem head_b2 (a : Fin 100000) (j : Fin 4) : (val_main_v418 (F := Ideal) x10) (ix2 a j) = x10 (ix1 j) := by
  rw [val_main_v418_apply, val_main_v417_apply]
  exact congrArg x10 (ix1_of_vals (idx_main_v417 (idx_main_v418 (ix2 a j))) j rfl)

/-- The first product at (a, c): the row of the pair features against the column of the weights, over the 128 features. -/
theorem head_dot1 (a : Fin 100000) (c : Fin 64) :
    (val_main_v411 (F := Ideal) x0 x1 x2 x3 x4 x5 x6 x7 x11 x12 x13 x14 x15 x16 x17 x18 x19 x20 x21 x22 x23 x24) (ix2 a c)
      = ∑ k : Fin 128, (val_main_v410 (F := Ideal) x0 x1 x2 x3 x4 x5 x6 x11 x12 x13 x14 x15 x16 x17 x18 x19 x20 x21 x22 x23 x24) (ix2 a k) * x7 (ix2 k c) := by
  rw [val_main_v411_apply]
  refine Finset.sum_congr rfl fun k _ => ?_
  rw [ix2_of_vals (lidx_main_v411 (ix2 a c) k) a k rfl rfl, ix2_of_vals (ridx_main_v411 (ix2 a c) k) k c rfl rfl]

/-- The hidden layer at (a, c): the clamped dense map of the pair features. -/
theorem head_hidden (a : Fin 100000) (c : Fin 64) :
    (val_main_v415 (F := Ideal) x0 x1 x2 x3 x4 x5 x6 x7 x8 x11 x12 x13 x14 x15 x16 x17 x18 x19 x20 x21 x22 x23 x24) (ix2 a c)
      = denseRelu (val_main_v410 (F := Ideal) x0 x1 x2 x3 x4 x5 x6 x11 x12 x13 x14 x15 x16 x17 x18 x19 x20 x21 x22 x23 x24) x7 (rowOf x8) (ix2 a c) := by
  rw [val_main_v415_apply, val_main_call4_v0_apply, val_main_call4_cst_apply, val_main_v414_apply, head_dot1, head_b1]
  exact clamp_zero _

/-- The result at (a, j). -/
theorem head_out (a : Fin 100000) (j : Fin 4) :
    (val_main_v419 (F := Ideal) x0 x1 x2 x3 x4 x5 x6 x7 x8 x9 x10 x11 x12 x13 x14 x15 x16 x17 x18 x19 x20 x21 x22 x23 x24) (ix2 a j)
      = mlp (val_main_v410 (F := Ideal) x0 x1 x2 x3 x4 x5 x6 x11 x12 x13 x14 x15 x16 x17 x18 x19 x20 x21 x22 x23 x24) x7 (rowOf x8) x9 (rowOf x10) (ix2 a j) := by
  rw [val_main_v419_apply, val_main_v416_apply, head_b2]
  have hsum : (∑ k : Fin 64, (val_main_v415 (F := Ideal) x0 x1 x2 x3 x4 x5 x6 x7 x8 x11 x12 x13 x14 x15 x16 x17 x18 x19 x20 x21 x22 x23 x24) (lidx_main_v416 (ix2 a j) k) * x9 (ridx_main_v416 (ix2 a j) k))
      = ∑ k : Fin 64, denseRelu (val_main_v410 (F := Ideal) x0 x1 x2 x3 x4 x5 x6 x11 x12 x13 x14 x15 x16 x17 x18 x19 x20 x21 x22 x23 x24) x7 (rowOf x8) (ix2 a k) * x9 (ix2 k j) :=
    Finset.sum_congr rfl fun k _ => by
      rw [ix2_of_vals (lidx_main_v416 (ix2 a j) k) a k rfl rfl, ix2_of_vals (ridx_main_v416 (ix2 a j) k) k j rfl rfl, head_hidden]
  rw [hsum]
  rfl

/-- The reference's result is the specification's head applied to the pair features. -/
theorem head_eq :
    ((val_main_v419 (F := Ideal) x0 x1 x2 x3 x4 x5 x6 x7 x8 x9 x10 x11 x12 x13 x14 x15 x16 x17 x18 x19 x20 x21 x22 x23 x24) : Mat 100000 4)
      = mlp (val_main_v410 (F := Ideal) x0 x1 x2 x3 x4 x5 x6 x11 x12 x13 x14 x15 x16 x17 x18 x19 x20 x21 x22 x23 x24) x7 (rowOf x8) x9 (rowOf x10) := by
  funext i
  obtain ⟨a, j, rfl⟩ : ∃ (a : Fin 100000) (j : Fin 4), i = ix2 a j := ⟨i 0, i 1, eq_ix2 i⟩
  exact head_out x0 x1 x2 x3 x4 x5 x6 x7 x8 x9 x10 x11 x12 x13 x14 x15 x16 x17 x18 x19 x20 x21 x22 x23 x24 a j

end Cert.RefSide

end
-- ==== Proof.Ref.Glue.lean ====
/-
  The reference's layers as whole matrices: each node type's clamped layer-0 value, and the gene and compound layer-1
  values, are the functions that send an index to the specification's entry there — the entrywise closed forms,
  collected over all indices.
-/
import proofs.«154750_j39152921870699_1_alg».proof.Proof.Ref.L0
import proofs.«154750_j39152921870699_1_alg».proof.Proof.Ref.L1

noncomputable section

namespace Cert.RefSide

open Idealize.ShloMosaic Idealize.ShloMosaic.ValueIdx Cert.ReferenceIdeal Cert.ReferenceIdeal.Read Cert.Spec

variable (x0 : (⟨S100000x64, .f32⟩ : BufTy).Contents (Elt Ideal))
  (x1 : (⟨S50000x64, .f32⟩ : BufTy).Contents (Elt Ideal))
  (x2 : (⟨S2000x64, .f32⟩ : BufTy).Contents (Elt Ideal))
  (x3 : (⟨S5000x64, .f32⟩ : BufTy).Contents (Elt Ideal))
  (x4 : (⟨S2x6x64x64, .f32⟩ : BufTy).Contents (Elt Ideal))
  (x5 : (⟨S2x6x64, .f32⟩ : BufTy).Contents (Elt Ideal))
  (x6 : (⟨S2x6x64x64, .f32⟩ : BufTy).Contents (Elt Ideal))
  (x11 : (⟨S2000000, .i32⟩ : BufTy).Contents (Elt Ideal))
  (x12 : (⟨S2000000, .i32⟩ : BufTy).Contents (Elt Ideal))
  (x13 : (⟨S2000000, .i32⟩ : BufTy).Contents (Elt Ideal))
  (x14 : (⟨S2000000, .i32⟩ : BufTy).Contents (Elt Ideal))
  (x15 : (⟨S100000, .i32⟩ : BufTy).Contents (Elt Ideal))
  (x16 : (⟨S100000, .i32⟩ : BufTy).Contents (Elt Ideal))
  (x17 : (⟨S100000, .i32⟩ : BufTy).Contents (Elt Ideal))
  (x18 : (⟨S100000, .i32⟩ : BufTy).Contents (Elt Ideal))
  (x19 : (⟨S200000, .i32⟩ : BufTy).Contents (Elt Ideal))
  (x20 : (⟨S200000, .i32⟩ : BufTy).Contents (Elt Ideal))
  (x21 : (⟨S200000, .i32⟩ : BufTy).Contents (Elt Ideal))
  (x22 : (⟨S200000, .i32⟩ : BufTy).Contents (Elt Ideal))

/-- Layer 0, gene: the clamp of the two relations' contributions, as a matrix. -/
theorem gene_l0_fun :
    ((fun i => max (refTwoAt 0 0 5 (val_main_v28 (F := Ideal) x1 x11 x12) (val_main_v188 (F := Ideal) x3 x21 x22) x0 x4 x5 x6 (i 0) (i 1)) 0) : Mat 100000 64)
      = (val_main_v196 (F := Ideal) x0 x1 x3 x4 x5 x6 x11 x12 x21 x22) := by
  funext i
  obtain ⟨a, j, rfl⟩ : ∃ (a : Fin 100000) (j : Fin 64), i = ix2 a j := ⟨i 0, i 1, eq_ix2 i⟩
  exact ((relu_gene_l0 x0 x1 x3 x4 x5 x6 x11 x12 x21 x22 (ix2 a j)).trans
    (congrArg (fun t : EReal => max t 0) (pre_gene_l0 x0 x1 x3 x4 x5 x6 x11 x12 x21 x22 a j))).symm

/-- Layer 0, compound: the clamp of the two relations' contributions, as a matrix. -/
theorem compound_l0_fun :
    ((fun i => max (refTwoAt 0 1 3 (val_main_v60 (F := Ideal) x0 x13 x14) (val_main_v124 (F := Ideal) x2 x17 x18) x1 x4 x5 x6 (i 0) (i 1)) 0) : Mat 50000 64)
      = (val_main_v197 (F := Ideal) x0 x1 x2 x4 x5 x6 x13 x14 x17 x18) := by
  funext i
  obtain ⟨a, j, rfl⟩ : ∃ (a : Fin 50000) (j : Fin 64), i = ix2 a j := ⟨i 0, i 1, eq_ix2 i⟩
  exact ((relu_compound_l0 x0 x1 x2 x4 x5 x6 x13 x14 x17 x18 (ix2 a j)).trans
    (congrArg (fun t : EReal => max t 0) (pre_compound_l0 x0 x1 x2 x4 x5 x6 x13 x14 x17 x18 a j))).symm

/-- Layer 0, pclass: the clamp of the one relation's contribution, as a matrix. -/
theorem pclass_l0_fun :
    ((fun i => max (refOneAt 0 2 (val_main_v92 (F := Ideal) x1 x15 x16) x2 x4 x5 x6 (i 0) (i 1)) 0) : Mat 2000 64)
      = (val_main_v198 (F := Ideal) x1 x2 x4 x5 x6 x15 x16) := by
  funext i
  obtain ⟨a, j, rfl⟩ : ∃ (a : Fin 2000) (j : Fin 64), i = ix2 a j := ⟨i 0, i 1, eq_ix2 i⟩
  exact ((relu_pclass_l0 x1 x2 x4 x5 x6 x15 x16 (ix2 a j)).trans
    (congrArg (fun t : EReal => max t 0) (pre_pclass_l0 x1 x2 x4 x5 x6 x15 x16 a j))).symm

/-- Layer 0, family: the clamp of the one relation's contribution, as a matrix. -/
theorem family_l0_fun :
    ((fun i => max (refOneAt 0 4 (val_main_v156 (F := Ideal) x0 x19 x20) x3 x4 x5 x6 (i 0) (i 1)) 0) : Mat 5000 64)
      = (val_main_v199 (F := Ideal) x0 x3 x4 x5 x6 x19 x20) := by
  funext i
  obtain ⟨a, j, rfl⟩ : ∃ (a : Fin 5000) (j : Fin 64), i = ix2 a j := ⟨i 0, i 1, eq_ix2 i⟩
  exact ((relu_family_l0 x0 x3 x4 x5 x6 x19 x20 (ix2 a j)).trans
    (congrArg (fun t : EReal => max t 0) (pre_family_l0 x0 x3 x4 x5 x6 x19 x20 a j))).symm

/-- Layer 1, gene: the two relations' contributions over the clamped layer-0 values, as a matrix. -/
theorem gene_l1_fun :
    ((fun i => refTwoAt 1 0 5 (val_main_v228 (F := Ideal) x0 x1 x2 x4 x5 x6 x11 x12 x13 x14 x17 x18) (val_main_v388 (F := Ideal) x0 x3 x4 x5 x6 x19 x20 x21 x22)
        (val_main_v196 (F := Ideal) x0 x1 x3 x4 x5 x6 x11 x12 x21 x22) x4 x5 x6 (i 0) (i 1)) : Mat 100000 64)
      = (val_main_v395 (F := Ideal) x0 x1 x2 x3 x4 x5 x6 x11 x12 x13 x14 x17 x18 x19 x20 x21 x22) := by
  funext i
  obtain ⟨a, j, rfl⟩ : ∃ (a : Fin 100000) (j : Fin 64), i = ix2 a j := ⟨i 0, i 1, eq_ix2 i⟩
  exact (pre_gene_l1 x0 x1 x2 x3 x4 x5 x6 x11 x12 x13 x14 x17 x18 x19 x20 x21 x22 a j).symm

/-- Layer 1, compound: the two relations' contributions over the clamped layer-0 values, as a matrix. -/
theorem compound_l1_fun :
    ((fun i => refTwoAt 1 1 3 (val_main_v260 (F := Ideal) x0 x1 x3 x4 x5 x6 x11 x12 x13 x14 x21 x22) (val_main_v324 (F := Ideal) x1 x2 x4 x5 x6 x15 x16 x17 x18)
        (val_main_v197 (F := Ideal) x0 x1 x2 x4 x5 x6 x13 x14 x17 x18) x4 x5 x6 (i 0) (i 1)) : Mat 50000 64)
      = (val_main_v331 (F := Ideal) x0 x1 x2 x3 x4 x5 x6 x11 x12 x13 x14 x15 x16 x17 x18 x21 x22) := by
  funext i
  obtain ⟨a, j, rfl⟩ : ∃ (a : Fin 50000) (j : Fin 64), i = ix2 a j := ⟨i 0, i 1, eq_ix2 i⟩
  exact (pre_compound_l1 x0 x1 x2 x3 x4 x5 x6 x11 x12 x13 x14 x15 x16 x17 x18 x21 x22 a j).symm

end Cert.RefSide

end
-- ==== Proof.Value.lean ====
/-
  The idealized kernel's result is the reference's last stage of the same arguments.

  Layer by layer: each region's output array is the dense map (clamped at zero in the first layer) of the arrays the region is
  entered with; those are the aggregation stages laid side by side with the node's own rows, the message weights stacked over
  the SUM of the root weights, and the summed bias row. Entry by entry this stacked arrangement is the relation-by-relation
  sum the reference forms — for a node type reached by two relations because its own rows and the root weights are real
  numbers (the arguments by the precondition; the first layer's outputs because sums, products, maxima of reals and quotients
  by a count that is at least one are real). The second layer repeats the argument over the first layer's outputs, and the
  classifier head is the same two dense maps on both sides, applied to the same concatenated gathers.
-/
import proofs.«154750_j39152921870699_1_alg».proof.Proof.KI.HostB
import proofs.«154750_j39152921870699_1_alg».proof.Proof.KI.HostC
import proofs.«154750_j39152921870699_1_alg».proof.Proof.KI.HostD
import proofs.«154750_j39152921870699_1_alg».proof.Proof.KI.HostE
import proofs.«154750_j39152921870699_1_alg».proof.Proof.KI.Val0
import proofs.«154750_j39152921870699_1_alg».proof.Proof.KI.Val1
import proofs.«154750_j39152921870699_1_alg».proof.Proof.KI.Val2
import proofs.«154750_j39152921870699_1_alg».proof.Proof.KI.Val3
import proofs.«154750_j39152921870699_1_alg».proof.Proof.KI.Val4
import proofs.«154750_j39152921870699_1_alg».proof.Proof.KI.Val5
import proofs.«154750_j39152921870699_1_alg».proof.Proof.KI.Val8
import proofs.«154750_j39152921870699_1_alg».proof.Proof.KerForm
import proofs.«154750_j39152921870699_1_alg».proof.Proof.PreReal
import proofs.«154750_j39152921870699_1_alg».proof.Proof.RealStages
import proofs.«154750_j39152921870699_1_alg».proof.Proof.Ref.L0
import proofs.«154750_j39152921870699_1_alg».proof.Proof.Ref.L1
import proofs.«154750_j39152921870699_1_alg».proof.Proof.Ref.Head
import proofs.«154750_j39152921870699_1_alg».proof.Proof.Ref.Glue

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Cert.Spec

variable (m : (ℓ : Loc nD τ sig) → Buf (Elt Ideal) ℓ) (ρ : Dev nD → PrngReg) (c : Dev nD)

/-! ## Names: the arguments' launch contents and the reference's stages of them -/

abbrev a0 : Buf (Elt Ideal) ((c : Thread nD τ).loc main_arg0) := m ((c : Thread nD τ).loc main_arg0)
abbrev a1 : Buf (Elt Ideal) ((c : Thread nD τ).loc main_arg1) := m ((c : Thread nD τ).loc main_arg1)
abbrev a2 : Buf (Elt Ideal) ((c : Thread nD τ).loc main_arg2) := m ((c : Thread nD τ).loc main_arg2)
abbrev a3 : Buf (Elt Ideal) ((c : Thread nD τ).loc main_arg3) := m ((c : Thread nD τ).loc main_arg3)
abbrev a4 : Buf (Elt Ideal) ((c : Thread nD τ).loc main_arg4) := m ((c : Thread nD τ).loc main_arg4)
abbrev a5 : Buf (Elt Ideal) ((c : Thread nD τ).loc main_arg5) := m ((c : Thread nD τ).loc main_arg5)
abbrev a6 : Buf (Elt Ideal) ((c : Thread nD τ).loc main_arg6) := m ((c : Thread nD τ).loc main_arg6)
abbrev a7 : Buf (Elt Ideal) ((c : Thread nD τ).loc main_arg7) := m ((c : Thread nD τ).loc main_arg7)
abbrev a8 : Buf (Elt Ideal) ((c : Thread nD τ).loc main_arg8) := m ((c : Thread nD τ).loc main_arg8)
abbrev a9 : Buf (Elt Ideal) ((c : Thread nD τ).loc main_arg9) := m ((c : Thread nD τ).loc main_arg9)
abbrev a10 : Buf (Elt Ideal) ((c : Thread nD τ).loc main_arg10) := m ((c : Thread nD τ).loc main_arg10)
abbrev a11 : Buf (Elt Ideal) ((c : Thread nD τ).loc main_arg11) := m ((c : Thread nD τ).loc main_arg11)
abbrev a12 : Buf (Elt Ideal) ((c : Thread nD τ).loc main_arg12) := m ((c : Thread nD τ).loc main_arg12)
abbrev a13 : Buf (Elt Ideal) ((c : Thread nD τ).loc main_arg13) := m ((c : Thread nD τ).loc main_arg13)
abbrev a14 : Buf (Elt Ideal) ((c : Thread nD τ).loc main_arg14) := m ((c : Thread nD τ).loc main_arg14)
abbrev a15 : Buf (Elt Ideal) ((c : Thread nD τ).loc main_arg15) := m ((c : Thread nD τ).loc main_arg15)
abbrev a16 : Buf (Elt Ideal) ((c : Thread nD τ).loc main_arg16) := m ((c : Thread nD τ).loc main_arg16)
abbrev a17 : Buf (Elt Ideal) ((c : Thread nD τ).loc main_arg17) := m ((c : Thread nD τ).loc main_arg17)
abbrev a18 : Buf (Elt Ideal) ((c : Thread nD τ).loc main_arg18) := m ((c : Thread nD τ).loc main_arg18)
abbrev a19 : Buf (Elt Ideal) ((c : Thread nD τ).loc main_arg19) := m ((c : Thread nD τ).loc main_arg19)
abbrev a20 : Buf (Elt Ideal) ((c : Thread nD τ).loc main_arg20) := m ((c : Thread nD τ).loc main_arg20)
abbrev a21 : Buf (Elt Ideal) ((c : Thread nD τ).loc main_arg21) := m ((c : Thread nD τ).loc main_arg21)
abbrev a22 : Buf (Elt Ideal) ((c : Thread nD τ).loc main_arg22) := m ((c : Thread nD τ).loc main_arg22)
abbrev a23 : Buf (Elt Ideal) ((c : Thread nD τ).loc main_arg23) := m ((c : Thread nD τ).loc main_arg23)
abbrev a24 : Buf (Elt Ideal) ((c : Thread nD τ).loc main_arg24) := m ((c : Thread nD τ).loc main_arg24)

/-- The reference's first-layer outputs (after the clamp) for the four node types, and its second-layer pre-activations for the two that reach the result. -/
abbrev gene1 := (Cert.ReferenceIdeal.Read.val_main_v196 (F := Ideal) (a0 m c) (a1 m c) (a3 m c) (a4 m c) (a5 m c) (a6 m c) (a11 m c) (a12 m c) (a21 m c) (a22 m c))
abbrev compound1 := (Cert.ReferenceIdeal.Read.val_main_v197 (F := Ideal) (a0 m c) (a1 m c) (a2 m c) (a4 m c) (a5 m c) (a6 m c) (a13 m c) (a14 m c) (a17 m c) (a18 m c))
abbrev pclass1 := (Cert.ReferenceIdeal.Read.val_main_v198 (F := Ideal) (a1 m c) (a2 m c) (a4 m c) (a5 m c) (a6 m c) (a15 m c) (a16 m c))
abbrev family1 := (Cert.ReferenceIdeal.Read.val_main_v199 (F := Ideal) (a0 m c) (a3 m c) (a4 m c) (a5 m c) (a6 m c) (a19 m c) (a20 m c))
abbrev gene2 := (Cert.ReferenceIdeal.Read.val_main_v395 (F := Ideal) (a0 m c) (a1 m c) (a2 m c) (a3 m c) (a4 m c) (a5 m c) (a6 m c) (a11 m c) (a12 m c) (a13 m c) (a14 m c) (a17 m c) (a18 m c) (a19 m c) (a20 m c) (a21 m c) (a22 m c))
abbrev compound2 := (Cert.ReferenceIdeal.Read.val_main_v331 (F := Ideal) (a0 m c) (a1 m c) (a2 m c) (a3 m c) (a4 m c) (a5 m c) (a6 m c) (a11 m c) (a12 m c) (a13 m c) (a14 m c) (a15 m c) (a16 m c) (a17 m c) (a18 m c) (a21 m c) (a22 m c))

section
variable (hpre : Cert.Pre_KernelIdeal m)
include hpre

/-! ## The first layer -/

/-- Gene nodes, first layer: two relations (compound → gene, family → gene). -/
theorem region0_out : B4 m ρ c (Proc.devRef .tc main_v135) = gene1 m c := by
  have hr := Cert.Spec.args_real m hpre c
  refine (B4_arr m ρ c 3).trans ?_
  rw [out_value0 (E3 m ρ) c]
  have e0 : E3 m ρ c (Pipeline.arrRef spec0 0) = _ := B3_v114 m ρ c
  have e1 : E3 m ρ c (Pipeline.arrRef spec0 1) = _ := B3_v126 m ρ c
  have e2 : E3 m ρ c (Pipeline.arrRef spec0 2) = _ := B3_v134 m ρ c
  rw [e0, e1, e2]
  refine (layer_two_relu 0 0 5 _ _ (a0 m c) (a4 m c) (a5 m c) (a6 m c) _ _ _ _ _ _ _ _ _ _ _ _ _ _ _ _ _ _ _ _ _ _ _ _ _ ⟨rfl, rfl, rfl, rfl⟩ ⟨rfl, rfl, rfl, rfl⟩ ⟨rfl, rfl, rfl, rfl⟩ ⟨rfl, rfl, rfl, rfl⟩ ⟨rfl, rfl, rfl⟩ ⟨rfl, rfl, rfl⟩ hr.1 hr.2.2.2.2.2.2.1).trans ?_
  exact Cert.RefSide.gene_l0_fun _ _ _ _ _ _ _ _ _ _

/-- Compound nodes, first layer: two relations (gene → compound, class → compound). -/
theorem region1_out : B7 m ρ c (Proc.devRef .tc main_v157) = compound1 m c := by
  have hr := Cert.Spec.args_real m hpre c
  refine (B7_arr m ρ c 3).trans ?_
  rw [out_value1 (E6 m ρ) c]
  have e0 : E6 m ρ c (Pipeline.arrRef spec1 0) = _ := B6_v136 m ρ c (h3_v75 := B3_v75 m ρ c) (h3_v37 := B3_v37 m ρ c)
  have e1 : E6 m ρ c (Pipeline.arrRef spec1 1) = _ := B6_v148 m ρ c
  have e2 : E6 m ρ c (Pipeline.arrRef spec1 2) = _ := B6_v156 m ρ c
  rw [e0, e1, e2]
  refine (layer_two_relu 0 1 3 _ _ (a1 m c) (a4 m c) (a5 m c) (a6 m c) _ _ _ _ _ _ _ _ _ _ _ _ _ _ _ _ _ _ _ _ _ _ _ _ _ ⟨rfl, rfl, rfl, rfl⟩ ⟨rfl, rfl, rfl, rfl⟩ ⟨rfl, rfl, rfl, rfl⟩ ⟨rfl, rfl, rfl, rfl⟩ ⟨rfl, rfl, rfl⟩ ⟨rfl, rfl, rfl⟩ hr.2.1 hr.2.2.2.2.2.2.1).trans ?_
  exact Cert.RefSide.compound_l0_fun _ _ _ _ _ _ _ _ _ _

/-- Class nodes, first layer: one relation (compound → class); nothing but zeros are added, so no finiteness is used. -/
theorem region2_out : B9 m ρ c (Proc.devRef .tc main_v171) = pclass1 m c := by
  refine (B9_arr m ρ c 3).trans ?_
  rw [out_value2 (E8 m ρ) c]
  have e0 : E8 m ρ c (Pipeline.arrRef spec2 0) = _ := B8_v158 m ρ c (h3_v56 := B3_v56 m ρ c)
  have e1 : E8 m ρ c (Pipeline.arrRef spec2 1) = _ := B8_v165 m ρ c
  have e2 : E8 m ρ c (Pipeline.arrRef spec2 2) = _ := B8_v170 m ρ c
  rw [e0, e1, e2]
  refine (layer_one_relu 0 2 _ (a2 m c) (a4 m c) (a5 m c) (a6 m c) _ _ _ _ _ _ _ _ _ _ _ _ _ _ _ _ ⟨rfl, rfl, rfl, rfl⟩ ⟨rfl, rfl, rfl, rfl⟩ ⟨rfl, rfl, rfl⟩).trans ?_
  exact Cert.RefSide.pclass_l0_fun _ _ _ _ _ _ _

/-- Family nodes, first layer: one relation (gene → family). -/
theorem region3_out : B11 m ρ c (Proc.devRef .tc main_v185) = family1 m c := by
  refine (B11_arr m ρ c 3).trans ?_
  rw [out_value3 (E10 m ρ) c]
  have e0 : E10 m ρ c (Pipeline.arrRef spec3 0) = _ := B10_v172 m ρ c (h3_v94 := B3_v94 m ρ c)
  have e1 : E10 m ρ c (Pipeline.arrRef spec3 1) = _ := B10_v179 m ρ c
  have e2 : E10 m ρ c (Pipeline.arrRef spec3 2) = _ := B10_v184 m ρ c
  rw [e0, e1, e2]
  refine (layer_one_relu 0 4 _ (a3 m c) (a4 m c) (a5 m c) (a6 m c) _ _ _ _ _ _ _ _ _ _ _ _ _ _ _ _ ⟨rfl, rfl, rfl, rfl⟩ ⟨rfl, rfl, rfl, rfl⟩ ⟨rfl, rfl, rfl⟩).trans ?_
  exact Cert.RefSide.family_l0_fun _ _ _ _ _ _ _

/-! ## The first layer's outputs where the second layer reads them -/

theorem at11_gene : B11 m ρ c (Proc.devRef .tc main_v135) = gene1 m c := B11_v135 m ρ c (h4_v135 := region0_out m ρ c hpre)
theorem at11_compound : B11 m ρ c (Proc.devRef .tc main_v157) = compound1 m c := B11_v157 m ρ c (h7_v157 := region1_out m ρ c hpre)
theorem at11_pclass : B11 m ρ c (Proc.devRef .tc main_v171) = pclass1 m c := B11_v171 m ρ c (h9_v171 := region2_out m ρ c hpre)

/-! ## The second layer (the two node types that reach the result) -/

/-- Gene nodes, second layer, not clamped. The node rows are the first layer's gene output: real, as the distributive step needs. -/
theorem region4_out : B16 m ρ c (Proc.devRef .tc main_v321) = gene2 m c := by
  have hr := Cert.Spec.args_real m hpre c
  have hg : IsReal (gene1 m c) := Cert.RefSide.real_gene_l0 _ _ _ _ _ _ _ _ _ _ hr.1 hr.2.1 hr.2.2.2.1 hr.2.2.2.2.1 hr.2.2.2.2.2.1 hr.2.2.2.2.2.2.1
  refine (B16_arr m ρ c 3).trans ?_
  rw [out_value4 (E15 m ρ) c]
  have e0 : E15 m ρ c (Pipeline.arrRef spec4 0) = _ := B15_v300 m ρ c (h11_v135 := at11_gene m ρ c hpre) (h11_v157 := at11_compound m ρ c hpre) (h11_v185 := region3_out m ρ c hpre)
  have e1 : E15 m ρ c (Pipeline.arrRef spec4 1) = _ := B15_v312 m ρ c
  have e2 : E15 m ρ c (Pipeline.arrRef spec4 2) = _ := B15_v320 m ρ c
  rw [e0, e1, e2]
  refine (layer_two_lin 1 0 5 _ _ (gene1 m c) (a4 m c) (a5 m c) (a6 m c) _ _ _ _ _ _ _ _ _ _ _ _ _ _ _ _ _ _ _ _ _ _ _ _ _ ⟨rfl, rfl, rfl, rfl⟩ ⟨rfl, rfl, rfl, rfl⟩ ⟨rfl, rfl, rfl, rfl⟩ ⟨rfl, rfl, rfl, rfl⟩ ⟨rfl, rfl, rfl⟩ ⟨rfl, rfl, rfl⟩ hg hr.2.2.2.2.2.2.1).trans ?_
  exact Cert.RefSide.gene_l1_fun _ _ _ _ _ _ _ _ _ _ _ _ _ _ _ _ _

/-- Compound nodes, second layer, not clamped. -/
theorem region5_out : B19 m ρ c (Proc.devRef .tc main_v343) = compound2 m c := by
  have hr := Cert.Spec.args_real m hpre c
  have hc' : IsReal (compound1 m c) := Cert.RefSide.real_compound_l0 _ _ _ _ _ _ _ _ _ _ hr.1 hr.2.1 hr.2.2.1 hr.2.2.2.2.1 hr.2.2.2.2.2.1 hr.2.2.2.2.2.2.1
  refine (B19_arr m ρ c 3).trans ?_
  rw [out_value5 (E18 m ρ) c]
  have h157 := B15_v157 m ρ c (h11_v157 := at11_compound m ρ c hpre)
  have h223 := B15_v223 m ρ c (h11_v135 := at11_gene m ρ c hpre)
  have h261 := B15_v261 m ρ c (h11_v171 := at11_pclass m ρ c hpre)
  have e0 : E18 m ρ c (Pipeline.arrRef spec5 0) = _ := B18_v322 m ρ c (h15_v157 := h157) (h15_v223 := h223) (h15_v261 := h261)
  have e1 : E18 m ρ c (Pipeline.arrRef spec5 1) = _ := B18_v334 m ρ c
  have e2 : E18 m ρ c (Pipeline.arrRef spec5 2) = _ := B18_v342 m ρ c
  rw [e0, e1, e2]
  refine (layer_two_lin 1 1 3 _ _ (compound1 m c) (a4 m c) (a5 m c) (a6 m c) _ _ _ _ _ _ _ _ _ _ _ _ _ _ _ _ _ _ _ _ _ _ _ _ _ ⟨rfl, rfl, rfl, rfl⟩ ⟨rfl, rfl, rfl, rfl⟩ ⟨rfl, rfl, rfl, rfl⟩ ⟨rfl, rfl, rfl, rfl⟩ ⟨rfl, rfl, rfl⟩ ⟨rfl, rfl, rfl⟩ hc' hr.2.2.2.2.2.2.1).trans ?_
  exact Cert.RefSide.compound_l1_fun _ _ _ _ _ _ _ _ _ _ _ _ _ _ _ _ _

/-! ## The classifier head -/

/-- The kernel's result array is the reference's last stage of the same arguments. -/
theorem result_value : B26 m ρ c (Proc.devRef .tc main_v389)
    = (Cert.ReferenceIdeal.Read.val_main_v419 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c) (a23 m c) (a24 m c)) := by
  refine (B26_arr m ρ c 5).trans ?_
  rw [out_value8 (E25 m ρ) c]
  have h321 := B18_v321 m ρ c (h16_v321 := region4_out m ρ c hpre)
  have e0 : E25 m ρ c (Pipeline.arrRef spec8 0) = _ := B25_v386 m ρ c (h18_v321 := h321) (h19_v343 := region5_out m ρ c hpre)
  have e1 : E25 m ρ c (Pipeline.arrRef spec8 1) = a7 m c := B25_arg m ρ c main_arg7 (by decide)
  have e2 : E25 m ρ c (Pipeline.arrRef spec8 2) = _ := B25_v387 m ρ c
  have e3 : E25 m ρ c (Pipeline.arrRef spec8 3) = a9 m c := B25_arg m ρ c main_arg9 (by decide)
  have e4 : E25 m ρ c (Pipeline.arrRef spec8 4) = _ := B25_v388 m ρ c
  rw [e0, e1, e2, e3, e4]
  exact (congrArg₂ (fun b1 b2 => mlp _ (a7 m c) b1 (a9 m c) b2) (shapeCast_row_eq_rowOf (a8 m c) shapeCasts_S64_S1x64)
      (shapeCast_row_eq_rowOf (a10 m c) shapeCasts_S4_S1x4)).trans
    (Cert.RefSide.head_eq _ _ _ _ _ _ _ _ _ _ _ _ _ _ _ _ _ _ _ _ _ _ _ _ _).symm

end

end Cert.KernelIdeal.Hand

end
-- ==== Proof.RefChunks.Inv.lean ====
/- The reference program's run, read back in pieces: what is carried across the cuts.
   The reference's @main is a straight line of 514 operations, each writing one buffer once. Its operation list is cut
   into 16 consecutive pieces (at operations 46, 84, 122, 160, 198, 236, 256, 294, 332, 370, 408, 446, 484, 502, 503).
   Across a cut only a few buffers matter: the 25 argument buffers, which no operation writes, and the buffers written
   before the cut that an operation after it still reads.
   `ArgsAt W x0 … x24` says that in the contents `W` the argument buffers hold `x0 … x24`; `LiveK W x0 … x24` says that
   each buffer live at cut K holds its stage `val_‹buffer›` of the arguments (the stage: the operation that writes the
   buffer applied to the stages of its operands, one definition per operation). Each piece's module proves that running the
   piece takes `ArgsAt ∧ LiveK` to `ArgsAt ∧ Live(K+1)`; the last one, `Live16`, is about the result buffer alone.
   (The concatenation, operation 502, is a piece by itself: its function puts its operands inside dependent pairs, where they
   are read as they stand.) -/
import proofs.«154750_j39152921870699_1_alg».proof.Proof.RefRead
import Idealize.ShloMosaic.Lib.StableHlo.Run

noncomputable section

namespace Cert.ReferenceIdeal.Chunks

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- In the contents `W` the 25 argument buffers hold `x0 … x24`. -/
structure ArgsAt (W : Valuation τ sig (Elt F)) (x0 : (⟨S100000x64, .f32⟩ : BufTy).Contents (Elt F)) (x1 : (⟨S50000x64, .f32⟩ : BufTy).Contents (Elt F)) (x2 : (⟨S2000x64, .f32⟩ : BufTy).Contents (Elt F)) (x3 : (⟨S5000x64, .f32⟩ : BufTy).Contents (Elt F)) (x4 : (⟨S2x6x64x64, .f32⟩ : BufTy).Contents (Elt F)) (x5 : (⟨S2x6x64, .f32⟩ : BufTy).Contents (Elt F)) (x6 : (⟨S2x6x64x64, .f32⟩ : BufTy).Contents (Elt F)) (x7 : (⟨S128x64, .f32⟩ : BufTy).Contents (Elt F)) (x8 : (⟨S64, .f32⟩ : BufTy).Contents (Elt F)) (x9 : (⟨S64x4, .f32⟩ : BufTy).Contents (Elt F)) (x10 : (⟨S4, .f32⟩ : BufTy).Contents (Elt F)) (x11 x12 x13 x14 : (⟨S2000000, .i32⟩ : BufTy).Contents (Elt F)) (x15 x16 x17 x18 : (⟨S100000, .i32⟩ : BufTy).Contents (Elt F)) (x19 x20 x21 x22 : (⟨S200000, .i32⟩ : BufTy).Contents (Elt F)) (x23 x24 : (⟨S100000, .i32⟩ : BufTy).Contents (Elt F)) : Prop where
  at_main_arg0 : W (Proc.devRef .tc main_arg0) = x0
  at_main_arg1 : W (Proc.devRef .tc main_arg1) = x1
  at_main_arg2 : W (Proc.devRef .tc main_arg2) = x2
  at_main_arg3 : W (Proc.devRef .tc main_arg3) = x3
  at_main_arg4 : W (Proc.devRef .tc main_arg4) = x4
  at_main_arg5 : W (Proc.devRef .tc main_arg5) = x5
  at_main_arg6 : W (Proc.devRef .tc main_arg6) = x6
  at_main_arg7 : W (Proc.devRef .tc main_arg7) = x7
  at_main_arg8 : W (Proc.devRef .tc main_arg8) = x8
  at_main_arg9 : W (Proc.devRef .tc main_arg9) = x9
  at_main_arg10 : W (Proc.devRef .tc main_arg10) = x10
  at_main_arg11 : W (Proc.devRef .tc main_arg11) = x11
  at_main_arg12 : W (Proc.devRef .tc main_arg12) = x12
  at_main_arg13 : W (Proc.devRef .tc main_arg13) = x13
  at_main_arg14 : W (Proc.devRef .tc main_arg14) = x14
  at_main_arg15 : W (Proc.devRef .tc main_arg15) = x15
  at_main_arg16 : W (Proc.devRef .tc main_arg16) = x16
  at_main_arg17 : W (Proc.devRef .tc main_arg17) = x17
  at_main_arg18 : W (Proc.devRef .tc main_arg18) = x18
  at_main_arg19 : W (Proc.devRef .tc main_arg19) = x19
  at_main_arg20 : W (Proc.devRef .tc main_arg20) = x20
  at_main_arg21 : W (Proc.devRef .tc main_arg21) = x21
  at_main_arg22 : W (Proc.devRef .tc main_arg22) = x22
  at_main_arg23 : W (Proc.devRef .tc main_arg23) = x23
  at_main_arg24 : W (Proc.devRef .tc main_arg24) = x24

/-- In the contents `W`, each buffer written before operation 46 and read at or after it holds its stage of the arguments. -/
structure Live1 (W : Valuation τ sig (Elt F)) (x0 : (⟨S100000x64, .f32⟩ : BufTy).Contents (Elt F)) (x1 : (⟨S50000x64, .f32⟩ : BufTy).Contents (Elt F)) (x2 : (⟨S2000x64, .f32⟩ : BufTy).Contents (Elt F)) (x3 : (⟨S5000x64, .f32⟩ : BufTy).Contents (Elt F)) (x4 : (⟨S2x6x64x64, .f32⟩ : BufTy).Contents (Elt F)) (x5 : (⟨S2x6x64, .f32⟩ : BufTy).Contents (Elt F)) (x6 : (⟨S2x6x64x64, .f32⟩ : BufTy).Contents (Elt F)) (x7 : (⟨S128x64, .f32⟩ : BufTy).Contents (Elt F)) (x8 : (⟨S64, .f32⟩ : BufTy).Contents (Elt F)) (x9 : (⟨S64x4, .f32⟩ : BufTy).Contents (Elt F)) (x10 : (⟨S4, .f32⟩ : BufTy).Contents (Elt F)) (x11 x12 x13 x14 : (⟨S2000000, .i32⟩ : BufTy).Contents (Elt F)) (x15 x16 x17 x18 : (⟨S100000, .i32⟩ : BufTy).Contents (Elt F)) (x19 x20 x21 x22 : (⟨S200000, .i32⟩ : BufTy).Contents (Elt F)) (x23 x24 : (⟨S100000, .i32⟩ : BufTy).Contents (Elt F)) : Prop where
  at_main_v1 : W (Proc.devRef .tc main_v1) = val_main_v1 (F := F)
  at_main_v2 : W (Proc.devRef .tc main_v2) = val_main_v2 (F := F)
  at_main_v3 : W (Proc.devRef .tc main_v3) = val_main_v3 (F := F)
  at_main_v35 : W (Proc.devRef .tc main_v35) = val_main_v35 (F := F) x0 x1 x4 x5 x6 x11 x12

/-- In the contents `W`, each buffer written before operation 84 and read at or after it holds its stage of the arguments. -/
structure Live2 (W : Valuation τ sig (Elt F)) (x0 : (⟨S100000x64, .f32⟩ : BufTy).Contents (Elt F)) (x1 : (⟨S50000x64, .f32⟩ : BufTy).Contents (Elt F)) (x2 : (⟨S2000x64, .f32⟩ : BufTy).Contents (Elt F)) (x3 : (⟨S5000x64, .f32⟩ : BufTy).Contents (Elt F)) (x4 : (⟨S2x6x64x64, .f32⟩ : BufTy).Contents (Elt F)) (x5 : (⟨S2x6x64, .f32⟩ : BufTy).Contents (Elt F)) (x6 : (⟨S2x6x64x64, .f32⟩ : BufTy).Contents (Elt F)) (x7 : (⟨S128x64, .f32⟩ : BufTy).Contents (Elt F)) (x8 : (⟨S64, .f32⟩ : BufTy).Contents (Elt F)) (x9 : (⟨S64x4, .f32⟩ : BufTy).Contents (Elt F)) (x10 : (⟨S4, .f32⟩ : BufTy).Contents (Elt F)) (x11 x12 x13 x14 : (⟨S2000000, .i32⟩ : BufTy).Contents (Elt F)) (x15 x16 x17 x18 : (⟨S100000, .i32⟩ : BufTy).Contents (Elt F)) (x19 x20 x21 x22 : (⟨S200000, .i32⟩ : BufTy).Contents (Elt F)) (x23 x24 : (⟨S100000, .i32⟩ : BufTy).Contents (Elt F)) : Prop where
  at_main_v2 : W (Proc.devRef .tc main_v2) = val_main_v2 (F := F)
  at_main_v3 : W (Proc.devRef .tc main_v3) = val_main_v3 (F := F)
  at_main_v35 : W (Proc.devRef .tc main_v35) = val_main_v35 (F := F) x0 x1 x4 x5 x6 x11 x12
  at_main_v67 : W (Proc.devRef .tc main_v67) = val_main_v67 (F := F) x0 x1 x4 x5 x6 x13 x14

/-- In the contents `W`, each buffer written before operation 122 and read at or after it holds its stage of the arguments. -/
structure Live3 (W : Valuation τ sig (Elt F)) (x0 : (⟨S100000x64, .f32⟩ : BufTy).Contents (Elt F)) (x1 : (⟨S50000x64, .f32⟩ : BufTy).Contents (Elt F)) (x2 : (⟨S2000x64, .f32⟩ : BufTy).Contents (Elt F)) (x3 : (⟨S5000x64, .f32⟩ : BufTy).Contents (Elt F)) (x4 : (⟨S2x6x64x64, .f32⟩ : BufTy).Contents (Elt F)) (x5 : (⟨S2x6x64, .f32⟩ : BufTy).Contents (Elt F)) (x6 : (⟨S2x6x64x64, .f32⟩ : BufTy).Contents (Elt F)) (x7 : (⟨S128x64, .f32⟩ : BufTy).Contents (Elt F)) (x8 : (⟨S64, .f32⟩ : BufTy).Contents (Elt F)) (x9 : (⟨S64x4, .f32⟩ : BufTy).Contents (Elt F)) (x10 : (⟨S4, .f32⟩ : BufTy).Contents (Elt F)) (x11 x12 x13 x14 : (⟨S2000000, .i32⟩ : BufTy).Contents (Elt F)) (x15 x16 x17 x18 : (⟨S100000, .i32⟩ : BufTy).Contents (Elt F)) (x19 x20 x21 x22 : (⟨S200000, .i32⟩ : BufTy).Contents (Elt F)) (x23 x24 : (⟨S100000, .i32⟩ : BufTy).Contents (Elt F)) : Prop where
  at_main_v3 : W (Proc.devRef .tc main_v3) = val_main_v3 (F := F)
  at_main_v35 : W (Proc.devRef .tc main_v35) = val_main_v35 (F := F) x0 x1 x4 x5 x6 x11 x12
  at_main_v67 : W (Proc.devRef .tc main_v67) = val_main_v67 (F := F) x0 x1 x4 x5 x6 x13 x14
  at_main_v99 : W (Proc.devRef .tc main_v99) = val_main_v99 (F := F) x1 x2 x4 x5 x6 x15 x16

/-- In the contents `W`, each buffer written before operation 160 and read at or after it holds its stage of the arguments. -/
structure Live4 (W : Valuation τ sig (Elt F)) (x0 : (⟨S100000x64, .f32⟩ : BufTy).Contents (Elt F)) (x1 : (⟨S50000x64, .f32⟩ : BufTy).Contents (Elt F)) (x2 : (⟨S2000x64, .f32⟩ : BufTy).Contents (Elt F)) (x3 : (⟨S5000x64, .f32⟩ : BufTy).Contents (Elt F)) (x4 : (⟨S2x6x64x64, .f32⟩ : BufTy).Contents (Elt F)) (x5 : (⟨S2x6x64, .f32⟩ : BufTy).Contents (Elt F)) (x6 : (⟨S2x6x64x64, .f32⟩ : BufTy).Contents (Elt F)) (x7 : (⟨S128x64, .f32⟩ : BufTy).Contents (Elt F)) (x8 : (⟨S64, .f32⟩ : BufTy).Contents (Elt F)) (x9 : (⟨S64x4, .f32⟩ : BufTy).Contents (Elt F)) (x10 : (⟨S4, .f32⟩ : BufTy).Contents (Elt F)) (x11 x12 x13 x14 : (⟨S2000000, .i32⟩ : BufTy).Contents (Elt F)) (x15 x16 x17 x18 : (⟨S100000, .i32⟩ : BufTy).Contents (Elt F)) (x19 x20 x21 x22 : (⟨S200000, .i32⟩ : BufTy).Contents (Elt F)) (x23 x24 : (⟨S100000, .i32⟩ : BufTy).Contents (Elt F)) : Prop where
  at_main_v3 : W (Proc.devRef .tc main_v3) = val_main_v3 (F := F)
  at_main_v35 : W (Proc.devRef .tc main_v35) = val_main_v35 (F := F) x0 x1 x4 x5 x6 x11 x12
  at_main_v99 : W (Proc.devRef .tc main_v99) = val_main_v99 (F := F) x1 x2 x4 x5 x6 x15 x16
  at_main_v131 : W (Proc.devRef .tc main_v131) = val_main_v131 (F := F) x0 x1 x2 x4 x5 x6 x13 x14 x17 x18

/-- In the contents `W`, each buffer written before operation 198 and read at or after it holds its stage of the arguments. -/
structure Live5 (W : Valuation τ sig (Elt F)) (x0 : (⟨S100000x64, .f32⟩ : BufTy).Contents (Elt F)) (x1 : (⟨S50000x64, .f32⟩ : BufTy).Contents (Elt F)) (x2 : (⟨S2000x64, .f32⟩ : BufTy).Contents (Elt F)) (x3 : (⟨S5000x64, .f32⟩ : BufTy).Contents (Elt F)) (x4 : (⟨S2x6x64x64, .f32⟩ : BufTy).Contents (Elt F)) (x5 : (⟨S2x6x64, .f32⟩ : BufTy).Contents (Elt F)) (x6 : (⟨S2x6x64x64, .f32⟩ : BufTy).Contents (Elt F)) (x7 : (⟨S128x64, .f32⟩ : BufTy).Contents (Elt F)) (x8 : (⟨S64, .f32⟩ : BufTy).Contents (Elt F)) (x9 : (⟨S64x4, .f32⟩ : BufTy).Contents (Elt F)) (x10 : (⟨S4, .f32⟩ : BufTy).Contents (Elt F)) (x11 x12 x13 x14 : (⟨S2000000, .i32⟩ : BufTy).Contents (Elt F)) (x15 x16 x17 x18 : (⟨S100000, .i32⟩ : BufTy).Contents (Elt F)) (x19 x20 x21 x22 : (⟨S200000, .i32⟩ : BufTy).Contents (Elt F)) (x23 x24 : (⟨S100000, .i32⟩ : BufTy).Contents (Elt F)) : Prop where
  at_main_v35 : W (Proc.devRef .tc main_v35) = val_main_v35 (F := F) x0 x1 x4 x5 x6 x11 x12
  at_main_v99 : W (Proc.devRef .tc main_v99) = val_main_v99 (F := F) x1 x2 x4 x5 x6 x15 x16
  at_main_v131 : W (Proc.devRef .tc main_v131) = val_main_v131 (F := F) x0 x1 x2 x4 x5 x6 x13 x14 x17 x18
  at_main_v163 : W (Proc.devRef .tc main_v163) = val_main_v163 (F := F) x0 x3 x4 x5 x6 x19 x20

/-- In the contents `W`, each buffer written before operation 236 and read at or after it holds its stage of the arguments. -/
structure Live6 (W : Valuation τ sig (Elt F)) (x0 : (⟨S100000x64, .f32⟩ : BufTy).Contents (Elt F)) (x1 : (⟨S50000x64, .f32⟩ : BufTy).Contents (Elt F)) (x2 : (⟨S2000x64, .f32⟩ : BufTy).Contents (Elt F)) (x3 : (⟨S5000x64, .f32⟩ : BufTy).Contents (Elt F)) (x4 : (⟨S2x6x64x64, .f32⟩ : BufTy).Contents (Elt F)) (x5 : (⟨S2x6x64, .f32⟩ : BufTy).Contents (Elt F)) (x6 : (⟨S2x6x64x64, .f32⟩ : BufTy).Contents (Elt F)) (x7 : (⟨S128x64, .f32⟩ : BufTy).Contents (Elt F)) (x8 : (⟨S64, .f32⟩ : BufTy).Contents (Elt F)) (x9 : (⟨S64x4, .f32⟩ : BufTy).Contents (Elt F)) (x10 : (⟨S4, .f32⟩ : BufTy).Contents (Elt F)) (x11 x12 x13 x14 : (⟨S2000000, .i32⟩ : BufTy).Contents (Elt F)) (x15 x16 x17 x18 : (⟨S100000, .i32⟩ : BufTy).Contents (Elt F)) (x19 x20 x21 x22 : (⟨S200000, .i32⟩ : BufTy).Contents (Elt F)) (x23 x24 : (⟨S100000, .i32⟩ : BufTy).Contents (Elt F)) : Prop where
  at_main_v99 : W (Proc.devRef .tc main_v99) = val_main_v99 (F := F) x1 x2 x4 x5 x6 x15 x16
  at_main_v131 : W (Proc.devRef .tc main_v131) = val_main_v131 (F := F) x0 x1 x2 x4 x5 x6 x13 x14 x17 x18
  at_main_v163 : W (Proc.devRef .tc main_v163) = val_main_v163 (F := F) x0 x3 x4 x5 x6 x19 x20
  at_main_v195 : W (Proc.devRef .tc main_v195) = val_main_v195 (F := F) x0 x1 x3 x4 x5 x6 x11 x12 x21 x22

/-- In the contents `W`, each buffer written before operation 256 and read at or after it holds its stage of the arguments. -/
structure Live7 (W : Valuation τ sig (Elt F)) (x0 : (⟨S100000x64, .f32⟩ : BufTy).Contents (Elt F)) (x1 : (⟨S50000x64, .f32⟩ : BufTy).Contents (Elt F)) (x2 : (⟨S2000x64, .f32⟩ : BufTy).Contents (Elt F)) (x3 : (⟨S5000x64, .f32⟩ : BufTy).Contents (Elt F)) (x4 : (⟨S2x6x64x64, .f32⟩ : BufTy).Contents (Elt F)) (x5 : (⟨S2x6x64, .f32⟩ : BufTy).Contents (Elt F)) (x6 : (⟨S2x6x64x64, .f32⟩ : BufTy).Contents (Elt F)) (x7 : (⟨S128x64, .f32⟩ : BufTy).Contents (Elt F)) (x8 : (⟨S64, .f32⟩ : BufTy).Contents (Elt F)) (x9 : (⟨S64x4, .f32⟩ : BufTy).Contents (Elt F)) (x10 : (⟨S4, .f32⟩ : BufTy).Contents (Elt F)) (x11 x12 x13 x14 : (⟨S2000000, .i32⟩ : BufTy).Contents (Elt F)) (x15 x16 x17 x18 : (⟨S100000, .i32⟩ : BufTy).Contents (Elt F)) (x19 x20 x21 x22 : (⟨S200000, .i32⟩ : BufTy).Contents (Elt F)) (x23 x24 : (⟨S100000, .i32⟩ : BufTy).Contents (Elt F)) : Prop where
  at_main_v196 : W (Proc.devRef .tc main_v196) = val_main_v196 (F := F) x0 x1 x3 x4 x5 x6 x11 x12 x21 x22
  at_main_v197 : W (Proc.devRef .tc main_v197) = val_main_v197 (F := F) x0 x1 x2 x4 x5 x6 x13 x14 x17 x18
  at_main_v198 : W (Proc.devRef .tc main_v198) = val_main_v198 (F := F) x1 x2 x4 x5 x6 x15 x16
  at_main_v199 : W (Proc.devRef .tc main_v199) = val_main_v199 (F := F) x0 x3 x4 x5 x6 x19 x20
  at_main_v200 : W (Proc.devRef .tc main_v200) = val_main_v200 (F := F)
  at_main_v201 : W (Proc.devRef .tc main_v201) = val_main_v201 (F := F)
  at_main_v202 : W (Proc.devRef .tc main_v202) = val_main_v202 (F := F)
  at_main_v203 : W (Proc.devRef .tc main_v203) = val_main_v203 (F := F)

/-- In the contents `W`, each buffer written before operation 294 and read at or after it holds its stage of the arguments. -/
structure Live8 (W : Valuation τ sig (Elt F)) (x0 : (⟨S100000x64, .f32⟩ : BufTy).Contents (Elt F)) (x1 : (⟨S50000x64, .f32⟩ : BufTy).Contents (Elt F)) (x2 : (⟨S2000x64, .f32⟩ : BufTy).Contents (Elt F)) (x3 : (⟨S5000x64, .f32⟩ : BufTy).Contents (Elt F)) (x4 : (⟨S2x6x64x64, .f32⟩ : BufTy).Contents (Elt F)) (x5 : (⟨S2x6x64, .f32⟩ : BufTy).Contents (Elt F)) (x6 : (⟨S2x6x64x64, .f32⟩ : BufTy).Contents (Elt F)) (x7 : (⟨S128x64, .f32⟩ : BufTy).Contents (Elt F)) (x8 : (⟨S64, .f32⟩ : BufTy).Contents (Elt F)) (x9 : (⟨S64x4, .f32⟩ : BufTy).Contents (Elt F)) (x10 : (⟨S4, .f32⟩ : BufTy).Contents (Elt F)) (x11 x12 x13 x14 : (⟨S2000000, .i32⟩ : BufTy).Contents (Elt F)) (x15 x16 x17 x18 : (⟨S100000, .i32⟩ : BufTy).Contents (Elt F)) (x19 x20 x21 x22 : (⟨S200000, .i32⟩ : BufTy).Contents (Elt F)) (x23 x24 : (⟨S100000, .i32⟩ : BufTy).Contents (Elt F)) : Prop where
  at_main_v196 : W (Proc.devRef .tc main_v196) = val_main_v196 (F := F) x0 x1 x3 x4 x5 x6 x11 x12 x21 x22
  at_main_v197 : W (Proc.devRef .tc main_v197) = val_main_v197 (F := F) x0 x1 x2 x4 x5 x6 x13 x14 x17 x18
  at_main_v198 : W (Proc.devRef .tc main_v198) = val_main_v198 (F := F) x1 x2 x4 x5 x6 x15 x16
  at_main_v199 : W (Proc.devRef .tc main_v199) = val_main_v199 (F := F) x0 x3 x4 x5 x6 x19 x20
  at_main_v201 : W (Proc.devRef .tc main_v201) = val_main_v201 (F := F)
  at_main_v202 : W (Proc.devRef .tc main_v202) = val_main_v202 (F := F)
  at_main_v203 : W (Proc.devRef .tc main_v203) = val_main_v203 (F := F)
  at_main_v235 : W (Proc.devRef .tc main_v235) = val_main_v235 (F := F) x0 x1 x2 x3 x4 x5 x6 x11 x12 x13 x14 x17 x18 x21 x22

/-- In the contents `W`, each buffer written before operation 332 and read at or after it holds its stage of the arguments. -/
structure Live9 (W : Valuation τ sig (Elt F)) (x0 : (⟨S100000x64, .f32⟩ : BufTy).Contents (Elt F)) (x1 : (⟨S50000x64, .f32⟩ : BufTy).Contents (Elt F)) (x2 : (⟨S2000x64, .f32⟩ : BufTy).Contents (Elt F)) (x3 : (⟨S5000x64, .f32⟩ : BufTy).Contents (Elt F)) (x4 : (⟨S2x6x64x64, .f32⟩ : BufTy).Contents (Elt F)) (x5 : (⟨S2x6x64, .f32⟩ : BufTy).Contents (Elt F)) (x6 : (⟨S2x6x64x64, .f32⟩ : BufTy).Contents (Elt F)) (x7 : (⟨S128x64, .f32⟩ : BufTy).Contents (Elt F)) (x8 : (⟨S64, .f32⟩ : BufTy).Contents (Elt F)) (x9 : (⟨S64x4, .f32⟩ : BufTy).Contents (Elt F)) (x10 : (⟨S4, .f32⟩ : BufTy).Contents (Elt F)) (x11 x12 x13 x14 : (⟨S2000000, .i32⟩ : BufTy).Contents (Elt F)) (x15 x16 x17 x18 : (⟨S100000, .i32⟩ : BufTy).Contents (Elt F)) (x19 x20 x21 x22 : (⟨S200000, .i32⟩ : BufTy).Contents (Elt F)) (x23 x24 : (⟨S100000, .i32⟩ : BufTy).Contents (Elt F)) : Prop where
  at_main_v196 : W (Proc.devRef .tc main_v196) = val_main_v196 (F := F) x0 x1 x3 x4 x5 x6 x11 x12 x21 x22
  at_main_v197 : W (Proc.devRef .tc main_v197) = val_main_v197 (F := F) x0 x1 x2 x4 x5 x6 x13 x14 x17 x18
  at_main_v198 : W (Proc.devRef .tc main_v198) = val_main_v198 (F := F) x1 x2 x4 x5 x6 x15 x16
  at_main_v199 : W (Proc.devRef .tc main_v199) = val_main_v199 (F := F) x0 x3 x4 x5 x6 x19 x20
  at_main_v202 : W (Proc.devRef .tc main_v202) = val_main_v202 (F := F)
  at_main_v203 : W (Proc.devRef .tc main_v203) = val_main_v203 (F := F)
  at_main_v235 : W (Proc.devRef .tc main_v235) = val_main_v235 (F := F) x0 x1 x2 x3 x4 x5 x6 x11 x12 x13 x14 x17 x18 x21 x22
  at_main_v267 : W (Proc.devRef .tc main_v267) = val_main_v267 (F := F) x0 x1 x2 x3 x4 x5 x6 x11 x12 x13 x14 x17 x18 x21 x22

/-- In the contents `W`, each buffer written before operation 370 and read at or after it holds its stage of the arguments. -/
structure Live10 (W : Valuation τ sig (Elt F)) (x0 : (⟨S100000x64, .f32⟩ : BufTy).Contents (Elt F)) (x1 : (⟨S50000x64, .f32⟩ : BufTy).Contents (Elt F)) (x2 : (⟨S2000x64, .f32⟩ : BufTy).Contents (Elt F)) (x3 : (⟨S5000x64, .f32⟩ : BufTy).Contents (Elt F)) (x4 : (⟨S2x6x64x64, .f32⟩ : BufTy).Contents (Elt F)) (x5 : (⟨S2x6x64, .f32⟩ : BufTy).Contents (Elt F)) (x6 : (⟨S2x6x64x64, .f32⟩ : BufTy).Contents (Elt F)) (x7 : (⟨S128x64, .f32⟩ : BufTy).Contents (Elt F)) (x8 : (⟨S64, .f32⟩ : BufTy).Contents (Elt F)) (x9 : (⟨S64x4, .f32⟩ : BufTy).Contents (Elt F)) (x10 : (⟨S4, .f32⟩ : BufTy).Contents (Elt F)) (x11 x12 x13 x14 : (⟨S2000000, .i32⟩ : BufTy).Contents (Elt F)) (x15 x16 x17 x18 : (⟨S100000, .i32⟩ : BufTy).Contents (Elt F)) (x19 x20 x21 x22 : (⟨S200000, .i32⟩ : BufTy).Contents (Elt F)) (x23 x24 : (⟨S100000, .i32⟩ : BufTy).Contents (Elt F)) : Prop where
  at_main_v196 : W (Proc.devRef .tc main_v196) = val_main_v196 (F := F) x0 x1 x3 x4 x5 x6 x11 x12 x21 x22
  at_main_v197 : W (Proc.devRef .tc main_v197) = val_main_v197 (F := F) x0 x1 x2 x4 x5 x6 x13 x14 x17 x18
  at_main_v198 : W (Proc.devRef .tc main_v198) = val_main_v198 (F := F) x1 x2 x4 x5 x6 x15 x16
  at_main_v199 : W (Proc.devRef .tc main_v199) = val_main_v199 (F := F) x0 x3 x4 x5 x6 x19 x20
  at_main_v203 : W (Proc.devRef .tc main_v203) = val_main_v203 (F := F)
  at_main_v235 : W (Proc.devRef .tc main_v235) = val_main_v235 (F := F) x0 x1 x2 x3 x4 x5 x6 x11 x12 x13 x14 x17 x18 x21 x22
  at_main_v267 : W (Proc.devRef .tc main_v267) = val_main_v267 (F := F) x0 x1 x2 x3 x4 x5 x6 x11 x12 x13 x14 x17 x18 x21 x22

/-- In the contents `W`, each buffer written before operation 408 and read at or after it holds its stage of the arguments. -/
structure Live11 (W : Valuation τ sig (Elt F)) (x0 : (⟨S100000x64, .f32⟩ : BufTy).Contents (Elt F)) (x1 : (⟨S50000x64, .f32⟩ : BufTy).Contents (Elt F)) (x2 : (⟨S2000x64, .f32⟩ : BufTy).Contents (Elt F)) (x3 : (⟨S5000x64, .f32⟩ : BufTy).Contents (Elt F)) (x4 : (⟨S2x6x64x64, .f32⟩ : BufTy).Contents (Elt F)) (x5 : (⟨S2x6x64, .f32⟩ : BufTy).Contents (Elt F)) (x6 : (⟨S2x6x64x64, .f32⟩ : BufTy).Contents (Elt F)) (x7 : (⟨S128x64, .f32⟩ : BufTy).Contents (Elt F)) (x8 : (⟨S64, .f32⟩ : BufTy).Contents (Elt F)) (x9 : (⟨S64x4, .f32⟩ : BufTy).Contents (Elt F)) (x10 : (⟨S4, .f32⟩ : BufTy).Contents (Elt F)) (x11 x12 x13 x14 : (⟨S2000000, .i32⟩ : BufTy).Contents (Elt F)) (x15 x16 x17 x18 : (⟨S100000, .i32⟩ : BufTy).Contents (Elt F)) (x19 x20 x21 x22 : (⟨S200000, .i32⟩ : BufTy).Contents (Elt F)) (x23 x24 : (⟨S100000, .i32⟩ : BufTy).Contents (Elt F)) : Prop where
  at_main_v196 : W (Proc.devRef .tc main_v196) = val_main_v196 (F := F) x0 x1 x3 x4 x5 x6 x11 x12 x21 x22
  at_main_v199 : W (Proc.devRef .tc main_v199) = val_main_v199 (F := F) x0 x3 x4 x5 x6 x19 x20
  at_main_v203 : W (Proc.devRef .tc main_v203) = val_main_v203 (F := F)
  at_main_v235 : W (Proc.devRef .tc main_v235) = val_main_v235 (F := F) x0 x1 x2 x3 x4 x5 x6 x11 x12 x13 x14 x17 x18 x21 x22
  at_main_v331 : W (Proc.devRef .tc main_v331) = val_main_v331 (F := F) x0 x1 x2 x3 x4 x5 x6 x11 x12 x13 x14 x15 x16 x17 x18 x21 x22

/-- In the contents `W`, each buffer written before operation 446 and read at or after it holds its stage of the arguments. -/
structure Live12 (W : Valuation τ sig (Elt F)) (x0 : (⟨S100000x64, .f32⟩ : BufTy).Contents (Elt F)) (x1 : (⟨S50000x64, .f32⟩ : BufTy).Contents (Elt F)) (x2 : (⟨S2000x64, .f32⟩ : BufTy).Contents (Elt F)) (x3 : (⟨S5000x64, .f32⟩ : BufTy).Contents (Elt F)) (x4 : (⟨S2x6x64x64, .f32⟩ : BufTy).Contents (Elt F)) (x5 : (⟨S2x6x64, .f32⟩ : BufTy).Contents (Elt F)) (x6 : (⟨S2x6x64x64, .f32⟩ : BufTy).Contents (Elt F)) (x7 : (⟨S128x64, .f32⟩ : BufTy).Contents (Elt F)) (x8 : (⟨S64, .f32⟩ : BufTy).Contents (Elt F)) (x9 : (⟨S64x4, .f32⟩ : BufTy).Contents (Elt F)) (x10 : (⟨S4, .f32⟩ : BufTy).Contents (Elt F)) (x11 x12 x13 x14 : (⟨S2000000, .i32⟩ : BufTy).Contents (Elt F)) (x15 x16 x17 x18 : (⟨S100000, .i32⟩ : BufTy).Contents (Elt F)) (x19 x20 x21 x22 : (⟨S200000, .i32⟩ : BufTy).Contents (Elt F)) (x23 x24 : (⟨S100000, .i32⟩ : BufTy).Contents (Elt F)) : Prop where
  at_main_v196 : W (Proc.devRef .tc main_v196) = val_main_v196 (F := F) x0 x1 x3 x4 x5 x6 x11 x12 x21 x22
  at_main_v199 : W (Proc.devRef .tc main_v199) = val_main_v199 (F := F) x0 x3 x4 x5 x6 x19 x20
  at_main_v235 : W (Proc.devRef .tc main_v235) = val_main_v235 (F := F) x0 x1 x2 x3 x4 x5 x6 x11 x12 x13 x14 x17 x18 x21 x22
  at_main_v331 : W (Proc.devRef .tc main_v331) = val_main_v331 (F := F) x0 x1 x2 x3 x4 x5 x6 x11 x12 x13 x14 x15 x16 x17 x18 x21 x22

/-- In the contents `W`, each buffer written before operation 484 and read at or after it holds its stage of the arguments. -/
structure Live13 (W : Valuation τ sig (Elt F)) (x0 : (⟨S100000x64, .f32⟩ : BufTy).Contents (Elt F)) (x1 : (⟨S50000x64, .f32⟩ : BufTy).Contents (Elt F)) (x2 : (⟨S2000x64, .f32⟩ : BufTy).Contents (Elt F)) (x3 : (⟨S5000x64, .f32⟩ : BufTy).Contents (Elt F)) (x4 : (⟨S2x6x64x64, .f32⟩ : BufTy).Contents (Elt F)) (x5 : (⟨S2x6x64, .f32⟩ : BufTy).Contents (Elt F)) (x6 : (⟨S2x6x64x64, .f32⟩ : BufTy).Contents (Elt F)) (x7 : (⟨S128x64, .f32⟩ : BufTy).Contents (Elt F)) (x8 : (⟨S64, .f32⟩ : BufTy).Contents (Elt F)) (x9 : (⟨S64x4, .f32⟩ : BufTy).Contents (Elt F)) (x10 : (⟨S4, .f32⟩ : BufTy).Contents (Elt F)) (x11 x12 x13 x14 : (⟨S2000000, .i32⟩ : BufTy).Contents (Elt F)) (x15 x16 x17 x18 : (⟨S100000, .i32⟩ : BufTy).Contents (Elt F)) (x19 x20 x21 x22 : (⟨S200000, .i32⟩ : BufTy).Contents (Elt F)) (x23 x24 : (⟨S100000, .i32⟩ : BufTy).Contents (Elt F)) : Prop where
  at_main_v331 : W (Proc.devRef .tc main_v331) = val_main_v331 (F := F) x0 x1 x2 x3 x4 x5 x6 x11 x12 x13 x14 x15 x16 x17 x18 x21 x22
  at_main_v395 : W (Proc.devRef .tc main_v395) = val_main_v395 (F := F) x0 x1 x2 x3 x4 x5 x6 x11 x12 x13 x14 x17 x18 x19 x20 x21 x22

/-- In the contents `W`, each buffer written before operation 502 and read at or after it holds its stage of the arguments. -/
structure Live14 (W : Valuation τ sig (Elt F)) (x0 : (⟨S100000x64, .f32⟩ : BufTy).Contents (Elt F)) (x1 : (⟨S50000x64, .f32⟩ : BufTy).Contents (Elt F)) (x2 : (⟨S2000x64, .f32⟩ : BufTy).Contents (Elt F)) (x3 : (⟨S5000x64, .f32⟩ : BufTy).Contents (Elt F)) (x4 : (⟨S2x6x64x64, .f32⟩ : BufTy).Contents (Elt F)) (x5 : (⟨S2x6x64, .f32⟩ : BufTy).Contents (Elt F)) (x6 : (⟨S2x6x64x64, .f32⟩ : BufTy).Contents (Elt F)) (x7 : (⟨S128x64, .f32⟩ : BufTy).Contents (Elt F)) (x8 : (⟨S64, .f32⟩ : BufTy).Contents (Elt F)) (x9 : (⟨S64x4, .f32⟩ : BufTy).Contents (Elt F)) (x10 : (⟨S4, .f32⟩ : BufTy).Contents (Elt F)) (x11 x12 x13 x14 : (⟨S2000000, .i32⟩ : BufTy).Contents (Elt F)) (x15 x16 x17 x18 : (⟨S100000, .i32⟩ : BufTy).Contents (Elt F)) (x19 x20 x21 x22 : (⟨S200000, .i32⟩ : BufTy).Contents (Elt F)) (x23 x24 : (⟨S100000, .i32⟩ : BufTy).Contents (Elt F)) : Prop where
  at_main_v402 : W (Proc.devRef .tc main_v402) = val_main_v402 (F := F) x0 x1 x2 x3 x4 x5 x6 x11 x12 x13 x14 x15 x16 x17 x18 x21 x22 x23
  at_main_v409 : W (Proc.devRef .tc main_v409) = val_main_v409 (F := F) x0 x1 x2 x3 x4 x5 x6 x11 x12 x13 x14 x17 x18 x19 x20 x21 x22 x24

/-- In the contents `W`, each buffer written before operation 503 and read at or after it holds its stage of the arguments. -/
structure Live15 (W : Valuation τ sig (Elt F)) (x0 : (⟨S100000x64, .f32⟩ : BufTy).Contents (Elt F)) (x1 : (⟨S50000x64, .f32⟩ : BufTy).Contents (Elt F)) (x2 : (⟨S2000x64, .f32⟩ : BufTy).Contents (Elt F)) (x3 : (⟨S5000x64, .f32⟩ : BufTy).Contents (Elt F)) (x4 : (⟨S2x6x64x64, .f32⟩ : BufTy).Contents (Elt F)) (x5 : (⟨S2x6x64, .f32⟩ : BufTy).Contents (Elt F)) (x6 : (⟨S2x6x64x64, .f32⟩ : BufTy).Contents (Elt F)) (x7 : (⟨S128x64, .f32⟩ : BufTy).Contents (Elt F)) (x8 : (⟨S64, .f32⟩ : BufTy).Contents (Elt F)) (x9 : (⟨S64x4, .f32⟩ : BufTy).Contents (Elt F)) (x10 : (⟨S4, .f32⟩ : BufTy).Contents (Elt F)) (x11 x12 x13 x14 : (⟨S2000000, .i32⟩ : BufTy).Contents (Elt F)) (x15 x16 x17 x18 : (⟨S100000, .i32⟩ : BufTy).Contents (Elt F)) (x19 x20 x21 x22 : (⟨S200000, .i32⟩ : BufTy).Contents (Elt F)) (x23 x24 : (⟨S100000, .i32⟩ : BufTy).Contents (Elt F)) : Prop where
  at_main_v410 : W (Proc.devRef .tc main_v410) = val_main_v410 (F := F) x0 x1 x2 x3 x4 x5 x6 x11 x12 x13 x14 x15 x16 x17 x18 x19 x20 x21 x22 x23 x24

/-- In the contents `W`, each buffer written before operation 514 and read at or after it holds its stage of the arguments. -/
structure Live16 (W : Valuation τ sig (Elt F)) (x0 : (⟨S100000x64, .f32⟩ : BufTy).Contents (Elt F)) (x1 : (⟨S50000x64, .f32⟩ : BufTy).Contents (Elt F)) (x2 : (⟨S2000x64, .f32⟩ : BufTy).Contents (Elt F)) (x3 : (⟨S5000x64, .f32⟩ : BufTy).Contents (Elt F)) (x4 : (⟨S2x6x64x64, .f32⟩ : BufTy).Contents (Elt F)) (x5 : (⟨S2x6x64, .f32⟩ : BufTy).Contents (Elt F)) (x6 : (⟨S2x6x64x64, .f32⟩ : BufTy).Contents (Elt F)) (x7 : (⟨S128x64, .f32⟩ : BufTy).Contents (Elt F)) (x8 : (⟨S64, .f32⟩ : BufTy).Contents (Elt F)) (x9 : (⟨S64x4, .f32⟩ : BufTy).Contents (Elt F)) (x10 : (⟨S4, .f32⟩ : BufTy).Contents (Elt F)) (x11 x12 x13 x14 : (⟨S2000000, .i32⟩ : BufTy).Contents (Elt F)) (x15 x16 x17 x18 : (⟨S100000, .i32⟩ : BufTy).Contents (Elt F)) (x19 x20 x21 x22 : (⟨S200000, .i32⟩ : BufTy).Contents (Elt F)) (x23 x24 : (⟨S100000, .i32⟩ : BufTy).Contents (Elt F)) : Prop where
  at_main_v419 : W (Proc.devRef .tc main_v419) = val_main_v419 (F := F) x0 x1 x2 x3 x4 x5 x6 x7 x8 x9 x10 x11 x12 x13 x14 x15 x16 x17 x18 x19 x20 x21 x22 x23 x24

end Cert.ReferenceIdeal.Chunks

end
-- ==== Proof.RefChunks.C0.lean ====
/- The reference program's run, read back in pieces: piece 0, operations 0 … 45 of @main's 514.
   Running the piece from contents in which the arguments hold x0 … x24
   leaves the arguments as they were (no operation writes one) and every buffer live at operation 46 at its stage: a buffer
   the piece does not write keeps its contents; a buffer it writes holds its operation's function of its operands' contents,
   the operands read off the same way down to the buffers written before the piece, where the hypothesis says what they hold. -/
import proofs.«154750_j39152921870699_1_alg».proof.Proof.RefChunks.Inv

noncomputable section

namespace Cert.ReferenceIdeal.Chunks

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- Operations 0 … 45 of the reference's @main, as printed. -/
abbrev c0 : List (HloOp τ sig (Elt F)) :=
  [ nullary main_cst (constant S_ .f32 0x00000000#32),
    unary main_cst main_v0 (broadcastInDim S100000x64 ![] bcast_S_S100000x64 : (⟨S_, .f32⟩ : BufTy).Contents (Elt F) → (⟨S100000x64, .f32⟩ : BufTy).Contents (Elt F)),
    nullary main_cst_0 (constant S_ .f32 0x00000000#32),
    unary main_cst_0 main_v1 (broadcastInDim S50000x64 ![] bcast_S_S50000x64 : (⟨S_, .f32⟩ : BufTy).Contents (Elt F) → (⟨S50000x64, .f32⟩ : BufTy).Contents (Elt F)),
    nullary main_cst_1 (constant S_ .f32 0x00000000#32),
    unary main_cst_1 main_v2 (broadcastInDim S2000x64 ![] bcast_S_S2000x64 : (⟨S_, .f32⟩ : BufTy).Contents (Elt F) → (⟨S2000x64, .f32⟩ : BufTy).Contents (Elt F)),
    nullary main_cst_2 (constant S_ .f32 0x00000000#32),
    unary main_cst_2 main_v3 (broadcastInDim S5000x64 ![] bcast_S_S5000x64 : (⟨S_, .f32⟩ : BufTy).Contents (Elt F) → (⟨S5000x64, .f32⟩ : BufTy).Contents (Elt F)),
    unary main_arg4 main_v4 ((extractStridedSlice S1x1x64x64 ![0, 0, 0, 0] · slices_S2x6x64x64_S1x1x64x64_0_0_0_0) : (⟨S2x6x64x64, .f32⟩ : BufTy).Contents (Elt F) → (⟨S1x1x64x64, .f32⟩ : BufTy).Contents (Elt F)),
    reshape main_v4 main_v5 rfl shapeCasts_S1x1x64x64_S64x64,
    unary main_arg5 main_v6 ((extractStridedSlice S1x1x64 ![0, 0, 0] · slices_S2x6x64_S1x1x64_0_0_0) : (⟨S2x6x64, .f32⟩ : BufTy).Contents (Elt F) → (⟨S1x1x64, .f32⟩ : BufTy).Contents (Elt F)),
    reshape main_v6 main_v7 rfl shapeCasts_S1x1x64_S64,
    unary main_arg6 main_v8 ((extractStridedSlice S1x1x64x64 ![0, 0, 0, 0] · slices_S2x6x64x64_S1x1x64x64_0_0_0_0) : (⟨S2x6x64x64, .f32⟩ : BufTy).Contents (Elt F) → (⟨S1x1x64x64, .f32⟩ : BufTy).Contents (Elt F)),
    reshape main_v8 main_v9 rfl shapeCasts_S1x1x64x64_S64x64,
    nullary main_c (constantI S_ 32 0#32),
    unary main_c main_v10 (broadcastInDim S2000000 ![] bcast_S_S2000000 : (⟨S_, .i32⟩ : BufTy).Contents (Elt F) → (⟨S2000000, .i32⟩ : BufTy).Contents (Elt F)),
    binary main_arg11 main_v10 main_v11 (cmpi .slt : (⟨S2000000, .i32⟩ : BufTy).Contents (Elt F) → (⟨S2000000, .i32⟩ : BufTy).Contents (Elt F) → (⟨S2000000, .i1⟩ : BufTy).Contents (Elt F)),
    nullary main_c_3 (constantI S_ 32 50000#32),
    unary main_c_3 main_v12 (broadcastInDim S2000000 ![] bcast_S_S2000000 : (⟨S_, .i32⟩ : BufTy).Contents (Elt F) → (⟨S2000000, .i32⟩ : BufTy).Contents (Elt F)),
    binary main_arg11 main_v12 main_v13 (addi : (⟨S2000000, .i32⟩ : BufTy).Contents (Elt F) → (⟨S2000000, .i32⟩ : BufTy).Contents (Elt F) → (⟨S2000000, .i32⟩ : BufTy).Contents (Elt F)),
    ternary main_v11 main_v13 main_arg11 main_v14 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v14 main_v15 (broadcastInDim S2000000x1 ![0] bcast_S2000000_S2000000x1_0 : (⟨S2000000, .i32⟩ : BufTy).Contents (Elt F) → (⟨S2000000x1, .i32⟩ : BufTy).Contents (Elt F)),
    binary main_arg1 main_v15 main_v16 ((fun x i => Host.gather gather_S50000x64_S2000000x1_S2000000x64_1_0_n_n_0_1_164 x i) : (⟨S50000x64, .f32⟩ : BufTy).Contents (Elt F) → (⟨S2000000x1, .i32⟩ : BufTy).Contents (Elt F) → (⟨S2000000x64, .f32⟩ : BufTy).Contents (Elt F)),
    nullary main_cst_4 (constant S_ .f32 0x00000000#32),
    unary main_cst_4 main_v17 (broadcastInDim S100000x64 ![] bcast_S_S100000x64 : (⟨S_, .f32⟩ : BufTy).Contents (Elt F) → (⟨S100000x64, .f32⟩ : BufTy).Contents (Elt F)),
    unary main_arg12 main_v18 (broadcastInDim S2000000x1 ![0] bcast_S2000000_S2000000x1_0 : (⟨S2000000, .i32⟩ : BufTy).Contents (Elt F) → (⟨S2000000x1, .i32⟩ : BufTy).Contents (Elt F)),
    ternary main_v17 main_v18 main_v16 main_v19 ((fun x i u => Host.scatterAdd scatter_S100000x64_S2000000x1_S2000000x64_1_0_0_1 x i u) : (⟨S100000x64, .f32⟩ : BufTy).Contents (Elt F) → (⟨S2000000x1, .i32⟩ : BufTy).Contents (Elt F) → (⟨S2000000x64, .f32⟩ : BufTy).Contents (Elt F) → (⟨S100000x64, .f32⟩ : BufTy).Contents (Elt F)),
    nullary main_cst_5 (constant S_ .f32 0x3F800000#32),
    unary main_cst_5 main_v20 (broadcastInDim S2000000 ![] bcast_S_S2000000 : (⟨S_, .f32⟩ : BufTy).Contents (Elt F) → (⟨S2000000, .f32⟩ : BufTy).Contents (Elt F)),
    nullary main_cst_6 (constant S_ .f32 0x00000000#32),
    unary main_cst_6 main_v21 (broadcastInDim S100000 ![] bcast_S_S100000 : (⟨S_, .f32⟩ : BufTy).Contents (Elt F) → (⟨S100000, .f32⟩ : BufTy).Contents (Elt F)),
    unary main_arg12 main_v22 (broadcastInDim S2000000x1 ![0] bcast_S2000000_S2000000x1_0 : (⟨S2000000, .i32⟩ : BufTy).Contents (Elt F) → (⟨S2000000x1, .i32⟩ : BufTy).Contents (Elt F)),
    ternary main_v21 main_v22 main_v20 main_v23 ((fun x i u => Host.scatterAdd scatter_S100000_S2000000x1_S2000000_n_0_0_1 x i u) : (⟨S100000, .f32⟩ : BufTy).Contents (Elt F) → (⟨S2000000x1, .i32⟩ : BufTy).Contents (Elt F) → (⟨S2000000, .f32⟩ : BufTy).Contents (Elt F) → (⟨S100000, .f32⟩ : BufTy).Contents (Elt F)),
    nullary main_cst_7 (constant S_ .f32 0x3F800000#32),
    unary main_cst_7 main_v24 (broadcastInDim S100000 ![] bcast_S_S100000 : (⟨S_, .f32⟩ : BufTy).Contents (Elt F) → (⟨S100000, .f32⟩ : BufTy).Contents (Elt F)),
    binary main_v23 main_v24 main_v25 (maximumf : (⟨S100000, .f32⟩ : BufTy).Contents (Elt F) → (⟨S100000, .f32⟩ : BufTy).Contents (Elt F) → (⟨S100000, .f32⟩ : BufTy).Contents (Elt F)),
    unary main_v25 main_v26 (broadcastInDim S100000x1 ![0] bcast_S100000_S100000x1_0 : (⟨S100000, .f32⟩ : BufTy).Contents (Elt F) → (⟨S100000x1, .f32⟩ : BufTy).Contents (Elt F)),
    unary main_v26 main_v27 (broadcastInDim S100000x64 ![0, 1] bcast_S100000x1_S100000x64_0_1 : (⟨S100000x1, .f32⟩ : BufTy).Contents (Elt F) → (⟨S100000x64, .f32⟩ : BufTy).Contents (Elt F)),
    binary main_v19 main_v27 main_v28 (Host.divf : (⟨S100000x64, .f32⟩ : BufTy).Contents (Elt F) → (⟨S100000x64, .f32⟩ : BufTy).Contents (Elt F) → (⟨S100000x64, .f32⟩ : BufTy).Contents (Elt F)),
    binary main_v28 main_v5 main_v29 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_v7 main_v30 (broadcastInDim S1x64 ![1] bcast_S64_S1x64_1 : (⟨S64, .f32⟩ : BufTy).Contents (Elt F) → (⟨S1x64, .f32⟩ : BufTy).Contents (Elt F)),
    unary main_v30 main_v31 (broadcastInDim S100000x64 ![0, 1] bcast_S1x64_S100000x64_0_1 : (⟨S1x64, .f32⟩ : BufTy).Contents (Elt F) → (⟨S100000x64, .f32⟩ : BufTy).Contents (Elt F)),
    binary main_v29 main_v31 main_v32 (addf : (⟨S100000x64, .f32⟩ : BufTy).Contents (Elt F) → (⟨S100000x64, .f32⟩ : BufTy).Contents (Elt F) → (⟨S100000x64, .f32⟩ : BufTy).Contents (Elt F)),
    binary main_arg0 main_v9 main_v33 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v32 main_v33 main_v34 (addf : (⟨S100000x64, .f32⟩ : BufTy).Contents (Elt F) → (⟨S100000x64, .f32⟩ : BufTy).Contents (Elt F) → (⟨S100000x64, .f32⟩ : BufTy).Contents (Elt F)),
    binary main_v0 main_v34 main_v35 (addf : (⟨S100000x64, .f32⟩ : BufTy).Contents (Elt F) → (⟨S100000x64, .f32⟩ : BufTy).Contents (Elt F) → (⟨S100000x64, .f32⟩ : BufTy).Contents (Elt F)) ]

/-- The buffers these operations write. -/
abbrev c0_W : List (Ref sig .tc) := [main_cst, main_v0, main_cst_0, main_v1, main_cst_1, main_v2, main_cst_2, main_v3, main_v4, main_v5, main_v6, main_v7, main_v8, main_v9, main_c, main_v10, main_v11, main_c_3, main_v12, main_v13, main_v14, main_v15, main_v16, main_cst_4, main_v17, main_v18, main_v19, main_cst_5, main_v20, main_cst_6, main_v21, main_v22, main_v23, main_cst_7, main_v24, main_v25, main_v26, main_v27, main_v28, main_v29, main_v30, main_v31, main_v32, main_v33, main_v34, main_v35]

theorem c0_writes : (c0 : List (HloOp τ sig (Elt F))).Forall fun op => op.writes ⊆ (c0_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

variable (W : Valuation τ sig (Elt F)) (x0 : (⟨S100000x64, .f32⟩ : BufTy).Contents (Elt F)) (x1 : (⟨S50000x64, .f32⟩ : BufTy).Contents (Elt F)) (x2 : (⟨S2000x64, .f32⟩ : BufTy).Contents (Elt F)) (x3 : (⟨S5000x64, .f32⟩ : BufTy).Contents (Elt F)) (x4 : (⟨S2x6x64x64, .f32⟩ : BufTy).Contents (Elt F)) (x5 : (⟨S2x6x64, .f32⟩ : BufTy).Contents (Elt F)) (x6 : (⟨S2x6x64x64, .f32⟩ : BufTy).Contents (Elt F)) (x7 : (⟨S128x64, .f32⟩ : BufTy).Contents (Elt F)) (x8 : (⟨S64, .f32⟩ : BufTy).Contents (Elt F)) (x9 : (⟨S64x4, .f32⟩ : BufTy).Contents (Elt F)) (x10 : (⟨S4, .f32⟩ : BufTy).Contents (Elt F)) (x11 x12 x13 x14 : (⟨S2000000, .i32⟩ : BufTy).Contents (Elt F)) (x15 x16 x17 x18 : (⟨S100000, .i32⟩ : BufTy).Contents (Elt F)) (x19 x20 x21 x22 : (⟨S200000, .i32⟩ : BufTy).Contents (Elt F)) (x23 x24 : (⟨S100000, .i32⟩ : BufTy).Contents (Elt F))

/-- A buffer the piece does not write keeps its contents through it. -/
theorem c0_keep (r : Ref sig .tc) (h : r ∉ c0_W) : after c0 W (Proc.devRef .tc r) = W (Proc.devRef .tc r) :=
  after_of_writes_sub c0 W c0_writes h

/-- The arguments are as they were. -/
theorem step0_args (ha : ArgsAt W x0 x1 x2 x3 x4 x5 x6 x7 x8 x9 x10 x11 x12 x13 x14 x15 x16 x17 x18 x19 x20 x21 x22 x23 x24) : ArgsAt (after c0 W) x0 x1 x2 x3 x4 x5 x6 x7 x8 x9 x10 x11 x12 x13 x14 x15 x16 x17 x18 x19 x20 x21 x22 x23 x24 :=
  ⟨(c0_keep W main_arg0 (by decide)).trans ha.at_main_arg0,
   (c0_keep W main_arg1 (by decide)).trans ha.at_main_arg1,
   (c0_keep W main_arg2 (by decide)).trans ha.at_main_arg2,
   (c0_keep W main_arg3 (by decide)).trans ha.at_main_arg3,
   (c0_keep W main_arg4 (by decide)).trans ha.at_main_arg4,
   (c0_keep W main_arg5 (by decide)).trans ha.at_main_arg5,
   (c0_keep W main_arg6 (by decide)).trans ha.at_main_arg6,
   (c0_keep W main_arg7 (by decide)).trans ha.at_main_arg7,
   (c0_keep W main_arg8 (by decide)).trans ha.at_main_arg8,
   (c0_keep W main_arg9 (by decide)).trans ha.at_main_arg9,
   (c0_keep W main_arg10 (by decide)).trans ha.at_main_arg10,
   (c0_keep W main_arg11 (by decide)).trans ha.at_main_arg11,
   (c0_keep W main_arg12 (by decide)).trans ha.at_main_arg12,
   (c0_keep W main_arg13 (by decide)).trans ha.at_main_arg13,
   (c0_keep W main_arg14 (by decide)).trans ha.at_main_arg14,
   (c0_keep W main_arg15 (by decide)).trans ha.at_main_arg15,
   (c0_keep W main_arg16 (by decide)).trans ha.at_main_arg16,
   (c0_keep W main_arg17 (by decide)).trans ha.at_main_arg17,
   (c0_keep W main_arg18 (by decide)).trans ha.at_main_arg18,
   (c0_keep W main_arg19 (by decide)).trans ha.at_main_arg19,
   (c0_keep W main_arg20 (by decide)).trans ha.at_main_arg20,
   (c0_keep W main_arg21 (by decide)).trans ha.at_main_arg21,
   (c0_keep W main_arg22 (by decide)).trans ha.at_main_arg22,
   (c0_keep W main_arg23 (by decide)).trans ha.at_main_arg23,
   (c0_keep W main_arg24 (by decide)).trans ha.at_main_arg24⟩

set_option maxHeartbeats 2000000 in
/-- `main_v1` after the piece: its stage. -/
theorem step0_main_v1 (ha : ArgsAt W x0 x1 x2 x3 x4 x5 x6 x7 x8 x9 x10 x11 x12 x13 x14 x15 x16 x17 x18 x19 x20 x21 x22 x23 x24) :
    after c0 W (Proc.devRef .tc main_v1) = val_main_v1 (F := F) := by
  simp only [c0]
  after_results_simp
  rfl

set_option maxHeartbeats 2000000 in
/-- `main_v2` after the piece: its stage. -/
theorem step0_main_v2 (ha : ArgsAt W x0 x1 x2 x3 x4 x5 x6 x7 x8 x9 x10 x11 x12 x13 x14 x15 x16 x17 x18 x19 x20 x21 x22 x23 x24) :
    after c0 W (Proc.devRef .tc main_v2) = val_main_v2 (F := F) := by
  simp only [c0]
  after_results_simp
  rfl

set_option maxHeartbeats 2000000 in
/-- `main_v3` after the piece: its stage. -/
theorem step0_main_v3 (ha : ArgsAt W x0 x1 x2 x3 x4 x5 x6 x7 x8 x9 x10 x11 x12 x13 x14 x15 x16 x17 x18 x19 x20 x21 x22 x23 x24) :
    after c0 W (Proc.devRef .tc main_v3) = val_main_v3 (F := F) := by
  simp only [c0]
  after_results_simp
  rfl

set_option maxHeartbeats 2000000 in
/-- `main_v35` after the piece: its stage. -/
theorem step0_main_v35 (ha : ArgsAt W x0 x1 x2 x3 x4 x5 x6 x7 x8 x9 x10 x11 x12 x13 x14 x15 x16 x17 x18 x19 x20 x21 x22 x23 x24) :
    after c0 W (Proc.devRef .tc main_v35) = val_main_v35 (F := F) x0 x1 x4 x5 x6 x11 x12 := by
  simp only [c0]
  after_results_simp
  simp only [ha.at_main_arg6, ha.at_main_arg0, ha.at_main_arg5, ha.at_main_arg4, ha.at_main_arg12, ha.at_main_arg11, ha.at_main_arg1]
  rfl

/-- Every buffer live after the piece holds its stage. -/
theorem step0 (ha : ArgsAt W x0 x1 x2 x3 x4 x5 x6 x7 x8 x9 x10 x11 x12 x13 x14 x15 x16 x17 x18 x19 x20 x21 x22 x23 x24) : Live1 (after c0 W) x0 x1 x2 x3 x4 x5 x6 x7 x8 x9 x10 x11 x12 x13 x14 x15 x16 x17 x18 x19 x20 x21 x22 x23 x24 :=
  ⟨step0_main_v1 W x0 x1 x2 x3 x4 x5 x6 x7 x8 x9 x10 x11 x12 x13 x14 x15 x16 x17 x18 x19 x20 x21 x22 x23 x24 ha,
   step0_main_v2 W x0 x1 x2 x3 x4 x5 x6 x7 x8 x9 x10 x11 x12 x13 x14 x15 x16 x17 x18 x19 x20 x21 x22 x23 x24 ha,
   step0_main_v3 W x0 x1 x2 x3 x4 x5 x6 x7 x8 x9 x10 x11 x12 x13 x14 x15 x16 x17 x18 x19 x20 x21 x22 x23 x24 ha,
   step0_main_v35 W x0 x1 x2 x3 x4 x5 x6 x7 x8 x9 x10 x11 x12 x13 x14 x15 x16 x17 x18 x19 x20 x21 x22 x23 x24 ha⟩

end Cert.ReferenceIdeal.Chunks

end
-- ==== Proof.RefChunks.C1.lean ====
/- The reference program's run, read back in pieces: piece 1, operations 46 … 83 of @main's 514.
   Running the piece from contents in which the arguments hold x0 … x24 and the buffers live at operation 46 hold their stages
   leaves the arguments as they were (no operation writes one) and every buffer live at operation 84 at its stage: a buffer
   the piece does not write keeps its contents; a buffer it writes holds its operation's function of its operands' contents,
   the operands read off the same way down to the buffers written before the piece, where the hypothesis says what they hold. -/
import proofs.«154750_j39152921870699_1_alg».proof.Proof.RefChunks.Inv

noncomputable section

namespace Cert.ReferenceIdeal.Chunks

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- Operations 46 … 83 of the reference's @main, as printed. -/
abbrev c1 : List (HloOp τ sig (Elt F)) :=
  [ unary main_arg4 main_v36 ((extractStridedSlice S1x1x64x64 ![0, 1, 0, 0] · slices_S2x6x64x64_S1x1x64x64_0_1_0_0) : (⟨S2x6x64x64, .f32⟩ : BufTy).Contents (Elt F) → (⟨S1x1x64x64, .f32⟩ : BufTy).Contents (Elt F)),
    reshape main_v36 main_v37 rfl shapeCasts_S1x1x64x64_S64x64,
    unary main_arg5 main_v38 ((extractStridedSlice S1x1x64 ![0, 1, 0] · slices_S2x6x64_S1x1x64_0_1_0) : (⟨S2x6x64, .f32⟩ : BufTy).Contents (Elt F) → (⟨S1x1x64, .f32⟩ : BufTy).Contents (Elt F)),
    reshape main_v38 main_v39 rfl shapeCasts_S1x1x64_S64,
    unary main_arg6 main_v40 ((extractStridedSlice S1x1x64x64 ![0, 1, 0, 0] · slices_S2x6x64x64_S1x1x64x64_0_1_0_0) : (⟨S2x6x64x64, .f32⟩ : BufTy).Contents (Elt F) → (⟨S1x1x64x64, .f32⟩ : BufTy).Contents (Elt F)),
    reshape main_v40 main_v41 rfl shapeCasts_S1x1x64x64_S64x64,
    nullary main_c_8 (constantI S_ 32 0#32),
    unary main_c_8 main_v42 (broadcastInDim S2000000 ![] bcast_S_S2000000 : (⟨S_, .i32⟩ : BufTy).Contents (Elt F) → (⟨S2000000, .i32⟩ : BufTy).Contents (Elt F)),
    binary main_arg13 main_v42 main_v43 (cmpi .slt : (⟨S2000000, .i32⟩ : BufTy).Contents (Elt F) → (⟨S2000000, .i32⟩ : BufTy).Contents (Elt F) → (⟨S2000000, .i1⟩ : BufTy).Contents (Elt F)),
    nullary main_c_9 (constantI S_ 32 100000#32),
    unary main_c_9 main_v44 (broadcastInDim S2000000 ![] bcast_S_S2000000 : (⟨S_, .i32⟩ : BufTy).Contents (Elt F) → (⟨S2000000, .i32⟩ : BufTy).Contents (Elt F)),
    binary main_arg13 main_v44 main_v45 (addi : (⟨S2000000, .i32⟩ : BufTy).Contents (Elt F) → (⟨S2000000, .i32⟩ : BufTy).Contents (Elt F) → (⟨S2000000, .i32⟩ : BufTy).Contents (Elt F)),
    ternary main_v43 main_v45 main_arg13 main_v46 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v46 main_v47 (broadcastInDim S2000000x1 ![0] bcast_S2000000_S2000000x1_0 : (⟨S2000000, .i32⟩ : BufTy).Contents (Elt F) → (⟨S2000000x1, .i32⟩ : BufTy).Contents (Elt F)),
    binary main_arg0 main_v47 main_v48 ((fun x i => Host.gather gather_S100000x64_S2000000x1_S2000000x64_1_0_n_n_0_1_164 x i) : (⟨S100000x64, .f32⟩ : BufTy).Contents (Elt F) → (⟨S2000000x1, .i32⟩ : BufTy).Contents (Elt F) → (⟨S2000000x64, .f32⟩ : BufTy).Contents (Elt F)),
    nullary main_cst_10 (constant S_ .f32 0x00000000#32),
    unary main_cst_10 main_v49 (broadcastInDim S50000x64 ![] bcast_S_S50000x64 : (⟨S_, .f32⟩ : BufTy).Contents (Elt F) → (⟨S50000x64, .f32⟩ : BufTy).Contents (Elt F)),
    unary main_arg14 main_v50 (broadcastInDim S2000000x1 ![0] bcast_S2000000_S2000000x1_0 : (⟨S2000000, .i32⟩ : BufTy).Contents (Elt F) → (⟨S2000000x1, .i32⟩ : BufTy).Contents (Elt F)),
    ternary main_v49 main_v50 main_v48 main_v51 ((fun x i u => Host.scatterAdd scatter_S50000x64_S2000000x1_S2000000x64_1_0_0_1 x i u) : (⟨S50000x64, .f32⟩ : BufTy).Contents (Elt F) → (⟨S2000000x1, .i32⟩ : BufTy).Contents (Elt F) → (⟨S2000000x64, .f32⟩ : BufTy).Contents (Elt F) → (⟨S50000x64, .f32⟩ : BufTy).Contents (Elt F)),
    nullary main_cst_11 (constant S_ .f32 0x3F800000#32),
    unary main_cst_11 main_v52 (broadcastInDim S2000000 ![] bcast_S_S2000000 : (⟨S_, .f32⟩ : BufTy).Contents (Elt F) → (⟨S2000000, .f32⟩ : BufTy).Contents (Elt F)),
    nullary main_cst_12 (constant S_ .f32 0x00000000#32),
    unary main_cst_12 main_v53 (broadcastInDim S50000 ![] bcast_S_S50000 : (⟨S_, .f32⟩ : BufTy).Contents (Elt F) → (⟨S50000, .f32⟩ : BufTy).Contents (Elt F)),
    unary main_arg14 main_v54 (broadcastInDim S2000000x1 ![0] bcast_S2000000_S2000000x1_0 : (⟨S2000000, .i32⟩ : BufTy).Contents (Elt F) → (⟨S2000000x1, .i32⟩ : BufTy).Contents (Elt F)),
    ternary main_v53 main_v54 main_v52 main_v55 ((fun x i u => Host.scatterAdd scatter_S50000_S2000000x1_S2000000_n_0_0_1 x i u) : (⟨S50000, .f32⟩ : BufTy).Contents (Elt F) → (⟨S2000000x1, .i32⟩ : BufTy).Contents (Elt F) → (⟨S2000000, .f32⟩ : BufTy).Contents (Elt F) → (⟨S50000, .f32⟩ : BufTy).Contents (Elt F)),
    nullary main_cst_13 (constant S_ .f32 0x3F800000#32),
    unary main_cst_13 main_v56 (broadcastInDim S50000 ![] bcast_S_S50000 : (⟨S_, .f32⟩ : BufTy).Contents (Elt F) → (⟨S50000, .f32⟩ : BufTy).Contents (Elt F)),
    binary main_v55 main_v56 main_v57 (maximumf : (⟨S50000, .f32⟩ : BufTy).Contents (Elt F) → (⟨S50000, .f32⟩ : BufTy).Contents (Elt F) → (⟨S50000, .f32⟩ : BufTy).Contents (Elt F)),
    unary main_v57 main_v58 (broadcastInDim S50000x1 ![0] bcast_S50000_S50000x1_0 : (⟨S50000, .f32⟩ : BufTy).Contents (Elt F) → (⟨S50000x1, .f32⟩ : BufTy).Contents (Elt F)),
    unary main_v58 main_v59 (broadcastInDim S50000x64 ![0, 1] bcast_S50000x1_S50000x64_0_1 : (⟨S50000x1, .f32⟩ : BufTy).Contents (Elt F) → (⟨S50000x64, .f32⟩ : BufTy).Contents (Elt F)),
    binary main_v51 main_v59 main_v60 (Host.divf : (⟨S50000x64, .f32⟩ : BufTy).Contents (Elt F) → (⟨S50000x64, .f32⟩ : BufTy).Contents (Elt F) → (⟨S50000x64, .f32⟩ : BufTy).Contents (Elt F)),
    binary main_v60 main_v37 main_v61 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_v39 main_v62 (broadcastInDim S1x64 ![1] bcast_S64_S1x64_1 : (⟨S64, .f32⟩ : BufTy).Contents (Elt F) → (⟨S1x64, .f32⟩ : BufTy).Contents (Elt F)),
    unary main_v62 main_v63 (broadcastInDim S50000x64 ![0, 1] bcast_S1x64_S50000x64_0_1 : (⟨S1x64, .f32⟩ : BufTy).Contents (Elt F) → (⟨S50000x64, .f32⟩ : BufTy).Contents (Elt F)),
    binary main_v61 main_v63 main_v64 (addf : (⟨S50000x64, .f32⟩ : BufTy).Contents (Elt F) → (⟨S50000x64, .f32⟩ : BufTy).Contents (Elt F) → (⟨S50000x64, .f32⟩ : BufTy).Contents (Elt F)),
    binary main_arg1 main_v41 main_v65 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v64 main_v65 main_v66 (addf : (⟨S50000x64, .f32⟩ : BufTy).Contents (Elt F) → (⟨S50000x64, .f32⟩ : BufTy).Contents (Elt F) → (⟨S50000x64, .f32⟩ : BufTy).Contents (Elt F)),
    binary main_v1 main_v66 main_v67 (addf : (⟨S50000x64, .f32⟩ : BufTy).Contents (Elt F) → (⟨S50000x64, .f32⟩ : BufTy).Contents (Elt F) → (⟨S50000x64, .f32⟩ : BufTy).Contents (Elt F)) ]

/-- The buffers these operations write. -/
abbrev c1_W : List (Ref sig .tc) := [main_v36, main_v37, main_v38, main_v39, main_v40, main_v41, main_c_8, main_v42, main_v43, main_c_9, main_v44, main_v45, main_v46, main_v47, main_v48, main_cst_10, main_v49, main_v50, main_v51, main_cst_11, main_v52, main_cst_12, main_v53, main_v54, main_v55, main_cst_13, main_v56, main_v57, main_v58, main_v59, main_v60, main_v61, main_v62, main_v63, main_v64, main_v65, main_v66, main_v67]

theorem c1_writes : (c1 : List (HloOp τ sig (Elt F))).Forall fun op => op.writes ⊆ (c1_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

variable (W : Valuation τ sig (Elt F)) (x0 : (⟨S100000x64, .f32⟩ : BufTy).Contents (Elt F)) (x1 : (⟨S50000x64, .f32⟩ : BufTy).Contents (Elt F)) (x2 : (⟨S2000x64, .f32⟩ : BufTy).Contents (Elt F)) (x3 : (⟨S5000x64, .f32⟩ : BufTy).Contents (Elt F)) (x4 : (⟨S2x6x64x64, .f32⟩ : BufTy).Contents (Elt F)) (x5 : (⟨S2x6x64, .f32⟩ : BufTy).Contents (Elt F)) (x6 : (⟨S2x6x64x64, .f32⟩ : BufTy).Contents (Elt F)) (x7 : (⟨S128x64, .f32⟩ : BufTy).Contents (Elt F)) (x8 : (⟨S64, .f32⟩ : BufTy).Contents (Elt F)) (x9 : (⟨S64x4, .f32⟩ : BufTy).Contents (Elt F)) (x10 : (⟨S4, .f32⟩ : BufTy).Contents (Elt F)) (x11 x12 x13 x14 : (⟨S2000000, .i32⟩ : BufTy).Contents (Elt F)) (x15 x16 x17 x18 : (⟨S100000, .i32⟩ : BufTy).Contents (Elt F)) (x19 x20 x21 x22 : (⟨S200000, .i32⟩ : BufTy).Contents (Elt F)) (x23 x24 : (⟨S100000, .i32⟩ : BufTy).Contents (Elt F))

/-- A buffer the piece does not write keeps its contents through it. -/
theorem c1_keep (r : Ref sig .tc) (h : r ∉ c1_W) : after c1 W (Proc.devRef .tc r) = W (Proc.devRef .tc r) :=
  after_of_writes_sub c1 W c1_writes h

/-- The arguments are as they were. -/
theorem step1_args (ha : ArgsAt W x0 x1 x2 x3 x4 x5 x6 x7 x8 x9 x10 x11 x12 x13 x14 x15 x16 x17 x18 x19 x20 x21 x22 x23 x24) : ArgsAt (after c1 W) x0 x1 x2 x3 x4 x5 x6 x7 x8 x9 x10 x11 x12 x13 x14 x15 x16 x17 x18 x19 x20 x21 x22 x23 x24 :=
  ⟨(c1_keep W main_arg0 (by decide)).trans ha.at_main_arg0,
   (c1_keep W main_arg1 (by decide)).trans ha.at_main_arg1,
   (c1_keep W main_arg2 (by decide)).trans ha.at_main_arg2,
   (c1_keep W main_arg3 (by decide)).trans ha.at_main_arg3,
   (c1_keep W main_arg4 (by decide)).trans ha.at_main_arg4,
   (c1_keep W main_arg5 (by decide)).trans ha.at_main_arg5,
   (c1_keep W main_arg6 (by decide)).trans ha.at_main_arg6,
   (c1_keep W main_arg7 (by decide)).trans ha.at_main_arg7,
   (c1_keep W main_arg8 (by decide)).trans ha.at_main_arg8,
   (c1_keep W main_arg9 (by decide)).trans ha.at_main_arg9,
   (c1_keep W main_arg10 (by decide)).trans ha.at_main_arg10,
   (c1_keep W main_arg11 (by decide)).trans ha.at_main_arg11,
   (c1_keep W main_arg12 (by decide)).trans ha.at_main_arg12,
   (c1_keep W main_arg13 (by decide)).trans ha.at_main_arg13,
   (c1_keep W main_arg14 (by decide)).trans ha.at_main_arg14,
   (c1_keep W main_arg15 (by decide)).trans ha.at_main_arg15,
   (c1_keep W main_arg16 (by decide)).trans ha.at_main_arg16,
   (c1_keep W main_arg17 (by decide)).trans ha.at_main_arg17,
   (c1_keep W main_arg18 (by decide)).trans ha.at_main_arg18,
   (c1_keep W main_arg19 (by decide)).trans ha.at_main_arg19,
   (c1_keep W main_arg20 (by decide)).trans ha.at_main_arg20,
   (c1_keep W main_arg21 (by decide)).trans ha.at_main_arg21,
   (c1_keep W main_arg22 (by decide)).trans ha.at_main_arg22,
   (c1_keep W main_arg23 (by decide)).trans ha.at_main_arg23,
   (c1_keep W main_arg24 (by decide)).trans ha.at_main_arg24⟩

set_option maxHeartbeats 2000000 in
/-- `main_v67` after the piece: its stage. -/
theorem step1_main_v67 (ha : ArgsAt W x0 x1 x2 x3 x4 x5 x6 x7 x8 x9 x10 x11 x12 x13 x14 x15 x16 x17 x18 x19 x20 x21 x22 x23 x24) (hl : Live1 W x0 x1 x2 x3 x4 x5 x6 x7 x8 x9 x10 x11 x12 x13 x14 x15 x16 x17 x18 x19 x20 x21 x22 x23 x24) :
    after c1 W (Proc.devRef .tc main_v67) = val_main_v67 (F := F) x0 x1 x4 x5 x6 x13 x14 := by
  simp only [c1]
  after_results_simp
  simp only [ha.at_main_arg6, ha.at_main_arg1, ha.at_main_arg5, ha.at_main_arg4, ha.at_main_arg14, ha.at_main_arg13, ha.at_main_arg0, hl.at_main_v1]
  rfl

/-- Every buffer live after the piece holds its stage. -/
theorem step1 (ha : ArgsAt W x0 x1 x2 x3 x4 x5 x6 x7 x8 x9 x10 x11 x12 x13 x14 x15 x16 x17 x18 x19 x20 x21 x22 x23 x24) (hl : Live1 W x0 x1 x2 x3 x4 x5 x6 x7 x8 x9 x10 x11 x12 x13 x14 x15 x16 x17 x18 x19 x20 x21 x22 x23 x24) : Live2 (after c1 W) x0 x1 x2 x3 x4 x5 x6 x7 x8 x9 x10 x11 x12 x13 x14 x15 x16 x17 x18 x19 x20 x21 x22 x23 x24 :=
  ⟨(c1_keep W main_v2 (by decide)).trans hl.at_main_v2,
   (c1_keep W main_v3 (by decide)).trans hl.at_main_v3,
   (c1_keep W main_v35 (by decide)).trans hl.at_main_v35,
   step1_main_v67 W x0 x1 x2 x3 x4 x5 x6 x7 x8 x9 x10 x11 x12 x13 x14 x15 x16 x17 x18 x19 x20 x21 x22 x23 x24 ha hl⟩

end Cert.ReferenceIdeal.Chunks

end
-- ==== Proof.RefChunks.C2.lean ====
/- The reference program's run, read back in pieces: piece 2, operations 84 … 121 of @main's 514.
   Running the piece from contents in which the arguments hold x0 … x24 and the buffers live at operation 84 hold their stages
   leaves the arguments as they were (no operation writes one) and every buffer live at operation 122 at its stage: a buffer
   the piece does not write keeps its contents; a buffer it writes holds its operation's function of its operands' contents,
   the operands read off the same way down to the buffers written before the piece, where the hypothesis says what they hold. -/
import proofs.«154750_j39152921870699_1_alg».proof.Proof.RefChunks.Inv

noncomputable section

namespace Cert.ReferenceIdeal.Chunks

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- Operations 84 … 121 of the reference's @main, as printed. -/
abbrev c2 : List (HloOp τ sig (Elt F)) :=
  [ unary main_arg4 main_v68 ((extractStridedSlice S1x1x64x64 ![0, 2, 0, 0] · slices_S2x6x64x64_S1x1x64x64_0_2_0_0) : (⟨S2x6x64x64, .f32⟩ : BufTy).Contents (Elt F) → (⟨S1x1x64x64, .f32⟩ : BufTy).Contents (Elt F)),
    reshape main_v68 main_v69 rfl shapeCasts_S1x1x64x64_S64x64,
    unary main_arg5 main_v70 ((extractStridedSlice S1x1x64 ![0, 2, 0] · slices_S2x6x64_S1x1x64_0_2_0) : (⟨S2x6x64, .f32⟩ : BufTy).Contents (Elt F) → (⟨S1x1x64, .f32⟩ : BufTy).Contents (Elt F)),
    reshape main_v70 main_v71 rfl shapeCasts_S1x1x64_S64,
    unary main_arg6 main_v72 ((extractStridedSlice S1x1x64x64 ![0, 2, 0, 0] · slices_S2x6x64x64_S1x1x64x64_0_2_0_0) : (⟨S2x6x64x64, .f32⟩ : BufTy).Contents (Elt F) → (⟨S1x1x64x64, .f32⟩ : BufTy).Contents (Elt F)),
    reshape main_v72 main_v73 rfl shapeCasts_S1x1x64x64_S64x64,
    nullary main_c_14 (constantI S_ 32 0#32),
    unary main_c_14 main_v74 (broadcastInDim S100000 ![] bcast_S_S100000 : (⟨S_, .i32⟩ : BufTy).Contents (Elt F) → (⟨S100000, .i32⟩ : BufTy).Contents (Elt F)),
    binary main_arg15 main_v74 main_v75 (cmpi .slt : (⟨S100000, .i32⟩ : BufTy).Contents (Elt F) → (⟨S100000, .i32⟩ : BufTy).Contents (Elt F) → (⟨S100000, .i1⟩ : BufTy).Contents (Elt F)),
    nullary main_c_15 (constantI S_ 32 50000#32),
    unary main_c_15 main_v76 (broadcastInDim S100000 ![] bcast_S_S100000 : (⟨S_, .i32⟩ : BufTy).Contents (Elt F) → (⟨S100000, .i32⟩ : BufTy).Contents (Elt F)),
    binary main_arg15 main_v76 main_v77 (addi : (⟨S100000, .i32⟩ : BufTy).Contents (Elt F) → (⟨S100000, .i32⟩ : BufTy).Contents (Elt F) → (⟨S100000, .i32⟩ : BufTy).Contents (Elt F)),
    ternary main_v75 main_v77 main_arg15 main_v78 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v78 main_v79 (broadcastInDim S100000x1 ![0] bcast_S100000_S100000x1_0 : (⟨S100000, .i32⟩ : BufTy).Contents (Elt F) → (⟨S100000x1, .i32⟩ : BufTy).Contents (Elt F)),
    binary main_arg1 main_v79 main_v80 ((fun x i => Host.gather gather_S50000x64_S100000x1_S100000x64_1_0_n_n_0_1_164 x i) : (⟨S50000x64, .f32⟩ : BufTy).Contents (Elt F) → (⟨S100000x1, .i32⟩ : BufTy).Contents (Elt F) → (⟨S100000x64, .f32⟩ : BufTy).Contents (Elt F)),
    nullary main_cst_16 (constant S_ .f32 0x00000000#32),
    unary main_cst_16 main_v81 (broadcastInDim S2000x64 ![] bcast_S_S2000x64 : (⟨S_, .f32⟩ : BufTy).Contents (Elt F) → (⟨S2000x64, .f32⟩ : BufTy).Contents (Elt F)),
    unary main_arg16 main_v82 (broadcastInDim S100000x1 ![0] bcast_S100000_S100000x1_0 : (⟨S100000, .i32⟩ : BufTy).Contents (Elt F) → (⟨S100000x1, .i32⟩ : BufTy).Contents (Elt F)),
    ternary main_v81 main_v82 main_v80 main_v83 ((fun x i u => Host.scatterAdd scatter_S2000x64_S100000x1_S100000x64_1_0_0_1 x i u) : (⟨S2000x64, .f32⟩ : BufTy).Contents (Elt F) → (⟨S100000x1, .i32⟩ : BufTy).Contents (Elt F) → (⟨S100000x64, .f32⟩ : BufTy).Contents (Elt F) → (⟨S2000x64, .f32⟩ : BufTy).Contents (Elt F)),
    nullary main_cst_17 (constant S_ .f32 0x3F800000#32),
    unary main_cst_17 main_v84 (broadcastInDim S100000 ![] bcast_S_S100000 : (⟨S_, .f32⟩ : BufTy).Contents (Elt F) → (⟨S100000, .f32⟩ : BufTy).Contents (Elt F)),
    nullary main_cst_18 (constant S_ .f32 0x00000000#32),
    unary main_cst_18 main_v85 (broadcastInDim S2000 ![] bcast_S_S2000 : (⟨S_, .f32⟩ : BufTy).Contents (Elt F) → (⟨S2000, .f32⟩ : BufTy).Contents (Elt F)),
    unary main_arg16 main_v86 (broadcastInDim S100000x1 ![0] bcast_S100000_S100000x1_0 : (⟨S100000, .i32⟩ : BufTy).Contents (Elt F) → (⟨S100000x1, .i32⟩ : BufTy).Contents (Elt F)),
    ternary main_v85 main_v86 main_v84 main_v87 ((fun x i u => Host.scatterAdd scatter_S2000_S100000x1_S100000_n_0_0_1 x i u) : (⟨S2000, .f32⟩ : BufTy).Contents (Elt F) → (⟨S100000x1, .i32⟩ : BufTy).Contents (Elt F) → (⟨S100000, .f32⟩ : BufTy).Contents (Elt F) → (⟨S2000, .f32⟩ : BufTy).Contents (Elt F)),
    nullary main_cst_19 (constant S_ .f32 0x3F800000#32),
    unary main_cst_19 main_v88 (broadcastInDim S2000 ![] bcast_S_S2000 : (⟨S_, .f32⟩ : BufTy).Contents (Elt F) → (⟨S2000, .f32⟩ : BufTy).Contents (Elt F)),
    binary main_v87 main_v88 main_v89 (maximumf : (⟨S2000, .f32⟩ : BufTy).Contents (Elt F) → (⟨S2000, .f32⟩ : BufTy).Contents (Elt F) → (⟨S2000, .f32⟩ : BufTy).Contents (Elt F)),
    unary main_v89 main_v90 (broadcastInDim S2000x1 ![0] bcast_S2000_S2000x1_0 : (⟨S2000, .f32⟩ : BufTy).Contents (Elt F) → (⟨S2000x1, .f32⟩ : BufTy).Contents (Elt F)),
    unary main_v90 main_v91 (broadcastInDim S2000x64 ![0, 1] bcast_S2000x1_S2000x64_0_1 : (⟨S2000x1, .f32⟩ : BufTy).Contents (Elt F) → (⟨S2000x64, .f32⟩ : BufTy).Contents (Elt F)),
    binary main_v83 main_v91 main_v92 (Host.divf : (⟨S2000x64, .f32⟩ : BufTy).Contents (Elt F) → (⟨S2000x64, .f32⟩ : BufTy).Contents (Elt F) → (⟨S2000x64, .f32⟩ : BufTy).Contents (Elt F)),
    binary main_v92 main_v69 main_v93 ((fun l r => Host.dotGeneral dot_S2000x64_S64x64_S2000x64_1_0_0_1_n_n none l r) : (⟨S2000x64, .f32⟩ : BufTy).Contents (Elt F) → (⟨S64x64, .f32⟩ : BufTy).Contents (Elt F) → (⟨S2000x64, .f32⟩ : BufTy).Contents (Elt F)),
    unary main_v71 main_v94 (broadcastInDim S1x64 ![1] bcast_S64_S1x64_1 : (⟨S64, .f32⟩ : BufTy).Contents (Elt F) → (⟨S1x64, .f32⟩ : BufTy).Contents (Elt F)),
    unary main_v94 main_v95 (broadcastInDim S2000x64 ![0, 1] bcast_S1x64_S2000x64_0_1 : (⟨S1x64, .f32⟩ : BufTy).Contents (Elt F) → (⟨S2000x64, .f32⟩ : BufTy).Contents (Elt F)),
    binary main_v93 main_v95 main_v96 (addf : (⟨S2000x64, .f32⟩ : BufTy).Contents (Elt F) → (⟨S2000x64, .f32⟩ : BufTy).Contents (Elt F) → (⟨S2000x64, .f32⟩ : BufTy).Contents (Elt F)),
    binary main_arg2 main_v73 main_v97 ((fun l r => Host.dotGeneral dot_S2000x64_S64x64_S2000x64_1_0_0_1_n_n none l r) : (⟨S2000x64, .f32⟩ : BufTy).Contents (Elt F) → (⟨S64x64, .f32⟩ : BufTy).Contents (Elt F) → (⟨S2000x64, .f32⟩ : BufTy).Contents (Elt F)),
    binary main_v96 main_v97 main_v98 (addf : (⟨S2000x64, .f32⟩ : BufTy).Contents (Elt F) → (⟨S2000x64, .f32⟩ : BufTy).Contents (Elt F) → (⟨S2000x64, .f32⟩ : BufTy).Contents (Elt F)),
    binary main_v2 main_v98 main_v99 (addf : (⟨S2000x64, .f32⟩ : BufTy).Contents (Elt F) → (⟨S2000x64, .f32⟩ : BufTy).Contents (Elt F) → (⟨S2000x64, .f32⟩ : BufTy).Contents (Elt F)) ]

/-- The buffers these operations write. -/
abbrev c2_W : List (Ref sig .tc) := [main_v68, main_v69, main_v70, main_v71, main_v72, main_v73, main_c_14, main_v74, main_v75, main_c_15, main_v76, main_v77, main_v78, main_v79, main_v80, main_cst_16, main_v81, main_v82, main_v83, main_cst_17, main_v84, main_cst_18, main_v85, main_v86, main_v87, main_cst_19, main_v88, main_v89, main_v90, main_v91, main_v92, main_v93, main_v94, main_v95, main_v96, main_v97, main_v98, main_v99]

theorem c2_writes : (c2 : List (HloOp τ sig (Elt F))).Forall fun op => op.writes ⊆ (c2_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

variable (W : Valuation τ sig (Elt F)) (x0 : (⟨S100000x64, .f32⟩ : BufTy).Contents (Elt F)) (x1 : (⟨S50000x64, .f32⟩ : BufTy).Contents (Elt F)) (x2 : (⟨S2000x64, .f32⟩ : BufTy).Contents (Elt F)) (x3 : (⟨S5000x64, .f32⟩ : BufTy).Contents (Elt F)) (x4 : (⟨S2x6x64x64, .f32⟩ : BufTy).Contents (Elt F)) (x5 : (⟨S2x6x64, .f32⟩ : BufTy).Contents (Elt F)) (x6 : (⟨S2x6x64x64, .f32⟩ : BufTy).Contents (Elt F)) (x7 : (⟨S128x64, .f32⟩ : BufTy).Contents (Elt F)) (x8 : (⟨S64, .f32⟩ : BufTy).Contents (Elt F)) (x9 : (⟨S64x4, .f32⟩ : BufTy).Contents (Elt F)) (x10 : (⟨S4, .f32⟩ : BufTy).Contents (Elt F)) (x11 x12 x13 x14 : (⟨S2000000, .i32⟩ : BufTy).Contents (Elt F)) (x15 x16 x17 x18 : (⟨S100000, .i32⟩ : BufTy).Contents (Elt F)) (x19 x20 x21 x22 : (⟨S200000, .i32⟩ : BufTy).Contents (Elt F)) (x23 x24 : (⟨S100000, .i32⟩ : BufTy).Contents (Elt F))

/-- A buffer the piece does not write keeps its contents through it. -/
theorem c2_keep (r : Ref sig .tc) (h : r ∉ c2_W) : after c2 W (Proc.devRef .tc r) = W (Proc.devRef .tc r) :=
  after_of_writes_sub c2 W c2_writes h

/-- The arguments are as they were. -/
theorem step2_args (ha : ArgsAt W x0 x1 x2 x3 x4 x5 x6 x7 x8 x9 x10 x11 x12 x13 x14 x15 x16 x17 x18 x19 x20 x21 x22 x23 x24) : ArgsAt (after c2 W) x0 x1 x2 x3 x4 x5 x6 x7 x8 x9 x10 x11 x12 x13 x14 x15 x16 x17 x18 x19 x20 x21 x22 x23 x24 :=
  ⟨(c2_keep W main_arg0 (by decide)).trans ha.at_main_arg0,
   (c2_keep W main_arg1 (by decide)).trans ha.at_main_arg1,
   (c2_keep W main_arg2 (by decide)).trans ha.at_main_arg2,
   (c2_keep W main_arg3 (by decide)).trans ha.at_main_arg3,
   (c2_keep W main_arg4 (by decide)).trans ha.at_main_arg4,
   (c2_keep W main_arg5 (by decide)).trans ha.at_main_arg5,
   (c2_keep W main_arg6 (by decide)).trans ha.at_main_arg6,
   (c2_keep W main_arg7 (by decide)).trans ha.at_main_arg7,
   (c2_keep W main_arg8 (by decide)).trans ha.at_main_arg8,
   (c2_keep W main_arg9 (by decide)).trans ha.at_main_arg9,
   (c2_keep W main_arg10 (by decide)).trans ha.at_main_arg10,
   (c2_keep W main_arg11 (by decide)).trans ha.at_main_arg11,
   (c2_keep W main_arg12 (by decide)).trans ha.at_main_arg12,
   (c2_keep W main_arg13 (by decide)).trans ha.at_main_arg13,
   (c2_keep W main_arg14 (by decide)).trans ha.at_main_arg14,
   (c2_keep W main_arg15 (by decide)).trans ha.at_main_arg15,
   (c2_keep W main_arg16 (by decide)).trans ha.at_main_arg16,
   (c2_keep W main_arg17 (by decide)).trans ha.at_main_arg17,
   (c2_keep W main_arg18 (by decide)).trans ha.at_main_arg18,
   (c2_keep W main_arg19 (by decide)).trans ha.at_main_arg19,
   (c2_keep W main_arg20 (by decide)).trans ha.at_main_arg20,
   (c2_keep W main_arg21 (by decide)).trans ha.at_main_arg21,
   (c2_keep W main_arg22 (by decide)).trans ha.at_main_arg22,
   (c2_keep W main_arg23 (by decide)).trans ha.at_main_arg23,
   (c2_keep W main_arg24 (by decide)).trans ha.at_main_arg24⟩

set_option maxHeartbeats 2000000 in
/-- `main_v99` after the piece: its stage. -/
theorem step2_main_v99 (ha : ArgsAt W x0 x1 x2 x3 x4 x5 x6 x7 x8 x9 x10 x11 x12 x13 x14 x15 x16 x17 x18 x19 x20 x21 x22 x23 x24) (hl : Live2 W x0 x1 x2 x3 x4 x5 x6 x7 x8 x9 x10 x11 x12 x13 x14 x15 x16 x17 x18 x19 x20 x21 x22 x23 x24) :
    after c2 W (Proc.devRef .tc main_v99) = val_main_v99 (F := F) x1 x2 x4 x5 x6 x15 x16 := by
  simp only [c2]
  after_results_simp
  simp only [ha.at_main_arg6, ha.at_main_arg2, ha.at_main_arg5, ha.at_main_arg4, ha.at_main_arg16, ha.at_main_arg15, ha.at_main_arg1, hl.at_main_v2]
  rfl

/-- Every buffer live after the piece holds its stage. -/
theorem step2 (ha : ArgsAt W x0 x1 x2 x3 x4 x5 x6 x7 x8 x9 x10 x11 x12 x13 x14 x15 x16 x17 x18 x19 x20 x21 x22 x23 x24) (hl : Live2 W x0 x1 x2 x3 x4 x5 x6 x7 x8 x9 x10 x11 x12 x13 x14 x15 x16 x17 x18 x19 x20 x21 x22 x23 x24) : Live3 (after c2 W) x0 x1 x2 x3 x4 x5 x6 x7 x8 x9 x10 x11 x12 x13 x14 x15 x16 x17 x18 x19 x20 x21 x22 x23 x24 :=
  ⟨(c2_keep W main_v3 (by decide)).trans hl.at_main_v3,
   (c2_keep W main_v35 (by decide)).trans hl.at_main_v35,
   (c2_keep W main_v67 (by decide)).trans hl.at_main_v67,
   step2_main_v99 W x0 x1 x2 x3 x4 x5 x6 x7 x8 x9 x10 x11 x12 x13 x14 x15 x16 x17 x18 x19 x20 x21 x22 x23 x24 ha hl⟩

end Cert.ReferenceIdeal.Chunks

end
-- ==== Proof.RefChunks.C3.lean ====
/- The reference program's run, read back in pieces: piece 3, operations 122 … 159 of @main's 514.
   Running the piece from contents in which the arguments hold x0 … x24 and the buffers live at operation 122 hold their stages
   leaves the arguments as they were (no operation writes one) and every buffer live at operation 160 at its stage: a buffer
   the piece does not write keeps its contents; a buffer it writes holds its operation's function of its operands' contents,
   the operands read off the same way down to the buffers written before the piece, where the hypothesis says what they hold. -/
import proofs.«154750_j39152921870699_1_alg».proof.Proof.RefChunks.Inv

noncomputable section

namespace Cert.ReferenceIdeal.Chunks

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- Operations 122 … 159 of the reference's @main, as printed. -/
abbrev c3 : List (HloOp τ sig (Elt F)) :=
  [ unary main_arg4 main_v100 ((extractStridedSlice S1x1x64x64 ![0, 3, 0, 0] · slices_S2x6x64x64_S1x1x64x64_0_3_0_0) : (⟨S2x6x64x64, .f32⟩ : BufTy).Contents (Elt F) → (⟨S1x1x64x64, .f32⟩ : BufTy).Contents (Elt F)),
    reshape main_v100 main_v101 rfl shapeCasts_S1x1x64x64_S64x64,
    unary main_arg5 main_v102 ((extractStridedSlice S1x1x64 ![0, 3, 0] · slices_S2x6x64_S1x1x64_0_3_0) : (⟨S2x6x64, .f32⟩ : BufTy).Contents (Elt F) → (⟨S1x1x64, .f32⟩ : BufTy).Contents (Elt F)),
    reshape main_v102 main_v103 rfl shapeCasts_S1x1x64_S64,
    unary main_arg6 main_v104 ((extractStridedSlice S1x1x64x64 ![0, 3, 0, 0] · slices_S2x6x64x64_S1x1x64x64_0_3_0_0) : (⟨S2x6x64x64, .f32⟩ : BufTy).Contents (Elt F) → (⟨S1x1x64x64, .f32⟩ : BufTy).Contents (Elt F)),
    reshape main_v104 main_v105 rfl shapeCasts_S1x1x64x64_S64x64,
    nullary main_c_20 (constantI S_ 32 0#32),
    unary main_c_20 main_v106 (broadcastInDim S100000 ![] bcast_S_S100000 : (⟨S_, .i32⟩ : BufTy).Contents (Elt F) → (⟨S100000, .i32⟩ : BufTy).Contents (Elt F)),
    binary main_arg17 main_v106 main_v107 (cmpi .slt : (⟨S100000, .i32⟩ : BufTy).Contents (Elt F) → (⟨S100000, .i32⟩ : BufTy).Contents (Elt F) → (⟨S100000, .i1⟩ : BufTy).Contents (Elt F)),
    nullary main_c_21 (constantI S_ 32 2000#32),
    unary main_c_21 main_v108 (broadcastInDim S100000 ![] bcast_S_S100000 : (⟨S_, .i32⟩ : BufTy).Contents (Elt F) → (⟨S100000, .i32⟩ : BufTy).Contents (Elt F)),
    binary main_arg17 main_v108 main_v109 (addi : (⟨S100000, .i32⟩ : BufTy).Contents (Elt F) → (⟨S100000, .i32⟩ : BufTy).Contents (Elt F) → (⟨S100000, .i32⟩ : BufTy).Contents (Elt F)),
    ternary main_v107 main_v109 main_arg17 main_v110 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v110 main_v111 (broadcastInDim S100000x1 ![0] bcast_S100000_S100000x1_0 : (⟨S100000, .i32⟩ : BufTy).Contents (Elt F) → (⟨S100000x1, .i32⟩ : BufTy).Contents (Elt F)),
    binary main_arg2 main_v111 main_v112 ((fun x i => Host.gather gather_S2000x64_S100000x1_S100000x64_1_0_n_n_0_1_164 x i) : (⟨S2000x64, .f32⟩ : BufTy).Contents (Elt F) → (⟨S100000x1, .i32⟩ : BufTy).Contents (Elt F) → (⟨S100000x64, .f32⟩ : BufTy).Contents (Elt F)),
    nullary main_cst_22 (constant S_ .f32 0x00000000#32),
    unary main_cst_22 main_v113 (broadcastInDim S50000x64 ![] bcast_S_S50000x64 : (⟨S_, .f32⟩ : BufTy).Contents (Elt F) → (⟨S50000x64, .f32⟩ : BufTy).Contents (Elt F)),
    unary main_arg18 main_v114 (broadcastInDim S100000x1 ![0] bcast_S100000_S100000x1_0 : (⟨S100000, .i32⟩ : BufTy).Contents (Elt F) → (⟨S100000x1, .i32⟩ : BufTy).Contents (Elt F)),
    ternary main_v113 main_v114 main_v112 main_v115 ((fun x i u => Host.scatterAdd scatter_S50000x64_S100000x1_S100000x64_1_0_0_1 x i u) : (⟨S50000x64, .f32⟩ : BufTy).Contents (Elt F) → (⟨S100000x1, .i32⟩ : BufTy).Contents (Elt F) → (⟨S100000x64, .f32⟩ : BufTy).Contents (Elt F) → (⟨S50000x64, .f32⟩ : BufTy).Contents (Elt F)),
    nullary main_cst_23 (constant S_ .f32 0x3F800000#32),
    unary main_cst_23 main_v116 (broadcastInDim S100000 ![] bcast_S_S100000 : (⟨S_, .f32⟩ : BufTy).Contents (Elt F) → (⟨S100000, .f32⟩ : BufTy).Contents (Elt F)),
    nullary main_cst_24 (constant S_ .f32 0x00000000#32),
    unary main_cst_24 main_v117 (broadcastInDim S50000 ![] bcast_S_S50000 : (⟨S_, .f32⟩ : BufTy).Contents (Elt F) → (⟨S50000, .f32⟩ : BufTy).Contents (Elt F)),
    unary main_arg18 main_v118 (broadcastInDim S100000x1 ![0] bcast_S100000_S100000x1_0 : (⟨S100000, .i32⟩ : BufTy).Contents (Elt F) → (⟨S100000x1, .i32⟩ : BufTy).Contents (Elt F)),
    ternary main_v117 main_v118 main_v116 main_v119 ((fun x i u => Host.scatterAdd scatter_S50000_S100000x1_S100000_n_0_0_1 x i u) : (⟨S50000, .f32⟩ : BufTy).Contents (Elt F) → (⟨S100000x1, .i32⟩ : BufTy).Contents (Elt F) → (⟨S100000, .f32⟩ : BufTy).Contents (Elt F) → (⟨S50000, .f32⟩ : BufTy).Contents (Elt F)),
    nullary main_cst_25 (constant S_ .f32 0x3F800000#32),
    unary main_cst_25 main_v120 (broadcastInDim S50000 ![] bcast_S_S50000 : (⟨S_, .f32⟩ : BufTy).Contents (Elt F) → (⟨S50000, .f32⟩ : BufTy).Contents (Elt F)),
    binary main_v119 main_v120 main_v121 (maximumf : (⟨S50000, .f32⟩ : BufTy).Contents (Elt F) → (⟨S50000, .f32⟩ : BufTy).Contents (Elt F) → (⟨S50000, .f32⟩ : BufTy).Contents (Elt F)),
    unary main_v121 main_v122 (broadcastInDim S50000x1 ![0] bcast_S50000_S50000x1_0 : (⟨S50000, .f32⟩ : BufTy).Contents (Elt F) → (⟨S50000x1, .f32⟩ : BufTy).Contents (Elt F)),
    unary main_v122 main_v123 (broadcastInDim S50000x64 ![0, 1] bcast_S50000x1_S50000x64_0_1 : (⟨S50000x1, .f32⟩ : BufTy).Contents (Elt F) → (⟨S50000x64, .f32⟩ : BufTy).Contents (Elt F)),
    binary main_v115 main_v123 main_v124 (Host.divf : (⟨S50000x64, .f32⟩ : BufTy).Contents (Elt F) → (⟨S50000x64, .f32⟩ : BufTy).Contents (Elt F) → (⟨S50000x64, .f32⟩ : BufTy).Contents (Elt F)),
    binary main_v124 main_v101 main_v125 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_v103 main_v126 (broadcastInDim S1x64 ![1] bcast_S64_S1x64_1 : (⟨S64, .f32⟩ : BufTy).Contents (Elt F) → (⟨S1x64, .f32⟩ : BufTy).Contents (Elt F)),
    unary main_v126 main_v127 (broadcastInDim S50000x64 ![0, 1] bcast_S1x64_S50000x64_0_1 : (⟨S1x64, .f32⟩ : BufTy).Contents (Elt F) → (⟨S50000x64, .f32⟩ : BufTy).Contents (Elt F)),
    binary main_v125 main_v127 main_v128 (addf : (⟨S50000x64, .f32⟩ : BufTy).Contents (Elt F) → (⟨S50000x64, .f32⟩ : BufTy).Contents (Elt F) → (⟨S50000x64, .f32⟩ : BufTy).Contents (Elt F)),
    binary main_arg1 main_v105 main_v129 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v128 main_v129 main_v130 (addf : (⟨S50000x64, .f32⟩ : BufTy).Contents (Elt F) → (⟨S50000x64, .f32⟩ : BufTy).Contents (Elt F) → (⟨S50000x64, .f32⟩ : BufTy).Contents (Elt F)),
    binary main_v67 main_v130 main_v131 (addf : (⟨S50000x64, .f32⟩ : BufTy).Contents (Elt F) → (⟨S50000x64, .f32⟩ : BufTy).Contents (Elt F) → (⟨S50000x64, .f32⟩ : BufTy).Contents (Elt F)) ]

/-- The buffers these operations write. -/
abbrev c3_W : List (Ref sig .tc) := [main_v100, main_v101, main_v102, main_v103, main_v104, main_v105, main_c_20, main_v106, main_v107, main_c_21, main_v108, main_v109, main_v110, main_v111, main_v112, main_cst_22, main_v113, main_v114, main_v115, main_cst_23, main_v116, main_cst_24, main_v117, main_v118, main_v119, main_cst_25, main_v120, main_v121, main_v122, main_v123, main_v124, main_v125, main_v126, main_v127, main_v128, main_v129, main_v130, main_v131]

theorem c3_writes : (c3 : List (HloOp τ sig (Elt F))).Forall fun op => op.writes ⊆ (c3_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

variable (W : Valuation τ sig (Elt F)) (x0 : (⟨S100000x64, .f32⟩ : BufTy).Contents (Elt F)) (x1 : (⟨S50000x64, .f32⟩ : BufTy).Contents (Elt F)) (x2 : (⟨S2000x64, .f32⟩ : BufTy).Contents (Elt F)) (x3 : (⟨S5000x64, .f32⟩ : BufTy).Contents (Elt F)) (x4 : (⟨S2x6x64x64, .f32⟩ : BufTy).Contents (Elt F)) (x5 : (⟨S2x6x64, .f32⟩ : BufTy).Contents (Elt F)) (x6 : (⟨S2x6x64x64, .f32⟩ : BufTy).Contents (Elt F)) (x7 : (⟨S128x64, .f32⟩ : BufTy).Contents (Elt F)) (x8 : (⟨S64, .f32⟩ : BufTy).Contents (Elt F)) (x9 : (⟨S64x4, .f32⟩ : BufTy).Contents (Elt F)) (x10 : (⟨S4, .f32⟩ : BufTy).Contents (Elt F)) (x11 x12 x13 x14 : (⟨S2000000, .i32⟩ : BufTy).Contents (Elt F)) (x15 x16 x17 x18 : (⟨S100000, .i32⟩ : BufTy).Contents (Elt F)) (x19 x20 x21 x22 : (⟨S200000, .i32⟩ : BufTy).Contents (Elt F)) (x23 x24 : (⟨S100000, .i32⟩ : BufTy).Contents (Elt F))

/-- A buffer the piece does not write keeps its contents through it. -/
theorem c3_keep (r : Ref sig .tc) (h : r ∉ c3_W) : after c3 W (Proc.devRef .tc r) = W (Proc.devRef .tc r) :=
  after_of_writes_sub c3 W c3_writes h

/-- The arguments are as they were. -/
theorem step3_args (ha : ArgsAt W x0 x1 x2 x3 x4 x5 x6 x7 x8 x9 x10 x11 x12 x13 x14 x15 x16 x17 x18 x19 x20 x21 x22 x23 x24) : ArgsAt (after c3 W) x0 x1 x2 x3 x4 x5 x6 x7 x8 x9 x10 x11 x12 x13 x14 x15 x16 x17 x18 x19 x20 x21 x22 x23 x24 :=
  ⟨(c3_keep W main_arg0 (by decide)).trans ha.at_main_arg0,
   (c3_keep W main_arg1 (by decide)).trans ha.at_main_arg1,
   (c3_keep W main_arg2 (by decide)).trans ha.at_main_arg2,
   (c3_keep W main_arg3 (by decide)).trans ha.at_main_arg3,
   (c3_keep W main_arg4 (by decide)).trans ha.at_main_arg4,
   (c3_keep W main_arg5 (by decide)).trans ha.at_main_arg5,
   (c3_keep W main_arg6 (by decide)).trans ha.at_main_arg6,
   (c3_keep W main_arg7 (by decide)).trans ha.at_main_arg7,
   (c3_keep W main_arg8 (by decide)).trans ha.at_main_arg8,
   (c3_keep W main_arg9 (by decide)).trans ha.at_main_arg9,
   (c3_keep W main_arg10 (by decide)).trans ha.at_main_arg10,
   (c3_keep W main_arg11 (by decide)).trans ha.at_main_arg11,
   (c3_keep W main_arg12 (by decide)).trans ha.at_main_arg12,
   (c3_keep W main_arg13 (by decide)).trans ha.at_main_arg13,
   (c3_keep W main_arg14 (by decide)).trans ha.at_main_arg14,
   (c3_keep W main_arg15 (by decide)).trans ha.at_main_arg15,
   (c3_keep W main_arg16 (by decide)).trans ha.at_main_arg16,
   (c3_keep W main_arg17 (by decide)).trans ha.at_main_arg17,
   (c3_keep W main_arg18 (by decide)).trans ha.at_main_arg18,
   (c3_keep W main_arg19 (by decide)).trans ha.at_main_arg19,
   (c3_keep W main_arg20 (by decide)).trans ha.at_main_arg20,
   (c3_keep W main_arg21 (by decide)).trans ha.at_main_arg21,
   (c3_keep W main_arg22 (by decide)).trans ha.at_main_arg22,
   (c3_keep W main_arg23 (by decide)).trans ha.at_main_arg23,
   (c3_keep W main_arg24 (by decide)).trans ha.at_main_arg24⟩

set_option maxHeartbeats 2000000 in
/-- `main_v131` after the piece: its stage. -/
theorem step3_main_v131 (ha : ArgsAt W x0 x1 x2 x3 x4 x5 x6 x7 x8 x9 x10 x11 x12 x13 x14 x15 x16 x17 x18 x19 x20 x21 x22 x23 x24) (hl : Live3 W x0 x1 x2 x3 x4 x5 x6 x7 x8 x9 x10 x11 x12 x13 x14 x15 x16 x17 x18 x19 x20 x21 x22 x23 x24) :
    after c3 W (Proc.devRef .tc main_v131) = val_main_v131 (F := F) x0 x1 x2 x4 x5 x6 x13 x14 x17 x18 := by
  simp only [c3]
  after_results_simp
  simp only [ha.at_main_arg6, ha.at_main_arg1, ha.at_main_arg5, ha.at_main_arg4, ha.at_main_arg18, ha.at_main_arg17, ha.at_main_arg2, hl.at_main_v67]
  rfl

/-- Every buffer live after the piece holds its stage. -/
theorem step3 (ha : ArgsAt W x0 x1 x2 x3 x4 x5 x6 x7 x8 x9 x10 x11 x12 x13 x14 x15 x16 x17 x18 x19 x20 x21 x22 x23 x24) (hl : Live3 W x0 x1 x2 x3 x4 x5 x6 x7 x8 x9 x10 x11 x12 x13 x14 x15 x16 x17 x18 x19 x20 x21 x22 x23 x24) : Live4 (after c3 W) x0 x1 x2 x3 x4 x5 x6 x7 x8 x9 x10 x11 x12 x13 x14 x15 x16 x17 x18 x19 x20 x21 x22 x23 x24 :=
  ⟨(c3_keep W main_v3 (by decide)).trans hl.at_main_v3,
   (c3_keep W main_v35 (by decide)).trans hl.at_main_v35,
   (c3_keep W main_v99 (by decide)).trans hl.at_main_v99,
   step3_main_v131 W x0 x1 x2 x3 x4 x5 x6 x7 x8 x9 x10 x11 x12 x13 x14 x15 x16 x17 x18 x19 x20 x21 x22 x23 x24 ha hl⟩

end Cert.ReferenceIdeal.Chunks

end
-- ==== Proof.RefChunks.C4.lean ====
/- The reference program's run, read back in pieces: piece 4, operations 160 … 197 of @main's 514.
   Running the piece from contents in which the arguments hold x0 … x24 and the buffers live at operation 160 hold their stages
   leaves the arguments as they were (no operation writes one) and every buffer live at operation 198 at its stage: a buffer
   the piece does not write keeps its contents; a buffer it writes holds its operation's function of its operands' contents,
   the operands read off the same way down to the buffers written before the piece, where the hypothesis says what they hold. -/
import proofs.«154750_j39152921870699_1_alg».proof.Proof.RefChunks.Inv

noncomputable section

namespace Cert.ReferenceIdeal.Chunks

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- Operations 160 … 197 of the reference's @main, as printed. -/
abbrev c4 : List (HloOp τ sig (Elt F)) :=
  [ unary main_arg4 main_v132 ((extractStridedSlice S1x1x64x64 ![0, 4, 0, 0] · slices_S2x6x64x64_S1x1x64x64_0_4_0_0) : (⟨S2x6x64x64, .f32⟩ : BufTy).Contents (Elt F) → (⟨S1x1x64x64, .f32⟩ : BufTy).Contents (Elt F)),
    reshape main_v132 main_v133 rfl shapeCasts_S1x1x64x64_S64x64,
    unary main_arg5 main_v134 ((extractStridedSlice S1x1x64 ![0, 4, 0] · slices_S2x6x64_S1x1x64_0_4_0) : (⟨S2x6x64, .f32⟩ : BufTy).Contents (Elt F) → (⟨S1x1x64, .f32⟩ : BufTy).Contents (Elt F)),
    reshape main_v134 main_v135 rfl shapeCasts_S1x1x64_S64,
    unary main_arg6 main_v136 ((extractStridedSlice S1x1x64x64 ![0, 4, 0, 0] · slices_S2x6x64x64_S1x1x64x64_0_4_0_0) : (⟨S2x6x64x64, .f32⟩ : BufTy).Contents (Elt F) → (⟨S1x1x64x64, .f32⟩ : BufTy).Contents (Elt F)),
    reshape main_v136 main_v137 rfl shapeCasts_S1x1x64x64_S64x64,
    nullary main_c_26 (constantI S_ 32 0#32),
    unary main_c_26 main_v138 (broadcastInDim S200000 ![] bcast_S_S200000 : (⟨S_, .i32⟩ : BufTy).Contents (Elt F) → (⟨S200000, .i32⟩ : BufTy).Contents (Elt F)),
    binary main_arg19 main_v138 main_v139 (cmpi .slt : (⟨S200000, .i32⟩ : BufTy).Contents (Elt F) → (⟨S200000, .i32⟩ : BufTy).Contents (Elt F) → (⟨S200000, .i1⟩ : BufTy).Contents (Elt F)),
    nullary main_c_27 (constantI S_ 32 100000#32),
    unary main_c_27 main_v140 (broadcastInDim S200000 ![] bcast_S_S200000 : (⟨S_, .i32⟩ : BufTy).Contents (Elt F) → (⟨S200000, .i32⟩ : BufTy).Contents (Elt F)),
    binary main_arg19 main_v140 main_v141 (addi : (⟨S200000, .i32⟩ : BufTy).Contents (Elt F) → (⟨S200000, .i32⟩ : BufTy).Contents (Elt F) → (⟨S200000, .i32⟩ : BufTy).Contents (Elt F)),
    ternary main_v139 main_v141 main_arg19 main_v142 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v142 main_v143 (broadcastInDim S200000x1 ![0] bcast_S200000_S200000x1_0 : (⟨S200000, .i32⟩ : BufTy).Contents (Elt F) → (⟨S200000x1, .i32⟩ : BufTy).Contents (Elt F)),
    binary main_arg0 main_v143 main_v144 ((fun x i => Host.gather gather_S100000x64_S200000x1_S200000x64_1_0_n_n_0_1_164 x i) : (⟨S100000x64, .f32⟩ : BufTy).Contents (Elt F) → (⟨S200000x1, .i32⟩ : BufTy).Contents (Elt F) → (⟨S200000x64, .f32⟩ : BufTy).Contents (Elt F)),
    nullary main_cst_28 (constant S_ .f32 0x00000000#32),
    unary main_cst_28 main_v145 (broadcastInDim S5000x64 ![] bcast_S_S5000x64 : (⟨S_, .f32⟩ : BufTy).Contents (Elt F) → (⟨S5000x64, .f32⟩ : BufTy).Contents (Elt F)),
    unary main_arg20 main_v146 (broadcastInDim S200000x1 ![0] bcast_S200000_S200000x1_0 : (⟨S200000, .i32⟩ : BufTy).Contents (Elt F) → (⟨S200000x1, .i32⟩ : BufTy).Contents (Elt F)),
    ternary main_v145 main_v146 main_v144 main_v147 ((fun x i u => Host.scatterAdd scatter_S5000x64_S200000x1_S200000x64_1_0_0_1 x i u) : (⟨S5000x64, .f32⟩ : BufTy).Contents (Elt F) → (⟨S200000x1, .i32⟩ : BufTy).Contents (Elt F) → (⟨S200000x64, .f32⟩ : BufTy).Contents (Elt F) → (⟨S5000x64, .f32⟩ : BufTy).Contents (Elt F)),
    nullary main_cst_29 (constant S_ .f32 0x3F800000#32),
    unary main_cst_29 main_v148 (broadcastInDim S200000 ![] bcast_S_S200000 : (⟨S_, .f32⟩ : BufTy).Contents (Elt F) → (⟨S200000, .f32⟩ : BufTy).Contents (Elt F)),
    nullary main_cst_30 (constant S_ .f32 0x00000000#32),
    unary main_cst_30 main_v149 (broadcastInDim S5000 ![] bcast_S_S5000 : (⟨S_, .f32⟩ : BufTy).Contents (Elt F) → (⟨S5000, .f32⟩ : BufTy).Contents (Elt F)),
    unary main_arg20 main_v150 (broadcastInDim S200000x1 ![0] bcast_S200000_S200000x1_0 : (⟨S200000, .i32⟩ : BufTy).Contents (Elt F) → (⟨S200000x1, .i32⟩ : BufTy).Contents (Elt F)),
    ternary main_v149 main_v150 main_v148 main_v151 ((fun x i u => Host.scatterAdd scatter_S5000_S200000x1_S200000_n_0_0_1 x i u) : (⟨S5000, .f32⟩ : BufTy).Contents (Elt F) → (⟨S200000x1, .i32⟩ : BufTy).Contents (Elt F) → (⟨S200000, .f32⟩ : BufTy).Contents (Elt F) → (⟨S5000, .f32⟩ : BufTy).Contents (Elt F)),
    nullary main_cst_31 (constant S_ .f32 0x3F800000#32),
    unary main_cst_31 main_v152 (broadcastInDim S5000 ![] bcast_S_S5000 : (⟨S_, .f32⟩ : BufTy).Contents (Elt F) → (⟨S5000, .f32⟩ : BufTy).Contents (Elt F)),
    binary main_v151 main_v152 main_v153 (maximumf : (⟨S5000, .f32⟩ : BufTy).Contents (Elt F) → (⟨S5000, .f32⟩ : BufTy).Contents (Elt F) → (⟨S5000, .f32⟩ : BufTy).Contents (Elt F)),
    unary main_v153 main_v154 (broadcastInDim S5000x1 ![0] bcast_S5000_S5000x1_0 : (⟨S5000, .f32⟩ : BufTy).Contents (Elt F) → (⟨S5000x1, .f32⟩ : BufTy).Contents (Elt F)),
    unary main_v154 main_v155 (broadcastInDim S5000x64 ![0, 1] bcast_S5000x1_S5000x64_0_1 : (⟨S5000x1, .f32⟩ : BufTy).Contents (Elt F) → (⟨S5000x64, .f32⟩ : BufTy).Contents (Elt F)),
    binary main_v147 main_v155 main_v156 (Host.divf : (⟨S5000x64, .f32⟩ : BufTy).Contents (Elt F) → (⟨S5000x64, .f32⟩ : BufTy).Contents (Elt F) → (⟨S5000x64, .f32⟩ : BufTy).Contents (Elt F)),
    binary main_v156 main_v133 main_v157 ((fun l r => Host.dotGeneral dot_S5000x64_S64x64_S5000x64_1_0_0_1_n_n none l r) : (⟨S5000x64, .f32⟩ : BufTy).Contents (Elt F) → (⟨S64x64, .f32⟩ : BufTy).Contents (Elt F) → (⟨S5000x64, .f32⟩ : BufTy).Contents (Elt F)),
    unary main_v135 main_v158 (broadcastInDim S1x64 ![1] bcast_S64_S1x64_1 : (⟨S64, .f32⟩ : BufTy).Contents (Elt F) → (⟨S1x64, .f32⟩ : BufTy).Contents (Elt F)),
    unary main_v158 main_v159 (broadcastInDim S5000x64 ![0, 1] bcast_S1x64_S5000x64_0_1 : (⟨S1x64, .f32⟩ : BufTy).Contents (Elt F) → (⟨S5000x64, .f32⟩ : BufTy).Contents (Elt F)),
    binary main_v157 main_v159 main_v160 (addf : (⟨S5000x64, .f32⟩ : BufTy).Contents (Elt F) → (⟨S5000x64, .f32⟩ : BufTy).Contents (Elt F) → (⟨S5000x64, .f32⟩ : BufTy).Contents (Elt F)),
    binary main_arg3 main_v137 main_v161 ((fun l r => Host.dotGeneral dot_S5000x64_S64x64_S5000x64_1_0_0_1_n_n none l r) : (⟨S5000x64, .f32⟩ : BufTy).Contents (Elt F) → (⟨S64x64, .f32⟩ : BufTy).Contents (Elt F) → (⟨S5000x64, .f32⟩ : BufTy).Contents (Elt F)),
    binary main_v160 main_v161 main_v162 (addf : (⟨S5000x64, .f32⟩ : BufTy).Contents (Elt F) → (⟨S5000x64, .f32⟩ : BufTy).Contents (Elt F) → (⟨S5000x64, .f32⟩ : BufTy).Contents (Elt F)),
    binary main_v3 main_v162 main_v163 (addf : (⟨S5000x64, .f32⟩ : BufTy).Contents (Elt F) → (⟨S5000x64, .f32⟩ : BufTy).Contents (Elt F) → (⟨S5000x64, .f32⟩ : BufTy).Contents (Elt F)) ]

/-- The buffers these operations write. -/
abbrev c4_W : List (Ref sig .tc) := [main_v132, main_v133, main_v134, main_v135, main_v136, main_v137, main_c_26, main_v138, main_v139, main_c_27, main_v140, main_v141, main_v142, main_v143, main_v144, main_cst_28, main_v145, main_v146, main_v147, main_cst_29, main_v148, main_cst_30, main_v149, main_v150, main_v151, main_cst_31, main_v152, main_v153, main_v154, main_v155, main_v156, main_v157, main_v158, main_v159, main_v160, main_v161, main_v162, main_v163]

theorem c4_writes : (c4 : List (HloOp τ sig (Elt F))).Forall fun op => op.writes ⊆ (c4_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

variable (W : Valuation τ sig (Elt F)) (x0 : (⟨S100000x64, .f32⟩ : BufTy).Contents (Elt F)) (x1 : (⟨S50000x64, .f32⟩ : BufTy).Contents (Elt F)) (x2 : (⟨S2000x64, .f32⟩ : BufTy).Contents (Elt F)) (x3 : (⟨S5000x64, .f32⟩ : BufTy).Contents (Elt F)) (x4 : (⟨S2x6x64x64, .f32⟩ : BufTy).Contents (Elt F)) (x5 : (⟨S2x6x64, .f32⟩ : BufTy).Contents (Elt F)) (x6 : (⟨S2x6x64x64, .f32⟩ : BufTy).Contents (Elt F)) (x7 : (⟨S128x64, .f32⟩ : BufTy).Contents (Elt F)) (x8 : (⟨S64, .f32⟩ : BufTy).Contents (Elt F)) (x9 : (⟨S64x4, .f32⟩ : BufTy).Contents (Elt F)) (x10 : (⟨S4, .f32⟩ : BufTy).Contents (Elt F)) (x11 x12 x13 x14 : (⟨S2000000, .i32⟩ : BufTy).Contents (Elt F)) (x15 x16 x17 x18 : (⟨S100000, .i32⟩ : BufTy).Contents (Elt F)) (x19 x20 x21 x22 : (⟨S200000, .i32⟩ : BufTy).Contents (Elt F)) (x23 x24 : (⟨S100000, .i32⟩ : BufTy).Contents (Elt F))

/-- A buffer the piece does not write keeps its contents through it. -/
theorem c4_keep (r : Ref sig .tc) (h : r ∉ c4_W) : after c4 W (Proc.devRef .tc r) = W (Proc.devRef .tc r) :=
  after_of_writes_sub c4 W c4_writes h

/-- The arguments are as they were. -/
theorem step4_args (ha : ArgsAt W x0 x1 x2 x3 x4 x5 x6 x7 x8 x9 x10 x11 x12 x13 x14 x15 x16 x17 x18 x19 x20 x21 x22 x23 x24) : ArgsAt (after c4 W) x0 x1 x2 x3 x4 x5 x6 x7 x8 x9 x10 x11 x12 x13 x14 x15 x16 x17 x18 x19 x20 x21 x22 x23 x24 :=
  ⟨(c4_keep W main_arg0 (by decide)).trans ha.at_main_arg0,
   (c4_keep W main_arg1 (by decide)).trans ha.at_main_arg1,
   (c4_keep W main_arg2 (by decide)).trans ha.at_main_arg2,
   (c4_keep W main_arg3 (by decide)).trans ha.at_main_arg3,
   (c4_keep W main_arg4 (by decide)).trans ha.at_main_arg4,
   (c4_keep W main_arg5 (by decide)).trans ha.at_main_arg5,
   (c4_keep W main_arg6 (by decide)).trans ha.at_main_arg6,
   (c4_keep W main_arg7 (by decide)).trans ha.at_main_arg7,
   (c4_keep W main_arg8 (by decide)).trans ha.at_main_arg8,
   (c4_keep W main_arg9 (by decide)).trans ha.at_main_arg9,
   (c4_keep W main_arg10 (by decide)).trans ha.at_main_arg10,
   (c4_keep W main_arg11 (by decide)).trans ha.at_main_arg11,
   (c4_keep W main_arg12 (by decide)).trans ha.at_main_arg12,
   (c4_keep W main_arg13 (by decide)).trans ha.at_main_arg13,
   (c4_keep W main_arg14 (by decide)).trans ha.at_main_arg14,
   (c4_keep W main_arg15 (by decide)).trans ha.at_main_arg15,
   (c4_keep W main_arg16 (by decide)).trans ha.at_main_arg16,
   (c4_keep W main_arg17 (by decide)).trans ha.at_main_arg17,
   (c4_keep W main_arg18 (by decide)).trans ha.at_main_arg18,
   (c4_keep W main_arg19 (by decide)).trans ha.at_main_arg19,
   (c4_keep W main_arg20 (by decide)).trans ha.at_main_arg20,
   (c4_keep W main_arg21 (by decide)).trans ha.at_main_arg21,
   (c4_keep W main_arg22 (by decide)).trans ha.at_main_arg22,
   (c4_keep W main_arg23 (by decide)).trans ha.at_main_arg23,
   (c4_keep W main_arg24 (by decide)).trans ha.at_main_arg24⟩

set_option maxHeartbeats 2000000 in
/-- `main_v163` after the piece: its stage. -/
theorem step4_main_v163 (ha : ArgsAt W x0 x1 x2 x3 x4 x5 x6 x7 x8 x9 x10 x11 x12 x13 x14 x15 x16 x17 x18 x19 x20 x21 x22 x23 x24) (hl : Live4 W x0 x1 x2 x3 x4 x5 x6 x7 x8 x9 x10 x11 x12 x13 x14 x15 x16 x17 x18 x19 x20 x21 x22 x23 x24) :
    after c4 W (Proc.devRef .tc main_v163) = val_main_v163 (F := F) x0 x3 x4 x5 x6 x19 x20 := by
  simp only [c4]
  after_results_simp
  simp only [ha.at_main_arg6, ha.at_main_arg3, ha.at_main_arg5, ha.at_main_arg4, ha.at_main_arg20, ha.at_main_arg19, ha.at_main_arg0, hl.at_main_v3]
  rfl

/-- Every buffer live after the piece holds its stage. -/
theorem step4 (ha : ArgsAt W x0 x1 x2 x3 x4 x5 x6 x7 x8 x9 x10 x11 x12 x13 x14 x15 x16 x17 x18 x19 x20 x21 x22 x23 x24) (hl : Live4 W x0 x1 x2 x3 x4 x5 x6 x7 x8 x9 x10 x11 x12 x13 x14 x15 x16 x17 x18 x19 x20 x21 x22 x23 x24) : Live5 (after c4 W) x0 x1 x2 x3 x4 x5 x6 x7 x8 x9 x10 x11 x12 x13 x14 x15 x16 x17 x18 x19 x20 x21 x22 x23 x24 :=
  ⟨(c4_keep W main_v35 (by decide)).trans hl.at_main_v35,
   (c4_keep W main_v99 (by decide)).trans hl.at_main_v99,
   (c4_keep W main_v131 (by decide)).trans hl.at_main_v131,
   step4_main_v163 W x0 x1 x2 x3 x4 x5 x6 x7 x8 x9 x10 x11 x12 x13 x14 x15 x16 x17 x18 x19 x20 x21 x22 x23 x24 ha hl⟩

end Cert.ReferenceIdeal.Chunks

end
-- ==== Proof.RefChunks.C5.lean ====
/- The reference program's run, read back in pieces: piece 5, operations 198 … 235 of @main's 514.
   Running the piece from contents in which the arguments hold x0 … x24 and the buffers live at operation 198 hold their stages
   leaves the arguments as they were (no operation writes one) and every buffer live at operation 236 at its stage: a buffer
   the piece does not write keeps its contents; a buffer it writes holds its operation's function of its operands' contents,
   the operands read off the same way down to the buffers written before the piece, where the hypothesis says what they hold. -/
import proofs.«154750_j39152921870699_1_alg».proof.Proof.RefChunks.Inv

noncomputable section

namespace Cert.ReferenceIdeal.Chunks

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- Operations 198 … 235 of the reference's @main, as printed. -/
abbrev c5 : List (HloOp τ sig (Elt F)) :=
  [ unary main_arg4 main_v164 ((extractStridedSlice S1x1x64x64 ![0, 5, 0, 0] · slices_S2x6x64x64_S1x1x64x64_0_5_0_0) : (⟨S2x6x64x64, .f32⟩ : BufTy).Contents (Elt F) → (⟨S1x1x64x64, .f32⟩ : BufTy).Contents (Elt F)),
    reshape main_v164 main_v165 rfl shapeCasts_S1x1x64x64_S64x64,
    unary main_arg5 main_v166 ((extractStridedSlice S1x1x64 ![0, 5, 0] · slices_S2x6x64_S1x1x64_0_5_0) : (⟨S2x6x64, .f32⟩ : BufTy).Contents (Elt F) → (⟨S1x1x64, .f32⟩ : BufTy).Contents (Elt F)),
    reshape main_v166 main_v167 rfl shapeCasts_S1x1x64_S64,
    unary main_arg6 main_v168 ((extractStridedSlice S1x1x64x64 ![0, 5, 0, 0] · slices_S2x6x64x64_S1x1x64x64_0_5_0_0) : (⟨S2x6x64x64, .f32⟩ : BufTy).Contents (Elt F) → (⟨S1x1x64x64, .f32⟩ : BufTy).Contents (Elt F)),
    reshape main_v168 main_v169 rfl shapeCasts_S1x1x64x64_S64x64,
    nullary main_c_32 (constantI S_ 32 0#32),
    unary main_c_32 main_v170 (broadcastInDim S200000 ![] bcast_S_S200000 : (⟨S_, .i32⟩ : BufTy).Contents (Elt F) → (⟨S200000, .i32⟩ : BufTy).Contents (Elt F)),
    binary main_arg21 main_v170 main_v171 (cmpi .slt : (⟨S200000, .i32⟩ : BufTy).Contents (Elt F) → (⟨S200000, .i32⟩ : BufTy).Contents (Elt F) → (⟨S200000, .i1⟩ : BufTy).Contents (Elt F)),
    nullary main_c_33 (constantI S_ 32 5000#32),
    unary main_c_33 main_v172 (broadcastInDim S200000 ![] bcast_S_S200000 : (⟨S_, .i32⟩ : BufTy).Contents (Elt F) → (⟨S200000, .i32⟩ : BufTy).Contents (Elt F)),
    binary main_arg21 main_v172 main_v173 (addi : (⟨S200000, .i32⟩ : BufTy).Contents (Elt F) → (⟨S200000, .i32⟩ : BufTy).Contents (Elt F) → (⟨S200000, .i32⟩ : BufTy).Contents (Elt F)),
    ternary main_v171 main_v173 main_arg21 main_v174 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v174 main_v175 (broadcastInDim S200000x1 ![0] bcast_S200000_S200000x1_0 : (⟨S200000, .i32⟩ : BufTy).Contents (Elt F) → (⟨S200000x1, .i32⟩ : BufTy).Contents (Elt F)),
    binary main_arg3 main_v175 main_v176 ((fun x i => Host.gather gather_S5000x64_S200000x1_S200000x64_1_0_n_n_0_1_164 x i) : (⟨S5000x64, .f32⟩ : BufTy).Contents (Elt F) → (⟨S200000x1, .i32⟩ : BufTy).Contents (Elt F) → (⟨S200000x64, .f32⟩ : BufTy).Contents (Elt F)),
    nullary main_cst_34 (constant S_ .f32 0x00000000#32),
    unary main_cst_34 main_v177 (broadcastInDim S100000x64 ![] bcast_S_S100000x64 : (⟨S_, .f32⟩ : BufTy).Contents (Elt F) → (⟨S100000x64, .f32⟩ : BufTy).Contents (Elt F)),
    unary main_arg22 main_v178 (broadcastInDim S200000x1 ![0] bcast_S200000_S200000x1_0 : (⟨S200000, .i32⟩ : BufTy).Contents (Elt F) → (⟨S200000x1, .i32⟩ : BufTy).Contents (Elt F)),
    ternary main_v177 main_v178 main_v176 main_v179 ((fun x i u => Host.scatterAdd scatter_S100000x64_S200000x1_S200000x64_1_0_0_1 x i u) : (⟨S100000x64, .f32⟩ : BufTy).Contents (Elt F) → (⟨S200000x1, .i32⟩ : BufTy).Contents (Elt F) → (⟨S200000x64, .f32⟩ : BufTy).Contents (Elt F) → (⟨S100000x64, .f32⟩ : BufTy).Contents (Elt F)),
    nullary main_cst_35 (constant S_ .f32 0x3F800000#32),
    unary main_cst_35 main_v180 (broadcastInDim S200000 ![] bcast_S_S200000 : (⟨S_, .f32⟩ : BufTy).Contents (Elt F) → (⟨S200000, .f32⟩ : BufTy).Contents (Elt F)),
    nullary main_cst_36 (constant S_ .f32 0x00000000#32),
    unary main_cst_36 main_v181 (broadcastInDim S100000 ![] bcast_S_S100000 : (⟨S_, .f32⟩ : BufTy).Contents (Elt F) → (⟨S100000, .f32⟩ : BufTy).Contents (Elt F)),
    unary main_arg22 main_v182 (broadcastInDim S200000x1 ![0] bcast_S200000_S200000x1_0 : (⟨S200000, .i32⟩ : BufTy).Contents (Elt F) → (⟨S200000x1, .i32⟩ : BufTy).Contents (Elt F)),
    ternary main_v181 main_v182 main_v180 main_v183 ((fun x i u => Host.scatterAdd scatter_S100000_S200000x1_S200000_n_0_0_1 x i u) : (⟨S100000, .f32⟩ : BufTy).Contents (Elt F) → (⟨S200000x1, .i32⟩ : BufTy).Contents (Elt F) → (⟨S200000, .f32⟩ : BufTy).Contents (Elt F) → (⟨S100000, .f32⟩ : BufTy).Contents (Elt F)),
    nullary main_cst_37 (constant S_ .f32 0x3F800000#32),
    unary main_cst_37 main_v184 (broadcastInDim S100000 ![] bcast_S_S100000 : (⟨S_, .f32⟩ : BufTy).Contents (Elt F) → (⟨S100000, .f32⟩ : BufTy).Contents (Elt F)),
    binary main_v183 main_v184 main_v185 (maximumf : (⟨S100000, .f32⟩ : BufTy).Contents (Elt F) → (⟨S100000, .f32⟩ : BufTy).Contents (Elt F) → (⟨S100000, .f32⟩ : BufTy).Contents (Elt F)),
    unary main_v185 main_v186 (broadcastInDim S100000x1 ![0] bcast_S100000_S100000x1_0 : (⟨S100000, .f32⟩ : BufTy).Contents (Elt F) → (⟨S100000x1, .f32⟩ : BufTy).Contents (Elt F)),
    unary main_v186 main_v187 (broadcastInDim S100000x64 ![0, 1] bcast_S100000x1_S100000x64_0_1 : (⟨S100000x1, .f32⟩ : BufTy).Contents (Elt F) → (⟨S100000x64, .f32⟩ : BufTy).Contents (Elt F)),
    binary main_v179 main_v187 main_v188 (Host.divf : (⟨S100000x64, .f32⟩ : BufTy).Contents (Elt F) → (⟨S100000x64, .f32⟩ : BufTy).Contents (Elt F) → (⟨S100000x64, .f32⟩ : BufTy).Contents (Elt F)),
    binary main_v188 main_v165 main_v189 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_v167 main_v190 (broadcastInDim S1x64 ![1] bcast_S64_S1x64_1 : (⟨S64, .f32⟩ : BufTy).Contents (Elt F) → (⟨S1x64, .f32⟩ : BufTy).Contents (Elt F)),
    unary main_v190 main_v191 (broadcastInDim S100000x64 ![0, 1] bcast_S1x64_S100000x64_0_1 : (⟨S1x64, .f32⟩ : BufTy).Contents (Elt F) → (⟨S100000x64, .f32⟩ : BufTy).Contents (Elt F)),
    binary main_v189 main_v191 main_v192 (addf : (⟨S100000x64, .f32⟩ : BufTy).Contents (Elt F) → (⟨S100000x64, .f32⟩ : BufTy).Contents (Elt F) → (⟨S100000x64, .f32⟩ : BufTy).Contents (Elt F)),
    binary main_arg0 main_v169 main_v193 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v192 main_v193 main_v194 (addf : (⟨S100000x64, .f32⟩ : BufTy).Contents (Elt F) → (⟨S100000x64, .f32⟩ : BufTy).Contents (Elt F) → (⟨S100000x64, .f32⟩ : BufTy).Contents (Elt F)),
    binary main_v35 main_v194 main_v195 (addf : (⟨S100000x64, .f32⟩ : BufTy).Contents (Elt F) → (⟨S100000x64, .f32⟩ : BufTy).Contents (Elt F) → (⟨S100000x64, .f32⟩ : BufTy).Contents (Elt F)) ]

/-- The buffers these operations write. -/
abbrev c5_W : List (Ref sig .tc) := [main_v164, main_v165, main_v166, main_v167, main_v168, main_v169, main_c_32, main_v170, main_v171, main_c_33, main_v172, main_v173, main_v174, main_v175, main_v176, main_cst_34, main_v177, main_v178, main_v179, main_cst_35, main_v180, main_cst_36, main_v181, main_v182, main_v183, main_cst_37, main_v184, main_v185, main_v186, main_v187, main_v188, main_v189, main_v190, main_v191, main_v192, main_v193, main_v194, main_v195]

theorem c5_writes : (c5 : List (HloOp τ sig (Elt F))).Forall fun op => op.writes ⊆ (c5_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

variable (W : Valuation τ sig (Elt F)) (x0 : (⟨S100000x64, .f32⟩ : BufTy).Contents (Elt F)) (x1 : (⟨S50000x64, .f32⟩ : BufTy).Contents (Elt F)) (x2 : (⟨S2000x64, .f32⟩ : BufTy).Contents (Elt F)) (x3 : (⟨S5000x64, .f32⟩ : BufTy).Contents (Elt F)) (x4 : (⟨S2x6x64x64, .f32⟩ : BufTy).Contents (Elt F)) (x5 : (⟨S2x6x64, .f32⟩ : BufTy).Contents (Elt F)) (x6 : (⟨S2x6x64x64, .f32⟩ : BufTy).Contents (Elt F)) (x7 : (⟨S128x64, .f32⟩ : BufTy).Contents (Elt F)) (x8 : (⟨S64, .f32⟩ : BufTy).Contents (Elt F)) (x9 : (⟨S64x4, .f32⟩ : BufTy).Contents (Elt F)) (x10 : (⟨S4, .f32⟩ : BufTy).Contents (Elt F)) (x11 x12 x13 x14 : (⟨S2000000, .i32⟩ : BufTy).Contents (Elt F)) (x15 x16 x17 x18 : (⟨S100000, .i32⟩ : BufTy).Contents (Elt F)) (x19 x20 x21 x22 : (⟨S200000, .i32⟩ : BufTy).Contents (Elt F)) (x23 x24 : (⟨S100000, .i32⟩ : BufTy).Contents (Elt F))

/-- A buffer the piece does not write keeps its contents through it. -/
theorem c5_keep (r : Ref sig .tc) (h : r ∉ c5_W) : after c5 W (Proc.devRef .tc r) = W (Proc.devRef .tc r) :=
  after_of_writes_sub c5 W c5_writes h

/-- The arguments are as they were. -/
theorem step5_args (ha : ArgsAt W x0 x1 x2 x3 x4 x5 x6 x7 x8 x9 x10 x11 x12 x13 x14 x15 x16 x17 x18 x19 x20 x21 x22 x23 x24) : ArgsAt (after c5 W) x0 x1 x2 x3 x4 x5 x6 x7 x8 x9 x10 x11 x12 x13 x14 x15 x16 x17 x18 x19 x20 x21 x22 x23 x24 :=
  ⟨(c5_keep W main_arg0 (by decide)).trans ha.at_main_arg0,
   (c5_keep W main_arg1 (by decide)).trans ha.at_main_arg1,
   (c5_keep W main_arg2 (by decide)).trans ha.at_main_arg2,
   (c5_keep W main_arg3 (by decide)).trans ha.at_main_arg3,
   (c5_keep W main_arg4 (by decide)).trans ha.at_main_arg4,
   (c5_keep W main_arg5 (by decide)).trans ha.at_main_arg5,
   (c5_keep W main_arg6 (by decide)).trans ha.at_main_arg6,
   (c5_keep W main_arg7 (by decide)).trans ha.at_main_arg7,
   (c5_keep W main_arg8 (by decide)).trans ha.at_main_arg8,
   (c5_keep W main_arg9 (by decide)).trans ha.at_main_arg9,
   (c5_keep W main_arg10 (by decide)).trans ha.at_main_arg10,
   (c5_keep W main_arg11 (by decide)).trans ha.at_main_arg11,
   (c5_keep W main_arg12 (by decide)).trans ha.at_main_arg12,
   (c5_keep W main_arg13 (by decide)).trans ha.at_main_arg13,
   (c5_keep W main_arg14 (by decide)).trans ha.at_main_arg14,
   (c5_keep W main_arg15 (by decide)).trans ha.at_main_arg15,
   (c5_keep W main_arg16 (by decide)).trans ha.at_main_arg16,
   (c5_keep W main_arg17 (by decide)).trans ha.at_main_arg17,
   (c5_keep W main_arg18 (by decide)).trans ha.at_main_arg18,
   (c5_keep W main_arg19 (by decide)).trans ha.at_main_arg19,
   (c5_keep W main_arg20 (by decide)).trans ha.at_main_arg20,
   (c5_keep W main_arg21 (by decide)).trans ha.at_main_arg21,
   (c5_keep W main_arg22 (by decide)).trans ha.at_main_arg22,
   (c5_keep W main_arg23 (by decide)).trans ha.at_main_arg23,
   (c5_keep W main_arg24 (by decide)).trans ha.at_main_arg24⟩

set_option maxHeartbeats 2000000 in
/-- `main_v195` after the piece: its stage. -/
theorem step5_main_v195 (ha : ArgsAt W x0 x1 x2 x3 x4 x5 x6 x7 x8 x9 x10 x11 x12 x13 x14 x15 x16 x17 x18 x19 x20 x21 x22 x23 x24) (hl : Live5 W x0 x1 x2 x3 x4 x5 x6 x7 x8 x9 x10 x11 x12 x13 x14 x15 x16 x17 x18 x19 x20 x21 x22 x23 x24) :
    after c5 W (Proc.devRef .tc main_v195) = val_main_v195 (F := F) x0 x1 x3 x4 x5 x6 x11 x12 x21 x22 := by
  simp only [c5]
  after_results_simp
  simp only [ha.at_main_arg6, ha.at_main_arg0, ha.at_main_arg5, ha.at_main_arg4, ha.at_main_arg22, ha.at_main_arg21, ha.at_main_arg3, hl.at_main_v35]
  rfl

/-- Every buffer live after the piece holds its stage. -/
theorem step5 (ha : ArgsAt W x0 x1 x2 x3 x4 x5 x6 x7 x8 x9 x10 x11 x12 x13 x14 x15 x16 x17 x18 x19 x20 x21 x22 x23 x24) (hl : Live5 W x0 x1 x2 x3 x4 x5 x6 x7 x8 x9 x10 x11 x12 x13 x14 x15 x16 x17 x18 x19 x20 x21 x22 x23 x24) : Live6 (after c5 W) x0 x1 x2 x3 x4 x5 x6 x7 x8 x9 x10 x11 x12 x13 x14 x15 x16 x17 x18 x19 x20 x21 x22 x23 x24 :=
  ⟨(c5_keep W main_v99 (by decide)).trans hl.at_main_v99,
   (c5_keep W main_v131 (by decide)).trans hl.at_main_v131,
   (c5_keep W main_v163 (by decide)).trans hl.at_main_v163,
   step5_main_v195 W x0 x1 x2 x3 x4 x5 x6 x7 x8 x9 x10 x11 x12 x13 x14 x15 x16 x17 x18 x19 x20 x21 x22 x23 x24 ha hl⟩

end Cert.ReferenceIdeal.Chunks

end
-- ==== Proof.RefChunks.C6.lean ====
/- The reference program's run, read back in pieces: piece 6, operations 236 … 255 of @main's 514.
   Running the piece from contents in which the arguments hold x0 … x24 and the buffers live at operation 236 hold their stages
   leaves the arguments as they were (no operation writes one) and every buffer live at operation 256 at its stage: a buffer
   the piece does not write keeps its contents; a buffer it writes holds its operation's function of its operands' contents,
   the operands read off the same way down to the buffers written before the piece, where the hypothesis says what they hold. -/
import proofs.«154750_j39152921870699_1_alg».proof.Proof.RefChunks.Inv

noncomputable section

namespace Cert.ReferenceIdeal.Chunks

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- Operations 236 … 255 of the reference's @main, as printed. -/
abbrev c6 : List (HloOp τ sig (Elt F)) :=
  [ TRef.nullary (TRef.of (T := ⟨S_, .f32⟩) main_call0_cst) (constant S_ .f32 0x00000000#32),
    TRef.unary (TRef.of (T := ⟨S_, .f32⟩) main_call0_cst) (TRef.of (T := ⟨S100000x64, .f32⟩) main_call0_v0) (broadcastInDim S100000x64 ![] bcast_S_S100000x64),
    TRef.binary (TRef.of (T := ⟨S100000x64, .f32⟩) main_v195) (TRef.of (T := ⟨S100000x64, .f32⟩) main_call0_v0) (TRef.of (T := ⟨S100000x64, .f32⟩) main_v196) maximumf,
    TRef.nullary (TRef.of (T := ⟨S_, .f32⟩) main_call1_cst) (constant S_ .f32 0x00000000#32),
    TRef.unary (TRef.of (T := ⟨S_, .f32⟩) main_call1_cst) (TRef.of (T := ⟨S50000x64, .f32⟩) main_call1_v0) (broadcastInDim S50000x64 ![] bcast_S_S50000x64),
    TRef.binary (TRef.of (T := ⟨S50000x64, .f32⟩) main_v131) (TRef.of (T := ⟨S50000x64, .f32⟩) main_call1_v0) (TRef.of (T := ⟨S50000x64, .f32⟩) main_v197) maximumf,
    TRef.nullary (TRef.of (T := ⟨S_, .f32⟩) main_call2_cst) (constant S_ .f32 0x00000000#32),
    TRef.unary (TRef.of (T := ⟨S_, .f32⟩) main_call2_cst) (TRef.of (T := ⟨S2000x64, .f32⟩) main_call2_v0) (broadcastInDim S2000x64 ![] bcast_S_S2000x64),
    TRef.binary (TRef.of (T := ⟨S2000x64, .f32⟩) main_v99) (TRef.of (T := ⟨S2000x64, .f32⟩) main_call2_v0) (TRef.of (T := ⟨S2000x64, .f32⟩) main_v198) maximumf,
    TRef.nullary (TRef.of (T := ⟨S_, .f32⟩) main_call3_cst) (constant S_ .f32 0x00000000#32),
    TRef.unary (TRef.of (T := ⟨S_, .f32⟩) main_call3_cst) (TRef.of (T := ⟨S5000x64, .f32⟩) main_call3_v0) (broadcastInDim S5000x64 ![] bcast_S_S5000x64),
    TRef.binary (TRef.of (T := ⟨S5000x64, .f32⟩) main_v163) (TRef.of (T := ⟨S5000x64, .f32⟩) main_call3_v0) (TRef.of (T := ⟨S5000x64, .f32⟩) main_v199) maximumf,
    nullary main_cst_38 (constant S_ .f32 0x00000000#32),
    unary main_cst_38 main_v200 (broadcastInDim S100000x64 ![] bcast_S_S100000x64 : (⟨S_, .f32⟩ : BufTy).Contents (Elt F) → (⟨S100000x64, .f32⟩ : BufTy).Contents (Elt F)),
    nullary main_cst_39 (constant S_ .f32 0x00000000#32),
    unary main_cst_39 main_v201 (broadcastInDim S50000x64 ![] bcast_S_S50000x64 : (⟨S_, .f32⟩ : BufTy).Contents (Elt F) → (⟨S50000x64, .f32⟩ : BufTy).Contents (Elt F)),
    nullary main_cst_40 (constant S_ .f32 0x00000000#32),
    unary main_cst_40 main_v202 (broadcastInDim S2000x64 ![] bcast_S_S2000x64 : (⟨S_, .f32⟩ : BufTy).Contents (Elt F) → (⟨S2000x64, .f32⟩ : BufTy).Contents (Elt F)),
    nullary main_cst_41 (constant S_ .f32 0x00000000#32),
    unary main_cst_41 main_v203 (broadcastInDim S5000x64 ![] bcast_S_S5000x64 : (⟨S_, .f32⟩ : BufTy).Contents (Elt F) → (⟨S5000x64, .f32⟩ : BufTy).Contents (Elt F)) ]

/-- The buffers these operations write. -/
abbrev c6_W : List (Ref sig .tc) := [main_call0_cst, main_call0_v0, main_v196, main_call1_cst, main_call1_v0, main_v197, main_call2_cst, main_call2_v0, main_v198, main_call3_cst, main_call3_v0, main_v199, main_cst_38, main_v200, main_cst_39, main_v201, main_cst_40, main_v202, main_cst_41, main_v203]

theorem c6_writes : (c6 : List (HloOp τ sig (Elt F))).Forall fun op => op.writes ⊆ (c6_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

variable (W : Valuation τ sig (Elt F)) (x0 : (⟨S100000x64, .f32⟩ : BufTy).Contents (Elt F)) (x1 : (⟨S50000x64, .f32⟩ : BufTy).Contents (Elt F)) (x2 : (⟨S2000x64, .f32⟩ : BufTy).Contents (Elt F)) (x3 : (⟨S5000x64, .f32⟩ : BufTy).Contents (Elt F)) (x4 : (⟨S2x6x64x64, .f32⟩ : BufTy).Contents (Elt F)) (x5 : (⟨S2x6x64, .f32⟩ : BufTy).Contents (Elt F)) (x6 : (⟨S2x6x64x64, .f32⟩ : BufTy).Contents (Elt F)) (x7 : (⟨S128x64, .f32⟩ : BufTy).Contents (Elt F)) (x8 : (⟨S64, .f32⟩ : BufTy).Contents (Elt F)) (x9 : (⟨S64x4, .f32⟩ : BufTy).Contents (Elt F)) (x10 : (⟨S4, .f32⟩ : BufTy).Contents (Elt F)) (x11 x12 x13 x14 : (⟨S2000000, .i32⟩ : BufTy).Contents (Elt F)) (x15 x16 x17 x18 : (⟨S100000, .i32⟩ : BufTy).Contents (Elt F)) (x19 x20 x21 x22 : (⟨S200000, .i32⟩ : BufTy).Contents (Elt F)) (x23 x24 : (⟨S100000, .i32⟩ : BufTy).Contents (Elt F))

/-- A buffer the piece does not write keeps its contents through it. -/
theorem c6_keep (r : Ref sig .tc) (h : r ∉ c6_W) : after c6 W (Proc.devRef .tc r) = W (Proc.devRef .tc r) :=
  after_of_writes_sub c6 W c6_writes h

/-- The arguments are as they were. -/
theorem step6_args (ha : ArgsAt W x0 x1 x2 x3 x4 x5 x6 x7 x8 x9 x10 x11 x12 x13 x14 x15 x16 x17 x18 x19 x20 x21 x22 x23 x24) : ArgsAt (after c6 W) x0 x1 x2 x3 x4 x5 x6 x7 x8 x9 x10 x11 x12 x13 x14 x15 x16 x17 x18 x19 x20 x21 x22 x23 x24 :=
  ⟨(c6_keep W main_arg0 (by decide)).trans ha.at_main_arg0,
   (c6_keep W main_arg1 (by decide)).trans ha.at_main_arg1,
   (c6_keep W main_arg2 (by decide)).trans ha.at_main_arg2,
   (c6_keep W main_arg3 (by decide)).trans ha.at_main_arg3,
   (c6_keep W main_arg4 (by decide)).trans ha.at_main_arg4,
   (c6_keep W main_arg5 (by decide)).trans ha.at_main_arg5,
   (c6_keep W main_arg6 (by decide)).trans ha.at_main_arg6,
   (c6_keep W main_arg7 (by decide)).trans ha.at_main_arg7,
   (c6_keep W main_arg8 (by decide)).trans ha.at_main_arg8,
   (c6_keep W main_arg9 (by decide)).trans ha.at_main_arg9,
   (c6_keep W main_arg10 (by decide)).trans ha.at_main_arg10,
   (c6_keep W main_arg11 (by decide)).trans ha.at_main_arg11,
   (c6_keep W main_arg12 (by decide)).trans ha.at_main_arg12,
   (c6_keep W main_arg13 (by decide)).trans ha.at_main_arg13,
   (c6_keep W main_arg14 (by decide)).trans ha.at_main_arg14,
   (c6_keep W main_arg15 (by decide)).trans ha.at_main_arg15,
   (c6_keep W main_arg16 (by decide)).trans ha.at_main_arg16,
   (c6_keep W main_arg17 (by decide)).trans ha.at_main_arg17,
   (c6_keep W main_arg18 (by decide)).trans ha.at_main_arg18,
   (c6_keep W main_arg19 (by decide)).trans ha.at_main_arg19,
   (c6_keep W main_arg20 (by decide)).trans ha.at_main_arg20,
   (c6_keep W main_arg21 (by decide)).trans ha.at_main_arg21,
   (c6_keep W main_arg22 (by decide)).trans ha.at_main_arg22,
   (c6_keep W main_arg23 (by decide)).trans ha.at_main_arg23,
   (c6_keep W main_arg24 (by decide)).trans ha.at_main_arg24⟩

set_option maxHeartbeats 2000000 in
/-- `main_v196` after the piece: its stage. -/
theorem step6_main_v196 (ha : ArgsAt W x0 x1 x2 x3 x4 x5 x6 x7 x8 x9 x10 x11 x12 x13 x14 x15 x16 x17 x18 x19 x20 x21 x22 x23 x24) (hl : Live6 W x0 x1 x2 x3 x4 x5 x6 x7 x8 x9 x10 x11 x12 x13 x14 x15 x16 x17 x18 x19 x20 x21 x22 x23 x24) :
    after c6 W (Proc.devRef .tc main_v196) = val_main_v196 (F := F) x0 x1 x3 x4 x5 x6 x11 x12 x21 x22 := by
  simp only [c6]
  after_results_simp
  simp only [hl.at_main_v195]
  rfl

set_option maxHeartbeats 2000000 in
/-- `main_v197` after the piece: its stage. -/
theorem step6_main_v197 (ha : ArgsAt W x0 x1 x2 x3 x4 x5 x6 x7 x8 x9 x10 x11 x12 x13 x14 x15 x16 x17 x18 x19 x20 x21 x22 x23 x24) (hl : Live6 W x0 x1 x2 x3 x4 x5 x6 x7 x8 x9 x10 x11 x12 x13 x14 x15 x16 x17 x18 x19 x20 x21 x22 x23 x24) :
    after c6 W (Proc.devRef .tc main_v197) = val_main_v197 (F := F) x0 x1 x2 x4 x5 x6 x13 x14 x17 x18 := by
  simp only [c6]
  after_results_simp
  simp only [hl.at_main_v131]
  rfl

set_option maxHeartbeats 2000000 in
/-- `main_v198` after the piece: its stage. -/
theorem step6_main_v198 (ha : ArgsAt W x0 x1 x2 x3 x4 x5 x6 x7 x8 x9 x10 x11 x12 x13 x14 x15 x16 x17 x18 x19 x20 x21 x22 x23 x24) (hl : Live6 W x0 x1 x2 x3 x4 x5 x6 x7 x8 x9 x10 x11 x12 x13 x14 x15 x16 x17 x18 x19 x20 x21 x22 x23 x24) :
    after c6 W (Proc.devRef .tc main_v198) = val_main_v198 (F := F) x1 x2 x4 x5 x6 x15 x16 := by
  simp only [c6]
  after_results_simp
  simp only [hl.at_main_v99]
  rfl

set_option maxHeartbeats 2000000 in
/-- `main_v199` after the piece: its stage. -/
theorem step6_main_v199 (ha : ArgsAt W x0 x1 x2 x3 x4 x5 x6 x7 x8 x9 x10 x11 x12 x13 x14 x15 x16 x17 x18 x19 x20 x21 x22 x23 x24) (hl : Live6 W x0 x1 x2 x3 x4 x5 x6 x7 x8 x9 x10 x11 x12 x13 x14 x15 x16 x17 x18 x19 x20 x21 x22 x23 x24) :
    after c6 W (Proc.devRef .tc main_v199) = val_main_v199 (F := F) x0 x3 x4 x5 x6 x19 x20 := by
  simp only [c6]
  after_results_simp
  simp only [hl.at_main_v163]
  rfl

set_option maxHeartbeats 2000000 in
/-- `main_v200` after the piece: its stage. -/
theorem step6_main_v200 (ha : ArgsAt W x0 x1 x2 x3 x4 x5 x6 x7 x8 x9 x10 x11 x12 x13 x14 x15 x16 x17 x18 x19 x20 x21 x22 x23 x24) (hl : Live6 W x0 x1 x2 x3 x4 x5 x6 x7 x8 x9 x10 x11 x12 x13 x14 x15 x16 x17 x18 x19 x20 x21 x22 x23 x24) :
    after c6 W (Proc.devRef .tc main_v200) = val_main_v200 (F := F) := by
  simp only [c6]
  after_results_simp
  rfl

set_option maxHeartbeats 2000000 in
/-- `main_v201` after the piece: its stage. -/
theorem step6_main_v201 (ha : ArgsAt W x0 x1 x2 x3 x4 x5 x6 x7 x8 x9 x10 x11 x12 x13 x14 x15 x16 x17 x18 x19 x20 x21 x22 x23 x24) (hl : Live6 W x0 x1 x2 x3 x4 x5 x6 x7 x8 x9 x10 x11 x12 x13 x14 x15 x16 x17 x18 x19 x20 x21 x22 x23 x24) :
    after c6 W (Proc.devRef .tc main_v201) = val_main_v201 (F := F) := by
  simp only [c6]
  after_results_simp
  rfl

set_option maxHeartbeats 2000000 in
/-- `main_v202` after the piece: its stage. -/
theorem step6_main_v202 (ha : ArgsAt W x0 x1 x2 x3 x4 x5 x6 x7 x8 x9 x10 x11 x12 x13 x14 x15 x16 x17 x18 x19 x20 x21 x22 x23 x24) (hl : Live6 W x0 x1 x2 x3 x4 x5 x6 x7 x8 x9 x10 x11 x12 x13 x14 x15 x16 x17 x18 x19 x20 x21 x22 x23 x24) :
    after c6 W (Proc.devRef .tc main_v202) = val_main_v202 (F := F) := by
  simp only [c6]
  after_results_simp
  rfl

set_option maxHeartbeats 2000000 in
/-- `main_v203` after the piece: its stage. -/
theorem step6_main_v203 (ha : ArgsAt W x0 x1 x2 x3 x4 x5 x6 x7 x8 x9 x10 x11 x12 x13 x14 x15 x16 x17 x18 x19 x20 x21 x22 x23 x24) (hl : Live6 W x0 x1 x2 x3 x4 x5 x6 x7 x8 x9 x10 x11 x12 x13 x14 x15 x16 x17 x18 x19 x20 x21 x22 x23 x24) :
    after c6 W (Proc.devRef .tc main_v203) = val_main_v203 (F := F) := by
  simp only [c6]
  after_results_simp
  rfl

/-- Every buffer live after the piece holds its stage. -/
theorem step6 (ha : ArgsAt W x0 x1 x2 x3 x4 x5 x6 x7 x8 x9 x10 x11 x12 x13 x14 x15 x16 x17 x18 x19 x20 x21 x22 x23 x24) (hl : Live6 W x0 x1 x2 x3 x4 x5 x6 x7 x8 x9 x10 x11 x12 x13 x14 x15 x16 x17 x18 x19 x20 x21 x22 x23 x24) : Live7 (after c6 W) x0 x1 x2 x3 x4 x5 x6 x7 x8 x9 x10 x11 x12 x13 x14 x15 x16 x17 x18 x19 x20 x21 x22 x23 x24 :=
  ⟨step6_main_v196 W x0 x1 x2 x3 x4 x5 x6 x7 x8 x9 x10 x11 x12 x13 x14 x15 x16 x17 x18 x19 x20 x21 x22 x23 x24 ha hl,
   step6_main_v197 W x0 x1 x2 x3 x4 x5 x6 x7 x8 x9 x10 x11 x12 x13 x14 x15 x16 x17 x18 x19 x20 x21 x22 x23 x24 ha hl,
   step6_main_v198 W x0 x1 x2 x3 x4 x5 x6 x7 x8 x9 x10 x11 x12 x13 x14 x15 x16 x17 x18 x19 x20 x21 x22 x23 x24 ha hl,
   step6_main_v199 W x0 x1 x2 x3 x4 x5 x6 x7 x8 x9 x10 x11 x12 x13 x14 x15 x16 x17 x18 x19 x20 x21 x22 x23 x24 ha hl,
   step6_main_v200 W x0 x1 x2 x3 x4 x5 x6 x7 x8 x9 x10 x11 x12 x13 x14 x15 x16 x17 x18 x19 x20 x21 x22 x23 x24 ha hl,
   step6_main_v201 W x0 x1 x2 x3 x4 x5 x6 x7 x8 x9 x10 x11 x12 x13 x14 x15 x16 x17 x18 x19 x20 x21 x22 x23 x24 ha hl,
   step6_main_v202 W x0 x1 x2 x3 x4 x5 x6 x7 x8 x9 x10 x11 x12 x13 x14 x15 x16 x17 x18 x19 x20 x21 x22 x23 x24 ha hl,
   step6_main_v203 W x0 x1 x2 x3 x4 x5 x6 x7 x8 x9 x10 x11 x12 x13 x14 x15 x16 x17 x18 x19 x20 x21 x22 x23 x24 ha hl⟩

end Cert.ReferenceIdeal.Chunks

end
-- ==== Proof.RefChunks.C7.lean ====
/- The reference program's run, read back in pieces: piece 7, operations 256 … 293 of @main's 514.
   Running the piece from contents in which the arguments hold x0 … x24 and the buffers live at operation 256 hold their stages
   leaves the arguments as they were (no operation writes one) and every buffer live at operation 294 at its stage: a buffer
   the piece does not write keeps its contents; a buffer it writes holds its operation's function of its operands' contents,
   the operands read off the same way down to the buffers written before the piece, where the hypothesis says what they hold. -/
import proofs.«154750_j39152921870699_1_alg».proof.Proof.RefChunks.Inv

noncomputable section

namespace Cert.ReferenceIdeal.Chunks

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- Operations 256 … 293 of the reference's @main, as printed. -/
abbrev c7 : List (HloOp τ sig (Elt F)) :=
  [ unary main_arg4 main_v204 ((extractStridedSlice S1x1x64x64 ![1, 0, 0, 0] · slices_S2x6x64x64_S1x1x64x64_1_0_0_0) : (⟨S2x6x64x64, .f32⟩ : BufTy).Contents (Elt F) → (⟨S1x1x64x64, .f32⟩ : BufTy).Contents (Elt F)),
    reshape main_v204 main_v205 rfl shapeCasts_S1x1x64x64_S64x64,
    unary main_arg5 main_v206 ((extractStridedSlice S1x1x64 ![1, 0, 0] · slices_S2x6x64_S1x1x64_1_0_0) : (⟨S2x6x64, .f32⟩ : BufTy).Contents (Elt F) → (⟨S1x1x64, .f32⟩ : BufTy).Contents (Elt F)),
    reshape main_v206 main_v207 rfl shapeCasts_S1x1x64_S64,
    unary main_arg6 main_v208 ((extractStridedSlice S1x1x64x64 ![1, 0, 0, 0] · slices_S2x6x64x64_S1x1x64x64_1_0_0_0) : (⟨S2x6x64x64, .f32⟩ : BufTy).Contents (Elt F) → (⟨S1x1x64x64, .f32⟩ : BufTy).Contents (Elt F)),
    reshape main_v208 main_v209 rfl shapeCasts_S1x1x64x64_S64x64,
    nullary main_c_42 (constantI S_ 32 0#32),
    unary main_c_42 main_v210 (broadcastInDim S2000000 ![] bcast_S_S2000000 : (⟨S_, .i32⟩ : BufTy).Contents (Elt F) → (⟨S2000000, .i32⟩ : BufTy).Contents (Elt F)),
    binary main_arg11 main_v210 main_v211 (cmpi .slt : (⟨S2000000, .i32⟩ : BufTy).Contents (Elt F) → (⟨S2000000, .i32⟩ : BufTy).Contents (Elt F) → (⟨S2000000, .i1⟩ : BufTy).Contents (Elt F)),
    nullary main_c_43 (constantI S_ 32 50000#32),
    unary main_c_43 main_v212 (broadcastInDim S2000000 ![] bcast_S_S2000000 : (⟨S_, .i32⟩ : BufTy).Contents (Elt F) → (⟨S2000000, .i32⟩ : BufTy).Contents (Elt F)),
    binary main_arg11 main_v212 main_v213 (addi : (⟨S2000000, .i32⟩ : BufTy).Contents (Elt F) → (⟨S2000000, .i32⟩ : BufTy).Contents (Elt F) → (⟨S2000000, .i32⟩ : BufTy).Contents (Elt F)),
    ternary main_v211 main_v213 main_arg11 main_v214 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v214 main_v215 (broadcastInDim S2000000x1 ![0] bcast_S2000000_S2000000x1_0 : (⟨S2000000, .i32⟩ : BufTy).Contents (Elt F) → (⟨S2000000x1, .i32⟩ : BufTy).Contents (Elt F)),
    binary main_v197 main_v215 main_v216 ((fun x i => Host.gather gather_S50000x64_S2000000x1_S2000000x64_1_0_n_n_0_1_164 x i) : (⟨S50000x64, .f32⟩ : BufTy).Contents (Elt F) → (⟨S2000000x1, .i32⟩ : BufTy).Contents (Elt F) → (⟨S2000000x64, .f32⟩ : BufTy).Contents (Elt F)),
    nullary main_cst_44 (constant S_ .f32 0x00000000#32),
    unary main_cst_44 main_v217 (broadcastInDim S100000x64 ![] bcast_S_S100000x64 : (⟨S_, .f32⟩ : BufTy).Contents (Elt F) → (⟨S100000x64, .f32⟩ : BufTy).Contents (Elt F)),
    unary main_arg12 main_v218 (broadcastInDim S2000000x1 ![0] bcast_S2000000_S2000000x1_0 : (⟨S2000000, .i32⟩ : BufTy).Contents (Elt F) → (⟨S2000000x1, .i32⟩ : BufTy).Contents (Elt F)),
    ternary main_v217 main_v218 main_v216 main_v219 ((fun x i u => Host.scatterAdd scatter_S100000x64_S2000000x1_S2000000x64_1_0_0_1 x i u) : (⟨S100000x64, .f32⟩ : BufTy).Contents (Elt F) → (⟨S2000000x1, .i32⟩ : BufTy).Contents (Elt F) → (⟨S2000000x64, .f32⟩ : BufTy).Contents (Elt F) → (⟨S100000x64, .f32⟩ : BufTy).Contents (Elt F)),
    nullary main_cst_45 (constant S_ .f32 0x3F800000#32),
    unary main_cst_45 main_v220 (broadcastInDim S2000000 ![] bcast_S_S2000000 : (⟨S_, .f32⟩ : BufTy).Contents (Elt F) → (⟨S2000000, .f32⟩ : BufTy).Contents (Elt F)),
    nullary main_cst_46 (constant S_ .f32 0x00000000#32),
    unary main_cst_46 main_v221 (broadcastInDim S100000 ![] bcast_S_S100000 : (⟨S_, .f32⟩ : BufTy).Contents (Elt F) → (⟨S100000, .f32⟩ : BufTy).Contents (Elt F)),
    unary main_arg12 main_v222 (broadcastInDim S2000000x1 ![0] bcast_S2000000_S2000000x1_0 : (⟨S2000000, .i32⟩ : BufTy).Contents (Elt F) → (⟨S2000000x1, .i32⟩ : BufTy).Contents (Elt F)),
    ternary main_v221 main_v222 main_v220 main_v223 ((fun x i u => Host.scatterAdd scatter_S100000_S2000000x1_S2000000_n_0_0_1 x i u) : (⟨S100000, .f32⟩ : BufTy).Contents (Elt F) → (⟨S2000000x1, .i32⟩ : BufTy).Contents (Elt F) → (⟨S2000000, .f32⟩ : BufTy).Contents (Elt F) → (⟨S100000, .f32⟩ : BufTy).Contents (Elt F)),
    nullary main_cst_47 (constant S_ .f32 0x3F800000#32),
    unary main_cst_47 main_v224 (broadcastInDim S100000 ![] bcast_S_S100000 : (⟨S_, .f32⟩ : BufTy).Contents (Elt F) → (⟨S100000, .f32⟩ : BufTy).Contents (Elt F)),
    binary main_v223 main_v224 main_v225 (maximumf : (⟨S100000, .f32⟩ : BufTy).Contents (Elt F) → (⟨S100000, .f32⟩ : BufTy).Contents (Elt F) → (⟨S100000, .f32⟩ : BufTy).Contents (Elt F)),
    unary main_v225 main_v226 (broadcastInDim S100000x1 ![0] bcast_S100000_S100000x1_0 : (⟨S100000, .f32⟩ : BufTy).Contents (Elt F) → (⟨S100000x1, .f32⟩ : BufTy).Contents (Elt F)),
    unary main_v226 main_v227 (broadcastInDim S100000x64 ![0, 1] bcast_S100000x1_S100000x64_0_1 : (⟨S100000x1, .f32⟩ : BufTy).Contents (Elt F) → (⟨S100000x64, .f32⟩ : BufTy).Contents (Elt F)),
    binary main_v219 main_v227 main_v228 (Host.divf : (⟨S100000x64, .f32⟩ : BufTy).Contents (Elt F) → (⟨S100000x64, .f32⟩ : BufTy).Contents (Elt F) → (⟨S100000x64, .f32⟩ : BufTy).Contents (Elt F)),
    binary main_v228 main_v205 main_v229 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_v207 main_v230 (broadcastInDim S1x64 ![1] bcast_S64_S1x64_1 : (⟨S64, .f32⟩ : BufTy).Contents (Elt F) → (⟨S1x64, .f32⟩ : BufTy).Contents (Elt F)),
    unary main_v230 main_v231 (broadcastInDim S100000x64 ![0, 1] bcast_S1x64_S100000x64_0_1 : (⟨S1x64, .f32⟩ : BufTy).Contents (Elt F) → (⟨S100000x64, .f32⟩ : BufTy).Contents (Elt F)),
    binary main_v229 main_v231 main_v232 (addf : (⟨S100000x64, .f32⟩ : BufTy).Contents (Elt F) → (⟨S100000x64, .f32⟩ : BufTy).Contents (Elt F) → (⟨S100000x64, .f32⟩ : BufTy).Contents (Elt F)),
    binary main_v196 main_v209 main_v233 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v232 main_v233 main_v234 (addf : (⟨S100000x64, .f32⟩ : BufTy).Contents (Elt F) → (⟨S100000x64, .f32⟩ : BufTy).Contents (Elt F) → (⟨S100000x64, .f32⟩ : BufTy).Contents (Elt F)),
    binary main_v200 main_v234 main_v235 (addf : (⟨S100000x64, .f32⟩ : BufTy).Contents (Elt F) → (⟨S100000x64, .f32⟩ : BufTy).Contents (Elt F) → (⟨S100000x64, .f32⟩ : BufTy).Contents (Elt F)) ]

/-- The buffers these operations write. -/
abbrev c7_W : List (Ref sig .tc) := [main_v204, main_v205, main_v206, main_v207, main_v208, main_v209, main_c_42, main_v210, main_v211, main_c_43, main_v212, main_v213, main_v214, main_v215, main_v216, main_cst_44, main_v217, main_v218, main_v219, main_cst_45, main_v220, main_cst_46, main_v221, main_v222, main_v223, main_cst_47, main_v224, main_v225, main_v226, main_v227, main_v228, main_v229, main_v230, main_v231, main_v232, main_v233, main_v234, main_v235]

theorem c7_writes : (c7 : List (HloOp τ sig (Elt F))).Forall fun op => op.writes ⊆ (c7_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

variable (W : Valuation τ sig (Elt F)) (x0 : (⟨S100000x64, .f32⟩ : BufTy).Contents (Elt F)) (x1 : (⟨S50000x64, .f32⟩ : BufTy).Contents (Elt F)) (x2 : (⟨S2000x64, .f32⟩ : BufTy).Contents (Elt F)) (x3 : (⟨S5000x64, .f32⟩ : BufTy).Contents (Elt F)) (x4 : (⟨S2x6x64x64, .f32⟩ : BufTy).Contents (Elt F)) (x5 : (⟨S2x6x64, .f32⟩ : BufTy).Contents (Elt F)) (x6 : (⟨S2x6x64x64, .f32⟩ : BufTy).Contents (Elt F)) (x7 : (⟨S128x64, .f32⟩ : BufTy).Contents (Elt F)) (x8 : (⟨S64, .f32⟩ : BufTy).Contents (Elt F)) (x9 : (⟨S64x4, .f32⟩ : BufTy).Contents (Elt F)) (x10 : (⟨S4, .f32⟩ : BufTy).Contents (Elt F)) (x11 x12 x13 x14 : (⟨S2000000, .i32⟩ : BufTy).Contents (Elt F)) (x15 x16 x17 x18 : (⟨S100000, .i32⟩ : BufTy).Contents (Elt F)) (x19 x20 x21 x22 : (⟨S200000, .i32⟩ : BufTy).Contents (Elt F)) (x23 x24 : (⟨S100000, .i32⟩ : BufTy).Contents (Elt F))

/-- A buffer the piece does not write keeps its contents through it. -/
theorem c7_keep (r : Ref sig .tc) (h : r ∉ c7_W) : after c7 W (Proc.devRef .tc r) = W (Proc.devRef .tc r) :=
  after_of_writes_sub c7 W c7_writes h

/-- The arguments are as they were. -/
theorem step7_args (ha : ArgsAt W x0 x1 x2 x3 x4 x5 x6 x7 x8 x9 x10 x11 x12 x13 x14 x15 x16 x17 x18 x19 x20 x21 x22 x23 x24) : ArgsAt (after c7 W) x0 x1 x2 x3 x4 x5 x6 x7 x8 x9 x10 x11 x12 x13 x14 x15 x16 x17 x18 x19 x20 x21 x22 x23 x24 :=
  ⟨(c7_keep W main_arg0 (by decide)).trans ha.at_main_arg0,
   (c7_keep W main_arg1 (by decide)).trans ha.at_main_arg1,
   (c7_keep W main_arg2 (by decide)).trans ha.at_main_arg2,
   (c7_keep W main_arg3 (by decide)).trans ha.at_main_arg3,
   (c7_keep W main_arg4 (by decide)).trans ha.at_main_arg4,
   (c7_keep W main_arg5 (by decide)).trans ha.at_main_arg5,
   (c7_keep W main_arg6 (by decide)).trans ha.at_main_arg6,
   (c7_keep W main_arg7 (by decide)).trans ha.at_main_arg7,
   (c7_keep W main_arg8 (by decide)).trans ha.at_main_arg8,
   (c7_keep W main_arg9 (by decide)).trans ha.at_main_arg9,
   (c7_keep W main_arg10 (by decide)).trans ha.at_main_arg10,
   (c7_keep W main_arg11 (by decide)).trans ha.at_main_arg11,
   (c7_keep W main_arg12 (by decide)).trans ha.at_main_arg12,
   (c7_keep W main_arg13 (by decide)).trans ha.at_main_arg13,
   (c7_keep W main_arg14 (by decide)).trans ha.at_main_arg14,
   (c7_keep W main_arg15 (by decide)).trans ha.at_main_arg15,
   (c7_keep W main_arg16 (by decide)).trans ha.at_main_arg16,
   (c7_keep W main_arg17 (by decide)).trans ha.at_main_arg17,
   (c7_keep W main_arg18 (by decide)).trans ha.at_main_arg18,
   (c7_keep W main_arg19 (by decide)).trans ha.at_main_arg19,
   (c7_keep W main_arg20 (by decide)).trans ha.at_main_arg20,
   (c7_keep W main_arg21 (by decide)).trans ha.at_main_arg21,
   (c7_keep W main_arg22 (by decide)).trans ha.at_main_arg22,
   (c7_keep W main_arg23 (by decide)).trans ha.at_main_arg23,
   (c7_keep W main_arg24 (by decide)).trans ha.at_main_arg24⟩

set_option maxHeartbeats 2000000 in
/-- `main_v235` after the piece: its stage. -/
theorem step7_main_v235 (ha : ArgsAt W x0 x1 x2 x3 x4 x5 x6 x7 x8 x9 x10 x11 x12 x13 x14 x15 x16 x17 x18 x19 x20 x21 x22 x23 x24) (hl : Live7 W x0 x1 x2 x3 x4 x5 x6 x7 x8 x9 x10 x11 x12 x13 x14 x15 x16 x17 x18 x19 x20 x21 x22 x23 x24) :
    after c7 W (Proc.devRef .tc main_v235) = val_main_v235 (F := F) x0 x1 x2 x3 x4 x5 x6 x11 x12 x13 x14 x17 x18 x21 x22 := by
  simp only [c7]
  after_results_simp
  simp only [ha.at_main_arg6, hl.at_main_v196, ha.at_main_arg5, ha.at_main_arg4, ha.at_main_arg12, ha.at_main_arg11, hl.at_main_v197, hl.at_main_v200]
  rfl

/-- Every buffer live after the piece holds its stage. -/
theorem step7 (ha : ArgsAt W x0 x1 x2 x3 x4 x5 x6 x7 x8 x9 x10 x11 x12 x13 x14 x15 x16 x17 x18 x19 x20 x21 x22 x23 x24) (hl : Live7 W x0 x1 x2 x3 x4 x5 x6 x7 x8 x9 x10 x11 x12 x13 x14 x15 x16 x17 x18 x19 x20 x21 x22 x23 x24) : Live8 (after c7 W) x0 x1 x2 x3 x4 x5 x6 x7 x8 x9 x10 x11 x12 x13 x14 x15 x16 x17 x18 x19 x20 x21 x22 x23 x24 :=
  ⟨(c7_keep W main_v196 (by decide)).trans hl.at_main_v196,
   (c7_keep W main_v197 (by decide)).trans hl.at_main_v197,
   (c7_keep W main_v198 (by decide)).trans hl.at_main_v198,
   (c7_keep W main_v199 (by decide)).trans hl.at_main_v199,
   (c7_keep W main_v201 (by decide)).trans hl.at_main_v201,
   (c7_keep W main_v202 (by decide)).trans hl.at_main_v202,
   (c7_keep W main_v203 (by decide)).trans hl.at_main_v203,
   step7_main_v235 W x0 x1 x2 x3 x4 x5 x6 x7 x8 x9 x10 x11 x12 x13 x14 x15 x16 x17 x18 x19 x20 x21 x22 x23 x24 ha hl⟩

end Cert.ReferenceIdeal.Chunks

end
-- ==== Proof.RefChunks.C8.lean ====
/- The reference program's run, read back in pieces: piece 8, operations 294 … 331 of @main's 514.
   Running the piece from contents in which the arguments hold x0 … x24 and the buffers live at operation 294 hold their stages
   leaves the arguments as they were (no operation writes one) and every buffer live at operation 332 at its stage: a buffer
   the piece does not write keeps its contents; a buffer it writes holds its operation's function of its operands' contents,
   the operands read off the same way down to the buffers written before the piece, where the hypothesis says what they hold. -/
import proofs.«154750_j39152921870699_1_alg».proof.Proof.RefChunks.Inv

noncomputable section

namespace Cert.ReferenceIdeal.Chunks

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- Operations 294 … 331 of the reference's @main, as printed. -/
abbrev c8 : List (HloOp τ sig (Elt F)) :=
  [ unary main_arg4 main_v236 ((extractStridedSlice S1x1x64x64 ![1, 1, 0, 0] · slices_S2x6x64x64_S1x1x64x64_1_1_0_0) : (⟨S2x6x64x64, .f32⟩ : BufTy).Contents (Elt F) → (⟨S1x1x64x64, .f32⟩ : BufTy).Contents (Elt F)),
    reshape main_v236 main_v237 rfl shapeCasts_S1x1x64x64_S64x64,
    unary main_arg5 main_v238 ((extractStridedSlice S1x1x64 ![1, 1, 0] · slices_S2x6x64_S1x1x64_1_1_0) : (⟨S2x6x64, .f32⟩ : BufTy).Contents (Elt F) → (⟨S1x1x64, .f32⟩ : BufTy).Contents (Elt F)),
    reshape main_v238 main_v239 rfl shapeCasts_S1x1x64_S64,
    unary main_arg6 main_v240 ((extractStridedSlice S1x1x64x64 ![1, 1, 0, 0] · slices_S2x6x64x64_S1x1x64x64_1_1_0_0) : (⟨S2x6x64x64, .f32⟩ : BufTy).Contents (Elt F) → (⟨S1x1x64x64, .f32⟩ : BufTy).Contents (Elt F)),
    reshape main_v240 main_v241 rfl shapeCasts_S1x1x64x64_S64x64,
    nullary main_c_48 (constantI S_ 32 0#32),
    unary main_c_48 main_v242 (broadcastInDim S2000000 ![] bcast_S_S2000000 : (⟨S_, .i32⟩ : BufTy).Contents (Elt F) → (⟨S2000000, .i32⟩ : BufTy).Contents (Elt F)),
    binary main_arg13 main_v242 main_v243 (cmpi .slt : (⟨S2000000, .i32⟩ : BufTy).Contents (Elt F) → (⟨S2000000, .i32⟩ : BufTy).Contents (Elt F) → (⟨S2000000, .i1⟩ : BufTy).Contents (Elt F)),
    nullary main_c_49 (constantI S_ 32 100000#32),
    unary main_c_49 main_v244 (broadcastInDim S2000000 ![] bcast_S_S2000000 : (⟨S_, .i32⟩ : BufTy).Contents (Elt F) → (⟨S2000000, .i32⟩ : BufTy).Contents (Elt F)),
    binary main_arg13 main_v244 main_v245 (addi : (⟨S2000000, .i32⟩ : BufTy).Contents (Elt F) → (⟨S2000000, .i32⟩ : BufTy).Contents (Elt F) → (⟨S2000000, .i32⟩ : BufTy).Contents (Elt F)),
    ternary main_v243 main_v245 main_arg13 main_v246 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v246 main_v247 (broadcastInDim S2000000x1 ![0] bcast_S2000000_S2000000x1_0 : (⟨S2000000, .i32⟩ : BufTy).Contents (Elt F) → (⟨S2000000x1, .i32⟩ : BufTy).Contents (Elt F)),
    binary main_v196 main_v247 main_v248 ((fun x i => Host.gather gather_S100000x64_S2000000x1_S2000000x64_1_0_n_n_0_1_164 x i) : (⟨S100000x64, .f32⟩ : BufTy).Contents (Elt F) → (⟨S2000000x1, .i32⟩ : BufTy).Contents (Elt F) → (⟨S2000000x64, .f32⟩ : BufTy).Contents (Elt F)),
    nullary main_cst_50 (constant S_ .f32 0x00000000#32),
    unary main_cst_50 main_v249 (broadcastInDim S50000x64 ![] bcast_S_S50000x64 : (⟨S_, .f32⟩ : BufTy).Contents (Elt F) → (⟨S50000x64, .f32⟩ : BufTy).Contents (Elt F)),
    unary main_arg14 main_v250 (broadcastInDim S2000000x1 ![0] bcast_S2000000_S2000000x1_0 : (⟨S2000000, .i32⟩ : BufTy).Contents (Elt F) → (⟨S2000000x1, .i32⟩ : BufTy).Contents (Elt F)),
    ternary main_v249 main_v250 main_v248 main_v251 ((fun x i u => Host.scatterAdd scatter_S50000x64_S2000000x1_S2000000x64_1_0_0_1 x i u) : (⟨S50000x64, .f32⟩ : BufTy).Contents (Elt F) → (⟨S2000000x1, .i32⟩ : BufTy).Contents (Elt F) → (⟨S2000000x64, .f32⟩ : BufTy).Contents (Elt F) → (⟨S50000x64, .f32⟩ : BufTy).Contents (Elt F)),
    nullary main_cst_51 (constant S_ .f32 0x3F800000#32),
    unary main_cst_51 main_v252 (broadcastInDim S2000000 ![] bcast_S_S2000000 : (⟨S_, .f32⟩ : BufTy).Contents (Elt F) → (⟨S2000000, .f32⟩ : BufTy).Contents (Elt F)),
    nullary main_cst_52 (constant S_ .f32 0x00000000#32),
    unary main_cst_52 main_v253 (broadcastInDim S50000 ![] bcast_S_S50000 : (⟨S_, .f32⟩ : BufTy).Contents (Elt F) → (⟨S50000, .f32⟩ : BufTy).Contents (Elt F)),
    unary main_arg14 main_v254 (broadcastInDim S2000000x1 ![0] bcast_S2000000_S2000000x1_0 : (⟨S2000000, .i32⟩ : BufTy).Contents (Elt F) → (⟨S2000000x1, .i32⟩ : BufTy).Contents (Elt F)),
    ternary main_v253 main_v254 main_v252 main_v255 ((fun x i u => Host.scatterAdd scatter_S50000_S2000000x1_S2000000_n_0_0_1 x i u) : (⟨S50000, .f32⟩ : BufTy).Contents (Elt F) → (⟨S2000000x1, .i32⟩ : BufTy).Contents (Elt F) → (⟨S2000000, .f32⟩ : BufTy).Contents (Elt F) → (⟨S50000, .f32⟩ : BufTy).Contents (Elt F)),
    nullary main_cst_53 (constant S_ .f32 0x3F800000#32),
    unary main_cst_53 main_v256 (broadcastInDim S50000 ![] bcast_S_S50000 : (⟨S_, .f32⟩ : BufTy).Contents (Elt F) → (⟨S50000, .f32⟩ : BufTy).Contents (Elt F)),
    binary main_v255 main_v256 main_v257 (maximumf : (⟨S50000, .f32⟩ : BufTy).Contents (Elt F) → (⟨S50000, .f32⟩ : BufTy).Contents (Elt F) → (⟨S50000, .f32⟩ : BufTy).Contents (Elt F)),
    unary main_v257 main_v258 (broadcastInDim S50000x1 ![0] bcast_S50000_S50000x1_0 : (⟨S50000, .f32⟩ : BufTy).Contents (Elt F) → (⟨S50000x1, .f32⟩ : BufTy).Contents (Elt F)),
    unary main_v258 main_v259 (broadcastInDim S50000x64 ![0, 1] bcast_S50000x1_S50000x64_0_1 : (⟨S50000x1, .f32⟩ : BufTy).Contents (Elt F) → (⟨S50000x64, .f32⟩ : BufTy).Contents (Elt F)),
    binary main_v251 main_v259 main_v260 (Host.divf : (⟨S50000x64, .f32⟩ : BufTy).Contents (Elt F) → (⟨S50000x64, .f32⟩ : BufTy).Contents (Elt F) → (⟨S50000x64, .f32⟩ : BufTy).Contents (Elt F)),
    binary main_v260 main_v237 main_v261 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_v239 main_v262 (broadcastInDim S1x64 ![1] bcast_S64_S1x64_1 : (⟨S64, .f32⟩ : BufTy).Contents (Elt F) → (⟨S1x64, .f32⟩ : BufTy).Contents (Elt F)),
    unary main_v262 main_v263 (broadcastInDim S50000x64 ![0, 1] bcast_S1x64_S50000x64_0_1 : (⟨S1x64, .f32⟩ : BufTy).Contents (Elt F) → (⟨S50000x64, .f32⟩ : BufTy).Contents (Elt F)),
    binary main_v261 main_v263 main_v264 (addf : (⟨S50000x64, .f32⟩ : BufTy).Contents (Elt F) → (⟨S50000x64, .f32⟩ : BufTy).Contents (Elt F) → (⟨S50000x64, .f32⟩ : BufTy).Contents (Elt F)),
    binary main_v197 main_v241 main_v265 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v264 main_v265 main_v266 (addf : (⟨S50000x64, .f32⟩ : BufTy).Contents (Elt F) → (⟨S50000x64, .f32⟩ : BufTy).Contents (Elt F) → (⟨S50000x64, .f32⟩ : BufTy).Contents (Elt F)),
    binary main_v201 main_v266 main_v267 (addf : (⟨S50000x64, .f32⟩ : BufTy).Contents (Elt F) → (⟨S50000x64, .f32⟩ : BufTy).Contents (Elt F) → (⟨S50000x64, .f32⟩ : BufTy).Contents (Elt F)) ]

/-- The buffers these operations write. -/
abbrev c8_W : List (Ref sig .tc) := [main_v236, main_v237, main_v238, main_v239, main_v240, main_v241, main_c_48, main_v242, main_v243, main_c_49, main_v244, main_v245, main_v246, main_v247, main_v248, main_cst_50, main_v249, main_v250, main_v251, main_cst_51, main_v252, main_cst_52, main_v253, main_v254, main_v255, main_cst_53, main_v256, main_v257, main_v258, main_v259, main_v260, main_v261, main_v262, main_v263, main_v264, main_v265, main_v266, main_v267]

theorem c8_writes : (c8 : List (HloOp τ sig (Elt F))).Forall fun op => op.writes ⊆ (c8_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

variable (W : Valuation τ sig (Elt F)) (x0 : (⟨S100000x64, .f32⟩ : BufTy).Contents (Elt F)) (x1 : (⟨S50000x64, .f32⟩ : BufTy).Contents (Elt F)) (x2 : (⟨S2000x64, .f32⟩ : BufTy).Contents (Elt F)) (x3 : (⟨S5000x64, .f32⟩ : BufTy).Contents (Elt F)) (x4 : (⟨S2x6x64x64, .f32⟩ : BufTy).Contents (Elt F)) (x5 : (⟨S2x6x64, .f32⟩ : BufTy).Contents (Elt F)) (x6 : (⟨S2x6x64x64, .f32⟩ : BufTy).Contents (Elt F)) (x7 : (⟨S128x64, .f32⟩ : BufTy).Contents (Elt F)) (x8 : (⟨S64, .f32⟩ : BufTy).Contents (Elt F)) (x9 : (⟨S64x4, .f32⟩ : BufTy).Contents (Elt F)) (x10 : (⟨S4, .f32⟩ : BufTy).Contents (Elt F)) (x11 x12 x13 x14 : (⟨S2000000, .i32⟩ : BufTy).Contents (Elt F)) (x15 x16 x17 x18 : (⟨S100000, .i32⟩ : BufTy).Contents (Elt F)) (x19 x20 x21 x22 : (⟨S200000, .i32⟩ : BufTy).Contents (Elt F)) (x23 x24 : (⟨S100000, .i32⟩ : BufTy).Contents (Elt F))

/-- A buffer the piece does not write keeps its contents through it. -/
theorem c8_keep (r : Ref sig .tc) (h : r ∉ c8_W) : after c8 W (Proc.devRef .tc r) = W (Proc.devRef .tc r) :=
  after_of_writes_sub c8 W c8_writes h

/-- The arguments are as they were. -/
theorem step8_args (ha : ArgsAt W x0 x1 x2 x3 x4 x5 x6 x7 x8 x9 x10 x11 x12 x13 x14 x15 x16 x17 x18 x19 x20 x21 x22 x23 x24) : ArgsAt (after c8 W) x0 x1 x2 x3 x4 x5 x6 x7 x8 x9 x10 x11 x12 x13 x14 x15 x16 x17 x18 x19 x20 x21 x22 x23 x24 :=
  ⟨(c8_keep W main_arg0 (by decide)).trans ha.at_main_arg0,
   (c8_keep W main_arg1 (by decide)).trans ha.at_main_arg1,
   (c8_keep W main_arg2 (by decide)).trans ha.at_main_arg2,
   (c8_keep W main_arg3 (by decide)).trans ha.at_main_arg3,
   (c8_keep W main_arg4 (by decide)).trans ha.at_main_arg4,
   (c8_keep W main_arg5 (by decide)).trans ha.at_main_arg5,
   (c8_keep W main_arg6 (by decide)).trans ha.at_main_arg6,
   (c8_keep W main_arg7 (by decide)).trans ha.at_main_arg7,
   (c8_keep W main_arg8 (by decide)).trans ha.at_main_arg8,
   (c8_keep W main_arg9 (by decide)).trans ha.at_main_arg9,
   (c8_keep W main_arg10 (by decide)).trans ha.at_main_arg10,
   (c8_keep W main_arg11 (by decide)).trans ha.at_main_arg11,
   (c8_keep W main_arg12 (by decide)).trans ha.at_main_arg12,
   (c8_keep W main_arg13 (by decide)).trans ha.at_main_arg13,
   (c8_keep W main_arg14 (by decide)).trans ha.at_main_arg14,
   (c8_keep W main_arg15 (by decide)).trans ha.at_main_arg15,
   (c8_keep W main_arg16 (by decide)).trans ha.at_main_arg16,
   (c8_keep W main_arg17 (by decide)).trans ha.at_main_arg17,
   (c8_keep W main_arg18 (by decide)).trans ha.at_main_arg18,
   (c8_keep W main_arg19 (by decide)).trans ha.at_main_arg19,
   (c8_keep W main_arg20 (by decide)).trans ha.at_main_arg20,
   (c8_keep W main_arg21 (by decide)).trans ha.at_main_arg21,
   (c8_keep W main_arg22 (by decide)).trans ha.at_main_arg22,
   (c8_keep W main_arg23 (by decide)).trans ha.at_main_arg23,
   (c8_keep W main_arg24 (by decide)).trans ha.at_main_arg24⟩

set_option maxHeartbeats 2000000 in
/-- `main_v267` after the piece: its stage. -/
theorem step8_main_v267 (ha : ArgsAt W x0 x1 x2 x3 x4 x5 x6 x7 x8 x9 x10 x11 x12 x13 x14 x15 x16 x17 x18 x19 x20 x21 x22 x23 x24) (hl : Live8 W x0 x1 x2 x3 x4 x5 x6 x7 x8 x9 x10 x11 x12 x13 x14 x15 x16 x17 x18 x19 x20 x21 x22 x23 x24) :
    after c8 W (Proc.devRef .tc main_v267) = val_main_v267 (F := F) x0 x1 x2 x3 x4 x5 x6 x11 x12 x13 x14 x17 x18 x21 x22 := by
  simp only [c8]
  after_results_simp
  simp only [ha.at_main_arg6, hl.at_main_v197, ha.at_main_arg5, ha.at_main_arg4, ha.at_main_arg14, ha.at_main_arg13, hl.at_main_v196, hl.at_main_v201]
  rfl

/-- Every buffer live after the piece holds its stage. -/
theorem step8 (ha : ArgsAt W x0 x1 x2 x3 x4 x5 x6 x7 x8 x9 x10 x11 x12 x13 x14 x15 x16 x17 x18 x19 x20 x21 x22 x23 x24) (hl : Live8 W x0 x1 x2 x3 x4 x5 x6 x7 x8 x9 x10 x11 x12 x13 x14 x15 x16 x17 x18 x19 x20 x21 x22 x23 x24) : Live9 (after c8 W) x0 x1 x2 x3 x4 x5 x6 x7 x8 x9 x10 x11 x12 x13 x14 x15 x16 x17 x18 x19 x20 x21 x22 x23 x24 :=
  ⟨(c8_keep W main_v196 (by decide)).trans hl.at_main_v196,
   (c8_keep W main_v197 (by decide)).trans hl.at_main_v197,
   (c8_keep W main_v198 (by decide)).trans hl.at_main_v198,
   (c8_keep W main_v199 (by decide)).trans hl.at_main_v199,
   (c8_keep W main_v202 (by decide)).trans hl.at_main_v202,
   (c8_keep W main_v203 (by decide)).trans hl.at_main_v203,
   (c8_keep W main_v235 (by decide)).trans hl.at_main_v235,
   step8_main_v267 W x0 x1 x2 x3 x4 x5 x6 x7 x8 x9 x10 x11 x12 x13 x14 x15 x16 x17 x18 x19 x20 x21 x22 x23 x24 ha hl⟩

end Cert.ReferenceIdeal.Chunks

end
-- ==== Proof.RefChunks.C9.lean ====
/- The reference program's run, read back in pieces: piece 9, operations 332 … 369 of @main's 514.
   Running the piece from contents in which the arguments hold x0 … x24 and the buffers live at operation 332 hold their stages
   leaves the arguments as they were (no operation writes one) and every buffer live at operation 370 at its stage: a buffer
   the piece does not write keeps its contents; a buffer it writes holds its operation's function of its operands' contents,
   the operands read off the same way down to the buffers written before the piece, where the hypothesis says what they hold. -/
import proofs.«154750_j39152921870699_1_alg».proof.Proof.RefChunks.Inv

noncomputable section

namespace Cert.ReferenceIdeal.Chunks

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- Operations 332 … 369 of the reference's @main, as printed. -/
abbrev c9 : List (HloOp τ sig (Elt F)) :=
  [ unary main_arg4 main_v268 ((extractStridedSlice S1x1x64x64 ![1, 2, 0, 0] · slices_S2x6x64x64_S1x1x64x64_1_2_0_0) : (⟨S2x6x64x64, .f32⟩ : BufTy).Contents (Elt F) → (⟨S1x1x64x64, .f32⟩ : BufTy).Contents (Elt F)),
    reshape main_v268 main_v269 rfl shapeCasts_S1x1x64x64_S64x64,
    unary main_arg5 main_v270 ((extractStridedSlice S1x1x64 ![1, 2, 0] · slices_S2x6x64_S1x1x64_1_2_0) : (⟨S2x6x64, .f32⟩ : BufTy).Contents (Elt F) → (⟨S1x1x64, .f32⟩ : BufTy).Contents (Elt F)),
    reshape main_v270 main_v271 rfl shapeCasts_S1x1x64_S64,
    unary main_arg6 main_v272 ((extractStridedSlice S1x1x64x64 ![1, 2, 0, 0] · slices_S2x6x64x64_S1x1x64x64_1_2_0_0) : (⟨S2x6x64x64, .f32⟩ : BufTy).Contents (Elt F) → (⟨S1x1x64x64, .f32⟩ : BufTy).Contents (Elt F)),
    reshape main_v272 main_v273 rfl shapeCasts_S1x1x64x64_S64x64,
    nullary main_c_54 (constantI S_ 32 0#32),
    unary main_c_54 main_v274 (broadcastInDim S100000 ![] bcast_S_S100000 : (⟨S_, .i32⟩ : BufTy).Contents (Elt F) → (⟨S100000, .i32⟩ : BufTy).Contents (Elt F)),
    binary main_arg15 main_v274 main_v275 (cmpi .slt : (⟨S100000, .i32⟩ : BufTy).Contents (Elt F) → (⟨S100000, .i32⟩ : BufTy).Contents (Elt F) → (⟨S100000, .i1⟩ : BufTy).Contents (Elt F)),
    nullary main_c_55 (constantI S_ 32 50000#32),
    unary main_c_55 main_v276 (broadcastInDim S100000 ![] bcast_S_S100000 : (⟨S_, .i32⟩ : BufTy).Contents (Elt F) → (⟨S100000, .i32⟩ : BufTy).Contents (Elt F)),
    binary main_arg15 main_v276 main_v277 (addi : (⟨S100000, .i32⟩ : BufTy).Contents (Elt F) → (⟨S100000, .i32⟩ : BufTy).Contents (Elt F) → (⟨S100000, .i32⟩ : BufTy).Contents (Elt F)),
    ternary main_v275 main_v277 main_arg15 main_v278 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v278 main_v279 (broadcastInDim S100000x1 ![0] bcast_S100000_S100000x1_0 : (⟨S100000, .i32⟩ : BufTy).Contents (Elt F) → (⟨S100000x1, .i32⟩ : BufTy).Contents (Elt F)),
    binary main_v197 main_v279 main_v280 ((fun x i => Host.gather gather_S50000x64_S100000x1_S100000x64_1_0_n_n_0_1_164 x i) : (⟨S50000x64, .f32⟩ : BufTy).Contents (Elt F) → (⟨S100000x1, .i32⟩ : BufTy).Contents (Elt F) → (⟨S100000x64, .f32⟩ : BufTy).Contents (Elt F)),
    nullary main_cst_56 (constant S_ .f32 0x00000000#32),
    unary main_cst_56 main_v281 (broadcastInDim S2000x64 ![] bcast_S_S2000x64 : (⟨S_, .f32⟩ : BufTy).Contents (Elt F) → (⟨S2000x64, .f32⟩ : BufTy).Contents (Elt F)),
    unary main_arg16 main_v282 (broadcastInDim S100000x1 ![0] bcast_S100000_S100000x1_0 : (⟨S100000, .i32⟩ : BufTy).Contents (Elt F) → (⟨S100000x1, .i32⟩ : BufTy).Contents (Elt F)),
    ternary main_v281 main_v282 main_v280 main_v283 ((fun x i u => Host.scatterAdd scatter_S2000x64_S100000x1_S100000x64_1_0_0_1 x i u) : (⟨S2000x64, .f32⟩ : BufTy).Contents (Elt F) → (⟨S100000x1, .i32⟩ : BufTy).Contents (Elt F) → (⟨S100000x64, .f32⟩ : BufTy).Contents (Elt F) → (⟨S2000x64, .f32⟩ : BufTy).Contents (Elt F)),
    nullary main_cst_57 (constant S_ .f32 0x3F800000#32),
    unary main_cst_57 main_v284 (broadcastInDim S100000 ![] bcast_S_S100000 : (⟨S_, .f32⟩ : BufTy).Contents (Elt F) → (⟨S100000, .f32⟩ : BufTy).Contents (Elt F)),
    nullary main_cst_58 (constant S_ .f32 0x00000000#32),
    unary main_cst_58 main_v285 (broadcastInDim S2000 ![] bcast_S_S2000 : (⟨S_, .f32⟩ : BufTy).Contents (Elt F) → (⟨S2000, .f32⟩ : BufTy).Contents (Elt F)),
    unary main_arg16 main_v286 (broadcastInDim S100000x1 ![0] bcast_S100000_S100000x1_0 : (⟨S100000, .i32⟩ : BufTy).Contents (Elt F) → (⟨S100000x1, .i32⟩ : BufTy).Contents (Elt F)),
    ternary main_v285 main_v286 main_v284 main_v287 ((fun x i u => Host.scatterAdd scatter_S2000_S100000x1_S100000_n_0_0_1 x i u) : (⟨S2000, .f32⟩ : BufTy).Contents (Elt F) → (⟨S100000x1, .i32⟩ : BufTy).Contents (Elt F) → (⟨S100000, .f32⟩ : BufTy).Contents (Elt F) → (⟨S2000, .f32⟩ : BufTy).Contents (Elt F)),
    nullary main_cst_59 (constant S_ .f32 0x3F800000#32),
    unary main_cst_59 main_v288 (broadcastInDim S2000 ![] bcast_S_S2000 : (⟨S_, .f32⟩ : BufTy).Contents (Elt F) → (⟨S2000, .f32⟩ : BufTy).Contents (Elt F)),
    binary main_v287 main_v288 main_v289 (maximumf : (⟨S2000, .f32⟩ : BufTy).Contents (Elt F) → (⟨S2000, .f32⟩ : BufTy).Contents (Elt F) → (⟨S2000, .f32⟩ : BufTy).Contents (Elt F)),
    unary main_v289 main_v290 (broadcastInDim S2000x1 ![0] bcast_S2000_S2000x1_0 : (⟨S2000, .f32⟩ : BufTy).Contents (Elt F) → (⟨S2000x1, .f32⟩ : BufTy).Contents (Elt F)),
    unary main_v290 main_v291 (broadcastInDim S2000x64 ![0, 1] bcast_S2000x1_S2000x64_0_1 : (⟨S2000x1, .f32⟩ : BufTy).Contents (Elt F) → (⟨S2000x64, .f32⟩ : BufTy).Contents (Elt F)),
    binary main_v283 main_v291 main_v292 (Host.divf : (⟨S2000x64, .f32⟩ : BufTy).Contents (Elt F) → (⟨S2000x64, .f32⟩ : BufTy).Contents (Elt F) → (⟨S2000x64, .f32⟩ : BufTy).Contents (Elt F)),
    binary main_v292 main_v269 main_v293 ((fun l r => Host.dotGeneral dot_S2000x64_S64x64_S2000x64_1_0_0_1_n_n none l r) : (⟨S2000x64, .f32⟩ : BufTy).Contents (Elt F) → (⟨S64x64, .f32⟩ : BufTy).Contents (Elt F) → (⟨S2000x64, .f32⟩ : BufTy).Contents (Elt F)),
    unary main_v271 main_v294 (broadcastInDim S1x64 ![1] bcast_S64_S1x64_1 : (⟨S64, .f32⟩ : BufTy).Contents (Elt F) → (⟨S1x64, .f32⟩ : BufTy).Contents (Elt F)),
    unary main_v294 main_v295 (broadcastInDim S2000x64 ![0, 1] bcast_S1x64_S2000x64_0_1 : (⟨S1x64, .f32⟩ : BufTy).Contents (Elt F) → (⟨S2000x64, .f32⟩ : BufTy).Contents (Elt F)),
    binary main_v293 main_v295 main_v296 (addf : (⟨S2000x64, .f32⟩ : BufTy).Contents (Elt F) → (⟨S2000x64, .f32⟩ : BufTy).Contents (Elt F) → (⟨S2000x64, .f32⟩ : BufTy).Contents (Elt F)),
    binary main_v198 main_v273 main_v297 ((fun l r => Host.dotGeneral dot_S2000x64_S64x64_S2000x64_1_0_0_1_n_n none l r) : (⟨S2000x64, .f32⟩ : BufTy).Contents (Elt F) → (⟨S64x64, .f32⟩ : BufTy).Contents (Elt F) → (⟨S2000x64, .f32⟩ : BufTy).Contents (Elt F)),
    binary main_v296 main_v297 main_v298 (addf : (⟨S2000x64, .f32⟩ : BufTy).Contents (Elt F) → (⟨S2000x64, .f32⟩ : BufTy).Contents (Elt F) → (⟨S2000x64, .f32⟩ : BufTy).Contents (Elt F)),
    binary main_v202 main_v298 main_v299 (addf : (⟨S2000x64, .f32⟩ : BufTy).Contents (Elt F) → (⟨S2000x64, .f32⟩ : BufTy).Contents (Elt F) → (⟨S2000x64, .f32⟩ : BufTy).Contents (Elt F)) ]

/-- The buffers these operations write. -/
abbrev c9_W : List (Ref sig .tc) := [main_v268, main_v269, main_v270, main_v271, main_v272, main_v273, main_c_54, main_v274, main_v275, main_c_55, main_v276, main_v277, main_v278, main_v279, main_v280, main_cst_56, main_v281, main_v282, main_v283, main_cst_57, main_v284, main_cst_58, main_v285, main_v286, main_v287, main_cst_59, main_v288, main_v289, main_v290, main_v291, main_v292, main_v293, main_v294, main_v295, main_v296, main_v297, main_v298, main_v299]

theorem c9_writes : (c9 : List (HloOp τ sig (Elt F))).Forall fun op => op.writes ⊆ (c9_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

variable (W : Valuation τ sig (Elt F)) (x0 : (⟨S100000x64, .f32⟩ : BufTy).Contents (Elt F)) (x1 : (⟨S50000x64, .f32⟩ : BufTy).Contents (Elt F)) (x2 : (⟨S2000x64, .f32⟩ : BufTy).Contents (Elt F)) (x3 : (⟨S5000x64, .f32⟩ : BufTy).Contents (Elt F)) (x4 : (⟨S2x6x64x64, .f32⟩ : BufTy).Contents (Elt F)) (x5 : (⟨S2x6x64, .f32⟩ : BufTy).Contents (Elt F)) (x6 : (⟨S2x6x64x64, .f32⟩ : BufTy).Contents (Elt F)) (x7 : (⟨S128x64, .f32⟩ : BufTy).Contents (Elt F)) (x8 : (⟨S64, .f32⟩ : BufTy).Contents (Elt F)) (x9 : (⟨S64x4, .f32⟩ : BufTy).Contents (Elt F)) (x10 : (⟨S4, .f32⟩ : BufTy).Contents (Elt F)) (x11 x12 x13 x14 : (⟨S2000000, .i32⟩ : BufTy).Contents (Elt F)) (x15 x16 x17 x18 : (⟨S100000, .i32⟩ : BufTy).Contents (Elt F)) (x19 x20 x21 x22 : (⟨S200000, .i32⟩ : BufTy).Contents (Elt F)) (x23 x24 : (⟨S100000, .i32⟩ : BufTy).Contents (Elt F))

/-- A buffer the piece does not write keeps its contents through it. -/
theorem c9_keep (r : Ref sig .tc) (h : r ∉ c9_W) : after c9 W (Proc.devRef .tc r) = W (Proc.devRef .tc r) :=
  after_of_writes_sub c9 W c9_writes h

/-- The arguments are as they were. -/
theorem step9_args (ha : ArgsAt W x0 x1 x2 x3 x4 x5 x6 x7 x8 x9 x10 x11 x12 x13 x14 x15 x16 x17 x18 x19 x20 x21 x22 x23 x24) : ArgsAt (after c9 W) x0 x1 x2 x3 x4 x5 x6 x7 x8 x9 x10 x11 x12 x13 x14 x15 x16 x17 x18 x19 x20 x21 x22 x23 x24 :=
  ⟨(c9_keep W main_arg0 (by decide)).trans ha.at_main_arg0,
   (c9_keep W main_arg1 (by decide)).trans ha.at_main_arg1,
   (c9_keep W main_arg2 (by decide)).trans ha.at_main_arg2,
   (c9_keep W main_arg3 (by decide)).trans ha.at_main_arg3,
   (c9_keep W main_arg4 (by decide)).trans ha.at_main_arg4,
   (c9_keep W main_arg5 (by decide)).trans ha.at_main_arg5,
   (c9_keep W main_arg6 (by decide)).trans ha.at_main_arg6,
   (c9_keep W main_arg7 (by decide)).trans ha.at_main_arg7,
   (c9_keep W main_arg8 (by decide)).trans ha.at_main_arg8,
   (c9_keep W main_arg9 (by decide)).trans ha.at_main_arg9,
   (c9_keep W main_arg10 (by decide)).trans ha.at_main_arg10,
   (c9_keep W main_arg11 (by decide)).trans ha.at_main_arg11,
   (c9_keep W main_arg12 (by decide)).trans ha.at_main_arg12,
   (c9_keep W main_arg13 (by decide)).trans ha.at_main_arg13,
   (c9_keep W main_arg14 (by decide)).trans ha.at_main_arg14,
   (c9_keep W main_arg15 (by decide)).trans ha.at_main_arg15,
   (c9_keep W main_arg16 (by decide)).trans ha.at_main_arg16,
   (c9_keep W main_arg17 (by decide)).trans ha.at_main_arg17,
   (c9_keep W main_arg18 (by decide)).trans ha.at_main_arg18,
   (c9_keep W main_arg19 (by decide)).trans ha.at_main_arg19,
   (c9_keep W main_arg20 (by decide)).trans ha.at_main_arg20,
   (c9_keep W main_arg21 (by decide)).trans ha.at_main_arg21,
   (c9_keep W main_arg22 (by decide)).trans ha.at_main_arg22,
   (c9_keep W main_arg23 (by decide)).trans ha.at_main_arg23,
   (c9_keep W main_arg24 (by decide)).trans ha.at_main_arg24⟩

/-- Every buffer live after the piece holds its stage. -/
theorem step9 (ha : ArgsAt W x0 x1 x2 x3 x4 x5 x6 x7 x8 x9 x10 x11 x12 x13 x14 x15 x16 x17 x18 x19 x20 x21 x22 x23 x24) (hl : Live9 W x0 x1 x2 x3 x4 x5 x6 x7 x8 x9 x10 x11 x12 x13 x14 x15 x16 x17 x18 x19 x20 x21 x22 x23 x24) : Live10 (after c9 W) x0 x1 x2 x3 x4 x5 x6 x7 x8 x9 x10 x11 x12 x13 x14 x15 x16 x17 x18 x19 x20 x21 x22 x23 x24 :=
  ⟨(c9_keep W main_v196 (by decide)).trans hl.at_main_v196,
   (c9_keep W main_v197 (by decide)).trans hl.at_main_v197,
   (c9_keep W main_v198 (by decide)).trans hl.at_main_v198,
   (c9_keep W main_v199 (by decide)).trans hl.at_main_v199,
   (c9_keep W main_v203 (by decide)).trans hl.at_main_v203,
   (c9_keep W main_v235 (by decide)).trans hl.at_main_v235,
   (c9_keep W main_v267 (by decide)).trans hl.at_main_v267⟩

end Cert.ReferenceIdeal.Chunks

end
-- ==== Proof.RefChunks.C10.lean ====
/- The reference program's run, read back in pieces: piece 10, operations 370 … 407 of @main's 514.
   Running the piece from contents in which the arguments hold x0 … x24 and the buffers live at operation 370 hold their stages
   leaves the arguments as they were (no operation writes one) and every buffer live at operation 408 at its stage: a buffer
   the piece does not write keeps its contents; a buffer it writes holds its operation's function of its operands' contents,
   the operands read off the same way down to the buffers written before the piece, where the hypothesis says what they hold. -/
import proofs.«154750_j39152921870699_1_alg».proof.Proof.RefChunks.Inv

noncomputable section

namespace Cert.ReferenceIdeal.Chunks

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- Operations 370 … 407 of the reference's @main, as printed. -/
abbrev c10 : List (HloOp τ sig (Elt F)) :=
  [ unary main_arg4 main_v300 ((extractStridedSlice S1x1x64x64 ![1, 3, 0, 0] · slices_S2x6x64x64_S1x1x64x64_1_3_0_0) : (⟨S2x6x64x64, .f32⟩ : BufTy).Contents (Elt F) → (⟨S1x1x64x64, .f32⟩ : BufTy).Contents (Elt F)),
    reshape main_v300 main_v301 rfl shapeCasts_S1x1x64x64_S64x64,
    unary main_arg5 main_v302 ((extractStridedSlice S1x1x64 ![1, 3, 0] · slices_S2x6x64_S1x1x64_1_3_0) : (⟨S2x6x64, .f32⟩ : BufTy).Contents (Elt F) → (⟨S1x1x64, .f32⟩ : BufTy).Contents (Elt F)),
    reshape main_v302 main_v303 rfl shapeCasts_S1x1x64_S64,
    unary main_arg6 main_v304 ((extractStridedSlice S1x1x64x64 ![1, 3, 0, 0] · slices_S2x6x64x64_S1x1x64x64_1_3_0_0) : (⟨S2x6x64x64, .f32⟩ : BufTy).Contents (Elt F) → (⟨S1x1x64x64, .f32⟩ : BufTy).Contents (Elt F)),
    reshape main_v304 main_v305 rfl shapeCasts_S1x1x64x64_S64x64,
    nullary main_c_60 (constantI S_ 32 0#32),
    unary main_c_60 main_v306 (broadcastInDim S100000 ![] bcast_S_S100000 : (⟨S_, .i32⟩ : BufTy).Contents (Elt F) → (⟨S100000, .i32⟩ : BufTy).Contents (Elt F)),
    binary main_arg17 main_v306 main_v307 (cmpi .slt : (⟨S100000, .i32⟩ : BufTy).Contents (Elt F) → (⟨S100000, .i32⟩ : BufTy).Contents (Elt F) → (⟨S100000, .i1⟩ : BufTy).Contents (Elt F)),
    nullary main_c_61 (constantI S_ 32 2000#32),
    unary main_c_61 main_v308 (broadcastInDim S100000 ![] bcast_S_S100000 : (⟨S_, .i32⟩ : BufTy).Contents (Elt F) → (⟨S100000, .i32⟩ : BufTy).Contents (Elt F)),
    binary main_arg17 main_v308 main_v309 (addi : (⟨S100000, .i32⟩ : BufTy).Contents (Elt F) → (⟨S100000, .i32⟩ : BufTy).Contents (Elt F) → (⟨S100000, .i32⟩ : BufTy).Contents (Elt F)),
    ternary main_v307 main_v309 main_arg17 main_v310 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v310 main_v311 (broadcastInDim S100000x1 ![0] bcast_S100000_S100000x1_0 : (⟨S100000, .i32⟩ : BufTy).Contents (Elt F) → (⟨S100000x1, .i32⟩ : BufTy).Contents (Elt F)),
    binary main_v198 main_v311 main_v312 ((fun x i => Host.gather gather_S2000x64_S100000x1_S100000x64_1_0_n_n_0_1_164 x i) : (⟨S2000x64, .f32⟩ : BufTy).Contents (Elt F) → (⟨S100000x1, .i32⟩ : BufTy).Contents (Elt F) → (⟨S100000x64, .f32⟩ : BufTy).Contents (Elt F)),
    nullary main_cst_62 (constant S_ .f32 0x00000000#32),
    unary main_cst_62 main_v313 (broadcastInDim S50000x64 ![] bcast_S_S50000x64 : (⟨S_, .f32⟩ : BufTy).Contents (Elt F) → (⟨S50000x64, .f32⟩ : BufTy).Contents (Elt F)),
    unary main_arg18 main_v314 (broadcastInDim S100000x1 ![0] bcast_S100000_S100000x1_0 : (⟨S100000, .i32⟩ : BufTy).Contents (Elt F) → (⟨S100000x1, .i32⟩ : BufTy).Contents (Elt F)),
    ternary main_v313 main_v314 main_v312 main_v315 ((fun x i u => Host.scatterAdd scatter_S50000x64_S100000x1_S100000x64_1_0_0_1 x i u) : (⟨S50000x64, .f32⟩ : BufTy).Contents (Elt F) → (⟨S100000x1, .i32⟩ : BufTy).Contents (Elt F) → (⟨S100000x64, .f32⟩ : BufTy).Contents (Elt F) → (⟨S50000x64, .f32⟩ : BufTy).Contents (Elt F)),
    nullary main_cst_63 (constant S_ .f32 0x3F800000#32),
    unary main_cst_63 main_v316 (broadcastInDim S100000 ![] bcast_S_S100000 : (⟨S_, .f32⟩ : BufTy).Contents (Elt F) → (⟨S100000, .f32⟩ : BufTy).Contents (Elt F)),
    nullary main_cst_64 (constant S_ .f32 0x00000000#32),
    unary main_cst_64 main_v317 (broadcastInDim S50000 ![] bcast_S_S50000 : (⟨S_, .f32⟩ : BufTy).Contents (Elt F) → (⟨S50000, .f32⟩ : BufTy).Contents (Elt F)),
    unary main_arg18 main_v318 (broadcastInDim S100000x1 ![0] bcast_S100000_S100000x1_0 : (⟨S100000, .i32⟩ : BufTy).Contents (Elt F) → (⟨S100000x1, .i32⟩ : BufTy).Contents (Elt F)),
    ternary main_v317 main_v318 main_v316 main_v319 ((fun x i u => Host.scatterAdd scatter_S50000_S100000x1_S100000_n_0_0_1 x i u) : (⟨S50000, .f32⟩ : BufTy).Contents (Elt F) → (⟨S100000x1, .i32⟩ : BufTy).Contents (Elt F) → (⟨S100000, .f32⟩ : BufTy).Contents (Elt F) → (⟨S50000, .f32⟩ : BufTy).Contents (Elt F)),
    nullary main_cst_65 (constant S_ .f32 0x3F800000#32),
    unary main_cst_65 main_v320 (broadcastInDim S50000 ![] bcast_S_S50000 : (⟨S_, .f32⟩ : BufTy).Contents (Elt F) → (⟨S50000, .f32⟩ : BufTy).Contents (Elt F)),
    binary main_v319 main_v320 main_v321 (maximumf : (⟨S50000, .f32⟩ : BufTy).Contents (Elt F) → (⟨S50000, .f32⟩ : BufTy).Contents (Elt F) → (⟨S50000, .f32⟩ : BufTy).Contents (Elt F)),
    unary main_v321 main_v322 (broadcastInDim S50000x1 ![0] bcast_S50000_S50000x1_0 : (⟨S50000, .f32⟩ : BufTy).Contents (Elt F) → (⟨S50000x1, .f32⟩ : BufTy).Contents (Elt F)),
    unary main_v322 main_v323 (broadcastInDim S50000x64 ![0, 1] bcast_S50000x1_S50000x64_0_1 : (⟨S50000x1, .f32⟩ : BufTy).Contents (Elt F) → (⟨S50000x64, .f32⟩ : BufTy).Contents (Elt F)),
    binary main_v315 main_v323 main_v324 (Host.divf : (⟨S50000x64, .f32⟩ : BufTy).Contents (Elt F) → (⟨S50000x64, .f32⟩ : BufTy).Contents (Elt F) → (⟨S50000x64, .f32⟩ : BufTy).Contents (Elt F)),
    binary main_v324 main_v301 main_v325 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_v303 main_v326 (broadcastInDim S1x64 ![1] bcast_S64_S1x64_1 : (⟨S64, .f32⟩ : BufTy).Contents (Elt F) → (⟨S1x64, .f32⟩ : BufTy).Contents (Elt F)),
    unary main_v326 main_v327 (broadcastInDim S50000x64 ![0, 1] bcast_S1x64_S50000x64_0_1 : (⟨S1x64, .f32⟩ : BufTy).Contents (Elt F) → (⟨S50000x64, .f32⟩ : BufTy).Contents (Elt F)),
    binary main_v325 main_v327 main_v328 (addf : (⟨S50000x64, .f32⟩ : BufTy).Contents (Elt F) → (⟨S50000x64, .f32⟩ : BufTy).Contents (Elt F) → (⟨S50000x64, .f32⟩ : BufTy).Contents (Elt F)),
    binary main_v197 main_v305 main_v329 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v328 main_v329 main_v330 (addf : (⟨S50000x64, .f32⟩ : BufTy).Contents (Elt F) → (⟨S50000x64, .f32⟩ : BufTy).Contents (Elt F) → (⟨S50000x64, .f32⟩ : BufTy).Contents (Elt F)),
    binary main_v267 main_v330 main_v331 (addf : (⟨S50000x64, .f32⟩ : BufTy).Contents (Elt F) → (⟨S50000x64, .f32⟩ : BufTy).Contents (Elt F) → (⟨S50000x64, .f32⟩ : BufTy).Contents (Elt F)) ]

/-- The buffers these operations write. -/
abbrev c10_W : List (Ref sig .tc) := [main_v300, main_v301, main_v302, main_v303, main_v304, main_v305, main_c_60, main_v306, main_v307, main_c_61, main_v308, main_v309, main_v310, main_v311, main_v312, main_cst_62, main_v313, main_v314, main_v315, main_cst_63, main_v316, main_cst_64, main_v317, main_v318, main_v319, main_cst_65, main_v320, main_v321, main_v322, main_v323, main_v324, main_v325, main_v326, main_v327, main_v328, main_v329, main_v330, main_v331]

theorem c10_writes : (c10 : List (HloOp τ sig (Elt F))).Forall fun op => op.writes ⊆ (c10_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

variable (W : Valuation τ sig (Elt F)) (x0 : (⟨S100000x64, .f32⟩ : BufTy).Contents (Elt F)) (x1 : (⟨S50000x64, .f32⟩ : BufTy).Contents (Elt F)) (x2 : (⟨S2000x64, .f32⟩ : BufTy).Contents (Elt F)) (x3 : (⟨S5000x64, .f32⟩ : BufTy).Contents (Elt F)) (x4 : (⟨S2x6x64x64, .f32⟩ : BufTy).Contents (Elt F)) (x5 : (⟨S2x6x64, .f32⟩ : BufTy).Contents (Elt F)) (x6 : (⟨S2x6x64x64, .f32⟩ : BufTy).Contents (Elt F)) (x7 : (⟨S128x64, .f32⟩ : BufTy).Contents (Elt F)) (x8 : (⟨S64, .f32⟩ : BufTy).Contents (Elt F)) (x9 : (⟨S64x4, .f32⟩ : BufTy).Contents (Elt F)) (x10 : (⟨S4, .f32⟩ : BufTy).Contents (Elt F)) (x11 x12 x13 x14 : (⟨S2000000, .i32⟩ : BufTy).Contents (Elt F)) (x15 x16 x17 x18 : (⟨S100000, .i32⟩ : BufTy).Contents (Elt F)) (x19 x20 x21 x22 : (⟨S200000, .i32⟩ : BufTy).Contents (Elt F)) (x23 x24 : (⟨S100000, .i32⟩ : BufTy).Contents (Elt F))

/-- A buffer the piece does not write keeps its contents through it. -/
theorem c10_keep (r : Ref sig .tc) (h : r ∉ c10_W) : after c10 W (Proc.devRef .tc r) = W (Proc.devRef .tc r) :=
  after_of_writes_sub c10 W c10_writes h

/-- The arguments are as they were. -/
theorem step10_args (ha : ArgsAt W x0 x1 x2 x3 x4 x5 x6 x7 x8 x9 x10 x11 x12 x13 x14 x15 x16 x17 x18 x19 x20 x21 x22 x23 x24) : ArgsAt (after c10 W) x0 x1 x2 x3 x4 x5 x6 x7 x8 x9 x10 x11 x12 x13 x14 x15 x16 x17 x18 x19 x20 x21 x22 x23 x24 :=
  ⟨(c10_keep W main_arg0 (by decide)).trans ha.at_main_arg0,
   (c10_keep W main_arg1 (by decide)).trans ha.at_main_arg1,
   (c10_keep W main_arg2 (by decide)).trans ha.at_main_arg2,
   (c10_keep W main_arg3 (by decide)).trans ha.at_main_arg3,
   (c10_keep W main_arg4 (by decide)).trans ha.at_main_arg4,
   (c10_keep W main_arg5 (by decide)).trans ha.at_main_arg5,
   (c10_keep W main_arg6 (by decide)).trans ha.at_main_arg6,
   (c10_keep W main_arg7 (by decide)).trans ha.at_main_arg7,
   (c10_keep W main_arg8 (by decide)).trans ha.at_main_arg8,
   (c10_keep W main_arg9 (by decide)).trans ha.at_main_arg9,
   (c10_keep W main_arg10 (by decide)).trans ha.at_main_arg10,
   (c10_keep W main_arg11 (by decide)).trans ha.at_main_arg11,
   (c10_keep W main_arg12 (by decide)).trans ha.at_main_arg12,
   (c10_keep W main_arg13 (by decide)).trans ha.at_main_arg13,
   (c10_keep W main_arg14 (by decide)).trans ha.at_main_arg14,
   (c10_keep W main_arg15 (by decide)).trans ha.at_main_arg15,
   (c10_keep W main_arg16 (by decide)).trans ha.at_main_arg16,
   (c10_keep W main_arg17 (by decide)).trans ha.at_main_arg17,
   (c10_keep W main_arg18 (by decide)).trans ha.at_main_arg18,
   (c10_keep W main_arg19 (by decide)).trans ha.at_main_arg19,
   (c10_keep W main_arg20 (by decide)).trans ha.at_main_arg20,
   (c10_keep W main_arg21 (by decide)).trans ha.at_main_arg21,
   (c10_keep W main_arg22 (by decide)).trans ha.at_main_arg22,
   (c10_keep W main_arg23 (by decide)).trans ha.at_main_arg23,
   (c10_keep W main_arg24 (by decide)).trans ha.at_main_arg24⟩

set_option maxHeartbeats 2000000 in
/-- `main_v331` after the piece: its stage. -/
theorem step10_main_v331 (ha : ArgsAt W x0 x1 x2 x3 x4 x5 x6 x7 x8 x9 x10 x11 x12 x13 x14 x15 x16 x17 x18 x19 x20 x21 x22 x23 x24) (hl : Live10 W x0 x1 x2 x3 x4 x5 x6 x7 x8 x9 x10 x11 x12 x13 x14 x15 x16 x17 x18 x19 x20 x21 x22 x23 x24) :
    after c10 W (Proc.devRef .tc main_v331) = val_main_v331 (F := F) x0 x1 x2 x3 x4 x5 x6 x11 x12 x13 x14 x15 x16 x17 x18 x21 x22 := by
  simp only [c10]
  after_results_simp
  simp only [ha.at_main_arg6, hl.at_main_v197, ha.at_main_arg5, ha.at_main_arg4, ha.at_main_arg18, ha.at_main_arg17, hl.at_main_v198, hl.at_main_v267]
  rfl

/-- Every buffer live after the piece holds its stage. -/
theorem step10 (ha : ArgsAt W x0 x1 x2 x3 x4 x5 x6 x7 x8 x9 x10 x11 x12 x13 x14 x15 x16 x17 x18 x19 x20 x21 x22 x23 x24) (hl : Live10 W x0 x1 x2 x3 x4 x5 x6 x7 x8 x9 x10 x11 x12 x13 x14 x15 x16 x17 x18 x19 x20 x21 x22 x23 x24) : Live11 (after c10 W) x0 x1 x2 x3 x4 x5 x6 x7 x8 x9 x10 x11 x12 x13 x14 x15 x16 x17 x18 x19 x20 x21 x22 x23 x24 :=
  ⟨(c10_keep W main_v196 (by decide)).trans hl.at_main_v196,
   (c10_keep W main_v199 (by decide)).trans hl.at_main_v199,
   (c10_keep W main_v203 (by decide)).trans hl.at_main_v203,
   (c10_keep W main_v235 (by decide)).trans hl.at_main_v235,
   step10_main_v331 W x0 x1 x2 x3 x4 x5 x6 x7 x8 x9 x10 x11 x12 x13 x14 x15 x16 x17 x18 x19 x20 x21 x22 x23 x24 ha hl⟩

end Cert.ReferenceIdeal.Chunks

end
-- ==== Proof.RefChunks.C11.lean ====
/- The reference program's run, read back in pieces: piece 11, operations 408 … 445 of @main's 514.
   Running the piece from contents in which the arguments hold x0 … x24 and the buffers live at operation 408 hold their stages
   leaves the arguments as they were (no operation writes one) and every buffer live at operation 446 at its stage: a buffer
   the piece does not write keeps its contents; a buffer it writes holds its operation's function of its operands' contents,
   the operands read off the same way down to the buffers written before the piece, where the hypothesis says what they hold. -/
import proofs.«154750_j39152921870699_1_alg».proof.Proof.RefChunks.Inv

noncomputable section

namespace Cert.ReferenceIdeal.Chunks

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- Operations 408 … 445 of the reference's @main, as printed. -/
abbrev c11 : List (HloOp τ sig (Elt F)) :=
  [ unary main_arg4 main_v332 ((extractStridedSlice S1x1x64x64 ![1, 4, 0, 0] · slices_S2x6x64x64_S1x1x64x64_1_4_0_0) : (⟨S2x6x64x64, .f32⟩ : BufTy).Contents (Elt F) → (⟨S1x1x64x64, .f32⟩ : BufTy).Contents (Elt F)),
    reshape main_v332 main_v333 rfl shapeCasts_S1x1x64x64_S64x64,
    unary main_arg5 main_v334 ((extractStridedSlice S1x1x64 ![1, 4, 0] · slices_S2x6x64_S1x1x64_1_4_0) : (⟨S2x6x64, .f32⟩ : BufTy).Contents (Elt F) → (⟨S1x1x64, .f32⟩ : BufTy).Contents (Elt F)),
    reshape main_v334 main_v335 rfl shapeCasts_S1x1x64_S64,
    unary main_arg6 main_v336 ((extractStridedSlice S1x1x64x64 ![1, 4, 0, 0] · slices_S2x6x64x64_S1x1x64x64_1_4_0_0) : (⟨S2x6x64x64, .f32⟩ : BufTy).Contents (Elt F) → (⟨S1x1x64x64, .f32⟩ : BufTy).Contents (Elt F)),
    reshape main_v336 main_v337 rfl shapeCasts_S1x1x64x64_S64x64,
    nullary main_c_66 (constantI S_ 32 0#32),
    unary main_c_66 main_v338 (broadcastInDim S200000 ![] bcast_S_S200000 : (⟨S_, .i32⟩ : BufTy).Contents (Elt F) → (⟨S200000, .i32⟩ : BufTy).Contents (Elt F)),
    binary main_arg19 main_v338 main_v339 (cmpi .slt : (⟨S200000, .i32⟩ : BufTy).Contents (Elt F) → (⟨S200000, .i32⟩ : BufTy).Contents (Elt F) → (⟨S200000, .i1⟩ : BufTy).Contents (Elt F)),
    nullary main_c_67 (constantI S_ 32 100000#32),
    unary main_c_67 main_v340 (broadcastInDim S200000 ![] bcast_S_S200000 : (⟨S_, .i32⟩ : BufTy).Contents (Elt F) → (⟨S200000, .i32⟩ : BufTy).Contents (Elt F)),
    binary main_arg19 main_v340 main_v341 (addi : (⟨S200000, .i32⟩ : BufTy).Contents (Elt F) → (⟨S200000, .i32⟩ : BufTy).Contents (Elt F) → (⟨S200000, .i32⟩ : BufTy).Contents (Elt F)),
    ternary main_v339 main_v341 main_arg19 main_v342 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v342 main_v343 (broadcastInDim S200000x1 ![0] bcast_S200000_S200000x1_0 : (⟨S200000, .i32⟩ : BufTy).Contents (Elt F) → (⟨S200000x1, .i32⟩ : BufTy).Contents (Elt F)),
    binary main_v196 main_v343 main_v344 ((fun x i => Host.gather gather_S100000x64_S200000x1_S200000x64_1_0_n_n_0_1_164 x i) : (⟨S100000x64, .f32⟩ : BufTy).Contents (Elt F) → (⟨S200000x1, .i32⟩ : BufTy).Contents (Elt F) → (⟨S200000x64, .f32⟩ : BufTy).Contents (Elt F)),
    nullary main_cst_68 (constant S_ .f32 0x00000000#32),
    unary main_cst_68 main_v345 (broadcastInDim S5000x64 ![] bcast_S_S5000x64 : (⟨S_, .f32⟩ : BufTy).Contents (Elt F) → (⟨S5000x64, .f32⟩ : BufTy).Contents (Elt F)),
    unary main_arg20 main_v346 (broadcastInDim S200000x1 ![0] bcast_S200000_S200000x1_0 : (⟨S200000, .i32⟩ : BufTy).Contents (Elt F) → (⟨S200000x1, .i32⟩ : BufTy).Contents (Elt F)),
    ternary main_v345 main_v346 main_v344 main_v347 ((fun x i u => Host.scatterAdd scatter_S5000x64_S200000x1_S200000x64_1_0_0_1 x i u) : (⟨S5000x64, .f32⟩ : BufTy).Contents (Elt F) → (⟨S200000x1, .i32⟩ : BufTy).Contents (Elt F) → (⟨S200000x64, .f32⟩ : BufTy).Contents (Elt F) → (⟨S5000x64, .f32⟩ : BufTy).Contents (Elt F)),
    nullary main_cst_69 (constant S_ .f32 0x3F800000#32),
    unary main_cst_69 main_v348 (broadcastInDim S200000 ![] bcast_S_S200000 : (⟨S_, .f32⟩ : BufTy).Contents (Elt F) → (⟨S200000, .f32⟩ : BufTy).Contents (Elt F)),
    nullary main_cst_70 (constant S_ .f32 0x00000000#32),
    unary main_cst_70 main_v349 (broadcastInDim S5000 ![] bcast_S_S5000 : (⟨S_, .f32⟩ : BufTy).Contents (Elt F) → (⟨S5000, .f32⟩ : BufTy).Contents (Elt F)),
    unary main_arg20 main_v350 (broadcastInDim S200000x1 ![0] bcast_S200000_S200000x1_0 : (⟨S200000, .i32⟩ : BufTy).Contents (Elt F) → (⟨S200000x1, .i32⟩ : BufTy).Contents (Elt F)),
    ternary main_v349 main_v350 main_v348 main_v351 ((fun x i u => Host.scatterAdd scatter_S5000_S200000x1_S200000_n_0_0_1 x i u) : (⟨S5000, .f32⟩ : BufTy).Contents (Elt F) → (⟨S200000x1, .i32⟩ : BufTy).Contents (Elt F) → (⟨S200000, .f32⟩ : BufTy).Contents (Elt F) → (⟨S5000, .f32⟩ : BufTy).Contents (Elt F)),
    nullary main_cst_71 (constant S_ .f32 0x3F800000#32),
    unary main_cst_71 main_v352 (broadcastInDim S5000 ![] bcast_S_S5000 : (⟨S_, .f32⟩ : BufTy).Contents (Elt F) → (⟨S5000, .f32⟩ : BufTy).Contents (Elt F)),
    binary main_v351 main_v352 main_v353 (maximumf : (⟨S5000, .f32⟩ : BufTy).Contents (Elt F) → (⟨S5000, .f32⟩ : BufTy).Contents (Elt F) → (⟨S5000, .f32⟩ : BufTy).Contents (Elt F)),
    unary main_v353 main_v354 (broadcastInDim S5000x1 ![0] bcast_S5000_S5000x1_0 : (⟨S5000, .f32⟩ : BufTy).Contents (Elt F) → (⟨S5000x1, .f32⟩ : BufTy).Contents (Elt F)),
    unary main_v354 main_v355 (broadcastInDim S5000x64 ![0, 1] bcast_S5000x1_S5000x64_0_1 : (⟨S5000x1, .f32⟩ : BufTy).Contents (Elt F) → (⟨S5000x64, .f32⟩ : BufTy).Contents (Elt F)),
    binary main_v347 main_v355 main_v356 (Host.divf : (⟨S5000x64, .f32⟩ : BufTy).Contents (Elt F) → (⟨S5000x64, .f32⟩ : BufTy).Contents (Elt F) → (⟨S5000x64, .f32⟩ : BufTy).Contents (Elt F)),
    binary main_v356 main_v333 main_v357 ((fun l r => Host.dotGeneral dot_S5000x64_S64x64_S5000x64_1_0_0_1_n_n none l r) : (⟨S5000x64, .f32⟩ : BufTy).Contents (Elt F) → (⟨S64x64, .f32⟩ : BufTy).Contents (Elt F) → (⟨S5000x64, .f32⟩ : BufTy).Contents (Elt F)),
    unary main_v335 main_v358 (broadcastInDim S1x64 ![1] bcast_S64_S1x64_1 : (⟨S64, .f32⟩ : BufTy).Contents (Elt F) → (⟨S1x64, .f32⟩ : BufTy).Contents (Elt F)),
    unary main_v358 main_v359 (broadcastInDim S5000x64 ![0, 1] bcast_S1x64_S5000x64_0_1 : (⟨S1x64, .f32⟩ : BufTy).Contents (Elt F) → (⟨S5000x64, .f32⟩ : BufTy).Contents (Elt F)),
    binary main_v357 main_v359 main_v360 (addf : (⟨S5000x64, .f32⟩ : BufTy).Contents (Elt F) → (⟨S5000x64, .f32⟩ : BufTy).Contents (Elt F) → (⟨S5000x64, .f32⟩ : BufTy).Contents (Elt F)),
    binary main_v199 main_v337 main_v361 ((fun l r => Host.dotGeneral dot_S5000x64_S64x64_S5000x64_1_0_0_1_n_n none l r) : (⟨S5000x64, .f32⟩ : BufTy).Contents (Elt F) → (⟨S64x64, .f32⟩ : BufTy).Contents (Elt F) → (⟨S5000x64, .f32⟩ : BufTy).Contents (Elt F)),
    binary main_v360 main_v361 main_v362 (addf : (⟨S5000x64, .f32⟩ : BufTy).Contents (Elt F) → (⟨S5000x64, .f32⟩ : BufTy).Contents (Elt F) → (⟨S5000x64, .f32⟩ : BufTy).Contents (Elt F)),
    binary main_v203 main_v362 main_v363 (addf : (⟨S5000x64, .f32⟩ : BufTy).Contents (Elt F) → (⟨S5000x64, .f32⟩ : BufTy).Contents (Elt F) → (⟨S5000x64, .f32⟩ : BufTy).Contents (Elt F)) ]

/-- The buffers these operations write. -/
abbrev c11_W : List (Ref sig .tc) := [main_v332, main_v333, main_v334, main_v335, main_v336, main_v337, main_c_66, main_v338, main_v339, main_c_67, main_v340, main_v341, main_v342, main_v343, main_v344, main_cst_68, main_v345, main_v346, main_v347, main_cst_69, main_v348, main_cst_70, main_v349, main_v350, main_v351, main_cst_71, main_v352, main_v353, main_v354, main_v355, main_v356, main_v357, main_v358, main_v359, main_v360, main_v361, main_v362, main_v363]

theorem c11_writes : (c11 : List (HloOp τ sig (Elt F))).Forall fun op => op.writes ⊆ (c11_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

variable (W : Valuation τ sig (Elt F)) (x0 : (⟨S100000x64, .f32⟩ : BufTy).Contents (Elt F)) (x1 : (⟨S50000x64, .f32⟩ : BufTy).Contents (Elt F)) (x2 : (⟨S2000x64, .f32⟩ : BufTy).Contents (Elt F)) (x3 : (⟨S5000x64, .f32⟩ : BufTy).Contents (Elt F)) (x4 : (⟨S2x6x64x64, .f32⟩ : BufTy).Contents (Elt F)) (x5 : (⟨S2x6x64, .f32⟩ : BufTy).Contents (Elt F)) (x6 : (⟨S2x6x64x64, .f32⟩ : BufTy).Contents (Elt F)) (x7 : (⟨S128x64, .f32⟩ : BufTy).Contents (Elt F)) (x8 : (⟨S64, .f32⟩ : BufTy).Contents (Elt F)) (x9 : (⟨S64x4, .f32⟩ : BufTy).Contents (Elt F)) (x10 : (⟨S4, .f32⟩ : BufTy).Contents (Elt F)) (x11 x12 x13 x14 : (⟨S2000000, .i32⟩ : BufTy).Contents (Elt F)) (x15 x16 x17 x18 : (⟨S100000, .i32⟩ : BufTy).Contents (Elt F)) (x19 x20 x21 x22 : (⟨S200000, .i32⟩ : BufTy).Contents (Elt F)) (x23 x24 : (⟨S100000, .i32⟩ : BufTy).Contents (Elt F))

/-- A buffer the piece does not write keeps its contents through it. -/
theorem c11_keep (r : Ref sig .tc) (h : r ∉ c11_W) : after c11 W (Proc.devRef .tc r) = W (Proc.devRef .tc r) :=
  after_of_writes_sub c11 W c11_writes h

/-- The arguments are as they were. -/
theorem step11_args (ha : ArgsAt W x0 x1 x2 x3 x4 x5 x6 x7 x8 x9 x10 x11 x12 x13 x14 x15 x16 x17 x18 x19 x20 x21 x22 x23 x24) : ArgsAt (after c11 W) x0 x1 x2 x3 x4 x5 x6 x7 x8 x9 x10 x11 x12 x13 x14 x15 x16 x17 x18 x19 x20 x21 x22 x23 x24 :=
  ⟨(c11_keep W main_arg0 (by decide)).trans ha.at_main_arg0,
   (c11_keep W main_arg1 (by decide)).trans ha.at_main_arg1,
   (c11_keep W main_arg2 (by decide)).trans ha.at_main_arg2,
   (c11_keep W main_arg3 (by decide)).trans ha.at_main_arg3,
   (c11_keep W main_arg4 (by decide)).trans ha.at_main_arg4,
   (c11_keep W main_arg5 (by decide)).trans ha.at_main_arg5,
   (c11_keep W main_arg6 (by decide)).trans ha.at_main_arg6,
   (c11_keep W main_arg7 (by decide)).trans ha.at_main_arg7,
   (c11_keep W main_arg8 (by decide)).trans ha.at_main_arg8,
   (c11_keep W main_arg9 (by decide)).trans ha.at_main_arg9,
   (c11_keep W main_arg10 (by decide)).trans ha.at_main_arg10,
   (c11_keep W main_arg11 (by decide)).trans ha.at_main_arg11,
   (c11_keep W main_arg12 (by decide)).trans ha.at_main_arg12,
   (c11_keep W main_arg13 (by decide)).trans ha.at_main_arg13,
   (c11_keep W main_arg14 (by decide)).trans ha.at_main_arg14,
   (c11_keep W main_arg15 (by decide)).trans ha.at_main_arg15,
   (c11_keep W main_arg16 (by decide)).trans ha.at_main_arg16,
   (c11_keep W main_arg17 (by decide)).trans ha.at_main_arg17,
   (c11_keep W main_arg18 (by decide)).trans ha.at_main_arg18,
   (c11_keep W main_arg19 (by decide)).trans ha.at_main_arg19,
   (c11_keep W main_arg20 (by decide)).trans ha.at_main_arg20,
   (c11_keep W main_arg21 (by decide)).trans ha.at_main_arg21,
   (c11_keep W main_arg22 (by decide)).trans ha.at_main_arg22,
   (c11_keep W main_arg23 (by decide)).trans ha.at_main_arg23,
   (c11_keep W main_arg24 (by decide)).trans ha.at_main_arg24⟩

/-- Every buffer live after the piece holds its stage. -/
theorem step11 (ha : ArgsAt W x0 x1 x2 x3 x4 x5 x6 x7 x8 x9 x10 x11 x12 x13 x14 x15 x16 x17 x18 x19 x20 x21 x22 x23 x24) (hl : Live11 W x0 x1 x2 x3 x4 x5 x6 x7 x8 x9 x10 x11 x12 x13 x14 x15 x16 x17 x18 x19 x20 x21 x22 x23 x24) : Live12 (after c11 W) x0 x1 x2 x3 x4 x5 x6 x7 x8 x9 x10 x11 x12 x13 x14 x15 x16 x17 x18 x19 x20 x21 x22 x23 x24 :=
  ⟨(c11_keep W main_v196 (by decide)).trans hl.at_main_v196,
   (c11_keep W main_v199 (by decide)).trans hl.at_main_v199,
   (c11_keep W main_v235 (by decide)).trans hl.at_main_v235,
   (c11_keep W main_v331 (by decide)).trans hl.at_main_v331⟩

end Cert.ReferenceIdeal.Chunks

end
-- ==== Proof.RefChunks.C12.lean ====
/- The reference program's run, read back in pieces: piece 12, operations 446 … 483 of @main's 514.
   Running the piece from contents in which the arguments hold x0 … x24 and the buffers live at operation 446 hold their stages
   leaves the arguments as they were (no operation writes one) and every buffer live at operation 484 at its stage: a buffer
   the piece does not write keeps its contents; a buffer it writes holds its operation's function of its operands' contents,
   the operands read off the same way down to the buffers written before the piece, where the hypothesis says what they hold. -/
import proofs.«154750_j39152921870699_1_alg».proof.Proof.RefChunks.Inv

noncomputable section

namespace Cert.ReferenceIdeal.Chunks

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- Operations 446 … 483 of the reference's @main, as printed. -/
abbrev c12 : List (HloOp τ sig (Elt F)) :=
  [ unary main_arg4 main_v364 ((extractStridedSlice S1x1x64x64 ![1, 5, 0, 0] · slices_S2x6x64x64_S1x1x64x64_1_5_0_0) : (⟨S2x6x64x64, .f32⟩ : BufTy).Contents (Elt F) → (⟨S1x1x64x64, .f32⟩ : BufTy).Contents (Elt F)),
    reshape main_v364 main_v365 rfl shapeCasts_S1x1x64x64_S64x64,
    unary main_arg5 main_v366 ((extractStridedSlice S1x1x64 ![1, 5, 0] · slices_S2x6x64_S1x1x64_1_5_0) : (⟨S2x6x64, .f32⟩ : BufTy).Contents (Elt F) → (⟨S1x1x64, .f32⟩ : BufTy).Contents (Elt F)),
    reshape main_v366 main_v367 rfl shapeCasts_S1x1x64_S64,
    unary main_arg6 main_v368 ((extractStridedSlice S1x1x64x64 ![1, 5, 0, 0] · slices_S2x6x64x64_S1x1x64x64_1_5_0_0) : (⟨S2x6x64x64, .f32⟩ : BufTy).Contents (Elt F) → (⟨S1x1x64x64, .f32⟩ : BufTy).Contents (Elt F)),
    reshape main_v368 main_v369 rfl shapeCasts_S1x1x64x64_S64x64,
    nullary main_c_72 (constantI S_ 32 0#32),
    unary main_c_72 main_v370 (broadcastInDim S200000 ![] bcast_S_S200000 : (⟨S_, .i32⟩ : BufTy).Contents (Elt F) → (⟨S200000, .i32⟩ : BufTy).Contents (Elt F)),
    binary main_arg21 main_v370 main_v371 (cmpi .slt : (⟨S200000, .i32⟩ : BufTy).Contents (Elt F) → (⟨S200000, .i32⟩ : BufTy).Contents (Elt F) → (⟨S200000, .i1⟩ : BufTy).Contents (Elt F)),
    nullary main_c_73 (constantI S_ 32 5000#32),
    unary main_c_73 main_v372 (broadcastInDim S200000 ![] bcast_S_S200000 : (⟨S_, .i32⟩ : BufTy).Contents (Elt F) → (⟨S200000, .i32⟩ : BufTy).Contents (Elt F)),
    binary main_arg21 main_v372 main_v373 (addi : (⟨S200000, .i32⟩ : BufTy).Contents (Elt F) → (⟨S200000, .i32⟩ : BufTy).Contents (Elt F) → (⟨S200000, .i32⟩ : BufTy).Contents (Elt F)),
    ternary main_v371 main_v373 main_arg21 main_v374 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v374 main_v375 (broadcastInDim S200000x1 ![0] bcast_S200000_S200000x1_0 : (⟨S200000, .i32⟩ : BufTy).Contents (Elt F) → (⟨S200000x1, .i32⟩ : BufTy).Contents (Elt F)),
    binary main_v199 main_v375 main_v376 ((fun x i => Host.gather gather_S5000x64_S200000x1_S200000x64_1_0_n_n_0_1_164 x i) : (⟨S5000x64, .f32⟩ : BufTy).Contents (Elt F) → (⟨S200000x1, .i32⟩ : BufTy).Contents (Elt F) → (⟨S200000x64, .f32⟩ : BufTy).Contents (Elt F)),
    nullary main_cst_74 (constant S_ .f32 0x00000000#32),
    unary main_cst_74 main_v377 (broadcastInDim S100000x64 ![] bcast_S_S100000x64 : (⟨S_, .f32⟩ : BufTy).Contents (Elt F) → (⟨S100000x64, .f32⟩ : BufTy).Contents (Elt F)),
    unary main_arg22 main_v378 (broadcastInDim S200000x1 ![0] bcast_S200000_S200000x1_0 : (⟨S200000, .i32⟩ : BufTy).Contents (Elt F) → (⟨S200000x1, .i32⟩ : BufTy).Contents (Elt F)),
    ternary main_v377 main_v378 main_v376 main_v379 ((fun x i u => Host.scatterAdd scatter_S100000x64_S200000x1_S200000x64_1_0_0_1 x i u) : (⟨S100000x64, .f32⟩ : BufTy).Contents (Elt F) → (⟨S200000x1, .i32⟩ : BufTy).Contents (Elt F) → (⟨S200000x64, .f32⟩ : BufTy).Contents (Elt F) → (⟨S100000x64, .f32⟩ : BufTy).Contents (Elt F)),
    nullary main_cst_75 (constant S_ .f32 0x3F800000#32),
    unary main_cst_75 main_v380 (broadcastInDim S200000 ![] bcast_S_S200000 : (⟨S_, .f32⟩ : BufTy).Contents (Elt F) → (⟨S200000, .f32⟩ : BufTy).Contents (Elt F)),
    nullary main_cst_76 (constant S_ .f32 0x00000000#32),
    unary main_cst_76 main_v381 (broadcastInDim S100000 ![] bcast_S_S100000 : (⟨S_, .f32⟩ : BufTy).Contents (Elt F) → (⟨S100000, .f32⟩ : BufTy).Contents (Elt F)),
    unary main_arg22 main_v382 (broadcastInDim S200000x1 ![0] bcast_S200000_S200000x1_0 : (⟨S200000, .i32⟩ : BufTy).Contents (Elt F) → (⟨S200000x1, .i32⟩ : BufTy).Contents (Elt F)),
    ternary main_v381 main_v382 main_v380 main_v383 ((fun x i u => Host.scatterAdd scatter_S100000_S200000x1_S200000_n_0_0_1 x i u) : (⟨S100000, .f32⟩ : BufTy).Contents (Elt F) → (⟨S200000x1, .i32⟩ : BufTy).Contents (Elt F) → (⟨S200000, .f32⟩ : BufTy).Contents (Elt F) → (⟨S100000, .f32⟩ : BufTy).Contents (Elt F)),
    nullary main_cst_77 (constant S_ .f32 0x3F800000#32),
    unary main_cst_77 main_v384 (broadcastInDim S100000 ![] bcast_S_S100000 : (⟨S_, .f32⟩ : BufTy).Contents (Elt F) → (⟨S100000, .f32⟩ : BufTy).Contents (Elt F)),
    binary main_v383 main_v384 main_v385 (maximumf : (⟨S100000, .f32⟩ : BufTy).Contents (Elt F) → (⟨S100000, .f32⟩ : BufTy).Contents (Elt F) → (⟨S100000, .f32⟩ : BufTy).Contents (Elt F)),
    unary main_v385 main_v386 (broadcastInDim S100000x1 ![0] bcast_S100000_S100000x1_0 : (⟨S100000, .f32⟩ : BufTy).Contents (Elt F) → (⟨S100000x1, .f32⟩ : BufTy).Contents (Elt F)),
    unary main_v386 main_v387 (broadcastInDim S100000x64 ![0, 1] bcast_S100000x1_S100000x64_0_1 : (⟨S100000x1, .f32⟩ : BufTy).Contents (Elt F) → (⟨S100000x64, .f32⟩ : BufTy).Contents (Elt F)),
    binary main_v379 main_v387 main_v388 (Host.divf : (⟨S100000x64, .f32⟩ : BufTy).Contents (Elt F) → (⟨S100000x64, .f32⟩ : BufTy).Contents (Elt F) → (⟨S100000x64, .f32⟩ : BufTy).Contents (Elt F)),
    binary main_v388 main_v365 main_v389 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_v367 main_v390 (broadcastInDim S1x64 ![1] bcast_S64_S1x64_1 : (⟨S64, .f32⟩ : BufTy).Contents (Elt F) → (⟨S1x64, .f32⟩ : BufTy).Contents (Elt F)),
    unary main_v390 main_v391 (broadcastInDim S100000x64 ![0, 1] bcast_S1x64_S100000x64_0_1 : (⟨S1x64, .f32⟩ : BufTy).Contents (Elt F) → (⟨S100000x64, .f32⟩ : BufTy).Contents (Elt F)),
    binary main_v389 main_v391 main_v392 (addf : (⟨S100000x64, .f32⟩ : BufTy).Contents (Elt F) → (⟨S100000x64, .f32⟩ : BufTy).Contents (Elt F) → (⟨S100000x64, .f32⟩ : BufTy).Contents (Elt F)),
    binary main_v196 main_v369 main_v393 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v392 main_v393 main_v394 (addf : (⟨S100000x64, .f32⟩ : BufTy).Contents (Elt F) → (⟨S100000x64, .f32⟩ : BufTy).Contents (Elt F) → (⟨S100000x64, .f32⟩ : BufTy).Contents (Elt F)),
    binary main_v235 main_v394 main_v395 (addf : (⟨S100000x64, .f32⟩ : BufTy).Contents (Elt F) → (⟨S100000x64, .f32⟩ : BufTy).Contents (Elt F) → (⟨S100000x64, .f32⟩ : BufTy).Contents (Elt F)) ]

/-- The buffers these operations write. -/
abbrev c12_W : List (Ref sig .tc) := [main_v364, main_v365, main_v366, main_v367, main_v368, main_v369, main_c_72, main_v370, main_v371, main_c_73, main_v372, main_v373, main_v374, main_v375, main_v376, main_cst_74, main_v377, main_v378, main_v379, main_cst_75, main_v380, main_cst_76, main_v381, main_v382, main_v383, main_cst_77, main_v384, main_v385, main_v386, main_v387, main_v388, main_v389, main_v390, main_v391, main_v392, main_v393, main_v394, main_v395]

theorem c12_writes : (c12 : List (HloOp τ sig (Elt F))).Forall fun op => op.writes ⊆ (c12_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

variable (W : Valuation τ sig (Elt F)) (x0 : (⟨S100000x64, .f32⟩ : BufTy).Contents (Elt F)) (x1 : (⟨S50000x64, .f32⟩ : BufTy).Contents (Elt F)) (x2 : (⟨S2000x64, .f32⟩ : BufTy).Contents (Elt F)) (x3 : (⟨S5000x64, .f32⟩ : BufTy).Contents (Elt F)) (x4 : (⟨S2x6x64x64, .f32⟩ : BufTy).Contents (Elt F)) (x5 : (⟨S2x6x64, .f32⟩ : BufTy).Contents (Elt F)) (x6 : (⟨S2x6x64x64, .f32⟩ : BufTy).Contents (Elt F)) (x7 : (⟨S128x64, .f32⟩ : BufTy).Contents (Elt F)) (x8 : (⟨S64, .f32⟩ : BufTy).Contents (Elt F)) (x9 : (⟨S64x4, .f32⟩ : BufTy).Contents (Elt F)) (x10 : (⟨S4, .f32⟩ : BufTy).Contents (Elt F)) (x11 x12 x13 x14 : (⟨S2000000, .i32⟩ : BufTy).Contents (Elt F)) (x15 x16 x17 x18 : (⟨S100000, .i32⟩ : BufTy).Contents (Elt F)) (x19 x20 x21 x22 : (⟨S200000, .i32⟩ : BufTy).Contents (Elt F)) (x23 x24 : (⟨S100000, .i32⟩ : BufTy).Contents (Elt F))

/-- A buffer the piece does not write keeps its contents through it. -/
theorem c12_keep (r : Ref sig .tc) (h : r ∉ c12_W) : after c12 W (Proc.devRef .tc r) = W (Proc.devRef .tc r) :=
  after_of_writes_sub c12 W c12_writes h

/-- The arguments are as they were. -/
theorem step12_args (ha : ArgsAt W x0 x1 x2 x3 x4 x5 x6 x7 x8 x9 x10 x11 x12 x13 x14 x15 x16 x17 x18 x19 x20 x21 x22 x23 x24) : ArgsAt (after c12 W) x0 x1 x2 x3 x4 x5 x6 x7 x8 x9 x10 x11 x12 x13 x14 x15 x16 x17 x18 x19 x20 x21 x22 x23 x24 :=
  ⟨(c12_keep W main_arg0 (by decide)).trans ha.at_main_arg0,
   (c12_keep W main_arg1 (by decide)).trans ha.at_main_arg1,
   (c12_keep W main_arg2 (by decide)).trans ha.at_main_arg2,
   (c12_keep W main_arg3 (by decide)).trans ha.at_main_arg3,
   (c12_keep W main_arg4 (by decide)).trans ha.at_main_arg4,
   (c12_keep W main_arg5 (by decide)).trans ha.at_main_arg5,
   (c12_keep W main_arg6 (by decide)).trans ha.at_main_arg6,
   (c12_keep W main_arg7 (by decide)).trans ha.at_main_arg7,
   (c12_keep W main_arg8 (by decide)).trans ha.at_main_arg8,
   (c12_keep W main_arg9 (by decide)).trans ha.at_main_arg9,
   (c12_keep W main_arg10 (by decide)).trans ha.at_main_arg10,
   (c12_keep W main_arg11 (by decide)).trans ha.at_main_arg11,
   (c12_keep W main_arg12 (by decide)).trans ha.at_main_arg12,
   (c12_keep W main_arg13 (by decide)).trans ha.at_main_arg13,
   (c12_keep W main_arg14 (by decide)).trans ha.at_main_arg14,
   (c12_keep W main_arg15 (by decide)).trans ha.at_main_arg15,
   (c12_keep W main_arg16 (by decide)).trans ha.at_main_arg16,
   (c12_keep W main_arg17 (by decide)).trans ha.at_main_arg17,
   (c12_keep W main_arg18 (by decide)).trans ha.at_main_arg18,
   (c12_keep W main_arg19 (by decide)).trans ha.at_main_arg19,
   (c12_keep W main_arg20 (by decide)).trans ha.at_main_arg20,
   (c12_keep W main_arg21 (by decide)).trans ha.at_main_arg21,
   (c12_keep W main_arg22 (by decide)).trans ha.at_main_arg22,
   (c12_keep W main_arg23 (by decide)).trans ha.at_main_arg23,
   (c12_keep W main_arg24 (by decide)).trans ha.at_main_arg24⟩

set_option maxHeartbeats 2000000 in
/-- `main_v395` after the piece: its stage. -/
theorem step12_main_v395 (ha : ArgsAt W x0 x1 x2 x3 x4 x5 x6 x7 x8 x9 x10 x11 x12 x13 x14 x15 x16 x17 x18 x19 x20 x21 x22 x23 x24) (hl : Live12 W x0 x1 x2 x3 x4 x5 x6 x7 x8 x9 x10 x11 x12 x13 x14 x15 x16 x17 x18 x19 x20 x21 x22 x23 x24) :
    after c12 W (Proc.devRef .tc main_v395) = val_main_v395 (F := F) x0 x1 x2 x3 x4 x5 x6 x11 x12 x13 x14 x17 x18 x19 x20 x21 x22 := by
  simp only [c12]
  after_results_simp
  simp only [ha.at_main_arg6, hl.at_main_v196, ha.at_main_arg5, ha.at_main_arg4, ha.at_main_arg22, ha.at_main_arg21, hl.at_main_v199, hl.at_main_v235]
  rfl

/-- Every buffer live after the piece holds its stage. -/
theorem step12 (ha : ArgsAt W x0 x1 x2 x3 x4 x5 x6 x7 x8 x9 x10 x11 x12 x13 x14 x15 x16 x17 x18 x19 x20 x21 x22 x23 x24) (hl : Live12 W x0 x1 x2 x3 x4 x5 x6 x7 x8 x9 x10 x11 x12 x13 x14 x15 x16 x17 x18 x19 x20 x21 x22 x23 x24) : Live13 (after c12 W) x0 x1 x2 x3 x4 x5 x6 x7 x8 x9 x10 x11 x12 x13 x14 x15 x16 x17 x18 x19 x20 x21 x22 x23 x24 :=
  ⟨(c12_keep W main_v331 (by decide)).trans hl.at_main_v331,
   step12_main_v395 W x0 x1 x2 x3 x4 x5 x6 x7 x8 x9 x10 x11 x12 x13 x14 x15 x16 x17 x18 x19 x20 x21 x22 x23 x24 ha hl⟩

end Cert.ReferenceIdeal.Chunks

end
-- ==== Proof.RefChunks.C13.lean ====
/- The reference program's run, read back in pieces: piece 13, operations 484 … 501 of @main's 514.
   Running the piece from contents in which the arguments hold x0 … x24 and the buffers live at operation 484 hold their stages
   leaves the arguments as they were (no operation writes one) and every buffer live at operation 502 at its stage: a buffer
   the piece does not write keeps its contents; a buffer it writes holds its operation's function of its operands' contents,
   the operands read off the same way down to the buffers written before the piece, where the hypothesis says what they hold. -/
import proofs.«154750_j39152921870699_1_alg».proof.Proof.RefChunks.Inv

noncomputable section

namespace Cert.ReferenceIdeal.Chunks

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- Operations 484 … 501 of the reference's @main, as printed. -/
abbrev c13 : List (HloOp τ sig (Elt F)) :=
  [ nullary main_c_78 (constantI S_ 32 0#32),
    unary main_c_78 main_v396 (broadcastInDim S100000 ![] bcast_S_S100000 : (⟨S_, .i32⟩ : BufTy).Contents (Elt F) → (⟨S100000, .i32⟩ : BufTy).Contents (Elt F)),
    binary main_arg23 main_v396 main_v397 (cmpi .slt : (⟨S100000, .i32⟩ : BufTy).Contents (Elt F) → (⟨S100000, .i32⟩ : BufTy).Contents (Elt F) → (⟨S100000, .i1⟩ : BufTy).Contents (Elt F)),
    nullary main_c_79 (constantI S_ 32 50000#32),
    unary main_c_79 main_v398 (broadcastInDim S100000 ![] bcast_S_S100000 : (⟨S_, .i32⟩ : BufTy).Contents (Elt F) → (⟨S100000, .i32⟩ : BufTy).Contents (Elt F)),
    binary main_arg23 main_v398 main_v399 (addi : (⟨S100000, .i32⟩ : BufTy).Contents (Elt F) → (⟨S100000, .i32⟩ : BufTy).Contents (Elt F) → (⟨S100000, .i32⟩ : BufTy).Contents (Elt F)),
    ternary main_v397 main_v399 main_arg23 main_v400 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v400 main_v401 (broadcastInDim S100000x1 ![0] bcast_S100000_S100000x1_0 : (⟨S100000, .i32⟩ : BufTy).Contents (Elt F) → (⟨S100000x1, .i32⟩ : BufTy).Contents (Elt F)),
    binary main_v331 main_v401 main_v402 ((fun x i => Host.gather gather_S50000x64_S100000x1_S100000x64_1_0_n_n_0_1_164 x i) : (⟨S50000x64, .f32⟩ : BufTy).Contents (Elt F) → (⟨S100000x1, .i32⟩ : BufTy).Contents (Elt F) → (⟨S100000x64, .f32⟩ : BufTy).Contents (Elt F)),
    nullary main_c_80 (constantI S_ 32 0#32),
    unary main_c_80 main_v403 (broadcastInDim S100000 ![] bcast_S_S100000 : (⟨S_, .i32⟩ : BufTy).Contents (Elt F) → (⟨S100000, .i32⟩ : BufTy).Contents (Elt F)),
    binary main_arg24 main_v403 main_v404 (cmpi .slt : (⟨S100000, .i32⟩ : BufTy).Contents (Elt F) → (⟨S100000, .i32⟩ : BufTy).Contents (Elt F) → (⟨S100000, .i1⟩ : BufTy).Contents (Elt F)),
    nullary main_c_81 (constantI S_ 32 100000#32),
    unary main_c_81 main_v405 (broadcastInDim S100000 ![] bcast_S_S100000 : (⟨S_, .i32⟩ : BufTy).Contents (Elt F) → (⟨S100000, .i32⟩ : BufTy).Contents (Elt F)),
    binary main_arg24 main_v405 main_v406 (addi : (⟨S100000, .i32⟩ : BufTy).Contents (Elt F) → (⟨S100000, .i32⟩ : BufTy).Contents (Elt F) → (⟨S100000, .i32⟩ : BufTy).Contents (Elt F)),
    ternary main_v404 main_v406 main_arg24 main_v407 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v407 main_v408 (broadcastInDim S100000x1 ![0] bcast_S100000_S100000x1_0 : (⟨S100000, .i32⟩ : BufTy).Contents (Elt F) → (⟨S100000x1, .i32⟩ : BufTy).Contents (Elt F)),
    binary main_v395 main_v408 main_v409 ((fun x i => Host.gather gather_S100000x64_S100000x1_S100000x64_1_0_n_n_0_1_164 x i) : (⟨S100000x64, .f32⟩ : BufTy).Contents (Elt F) → (⟨S100000x1, .i32⟩ : BufTy).Contents (Elt F) → (⟨S100000x64, .f32⟩ : BufTy).Contents (Elt F)) ]

/-- The buffers these operations write. -/
abbrev c13_W : List (Ref sig .tc) := [main_c_78, main_v396, main_v397, main_c_79, main_v398, main_v399, main_v400, main_v401, main_v402, main_c_80, main_v403, main_v404, main_c_81, main_v405, main_v406, main_v407, main_v408, main_v409]

theorem c13_writes : (c13 : List (HloOp τ sig (Elt F))).Forall fun op => op.writes ⊆ (c13_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

variable (W : Valuation τ sig (Elt F)) (x0 : (⟨S100000x64, .f32⟩ : BufTy).Contents (Elt F)) (x1 : (⟨S50000x64, .f32⟩ : BufTy).Contents (Elt F)) (x2 : (⟨S2000x64, .f32⟩ : BufTy).Contents (Elt F)) (x3 : (⟨S5000x64, .f32⟩ : BufTy).Contents (Elt F)) (x4 : (⟨S2x6x64x64, .f32⟩ : BufTy).Contents (Elt F)) (x5 : (⟨S2x6x64, .f32⟩ : BufTy).Contents (Elt F)) (x6 : (⟨S2x6x64x64, .f32⟩ : BufTy).Contents (Elt F)) (x7 : (⟨S128x64, .f32⟩ : BufTy).Contents (Elt F)) (x8 : (⟨S64, .f32⟩ : BufTy).Contents (Elt F)) (x9 : (⟨S64x4, .f32⟩ : BufTy).Contents (Elt F)) (x10 : (⟨S4, .f32⟩ : BufTy).Contents (Elt F)) (x11 x12 x13 x14 : (⟨S2000000, .i32⟩ : BufTy).Contents (Elt F)) (x15 x16 x17 x18 : (⟨S100000, .i32⟩ : BufTy).Contents (Elt F)) (x19 x20 x21 x22 : (⟨S200000, .i32⟩ : BufTy).Contents (Elt F)) (x23 x24 : (⟨S100000, .i32⟩ : BufTy).Contents (Elt F))

/-- A buffer the piece does not write keeps its contents through it. -/
theorem c13_keep (r : Ref sig .tc) (h : r ∉ c13_W) : after c13 W (Proc.devRef .tc r) = W (Proc.devRef .tc r) :=
  after_of_writes_sub c13 W c13_writes h

/-- The arguments are as they were. -/
theorem step13_args (ha : ArgsAt W x0 x1 x2 x3 x4 x5 x6 x7 x8 x9 x10 x11 x12 x13 x14 x15 x16 x17 x18 x19 x20 x21 x22 x23 x24) : ArgsAt (after c13 W) x0 x1 x2 x3 x4 x5 x6 x7 x8 x9 x10 x11 x12 x13 x14 x15 x16 x17 x18 x19 x20 x21 x22 x23 x24 :=
  ⟨(c13_keep W main_arg0 (by decide)).trans ha.at_main_arg0,
   (c13_keep W main_arg1 (by decide)).trans ha.at_main_arg1,
   (c13_keep W main_arg2 (by decide)).trans ha.at_main_arg2,
   (c13_keep W main_arg3 (by decide)).trans ha.at_main_arg3,
   (c13_keep W main_arg4 (by decide)).trans ha.at_main_arg4,
   (c13_keep W main_arg5 (by decide)).trans ha.at_main_arg5,
   (c13_keep W main_arg6 (by decide)).trans ha.at_main_arg6,
   (c13_keep W main_arg7 (by decide)).trans ha.at_main_arg7,
   (c13_keep W main_arg8 (by decide)).trans ha.at_main_arg8,
   (c13_keep W main_arg9 (by decide)).trans ha.at_main_arg9,
   (c13_keep W main_arg10 (by decide)).trans ha.at_main_arg10,
   (c13_keep W main_arg11 (by decide)).trans ha.at_main_arg11,
   (c13_keep W main_arg12 (by decide)).trans ha.at_main_arg12,
   (c13_keep W main_arg13 (by decide)).trans ha.at_main_arg13,
   (c13_keep W main_arg14 (by decide)).trans ha.at_main_arg14,
   (c13_keep W main_arg15 (by decide)).trans ha.at_main_arg15,
   (c13_keep W main_arg16 (by decide)).trans ha.at_main_arg16,
   (c13_keep W main_arg17 (by decide)).trans ha.at_main_arg17,
   (c13_keep W main_arg18 (by decide)).trans ha.at_main_arg18,
   (c13_keep W main_arg19 (by decide)).trans ha.at_main_arg19,
   (c13_keep W main_arg20 (by decide)).trans ha.at_main_arg20,
   (c13_keep W main_arg21 (by decide)).trans ha.at_main_arg21,
   (c13_keep W main_arg22 (by decide)).trans ha.at_main_arg22,
   (c13_keep W main_arg23 (by decide)).trans ha.at_main_arg23,
   (c13_keep W main_arg24 (by decide)).trans ha.at_main_arg24⟩

set_option maxHeartbeats 2000000 in
/-- `main_v402` after the piece: its stage. -/
theorem step13_main_v402 (ha : ArgsAt W x0 x1 x2 x3 x4 x5 x6 x7 x8 x9 x10 x11 x12 x13 x14 x15 x16 x17 x18 x19 x20 x21 x22 x23 x24) (hl : Live13 W x0 x1 x2 x3 x4 x5 x6 x7 x8 x9 x10 x11 x12 x13 x14 x15 x16 x17 x18 x19 x20 x21 x22 x23 x24) :
    after c13 W (Proc.devRef .tc main_v402) = val_main_v402 (F := F) x0 x1 x2 x3 x4 x5 x6 x11 x12 x13 x14 x15 x16 x17 x18 x21 x22 x23 := by
  simp only [c13]
  after_results_simp
  simp only [ha.at_main_arg23, hl.at_main_v331]
  rfl

set_option maxHeartbeats 2000000 in
/-- `main_v409` after the piece: its stage. -/
theorem step13_main_v409 (ha : ArgsAt W x0 x1 x2 x3 x4 x5 x6 x7 x8 x9 x10 x11 x12 x13 x14 x15 x16 x17 x18 x19 x20 x21 x22 x23 x24) (hl : Live13 W x0 x1 x2 x3 x4 x5 x6 x7 x8 x9 x10 x11 x12 x13 x14 x15 x16 x17 x18 x19 x20 x21 x22 x23 x24) :
    after c13 W (Proc.devRef .tc main_v409) = val_main_v409 (F := F) x0 x1 x2 x3 x4 x5 x6 x11 x12 x13 x14 x17 x18 x19 x20 x21 x22 x24 := by
  simp only [c13]
  after_results_simp
  simp only [ha.at_main_arg24, hl.at_main_v395]
  rfl

/-- Every buffer live after the piece holds its stage. -/
theorem step13 (ha : ArgsAt W x0 x1 x2 x3 x4 x5 x6 x7 x8 x9 x10 x11 x12 x13 x14 x15 x16 x17 x18 x19 x20 x21 x22 x23 x24) (hl : Live13 W x0 x1 x2 x3 x4 x5 x6 x7 x8 x9 x10 x11 x12 x13 x14 x15 x16 x17 x18 x19 x20 x21 x22 x23 x24) : Live14 (after c13 W) x0 x1 x2 x3 x4 x5 x6 x7 x8 x9 x10 x11 x12 x13 x14 x15 x16 x17 x18 x19 x20 x21 x22 x23 x24 :=
  ⟨step13_main_v402 W x0 x1 x2 x3 x4 x5 x6 x7 x8 x9 x10 x11 x12 x13 x14 x15 x16 x17 x18 x19 x20 x21 x22 x23 x24 ha hl,
   step13_main_v409 W x0 x1 x2 x3 x4 x5 x6 x7 x8 x9 x10 x11 x12 x13 x14 x15 x16 x17 x18 x19 x20 x21 x22 x23 x24 ha hl⟩

end Cert.ReferenceIdeal.Chunks

end
-- ==== Proof.RefChunks.C14.lean ====
/- The reference program's run, read back in pieces: piece 14, operations 502 … 502 of @main's 514.
   Running the piece from contents in which the arguments hold x0 … x24 and the buffers live at operation 502 hold their stages
   leaves the arguments as they were (no operation writes one) and every buffer live at operation 503 at its stage: a buffer
   the piece does not write keeps its contents; a buffer it writes holds its operation's function of its operands' contents,
   the operands read off the same way down to the buffers written before the piece, where the hypothesis says what they hold. -/
import proofs.«154750_j39152921870699_1_alg».proof.Proof.RefChunks.Inv

noncomputable section

namespace Cert.ReferenceIdeal.Chunks

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- Operations 502 … 502 of the reference's @main, as printed. -/
abbrev c14 : List (HloOp τ sig (Elt F)) :=
  [ binary main_v402 main_v409 main_v410 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)) ]

/-- The buffers these operations write. -/
abbrev c14_W : List (Ref sig .tc) := [main_v410]

theorem c14_writes : (c14 : List (HloOp τ sig (Elt F))).Forall fun op => op.writes ⊆ (c14_W.map (Proc.devRef (τ := τ) .tc)).toFinset := by
  simp only [List.Forall]
  exact (by simp only [nullary_writes, unary_writes, binary_writes, ternary_writes, quaternary_writes, reshape_writes, Finset.singleton_subset_iff, List.mem_toFinset]; exact List.mem_map_of_mem (by decide))

variable (W : Valuation τ sig (Elt F)) (x0 : (⟨S100000x64, .f32⟩ : BufTy).Contents (Elt F)) (x1 : (⟨S50000x64, .f32⟩ : BufTy).Contents (Elt F)) (x2 : (⟨S2000x64, .f32⟩ : BufTy).Contents (Elt F)) (x3 : (⟨S5000x64, .f32⟩ : BufTy).Contents (Elt F)) (x4 : (⟨S2x6x64x64, .f32⟩ : BufTy).Contents (Elt F)) (x5 : (⟨S2x6x64, .f32⟩ : BufTy).Contents (Elt F)) (x6 : (⟨S2x6x64x64, .f32⟩ : BufTy).Contents (Elt F)) (x7 : (⟨S128x64, .f32⟩ : BufTy).Contents (Elt F)) (x8 : (⟨S64, .f32⟩ : BufTy).Contents (Elt F)) (x9 : (⟨S64x4, .f32⟩ : BufTy).Contents (Elt F)) (x10 : (⟨S4, .f32⟩ : BufTy).Contents (Elt F)) (x11 x12 x13 x14 : (⟨S2000000, .i32⟩ : BufTy).Contents (Elt F)) (x15 x16 x17 x18 : (⟨S100000, .i32⟩ : BufTy).Contents (Elt F)) (x19 x20 x21 x22 : (⟨S200000, .i32⟩ : BufTy).Contents (Elt F)) (x23 x24 : (⟨S100000, .i32⟩ : BufTy).Contents (Elt F))

/-- A buffer the piece does not write keeps its contents through it. -/
theorem c14_keep (r : Ref sig .tc) (h : r ∉ c14_W) : after c14 W (Proc.devRef .tc r) = W (Proc.devRef .tc r) :=
  after_of_writes_sub c14 W c14_writes h

/-- The arguments are as they were. -/
theorem step14_args (ha : ArgsAt W x0 x1 x2 x3 x4 x5 x6 x7 x8 x9 x10 x11 x12 x13 x14 x15 x16 x17 x18 x19 x20 x21 x22 x23 x24) : ArgsAt (after c14 W) x0 x1 x2 x3 x4 x5 x6 x7 x8 x9 x10 x11 x12 x13 x14 x15 x16 x17 x18 x19 x20 x21 x22 x23 x24 :=
  ⟨(c14_keep W main_arg0 (by decide)).trans ha.at_main_arg0,
   (c14_keep W main_arg1 (by decide)).trans ha.at_main_arg1,
   (c14_keep W main_arg2 (by decide)).trans ha.at_main_arg2,
   (c14_keep W main_arg3 (by decide)).trans ha.at_main_arg3,
   (c14_keep W main_arg4 (by decide)).trans ha.at_main_arg4,
   (c14_keep W main_arg5 (by decide)).trans ha.at_main_arg5,
   (c14_keep W main_arg6 (by decide)).trans ha.at_main_arg6,
   (c14_keep W main_arg7 (by decide)).trans ha.at_main_arg7,
   (c14_keep W main_arg8 (by decide)).trans ha.at_main_arg8,
   (c14_keep W main_arg9 (by decide)).trans ha.at_main_arg9,
   (c14_keep W main_arg10 (by decide)).trans ha.at_main_arg10,
   (c14_keep W main_arg11 (by decide)).trans ha.at_main_arg11,
   (c14_keep W main_arg12 (by decide)).trans ha.at_main_arg12,
   (c14_keep W main_arg13 (by decide)).trans ha.at_main_arg13,
   (c14_keep W main_arg14 (by decide)).trans ha.at_main_arg14,
   (c14_keep W main_arg15 (by decide)).trans ha.at_main_arg15,
   (c14_keep W main_arg16 (by decide)).trans ha.at_main_arg16,
   (c14_keep W main_arg17 (by decide)).trans ha.at_main_arg17,
   (c14_keep W main_arg18 (by decide)).trans ha.at_main_arg18,
   (c14_keep W main_arg19 (by decide)).trans ha.at_main_arg19,
   (c14_keep W main_arg20 (by decide)).trans ha.at_main_arg20,
   (c14_keep W main_arg21 (by decide)).trans ha.at_main_arg21,
   (c14_keep W main_arg22 (by decide)).trans ha.at_main_arg22,
   (c14_keep W main_arg23 (by decide)).trans ha.at_main_arg23,
   (c14_keep W main_arg24 (by decide)).trans ha.at_main_arg24⟩

set_option maxHeartbeats 2000000 in
/-- `main_v410` after the piece: its stage. -/
theorem step14_main_v410 (ha : ArgsAt W x0 x1 x2 x3 x4 x5 x6 x7 x8 x9 x10 x11 x12 x13 x14 x15 x16 x17 x18 x19 x20 x21 x22 x23 x24) (hl : Live14 W x0 x1 x2 x3 x4 x5 x6 x7 x8 x9 x10 x11 x12 x13 x14 x15 x16 x17 x18 x19 x20 x21 x22 x23 x24) :
    after c14 W (Proc.devRef .tc main_v410) = val_main_v410 (F := F) x0 x1 x2 x3 x4 x5 x6 x11 x12 x13 x14 x15 x16 x17 x18 x19 x20 x21 x22 x23 x24 := by
  simp only [c14]
  after_results_simp
  rw [hl.at_main_v409, hl.at_main_v402] <;> rfl

/-- Every buffer live after the piece holds its stage. -/
theorem step14 (ha : ArgsAt W x0 x1 x2 x3 x4 x5 x6 x7 x8 x9 x10 x11 x12 x13 x14 x15 x16 x17 x18 x19 x20 x21 x22 x23 x24) (hl : Live14 W x0 x1 x2 x3 x4 x5 x6 x7 x8 x9 x10 x11 x12 x13 x14 x15 x16 x17 x18 x19 x20 x21 x22 x23 x24) : Live15 (after c14 W) x0 x1 x2 x3 x4 x5 x6 x7 x8 x9 x10 x11 x12 x13 x14 x15 x16 x17 x18 x19 x20 x21 x22 x23 x24 :=
  ⟨step14_main_v410 W x0 x1 x2 x3 x4 x5 x6 x7 x8 x9 x10 x11 x12 x13 x14 x15 x16 x17 x18 x19 x20 x21 x22 x23 x24 ha hl⟩

end Cert.ReferenceIdeal.Chunks

end
-- ==== Proof.RefChunks.C15.lean ====
/- The reference program's run, read back in pieces: piece 15, operations 503 … 513 of @main's 514.
   Running the piece from contents in which the arguments hold x0 … x24 and the buffers live at operation 503 hold their stages
   leaves the arguments as they were (no operation writes one) and every buffer live at operation 514 at its stage: a buffer
   the piece does not write keeps its contents; a buffer it writes holds its operation's function of its operands' contents,
   the operands read off the same way down to the buffers written before the piece, where the hypothesis says what they hold. -/
import proofs.«154750_j39152921870699_1_alg».proof.Proof.RefChunks.Inv

noncomputable section

namespace Cert.ReferenceIdeal.Chunks

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- Operations 503 … 513 of the reference's @main, as printed. -/
abbrev c15 : List (HloOp τ sig (Elt F)) :=
  [ binary main_v410 main_arg7 main_v411 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg8 main_v412 (broadcastInDim S1x64 ![1] bcast_S64_S1x64_1 : (⟨S64, .f32⟩ : BufTy).Contents (Elt F) → (⟨S1x64, .f32⟩ : BufTy).Contents (Elt F)),
    unary main_v412 main_v413 (broadcastInDim S100000x64 ![0, 1] bcast_S1x64_S100000x64_0_1 : (⟨S1x64, .f32⟩ : BufTy).Contents (Elt F) → (⟨S100000x64, .f32⟩ : BufTy).Contents (Elt F)),
    binary main_v411 main_v413 main_v414 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S100000x64, .f32⟩) main_call4_v0) (broadcastInDim S100000x64 ![] bcast_S_S100000x64),
    TRef.binary (TRef.of (T := ⟨S100000x64, .f32⟩) main_v414) (TRef.of (T := ⟨S100000x64, .f32⟩) main_call4_v0) (TRef.of (T := ⟨S100000x64, .f32⟩) main_v415) maximumf,
    binary main_v415 main_arg9 main_v416 ((fun l r => Host.dotGeneral dot_S100000x64_S64x4_S100000x4_1_0_0_1_n_n none l r) : (⟨S100000x64, .f32⟩ : BufTy).Contents (Elt F) → (⟨S64x4, .f32⟩ : BufTy).Contents (Elt F) → (⟨S100000x4, .f32⟩ : BufTy).Contents (Elt F)),
    unary main_arg10 main_v417 (broadcastInDim S1x4 ![1] bcast_S4_S1x4_1 : (⟨S4, .f32⟩ : BufTy).Contents (Elt F) → (⟨S1x4, .f32⟩ : BufTy).Contents (Elt F)),
    unary main_v417 main_v418 (broadcastInDim S100000x4 ![0, 1] bcast_S1x4_S100000x4_0_1 : (⟨S1x4, .f32⟩ : BufTy).Contents (Elt F) → (⟨S100000x4, .f32⟩ : BufTy).Contents (Elt F)),
    binary main_v416 main_v418 main_v419 (addf : (⟨S100000x4, .f32⟩ : BufTy).Contents (Elt F) → (⟨S100000x4, .f32⟩ : BufTy).Contents (Elt F) → (⟨S100000x4, .f32⟩ : BufTy).Contents (Elt F)) ]

/-- The buffers these operations write. -/
abbrev c15_W : List (Ref sig .tc) := [main_v411, main_v412, main_v413, main_v414, main_call4_cst, main_call4_v0, main_v415, main_v416, main_v417, main_v418, main_v419]

theorem c15_writes : (c15 : List (HloOp τ sig (Elt F))).Forall fun op => op.writes ⊆ (c15_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

variable (W : Valuation τ sig (Elt F)) (x0 : (⟨S100000x64, .f32⟩ : BufTy).Contents (Elt F)) (x1 : (⟨S50000x64, .f32⟩ : BufTy).Contents (Elt F)) (x2 : (⟨S2000x64, .f32⟩ : BufTy).Contents (Elt F)) (x3 : (⟨S5000x64, .f32⟩ : BufTy).Contents (Elt F)) (x4 : (⟨S2x6x64x64, .f32⟩ : BufTy).Contents (Elt F)) (x5 : (⟨S2x6x64, .f32⟩ : BufTy).Contents (Elt F)) (x6 : (⟨S2x6x64x64, .f32⟩ : BufTy).Contents (Elt F)) (x7 : (⟨S128x64, .f32⟩ : BufTy).Contents (Elt F)) (x8 : (⟨S64, .f32⟩ : BufTy).Contents (Elt F)) (x9 : (⟨S64x4, .f32⟩ : BufTy).Contents (Elt F)) (x10 : (⟨S4, .f32⟩ : BufTy).Contents (Elt F)) (x11 x12 x13 x14 : (⟨S2000000, .i32⟩ : BufTy).Contents (Elt F)) (x15 x16 x17 x18 : (⟨S100000, .i32⟩ : BufTy).Contents (Elt F)) (x19 x20 x21 x22 : (⟨S200000, .i32⟩ : BufTy).Contents (Elt F)) (x23 x24 : (⟨S100000, .i32⟩ : BufTy).Contents (Elt F))

/-- A buffer the piece does not write keeps its contents through it. -/
theorem c15_keep (r : Ref sig .tc) (h : r ∉ c15_W) : after c15 W (Proc.devRef .tc r) = W (Proc.devRef .tc r) :=
  after_of_writes_sub c15 W c15_writes h

/-- The arguments are as they were. -/
theorem step15_args (ha : ArgsAt W x0 x1 x2 x3 x4 x5 x6 x7 x8 x9 x10 x11 x12 x13 x14 x15 x16 x17 x18 x19 x20 x21 x22 x23 x24) : ArgsAt (after c15 W) x0 x1 x2 x3 x4 x5 x6 x7 x8 x9 x10 x11 x12 x13 x14 x15 x16 x17 x18 x19 x20 x21 x22 x23 x24 :=
  ⟨(c15_keep W main_arg0 (by decide)).trans ha.at_main_arg0,
   (c15_keep W main_arg1 (by decide)).trans ha.at_main_arg1,
   (c15_keep W main_arg2 (by decide)).trans ha.at_main_arg2,
   (c15_keep W main_arg3 (by decide)).trans ha.at_main_arg3,
   (c15_keep W main_arg4 (by decide)).trans ha.at_main_arg4,
   (c15_keep W main_arg5 (by decide)).trans ha.at_main_arg5,
   (c15_keep W main_arg6 (by decide)).trans ha.at_main_arg6,
   (c15_keep W main_arg7 (by decide)).trans ha.at_main_arg7,
   (c15_keep W main_arg8 (by decide)).trans ha.at_main_arg8,
   (c15_keep W main_arg9 (by decide)).trans ha.at_main_arg9,
   (c15_keep W main_arg10 (by decide)).trans ha.at_main_arg10,
   (c15_keep W main_arg11 (by decide)).trans ha.at_main_arg11,
   (c15_keep W main_arg12 (by decide)).trans ha.at_main_arg12,
   (c15_keep W main_arg13 (by decide)).trans ha.at_main_arg13,
   (c15_keep W main_arg14 (by decide)).trans ha.at_main_arg14,
   (c15_keep W main_arg15 (by decide)).trans ha.at_main_arg15,
   (c15_keep W main_arg16 (by decide)).trans ha.at_main_arg16,
   (c15_keep W main_arg17 (by decide)).trans ha.at_main_arg17,
   (c15_keep W main_arg18 (by decide)).trans ha.at_main_arg18,
   (c15_keep W main_arg19 (by decide)).trans ha.at_main_arg19,
   (c15_keep W main_arg20 (by decide)).trans ha.at_main_arg20,
   (c15_keep W main_arg21 (by decide)).trans ha.at_main_arg21,
   (c15_keep W main_arg22 (by decide)).trans ha.at_main_arg22,
   (c15_keep W main_arg23 (by decide)).trans ha.at_main_arg23,
   (c15_keep W main_arg24 (by decide)).trans ha.at_main_arg24⟩

set_option maxHeartbeats 2000000 in
/-- `main_v419` after the piece: its stage. -/
theorem step15_main_v419 (ha : ArgsAt W x0 x1 x2 x3 x4 x5 x6 x7 x8 x9 x10 x11 x12 x13 x14 x15 x16 x17 x18 x19 x20 x21 x22 x23 x24) (hl : Live15 W x0 x1 x2 x3 x4 x5 x6 x7 x8 x9 x10 x11 x12 x13 x14 x15 x16 x17 x18 x19 x20 x21 x22 x23 x24) :
    after c15 W (Proc.devRef .tc main_v419) = val_main_v419 (F := F) x0 x1 x2 x3 x4 x5 x6 x7 x8 x9 x10 x11 x12 x13 x14 x15 x16 x17 x18 x19 x20 x21 x22 x23 x24 := by
  simp only [c15]
  after_results_simp
  simp only [ha.at_main_arg10, ha.at_main_arg9, ha.at_main_arg8, ha.at_main_arg7, hl.at_main_v410]
  rfl

/-- Every buffer live after the piece holds its stage. -/
theorem step15 (ha : ArgsAt W x0 x1 x2 x3 x4 x5 x6 x7 x8 x9 x10 x11 x12 x13 x14 x15 x16 x17 x18 x19 x20 x21 x22 x23 x24) (hl : Live15 W x0 x1 x2 x3 x4 x5 x6 x7 x8 x9 x10 x11 x12 x13 x14 x15 x16 x17 x18 x19 x20 x21 x22 x23 x24) : Live16 (after c15 W) x0 x1 x2 x3 x4 x5 x6 x7 x8 x9 x10 x11 x12 x13 x14 x15 x16 x17 x18 x19 x20 x21 x22 x23 x24 :=
  ⟨step15_main_v419 W x0 x1 x2 x3 x4 x5 x6 x7 x8 x9 x10 x11 x12 x13 x14 x15 x16 x17 x18 x19 x20 x21 x22 x23 x24 ha hl⟩

end Cert.ReferenceIdeal.Chunks

end
-- ==== Proof.RefValue.lean ====
/- The reference program's run, read back.
   `run_after` (the run module) leaves every buffer of every core at `StableHlo.after ops` of its launch contents. Here that fold
   is read at the result buffer and at the 25 argument buffers. @main's 514 operations write each buffer once, so a buffer's
   final contents are its operation's function of its operands' final contents — the stage `val_‹buffer›` of the arguments
   (one definition per operation, each its operation applied to earlier stages). The operation list is cut into 16 consecutive
   pieces where few buffers are live; each piece's module proves that running the piece carries "the arguments hold x0 … x24
   and every live buffer holds its stage" from its first operation to its last; here the pieces are joined:
   `ops = c0 ++ (c1 ++ … ++ c15)` (the same 514 operations, listed twice), `after` of an append is `after` twice, and the
   16 steps compose. No operation writes an argument, so the arguments end as they began. -/
import proofs.«154750_j39152921870699_1_alg».proof.Proof.RefRun
import proofs.«154750_j39152921870699_1_alg».proof.Proof.RefChunks.C0
import proofs.«154750_j39152921870699_1_alg».proof.Proof.RefChunks.C1
import proofs.«154750_j39152921870699_1_alg».proof.Proof.RefChunks.C2
import proofs.«154750_j39152921870699_1_alg».proof.Proof.RefChunks.C3
import proofs.«154750_j39152921870699_1_alg».proof.Proof.RefChunks.C4
import proofs.«154750_j39152921870699_1_alg».proof.Proof.RefChunks.C5
import proofs.«154750_j39152921870699_1_alg».proof.Proof.RefChunks.C6
import proofs.«154750_j39152921870699_1_alg».proof.Proof.RefChunks.C7
import proofs.«154750_j39152921870699_1_alg».proof.Proof.RefChunks.C8
import proofs.«154750_j39152921870699_1_alg».proof.Proof.RefChunks.C9
import proofs.«154750_j39152921870699_1_alg».proof.Proof.RefChunks.C10
import proofs.«154750_j39152921870699_1_alg».proof.Proof.RefChunks.C11
import proofs.«154750_j39152921870699_1_alg».proof.Proof.RefChunks.C12
import proofs.«154750_j39152921870699_1_alg».proof.Proof.RefChunks.C13
import proofs.«154750_j39152921870699_1_alg».proof.Proof.RefChunks.C14
import proofs.«154750_j39152921870699_1_alg».proof.Proof.RefChunks.C15
import proofs.«154750_j39152921870699_1_alg».proof.Defs
import proofs.«154750_j39152921870699_1_alg».proof.Proof.Gen.Pre_finite_inputs

noncomputable section

namespace Cert.ReferenceIdeal.Value

open Cert.ReferenceIdeal Cert.ReferenceIdeal.Gen Cert.ReferenceIdeal.Read Cert.ReferenceIdeal.Chunks Idealize.ShloMosaic Idealize.ShloMosaic.TcCoe Idealize.SL.Sem Idealize.ShloMosaic.StableHlo

variable {F : FTy → Type} [FloatOps F]

/-- Running two lines in a row is running their concatenation. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

set_option maxRecDepth 16384 in
/-- The 16 pieces, in order, are @main's operation list. -/
theorem ops_eq_pieces : (ops : List (HloOp τ sig (Elt F))) = c0 ++ (c1 ++ (c2 ++ (c3 ++ (c4 ++ (c5 ++ (c6 ++ (c7 ++ (c8 ++ (c9 ++ (c10 ++ (c11 ++ (c12 ++ (c13 ++ (c14 ++ (c15))))))))))))))) := rfl

/-- The whole line from contents `V0` in which the arguments hold `x0 … x24`: the arguments are as they were and the result
    buffer holds its stage. -/
theorem after_ops (V0 : Valuation τ sig (Elt F)) (x0 : (⟨S100000x64, .f32⟩ : BufTy).Contents (Elt F)) (x1 : (⟨S50000x64, .f32⟩ : BufTy).Contents (Elt F)) (x2 : (⟨S2000x64, .f32⟩ : BufTy).Contents (Elt F)) (x3 : (⟨S5000x64, .f32⟩ : BufTy).Contents (Elt F)) (x4 : (⟨S2x6x64x64, .f32⟩ : BufTy).Contents (Elt F)) (x5 : (⟨S2x6x64, .f32⟩ : BufTy).Contents (Elt F)) (x6 : (⟨S2x6x64x64, .f32⟩ : BufTy).Contents (Elt F)) (x7 : (⟨S128x64, .f32⟩ : BufTy).Contents (Elt F)) (x8 : (⟨S64, .f32⟩ : BufTy).Contents (Elt F)) (x9 : (⟨S64x4, .f32⟩ : BufTy).Contents (Elt F)) (x10 : (⟨S4, .f32⟩ : BufTy).Contents (Elt F)) (x11 x12 x13 x14 : (⟨S2000000, .i32⟩ : BufTy).Contents (Elt F)) (x15 x16 x17 x18 : (⟨S100000, .i32⟩ : BufTy).Contents (Elt F)) (x19 x20 x21 x22 : (⟨S200000, .i32⟩ : BufTy).Contents (Elt F)) (x23 x24 : (⟨S100000, .i32⟩ : BufTy).Contents (Elt F))
    (ha : ArgsAt V0 x0 x1 x2 x3 x4 x5 x6 x7 x8 x9 x10 x11 x12 x13 x14 x15 x16 x17 x18 x19 x20 x21 x22 x23 x24) :
    ArgsAt (after ops V0) x0 x1 x2 x3 x4 x5 x6 x7 x8 x9 x10 x11 x12 x13 x14 x15 x16 x17 x18 x19 x20 x21 x22 x23 x24 ∧ Live16 (after ops V0) x0 x1 x2 x3 x4 x5 x6 x7 x8 x9 x10 x11 x12 x13 x14 x15 x16 x17 x18 x19 x20 x21 x22 x23 x24 := by
  rw [ops_eq_pieces]
  simp only [after_app]
  have a1 := step0_args V0 x0 x1 x2 x3 x4 x5 x6 x7 x8 x9 x10 x11 x12 x13 x14 x15 x16 x17 x18 x19 x20 x21 x22 x23 x24 ha
  have l1 := step0 V0 x0 x1 x2 x3 x4 x5 x6 x7 x8 x9 x10 x11 x12 x13 x14 x15 x16 x17 x18 x19 x20 x21 x22 x23 x24 ha
  have a2 := step1_args _ x0 x1 x2 x3 x4 x5 x6 x7 x8 x9 x10 x11 x12 x13 x14 x15 x16 x17 x18 x19 x20 x21 x22 x23 x24 a1
  have l2 := step1 _ x0 x1 x2 x3 x4 x5 x6 x7 x8 x9 x10 x11 x12 x13 x14 x15 x16 x17 x18 x19 x20 x21 x22 x23 x24 a1 l1
  have a3 := step2_args _ x0 x1 x2 x3 x4 x5 x6 x7 x8 x9 x10 x11 x12 x13 x14 x15 x16 x17 x18 x19 x20 x21 x22 x23 x24 a2
  have l3 := step2 _ x0 x1 x2 x3 x4 x5 x6 x7 x8 x9 x10 x11 x12 x13 x14 x15 x16 x17 x18 x19 x20 x21 x22 x23 x24 a2 l2
  have a4 := step3_args _ x0 x1 x2 x3 x4 x5 x6 x7 x8 x9 x10 x11 x12 x13 x14 x15 x16 x17 x18 x19 x20 x21 x22 x23 x24 a3
  have l4 := step3 _ x0 x1 x2 x3 x4 x5 x6 x7 x8 x9 x10 x11 x12 x13 x14 x15 x16 x17 x18 x19 x20 x21 x22 x23 x24 a3 l3
  have a5 := step4_args _ x0 x1 x2 x3 x4 x5 x6 x7 x8 x9 x10 x11 x12 x13 x14 x15 x16 x17 x18 x19 x20 x21 x22 x23 x24 a4
  have l5 := step4 _ x0 x1 x2 x3 x4 x5 x6 x7 x8 x9 x10 x11 x12 x13 x14 x15 x16 x17 x18 x19 x20 x21 x22 x23 x24 a4 l4
  have a6 := step5_args _ x0 x1 x2 x3 x4 x5 x6 x7 x8 x9 x10 x11 x12 x13 x14 x15 x16 x17 x18 x19 x20 x21 x22 x23 x24 a5
  have l6 := step5 _ x0 x1 x2 x3 x4 x5 x6 x7 x8 x9 x10 x11 x12 x13 x14 x15 x16 x17 x18 x19 x20 x21 x22 x23 x24 a5 l5
  have a7 := step6_args _ x0 x1 x2 x3 x4 x5 x6 x7 x8 x9 x10 x11 x12 x13 x14 x15 x16 x17 x18 x19 x20 x21 x22 x23 x24 a6
  have l7 := step6 _ x0 x1 x2 x3 x4 x5 x6 x7 x8 x9 x10 x11 x12 x13 x14 x15 x16 x17 x18 x19 x20 x21 x22 x23 x24 a6 l6
  have a8 := step7_args _ x0 x1 x2 x3 x4 x5 x6 x7 x8 x9 x10 x11 x12 x13 x14 x15 x16 x17 x18 x19 x20 x21 x22 x23 x24 a7
  have l8 := step7 _ x0 x1 x2 x3 x4 x5 x6 x7 x8 x9 x10 x11 x12 x13 x14 x15 x16 x17 x18 x19 x20 x21 x22 x23 x24 a7 l7
  have a9 := step8_args _ x0 x1 x2 x3 x4 x5 x6 x7 x8 x9 x10 x11 x12 x13 x14 x15 x16 x17 x18 x19 x20 x21 x22 x23 x24 a8
  have l9 := step8 _ x0 x1 x2 x3 x4 x5 x6 x7 x8 x9 x10 x11 x12 x13 x14 x15 x16 x17 x18 x19 x20 x21 x22 x23 x24 a8 l8
  have a10 := step9_args _ x0 x1 x2 x3 x4 x5 x6 x7 x8 x9 x10 x11 x12 x13 x14 x15 x16 x17 x18 x19 x20 x21 x22 x23 x24 a9
  have l10 := step9 _ x0 x1 x2 x3 x4 x5 x6 x7 x8 x9 x10 x11 x12 x13 x14 x15 x16 x17 x18 x19 x20 x21 x22 x23 x24 a9 l9
  have a11 := step10_args _ x0 x1 x2 x3 x4 x5 x6 x7 x8 x9 x10 x11 x12 x13 x14 x15 x16 x17 x18 x19 x20 x21 x22 x23 x24 a10
  have l11 := step10 _ x0 x1 x2 x3 x4 x5 x6 x7 x8 x9 x10 x11 x12 x13 x14 x15 x16 x17 x18 x19 x20 x21 x22 x23 x24 a10 l10
  have a12 := step11_args _ x0 x1 x2 x3 x4 x5 x6 x7 x8 x9 x10 x11 x12 x13 x14 x15 x16 x17 x18 x19 x20 x21 x22 x23 x24 a11
  have l12 := step11 _ x0 x1 x2 x3 x4 x5 x6 x7 x8 x9 x10 x11 x12 x13 x14 x15 x16 x17 x18 x19 x20 x21 x22 x23 x24 a11 l11
  have a13 := step12_args _ x0 x1 x2 x3 x4 x5 x6 x7 x8 x9 x10 x11 x12 x13 x14 x15 x16 x17 x18 x19 x20 x21 x22 x23 x24 a12
  have l13 := step12 _ x0 x1 x2 x3 x4 x5 x6 x7 x8 x9 x10 x11 x12 x13 x14 x15 x16 x17 x18 x19 x20 x21 x22 x23 x24 a12 l12
  have a14 := step13_args _ x0 x1 x2 x3 x4 x5 x6 x7 x8 x9 x10 x11 x12 x13 x14 x15 x16 x17 x18 x19 x20 x21 x22 x23 x24 a13
  have l14 := step13 _ x0 x1 x2 x3 x4 x5 x6 x7 x8 x9 x10 x11 x12 x13 x14 x15 x16 x17 x18 x19 x20 x21 x22 x23 x24 a13 l13
  have a15 := step14_args _ x0 x1 x2 x3 x4 x5 x6 x7 x8 x9 x10 x11 x12 x13 x14 x15 x16 x17 x18 x19 x20 x21 x22 x23 x24 a14
  have l15 := step14 _ x0 x1 x2 x3 x4 x5 x6 x7 x8 x9 x10 x11 x12 x13 x14 x15 x16 x17 x18 x19 x20 x21 x22 x23 x24 a14 l14
  have a16 := step15_args _ x0 x1 x2 x3 x4 x5 x6 x7 x8 x9 x10 x11 x12 x13 x14 x15 x16 x17 x18 x19 x20 x21 x22 x23 x24 a15
  have l16 := step15 _ x0 x1 x2 x3 x4 x5 x6 x7 x8 x9 x10 x11 x12 x13 x14 x15 x16 x17 x18 x19 x20 x21 x22 x23 x24 a15 l15
  exact ⟨a16, l16⟩

/-- On every device, at the ideal instance, from any memory with zero counters: every weakly fair execution of the
    reference's @main terminates with the result buffer at its last stage of the arguments' launch contents, and the
    arguments unchanged. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v419) = val_main_v419 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24) :=
  (θ_run defs _ _).mono (fun _ h c => by
    obtain ⟨ha, hl⟩ := after_ops (F := Ideal) (launchContents m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24))
      ⟨rfl, rfl, rfl, rfl, rfl, rfl, rfl, rfl, rfl, rfl, rfl, rfl, rfl, rfl, rfl, rfl, rfl, rfl, rfl, rfl, rfl, rfl, rfl, rfl, rfl⟩
    exact ⟨(h c main_v419).trans hl.at_main_v419,
      (h c main_arg0).trans ha.at_main_arg0,
      (h c main_arg1).trans ha.at_main_arg1,
      (h c main_arg2).trans ha.at_main_arg2,
      (h c main_arg3).trans ha.at_main_arg3,
      (h c main_arg4).trans ha.at_main_arg4,
      (h c main_arg5).trans ha.at_main_arg5,
      (h c main_arg6).trans ha.at_main_arg6,
      (h c main_arg7).trans ha.at_main_arg7,
      (h c main_arg8).trans ha.at_main_arg8,
      (h c main_arg9).trans ha.at_main_arg9,
      (h c main_arg10).trans ha.at_main_arg10,
      (h c main_arg11).trans ha.at_main_arg11,
      (h c main_arg12).trans ha.at_main_arg12,
      (h c main_arg13).trans ha.at_main_arg13,
      (h c main_arg14).trans ha.at_main_arg14,
      (h c main_arg15).trans ha.at_main_arg15,
      (h c main_arg16).trans ha.at_main_arg16,
      (h c main_arg17).trans ha.at_main_arg17,
      (h c main_arg18).trans ha.at_main_arg18,
      (h c main_arg19).trans ha.at_main_arg19,
      (h c main_arg20).trans ha.at_main_arg20,
      (h c main_arg21).trans ha.at_main_arg21,
      (h c main_arg22).trans ha.at_main_arg22,
      (h c main_arg23).trans ha.at_main_arg23,
      (h c main_arg24).trans ha.at_main_arg24⟩)
    (run_after (F := Ideal) m ρ)

/-- The reference runs and its argument arrays end unchanged. -/
theorem frame_ref : Cert.frame_ReferenceIdeal :=
  fun m ρ _ => (θ_run Cert.ReferenceIdeal.defs _ _).mono (fun _ h c => (h c).2) (run_value m ρ)

end Cert.ReferenceIdeal.Value

end
-- ==== Proof.lean ====
/- The claim has five parts.  The word-level kernel program and its idealization are each a chain of 17 stretches of host
   operations and 9 tiled regions; from any memory with zero counters each runs to its end, nothing faulting, and leaves its
   25 argument arrays as launched (Proof/KB/Run.lean and Proof/KI/Run.lean: the buffers' contents at the 27 boundaries, each
   region as a segment over its tiles' data, no segment writing an argument).  The reference is one line of host operations:
   it runs and leaves its arguments as launched (Proof/RefValue.lean).  The idealization rewrote no operation, so nothing is
   owed for it.  At the ideal instance, from memories that agree on the arguments, the kernel's result buffer and the
   reference's end at the same array: the kernel's last boundary holds there the reference's last stage of the arguments
   (Proof/Value.lean), the reference ends at that stage of its own arguments (Proof/RefValue.lean), and Proof/Assemble.lean
   puts the two runs side by side. -/
import proofs.«154750_j39152921870699_1_alg».proof.Defs
import proofs.«154750_j39152921870699_1_alg».proof.Proof.Gen.Kernel
import proofs.«154750_j39152921870699_1_alg».proof.Proof.Gen.Kernel.Skeleton
import proofs.«154750_j39152921870699_1_alg».proof.Proof.Gen.Kernel.Launch
import proofs.«154750_j39152921870699_1_alg».proof.Proof.Gen.Kernel.Regions
import proofs.«154750_j39152921870699_1_alg».proof.Proof.Gen.Kernel.Points
import proofs.«154750_j39152921870699_1_alg».proof.Proof.Gen.KernelIdeal
import proofs.«154750_j39152921870699_1_alg».proof.Proof.Gen.KernelIdeal.Skeleton
import proofs.«154750_j39152921870699_1_alg».proof.Proof.Gen.KernelIdeal.Launch
import proofs.«154750_j39152921870699_1_alg».proof.Proof.Gen.KernelIdeal.Regions
import proofs.«154750_j39152921870699_1_alg».proof.Proof.Gen.KernelIdeal.Points
import proofs.«154750_j39152921870699_1_alg».proof.Proof.Gen.ReferenceIdeal
import proofs.«154750_j39152921870699_1_alg».proof.Proof.Gen.Pre_finite_inputs
import proofs.«154750_j39152921870699_1_alg».proof.Proof.KB.Run
import proofs.«154750_j39152921870699_1_alg».proof.Proof.KI.Run
import proofs.«154750_j39152921870699_1_alg».proof.Proof.Assemble
import proofs.«154750_j39152921870699_1_alg».proof.Proof.Value
import proofs.«154750_j39152921870699_1_alg».proof.Proof.RefValue
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame m ρ,
    fun m ρ _ => Cert.KernelIdeal.Hand.frame m ρ,
    Cert.ReferenceIdeal.Value.frame_ref,
    trivial,
    algebraic_of Cert.KernelIdeal.Hand.result_value Cert.ReferenceIdeal.Value.run_value⟩

end Cert.Proof

end
